-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)) →
    ∃ (v0 : (c : Dev Cert.KernelIdeal.nD) → Buf (Elt Ideal) ((c.tc : Thread Cert.KernelIdeal.nD Cert.KernelIdeal.τ).loc Cert.KernelIdeal.main_v101)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v101) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v186) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x5 : Shape := ⟨2, ![50000, 5]⟩
abbrev S2x800000 : Shape := ⟨2, ![2, 800000]⟩
abbrev S5x32 : Shape := ⟨2, ![5, 32]⟩
abbrev S32 : Shape := ⟨1, ![32]⟩
abbrev S32x64 : Shape := ⟨2, ![32, 64]⟩
abbrev S64 : Shape := ⟨1, ![64]⟩
abbrev S64x128 : Shape := ⟨2, ![64, 128]⟩
abbrev S128 : Shape := ⟨1, ![128]⟩
abbrev S128x64 : Shape := ⟨2, ![128, 64]⟩
abbrev S64x32 : Shape := ⟨2, ![64, 32]⟩
abbrev S32x16 : Shape := ⟨2, ![32, 16]⟩
abbrev S16 : Shape := ⟨1, ![16]⟩
abbrev S16x2 : Shape := ⟨2, ![16, 2]⟩
abbrev S2 : Shape := ⟨1, ![2]⟩
abbrev S_ : Shape := ⟨0, ![]⟩

class Facts : Prop where
  bcast_S_S50000x5 : S_.BroadcastsInDim S50000x5 (![] : Fin 0 → Fin S50000x5.rank)
  reducesTo_S50000x5_S_d0_1 : S50000x5.ReducesTo [0, 1] S_
  h_S_ : 0 < S_.numel
  bcast_S_S5x32 : S_.BroadcastsInDim S5x32 (![] : Fin 0 → Fin S5x32.rank)
  reducesTo_S5x32_S_d0_1 : S5x32.ReducesTo [0, 1] S_
  bcast_S_S32 : S_.BroadcastsInDim S32 (![] : Fin 0 → Fin S32.rank)
  reducesTo_S32_S_d0 : S32.ReducesTo [0] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64x32 : S_.BroadcastsInDim S64x32 (![] : Fin 0 → Fin S64x32.rank)
  reducesTo_S64x32_S_d0_1 : S64x32.ReducesTo [0, 1] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S16x2 : S_.BroadcastsInDim S16x2 (![] : Fin 0 → Fin S16x2.rank)
  reducesTo_S16x2_S_d0_1 : S16x2.ReducesTo [0, 1] S_
  bcast_S_S2 : S_.BroadcastsInDim S2 (![] : Fin 0 → Fin S2.rank)
  reducesTo_S2_S_d0 : S2.ReducesTo [0] S_

variable [Facts]

def fn_part8 {F : FTy → Type} [FloatOps F] (main_arg29 : FVec F S2 .f32) (main_v133 : IVec S_ 1) (main_v136 : IVec S16x2 1) : IVec S_ 1 :=
  let main_c_53 : IVec S_ 1 := constantI S_ 1 1#1
  let main_v137 : IVec S_ 1 := (fun x v => Host.reduce IntOp.andi x v reducesTo_S16x2_S_d0_1 h_S_) main_v136 main_c_53
  let main_v138 : IVec S_ 1 := andi main_v133 main_v137
  let main_v139 : FVec F S2 .f32 := Host.absf main_arg29
  let main_cst_54 : FVec F S_ .f32 := constant S_ .f32 0x7F800000#32
  let main_v140 : FVec F S2 .f32 := broadcastInDim S2 ![] bcast_S_S2 main_cst_54
  let main_v141 : IVec S2 1 := cmpf .olt main_v139 main_v140
  let main_c_55 : IVec S_ 1 := constantI S_ 1 1#1
  let main_v142 : IVec S_ 1 := (fun x v => Host.reduce IntOp.andi x v reducesTo_S2_S_d0 h_S_) main_v141 main_c_55
  let main_v143 : IVec S_ 1 := andi main_v138 main_v142
  main_v143

def fn_part7 {F : FTy → Type} [FloatOps F] (main_arg26 : FVec F S32x16 .f32) (main_arg27 : FVec F S16 .f32) (main_arg28 : FVec F S16x2 .f32) (main_arg29 : FVec F S2 .f32) (main_v118 : IVec S_ 1) (main_v119 : FVec F S32 .f32) : IVec S_ 1 :=
  let main_cst_46 : FVec F S_ .f32 := constant S_ .f32 0x7F800000#32
  let main_v120 : FVec F S32 .f32 := broadcastInDim S32 ![] bcast_S_S32 main_cst_46
  let main_v121 : IVec S32 1 := cmpf .olt main_v119 main_v120
  let main_c_47 : IVec S_ 1 := constantI S_ 1 1#1
  let main_v122 : IVec S_ 1 := (fun x v => Host.reduce IntOp.andi x v reducesTo_S32_S_d0 h_S_) main_v121 main_c_47
  let main_v123 : IVec S_ 1 := andi main_v118 main_v122
  let main_v124 : FVec F S32x16 .f32 := Host.absf main_arg26
  let main_cst_48 : FVec F S_ .f32 := constant S_ .f32 0x7F800000#32
  let main_v125 : FVec F S32x16 .f32 := broadcastInDim S32x16 ![] bcast_S_S32x16 main_cst_48
  let main_v126 : IVec S32x16 1 := cmpf .olt main_v124 main_v125
  let main_c_49 : IVec S_ 1 := constantI S_ 1 1#1
  let main_v127 : IVec S_ 1 := (fun x v => Host.reduce IntOp.andi x v reducesTo_S32x16_S_d0_1 h_S_) main_v126 main_c_49
  let main_v128 : IVec S_ 1 := andi main_v123 main_v127
  let main_v129 : FVec F S16 .f32 := Host.absf main_arg27
  let main_cst_50 : FVec F S_ .f32 := constant S_ .f32 0x7F800000#32
  let main_v130 : FVec F S16 .f32 := broadcastInDim S16 ![] bcast_S_S16 main_cst_50
  let main_v131 : IVec S16 1 := cmpf .olt main_v129 main_v130
  let main_c_51 : IVec S_ 1 := constantI S_ 1 1#1
  let main_v132 : IVec S_ 1 := (fun x v => Host.reduce IntOp.andi x v reducesTo_S16_S_d0 h_S_) main_v131 main_c_51
  let main_v133 : IVec S_ 1 := andi main_v128 main_v132
  let main_v134 : FVec F S16x2 .f32 := Host.absf main_arg28
  let main_cst_52 : FVec F S_ .f32 := constant S_ .f32 0x7F800000#32
  let main_v135 : FVec F S16x2 .f32 := broadcastInDim S16x2 ![] bcast_S_S16x2 main_cst_52
  let main_v136 : IVec S16x2 1 := cmpf .olt main_v134 main_v135
  fn_part8 (F := F) main_arg29 main_v133 main_v136

def fn_part6 {F : FTy → Type} [FloatOps F] (main_arg22 : FVec F S32 .f32) (main_arg23 : FVec F S64x32 .f32) (main_arg24 : FVec F S32 .f32) (main_arg25 : FVec F S32 .f32) (main_arg26 : FVec F S32x16 .f32) (main_arg27 : FVec F S16 .f32) (main_arg28 : FVec F S16x2 .f32) (main_arg29 : FVec F S2 .f32) (main_v98 : IVec S_ 1) (main_v101 : IVec S64x32 1) (main_c_39 : IVec S_ 1) : IVec S_ 1 :=
  let main_v102 : IVec S_ 1 := (fun x v => Host.reduce IntOp.andi x v reducesTo_S64x32_S_d0_1 h_S_) main_v101 main_c_39
  let main_v103 : IVec S_ 1 := andi main_v98 main_v102
  let main_v104 : FVec F S32 .f32 := Host.absf main_arg22
  let main_cst_40 : FVec F S_ .f32 := constant S_ .f32 0x7F800000#32
  let main_v105 : FVec F S32 .f32 := broadcastInDim S32 ![] bcast_S_S32 main_cst_40
  let main_v106 : IVec S32 1 := cmpf .olt main_v104 main_v105
  let main_c_41 : IVec S_ 1 := constantI S_ 1 1#1
  let main_v107 : IVec S_ 1 := (fun x v => Host.reduce IntOp.andi x v reducesTo_S32_S_d0 h_S_) main_v106 main_c_41
  let main_v108 : IVec S_ 1 := andi main_v103 main_v107
  let main_v109 : FVec F S64x32 .f32 := Host.absf main_arg23
  let main_cst_42 : FVec F S_ .f32 := constant S_ .f32 0x7F800000#32
  let main_v110 : FVec F S64x32 .f32 := broadcastInDim S64x32 ![] bcast_S_S64x32 main_cst_42
  let main_v111 : IVec S64x32 1 := cmpf .olt main_v109 main_v110
  let main_c_43 : IVec S_ 1 := constantI S_ 1 1#1
  let main_v112 : IVec S_ 1 := (fun x v => Host.reduce IntOp.andi x v reducesTo_S64x32_S_d0_1 h_S_) main_v111 main_c_43
  let main_v113 : IVec S_ 1 := andi main_v108 main_v112
  let main_v114 : FVec F S32 .f32 := Host.absf main_arg24
  let main_cst_44 : FVec F S_ .f32 := constant S_ .f32 0x7F800000#32
  let main_v115 : FVec F S32 .f32 := broadcastInDim S32 ![] bcast_S_S32 main_cst_44
  let main_v116 : IVec S32 1 := cmpf .olt main_v114 main_v115
  let main_c_45 : IVec S_ 1 := constantI S_ 1 1#1
  let main_v117 : IVec S_ 1 := (fun x v => Host.reduce IntOp.andi x v reducesTo_S32_S_d0 h_S_) main_v116 main_c_45
  let main_v118 : IVec S_ 1 := andi main_v113 main_v117
  let main_v119 : FVec F S32 .f32 := Host.absf main_arg25
  fn_part7 (F := F) main_arg26 main_arg27 main_arg28 main_arg29 main_v118 main_v119

def fn_part5 {F : FTy → Type} [FloatOps F] (main_arg19 : FVec F S64 .f32) (main_arg20 : FVec F S64 .f32) (main_arg21 : FVec F S64x32 .f32) (main_arg22 : FVec F S32 .f32) (main_arg23 : FVec F S64x32 .f32) (main_arg24 : FVec F S32 .f32) (main_arg25 : FVec F S32 .f32) (main_arg26 : FVec F S32x16 .f32) (main_arg27 : FVec F S16 .f32) (main_arg28 : FVec F S16x2 .f32) (main_arg29 : FVec F S2 .f32) (main_v83 : IVec S_ 1) (main_v84 : FVec F S128x64 .f32) (main_cst_32 : FVec F S_ .f32) : IVec S_ 1 :=
  let main_v85 : FVec F S128x64 .f32 := broadcastInDim S128x64 ![] bcast_S_S128x64 main_cst_32
  let main_v86 : IVec S128x64 1 := cmpf .olt main_v84 main_v85
  let main_c_33 : IVec S_ 1 := constantI S_ 1 1#1
  let main_v87 : IVec S_ 1 := (fun x v => Host.reduce IntOp.andi x v reducesTo_S128x64_S_d0_1 h_S_) main_v86 main_c_33
  let main_v88 : IVec S_ 1 := andi main_v83 main_v87
  let main_v89 : FVec F S64 .f32 := Host.absf main_arg19
  let main_cst_34 : FVec F S_ .f32 := constant S_ .f32 0x7F800000#32
  let main_v90 : FVec F S64 .f32 := broadcastInDim S64 ![] bcast_S_S64 main_cst_34
  let main_v91 : IVec S64 1 := cmpf .olt main_v89 main_v90
  let main_c_35 : IVec S_ 1 := constantI S_ 1 1#1
  let main_v92 : IVec S_ 1 := (fun x v => Host.reduce IntOp.andi x v reducesTo_S64_S_d0 h_S_) main_v91 main_c_35
  let main_v93 : IVec S_ 1 := andi main_v88 main_v92
  let main_v94 : FVec F S64 .f32 := Host.absf main_arg20
  let main_cst_36 : FVec F S_ .f32 := constant S_ .f32 0x7F800000#32
  let main_v95 : FVec F S64 .f32 := broadcastInDim S64 ![] bcast_S_S64 main_cst_36
  let main_v96 : IVec S64 1 := cmpf .olt main_v94 main_v95
  let main_c_37 : IVec S_ 1 := constantI S_ 1 1#1
  let main_v97 : IVec S_ 1 := (fun x v => Host.reduce IntOp.andi x v reducesTo_S64_S_d0 h_S_) main_v96 main_c_37
  let main_v98 : IVec S_ 1 := andi main_v93 main_v97
  let main_v99 : FVec F S64x32 .f32 := Host.absf main_arg21
  let main_cst_38 : FVec F S_ .f32 := constant S_ .f32 0x7F800000#32
  let main_v100 : FVec F S64x32 .f32 := broadcastInDim S64x32 ![] bcast_S_S64x32 main_cst_38
  let main_v101 : IVec S64x32 1 := cmpf .olt main_v99 main_v100
  let main_c_39 : IVec S_ 1 := constantI S_ 1 1#1
  fn_part6 (F := F) main_arg22 main_arg23 main_arg24 main_arg25 main_arg26 main_arg27 main_arg28 main_arg29 main_v98 main_v101 main_c_39

def fn_part4 {F : FTy → Type} [FloatOps F] (main_arg15 : FVec F S128 .f32) (main_arg16 : FVec F S128x64 .f32) (main_arg17 : FVec F S64 .f32) (main_arg18 : FVec F S128x64 .f32) (main_arg19 : FVec F S64 .f32) (main_arg20 : FVec F S64 .f32) (main_arg21 : FVec F S64x32 .f32) (main_arg22 : FVec F S32 .f32) (main_arg23 : FVec F S64x32 .f32) (main_arg24 : FVec F S32 .f32) (main_arg25 : FVec F S32 .f32) (main_arg26 : FVec F S32x16 .f32) (main_arg27 : FVec F S16 .f32) (main_arg28 : FVec F S16x2 .f32) (main_arg29 : FVec F S2 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x64 .f32 := Host.absf main_arg16
  let main_cst_28 : FVec F S_ .f32 := constant S_ .f32 0x7F800000#32
  let main_v75 : FVec F S128x64 .f32 := broadcastInDim S128x64 ![] bcast_S_S128x64 main_cst_28
  let main_v76 : IVec S128x64 1 := cmpf .olt main_v74 main_v75
  let main_c_29 : IVec S_ 1 := constantI S_ 1 1#1
  let main_v77 : IVec S_ 1 := (fun x v => Host.reduce IntOp.andi x v reducesTo_S128x64_S_d0_1 h_S_) main_v76 main_c_29
  let main_v78 : IVec S_ 1 := andi main_v73 main_v77
  let main_v79 : FVec F S64 .f32 := Host.absf main_arg17
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S128x64 .f32 := Host.absf main_arg18
  let main_cst_32 : FVec F S_ .f32 := constant S_ .f32 0x7F800000#32
  fn_part5 (F := F) main_arg19 main_arg20 main_arg21 main_arg22 main_arg23 main_arg24 main_arg25 main_arg26 main_arg27 main_arg28 main_arg29 main_v83 main_v84 main_cst_32

def fn_part3 {F : FTy → Type} [FloatOps F] (main_arg12 : FVec F S128 .f32) (main_arg13 : FVec F S64x128 .f32) (main_arg14 : FVec F S128 .f32) (main_arg15 : FVec F S128 .f32) (main_arg16 : FVec F S128x64 .f32) (main_arg17 : FVec F S64 .f32) (main_arg18 : FVec F S128x64 .f32) (main_arg19 : FVec F S64 .f32) (main_arg20 : FVec F S64 .f32) (main_arg21 : FVec F S64x32 .f32) (main_arg22 : FVec F S32 .f32) (main_arg23 : FVec F S64x32 .f32) (main_arg24 : FVec F S32 .f32) (main_arg25 : FVec F S32 .f32) (main_arg26 : FVec F S32x16 .f32) (main_arg27 : FVec F S16 .f32) (main_arg28 : FVec F S16x2 .f32) (main_arg29 : FVec F S2 .f32) (main_v48 : IVec S_ 1) (main_v49 : FVec F S64x128 .f32) (main_v50 : FVec F S64x128 .f32) : IVec S_ 1 :=
  let main_v51 : IVec S64x128 1 := cmpf .olt main_v49 main_v50
  let main_c_19 : IVec S_ 1 := constantI S_ 1 1#1
  let main_v52 : IVec S_ 1 := (fun x v => Host.reduce IntOp.andi x v reducesTo_S64x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S64x128 .f32 := Host.absf main_arg13
  let main_cst_22 : FVec F S_ .f32 := constant S_ .f32 0x7F800000#32
  let main_v60 : FVec F S64x128 .f32 := broadcastInDim S64x128 ![] bcast_S_S64x128 main_cst_22
  let main_v61 : IVec S64x128 1 := cmpf .olt main_v59 main_v60
  let main_c_23 : IVec S_ 1 := constantI S_ 1 1#1
  let main_v62 : IVec S_ 1 := (fun x v => Host.reduce IntOp.andi x v reducesTo_S64x128_S_d0_1 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg15 main_arg16 main_arg17 main_arg18 main_arg19 main_arg20 main_arg21 main_arg22 main_arg23 main_arg24 main_arg25 main_arg26 main_arg27 main_arg28 main_arg29 main_v63 main_v67

def fn_part2 {F : FTy → Type} [FloatOps F] (main_arg8 : FVec F S32x64 .f32) (main_arg9 : FVec F S64 .f32) (main_arg10 : FVec F S64 .f32) (main_arg11 : FVec F S64x128 .f32) (main_arg12 : FVec F S128 .f32) (main_arg13 : FVec F S64x128 .f32) (main_arg14 : FVec F S128 .f32) (main_arg15 : FVec F S128 .f32) (main_arg16 : FVec F S128x64 .f32) (main_arg17 : FVec F S64 .f32) (main_arg18 : FVec F S128x64 .f32) (main_arg19 : FVec F S64 .f32) (main_arg20 : FVec F S64 .f32) (main_arg21 : FVec F S64x32 .f32) (main_arg22 : FVec F S32 .f32) (main_arg23 : FVec F S64x32 .f32) (main_arg24 : FVec F S32 .f32) (main_arg25 : FVec F S32 .f32) (main_arg26 : FVec F S32x16 .f32) (main_arg27 : FVec F S16 .f32) (main_arg28 : FVec F S16x2 .f32) (main_arg29 : FVec F S2 .f32) (main_v33 : IVec S_ 1) : IVec S_ 1 :=
  let main_v34 : FVec F S32x64 .f32 := Host.absf main_arg8
  let main_cst_12 : FVec F S_ .f32 := constant S_ .f32 0x7F800000#32
  let main_v35 : FVec F S32x64 .f32 := broadcastInDim S32x64 ![] bcast_S_S32x64 main_cst_12
  let main_v36 : IVec S32x64 1 := cmpf .olt main_v34 main_v35
  let main_c_13 : IVec S_ 1 := constantI S_ 1 1#1
  let main_v37 : IVec S_ 1 := (fun x v => Host.reduce IntOp.andi x v reducesTo_S32x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x128 .f32 := Host.absf main_arg11
  let main_cst_18 : FVec F S_ .f32 := constant S_ .f32 0x7F800000#32
  let main_v50 : FVec F S64x128 .f32 := broadcastInDim S64x128 ![] bcast_S_S64x128 main_cst_18
  fn_part3 (F := F) main_arg12 main_arg13 main_arg14 main_arg15 main_arg16 main_arg17 main_arg18 main_arg19 main_arg20 main_arg21 main_arg22 main_arg23 main_arg24 main_arg25 main_arg26 main_arg27 main_arg28 main_arg29 main_v48 main_v49 main_v50

def fn_part1 {F : FTy → Type} [FloatOps F] (main_arg5 : FVec F S32 .f32) (main_arg6 : FVec F S32x64 .f32) (main_arg7 : FVec F S64 .f32) (main_arg8 : FVec F S32x64 .f32) (main_arg9 : FVec F S64 .f32) (main_arg10 : FVec F S64 .f32) (main_arg11 : FVec F S64x128 .f32) (main_arg12 : FVec F S128 .f32) (main_arg13 : FVec F S64x128 .f32) (main_arg14 : FVec F S128 .f32) (main_arg15 : FVec F S128 .f32) (main_arg16 : FVec F S128x64 .f32) (main_arg17 : FVec F S64 .f32) (main_arg18 : FVec F S128x64 .f32) (main_arg19 : FVec F S64 .f32) (main_arg20 : FVec F S64 .f32) (main_arg21 : FVec F S64x32 .f32) (main_arg22 : FVec F S32 .f32) (main_arg23 : FVec F S64x32 .f32) (main_arg24 : FVec F S32 .f32) (main_arg25 : FVec F S32 .f32) (main_arg26 : FVec F S32x16 .f32) (main_arg27 : FVec F S16 .f32) (main_arg28 : FVec F S16x2 .f32) (main_arg29 : FVec F S2 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x64 .f32 := Host.absf main_arg6
  let main_cst_8 : FVec F S_ .f32 := constant S_ .f32 0x7F800000#32
  let main_v25 : FVec F S32x64 .f32 := broadcastInDim S32x64 ![] bcast_S_S32x64 main_cst_8
  let main_v26 : IVec S32x64 1 := cmpf .olt main_v24 main_v25
  let main_c_9 : IVec S_ 1 := constantI S_ 1 1#1
  let main_v27 : IVec S_ 1 := (fun x v => Host.reduce IntOp.andi x v reducesTo_S32x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_v33

def fn {F : FTy → Type} [FloatOps F] (main_arg0 : FVec F S50000x5 .f32) (main_arg1 : IVec S2x800000 32) (main_arg2 : FVec F S5x32 .f32) (main_arg3 : FVec F S32 .f32) (main_arg4 : FVec F S32 .f32) (main_arg5 : FVec F S32 .f32) (main_arg6 : FVec F S32x64 .f32) (main_arg7 : FVec F S64 .f32) (main_arg8 : FVec F S32x64 .f32) (main_arg9 : FVec F S64 .f32) (main_arg10 : FVec F S64 .f32) (main_arg11 : FVec F S64x128 .f32) (main_arg12 : FVec F S128 .f32) (main_arg13 : FVec F S64x128 .f32) (main_arg14 : FVec F S128 .f32) (main_arg15 : FVec F S128 .f32) (main_arg16 : FVec F S128x64 .f32) (main_arg17 : FVec F S64 .f32) (main_arg18 : FVec F S128x64 .f32) (main_arg19 : FVec F S64 .f32) (main_arg20 : FVec F S64 .f32) (main_arg21 : FVec F S64x32 .f32) (main_arg22 : FVec F S32 .f32) (main_arg23 : FVec F S64x32 .f32) (main_arg24 : FVec F S32 .f32) (main_arg25 : FVec F S32 .f32) (main_arg26 : FVec F S32x16 .f32) (main_arg27 : FVec F S16 .f32) (main_arg28 : FVec F S16x2 .f32) (main_arg29 : FVec F S2 .f32) : IVec S_ 1 :=
  let main_v0 : FVec F S50000x5 .f32 := Host.absf main_arg0
  let main_cst : FVec F S_ .f32 := constant S_ .f32 0x7F800000#32
  let main_v1 : FVec F S50000x5 .f32 := broadcastInDim S50000x5 ![] bcast_S_S50000x5 main_cst
  let main_v2 : IVec S50000x5 1 := cmpf .olt main_v0 main_v1
  let main_c : IVec S_ 1 := constantI S_ 1 1#1
  let main_v3 : IVec S_ 1 := (fun x v => Host.reduce IntOp.andi x v reducesTo_S50000x5_S_d0_1 h_S_) main_v2 main_c
  let main_v4 : FVec F S5x32 .f32 := Host.absf main_arg2
  let main_cst_0 : FVec F S_ .f32 := constant S_ .f32 0x7F800000#32
  let main_v5 : FVec F S5x32 .f32 := broadcastInDim S5x32 ![] bcast_S_S5x32 main_cst_0
  let main_v6 : IVec S5x32 1 := cmpf .olt main_v4 main_v5
  let main_c_1 : IVec S_ 1 := constantI S_ 1 1#1
  let main_v7 : IVec S_ 1 := (fun x v => Host.reduce IntOp.andi x v reducesTo_S5x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32 .f32 := Host.absf main_arg4
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_v13 main_v16
-- ==== Kernel.lean ====
abbrev S50000x5 : Shape := ⟨2, ![50000, 5]⟩
abbrev S2x800000 : Shape := ⟨2, ![2, 800000]⟩
abbrev S5x32 : Shape := ⟨2, ![5, 32]⟩
abbrev S32 : Shape := ⟨1, ![32]⟩
abbrev S32x64 : Shape := ⟨2, ![32, 64]⟩
abbrev S64 : Shape := ⟨1, ![64]⟩
abbrev S64x128 : Shape := ⟨2, ![64, 128]⟩
abbrev S128 : Shape := ⟨1, ![128]⟩
abbrev S128x64 : Shape := ⟨2, ![128, 64]⟩
abbrev S64x32 : Shape := ⟨2, ![64, 32]⟩
abbrev S32x16 : Shape := ⟨2, ![32, 16]⟩
abbrev S16 : Shape := ⟨1, ![16]⟩
abbrev S16x2 : Shape := ⟨2, ![16, 2]⟩
abbrev S2 : Shape := ⟨1, ![2]⟩
abbrev S1x800000 : Shape := ⟨2, ![1, 800000]⟩
abbrev S800000 : Shape := ⟨1, ![800000]⟩
abbrev S1x32 : Shape := ⟨2, ![1, 32]⟩
abbrev S50000x32 : Shape := ⟨2, ![50000, 32]⟩
abbrev S5000x5 : Shape := ⟨2, ![5000, 5]⟩
abbrev S5000x32 : Shape := ⟨2, ![5000, 32]⟩
abbrev S_ : Shape := ⟨0, ![]⟩
abbrev S800000x1 : Shape := ⟨2, ![800000, 1]⟩
abbrev S800000x32 : Shape := ⟨2, ![800000, 32]⟩
abbrev S1x64 : Shape := ⟨2, ![1, 64]⟩
abbrev S50000x64 : Shape := ⟨2, ![50000, 64]⟩
abbrev S5000x64 : Shape := ⟨2, ![5000, 64]⟩
abbrev S800000x64 : Shape := ⟨2, ![800000, 64]⟩
abbrev S1x128 : Shape := ⟨2, ![1, 128]⟩
abbrev S50000x128 : Shape := ⟨2, ![50000, 128]⟩
abbrev S5000x128 : Shape := ⟨2, ![5000, 128]⟩
abbrev S800000x128 : Shape := ⟨2, ![800000, 128]⟩
abbrev S1x16 : Shape := ⟨2, ![1, 16]⟩
abbrev S1x2 : Shape := ⟨2, ![1, 2]⟩
abbrev S50000x2 : Shape := ⟨2, ![50000, 2]⟩
abbrev S5000x2 : Shape := ⟨2, ![5000, 2]⟩
abbrev S5000x16 : Shape := ⟨2, ![5000, 16]⟩

abbrev nBuf : Space → Nat
  | .hbm => 164
  | .vmem => 100
  | .smem => 0
  | _ => 0

abbrev hbmTy0_0 (i : Nat) : BufTy := match i % 128 with
  | 0 => ⟨S50000x5, .f32⟩
  | 1 => ⟨S2x800000, .i32⟩
  | 2 => ⟨S5x32, .f32⟩
  | 3 => ⟨S32, .f32⟩
  | 4 => ⟨S32, .f32⟩
  | 5 => ⟨S32, .f32⟩
  | 6 => ⟨S32x64, .f32⟩
  | 7 => ⟨S64, .f32⟩
  | 8 => ⟨S32x64, .f32⟩
  | 9 => ⟨S64, .f32⟩
  | 10 => ⟨S64, .f32⟩
  | 11 => ⟨S64x128, .f32⟩
  | 12 => ⟨S128, .f32⟩
  | 13 => ⟨S64x128, .f32⟩
  | 14 => ⟨S128, .f32⟩
  | 15 => ⟨S128, .f32⟩
  | 16 => ⟨S128x64, .f32⟩
  | 17 => ⟨S64, .f32⟩
  | 18 => ⟨S128x64, .f32⟩
  | 19 => ⟨S64, .f32⟩
  | 20 => ⟨S64, .f32⟩
  | 21 => ⟨S64x32, .f32⟩
  | 22 => ⟨S32, .f32⟩
  | 23 => ⟨S64x32, .f32⟩
  | 24 => ⟨S32, .f32⟩
  | 25 => ⟨S32, .f32⟩
  | 26 => ⟨S32x16, .f32⟩
  | 27 => ⟨S16, .f32⟩
  | 28 => ⟨S16x2, .f32⟩
  | 29 => ⟨S2, .f32⟩
  | 30 => ⟨S1x800000, .i32⟩
  | 31 => ⟨S800000, .i32⟩
  | 32 => ⟨S1x800000, .i32⟩
  | 33 => ⟨S800000, .i32⟩
  | 34 => ⟨S1x32, .f32⟩
  | 35 => ⟨S50000x32, .f32⟩
  | 36 => ⟨S1x32, .f32⟩
  | 37 => ⟨S1x32, .f32⟩
  | 38 => ⟨S_, .f32⟩
  | 39 => ⟨S1x32, .f32⟩
  | 40 => ⟨S1x32, .f32⟩
  | 41 => ⟨S_, .f32⟩
  | 42 => ⟨S1x32, .f32⟩
  | 43 => ⟨S1x32, .f32⟩
  | 44 => ⟨S1x32, .f32⟩
  | 45 => ⟨S1x32, .f32⟩
  | 46 => ⟨S1x32, .f32⟩
  | 47 => ⟨S1x32, .f32⟩
  | 48 => ⟨S50000x32, .f32⟩
  | 49 => ⟨S_, .i32⟩
  | 50 => ⟨S800000, .i32⟩
  | 51 => ⟨S800000, .i1⟩
  | 52 => ⟨S_, .i32⟩
  | 53 => ⟨S800000, .i32⟩
  | 54 => ⟨S800000, .i32⟩
  | 55 => ⟨S800000, .i32⟩
  | 56 => ⟨S800000x1, .i32⟩
  | 57 => ⟨S800000x32, .f32⟩
  | 58 => ⟨S_, .f32⟩
  | 59 => ⟨S50000x32, .f32⟩
  | 60 => ⟨S800000x1, .i32⟩
  | 61 => ⟨S50000x32, .f32⟩
  | 62 => ⟨S1x64, .f32⟩
  | 63 => ⟨S50000x64, .f32⟩
  | 64 => ⟨S1x64, .f32⟩
  | 65 => ⟨S1x64, .f32⟩
  | 66 => ⟨S_, .f32⟩
  | 67 => ⟨S1x64, .f32⟩
  | 68 => ⟨S1x64, .f32⟩
  | 69 => ⟨S_, .f32⟩
  | 70 => ⟨S1x64, .f32⟩
  | 71 => ⟨S1x64, .f32⟩
  | 72 => ⟨S1x64, .f32⟩
  | 73 => ⟨S1x64, .f32⟩
  | 74 => ⟨S1x64, .f32⟩
  | 75 => ⟨S1x64, .f32⟩
  | 76 => ⟨S50000x64, .f32⟩
  | 77 => ⟨S_, .i32⟩
  | 78 => ⟨S800000, .i32⟩
  | 79 => ⟨S800000, .i1⟩
  | 80 => ⟨S_, .i32⟩
  | 81 => ⟨S800000, .i32⟩
  | 82 => ⟨S800000, .i32⟩
  | 83 => ⟨S800000, .i32⟩
  | 84 => ⟨S800000x1, .i32⟩
  | 85 => ⟨S800000x64, .f32⟩
  | 86 => ⟨S_, .f32⟩
  | 87 => ⟨S50000x64, .f32⟩
  | 88 => ⟨S800000x1, .i32⟩
  | 89 => ⟨S50000x64, .f32⟩
  | 90 => ⟨S1x128, .f32⟩
  | 91 => ⟨S50000x128, .f32⟩
  | 92 => ⟨S1x128, .f32⟩
  | 93 => ⟨S1x128, .f32⟩
  | 94 => ⟨S_, .f32⟩
  | 95 => ⟨S1x128, .f32⟩
  | 96 => ⟨S1x128, .f32⟩
  | 97 => ⟨S_, .f32⟩
  | 98 => ⟨S1x128, .f32⟩
  | 99 => ⟨S1x128, .f32⟩
  | 100 => ⟨S1x128, .f32⟩
  | 101 => ⟨S1x128, .f32⟩
  | 102 => ⟨S1x128, .f32⟩
  | 103 => ⟨S1x128, .f32⟩
  | 104 => ⟨S50000x128, .f32⟩
  | 105 => ⟨S_, .i32⟩
  | 106 => ⟨S800000, .i32⟩
  | 107 => ⟨S800000, .i1⟩
  | 108 => ⟨S_, .i32⟩
  | 109 => ⟨S800000, .i32⟩
  | 110 => ⟨S800000, .i32⟩
  | 111 => ⟨S800000, .i32⟩
  | 112 => ⟨S800000x1, .i32⟩
  | 113 => ⟨S800000x128, .f32⟩
  | 114 => ⟨S_, .f32⟩
  | 115 => ⟨S50000x128, .f32⟩
  | 116 => ⟨S800000x1, .i32⟩
  | 117 => ⟨S50000x128, .f32⟩
  | 118 => ⟨S1x64, .f32⟩
  | 119 => ⟨S50000x64, .f32⟩
  | 120 => ⟨S1x64, .f32⟩
  | 121 => ⟨S1x64, .f32⟩
  | 122 => ⟨S_, .f32⟩
  | 123 => ⟨S1x64, .f32⟩
  | 124 => ⟨S1x64, .f32⟩
  | 125 => ⟨S_, .f32⟩
  | 126 => ⟨S1x64, .f32⟩
  | 127 => ⟨S1x64, .f32⟩
  | _ => ⟨S50000x5, .f32⟩

abbrev hbmTy0_1 (i : Nat) : BufTy := match i % 128 with
  | 0 => ⟨S1x64, .f32⟩
  | 1 => ⟨S1x64, .f32⟩
  | 2 => ⟨S1x64, .f32⟩
  | 3 => ⟨S1x64, .f32⟩
  | 4 => ⟨S50000x64, .f32⟩
  | 5 => ⟨S_, .i32⟩
  | 6 => ⟨S800000, .i32⟩
  | 7 => ⟨S800000, .i1⟩
  | 8 => ⟨S_, .i32⟩
  | 9 => ⟨S800000, .i32⟩
  | 10 => ⟨S800000, .i32⟩
  | 11 => ⟨S800000, .i32⟩
  | 12 => ⟨S800000x1, .i32⟩
  | 13 => ⟨S800000x64, .f32⟩
  | 14 => ⟨S_, .f32⟩
  | 15 => ⟨S50000x64, .f32⟩
  | 16 => ⟨S800000x1, .i32⟩
  | 17 => ⟨S50000x64, .f32⟩
  | 18 => ⟨S1x32, .f32⟩
  | 19 => ⟨S50000x32, .f32⟩
  | 20 => ⟨S1x32, .f32⟩
  | 21 => ⟨S1x32, .f32⟩
  | 22 => ⟨S_, .f32⟩
  | 23 => ⟨S1x32, .f32⟩
  | 24 => ⟨S1x32, .f32⟩
  | 25 => ⟨S_, .f32⟩
  | 26 => ⟨S1x32, .f32⟩
  | 27 => ⟨S1x32, .f32⟩
  | 28 => ⟨S1x32, .f32⟩
  | 29 => ⟨S1x32, .f32⟩
  | 30 => ⟨S1x32, .f32⟩
  | 31 => ⟨S1x32, .f32⟩
  | 32 => ⟨S50000x32, .f32⟩
  | 33 => ⟨S1x16, .f32⟩
  | 34 => ⟨S1x2, .f32⟩
  | 35 => ⟨S50000x2, .f32⟩
  | _ => ⟨S50000x5, .f32⟩

abbrev hbmTy (i : Nat) : BufTy := match i / 128 with
  | 0 => hbmTy0_0 i
  | 1 => hbmTy0_1 i
  | _ => ⟨S50000x5, .f32⟩

abbrev bufTy : (tb : Table) → Fin (tcTables nBuf tb) → BufTy
  | .hbm, ⟨i, _⟩ => hbmTy i
  | .local _ .vmem, ⟨0, _⟩ => ⟨S5000x5, .f32⟩
  | .local _ .vmem, ⟨1, _⟩ => ⟨S5000x5, .f32⟩
  | .local _ .vmem, ⟨2, _⟩ => ⟨S5x32, .f32⟩
  | .local _ .vmem, ⟨3, _⟩ => ⟨S1x32, .f32⟩
  | .local _ .vmem, ⟨4, _⟩ => ⟨S5000x32, .f32⟩
  | .local _ .vmem, ⟨5, _⟩ => ⟨S5000x32, .f32⟩
  | .local _ .vmem, ⟨6, _⟩ => ⟨S1x32, .f32⟩
  | .local _ .vmem, ⟨7, _⟩ => ⟨S1x32, .f32⟩
  | .local _ .vmem, ⟨8, _⟩ => ⟨S5000x32, .f32⟩
  | .local _ .vmem, ⟨9, _⟩ => ⟨S5000x32, .f32⟩
  | .local _ .vmem, ⟨10, _⟩ => ⟨S1x32, .f32⟩
  | .local _ .vmem, ⟨11, _⟩ => ⟨S1x32, .f32⟩
  | .local _ .vmem, ⟨12, _⟩ => ⟨S1x32, .f32⟩
  | .local _ .vmem, ⟨13, _⟩ => ⟨S1x32, .f32⟩
  | .local _ .vmem, ⟨14, _⟩ => ⟨S5000x32, .f32⟩
  | .local _ .vmem, ⟨15, _⟩ => ⟨S5000x32, .f32⟩
  | .local _ .vmem, ⟨16, _⟩ => ⟨S5000x32, .f32⟩
  | .local _ .vmem, ⟨17, _⟩ => ⟨S5000x32, .f32⟩
  | .local _ .vmem, ⟨18, _⟩ => ⟨S32x64, .f32⟩
  | .local _ .vmem, ⟨19, _⟩ => ⟨S1x64, .f32⟩
  | .local _ .vmem, ⟨20, _⟩ => ⟨S5000x32, .f32⟩
  | .local _ .vmem, ⟨21, _⟩ => ⟨S5000x32, .f32⟩
  | .local _ .vmem, ⟨22, _⟩ => ⟨S32x64, .f32⟩
  | .local _ .vmem, ⟨23, _⟩ => ⟨S5000x64, .f32⟩
  | .local _ .vmem, ⟨24, _⟩ => ⟨S5000x64, .f32⟩
  | .local _ .vmem, ⟨25, _⟩ => ⟨S1x64, .f32⟩
  | .local _ .vmem, ⟨26, _⟩ => ⟨S1x64, .f32⟩
  | .local _ .vmem, ⟨27, _⟩ => ⟨S5000x64, .f32⟩
  | .local _ .vmem, ⟨28, _⟩ => ⟨S5000x64, .f32⟩
  | .local _ .vmem, ⟨29, _⟩ => ⟨S1x64, .f32⟩
  | .local _ .vmem, ⟨30, _⟩ => ⟨S1x64, .f32⟩
  | .local _ .vmem, ⟨31, _⟩ => ⟨S1x64, .f32⟩
  | .local _ .vmem, ⟨32, _⟩ => ⟨S1x64, .f32⟩
  | .local _ .vmem, ⟨33, _⟩ => ⟨S5000x64, .f32⟩
  | .local _ .vmem, ⟨34, _⟩ => ⟨S5000x64, .f32⟩
  | .local _ .vmem, ⟨35, _⟩ => ⟨S5000x64, .f32⟩
  | .local _ .vmem, ⟨36, _⟩ => ⟨S5000x64, .f32⟩
  | .local _ .vmem, ⟨37, _⟩ => ⟨S64x128, .f32⟩
  | .local _ .vmem, ⟨38, _⟩ => ⟨S1x128, .f32⟩
  | .local _ .vmem, ⟨39, _⟩ => ⟨S5000x64, .f32⟩
  | .local _ .vmem, ⟨40, _⟩ => ⟨S5000x64, .f32⟩
  | .local _ .vmem, ⟨41, _⟩ => ⟨S64x128, .f32⟩
  | .local _ .vmem, ⟨42, _⟩ => ⟨S5000x128, .f32⟩
  | .local _ .vmem, ⟨43, _⟩ => ⟨S5000x128, .f32⟩
  | .local _ .vmem, ⟨44, _⟩ => ⟨S1x128, .f32⟩
  | .local _ .vmem, ⟨45, _⟩ => ⟨S1x128, .f32⟩
  | .local _ .vmem, ⟨46, _⟩ => ⟨S5000x128, .f32⟩
  | .local _ .vmem, ⟨47, _⟩ => ⟨S5000x128, .f32⟩
  | .local _ .vmem, ⟨48, _⟩ => ⟨S1x128, .f32⟩
  | .local _ .vmem, ⟨49, _⟩ => ⟨S1x128, .f32⟩
  | .local _ .vmem, ⟨50, _⟩ => ⟨S1x128, .f32⟩
  | .local _ .vmem, ⟨51, _⟩ => ⟨S1x128, .f32⟩
  | .local _ .vmem, ⟨52, _⟩ => ⟨S5000x128, .f32⟩
  | .local _ .vmem, ⟨53, _⟩ => ⟨S5000x128, .f32⟩
  | .local _ .vmem, ⟨54, _⟩ => ⟨S5000x128, .f32⟩
  | .local _ .vmem, ⟨55, _⟩ => ⟨S5000x128, .f32⟩
  | .local _ .vmem, ⟨56, _⟩ => ⟨S128x64, .f32⟩
  | .local _ .vmem, ⟨57, _⟩ => ⟨S1x64, .f32⟩
  | .local _ .vmem, ⟨58, _⟩ => ⟨S5000x128, .f32⟩
  | .local _ .vmem, ⟨59, _⟩ => ⟨S5000x128, .f32⟩
  | .local _ .vmem, ⟨60, _⟩ => ⟨S128x64, .f32⟩
  | .local _ .vmem, ⟨61, _⟩ => ⟨S5000x64, .f32⟩
  | .local _ .vmem, ⟨62, _⟩ => ⟨S5000x64, .f32⟩
  | .local _ .vmem, ⟨63, _⟩ => ⟨S1x64, .f32⟩
  | .local _ .vmem, ⟨64, _⟩ => ⟨S1x64, .f32⟩
  | .local _ .vmem, ⟨65, _⟩ => ⟨S5000x64, .f32⟩
  | .local _ .vmem, ⟨66, _⟩ => ⟨S5000x64, .f32⟩
  | .local _ .vmem, ⟨67, _⟩ => ⟨S1x64, .f32⟩
  | .local _ .vmem, ⟨68, _⟩ => ⟨S1x64, .f32⟩
  | .local _ .vmem, ⟨69, _⟩ => ⟨S1x64, .f32⟩
  | .local _ .vmem, ⟨70, _⟩ => ⟨S1x64, .f32⟩
  | .local _ .vmem, ⟨71, _⟩ => ⟨S5000x64, .f32⟩
  | .local _ .vmem, ⟨72, _⟩ => ⟨S5000x64, .f32⟩
  | .local _ .vmem, ⟨73, _⟩ => ⟨S5000x64, .f32⟩
  | .local _ .vmem, ⟨74, _⟩ => ⟨S5000x64, .f32⟩
  | .local _ .vmem, ⟨75, _⟩ => ⟨S64x32, .f32⟩
  | .local _ .vmem, ⟨76, _⟩ => ⟨S1x32, .f32⟩
  | .local _ .vmem, ⟨77, _⟩ => ⟨S5000x64, .f32⟩
  | .local _ .vmem, ⟨78, _⟩ => ⟨S5000x64, .f32⟩
  | .local _ .vmem, ⟨79, _⟩ => ⟨S64x32, .f32⟩
  | .local _ .vmem, ⟨80, _⟩ => ⟨S5000x32, .f32⟩
  | .local _ .vmem, ⟨81, _⟩ => ⟨S5000x32, .f32⟩
  | .local _ .vmem, ⟨82, _⟩ => ⟨S1x32, .f32⟩
  | .local _ .vmem, ⟨83, _⟩ => ⟨S1x32, .f32⟩
  | .local _ .vmem, ⟨84, _⟩ => ⟨S5000x32, .f32⟩
  | .local _ .vmem, ⟨85, _⟩ => ⟨S5000x32, .f32⟩
  | .local _ .vmem, ⟨86, _⟩ => ⟨S1x32, .f32⟩
  | .local _ .vmem, ⟨87, _⟩ => ⟨S1x32, .f32⟩
  | .local _ .vmem, ⟨88, _⟩ => ⟨S1x32, .f32⟩
  | .local _ .vmem, ⟨89, _⟩ => ⟨S1x32, .f32⟩
  | .local _ .vmem, ⟨90, _⟩ => ⟨S5000x32, .f32⟩
  | .local _ .vmem, ⟨91, _⟩ => ⟨S5000x32, .f32⟩
  | .local _ .vmem, ⟨92, _⟩ => ⟨S5000x32, .f32⟩
  | .local _ .vmem, ⟨93, _⟩ => ⟨S5000x32, .f32⟩
  | .local _ .vmem, ⟨94, _⟩ => ⟨S32x16, .f32⟩
  | .local _ .vmem, ⟨95, _⟩ => ⟨S1x16, .f32⟩
  | .local _ .vmem, ⟨96, _⟩ => ⟨S16x2, .f32⟩
  | .local _ .vmem, ⟨97, _⟩ => ⟨S1x2, .f32⟩
  | .local _ .vmem, ⟨98, _⟩ => ⟨S5000x2, .f32⟩
  | .local _ .vmem, ⟨99, _⟩ => ⟨S5000x2, .f32⟩
  | _, _ => ⟨S50000x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | _, _ => false

abbrev semScoped : Fin 0 → Bool
  | ⟨_, h⟩ => absurd h (Nat.not_lt_zero _)

abbrev dmaSemScoped : Fin 100 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | _ => false

abbrev sig : RefSig :=
  ofTc nBuf bufTy 0 100 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5_0 : Ref sig .tc := ⟨.hbm, 35, rfl⟩
abbrev main_v5_1 : Ref sig .tc := ⟨.hbm, 36, rfl⟩
abbrev main_v5_2 : Ref sig .tc := ⟨.hbm, 37, rfl⟩
abbrev main_cst : Ref sig .tc := ⟨.hbm, 38, rfl⟩
abbrev main_v6 : Ref sig .tc := ⟨.hbm, 39, rfl⟩
abbrev main_v7 : Ref sig .tc := ⟨.hbm, 40, rfl⟩
abbrev main_cst_0 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_c : Ref sig .tc := ⟨.hbm, 49, rfl⟩
abbrev main_v15 : Ref sig .tc := ⟨.hbm, 50, rfl⟩
abbrev main_v16 : Ref sig .tc := ⟨.hbm, 51, rfl⟩
abbrev main_c_1 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_cst_2 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26_0 : Ref sig .tc := ⟨.hbm, 63, rfl⟩
abbrev main_v26_1 : Ref sig .tc := ⟨.hbm, 64, rfl⟩
abbrev main_v26_2 : Ref sig .tc := ⟨.hbm, 65, rfl⟩
abbrev main_cst_3 : Ref sig .tc := ⟨.hbm, 66, rfl⟩
abbrev main_v27 : Ref sig .tc := ⟨.hbm, 67, rfl⟩
abbrev main_v28 : Ref sig .tc := ⟨.hbm, 68, rfl⟩
abbrev main_cst_4 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_c_5 : Ref sig .tc := ⟨.hbm, 77, rfl⟩
abbrev main_v36 : Ref sig .tc := ⟨.hbm, 78, rfl⟩
abbrev main_v37 : Ref sig .tc := ⟨.hbm, 79, rfl⟩
abbrev main_c_6 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_cst_7 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47_0 : Ref sig .tc := ⟨.hbm, 91, rfl⟩
abbrev main_v47_1 : Ref sig .tc := ⟨.hbm, 92, rfl⟩
abbrev main_v47_2 : Ref sig .tc := ⟨.hbm, 93, rfl⟩
abbrev main_cst_8 : Ref sig .tc := ⟨.hbm, 94, rfl⟩
abbrev main_v48 : Ref sig .tc := ⟨.hbm, 95, rfl⟩
abbrev main_v49 : Ref sig .tc := ⟨.hbm, 96, rfl⟩
abbrev main_cst_9 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_c_10 : Ref sig .tc := ⟨.hbm, 105, rfl⟩
abbrev main_v57 : Ref sig .tc := ⟨.hbm, 106, rfl⟩
abbrev main_v58 : Ref sig .tc := ⟨.hbm, 107, rfl⟩
abbrev main_c_11 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_cst_12 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_v68_0 : Ref sig .tc := ⟨.hbm, 119, rfl⟩
abbrev main_v68_1 : Ref sig .tc := ⟨.hbm, 120, rfl⟩
abbrev main_v68_2 : Ref sig .tc := ⟨.hbm, 121, rfl⟩
abbrev main_cst_13 : Ref sig .tc := ⟨.hbm, 122, rfl⟩
abbrev main_v69 : Ref sig .tc := ⟨.hbm, 123, rfl⟩
abbrev main_v70 : Ref sig .tc := ⟨.hbm, 124, rfl⟩
abbrev main_cst_14 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩
abbrev main_c_15 : Ref sig .tc := ⟨.hbm, 133, rfl⟩
abbrev main_v78 : Ref sig .tc := ⟨.hbm, 134, rfl⟩
abbrev main_v79 : Ref sig .tc := ⟨.hbm, 135, rfl⟩
abbrev main_c_16 : Ref sig .tc := ⟨.hbm, 136, rfl⟩
abbrev main_v80 : Ref sig .tc := ⟨.hbm, 137, rfl⟩
abbrev main_v81 : Ref sig .tc := ⟨.hbm, 138, rfl⟩
abbrev main_v82 : Ref sig .tc := ⟨.hbm, 139, rfl⟩
abbrev main_v83 : Ref sig .tc := ⟨.hbm, 140, rfl⟩
abbrev main_v84 : Ref sig .tc := ⟨.hbm, 141, rfl⟩
abbrev main_cst_17 : Ref sig .tc := ⟨.hbm, 142, rfl⟩
abbrev main_v85 : Ref sig .tc := ⟨.hbm, 143, rfl⟩
abbrev main_v86 : Ref sig .tc := ⟨.hbm, 144, rfl⟩
abbrev main_v87 : Ref sig .tc := ⟨.hbm, 145, rfl⟩
abbrev main_v88 : Ref sig .tc := ⟨.hbm, 146, rfl⟩
abbrev main_v89_0 : Ref sig .tc := ⟨.hbm, 147, rfl⟩
abbrev main_v89_1 : Ref sig .tc := ⟨.hbm, 148, rfl⟩
abbrev main_v89_2 : Ref sig .tc := ⟨.hbm, 149, rfl⟩
abbrev main_cst_18 : Ref sig .tc := ⟨.hbm, 150, rfl⟩
abbrev main_v90 : Ref sig .tc := ⟨.hbm, 151, rfl⟩
abbrev main_v91 : Ref sig .tc := ⟨.hbm, 152, rfl⟩
abbrev main_cst_19 : Ref sig .tc := ⟨.hbm, 153, rfl⟩
abbrev main_v92 : Ref sig .tc := ⟨.hbm, 154, rfl⟩
abbrev main_v93 : Ref sig .tc := ⟨.hbm, 155, rfl⟩
abbrev main_v94 : Ref sig .tc := ⟨.hbm, 156, rfl⟩
abbrev main_v95 : Ref sig .tc := ⟨.hbm, 157, rfl⟩
abbrev main_v96 : Ref sig .tc := ⟨.hbm, 158, rfl⟩
abbrev main_v97 : Ref sig .tc := ⟨.hbm, 159, rfl⟩
abbrev main_v98 : Ref sig .tc := ⟨.hbm, 160, rfl⟩
abbrev main_v99 : Ref sig .tc := ⟨.hbm, 161, rfl⟩
abbrev main_v100 : Ref sig .tc := ⟨.hbm, 162, rfl⟩
abbrev main_v101 : Ref sig .tc := ⟨.hbm, 163, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg5_1 : Ref sig .tc := ⟨.vmem, 24, rfl⟩
abbrev cc2_stg6_0 : Ref sig .tc := ⟨.vmem, 25, rfl⟩
abbrev cc2_stg7_0 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg5_1 : Ref sig .tc := ⟨.vmem, 34, rfl⟩
abbrev cc4_stg0_0 : Ref sig .tc := ⟨.vmem, 35, rfl⟩
abbrev cc4_stg0_1 : Ref sig .tc := ⟨.vmem, 36, rfl⟩
abbrev cc4_stg1_0 : Ref sig .tc := ⟨.vmem, 37, rfl⟩
abbrev cc4_stg2_0 : Ref sig .tc := ⟨.vmem, 38, rfl⟩
abbrev cc4_stg3_0 : Ref sig .tc := ⟨.vmem, 39, rfl⟩
abbrev cc4_stg3_1 : Ref sig .tc := ⟨.vmem, 40, rfl⟩
abbrev cc4_stg4_0 : Ref sig .tc := ⟨.vmem, 41, rfl⟩
abbrev cc4_stg5_0 : Ref sig .tc := ⟨.vmem, 42, rfl⟩
abbrev cc4_stg5_1 : Ref sig .tc := ⟨.vmem, 43, rfl⟩
abbrev cc4_stg6_0 : Ref sig .tc := ⟨.vmem, 44, rfl⟩
abbrev cc4_stg7_0 : Ref sig .tc := ⟨.vmem, 45, rfl⟩
abbrev cc5_stg0_0 : Ref sig .tc := ⟨.vmem, 46, rfl⟩
abbrev cc5_stg0_1 : Ref sig .tc := ⟨.vmem, 47, rfl⟩
abbrev cc5_stg1_0 : Ref sig .tc := ⟨.vmem, 48, rfl⟩
abbrev cc5_stg2_0 : Ref sig .tc := ⟨.vmem, 49, rfl⟩
abbrev cc5_stg3_0 : Ref sig .tc := ⟨.vmem, 50, rfl⟩
abbrev cc5_stg4_0 : Ref sig .tc := ⟨.vmem, 51, rfl⟩
abbrev cc5_stg5_0 : Ref sig .tc := ⟨.vmem, 52, rfl⟩
abbrev cc5_stg5_1 : Ref sig .tc := ⟨.vmem, 53, rfl⟩
abbrev cc6_stg0_0 : Ref sig .tc := ⟨.vmem, 54, rfl⟩
abbrev cc6_stg0_1 : Ref sig .tc := ⟨.vmem, 55, rfl⟩
abbrev cc6_stg1_0 : Ref sig .tc := ⟨.vmem, 56, rfl⟩
abbrev cc6_stg2_0 : Ref sig .tc := ⟨.vmem, 57, rfl⟩
abbrev cc6_stg3_0 : Ref sig .tc := ⟨.vmem, 58, rfl⟩
abbrev cc6_stg3_1 : Ref sig .tc := ⟨.vmem, 59, rfl⟩
abbrev cc6_stg4_0 : Ref sig .tc := ⟨.vmem, 60, rfl⟩
abbrev cc6_stg5_0 : Ref sig .tc := ⟨.vmem, 61, rfl⟩
abbrev cc6_stg5_1 : Ref sig .tc := ⟨.vmem, 62, rfl⟩
abbrev cc6_stg6_0 : Ref sig .tc := ⟨.vmem, 63, rfl⟩
abbrev cc6_stg7_0 : Ref sig .tc := ⟨.vmem, 64, rfl⟩
abbrev cc7_stg0_0 : Ref sig .tc := ⟨.vmem, 65, rfl⟩
abbrev cc7_stg0_1 : Ref sig .tc := ⟨.vmem, 66, rfl⟩
abbrev cc7_stg1_0 : Ref sig .tc := ⟨.vmem, 67, rfl⟩
abbrev cc7_stg2_0 : Ref sig .tc := ⟨.vmem, 68, rfl⟩
abbrev cc7_stg3_0 : Ref sig .tc := ⟨.vmem, 69, rfl⟩
abbrev cc7_stg4_0 : Ref sig .tc := ⟨.vmem, 70, rfl⟩
abbrev cc7_stg5_0 : Ref sig .tc := ⟨.vmem, 71, rfl⟩
abbrev cc7_stg5_1 : Ref sig .tc := ⟨.vmem, 72, rfl⟩
abbrev cc8_stg0_0 : Ref sig .tc := ⟨.vmem, 73, rfl⟩
abbrev cc8_stg0_1 : Ref sig .tc := ⟨.vmem, 74, rfl⟩
abbrev cc8_stg1_0 : Ref sig .tc := ⟨.vmem, 75, rfl⟩
abbrev cc8_stg2_0 : Ref sig .tc := ⟨.vmem, 76, rfl⟩
abbrev cc8_stg3_0 : Ref sig .tc := ⟨.vmem, 77, rfl⟩
abbrev cc8_stg3_1 : Ref sig .tc := ⟨.vmem, 78, rfl⟩
abbrev cc8_stg4_0 : Ref sig .tc := ⟨.vmem, 79, rfl⟩
abbrev cc8_stg5_0 : Ref sig .tc := ⟨.vmem, 80, rfl⟩
abbrev cc8_stg5_1 : Ref sig .tc := ⟨.vmem, 81, rfl⟩
abbrev cc8_stg6_0 : Ref sig .tc := ⟨.vmem, 82, rfl⟩
abbrev cc8_stg7_0 : Ref sig .tc := ⟨.vmem, 83, rfl⟩
abbrev cc9_stg0_0 : Ref sig .tc := ⟨.vmem, 84, rfl⟩
abbrev cc9_stg0_1 : Ref sig .tc := ⟨.vmem, 85, rfl⟩
abbrev cc9_stg1_0 : Ref sig .tc := ⟨.vmem, 86, rfl⟩
abbrev cc9_stg2_0 : Ref sig .tc := ⟨.vmem, 87, rfl⟩
abbrev cc9_stg3_0 : Ref sig .tc := ⟨.vmem, 88, rfl⟩
abbrev cc9_stg4_0 : Ref sig .tc := ⟨.vmem, 89, rfl⟩
abbrev cc9_stg5_0 : Ref sig .tc := ⟨.vmem, 90, rfl⟩
abbrev cc9_stg5_1 : Ref sig .tc := ⟨.vmem, 91, rfl⟩
abbrev cc10_stg0_0 : Ref sig .tc := ⟨.vmem, 92, rfl⟩
abbrev cc10_stg0_1 : Ref sig .tc := ⟨.vmem, 93, rfl⟩
abbrev cc10_stg1_0 : Ref sig .tc := ⟨.vmem, 94, rfl⟩
abbrev cc10_stg2_0 : Ref sig .tc := ⟨.vmem, 95, rfl⟩
abbrev cc10_stg3_0 : Ref sig .tc := ⟨.vmem, 96, rfl⟩
abbrev cc10_stg4_0 : Ref sig .tc := ⟨.vmem, 97, rfl⟩
abbrev cc10_stg5_0 : Ref sig .tc := ⟨.vmem, 98, rfl⟩
abbrev cc10_stg5_1 : Ref sig .tc := ⟨.vmem, 99, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem3_1 : DmaSem sig := 21
abbrev cc2_sem4_0 : DmaSem sig := 22
abbrev cc2_sem5_0 : DmaSem sig := 23
abbrev cc2_sem5_1 : DmaSem sig := 24
abbrev cc2_sem6_0 : DmaSem sig := 25
abbrev cc2_sem7_0 : DmaSem sig := 26
abbrev cc3_sem0_0 : DmaSem sig := 27
abbrev cc3_sem0_1 : DmaSem sig := 28
abbrev cc3_sem1_0 : DmaSem sig := 29
abbrev cc3_sem2_0 : DmaSem sig := 30
abbrev cc3_sem3_0 : DmaSem sig := 31
abbrev cc3_sem4_0 : DmaSem sig := 32
abbrev cc3_sem5_0 : DmaSem sig := 33
abbrev cc3_sem5_1 : DmaSem sig := 34
abbrev cc4_sem0_0 : DmaSem sig := 35
abbrev cc4_sem0_1 : DmaSem sig := 36
abbrev cc4_sem1_0 : DmaSem sig := 37
abbrev cc4_sem2_0 : DmaSem sig := 38
abbrev cc4_sem3_0 : DmaSem sig := 39
abbrev cc4_sem3_1 : DmaSem sig := 40
abbrev cc4_sem4_0 : DmaSem sig := 41
abbrev cc4_sem5_0 : DmaSem sig := 42
abbrev cc4_sem5_1 : DmaSem sig := 43
abbrev cc4_sem6_0 : DmaSem sig := 44
abbrev cc4_sem7_0 : DmaSem sig := 45
abbrev cc5_sem0_0 : DmaSem sig := 46
abbrev cc5_sem0_1 : DmaSem sig := 47
abbrev cc5_sem1_0 : DmaSem sig := 48
abbrev cc5_sem2_0 : DmaSem sig := 49
abbrev cc5_sem3_0 : DmaSem sig := 50
abbrev cc5_sem4_0 : DmaSem sig := 51
abbrev cc5_sem5_0 : DmaSem sig := 52
abbrev cc5_sem5_1 : DmaSem sig := 53
abbrev cc6_sem0_0 : DmaSem sig := 54
abbrev cc6_sem0_1 : DmaSem sig := 55
abbrev cc6_sem1_0 : DmaSem sig := 56
abbrev cc6_sem2_0 : DmaSem sig := 57
abbrev cc6_sem3_0 : DmaSem sig := 58
abbrev cc6_sem3_1 : DmaSem sig := 59
abbrev cc6_sem4_0 : DmaSem sig := 60
abbrev cc6_sem5_0 : DmaSem sig := 61
abbrev cc6_sem5_1 : DmaSem sig := 62
abbrev cc6_sem6_0 : DmaSem sig := 63
abbrev cc6_sem7_0 : DmaSem sig := 64
abbrev cc7_sem0_0 : DmaSem sig := 65
abbrev cc7_sem0_1 : DmaSem sig := 66
abbrev cc7_sem1_0 : DmaSem sig := 67
abbrev cc7_sem2_0 : DmaSem sig := 68
abbrev cc7_sem3_0 : DmaSem sig := 69
abbrev cc7_sem4_0 : DmaSem sig := 70
abbrev cc7_sem5_0 : DmaSem sig := 71
abbrev cc7_sem5_1 : DmaSem sig := 72
abbrev cc8_sem0_0 : DmaSem sig := 73
abbrev cc8_sem0_1 : DmaSem sig := 74
abbrev cc8_sem1_0 : DmaSem sig := 75
abbrev cc8_sem2_0 : DmaSem sig := 76
abbrev cc8_sem3_0 : DmaSem sig := 77
abbrev cc8_sem3_1 : DmaSem sig := 78
abbrev cc8_sem4_0 : DmaSem sig := 79
abbrev cc8_sem5_0 : DmaSem sig := 80
abbrev cc8_sem5_1 : DmaSem sig := 81
abbrev cc8_sem6_0 : DmaSem sig := 82
abbrev cc8_sem7_0 : DmaSem sig := 83
abbrev cc9_sem0_0 : DmaSem sig := 84
abbrev cc9_sem0_1 : DmaSem sig := 85
abbrev cc9_sem1_0 : DmaSem sig := 86
abbrev cc9_sem2_0 : DmaSem sig := 87
abbrev cc9_sem3_0 : DmaSem sig := 88
abbrev cc9_sem4_0 : DmaSem sig := 89
abbrev cc9_sem5_0 : DmaSem sig := 90
abbrev cc9_sem5_1 : DmaSem sig := 91
abbrev cc10_sem0_0 : DmaSem sig := 92
abbrev cc10_sem0_1 : DmaSem sig := 93
abbrev cc10_sem1_0 : DmaSem sig := 94
abbrev cc10_sem2_0 : DmaSem sig := 95
abbrev cc10_sem3_0 : DmaSem sig := 96
abbrev cc10_sem4_0 : DmaSem sig := 97
abbrev cc10_sem5_0 : DmaSem sig := 98
abbrev cc10_sem5_1 : DmaSem sig := 99

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x32 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S32x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 1 → Memref sig .tc .vmem S64x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S5000x128 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 1 → Memref sig .tc .vmem S128x64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S5000x64 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev stage6_6 : Fin 1 → Memref sig .tc .vmem S1x64 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S1x64 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x64 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S5000x64 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_6 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_7 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 2 → Memref sig .tc .vmem S5000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S64x32 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x32 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S5000x64 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev stage8_4 : Fin 1 → Memref sig .tc .vmem S64x32 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S5000x32 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev stage8_6 : Fin 1 → Memref sig .tc .vmem S1x32 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![false]

abbrev stage8_7 : Fin 1 → Memref sig .tc .vmem S1x32 .f32 := fun | 0 => Memref.whole cc8_stg7_0 | ⟨_ + 1, h⟩ => absurd h (Nat.not_lt.2 (Nat.le_add_left _ _))
abbrev sem8_7 : Fin 1 → DmaSem sig := fun | 0 => cc8_sem7_0 | ⟨_ + 1, h⟩ => absurd h (Nat.not_lt.2 (Nat.le_add_left _ _))
abbrev reads8_7 : Fin grid8.rank → Bool := ![false]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x32 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x32 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x32 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x32 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x32 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 2 → Memref sig .tc .vmem S5000x32 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

abbrev grid10 : Pipeline.Grid := ⟨1, ![10], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S5000x32 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S32x16 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x16 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S16x2 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S1x2 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 2 → Memref sig .tc .vmem S5000x2 .f32 := fun | 0 => Memref.whole cc10_stg5_0 | 1 => Memref.whole cc10_stg5_1 | ⟨_ + 2, h⟩ => absurd h (Nat.not_lt.2 (Nat.le_add_left _ _))
abbrev sem10_5 : Fin 2 → DmaSem sig := fun | 0 => cc10_sem5_0 | 1 => cc10_sem5_1 | ⟨_ + 2, h⟩ => absurd h (Nat.not_lt.2 (Nat.le_add_left _ _))
abbrev reads10_5 : Fin grid10.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  shapeCasts_S32_S1x32 : S32.ShapeCasts S1x32
  inb_S5000x5_S5000x5_0_0 : ∀ a, (![0, 0] : Fin 2 → Nat) a + S5000x5.size a ≤ S5000x5.size a
  h_S5000x5 : 0 < S5000x5.numel
  bitsLt_bf16_f32 : FTy.bits .bf16 < FTy.bits .f32
  inb_S5x32_S5x32_0_0 : ∀ a, (![0, 0] : Fin 2 → Nat) a + S5x32.size a ≤ S5x32.size a
  h_S5x32 : 0 < S5x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S5000x32_S5000x32_0_0 : ∀ a, (![0, 0] : Fin 2 → Nat) a + S5000x32.size a ≤ S5000x32.size a
  h_S5000x32 : 0 < S5000x32.numel
  reduces_S5000x32_S32 : S5000x32.Reduces [0] S32
  bcast_S_S1x32 : S_.BroadcastsInDim S1x32 (![] : Fin 0 → Fin S1x32.rank)
  shapeCasts_S5000x32_S5000x32 : S5000x32.ShapeCasts S5000x32
  bcast_S_S800000 : S_.BroadcastsInDim S800000 (![] : Fin 0 → Fin S800000.rank)
  bcast_S800000_S800000x1_0 : S800000.BroadcastsInDim S800000x1 (![0] : Fin 1 → Fin S800000x1.rank)
  bcast_S_S50000x32 : S_.BroadcastsInDim S50000x32 (![] : Fin 0 → Fin S50000x32.rank)
  shapeCasts_S64_S1x64 : S64.ShapeCasts S1x64
  inb_S32x64_S32x64_0_0 : ∀ a, (![0, 0] : Fin 2 → Nat) a + S32x64.size a ≤ S32x64.size a
  h_S32x64 : 0 < S32x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  reduces_S5000x64_S64 : S5000x64.Reduces [0] S64
  bcast_S_S1x64 : S_.BroadcastsInDim S1x64 (![] : Fin 0 → Fin S1x64.rank)
  shapeCasts_S5000x64_S5000x64 : S5000x64.ShapeCasts S5000x64
  bcast_S_S50000x64 : S_.BroadcastsInDim S50000x64 (![] : Fin 0 → Fin S50000x64.rank)
  shapeCasts_S128_S1x128 : S128.ShapeCasts S1x128
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  reduces_S5000x128_S128 : S5000x128.Reduces [0] S128
  bcast_S_S1x128 : S_.BroadcastsInDim S1x128 (![] : Fin 0 → Fin S1x128.rank)
  shapeCasts_S5000x128_S5000x128 : S5000x128.ShapeCasts S5000x128
  bcast_S_S50000x128 : S_.BroadcastsInDim S50000x128 (![] : Fin 0 → Fin S50000x128.rank)
  inb_S128x64_S128x64_0_0 : ∀ a, (![0, 0] : Fin 2 → Nat) a + S128x64.size a ≤ S128x64.size a
  h_S128x64 : 0 < S128x64.numel
  inb_S64x32_S64x32_0_0 : ∀ a, (![0, 0] : Fin 2 → Nat) a + S64x32.size a ≤ S64x32.size a
  h_S64x32 : 0 < S64x32.numel
  shapeCasts_S16_S1x16 : S16.ShapeCasts S1x16
  shapeCasts_S2_S1x2 : S2.ShapeCasts S1x2
  inb_S32x16_S32x16_0_0 : ∀ a, (![0, 0] : Fin 2 → Nat) a + S32x16.size a ≤ S32x16.size a
  h_S32x16 : 0 < S32x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S16x2_S16x2_0_0 : ∀ a, (![0, 0] : Fin 2 → Nat) a + S16x2.size a ≤ S16x2.size a
  h_S16x2 : 0 < S16x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  inb_S5000x2_S5000x2_0_0 : ∀ a, (![0, 0] : Fin 2 → Nat) a + S5000x2.size a ≤ S5000x2.size a
  h_S5000x2 : 0 < S5000x2.numel
  dot_S5000x5_S5x32_S5000x32_1_0_0_1_n_n_wf : DotDims.WF S5000x5 S5x32 S5000x32 [1] [0] [0] [1] [] []
  gather_S50000x32_S800000x1_S800000x32_1_0_n_n_0_1_132_wf : GatherDims.WF S50000x32 S800000x1 S800000x32 [1] [0] [] [0] [] 1 ![1, 32]
  scatter_S50000x32_S800000x1_S800000x32_1_0_0_1_wf : ScatterDims.WF S50000x32 S800000x1 S800000x32 [1] [0] [0] 1
  dot_S5000x32_S32x64_S5000x64_1_0_0_1_n_n_wf : DotDims.WF S5000x32 S32x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x128_S5000x128_1_0_0_1_n_n_wf : DotDims.WF S5000x64 S64x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x64_S5000x64_1_0_0_1_n_n_wf : DotDims.WF S5000x128 S128x64 S5000x64 [1] [0] [0] [1] [] []
  dot_S5000x64_S64x32_S5000x32_1_0_0_1_n_n_wf : DotDims.WF S5000x64 S64x32 S5000x32 [1] [0] [0] [1] [] []
  dot_S5000x32_S32x16_S5000x16_1_0_0_1_n_n_wf : DotDims.WF S5000x32 S32x16 S5000x16 [1] [0] [0] [1] [] []
  dot_S5000x16_S16x2_S5000x2_1_0_0_1_n_n_wf : DotDims.WF S5000x16 S16x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x5.size a ≤ S50000x5.size a
  hwx0_0 : ∀ i : grid0.Coords, EltTy.bits .f32 = 32 ∨ (Rect.block (s := S50000x5) S5000x5.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S5x32.size a ≤ S5x32.size a
  hwx0_1 : ∀ i : grid0.Coords, EltTy.bits .f32 = 32 ∨ (Rect.block (s := S5x32) S5x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x32.size a ≤ S50000x32.size a
  hwx0_3 : ∀ i : grid0.Coords, EltTy.bits .f32 = 32 ∨ (Rect.block (s := S50000x32) S5000x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x32.size a ≤ S1x32.size a
  hwx0_5 : ∀ i : grid0.Coords, EltTy.bits .f32 = 32 ∨ (Rect.block (s := S1x32) S1x32.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S50000x32.size a
  hwx1_0 : ∀ i : grid1.Coords, EltTy.bits .f32 = 32 ∨ (Rect.block (s := S50000x32) S5000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x32.size a ≤ S1x32.size a
  hwx1_1 : ∀ i : grid1.Coords, EltTy.bits .f32 = 32 ∨ (Rect.block (s := S1x32) S1x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x32.size a ≤ S1x32.size a
  hwx1_2 : ∀ i : grid1.Coords, EltTy.bits .f32 = 32 ∨ (Rect.block (s := S1x32) S1x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x32.size a ≤ S1x32.size a
  hwx1_4 : ∀ i : grid1.Coords, EltTy.bits .f32 = 32 ∨ (Rect.block (s := S1x32) S1x32.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x32.size a ≤ S50000x32.size a
  hwx1_5 : ∀ i : grid1.Coords, EltTy.bits .f32 = 32 ∨ (Rect.block (s := S50000x32) S5000x32.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x32.size a ≤ S50000x32.size a
  hwx2_0 : ∀ i : grid2.Coords, EltTy.bits .f32 = 32 ∨ (Rect.block (s := S50000x32) S5000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x64.size a ≤ S32x64.size a
  hwx2_1 : ∀ i : grid2.Coords, EltTy.bits .f32 = 32 ∨ (Rect.block (s := S32x64) S32x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x32.size a ≤ S50000x32.size a
  hwx2_3 : ∀ i : grid2.Coords, EltTy.bits .f32 = 32 ∨ (Rect.block (s := S50000x32) S5000x32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S32x64.size a ≤ S32x64.size a
  hwx2_4 : ∀ i : grid2.Coords, EltTy.bits .f32 = 32 ∨ (Rect.block (s := S32x64) S32x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S50000x64.size a
  hwx2_5 : ∀ i : grid2.Coords, EltTy.bits .f32 = 32 ∨ (Rect.block (s := S50000x64) S5000x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x64.size a ≤ S1x64.size a
  hwx2_7 : ∀ i : grid2.Coords, EltTy.bits .f32 = 32 ∨ (Rect.block (s := S1x64) S1x64.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x64.size a ≤ S50000x64.size a
  hwx3_5 : ∀ i : grid3.Coords, EltTy.bits .f32 = 32 ∨ (Rect.block (s := S50000x64) S5000x64.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .f32 = 32 ∨ (Rect.block (s := S50000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x128.size a ≤ S64x128.size a
  hwx4_1 : ∀ i : grid4.Coords, EltTy.bits .f32 = 32 ∨ (Rect.block (s := S64x128) S64x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x64.size a ≤ S50000x64.size a
  hwx4_3 : ∀ i : grid4.Coords, EltTy.bits .f32 = 32 ∨ (Rect.block (s := S50000x64) S5000x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S64x128.size a ≤ S64x128.size a
  hwx4_4 : ∀ i : grid4.Coords, EltTy.bits .f32 = 32 ∨ (Rect.block (s := S64x128) S64x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x128.size a ≤ S50000x128.size a
  hwx4_5 : ∀ i : grid4.Coords, EltTy.bits .f32 = 32 ∨ (Rect.block (s := S50000x128) S5000x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x128.size a ≤ S1x128.size a
  hwx4_7 : ∀ i : grid4.Coords, EltTy.bits .f32 = 32 ∨ (Rect.block (s := S1x128) S1x128.size (cc4_transform_7 i) (hinb4_7 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S50000x128.size a
  hwx5_5 : ∀ i : grid5.Coords, EltTy.bits .f32 = 32 ∨ (Rect.block (s := S50000x128) S5000x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x64.size a ≤ S128x64.size a
  hwx6_1 : ∀ i : grid6.Coords, EltTy.bits .f32 = 32 ∨ (Rect.block (s := S128x64) S128x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x128.size a ≤ S50000x128.size a
  hwx6_3 : ∀ i : grid6.Coords, EltTy.bits .f32 = 32 ∨ (Rect.block (s := S50000x128) S5000x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S128x64.size a ≤ S128x64.size a
  hwx6_4 : ∀ i : grid6.Coords, EltTy.bits .f32 = 32 ∨ (Rect.block (s := S128x64) S128x64.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S5000x64.size a ≤ S50000x64.size a
  hwx6_5 : ∀ i : grid6.Coords, EltTy.bits .f32 = 32 ∨ (Rect.block (s := S50000x64) S5000x64.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x64.size a ≤ S1x64.size a
  hwx6_6 : ∀ i : grid6.Coords, EltTy.bits .f32 = 32 ∨ (Rect.block (s := S1x64) S1x64.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S1x64.size a ≤ S1x64.size a
  hwx6_7 : ∀ i : grid6.Coords, EltTy.bits .f32 = 32 ∨ (Rect.block (s := S1x64) S1x64.size (cc6_transform_7 i) (hinb6_7 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x64.size a ≤ S50000x64.size a
  hwx7_0 : ∀ i : grid7.Coords, EltTy.bits .f32 = 32 ∨ (Rect.block (s := S50000x64) S5000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x64.size a ≤ S1x64.size a
  hwx7_1 : ∀ i : grid7.Coords, EltTy.bits .f32 = 32 ∨ (Rect.block (s := S1x64) S1x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x64.size a ≤ S1x64.size a
  hwx7_2 : ∀ i : grid7.Coords, EltTy.bits .f32 = 32 ∨ (Rect.block (s := S1x64) S1x64.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x64.size a ≤ S1x64.size a
  hwx7_3 : ∀ i : grid7.Coords, EltTy.bits .f32 = 32 ∨ (Rect.block (s := S1x64) S1x64.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x64.size a ≤ S1x64.size a
  hwx7_4 : ∀ i : grid7.Coords, EltTy.bits .f32 = 32 ∨ (Rect.block (s := S1x64) S1x64.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S5000x64.size a ≤ S50000x64.size a
  hwx7_5 : ∀ i : grid7.Coords, EltTy.bits .f32 = 32 ∨ (Rect.block (s := S50000x64) S5000x64.size (cc7_transform_5 i) (hinb7_5 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x64.size a ≤ S50000x64.size a
  hwx8_0 : ∀ i : grid8.Coords, EltTy.bits .f32 = 32 ∨ (Rect.block (s := S50000x64) S5000x64.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S64x32.size a ≤ S64x32.size a
  hwx8_1 : ∀ i : grid8.Coords, EltTy.bits .f32 = 32 ∨ (Rect.block (s := S64x32) S64x32.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x32.size a ≤ S1x32.size a
  hwx8_2 : ∀ i : grid8.Coords, EltTy.bits .f32 = 32 ∨ (Rect.block (s := S1x32) S1x32.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S5000x64.size a ≤ S50000x64.size a
  hwx8_3 : ∀ i : grid8.Coords, EltTy.bits .f32 = 32 ∨ (Rect.block (s := S50000x64) S5000x64.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S64x32.size a ≤ S64x32.size a
  hwx8_4 : ∀ i : grid8.Coords, EltTy.bits .f32 = 32 ∨ (Rect.block (s := S64x32) S64x32.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S5000x32.size a ≤ S50000x32.size a
  hwx8_5 : ∀ i : grid8.Coords, EltTy.bits .f32 = 32 ∨ (Rect.block (s := S50000x32) S5000x32.size (cc8_transform_5 i) (hinb8_5 i)).WholeWords (EltTy.packing .f32)
  hstage8_6 : ∀ j, (stage8_6 j).IsWhole
  nbuf8_6 : grid8.bufCount reads8_6 true = 1
  hreads8_6 : ∀ i i' : grid8.Coords, (∀ a, reads8_6 a = true → i a = i' a) → cc8_transform_6 i = cc8_transform_6 i'
  hinb8_6 : ∀ (i : grid8.Coords) a, (cc8_transform_6 i a + 1) * S1x32.size a ≤ S1x32.size a
  hwx8_6 : ∀ i : grid8.Coords, EltTy.bits .f32 = 32 ∨ (Rect.block (s := S1x32) S1x32.size (cc8_transform_6 i) (hinb8_6 i)).WholeWords (EltTy.packing .f32)
  hstage8_7 : ∀ j, (stage8_7 j).IsWhole
  nbuf8_7 : grid8.bufCount reads8_7 true = 1
  hreads8_7 : ∀ i i' : grid8.Coords, (∀ a, reads8_7 a = true → i a = i' a) → cc8_transform_7 i = cc8_transform_7 i'
  hinb8_7 : ∀ (i : grid8.Coords) a, (cc8_transform_7 i a + 1) * S1x32.size a ≤ S1x32.size a
  hwx8_7 : ∀ i : grid8.Coords, EltTy.bits .f32 = 32 ∨ (Rect.block (s := S1x32) S1x32.size (cc8_transform_7 i) (hinb8_7 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x32.size a ≤ S50000x32.size a
  hwx9_0 : ∀ i : grid9.Coords, EltTy.bits .f32 = 32 ∨ (Rect.block (s := S50000x32) S5000x32.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x32.size a ≤ S1x32.size a
  hwx9_1 : ∀ i : grid9.Coords, EltTy.bits .f32 = 32 ∨ (Rect.block (s := S1x32) S1x32.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x32.size a ≤ S1x32.size a
  hwx9_2 : ∀ i : grid9.Coords, EltTy.bits .f32 = 32 ∨ (Rect.block (s := S1x32) S1x32.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x32.size a ≤ S1x32.size a
  hwx9_3 : ∀ i : grid9.Coords, EltTy.bits .f32 = 32 ∨ (Rect.block (s := S1x32) S1x32.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x32.size a ≤ S1x32.size a
  hwx9_4 : ∀ i : grid9.Coords, EltTy.bits .f32 = 32 ∨ (Rect.block (s := S1x32) S1x32.size (cc9_transform_4 i) (hinb9_4 i)).WholeWords (EltTy.packing .f32)
  hstage9_5 : ∀ j, (stage9_5 j).IsWhole
  nbuf9_5 : grid9.bufCount reads9_5 false = 2
  hreads9_5 : ∀ i i' : grid9.Coords, (∀ a, reads9_5 a = true → i a = i' a) → cc9_transform_5 i = cc9_transform_5 i'
  hinb9_5 : ∀ (i : grid9.Coords) a, (cc9_transform_5 i a + 1) * S5000x32.size a ≤ S50000x32.size a
  hwx9_5 : ∀ i : grid9.Coords, EltTy.bits .f32 = 32 ∨ (Rect.block (s := S50000x32) S5000x32.size (cc9_transform_5 i) (hinb9_5 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x32.size a ≤ S50000x32.size a
  hwx10_0 : ∀ i : grid10.Coords, EltTy.bits .f32 = 32 ∨ (Rect.block (s := S50000x32) S5000x32.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S32x16.size a ≤ S32x16.size a
  hwx10_1 : ∀ i : grid10.Coords, EltTy.bits .f32 = 32 ∨ (Rect.block (s := S32x16) S32x16.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x16.size a ≤ S1x16.size a
  hwx10_2 : ∀ i : grid10.Coords, EltTy.bits .f32 = 32 ∨ (Rect.block (s := S1x16) S1x16.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S16x2.size a ≤ S16x2.size a
  hwx10_3 : ∀ i : grid10.Coords, EltTy.bits .f32 = 32 ∨ (Rect.block (s := S16x2) S16x2.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S1x2.size a ≤ S1x2.size a
  hwx10_4 : ∀ i : grid10.Coords, EltTy.bits .f32 = 32 ∨ (Rect.block (s := S1x2) S1x2.size (cc10_transform_4 i) (hinb10_4 i)).WholeWords (EltTy.packing .f32)
  hstage10_5 : ∀ j, (stage10_5 j).IsWhole
  nbuf10_5 : grid10.bufCount reads10_5 false = 2
  hreads10_5 : ∀ i i' : grid10.Coords, (∀ a, reads10_5 a = true → i a = i' a) → cc10_transform_5 i = cc10_transform_5 i'
  hinb10_5 : ∀ (i : grid10.Coords) a, (cc10_transform_5 i a + 1) * S5000x2.size a ≤ S50000x2.size a
  hwx10_5 : ∀ i : grid10.Coords, EltTy.bits .f32 = 32 ∨ (Rect.block (s := S50000x2) S5000x2.size (cc10_transform_5 i) (hinb10_5 i)).WholeWords (EltTy.packing .f32)

variable [Facts₀]

def dot_S5000x5_S5x32_S5000x32_1_0_0_1_n_n : DotDims S5000x5 S5x32 S5000x32 where
  lhsContracting := [1]
  rhsContracting := [0]
  lhsNonContracting := [0]
  rhsNonContracting := [1]
  lhsBatch := []
  rhsBatch := []
  wf := dot_S5000x5_S5x32_S5000x32_1_0_0_1_n_n_wf
def gather_S50000x32_S800000x1_S800000x32_1_0_n_n_0_1_132 : GatherDims S50000x32 S800000x1 S800000x32 where
  offsetDims := [1]
  collapsedSliceDims := [0]
  operandBatchingDims := []
  startIndicesBatchingDims := []
  startIndexMap := [0]
  indexVectorDim := 1
  sliceSizes := ![1, 32]
  wf := gather_S50000x32_S800000x1_S800000x32_1_0_n_n_0_1_132_wf
def scatter_S50000x32_S800000x1_S800000x32_1_0_0_1 : ScatterDims S50000x32 S800000x1 S800000x32 where
  updateWindowDims := [1]
  insertedWindowDims := [0]
  scatterDimsToOperandDims := [0]
  indexVectorDim := 1
  wf := scatter_S50000x32_S800000x1_S800000x32_1_0_0_1_wf
def dot_S5000x32_S32x64_S5000x64_1_0_0_1_n_n : DotDims S5000x32 S32x64 S5000x64 where
  lhsContracting := [1]
  rhsContracting := [0]
  lhsNonContracting := [0]
  rhsNonContracting := [1]
  lhsBatch := []
  rhsBatch := []
  wf := dot_S5000x32_S32x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def dot_S5000x32_S32x16_S5000x16_1_0_0_1_n_n : DotDims S5000x32 S32x16 S5000x16 where
  lhsContracting := [1]
  rhsContracting := [0]
  lhsNonContracting := [0]
  rhsNonContracting := [1]
  lhsBatch := []
  rhsBatch := []
  wf := dot_S5000x32_S32x16_S5000x16_1_0_0_1_n_n_wf
def dot_S5000x16_S16x2_S5000x2_1_0_0_1_n_n : DotDims S5000x16 S16x2 S5000x2 where
  lhsContracting := [1]
  rhsContracting := [0]
  lhsNonContracting := [0]
  rhsNonContracting := [1]
  lhsBatch := []
  rhsBatch := []
  wf := dot_S5000x16_S16x2_S5000x2_1_0_0_1_n_n_wf

abbrev win0_0 : Pipeline.Window sig grid0 :=
  Pipeline.Window.ofSpec (Memref.whole main_arg0) S5000x5.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S5x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5_0) S5000x32.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5_1) S1x32.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5_2) S1x32.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v5_0) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S1x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v11) S1x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v12) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v13) S1x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v14) S5000x32.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v24) S5000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S32x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v25) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v14) S5000x32.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_arg8) S32x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v26_0) S5000x64.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v26_1) S1x64.size cc2_transform_6 reads2_6 true true 1 stage2_6 sem2_6
    hrank2 hreads2_6 hinb2_6 nbuf2_6 (Memref.isWhole_whole _) hwx2_6 hstage2_6

abbrev win2_7 : Pipeline.Window sig grid2 :=
  Pipeline.Window.ofSpec (Memref.whole main_v26_2) S1x64.size cc2_transform_7 reads2_7 true true 1 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v26_0) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v28) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v32) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v33) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v34) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v35) S5000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v45) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg11) S64x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v46) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v35) S5000x64.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_arg13) S64x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v47_0) S5000x128.size cc4_transform_5 reads4_5 true false 2 stage4_5 sem4_5
    hrank4 hreads4_5 hinb4_5 nbuf4_5 (Memref.isWhole_whole _) hwx4_5 hstage4_5

abbrev win4_6 : Pipeline.Window sig grid4 :=
  Pipeline.Window.ofSpec (Memref.whole main_v47_1) S1x128.size cc4_transform_6 reads4_6 true true 1 stage4_6 sem4_6
    hrank4 hreads4_6 hinb4_6 nbuf4_6 (Memref.isWhole_whole _) hwx4_6 hstage4_6

abbrev win4_7 : Pipeline.Window sig grid4 :=
  Pipeline.Window.ofSpec (Memref.whole main_v47_2) S1x128.size cc4_transform_7 reads4_7 true true 1 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev win5_0 : Pipeline.Window sig grid5 :=
  Pipeline.Window.ofSpec (Memref.whole main_v47_0) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v49) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v53) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v54) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v55) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v56) S5000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v66) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg16) S128x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v67) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v56) S5000x128.size cc6_transform_3 reads6_3 false false 2 stage6_3 sem6_3
    hrank6 hreads6_3 hinb6_3 nbuf6_3 (Memref.isWhole_whole _) hwx6_3 hstage6_3

abbrev win6_4 : Pipeline.Window sig grid6 :=
  Pipeline.Window.ofSpec (Memref.whole main_arg18) S128x64.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v68_0) S5000x64.size cc6_transform_5 reads6_5 true false 2 stage6_5 sem6_5
    hrank6 hreads6_5 hinb6_5 nbuf6_5 (Memref.isWhole_whole _) hwx6_5 hstage6_5

abbrev win6_6 : Pipeline.Window sig grid6 :=
  Pipeline.Window.ofSpec (Memref.whole main_v68_1) S1x64.size cc6_transform_6 reads6_6 true true 1 stage6_6 sem6_6
    hrank6 hreads6_6 hinb6_6 nbuf6_6 (Memref.isWhole_whole _) hwx6_6 hstage6_6

abbrev win6_7 : Pipeline.Window sig grid6 :=
  Pipeline.Window.ofSpec (Memref.whole main_v68_2) S1x64.size cc6_transform_7 reads6_7 true true 1 stage6_7 sem6_7
    hrank6 hreads6_7 hinb6_7 nbuf6_7 (Memref.isWhole_whole _) hwx6_7 hstage6_7

abbrev win6 : Fin 8 → Pipeline.Window sig grid6 := fun | 0 => win6_0 | 1 => win6_1 | 2 => win6_2 | 3 => win6_3 | 4 => win6_4 | 5 => win6_5 | 6 => win6_6 | 7 => win6_7 | ⟨_ + 8, h⟩ => absurd h (Nat.not_lt.2 (Nat.le_add_left _ _))
abbrev spec6 : Fin 8 → Pipeline.WinSpec sig grid6.rank := fun w => (win6 w).toWinSpec

abbrev win7_0 : Pipeline.Window sig grid7 :=
  Pipeline.Window.ofSpec (Memref.whole main_v68_0) S5000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v70) S1x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v74) S1x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v75) S1x64.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v76) S1x64.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v77) S5000x64.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev win8_0 : Pipeline.Window sig grid8 :=
  Pipeline.Window.ofSpec (Memref.whole main_v87) S5000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg21) S64x32.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v88) S1x32.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v77) S5000x64.size cc8_transform_3 reads8_3 false false 2 stage8_3 sem8_3
    hrank8 hreads8_3 hinb8_3 nbuf8_3 (Memref.isWhole_whole _) hwx8_3 hstage8_3

abbrev win8_4 : Pipeline.Window sig grid8 :=
  Pipeline.Window.ofSpec (Memref.whole main_arg23) S64x32.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v89_0) S5000x32.size cc8_transform_5 reads8_5 true false 2 stage8_5 sem8_5
    hrank8 hreads8_5 hinb8_5 nbuf8_5 (Memref.isWhole_whole _) hwx8_5 hstage8_5

abbrev win8_6 : Pipeline.Window sig grid8 :=
  Pipeline.Window.ofSpec (Memref.whole main_v89_1) S1x32.size cc8_transform_6 reads8_6 true true 1 stage8_6 sem8_6
    hrank8 hreads8_6 hinb8_6 nbuf8_6 (Memref.isWhole_whole _) hwx8_6 hstage8_6

abbrev win8_7 : Pipeline.Window sig grid8 :=
  Pipeline.Window.ofSpec (Memref.whole main_v89_2) S1x32.size cc8_transform_7 reads8_7 true true 1 stage8_7 sem8_7
    hrank8 hreads8_7 hinb8_7 nbuf8_7 (Memref.isWhole_whole _) hwx8_7 hstage8_7

abbrev win8 : Fin 8 → Pipeline.Window sig grid8 := fun | 0 => win8_0 | 1 => win8_1 | 2 => win8_2 | 3 => win8_3 | 4 => win8_4 | 5 => win8_5 | 6 => win8_6 | 7 => win8_7 | ⟨_ + 8, h⟩ => absurd h (Nat.not_lt.2 (Nat.le_add_left _ _))
abbrev spec8 : Fin 8 → Pipeline.WinSpec sig grid8.rank := fun w => (win8 w).toWinSpec

abbrev win9_0 : Pipeline.Window sig grid9 :=
  Pipeline.Window.ofSpec (Memref.whole main_v89_0) S5000x32.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v91) S1x32.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v95) S1x32.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v96) S1x32.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v97) S1x32.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v98) S5000x32.size cc9_transform_5 reads9_5 true false 2 stage9_5 sem9_5
    hrank9 hreads9_5 hinb9_5 nbuf9_5 (Memref.isWhole_whole _) hwx9_5 hstage9_5

abbrev win9 : Fin 6 → Pipeline.Window sig grid9 := fun | 0 => win9_0 | 1 => win9_1 | 2 => win9_2 | 3 => win9_3 | 4 => win9_4 | 5 => win9_5 | ⟨_ + 6, h⟩ => absurd h (Nat.not_lt.2 (Nat.le_add_left _ _))
abbrev spec9 : Fin 6 → Pipeline.WinSpec sig grid9.rank := fun w => (win9 w).toWinSpec

abbrev win10_0 : Pipeline.Window sig grid10 :=
  Pipeline.Window.ofSpec (Memref.whole main_v98) S5000x32.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_arg26) S32x16.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v99) S1x16.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_arg28) S16x2.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v100) S1x2.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_v101) S5000x2.size cc10_transform_5 reads10_5 true false 2 stage10_5 sem10_5
    hrank10 hreads10_5 hinb10_5 nbuf10_5 (Memref.isWhole_whole _) hwx10_5 hstage10_5

abbrev win10 : Fin 6 → Pipeline.Window sig grid10 := fun | 0 => win10_0 | 1 => win10_1 | 2 => win10_2 | 3 => win10_3 | 4 => win10_4 | 5 => win10_5 | ⟨_ + 6, h⟩ => absurd h (Nat.not_lt.2 (Nat.le_add_left _ _))
abbrev spec10 : Fin 6 → Pipeline.WinSpec sig grid10.rank := fun w => (win10 w).toWinSpec

class Facts : Prop extends Facts₀ where

variable [Facts]
-- ==== ReferenceIdeal.lean ====
abbrev S50000x5 : Shape := ⟨2, ![50000, 5]⟩
abbrev S2x800000 : Shape := ⟨2, ![2, 800000]⟩
abbrev S5x32 : Shape := ⟨2, ![5, 32]⟩
abbrev S32 : Shape := ⟨1, ![32]⟩
abbrev S32x64 : Shape := ⟨2, ![32, 64]⟩
abbrev S64 : Shape := ⟨1, ![64]⟩
abbrev S64x128 : Shape := ⟨2, ![64, 128]⟩
abbrev S128 : Shape := ⟨1, ![128]⟩
abbrev S128x64 : Shape := ⟨2, ![128, 64]⟩
abbrev S64x32 : Shape := ⟨2, ![64, 32]⟩
abbrev S32x16 : Shape := ⟨2, ![32, 16]⟩
abbrev S16 : Shape := ⟨1, ![16]⟩
abbrev S16x2 : Shape := ⟨2, ![16, 2]⟩
abbrev S2 : Shape := ⟨1, ![2]⟩
abbrev S1x800000 : Shape := ⟨2, ![1, 800000]⟩
abbrev S800000 : Shape := ⟨1, ![800000]⟩
abbrev S50000x32 : Shape := ⟨2, ![50000, 32]⟩
abbrev S1x32 : Shape := ⟨2, ![1, 32]⟩
abbrev S_ : Shape := ⟨0, ![]⟩
abbrev S800000x1 : Shape := ⟨2, ![800000, 1]⟩
abbrev S800000x32 : Shape := ⟨2, ![800000, 32]⟩
abbrev S50000x64 : Shape := ⟨2, ![50000, 64]⟩
abbrev S1x64 : Shape := ⟨2, ![1, 64]⟩
abbrev S800000x64 : Shape := ⟨2, ![800000, 64]⟩
abbrev S50000x128 : Shape := ⟨2, ![50000, 128]⟩
abbrev S1x128 : Shape := ⟨2, ![1, 128]⟩
abbrev S800000x128 : Shape := ⟨2, ![800000, 128]⟩
abbrev S50000x16 : Shape := ⟨2, ![50000, 16]⟩
abbrev S1x16 : Shape := ⟨2, ![1, 16]⟩
abbrev S50000x2 : Shape := ⟨2, ![50000, 2]⟩
abbrev S1x2 : Shape := ⟨2, ![1, 2]⟩

abbrev nBuf : Space → Nat
  | .hbm => 360
  | .vmem => 0
  | .smem => 0
  | _ => 0

abbrev hbmTy0_0 (i : Nat) : BufTy := match i % 128 with
  | 0 => ⟨S50000x5, .f32⟩
  | 1 => ⟨S2x800000, .i32⟩
  | 2 => ⟨S5x32, .f32⟩
  | 3 => ⟨S32, .f32⟩
  | 4 => ⟨S32, .f32⟩
  | 5 => ⟨S32, .f32⟩
  | 6 => ⟨S32x64, .f32⟩
  | 7 => ⟨S64, .f32⟩
  | 8 => ⟨S32x64, .f32⟩
  | 9 => ⟨S64, .f32⟩
  | 10 => ⟨S64, .f32⟩
  | 11 => ⟨S64x128, .f32⟩
  | 12 => ⟨S128, .f32⟩
  | 13 => ⟨S64x128, .f32⟩
  | 14 => ⟨S128, .f32⟩
  | 15 => ⟨S128, .f32⟩
  | 16 => ⟨S128x64, .f32⟩
  | 17 => ⟨S64, .f32⟩
  | 18 => ⟨S128x64, .f32⟩
  | 19 => ⟨S64, .f32⟩
  | 20 => ⟨S64, .f32⟩
  | 21 => ⟨S64x32, .f32⟩
  | 22 => ⟨S32, .f32⟩
  | 23 => ⟨S64x32, .f32⟩
  | 24 => ⟨S32, .f32⟩
  | 25 => ⟨S32, .f32⟩
  | 26 => ⟨S32x16, .f32⟩
  | 27 => ⟨S16, .f32⟩
  | 28 => ⟨S16x2, .f32⟩
  | 29 => ⟨S2, .f32⟩
  | 30 => ⟨S1x800000, .i32⟩
  | 31 => ⟨S800000, .i32⟩
  | 32 => ⟨S1x800000, .i32⟩
  | 33 => ⟨S800000, .i32⟩
  | 34 => ⟨S50000x32, .f32⟩
  | 35 => ⟨S1x32, .f32⟩
  | 36 => ⟨S50000x32, .f32⟩
  | 37 => ⟨S50000x32, .f32⟩
  | 38 => ⟨S_, .f32⟩
  | 39 => ⟨S50000x32, .f32⟩
  | 40 => ⟨S50000x32, .f32⟩
  | 41 => ⟨S_, .f32⟩
  | 42 => ⟨S32, .f32⟩
  | 43 => ⟨S_, .f32⟩
  | 44 => ⟨S32, .f32⟩
  | 45 => ⟨S32, .f32⟩
  | 46 => ⟨S_, .i32⟩
  | 47 => ⟨S_, .f32⟩
  | 48 => ⟨S32, .f32⟩
  | 49 => ⟨S1x32, .f32⟩
  | 50 => ⟨S_, .f32⟩
  | 51 => ⟨S1x32, .f32⟩
  | 52 => ⟨S1x32, .f32⟩
  | 53 => ⟨S50000x32, .f32⟩
  | 54 => ⟨S50000x32, .f32⟩
  | 55 => ⟨S50000x32, .f32⟩
  | 56 => ⟨S_, .f32⟩
  | 57 => ⟨S_, .f32⟩
  | 58 => ⟨S_, .f32⟩
  | 59 => ⟨S_, .f32⟩
  | 60 => ⟨S32, .f32⟩
  | 61 => ⟨S32, .f32⟩
  | 62 => ⟨S32, .f32⟩
  | 63 => ⟨S_, .f32⟩
  | 64 => ⟨S_, .i1⟩
  | 65 => ⟨S_, .f32⟩
  | 66 => ⟨S_, .f32⟩
  | 67 => ⟨S32, .f32⟩
  | 68 => ⟨S32, .f32⟩
  | 69 => ⟨S1x32, .f32⟩
  | 70 => ⟨S50000x32, .f32⟩
  | 71 => ⟨S50000x32, .f32⟩
  | 72 => ⟨S_, .f32⟩
  | 73 => ⟨S32, .f32⟩
  | 74 => ⟨S32, .f32⟩
  | 75 => ⟨S32, .f32⟩
  | 76 => ⟨S1x32, .f32⟩
  | 77 => ⟨S50000x32, .f32⟩
  | 78 => ⟨S50000x32, .f32⟩
  | 79 => ⟨S1x32, .f32⟩
  | 80 => ⟨S50000x32, .f32⟩
  | 81 => ⟨S50000x32, .f32⟩
  | 82 => ⟨S1x32, .f32⟩
  | 83 => ⟨S50000x32, .f32⟩
  | 84 => ⟨S50000x32, .f32⟩
  | 85 => ⟨S_, .i32⟩
  | 86 => ⟨S800000, .i32⟩
  | 87 => ⟨S800000, .i1⟩
  | 88 => ⟨S_, .i32⟩
  | 89 => ⟨S800000, .i32⟩
  | 90 => ⟨S800000, .i32⟩
  | 91 => ⟨S800000, .i32⟩
  | 92 => ⟨S800000x1, .i32⟩
  | 93 => ⟨S800000x32, .f32⟩
  | 94 => ⟨S_, .f32⟩
  | 95 => ⟨S50000x32, .f32⟩
  | 96 => ⟨S800000x1, .i32⟩
  | 97 => ⟨S50000x32, .f32⟩
  | 98 => ⟨S50000x64, .f32⟩
  | 99 => ⟨S1x64, .f32⟩
  | 100 => ⟨S50000x64, .f32⟩
  | 101 => ⟨S50000x64, .f32⟩
  | 102 => ⟨S50000x64, .f32⟩
  | 103 => ⟨S50000x64, .f32⟩
  | 104 => ⟨S_, .f32⟩
  | 105 => ⟨S64, .f32⟩
  | 106 => ⟨S_, .f32⟩
  | 107 => ⟨S64, .f32⟩
  | 108 => ⟨S64, .f32⟩
  | 109 => ⟨S_, .i32⟩
  | 110 => ⟨S_, .f32⟩
  | 111 => ⟨S64, .f32⟩
  | 112 => ⟨S1x64, .f32⟩
  | 113 => ⟨S_, .f32⟩
  | 114 => ⟨S1x64, .f32⟩
  | 115 => ⟨S1x64, .f32⟩
  | 116 => ⟨S50000x64, .f32⟩
  | 117 => ⟨S50000x64, .f32⟩
  | 118 => ⟨S50000x64, .f32⟩
  | 119 => ⟨S_, .f32⟩
  | 120 => ⟨S_, .f32⟩
  | 121 => ⟨S_, .f32⟩
  | 122 => ⟨S_, .f32⟩
  | 123 => ⟨S64, .f32⟩
  | 124 => ⟨S64, .f32⟩
  | 125 => ⟨S64, .f32⟩
  | 126 => ⟨S_, .f32⟩
  | 127 => ⟨S_, .i1⟩
  | _ => ⟨S50000x5, .f32⟩

abbrev hbmTy0_1 (i : Nat) : BufTy := match i % 128 with
  | 0 => ⟨S_, .f32⟩
  | 1 => ⟨S_, .f32⟩
  | 2 => ⟨S64, .f32⟩
  | 3 => ⟨S64, .f32⟩
  | 4 => ⟨S1x64, .f32⟩
  | 5 => ⟨S50000x64, .f32⟩
  | 6 => ⟨S50000x64, .f32⟩
  | 7 => ⟨S_, .f32⟩
  | 8 => ⟨S64, .f32⟩
  | 9 => ⟨S64, .f32⟩
  | 10 => ⟨S64, .f32⟩
  | 11 => ⟨S1x64, .f32⟩
  | 12 => ⟨S50000x64, .f32⟩
  | 13 => ⟨S50000x64, .f32⟩
  | 14 => ⟨S1x64, .f32⟩
  | 15 => ⟨S50000x64, .f32⟩
  | 16 => ⟨S50000x64, .f32⟩
  | 17 => ⟨S1x64, .f32⟩
  | 18 => ⟨S50000x64, .f32⟩
  | 19 => ⟨S50000x64, .f32⟩
  | 20 => ⟨S_, .f32⟩
  | 21 => ⟨S50000x64, .f32⟩
  | 22 => ⟨S50000x64, .f32⟩
  | 23 => ⟨S_, .i32⟩
  | 24 => ⟨S800000, .i32⟩
  | 25 => ⟨S800000, .i1⟩
  | 26 => ⟨S_, .i32⟩
  | 27 => ⟨S800000, .i32⟩
  | 28 => ⟨S800000, .i32⟩
  | 29 => ⟨S800000, .i32⟩
  | 30 => ⟨S800000x1, .i32⟩
  | 31 => ⟨S800000x64, .f32⟩
  | 32 => ⟨S_, .f32⟩
  | 33 => ⟨S50000x64, .f32⟩
  | 34 => ⟨S800000x1, .i32⟩
  | 35 => ⟨S50000x64, .f32⟩
  | 36 => ⟨S50000x128, .f32⟩
  | 37 => ⟨S1x128, .f32⟩
  | 38 => ⟨S50000x128, .f32⟩
  | 39 => ⟨S50000x128, .f32⟩
  | 40 => ⟨S50000x128, .f32⟩
  | 41 => ⟨S50000x128, .f32⟩
  | 42 => ⟨S_, .f32⟩
  | 43 => ⟨S128, .f32⟩
  | 44 => ⟨S_, .f32⟩
  | 45 => ⟨S128, .f32⟩
  | 46 => ⟨S128, .f32⟩
  | 47 => ⟨S_, .i32⟩
  | 48 => ⟨S_, .f32⟩
  | 49 => ⟨S128, .f32⟩
  | 50 => ⟨S1x128, .f32⟩
  | 51 => ⟨S_, .f32⟩
  | 52 => ⟨S1x128, .f32⟩
  | 53 => ⟨S1x128, .f32⟩
  | 54 => ⟨S50000x128, .f32⟩
  | 55 => ⟨S50000x128, .f32⟩
  | 56 => ⟨S50000x128, .f32⟩
  | 57 => ⟨S_, .f32⟩
  | 58 => ⟨S_, .f32⟩
  | 59 => ⟨S_, .f32⟩
  | 60 => ⟨S_, .f32⟩
  | 61 => ⟨S128, .f32⟩
  | 62 => ⟨S128, .f32⟩
  | 63 => ⟨S128, .f32⟩
  | 64 => ⟨S_, .f32⟩
  | 65 => ⟨S_, .i1⟩
  | 66 => ⟨S_, .f32⟩
  | 67 => ⟨S_, .f32⟩
  | 68 => ⟨S128, .f32⟩
  | 69 => ⟨S128, .f32⟩
  | 70 => ⟨S1x128, .f32⟩
  | 71 => ⟨S50000x128, .f32⟩
  | 72 => ⟨S50000x128, .f32⟩
  | 73 => ⟨S_, .f32⟩
  | 74 => ⟨S128, .f32⟩
  | 75 => ⟨S128, .f32⟩
  | 76 => ⟨S128, .f32⟩
  | 77 => ⟨S1x128, .f32⟩
  | 78 => ⟨S50000x128, .f32⟩
  | 79 => ⟨S50000x128, .f32⟩
  | 80 => ⟨S1x128, .f32⟩
  | 81 => ⟨S50000x128, .f32⟩
  | 82 => ⟨S50000x128, .f32⟩
  | 83 => ⟨S1x128, .f32⟩
  | 84 => ⟨S50000x128, .f32⟩
  | 85 => ⟨S50000x128, .f32⟩
  | 86 => ⟨S_, .f32⟩
  | 87 => ⟨S50000x128, .f32⟩
  | 88 => ⟨S50000x128, .f32⟩
  | 89 => ⟨S_, .i32⟩
  | 90 => ⟨S800000, .i32⟩
  | 91 => ⟨S800000, .i1⟩
  | 92 => ⟨S_, .i32⟩
  | 93 => ⟨S800000, .i32⟩
  | 94 => ⟨S800000, .i32⟩
  | 95 => ⟨S800000, .i32⟩
  | 96 => ⟨S800000x1, .i32⟩
  | 97 => ⟨S800000x128, .f32⟩
  | 98 => ⟨S_, .f32⟩
  | 99 => ⟨S50000x128, .f32⟩
  | 100 => ⟨S800000x1, .i32⟩
  | 101 => ⟨S50000x128, .f32⟩
  | 102 => ⟨S50000x64, .f32⟩
  | 103 => ⟨S1x64, .f32⟩
  | 104 => ⟨S50000x64, .f32⟩
  | 105 => ⟨S50000x64, .f32⟩
  | 106 => ⟨S50000x64, .f32⟩
  | 107 => ⟨S50000x64, .f32⟩
  | 108 => ⟨S_, .f32⟩
  | 109 => ⟨S64, .f32⟩
  | 110 => ⟨S_, .f32⟩
  | 111 => ⟨S64, .f32⟩
  | 112 => ⟨S64, .f32⟩
  | 113 => ⟨S_, .i32⟩
  | 114 => ⟨S_, .f32⟩
  | 115 => ⟨S64, .f32⟩
  | 116 => ⟨S1x64, .f32⟩
  | 117 => ⟨S_, .f32⟩
  | 118 => ⟨S1x64, .f32⟩
  | 119 => ⟨S1x64, .f32⟩
  | 120 => ⟨S50000x64, .f32⟩
  | 121 => ⟨S50000x64, .f32⟩
  | 122 => ⟨S50000x64, .f32⟩
  | 123 => ⟨S_, .f32⟩
  | 124 => ⟨S_, .f32⟩
  | 125 => ⟨S_, .f32⟩
  | 126 => ⟨S_, .f32⟩
  | 127 => ⟨S64, .f32⟩
  | _ => ⟨S50000x5, .f32⟩

abbrev hbmTy0_2 (i : Nat) : BufTy := match i % 128 with
  | 0 => ⟨S64, .f32⟩
  | 1 => ⟨S64, .f32⟩
  | 2 => ⟨S_, .f32⟩
  | 3 => ⟨S_, .i1⟩
  | 4 => ⟨S_, .f32⟩
  | 5 => ⟨S_, .f32⟩
  | 6 => ⟨S64, .f32⟩
  | 7 => ⟨S64, .f32⟩
  | 8 => ⟨S1x64, .f32⟩
  | 9 => ⟨S50000x64, .f32⟩
  | 10 => ⟨S50000x64, .f32⟩
  | 11 => ⟨S_, .f32⟩
  | 12 => ⟨S64, .f32⟩
  | 13 => ⟨S64, .f32⟩
  | 14 => ⟨S64, .f32⟩
  | 15 => ⟨S1x64, .f32⟩
  | 16 => ⟨S50000x64, .f32⟩
  | 17 => ⟨S50000x64, .f32⟩
  | 18 => ⟨S1x64, .f32⟩
  | 19 => ⟨S50000x64, .f32⟩
  | 20 => ⟨S50000x64, .f32⟩
  | 21 => ⟨S1x64, .f32⟩
  | 22 => ⟨S50000x64, .f32⟩
  | 23 => ⟨S50000x64, .f32⟩
  | 24 => ⟨S_, .f32⟩
  | 25 => ⟨S50000x64, .f32⟩
  | 26 => ⟨S50000x64, .f32⟩
  | 27 => ⟨S_, .i32⟩
  | 28 => ⟨S800000, .i32⟩
  | 29 => ⟨S800000, .i1⟩
  | 30 => ⟨S_, .i32⟩
  | 31 => ⟨S800000, .i32⟩
  | 32 => ⟨S800000, .i32⟩
  | 33 => ⟨S800000, .i32⟩
  | 34 => ⟨S800000x1, .i32⟩
  | 35 => ⟨S800000x64, .f32⟩
  | 36 => ⟨S_, .f32⟩
  | 37 => ⟨S50000x64, .f32⟩
  | 38 => ⟨S800000x1, .i32⟩
  | 39 => ⟨S50000x64, .f32⟩
  | 40 => ⟨S50000x32, .f32⟩
  | 41 => ⟨S1x32, .f32⟩
  | 42 => ⟨S50000x32, .f32⟩
  | 43 => ⟨S50000x32, .f32⟩
  | 44 => ⟨S50000x32, .f32⟩
  | 45 => ⟨S50000x32, .f32⟩
  | 46 => ⟨S_, .f32⟩
  | 47 => ⟨S32, .f32⟩
  | 48 => ⟨S_, .f32⟩
  | 49 => ⟨S32, .f32⟩
  | 50 => ⟨S32, .f32⟩
  | 51 => ⟨S_, .i32⟩
  | 52 => ⟨S_, .f32⟩
  | 53 => ⟨S32, .f32⟩
  | 54 => ⟨S1x32, .f32⟩
  | 55 => ⟨S_, .f32⟩
  | 56 => ⟨S1x32, .f32⟩
  | 57 => ⟨S1x32, .f32⟩
  | 58 => ⟨S50000x32, .f32⟩
  | 59 => ⟨S50000x32, .f32⟩
  | 60 => ⟨S50000x32, .f32⟩
  | 61 => ⟨S_, .f32⟩
  | 62 => ⟨S_, .f32⟩
  | 63 => ⟨S_, .f32⟩
  | 64 => ⟨S_, .f32⟩
  | 65 => ⟨S32, .f32⟩
  | 66 => ⟨S32, .f32⟩
  | 67 => ⟨S32, .f32⟩
  | 68 => ⟨S_, .f32⟩
  | 69 => ⟨S_, .i1⟩
  | 70 => ⟨S_, .f32⟩
  | 71 => ⟨S_, .f32⟩
  | 72 => ⟨S32, .f32⟩
  | 73 => ⟨S32, .f32⟩
  | 74 => ⟨S1x32, .f32⟩
  | 75 => ⟨S50000x32, .f32⟩
  | 76 => ⟨S50000x32, .f32⟩
  | 77 => ⟨S_, .f32⟩
  | 78 => ⟨S32, .f32⟩
  | 79 => ⟨S32, .f32⟩
  | 80 => ⟨S32, .f32⟩
  | 81 => ⟨S1x32, .f32⟩
  | 82 => ⟨S50000x32, .f32⟩
  | 83 => ⟨S50000x32, .f32⟩
  | 84 => ⟨S1x32, .f32⟩
  | 85 => ⟨S50000x32, .f32⟩
  | 86 => ⟨S50000x32, .f32⟩
  | 87 => ⟨S1x32, .f32⟩
  | 88 => ⟨S50000x32, .f32⟩
  | 89 => ⟨S50000x32, .f32⟩
  | 90 => ⟨S_, .f32⟩
  | 91 => ⟨S50000x32, .f32⟩
  | 92 => ⟨S50000x32, .f32⟩
  | 93 => ⟨S50000x16, .f32⟩
  | 94 => ⟨S1x16, .f32⟩
  | 95 => ⟨S50000x16, .f32⟩
  | 96 => ⟨S50000x16, .f32⟩
  | 97 => ⟨S_, .f32⟩
  | 98 => ⟨S50000x16, .f32⟩
  | 99 => ⟨S50000x16, .f32⟩
  | 100 => ⟨S50000x2, .f32⟩
  | 101 => ⟨S1x2, .f32⟩
  | 102 => ⟨S50000x2, .f32⟩
  | 103 => ⟨S50000x2, .f32⟩
  | _ => ⟨S50000x5, .f32⟩

abbrev hbmTy (i : Nat) : BufTy := match i / 128 with
  | 0 => hbmTy0_0 i
  | 1 => hbmTy0_1 i
  | 2 => hbmTy0_2 i
  | _ => ⟨S50000x5, .f32⟩

abbrev bufTy : (tb : Table) → Fin (tcTables nBuf tb) → BufTy
  | .hbm, ⟨i, _⟩ => hbmTy i
  | _, _ => ⟨S50000x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_cst : Ref sig .tc := ⟨.hbm, 38, rfl⟩
abbrev main_v8 : Ref sig .tc := ⟨.hbm, 39, rfl⟩
abbrev main_v9 : Ref sig .tc := ⟨.hbm, 40, rfl⟩
abbrev main_cst_0 : Ref sig .tc := ⟨.hbm, 41, rfl⟩
abbrev main_v10 : Ref sig .tc := ⟨.hbm, 42, rfl⟩
abbrev main_cst_1 : Ref sig .tc := ⟨.hbm, 43, rfl⟩
abbrev main_v11 : Ref sig .tc := ⟨.hbm, 44, rfl⟩
abbrev main_v12 : Ref sig .tc := ⟨.hbm, 45, rfl⟩
abbrev main_c : Ref sig .tc := ⟨.hbm, 46, rfl⟩
abbrev main_call0_cst : Ref sig .tc := ⟨.hbm, 47, rfl⟩
abbrev main_call0_v0 : Ref sig .tc := ⟨.hbm, 48, rfl⟩
abbrev main_call0_v1 : Ref sig .tc := ⟨.hbm, 49, rfl⟩
abbrev main_call0_cst_0 : Ref sig .tc := ⟨.hbm, 50, rfl⟩
abbrev main_call0_v2 : Ref sig .tc := ⟨.hbm, 51, rfl⟩
abbrev main_call0_v3 : Ref sig .tc := ⟨.hbm, 52, rfl⟩
abbrev main_call0_v4 : Ref sig .tc := ⟨.hbm, 53, rfl⟩
abbrev main_call0_v5 : Ref sig .tc := ⟨.hbm, 54, rfl⟩
abbrev main_call0_v6 : Ref sig .tc := ⟨.hbm, 55, rfl⟩
abbrev main_call0_v7 : Ref sig .tc := ⟨.hbm, 56, rfl⟩
abbrev main_call0_cst_1 : Ref sig .tc := ⟨.hbm, 57, rfl⟩
abbrev main_call0_v8 : Ref sig .tc := ⟨.hbm, 58, rfl⟩
abbrev main_call0_cst_2 : Ref sig .tc := ⟨.hbm, 59, rfl⟩
abbrev main_call0_v9 : Ref sig .tc := ⟨.hbm, 60, rfl⟩
abbrev main_call0_v10 : Ref sig .tc := ⟨.hbm, 61, rfl⟩
abbrev main_call0_v11 : Ref sig .tc := ⟨.hbm, 62, rfl⟩
abbrev main_call0_cst_3 : Ref sig .tc := ⟨.hbm, 63, rfl⟩
abbrev main_call0_v12 : Ref sig .tc := ⟨.hbm, 64, rfl⟩
abbrev main_call0_cst_4 : Ref sig .tc := ⟨.hbm, 65, rfl⟩
abbrev main_call0_call0_v0 : Ref sig .tc := ⟨.hbm, 66, rfl⟩
abbrev main_call0_call0_v1 : Ref sig .tc := ⟨.hbm, 67, rfl⟩
abbrev main_v13 : Ref sig .tc := ⟨.hbm, 68, rfl⟩
abbrev main_v14 : Ref sig .tc := ⟨.hbm, 69, rfl⟩
abbrev main_v15 : Ref sig .tc := ⟨.hbm, 70, rfl⟩
abbrev main_v16 : Ref sig .tc := ⟨.hbm, 71, rfl⟩
abbrev main_cst_2 : Ref sig .tc := ⟨.hbm, 72, rfl⟩
abbrev main_v17 : Ref sig .tc := ⟨.hbm, 73, rfl⟩
abbrev main_v18 : Ref sig .tc := ⟨.hbm, 74, rfl⟩
abbrev main_v19 : Ref sig .tc := ⟨.hbm, 75, rfl⟩
abbrev main_v20 : Ref sig .tc := ⟨.hbm, 76, rfl⟩
abbrev main_v21 : Ref sig .tc := ⟨.hbm, 77, rfl⟩
abbrev main_v22 : Ref sig .tc := ⟨.hbm, 78, rfl⟩
abbrev main_v23 : Ref sig .tc := ⟨.hbm, 79, rfl⟩
abbrev main_v24 : Ref sig .tc := ⟨.hbm, 80, rfl⟩
abbrev main_v25 : Ref sig .tc := ⟨.hbm, 81, rfl⟩
abbrev main_v26 : Ref sig .tc := ⟨.hbm, 82, rfl⟩
abbrev main_v27 : Ref sig .tc := ⟨.hbm, 83, rfl⟩
abbrev main_v28 : Ref sig .tc := ⟨.hbm, 84, rfl⟩
abbrev main_c_3 : Ref sig .tc := ⟨.hbm, 85, rfl⟩
abbrev main_v29 : Ref sig .tc := ⟨.hbm, 86, rfl⟩
abbrev main_v30 : Ref sig .tc := ⟨.hbm, 87, rfl⟩
abbrev main_c_4 : Ref sig .tc := ⟨.hbm, 88, rfl⟩
abbrev main_v31 : Ref sig .tc := ⟨.hbm, 89, rfl⟩
abbrev main_v32 : Ref sig .tc := ⟨.hbm, 90, rfl⟩
abbrev main_v33 : Ref sig .tc := ⟨.hbm, 91, rfl⟩
abbrev main_v34 : Ref sig .tc := ⟨.hbm, 92, rfl⟩
abbrev main_v35 : Ref sig .tc := ⟨.hbm, 93, rfl⟩
abbrev main_cst_5 : Ref sig .tc := ⟨.hbm, 94, rfl⟩
abbrev main_v36 : Ref sig .tc := ⟨.hbm, 95, rfl⟩
abbrev main_v37 : Ref sig .tc := ⟨.hbm, 96, rfl⟩
abbrev main_v38 : Ref sig .tc := ⟨.hbm, 97, rfl⟩
abbrev main_v39 : Ref sig .tc := ⟨.hbm, 98, rfl⟩
abbrev main_v40 : Ref sig .tc := ⟨.hbm, 99, rfl⟩
abbrev main_v41 : Ref sig .tc := ⟨.hbm, 100, rfl⟩
abbrev main_v42 : Ref sig .tc := ⟨.hbm, 101, rfl⟩
abbrev main_v43 : Ref sig .tc := ⟨.hbm, 102, rfl⟩
abbrev main_v44 : Ref sig .tc := ⟨.hbm, 103, rfl⟩
abbrev main_cst_6 : Ref sig .tc := ⟨.hbm, 104, rfl⟩
abbrev main_v45 : Ref sig .tc := ⟨.hbm, 105, rfl⟩
abbrev main_cst_7 : Ref sig .tc := ⟨.hbm, 106, rfl⟩
abbrev main_v46 : Ref sig .tc := ⟨.hbm, 107, rfl⟩
abbrev main_v47 : Ref sig .tc := ⟨.hbm, 108, rfl⟩
abbrev main_c_8 : Ref sig .tc := ⟨.hbm, 109, rfl⟩
abbrev main_call1_cst : Ref sig .tc := ⟨.hbm, 110, rfl⟩
abbrev main_call1_v0 : Ref sig .tc := ⟨.hbm, 111, rfl⟩
abbrev main_call1_v1 : Ref sig .tc := ⟨.hbm, 112, rfl⟩
abbrev main_call1_cst_0 : Ref sig .tc := ⟨.hbm, 113, rfl⟩
abbrev main_call1_v2 : Ref sig .tc := ⟨.hbm, 114, rfl⟩
abbrev main_call1_v3 : Ref sig .tc := ⟨.hbm, 115, rfl⟩
abbrev main_call1_v4 : Ref sig .tc := ⟨.hbm, 116, rfl⟩
abbrev main_call1_v5 : Ref sig .tc := ⟨.hbm, 117, rfl⟩
abbrev main_call1_v6 : Ref sig .tc := ⟨.hbm, 118, rfl⟩
abbrev main_call1_v7 : Ref sig .tc := ⟨.hbm, 119, rfl⟩
abbrev main_call1_cst_1 : Ref sig .tc := ⟨.hbm, 120, rfl⟩
abbrev main_call1_v8 : Ref sig .tc := ⟨.hbm, 121, rfl⟩
abbrev main_call1_cst_2 : Ref sig .tc := ⟨.hbm, 122, rfl⟩
abbrev main_call1_v9 : Ref sig .tc := ⟨.hbm, 123, rfl⟩
abbrev main_call1_v10 : Ref sig .tc := ⟨.hbm, 124, rfl⟩
abbrev main_call1_v11 : Ref sig .tc := ⟨.hbm, 125, rfl⟩
abbrev main_call1_cst_3 : Ref sig .tc := ⟨.hbm, 126, rfl⟩
abbrev main_call1_v12 : Ref sig .tc := ⟨.hbm, 127, rfl⟩
abbrev main_call1_cst_4 : Ref sig .tc := ⟨.hbm, 128, rfl⟩
abbrev main_call1_call0_v0 : Ref sig .tc := ⟨.hbm, 129, rfl⟩
abbrev main_call1_call0_v1 : Ref sig .tc := ⟨.hbm, 130, rfl⟩
abbrev main_v48 : Ref sig .tc := ⟨.hbm, 131, rfl⟩
abbrev main_v49 : Ref sig .tc := ⟨.hbm, 132, rfl⟩
abbrev main_v50 : Ref sig .tc := ⟨.hbm, 133, rfl⟩
abbrev main_v51 : Ref sig .tc := ⟨.hbm, 134, rfl⟩
abbrev main_cst_9 : Ref sig .tc := ⟨.hbm, 135, rfl⟩
abbrev main_v52 : Ref sig .tc := ⟨.hbm, 136, rfl⟩
abbrev main_v53 : Ref sig .tc := ⟨.hbm, 137, rfl⟩
abbrev main_v54 : Ref sig .tc := ⟨.hbm, 138, rfl⟩
abbrev main_v55 : Ref sig .tc := ⟨.hbm, 139, rfl⟩
abbrev main_v56 : Ref sig .tc := ⟨.hbm, 140, rfl⟩
abbrev main_v57 : Ref sig .tc := ⟨.hbm, 141, rfl⟩
abbrev main_v58 : Ref sig .tc := ⟨.hbm, 142, rfl⟩
abbrev main_v59 : Ref sig .tc := ⟨.hbm, 143, rfl⟩
abbrev main_v60 : Ref sig .tc := ⟨.hbm, 144, rfl⟩
abbrev main_v61 : Ref sig .tc := ⟨.hbm, 145, rfl⟩
abbrev main_v62 : Ref sig .tc := ⟨.hbm, 146, rfl⟩
abbrev main_v63 : Ref sig .tc := ⟨.hbm, 147, rfl⟩
abbrev main_cst_10 : Ref sig .tc := ⟨.hbm, 148, rfl⟩
abbrev main_v64 : Ref sig .tc := ⟨.hbm, 149, rfl⟩
abbrev main_v65 : Ref sig .tc := ⟨.hbm, 150, rfl⟩
abbrev main_c_11 : Ref sig .tc := ⟨.hbm, 151, rfl⟩
abbrev main_v66 : Ref sig .tc := ⟨.hbm, 152, rfl⟩
abbrev main_v67 : Ref sig .tc := ⟨.hbm, 153, rfl⟩
abbrev main_c_12 : Ref sig .tc := ⟨.hbm, 154, rfl⟩
abbrev main_v68 : Ref sig .tc := ⟨.hbm, 155, rfl⟩
abbrev main_v69 : Ref sig .tc := ⟨.hbm, 156, rfl⟩
abbrev main_v70 : Ref sig .tc := ⟨.hbm, 157, rfl⟩
abbrev main_v71 : Ref sig .tc := ⟨.hbm, 158, rfl⟩
abbrev main_v72 : Ref sig .tc := ⟨.hbm, 159, rfl⟩
abbrev main_cst_13 : Ref sig .tc := ⟨.hbm, 160, rfl⟩
abbrev main_v73 : Ref sig .tc := ⟨.hbm, 161, rfl⟩
abbrev main_v74 : Ref sig .tc := ⟨.hbm, 162, rfl⟩
abbrev main_v75 : Ref sig .tc := ⟨.hbm, 163, rfl⟩
abbrev main_v76 : Ref sig .tc := ⟨.hbm, 164, rfl⟩
abbrev main_v77 : Ref sig .tc := ⟨.hbm, 165, rfl⟩
abbrev main_v78 : Ref sig .tc := ⟨.hbm, 166, rfl⟩
abbrev main_v79 : Ref sig .tc := ⟨.hbm, 167, rfl⟩
abbrev main_v80 : Ref sig .tc := ⟨.hbm, 168, rfl⟩
abbrev main_v81 : Ref sig .tc := ⟨.hbm, 169, rfl⟩
abbrev main_cst_14 : Ref sig .tc := ⟨.hbm, 170, rfl⟩
abbrev main_v82 : Ref sig .tc := ⟨.hbm, 171, rfl⟩
abbrev main_cst_15 : Ref sig .tc := ⟨.hbm, 172, rfl⟩
abbrev main_v83 : Ref sig .tc := ⟨.hbm, 173, rfl⟩
abbrev main_v84 : Ref sig .tc := ⟨.hbm, 174, rfl⟩
abbrev main_c_16 : Ref sig .tc := ⟨.hbm, 175, rfl⟩
abbrev main_call2_cst : Ref sig .tc := ⟨.hbm, 176, rfl⟩
abbrev main_call2_v0 : Ref sig .tc := ⟨.hbm, 177, rfl⟩
abbrev main_call2_v1 : Ref sig .tc := ⟨.hbm, 178, rfl⟩
abbrev main_call2_cst_0 : Ref sig .tc := ⟨.hbm, 179, rfl⟩
abbrev main_call2_v2 : Ref sig .tc := ⟨.hbm, 180, rfl⟩
abbrev main_call2_v3 : Ref sig .tc := ⟨.hbm, 181, rfl⟩
abbrev main_call2_v4 : Ref sig .tc := ⟨.hbm, 182, rfl⟩
abbrev main_call2_v5 : Ref sig .tc := ⟨.hbm, 183, rfl⟩
abbrev main_call2_v6 : Ref sig .tc := ⟨.hbm, 184, rfl⟩
abbrev main_call2_v7 : Ref sig .tc := ⟨.hbm, 185, rfl⟩
abbrev main_call2_cst_1 : Ref sig .tc := ⟨.hbm, 186, rfl⟩
abbrev main_call2_v8 : Ref sig .tc := ⟨.hbm, 187, rfl⟩
abbrev main_call2_cst_2 : Ref sig .tc := ⟨.hbm, 188, rfl⟩
abbrev main_call2_v9 : Ref sig .tc := ⟨.hbm, 189, rfl⟩
abbrev main_call2_v10 : Ref sig .tc := ⟨.hbm, 190, rfl⟩
abbrev main_call2_v11 : Ref sig .tc := ⟨.hbm, 191, rfl⟩
abbrev main_call2_cst_3 : Ref sig .tc := ⟨.hbm, 192, rfl⟩
abbrev main_call2_v12 : Ref sig .tc := ⟨.hbm, 193, rfl⟩
abbrev main_call2_cst_4 : Ref sig .tc := ⟨.hbm, 194, rfl⟩
abbrev main_call2_call0_v0 : Ref sig .tc := ⟨.hbm, 195, rfl⟩
abbrev main_call2_call0_v1 : Ref sig .tc := ⟨.hbm, 196, rfl⟩
abbrev main_v85 : Ref sig .tc := ⟨.hbm, 197, rfl⟩
abbrev main_v86 : Ref sig .tc := ⟨.hbm, 198, rfl⟩
abbrev main_v87 : Ref sig .tc := ⟨.hbm, 199, rfl⟩
abbrev main_v88 : Ref sig .tc := ⟨.hbm, 200, rfl⟩
abbrev main_cst_17 : Ref sig .tc := ⟨.hbm, 201, rfl⟩
abbrev main_v89 : Ref sig .tc := ⟨.hbm, 202, rfl⟩
abbrev main_v90 : Ref sig .tc := ⟨.hbm, 203, rfl⟩
abbrev main_v91 : Ref sig .tc := ⟨.hbm, 204, rfl⟩
abbrev main_v92 : Ref sig .tc := ⟨.hbm, 205, rfl⟩
abbrev main_v93 : Ref sig .tc := ⟨.hbm, 206, rfl⟩
abbrev main_v94 : Ref sig .tc := ⟨.hbm, 207, rfl⟩
abbrev main_v95 : Ref sig .tc := ⟨.hbm, 208, rfl⟩
abbrev main_v96 : Ref sig .tc := ⟨.hbm, 209, rfl⟩
abbrev main_v97 : Ref sig .tc := ⟨.hbm, 210, rfl⟩
abbrev main_v98 : Ref sig .tc := ⟨.hbm, 211, rfl⟩
abbrev main_v99 : Ref sig .tc := ⟨.hbm, 212, rfl⟩
abbrev main_v100 : Ref sig .tc := ⟨.hbm, 213, rfl⟩
abbrev main_cst_18 : Ref sig .tc := ⟨.hbm, 214, rfl⟩
abbrev main_v101 : Ref sig .tc := ⟨.hbm, 215, rfl⟩
abbrev main_v102 : Ref sig .tc := ⟨.hbm, 216, rfl⟩
abbrev main_c_19 : Ref sig .tc := ⟨.hbm, 217, rfl⟩
abbrev main_v103 : Ref sig .tc := ⟨.hbm, 218, rfl⟩
abbrev main_v104 : Ref sig .tc := ⟨.hbm, 219, rfl⟩
abbrev main_c_20 : Ref sig .tc := ⟨.hbm, 220, rfl⟩
abbrev main_v105 : Ref sig .tc := ⟨.hbm, 221, rfl⟩
abbrev main_v106 : Ref sig .tc := ⟨.hbm, 222, rfl⟩
abbrev main_v107 : Ref sig .tc := ⟨.hbm, 223, rfl⟩
abbrev main_v108 : Ref sig .tc := ⟨.hbm, 224, rfl⟩
abbrev main_v109 : Ref sig .tc := ⟨.hbm, 225, rfl⟩
abbrev main_cst_21 : Ref sig .tc := ⟨.hbm, 226, rfl⟩
abbrev main_v110 : Ref sig .tc := ⟨.hbm, 227, rfl⟩
abbrev main_v111 : Ref sig .tc := ⟨.hbm, 228, rfl⟩
abbrev main_v112 : Ref sig .tc := ⟨.hbm, 229, rfl⟩
abbrev main_v113 : Ref sig .tc := ⟨.hbm, 230, rfl⟩
abbrev main_v114 : Ref sig .tc := ⟨.hbm, 231, rfl⟩
abbrev main_v115 : Ref sig .tc := ⟨.hbm, 232, rfl⟩
abbrev main_v116 : Ref sig .tc := ⟨.hbm, 233, rfl⟩
abbrev main_v117 : Ref sig .tc := ⟨.hbm, 234, rfl⟩
abbrev main_v118 : Ref sig .tc := ⟨.hbm, 235, rfl⟩
abbrev main_cst_22 : Ref sig .tc := ⟨.hbm, 236, rfl⟩
abbrev main_v119 : Ref sig .tc := ⟨.hbm, 237, rfl⟩
abbrev main_cst_23 : Ref sig .tc := ⟨.hbm, 238, rfl⟩
abbrev main_v120 : Ref sig .tc := ⟨.hbm, 239, rfl⟩
abbrev main_v121 : Ref sig .tc := ⟨.hbm, 240, rfl⟩
abbrev main_c_24 : Ref sig .tc := ⟨.hbm, 241, rfl⟩
abbrev main_call3_cst : Ref sig .tc := ⟨.hbm, 242, rfl⟩
abbrev main_call3_v0 : Ref sig .tc := ⟨.hbm, 243, rfl⟩
abbrev main_call3_v1 : Ref sig .tc := ⟨.hbm, 244, rfl⟩
abbrev main_call3_cst_0 : Ref sig .tc := ⟨.hbm, 245, rfl⟩
abbrev main_call3_v2 : Ref sig .tc := ⟨.hbm, 246, rfl⟩
abbrev main_call3_v3 : Ref sig .tc := ⟨.hbm, 247, rfl⟩
abbrev main_call3_v4 : Ref sig .tc := ⟨.hbm, 248, rfl⟩
abbrev main_call3_v5 : Ref sig .tc := ⟨.hbm, 249, rfl⟩
abbrev main_call3_v6 : Ref sig .tc := ⟨.hbm, 250, rfl⟩
abbrev main_call3_v7 : Ref sig .tc := ⟨.hbm, 251, rfl⟩
abbrev main_call3_cst_1 : Ref sig .tc := ⟨.hbm, 252, rfl⟩
abbrev main_call3_v8 : Ref sig .tc := ⟨.hbm, 253, rfl⟩
abbrev main_call3_cst_2 : Ref sig .tc := ⟨.hbm, 254, rfl⟩
abbrev main_call3_v9 : Ref sig .tc := ⟨.hbm, 255, rfl⟩
abbrev main_call3_v10 : Ref sig .tc := ⟨.hbm, 256, rfl⟩
abbrev main_call3_v11 : Ref sig .tc := ⟨.hbm, 257, rfl⟩
abbrev main_call3_cst_3 : Ref sig .tc := ⟨.hbm, 258, rfl⟩
abbrev main_call3_v12 : Ref sig .tc := ⟨.hbm, 259, rfl⟩
abbrev main_call3_cst_4 : Ref sig .tc := ⟨.hbm, 260, rfl⟩
abbrev main_call3_call0_v0 : Ref sig .tc := ⟨.hbm, 261, rfl⟩
abbrev main_call3_call0_v1 : Ref sig .tc := ⟨.hbm, 262, rfl⟩
abbrev main_v122 : Ref sig .tc := ⟨.hbm, 263, rfl⟩
abbrev main_v123 : Ref sig .tc := ⟨.hbm, 264, rfl⟩
abbrev main_v124 : Ref sig .tc := ⟨.hbm, 265, rfl⟩
abbrev main_v125 : Ref sig .tc := ⟨.hbm, 266, rfl⟩
abbrev main_cst_25 : Ref sig .tc := ⟨.hbm, 267, rfl⟩
abbrev main_v126 : Ref sig .tc := ⟨.hbm, 268, rfl⟩
abbrev main_v127 : Ref sig .tc := ⟨.hbm, 269, rfl⟩
abbrev main_v128 : Ref sig .tc := ⟨.hbm, 270, rfl⟩
abbrev main_v129 : Ref sig .tc := ⟨.hbm, 271, rfl⟩
abbrev main_v130 : Ref sig .tc := ⟨.hbm, 272, rfl⟩
abbrev main_v131 : Ref sig .tc := ⟨.hbm, 273, rfl⟩
abbrev main_v132 : Ref sig .tc := ⟨.hbm, 274, rfl⟩
abbrev main_v133 : Ref sig .tc := ⟨.hbm, 275, rfl⟩
abbrev main_v134 : Ref sig .tc := ⟨.hbm, 276, rfl⟩
abbrev main_v135 : Ref sig .tc := ⟨.hbm, 277, rfl⟩
abbrev main_v136 : Ref sig .tc := ⟨.hbm, 278, rfl⟩
abbrev main_v137 : Ref sig .tc := ⟨.hbm, 279, rfl⟩
abbrev main_cst_26 : Ref sig .tc := ⟨.hbm, 280, rfl⟩
abbrev main_v138 : Ref sig .tc := ⟨.hbm, 281, rfl⟩
abbrev main_v139 : Ref sig .tc := ⟨.hbm, 282, rfl⟩
abbrev main_c_27 : Ref sig .tc := ⟨.hbm, 283, rfl⟩
abbrev main_v140 : Ref sig .tc := ⟨.hbm, 284, rfl⟩
abbrev main_v141 : Ref sig .tc := ⟨.hbm, 285, rfl⟩
abbrev main_c_28 : Ref sig .tc := ⟨.hbm, 286, rfl⟩
abbrev main_v142 : Ref sig .tc := ⟨.hbm, 287, rfl⟩
abbrev main_v143 : Ref sig .tc := ⟨.hbm, 288, rfl⟩
abbrev main_v144 : Ref sig .tc := ⟨.hbm, 289, rfl⟩
abbrev main_v145 : Ref sig .tc := ⟨.hbm, 290, rfl⟩
abbrev main_v146 : Ref sig .tc := ⟨.hbm, 291, rfl⟩
abbrev main_cst_29 : Ref sig .tc := ⟨.hbm, 292, rfl⟩
abbrev main_v147 : Ref sig .tc := ⟨.hbm, 293, rfl⟩
abbrev main_v148 : Ref sig .tc := ⟨.hbm, 294, rfl⟩
abbrev main_v149 : Ref sig .tc := ⟨.hbm, 295, rfl⟩
abbrev main_v150 : Ref sig .tc := ⟨.hbm, 296, rfl⟩
abbrev main_v151 : Ref sig .tc := ⟨.hbm, 297, rfl⟩
abbrev main_v152 : Ref sig .tc := ⟨.hbm, 298, rfl⟩
abbrev main_v153 : Ref sig .tc := ⟨.hbm, 299, rfl⟩
abbrev main_v154 : Ref sig .tc := ⟨.hbm, 300, rfl⟩
abbrev main_v155 : Ref sig .tc := ⟨.hbm, 301, rfl⟩
abbrev main_cst_30 : Ref sig .tc := ⟨.hbm, 302, rfl⟩
abbrev main_v156 : Ref sig .tc := ⟨.hbm, 303, rfl⟩
abbrev main_cst_31 : Ref sig .tc := ⟨.hbm, 304, rfl⟩
abbrev main_v157 : Ref sig .tc := ⟨.hbm, 305, rfl⟩
abbrev main_v158 : Ref sig .tc := ⟨.hbm, 306, rfl⟩
abbrev main_c_32 : Ref sig .tc := ⟨.hbm, 307, rfl⟩
abbrev main_call4_cst : Ref sig .tc := ⟨.hbm, 308, rfl⟩
abbrev main_call4_v0 : Ref sig .tc := ⟨.hbm, 309, rfl⟩
abbrev main_call4_v1 : Ref sig .tc := ⟨.hbm, 310, rfl⟩
abbrev main_call4_cst_0 : Ref sig .tc := ⟨.hbm, 311, rfl⟩
abbrev main_call4_v2 : Ref sig .tc := ⟨.hbm, 312, rfl⟩
abbrev main_call4_v3 : Ref sig .tc := ⟨.hbm, 313, rfl⟩
abbrev main_call4_v4 : Ref sig .tc := ⟨.hbm, 314, rfl⟩
abbrev main_call4_v5 : Ref sig .tc := ⟨.hbm, 315, rfl⟩
abbrev main_call4_v6 : Ref sig .tc := ⟨.hbm, 316, rfl⟩
abbrev main_call4_v7 : Ref sig .tc := ⟨.hbm, 317, rfl⟩
abbrev main_call4_cst_1 : Ref sig .tc := ⟨.hbm, 318, rfl⟩
abbrev main_call4_v8 : Ref sig .tc := ⟨.hbm, 319, rfl⟩
abbrev main_call4_cst_2 : Ref sig .tc := ⟨.hbm, 320, rfl⟩
abbrev main_call4_v9 : Ref sig .tc := ⟨.hbm, 321, rfl⟩
abbrev main_call4_v10 : Ref sig .tc := ⟨.hbm, 322, rfl⟩
abbrev main_call4_v11 : Ref sig .tc := ⟨.hbm, 323, rfl⟩
abbrev main_call4_cst_3 : Ref sig .tc := ⟨.hbm, 324, rfl⟩
abbrev main_call4_v12 : Ref sig .tc := ⟨.hbm, 325, rfl⟩
abbrev main_call4_cst_4 : Ref sig .tc := ⟨.hbm, 326, rfl⟩
abbrev main_call4_call0_v0 : Ref sig .tc := ⟨.hbm, 327, rfl⟩
abbrev main_call4_call0_v1 : Ref sig .tc := ⟨.hbm, 328, rfl⟩
abbrev main_v159 : Ref sig .tc := ⟨.hbm, 329, rfl⟩
abbrev main_v160 : Ref sig .tc := ⟨.hbm, 330, rfl⟩
abbrev main_v161 : Ref sig .tc := ⟨.hbm, 331, rfl⟩
abbrev main_v162 : Ref sig .tc := ⟨.hbm, 332, rfl⟩
abbrev main_cst_33 : Ref sig .tc := ⟨.hbm, 333, rfl⟩
abbrev main_v163 : Ref sig .tc := ⟨.hbm, 334, rfl⟩
abbrev main_v164 : Ref sig .tc := ⟨.hbm, 335, rfl⟩
abbrev main_v165 : Ref sig .tc := ⟨.hbm, 336, rfl⟩
abbrev main_v166 : Ref sig .tc := ⟨.hbm, 337, rfl⟩
abbrev main_v167 : Ref sig .tc := ⟨.hbm, 338, rfl⟩
abbrev main_v168 : Ref sig .tc := ⟨.hbm, 339, rfl⟩
abbrev main_v169 : Ref sig .tc := ⟨.hbm, 340, rfl⟩
abbrev main_v170 : Ref sig .tc := ⟨.hbm, 341, rfl⟩
abbrev main_v171 : Ref sig .tc := ⟨.hbm, 342, rfl⟩
abbrev main_v172 : Ref sig .tc := ⟨.hbm, 343, rfl⟩
abbrev main_v173 : Ref sig .tc := ⟨.hbm, 344, rfl⟩
abbrev main_v174 : Ref sig .tc := ⟨.hbm, 345, rfl⟩
abbrev main_cst_34 : Ref sig .tc := ⟨.hbm, 346, rfl⟩
abbrev main_v175 : Ref sig .tc := ⟨.hbm, 347, rfl⟩
abbrev main_v176 : Ref sig .tc := ⟨.hbm, 348, rfl⟩
abbrev main_v177 : Ref sig .tc := ⟨.hbm, 349, rfl⟩
abbrev main_v178 : Ref sig .tc := ⟨.hbm, 350, rfl⟩
abbrev main_v179 : Ref sig .tc := ⟨.hbm, 351, rfl⟩
abbrev main_v180 : Ref sig .tc := ⟨.hbm, 352, rfl⟩
abbrev main_cst_35 : Ref sig .tc := ⟨.hbm, 353, rfl⟩
abbrev main_v181 : Ref sig .tc := ⟨.hbm, 354, rfl⟩
abbrev main_v182 : Ref sig .tc := ⟨.hbm, 355, rfl⟩
abbrev main_v183 : Ref sig .tc := ⟨.hbm, 356, rfl⟩
abbrev main_v184 : Ref sig .tc := ⟨.hbm, 357, rfl⟩
abbrev main_v185 : Ref sig .tc := ⟨.hbm, 358, rfl⟩
abbrev main_v186 : Ref sig .tc := ⟨.hbm, 359, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  bcast_S_S50000x32 : S_.BroadcastsInDim S50000x32 (![] : Fin 0 → Fin S50000x32.rank)
  reducesTo_S50000x32_S32_d0 : S50000x32.ReducesTo [0] S32
  h_S_ : 0 < S_.numel
  bcast_S_S32 : S_.BroadcastsInDim S32 (![] : Fin 0 → Fin S32.rank)
  bcast_S_S1x32 : S_.BroadcastsInDim S1x32 (![] : Fin 0 → Fin S1x32.rank)
  bcast_S_S800000 : S_.BroadcastsInDim S800000 (![] : Fin 0 → Fin S800000.rank)
  bcast_S800000_S800000x1_0 : S800000.BroadcastsInDim S800000x1 (![0] : Fin 1 → Fin S800000x1.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S64_d0 : S50000x64.ReducesTo [0] S64
  bcast_S_S64 : S_.BroadcastsInDim S64 (![] : Fin 0 → Fin S64.rank)
  bcast_S_S1x64 : S_.BroadcastsInDim S1x64 (![] : Fin 0 → Fin S1x64.rank)
  bcast_S_S50000x64 : S_.BroadcastsInDim S50000x64 (![] : Fin 0 → Fin S50000x64.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  bcast_S_S128 : S_.BroadcastsInDim S128 (![] : Fin 0 → Fin S128.rank)
  bcast_S_S1x128 : S_.BroadcastsInDim S1x128 (![] : Fin 0 → Fin S1x128.rank)
  bcast_S_S50000x128 : S_.BroadcastsInDim S50000x128 (![] : Fin 0 → Fin S50000x128.rank)
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  bcast_S_S50000x16 : S_.BroadcastsInDim S50000x16 (![] : Fin 0 → Fin S50000x16.rank)
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  dot_S50000x5_S5x32_S50000x32_1_0_0_1_n_n_wf : DotDims.WF S50000x5 S5x32 S50000x32 [1] [0] [0] [1] [] []
  gather_S50000x32_S800000x1_S800000x32_1_0_n_n_0_1_132_wf : GatherDims.WF S50000x32 S800000x1 S800000x32 [1] [0] [] [0] [] 1 ![1, 32]
  scatter_S50000x32_S800000x1_S800000x32_1_0_0_1_wf : ScatterDims.WF S50000x32 S800000x1 S800000x32 [1] [0] [0] 1
  dot_S50000x32_S32x64_S50000x64_1_0_0_1_n_n_wf : DotDims.WF S50000x32 S32x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x128_S50000x128_1_0_0_1_n_n_wf : DotDims.WF S50000x64 S64x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []
  dot_S50000x64_S64x32_S50000x32_1_0_0_1_n_n_wf : DotDims.WF S50000x64 S64x32 S50000x32 [1] [0] [0] [1] [] []
  dot_S50000x32_S32x16_S50000x16_1_0_0_1_n_n_wf : DotDims.WF S50000x32 S32x16 S50000x16 [1] [0] [0] [1] [] []
  dot_S50000x16_S16x2_S50000x2_1_0_0_1_n_n_wf : DotDims.WF S50000x16 S16x2 S50000x2 [1] [0] [0] [1] [] []

variable [Facts₀]

def dot_S50000x5_S5x32_S50000x32_1_0_0_1_n_n : DotDims S50000x5 S5x32 S50000x32 where
  lhsContracting := [1]
  rhsContracting := [0]
  lhsNonContracting := [0]
  rhsNonContracting := [1]
  lhsBatch := []
  rhsBatch := []
  wf := dot_S50000x5_S5x32_S50000x32_1_0_0_1_n_n_wf
def gather_S50000x32_S800000x1_S800000x32_1_0_n_n_0_1_132 : GatherDims S50000x32 S800000x1 S800000x32 where
  offsetDims := [1]
  collapsedSliceDims := [0]
  operandBatchingDims := []
  startIndicesBatchingDims := []
  startIndexMap := [0]
  indexVectorDim := 1
  sliceSizes := ![1, 32]
  wf := gather_S50000x32_S800000x1_S800000x32_1_0_n_n_0_1_132_wf
def scatter_S50000x32_S800000x1_S800000x32_1_0_0_1 : ScatterDims S50000x32 S800000x1 S800000x32 where
  updateWindowDims := [1]
  insertedWindowDims := [0]
  scatterDimsToOperandDims := [0]
  indexVectorDim := 1
  wf := scatter_S50000x32_S800000x1_S800000x32_1_0_0_1_wf
def dot_S50000x32_S32x64_S50000x64_1_0_0_1_n_n : DotDims S50000x32 S32x64 S50000x64 where
  lhsContracting := [1]
  rhsContracting := [0]
  lhsNonContracting := [0]
  rhsNonContracting := [1]
  lhsBatch := []
  rhsBatch := []
  wf := dot_S50000x32_S32x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x64_S64x32_S50000x32_1_0_0_1_n_n : DotDims S50000x64 S64x32 S50000x32 where
  lhsContracting := [1]
  rhsContracting := [0]
  lhsNonContracting := [0]
  rhsNonContracting := [1]
  lhsBatch := []
  rhsBatch := []
  wf := dot_S50000x64_S64x32_S50000x32_1_0_0_1_n_n_wf
def dot_S50000x32_S32x16_S50000x16_1_0_0_1_n_n : DotDims S50000x32 S32x16 S50000x16 where
  lhsContracting := [1]
  rhsContracting := [0]
  lhsNonContracting := [0]
  rhsNonContracting := [1]
  lhsBatch := []
  rhsBatch := []
  wf := dot_S50000x32_S32x16_S50000x16_1_0_0_1_n_n_wf
def dot_S50000x16_S16x2_S50000x2_1_0_0_1_n_n : DotDims S50000x16 S16x2 S50000x2 where
  lhsContracting := [1]
  rhsContracting := [0]
  lhsNonContracting := [0]
  rhsNonContracting := [1]
  lhsBatch := []
  rhsBatch := []
  wf := dot_S50000x16_S16x2_S50000x2_1_0_0_1_n_n_wf

class Facts : Prop extends Facts₀ where

variable [Facts]
-- ==== Proof.KernelRun.lean ====
/-
  The idealized kernel's run with its result named.

  @main is eleven kernel launches among stretches of host operations. Every weakly fair execution
  terminates with each buffer at the last boundary's contents: the fold that starts at the launch memory,
  applies a stretch's operations, and at a launch replaces the launch's arrays by what its write-backs
  leave. Here that fact is kept for the result buffer as well as for the arguments, which end as launched.
-/
import proofs.«160678_j77988016161089_1_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result buffer ends at the last
    boundary's contents and every argument as launched. -/
theorem run : θ_run defs (onTc (τ := τ) (main (F := F))) ⟨m, fun _ => 0, ρ⟩ (fun r => ∀ c : Dev nD,
      r.2.mem ((c.tc : Thread nD τ).loc main_v101) = W22 m ρ c (Proc.devRef .tc main_v101)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W22 m ρ c b)
    (hfin := fun c s' => by
      iintro ⟨⟨Hh, -⟩, HSI⟩
      unfold StableHlo.held
      imodintro
      iapply (pointsTo_read_all (Pipeline.ucRefs τ sig) (fun b => (((c : Thread nD τ)).1, b)) (W22 m ρ c) s')
      isplitl [Hh] <;> iassumption)
    (hQ := fun s h c =>
      ⟨h c _ (mem_uc main_v101 (by decide)),
       (h c _ (mem_uc main_arg0 (by decide))).trans (W22_main_arg0 m ρ c),
       (h c _ (mem_uc main_arg1 (by decide))).trans (W22_main_arg1 m ρ c),
       (h c _ (mem_uc main_arg2 (by decide))).trans (W22_main_arg2 m ρ c),
       (h c _ (mem_uc main_arg3 (by decide))).trans (W22_main_arg3 m ρ c),
       (h c _ (mem_uc main_arg4 (by decide))).trans (W22_main_arg4 m ρ c),
       (h c _ (mem_uc main_arg5 (by decide))).trans (W22_main_arg5 m ρ c),
       (h c _ (mem_uc main_arg6 (by decide))).trans (W22_main_arg6 m ρ c),
       (h c _ (mem_uc main_arg7 (by decide))).trans (W22_main_arg7 m ρ c),
       (h c _ (mem_uc main_arg8 (by decide))).trans (W22_main_arg8 m ρ c),
       (h c _ (mem_uc main_arg9 (by decide))).trans (W22_main_arg9 m ρ c),
       (h c _ (mem_uc main_arg10 (by decide))).trans (W22_main_arg10 m ρ c),
       (h c _ (mem_uc main_arg11 (by decide))).trans (W22_main_arg11 m ρ c),
       (h c _ (mem_uc main_arg12 (by decide))).trans (W22_main_arg12 m ρ c),
       (h c _ (mem_uc main_arg13 (by decide))).trans (W22_main_arg13 m ρ c),
       (h c _ (mem_uc main_arg14 (by decide))).trans (W22_main_arg14 m ρ c),
       (h c _ (mem_uc main_arg15 (by decide))).trans (W22_main_arg15 m ρ c),
       (h c _ (mem_uc main_arg16 (by decide))).trans (W22_main_arg16 m ρ c),
       (h c _ (mem_uc main_arg17 (by decide))).trans (W22_main_arg17 m ρ c),
       (h c _ (mem_uc main_arg18 (by decide))).trans (W22_main_arg18 m ρ c),
       (h c _ (mem_uc main_arg19 (by decide))).trans (W22_main_arg19 m ρ c),
       (h c _ (mem_uc main_arg20 (by decide))).trans (W22_main_arg20 m ρ c),
       (h c _ (mem_uc main_arg21 (by decide))).trans (W22_main_arg21 m ρ c),
       (h c _ (mem_uc main_arg22 (by decide))).trans (W22_main_arg22 m ρ c),
       (h c _ (mem_uc main_arg23 (by decide))).trans (W22_main_arg23 m ρ c),
       (h c _ (mem_uc main_arg24 (by decide))).trans (W22_main_arg24 m ρ c),
       (h c _ (mem_uc main_arg25 (by decide))).trans (W22_main_arg25 m ρ c),
       (h c _ (mem_uc main_arg26 (by decide))).trans (W22_main_arg26 m ρ c),
       (h c _ (mem_uc main_arg27 (by decide))).trans (W22_main_arg27 m ρ c),
       (h c _ (mem_uc main_arg28 (by decide))).trans (W22_main_arg28 m ρ c),
       (h c _ (mem_uc main_arg29 (by decide))).trans (W22_main_arg29 m ρ c)⟩)

end Cert.KernelIdeal.ValueRun

end
-- ==== Proof.Fold.lean ====
/-
  Which buffers each stretch of host operations writes, and that every other buffer keeps its contents across
  the stretch. With the matching fact for a launch (a buffer that is not one of the launch's arrays is kept),
  a buffer's contents at a boundary are read back to the boundary where it was last written.
-/
import proofs.«160678_j77988016161089_1_alg».proof.Proof.Gen.KernelIdeal.Frame
import Idealize.ShloMosaic.Lib.ValueIdx
import Idealize.ShloMosaic.Lib.StableHlo.Run

set_option maxRecDepth 16384

noncomputable section

namespace Cert.KernelIdeal.Fold

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- The buffers stretch 0 writes. -/
abbrev wr0 : List (Ref sig .tc) := [main_v0, main_v1, main_v2, main_v3, main_v4]

theorem writes0 : (hostOps0 : List (HloOp τ sig (Elt Ideal))).Forall
    fun op => op.writes ⊆ (wr0.map (Proc.devRef (τ := τ) .tc)).toFinset := by
  simp only [hostOps0, List.Forall, StableHlo.nullary_writes, StableHlo.unary_writes, StableHlo.binary_writes,
    StableHlo.ternary_writes, StableHlo.reshape_writes, Finset.singleton_subset_iff, List.mem_toFinset, List.mem_map]
  repeat' apply And.intro
  all_goals exact ⟨_, by decide, rfl⟩

/-- A buffer stretch 0 does not write is the same after it as before. -/
theorem keep0 (c : Dev nD) (b : Ref sig .tc) (hb : b ∉ wr0) :
    W1 m ρ c (Proc.devRef .tc b) = W0 m ρ c (Proc.devRef .tc b) :=
  after_of_writes_sub hostOps0 _ writes0 hb

/-- The buffers stretch 1 writes. -/
abbrev wr1 : List (Ref sig .tc) := [main_cst, main_v6, main_v7, main_cst_0, main_v8, main_v9, main_v10, main_v11, main_v12, main_v13]

theorem writes1 : (hostOps1 : List (HloOp τ sig (Elt Ideal))).Forall
    fun op => op.writes ⊆ (wr1.map (Proc.devRef (τ := τ) .tc)).toFinset := by
  simp only [hostOps1, List.Forall, StableHlo.nullary_writes, StableHlo.unary_writes, StableHlo.binary_writes,
    StableHlo.ternary_writes, StableHlo.reshape_writes, Finset.singleton_subset_iff, List.mem_toFinset, List.mem_map]
  repeat' apply And.intro
  all_goals exact ⟨_, by decide, rfl⟩

/-- A buffer stretch 1 does not write is the same after it as before. -/
theorem keep1 (c : Dev nD) (b : Ref sig .tc) (hb : b ∉ wr1) :
    W3 m ρ c (Proc.devRef .tc b) = W2 m ρ c (Proc.devRef .tc b) :=
  after_of_writes_sub hostOps1 _ writes1 hb

/-- The buffers stretch 2 writes. -/
abbrev wr2 : List (Ref sig .tc) := [main_c, main_v15, main_v16, main_c_1, main_v17, main_v18, main_v19, main_v20, main_v21, main_cst_2, main_v22, main_v23, main_v24, main_v25]

theorem writes2 : (hostOps2 : List (HloOp τ sig (Elt Ideal))).Forall
    fun op => op.writes ⊆ (wr2.map (Proc.devRef (τ := τ) .tc)).toFinset := by
  simp only [hostOps2, List.Forall, StableHlo.nullary_writes, StableHlo.unary_writes, StableHlo.binary_writes,
    StableHlo.ternary_writes, StableHlo.reshape_writes, Finset.singleton_subset_iff, List.mem_toFinset, List.mem_map]
  repeat' apply And.intro
  all_goals exact ⟨_, by decide, rfl⟩

/-- A buffer stretch 2 does not write is the same after it as before. -/
theorem keep2 (c : Dev nD) (b : Ref sig .tc) (hb : b ∉ wr2) :
    W5 m ρ c (Proc.devRef .tc b) = W4 m ρ c (Proc.devRef .tc b) :=
  after_of_writes_sub hostOps2 _ writes2 hb

/-- The buffers stretch 3 writes. -/
abbrev wr3 : List (Ref sig .tc) := [main_cst_3, main_v27, main_v28, main_cst_4, main_v29, main_v30, main_v31, main_v32, main_v33, main_v34]

theorem writes3 : (hostOps3 : List (HloOp τ sig (Elt Ideal))).Forall
    fun op => op.writes ⊆ (wr3.map (Proc.devRef (τ := τ) .tc)).toFinset := by
  simp only [hostOps3, List.Forall, StableHlo.nullary_writes, StableHlo.unary_writes, StableHlo.binary_writes,
    StableHlo.ternary_writes, StableHlo.reshape_writes, Finset.singleton_subset_iff, List.mem_toFinset, List.mem_map]
  repeat' apply And.intro
  all_goals exact ⟨_, by decide, rfl⟩

/-- A buffer stretch 3 does not write is the same after it as before. -/
theorem keep3 (c : Dev nD) (b : Ref sig .tc) (hb : b ∉ wr3) :
    W7 m ρ c (Proc.devRef .tc b) = W6 m ρ c (Proc.devRef .tc b) :=
  after_of_writes_sub hostOps3 _ writes3 hb

/-- The buffers stretch 4 writes. -/
abbrev wr4 : List (Ref sig .tc) := [main_c_5, main_v36, main_v37, main_c_6, main_v38, main_v39, main_v40, main_v41, main_v42, main_cst_7, main_v43, main_v44, main_v45, main_v46]

theorem writes4 : (hostOps4 : List (HloOp τ sig (Elt Ideal))).Forall
    fun op => op.writes ⊆ (wr4.map (Proc.devRef (τ := τ) .tc)).toFinset := by
  simp only [hostOps4, List.Forall, StableHlo.nullary_writes, StableHlo.unary_writes, StableHlo.binary_writes,
    StableHlo.ternary_writes, StableHlo.reshape_writes, Finset.singleton_subset_iff, List.mem_toFinset, List.mem_map]
  repeat' apply And.intro
  all_goals exact ⟨_, by decide, rfl⟩

/-- A buffer stretch 4 does not write is the same after it as before. -/
theorem keep4 (c : Dev nD) (b : Ref sig .tc) (hb : b ∉ wr4) :
    W9 m ρ c (Proc.devRef .tc b) = W8 m ρ c (Proc.devRef .tc b) :=
  after_of_writes_sub hostOps4 _ writes4 hb

/-- The buffers stretch 5 writes. -/
abbrev wr5 : List (Ref sig .tc) := [main_cst_8, main_v48, main_v49, main_cst_9, main_v50, main_v51, main_v52, main_v53, main_v54, main_v55]

theorem writes5 : (hostOps5 : List (HloOp τ sig (Elt Ideal))).Forall
    fun op => op.writes ⊆ (wr5.map (Proc.devRef (τ := τ) .tc)).toFinset := by
  simp only [hostOps5, List.Forall, StableHlo.nullary_writes, StableHlo.unary_writes, StableHlo.binary_writes,
    StableHlo.ternary_writes, StableHlo.reshape_writes, Finset.singleton_subset_iff, List.mem_toFinset, List.mem_map]
  repeat' apply And.intro
  all_goals exact ⟨_, by decide, rfl⟩

/-- A buffer stretch 5 does not write is the same after it as before. -/
theorem keep5 (c : Dev nD) (b : Ref sig .tc) (hb : b ∉ wr5) :
    W11 m ρ c (Proc.devRef .tc b) = W10 m ρ c (Proc.devRef .tc b) :=
  after_of_writes_sub hostOps5 _ writes5 hb

/-- The buffers stretch 6 writes. -/
abbrev wr6 : List (Ref sig .tc) := [main_c_10, main_v57, main_v58, main_c_11, main_v59, main_v60, main_v61, main_v62, main_v63, main_cst_12, main_v64, main_v65, main_v66, main_v67]

theorem writes6 : (hostOps6 : List (HloOp τ sig (Elt Ideal))).Forall
    fun op => op.writes ⊆ (wr6.map (Proc.devRef (τ := τ) .tc)).toFinset := by
  simp only [hostOps6, List.Forall, StableHlo.nullary_writes, StableHlo.unary_writes, StableHlo.binary_writes,
    StableHlo.ternary_writes, StableHlo.reshape_writes, Finset.singleton_subset_iff, List.mem_toFinset, List.mem_map]
  repeat' apply And.intro
  all_goals exact ⟨_, by decide, rfl⟩

/-- A buffer stretch 6 does not write is the same after it as before. -/
theorem keep6 (c : Dev nD) (b : Ref sig .tc) (hb : b ∉ wr6) :
    W13 m ρ c (Proc.devRef .tc b) = W12 m ρ c (Proc.devRef .tc b) :=
  after_of_writes_sub hostOps6 _ writes6 hb

/-- The buffers stretch 7 writes. -/
abbrev wr7 : List (Ref sig .tc) := [main_cst_13, main_v69, main_v70, main_cst_14, main_v71, main_v72, main_v73, main_v74, main_v75, main_v76]

theorem writes7 : (hostOps7 : List (HloOp τ sig (Elt Ideal))).Forall
    fun op => op.writes ⊆ (wr7.map (Proc.devRef (τ := τ) .tc)).toFinset := by
  simp only [hostOps7, List.Forall, StableHlo.nullary_writes, StableHlo.unary_writes, StableHlo.binary_writes,
    StableHlo.ternary_writes, StableHlo.reshape_writes, Finset.singleton_subset_iff, List.mem_toFinset, List.mem_map]
  repeat' apply And.intro
  all_goals exact ⟨_, by decide, rfl⟩

/-- A buffer stretch 7 does not write is the same after it as before. -/
theorem keep7 (c : Dev nD) (b : Ref sig .tc) (hb : b ∉ wr7) :
    W15 m ρ c (Proc.devRef .tc b) = W14 m ρ c (Proc.devRef .tc b) :=
  after_of_writes_sub hostOps7 _ writes7 hb

/-- The buffers stretch 8 writes. -/
abbrev wr8 : List (Ref sig .tc) := [main_c_15, main_v78, main_v79, main_c_16, main_v80, main_v81, main_v82, main_v83, main_v84, main_cst_17, main_v85, main_v86, main_v87, main_v88]

theorem writes8 : (hostOps8 : List (HloOp τ sig (Elt Ideal))).Forall
    fun op => op.writes ⊆ (wr8.map (Proc.devRef (τ := τ) .tc)).toFinset := by
  simp only [hostOps8, List.Forall, StableHlo.nullary_writes, StableHlo.unary_writes, StableHlo.binary_writes,
    StableHlo.ternary_writes, StableHlo.reshape_writes, Finset.singleton_subset_iff, List.mem_toFinset, List.mem_map]
  repeat' apply And.intro
  all_goals exact ⟨_, by decide, rfl⟩

/-- A buffer stretch 8 does not write is the same after it as before. -/
theorem keep8 (c : Dev nD) (b : Ref sig .tc) (hb : b ∉ wr8) :
    W17 m ρ c (Proc.devRef .tc b) = W16 m ρ c (Proc.devRef .tc b) :=
  after_of_writes_sub hostOps8 _ writes8 hb

/-- The buffers stretch 9 writes. -/
abbrev wr9 : List (Ref sig .tc) := [main_cst_18, main_v90, main_v91, main_cst_19, main_v92, main_v93, main_v94, main_v95, main_v96, main_v97]

theorem writes9 : (hostOps9 : List (HloOp τ sig (Elt Ideal))).Forall
    fun op => op.writes ⊆ (wr9.map (Proc.devRef (τ := τ) .tc)).toFinset := by
  simp only [hostOps9, List.Forall, StableHlo.nullary_writes, StableHlo.unary_writes, StableHlo.binary_writes,
    StableHlo.ternary_writes, StableHlo.reshape_writes, Finset.singleton_subset_iff, List.mem_toFinset, List.mem_map]
  repeat' apply And.intro
  all_goals exact ⟨_, by decide, rfl⟩

/-- A buffer stretch 9 does not write is the same after it as before. -/
theorem keep9 (c : Dev nD) (b : Ref sig .tc) (hb : b ∉ wr9) :
    W19 m ρ c (Proc.devRef .tc b) = W18 m ρ c (Proc.devRef .tc b) :=
  after_of_writes_sub hostOps9 _ writes9 hb

/-- The buffers stretch 10 writes. -/
abbrev wr10 : List (Ref sig .tc) := [main_v99, main_v100]

theorem writes10 : (hostOps10 : List (HloOp τ sig (Elt Ideal))).Forall
    fun op => op.writes ⊆ (wr10.map (Proc.devRef (τ := τ) .tc)).toFinset := by
  simp only [hostOps10, List.Forall, StableHlo.nullary_writes, StableHlo.unary_writes, StableHlo.binary_writes,
    StableHlo.ternary_writes, StableHlo.reshape_writes, Finset.singleton_subset_iff, List.mem_toFinset, List.mem_map]
  repeat' apply And.intro
  all_goals exact ⟨_, by decide, rfl⟩

/-- A buffer stretch 10 does not write is the same after it as before. -/
theorem keep10 (c : Dev nD) (b : Ref sig .tc) (hb : b ∉ wr10) :
    W21 m ρ c (Proc.devRef .tc b) = W20 m ρ c (Proc.devRef .tc b) :=
  after_of_writes_sub hostOps10 _ writes10 hb

end Cert.KernelIdeal.Fold

end
-- ==== Proof.LibPlainDot.lean ====
/-
  A plain matrix product read at an index, for any extents.

  For the dimension numbers of an `[M, K]` by `[K, N]` product (contract the left operand's columns with the right
  operand's rows, no batch axis), both the kernel's matrix unit accumulating into zero and the host's `dot_general`,
  read at the extended reals at entry `(r, c)`, are the sum over `k` of `lhs (r, k) * rhs (k, c)`.
-/
import Idealize.ShloMosaic.Lib.ValueIdx
import Idealize.ShloMosaic.PureOps.Ideal.Laws

noncomputable section

namespace Cert.Sage

open Idealize.ShloMosaic Idealize.ShloMosaic.ValueIdx

/-- The left operand's row coordinate is the result's row. -/
theorem plain_lhs_row {M K N : ℕ} (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The right operand's column coordinate is the result's column. -/
theorem plain_rhs_col {M K N : ℕ} (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand's index at result entry `(r, c)` and the contraction index carrying `k` is `(r, k)`. -/
theorem plain_lhsIdx {M K N : ℕ} (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  funext a
  refine Fin.ext ?_
  match a with
  | ⟨0, _⟩ => exact plain_lhs_row _ _
  | ⟨1, _⟩ => exact ((DotDims.plain M K N).lhsIdx_val_of_single rfl (ix2 r c) _).trans hk

/-- The right operand's index at result entry `(r, c)` and the contraction index carrying `k` is `(k, c)`. -/
theorem plain_rhsIdx {M K N : ℕ} (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  funext a
  refine Fin.ext ?_
  match a with
  | ⟨0, _⟩ => exact ((DotDims.plain M K N).rhsIdx_val_of_single rfl (ix2 r c) _).trans hk
  | ⟨1, _⟩ => exact plain_rhs_col _ _

/-- The contraction sum of a plain product at entry `(r, c)`, re-indexed by the contracted coordinate. -/
theorem plain_contraction {M K N : ℕ} (lhs : (⟨2, ![M, K]⟩ : Shape).Idx → EReal) (rhs : (⟨2, ![K, N]⟩ : Shape).Idx → EReal)
    (r : Fin M) (c : Fin N) :
    (∑ q : (DotDims.plain M K N).contr.Idx,
        lhs ((DotDims.plain M K N).lhsIdx (ix2 r c) q) * rhs ((DotDims.plain M K N).rhsIdx (ix2 r c) q))
      = ∑ k : Fin K, lhs (ix2 r k) * rhs (ix2 k c) := by
  rw [← Equiv.sum_comp (contrEquiv1 (DotDims.plain M K N) K rfl rfl).symm]
  refine Finset.sum_congr rfl fun k _ => ?_
  rw [plain_lhsIdx, plain_rhsIdx]

/-- The matrix unit accumulating into the zero splat, at entry `(r, c)`. -/
theorem matmul_plain_zero_apply {M K N : ℕ} {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul (DotDims.plain M K N) prec lhs rhs (constant (F := Ideal) ⟨2, ![M, N]⟩ .f32 0x00000000#32) (ix2 r c)
      = ∑ k : Fin K, lhs (ix2 r k) * rhs (ix2 k c) :=
  (Ideal.matmul_constant_zero_apply (DotDims.plain M K N) prec lhs rhs (ix2 r c)).trans (plain_contraction lhs rhs r c)

/-- The host's `dot_general`, at entry `(r, c)`. -/
theorem dotGeneral_plain_apply {M K N : ℕ} {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, lhs (ix2 r k) * rhs (ix2 k c) :=
  (Ideal.dotGeneral_apply (DotDims.plain M K N) prec sched lhs rhs (ix2 r c)).trans (plain_contraction lhs rhs r c)

end Cert.Sage

end
-- ==== Proof.LibMatProduct.lean ====
/-
  A matrix product as one whole-array function of its two factors, for any extents.

  `prod x w` is the `[M, N]` array whose entry `(r, c)` is the sum over `k` of `x (r, k) · w (k, c)`, on the extended reals.
  Both the kernel's matrix unit accumulating into zero and the host's `dot_general`, for the dimension numbers of a plain
  `[M, K]` by `[K, N]` product, are this function: each is that sum at every entry. A kernel that computes a product block
  of rows by block of rows and a reference that computes it whole can then both be stated with the one term `prod x w`.
-/
import proofs.«160678_j77988016161089_1_alg».proof.Proof.LibPlainDot

noncomputable section

namespace Cert.MatProduct

open Idealize.ShloMosaic Idealize.ShloMosaic.ValueIdx

/-- The row of a rank-2 index, as a number below the row count. -/
def rowOf {M N : ℕ} (y : (⟨2, ![M, N]⟩ : Shape).Idx) : Fin M := ⟨(y 0).val, (y 0).isLt⟩
/-- The column of a rank-2 index, as a number below the column count. -/
def colOf {M N : ℕ} (y : (⟨2, ![M, N]⟩ : Shape).Idx) : Fin N := ⟨(y 1).val, (y 1).isLt⟩

theorem eq_row_col {M N : ℕ} (y : (⟨2, ![M, N]⟩ : Shape).Idx) : y = ix2 (rowOf y) (colOf y) := eq_ix2 y

/-- The product of an `[M, K]` and a `[K, N]` array of extended reals, entry by entry. -/
def prod {M K N : ℕ} (x : (⟨2, ![M, K]⟩ : Shape).Idx → EReal) (w : (⟨2, ![K, N]⟩ : Shape).Idx → EReal) :
    (⟨2, ![M, N]⟩ : Shape).Idx → EReal :=
  fun y => ∑ k : Fin K, x (ix2 (rowOf y) k) * w (ix2 k (colOf y))

/-- The matrix unit accumulating into the zero splat is the product. -/
theorem matmul_zero_eq_prod {M K N : ℕ} {φ₁ φ₂ : FTy} (prec : Option ContractPrecision)
    (lhs : FVec Ideal ⟨2, ![M, K]⟩ φ₁) (rhs : FVec Ideal ⟨2, ![K, N]⟩ φ₂) :
    FloatOps.matmul (DotDims.plain M K N) prec lhs rhs (constant (F := Ideal) ⟨2, ![M, N]⟩ .f32 0x00000000#32) = prod lhs rhs := by
  funext y
  rw [eq_row_col y]
  exact Cert.Sage.matmul_plain_zero_apply prec lhs rhs (rowOf y) (colOf y)

/-- The host's `dot_general` is the product. -/
theorem dotGeneral_eq_prod {M K N : ℕ} {φ₁ φ₂ : FTy} (prec : Option ContractPrecision) (sched : HostSchedule)
    (lhs : FVec Ideal ⟨2, ![M, K]⟩ φ₁) (rhs : FVec Ideal ⟨2, ![K, N]⟩ φ₂) :
    FloatOps.dotGeneral (DotDims.plain M K N) prec sched lhs rhs = prod lhs rhs := by
  funext y
  rw [eq_row_col y]
  exact Cert.Sage.dotGeneral_plain_apply prec sched lhs rhs (rowOf y) (colOf y)

end Cert.MatProduct

end
-- ==== Proof.LibRowBias.lean ====
/-
  A bias row added to every row of an array, with or without a floor, as one whole-array function.

  `addRow x b` is the `[R, N]` array whose entry `(r, c)` is `x (r, c) + b (0, c)`, on the extended reals, for a one-row
  array `b` of shape `[1, N]`; `addRowMax x b z` is the same floored at `z`, entry by entry. A vector unit that spreads
  the row down the rows, adds, and takes the maximum with a splat computes exactly these, for any extents; and both
  functions act on each row by itself, so they keep the relation "a block is a stretch of consecutive rows of a
  taller array".
-/
import Idealize.ShloMosaic.Lib.ValueIdx
import Idealize.ShloMosaic.Lib.Pipeline.Value
import Idealize.ShloMosaic.PureOps.Ideal.Laws
import proofs.«160678_j77988016161089_1_alg».proof.Proof.LibMatProduct

noncomputable section

namespace Cert.RowBias

open Idealize.ShloMosaic Idealize.ShloMosaic.ValueIdx
open Cert.MatProduct (rowOf colOf)

/-- Every row of `x` plus the one row of `b`, entry by entry. -/
def addRow {R N : ℕ} (x : (⟨2, ![R, N]⟩ : Shape).Idx → EReal) (b : (⟨2, ![1, N]⟩ : Shape).Idx → EReal) :
    (⟨2, ![R, N]⟩ : Shape).Idx → EReal :=
  fun y => x y + b (ix2 0 (colOf y))

/-- Every row of `x` plus the one row of `b`, floored at `z`, entry by entry. -/
def addRowMax {R N : ℕ} (x : (⟨2, ![R, N]⟩ : Shape).Idx → EReal) (b : (⟨2, ![1, N]⟩ : Shape).Idx → EReal) (z : EReal) :
    (⟨2, ![R, N]⟩ : Shape).Idx → EReal :=
  fun y => max (x y + b (ix2 0 (colOf y))) z

/-- A one-row array spread down `R` rows reads, at `(r, c)`, the row's entry `c`. -/
theorem spreadRow_apply {R N : ℕ} (b : (⟨2, ![1, N]⟩ : Shape).Idx → EReal)
    (h : (⟨2, ![1, N]⟩ : Shape).Broadcasts ⟨2, ![R, N]⟩) (y : (⟨2, ![R, N]⟩ : Shape).Idx) :
    broadcastTo ⟨2, ![R, N]⟩ b h y = b (ix2 0 (colOf y)) := by
  refine broadcastTo_apply b h y (ix2 0 (colOf y)) fun a => ?_
  match a with
  | ⟨0, _⟩ => exact (if_pos rfl).symm
  | ⟨1, _⟩ =>
    show (y 1).val = if N = 1 then 0 else (y 1).val
    have hy : (y 1).val < N := (y 1).isLt
    split_ifs with hN
    · omega
    · rfl

/-- The vector unit's `x + spread b`, through the identity casts the lowering leaves around both operands. -/
theorem vec_addRow {R N : ℕ} (x : FVec Ideal ⟨2, ![R, N]⟩ .f32) (b : FVec Ideal ⟨2, ![1, N]⟩ .f32)
    (h0 : (⟨2, ![R, N]⟩ : Shape).ShapeCasts ⟨2, ![R, N]⟩) (h1 h2 : (⟨2, ![1, N]⟩ : Shape).ShapeCasts ⟨2, ![1, N]⟩)
    (hb : (⟨2, ![1, N]⟩ : Shape).Broadcasts ⟨2, ![R, N]⟩) :
    addf (shapeCast ⟨2, ![R, N]⟩ x h0) (broadcastTo ⟨2, ![R, N]⟩ (shapeCast ⟨2, ![1, N]⟩ (shapeCast ⟨2, ![1, N]⟩ b h1) h2) hb)
      = addRow x b := by
  rw [shapeCast_self, shapeCast_self, shapeCast_self]
  funext y
  rw [addf_apply, spreadRow_apply]
  rfl

/-- The same floored at a splat of `z`. -/
theorem vec_addRowMax {R N : ℕ} (x : FVec Ideal ⟨2, ![R, N]⟩ .f32) (b : FVec Ideal ⟨2, ![1, N]⟩ .f32)
    (h0 : (⟨2, ![R, N]⟩ : Shape).ShapeCasts ⟨2, ![R, N]⟩) (h1 h2 : (⟨2, ![1, N]⟩ : Shape).ShapeCasts ⟨2, ![1, N]⟩)
    (hb : (⟨2, ![1, N]⟩ : Shape).Broadcasts ⟨2, ![R, N]⟩) (z : Ideal .f32) :
    maximumf (addf (shapeCast ⟨2, ![R, N]⟩ x h0) (broadcastTo ⟨2, ![R, N]⟩ (shapeCast ⟨2, ![1, N]⟩ (shapeCast ⟨2, ![1, N]⟩ b h1) h2) hb))
        (broadcast ⟨2, ![R, N]⟩ z)
      = addRowMax x b z := by
  rw [vec_addRow]
  funext y
  rw [maximumf_apply, broadcast_apply]
  rfl

/-- Two products agree at two entries when the rows and the columns those entries read agree. -/
theorem prod_entry_congr {M M' K N N' : ℕ} {x : (⟨2, ![M, K]⟩ : Shape).Idx → EReal} {x' : (⟨2, ![M', K]⟩ : Shape).Idx → EReal}
    {w : (⟨2, ![K, N]⟩ : Shape).Idx → EReal} {w' : (⟨2, ![K, N']⟩ : Shape).Idx → EReal}
    (y : (⟨2, ![M, N]⟩ : Shape).Idx) (y' : (⟨2, ![M', N']⟩ : Shape).Idx)
    (hx : ∀ k : Fin K, x (ix2 (rowOf y) k) = x' (ix2 (rowOf y') k))
    (hw : ∀ k : Fin K, w (ix2 k (colOf y)) = w' (ix2 k (colOf y'))) :
    Cert.MatProduct.prod x w y = Cert.MatProduct.prod x' w' y' :=
  Finset.sum_congr rfl fun k _ => by rw [hx k, hw k]

/-- `addRow` agrees at two entries when the entries and the bias entries they read agree. -/
theorem addRow_entry_congr {R R' N N' : ℕ} {x : (⟨2, ![R, N]⟩ : Shape).Idx → EReal} {x' : (⟨2, ![R', N']⟩ : Shape).Idx → EReal}
    {b : (⟨2, ![1, N]⟩ : Shape).Idx → EReal} {b' : (⟨2, ![1, N']⟩ : Shape).Idx → EReal}
    (y : (⟨2, ![R, N]⟩ : Shape).Idx) (y' : (⟨2, ![R', N']⟩ : Shape).Idx)
    (hx : x y = x' y') (hb : b (ix2 0 (colOf y)) = b' (ix2 0 (colOf y'))) :
    addRow x b y = addRow x' b' y' := by
  show x y + b (ix2 0 (colOf y)) = x' y' + b' (ix2 0 (colOf y'))
  rw [hx, hb]

/-- `addRowMax` agrees at two entries when the entries and the bias entries they read agree. -/
theorem addRowMax_entry_congr {R R' N N' : ℕ} {x : (⟨2, ![R, N]⟩ : Shape).Idx → EReal} {x' : (⟨2, ![R', N']⟩ : Shape).Idx → EReal}
    {b : (⟨2, ![1, N]⟩ : Shape).Idx → EReal} {b' : (⟨2, ![1, N']⟩ : Shape).Idx → EReal} (z : EReal)
    (y : (⟨2, ![R, N]⟩ : Shape).Idx) (y' : (⟨2, ![R', N']⟩ : Shape).Idx)
    (hx : x y = x' y') (hb : b (ix2 0 (colOf y)) = b' (ix2 0 (colOf y'))) :
    addRowMax x b z y = addRowMax x' b' z y' := by
  show max (x y + b (ix2 0 (colOf y))) z = max (x' y' + b' (ix2 0 (colOf y'))) z
  rw [hx, hb]

/-- A length-`N` vector regarded as one row reads, at `(0, c)`, the vector's entry `c`. -/
theorem vecRow_apply {α : Type} {N : ℕ} (b : (⟨1, ![N]⟩ : Shape).Idx → α)
    (h : (⟨1, ![N]⟩ : Shape).ShapeCasts ⟨2, ![1, N]⟩) (c : Fin N) :
    shapeCast ⟨2, ![1, N]⟩ b h (ix2 (0 : Fin 1) c) = b (ix1 c) := by
  refine shapeCast_apply b h (ix2 (0 : Fin 1) c) (ix1 c) ?_
  rw [Shape.rowMajor_val_one, Shape.rowMajor_val_two]
  show c.val = 0 * N + c.val
  omega

end Cert.RowBias

end
-- ==== Proof.LibSumBlocks.lean ====
/-
  A finite sum taken block by block.

  A sum of `m * n` terms in a commutative additive monoid is the sum, over `m` consecutive blocks, of
  each block's `n` terms: term `b` of block `a` is term `b + n * a` of the whole. Only commutativity and
  associativity of the addition are used, so the law holds on the extended reals with no finiteness
  assumption: a contraction of length 4096 accumulated as 16 partial contractions of length 256 is the
  one contraction.
-/
import Mathlib.Algebra.BigOperators.Fin
import Mathlib.Logic.Equiv.Fin.Basic

namespace Cert.SumBlocks

open Finset

/-- The whole sum is the sum over blocks of the blocks' sums; `finProdFinEquiv (a, b)` is position
    `b` of block `a`. -/
theorem sum_blocks {M : Type*} [AddCommMonoid M] (m n : ℕ) (f : Fin (m * n) → M) :
    ∑ k : Fin (m * n), f k = ∑ a : Fin m, ∑ b : Fin n, f (finProdFinEquiv (a, b)) :=
  (Equiv.sum_comp finProdFinEquiv f).symm.trans (Fintype.sum_prod_type _)

/-- Position `b` of block `a` is term `b + n * a`. -/
theorem block_pos (m n : ℕ) (a : Fin m) (b : Fin n) :
    (finProdFinEquiv (a, b) : Fin (m * n)).val = b.val + n * a.val := rfl

end Cert.SumBlocks
-- ==== Proof.LibMoments.lean ====
/-
  Moments of a finite real sample, computed on the extended reals.

  A sample of `n` real numbers has first moment `S1 = ∑ y i` and second moment `S2 = ∑ y i * y i`. Its mean is
  `μ = S1 / n`, and its variance can be written in two ways: as the mean of squares minus the squared mean,
  `S2 / n - μ * μ`, or as the mean of the squared deviations, `(∑ (y i - μ) * (y i - μ)) / n`. Over the reals the
  two agree because `∑ (y i - μ)² = S2 - 2 μ S1 + n μ²` and `S1 = n μ`. On the extended reals the identity is
  FALSE at the infinities (`⊤ - ⊤` is `⊥`), so every statement here takes a real-valued sample; the sums, the
  mean and the variance are then coercions of real numbers, the variance of a nonnegative one, and the inverse
  square root of a positive real is again a real.

  The module also records that a sum of `m * n` terms is the sum over `m` consecutive blocks of `n` terms
  (a sample of 100000 numbers accumulated as 20 partial sums of 5000), and the real numbers two
  single-precision words denote.
-/
import Idealize.ShloMosaic.PureOps.Ideal
import proofs.«160678_j77988016161089_1_alg».proof.Proof.LibSumBlocks

noncomputable section

namespace Cert.Moments

open Idealize.ShloMosaic Finset

/-! ### Coercion of a finite real sum -/

/-- The coercion `ℝ → EReal` commutes with finite sums: it is additive and sends `0` to `0`. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ### A sum taken block by block -/

/-- Position `b` of block `a`, among `m` blocks of `n` terms, is a position of the whole. -/
theorem block_lt {m n : ℕ} (a : Fin m) (b : Fin n) : n * a.val + b.val < m * n := by
  have ha := a.isLt
  have hb := b.isLt
  calc n * a.val + b.val < n * a.val + n := by omega
    _ = n * (a.val + 1) := (Nat.mul_succ n a.val).symm
    _ ≤ n * m := Nat.mul_le_mul_left n ha
    _ = m * n := Nat.mul_comm n m

/-- A sum of `m * n` terms in a commutative additive monoid is the sum, over `m` consecutive blocks, of each
    block's `n` terms: term `b` of block `a` is term `n * a + b` of the whole. -/
theorem sum_blocks_val {M : Type*} [AddCommMonoid M] (m n : ℕ) (f : Fin (m * n) → M) :
    ∑ i, f i = ∑ a : Fin m, ∑ b : Fin n, f ⟨n * a.val + b.val, block_lt a b⟩ :=
  (Cert.SumBlocks.sum_blocks m n f).trans
    (Finset.sum_congr rfl fun a _ => Finset.sum_congr rfl fun b _ =>
      congrArg f (Fin.ext ((Cert.SumBlocks.block_pos m n a b).trans (Nat.add_comm _ _))))

/-- A sum of 100000 terms is the sum of 20 consecutive partial sums of 5000 terms: term `j` of partial sum
    `t` is term `5000 * t + j`. -/
theorem sum_100000_blocks {M : Type*} [AddCommMonoid M] (g : Fin 100000 → M) :
    ∑ r : Fin 100000, g r
      = ∑ t : Fin 20, ∑ j : Fin 5000, g ⟨5000 * t.val + j.val, by omega⟩ :=
  sum_blocks_val 20 5000 g

/-! ### The variance identity over the reals -/

/-- The mean of a real sample, written as the product with the reciprocal of the sample size. -/
def mean {n : ℕ} (y : Fin n → ℝ) : ℝ := (∑ i, y i) * (1 / (n : ℝ))

/-- The variance of a real sample: the mean of the squared deviations from the mean. -/
def variance {n : ℕ} (y : Fin n → ℝ) : ℝ := (∑ i, (y i - mean y) * (y i - mean y)) * (1 / (n : ℝ))

/-- A variance is nonnegative: it is a sum of squares times a nonnegative factor. -/
theorem variance_nonneg {n : ℕ} (y : Fin n → ℝ) : 0 ≤ variance y :=
  mul_nonneg (Finset.sum_nonneg fun i _ => mul_self_nonneg _) (by positivity)

/-- Mean of squares minus squared mean is the mean of squared deviations: expanding the square,
    `∑ (y i - μ)² = ∑ y i² - 2 μ ∑ y i + n μ²`, and `∑ y i = n μ`. -/
theorem real_variance {n : ℕ} (hn : 0 < n) (y : Fin n → ℝ) :
    (∑ i, y i * y i) * (1 / (n : ℝ)) - mean y * mean y = variance y := by
  have hn' : (n : ℝ) ≠ 0 := Nat.cast_ne_zero.mpr hn.ne'
  have hsum : ∑ i, y i = (n : ℝ) * mean y := by
    unfold mean; field_simp
  have hexp : ∀ i, (y i - mean y) * (y i - mean y) = y i * y i - 2 * mean y * y i + mean y * mean y :=
    fun i => by ring
  unfold variance
  simp only [hexp, Finset.sum_add_distrib, Finset.sum_sub_distrib, ← Finset.mul_sum, Finset.sum_const,
    Finset.card_univ, Fintype.card_fin, nsmul_eq_mul]
  rw [hsum]
  field_simp
  ring

/-! ### The same on the extended reals, for a real-valued sample -/

/-- The mean of a real-valued sample computed on the extended reals, `(∑ y i) / n`, is the coercion of its
    real mean. -/
theorem div_sum_eq_mean {n : ℕ} (hn : 0 < n) (y : Fin n → ℝ) (N : EReal) (hN : N = ((n : ℝ) : EReal)) :
    Ideal.div (∑ i, (y i : EReal)) N = ((mean y : ℝ) : EReal) := by
  have hn' : (n : ℝ) ≠ 0 := Nat.cast_ne_zero.mpr hn.ne'
  subst hN
  rw [← coe_sum, Ideal.div_coe hn', ← EReal.coe_mul]
  rfl

/-- The mean of a real-valued sample computed on the extended reals is a real number. -/
theorem div_sum_real {n : ℕ} (hn : 0 < n) (y : Fin n → ℝ) (N : EReal) (hN : N = ((n : ℝ) : EReal)) :
    ∃ u : ℝ, Ideal.div (∑ i, (y i : EReal)) N = (u : EReal) :=
  ⟨mean y, div_sum_eq_mean hn y N hN⟩

/-- The mean of squares of a real-valued sample computed on the extended reals, `(∑ y i * y i) / n`, is the
    coercion of the real mean of squares. -/
theorem div_sum_sq_eq {n : ℕ} (hn : 0 < n) (y : Fin n → ℝ) (N : EReal) (hN : N = ((n : ℝ) : EReal)) :
    Ideal.div (∑ i, (y i : EReal) * (y i : EReal)) N = (((∑ i, y i * y i) * (1 / (n : ℝ)) : ℝ) : EReal) := by
  have hn' : (n : ℝ) ≠ 0 := Nat.cast_ne_zero.mpr hn.ne'
  subst hN
  simp only [← EReal.coe_mul, ← coe_sum]
  rw [Ideal.div_coe hn', ← EReal.coe_mul]

/-- The mean of the squared deviations from the mean, everything computed on the extended reals, is the
    coercion of the real variance. -/
theorem div_sum_dev_eq_variance {n : ℕ} (hn : 0 < n) (y : Fin n → ℝ) (N : EReal)
    (hN : N = ((n : ℝ) : EReal)) :
    Ideal.div (∑ i, ((y i : EReal) - Ideal.div (∑ i, (y i : EReal)) N)
        * ((y i : EReal) - Ideal.div (∑ i, (y i : EReal)) N)) N = ((variance y : ℝ) : EReal) := by
  have hn' : (n : ℝ) ≠ 0 := Nat.cast_ne_zero.mpr hn.ne'
  rw [div_sum_eq_mean hn y N hN]
  subst hN
  simp only [← EReal.coe_sub, ← EReal.coe_mul, ← coe_sum]
  rw [Ideal.div_coe hn', ← EReal.coe_mul]
  rfl

/-- Mean of squares minus squared mean, everything computed on the extended reals, is the coercion of the
    real variance. -/
theorem div_sum_sq_sub_eq_variance {n : ℕ} (hn : 0 < n) (y : Fin n → ℝ) (N : EReal)
    (hN : N = ((n : ℝ) : EReal)) :
    Ideal.div (∑ i, (y i : EReal) * (y i : EReal)) N
        - Ideal.div (∑ i, (y i : EReal)) N * Ideal.div (∑ i, (y i : EReal)) N
      = ((variance y : ℝ) : EReal) := by
  rw [div_sum_eq_mean hn y N hN, div_sum_sq_eq hn y N hN, ← EReal.coe_mul, ← EReal.coe_sub,
    real_variance hn y]

/-- The variance identity on the extended reals, for a real-valued sample of positive size `n` and a divisor
    `N` that is the real number `n`: the mean of squares minus the squared mean is the mean of the squared
    deviations from the mean. -/
theorem variance_identity {n : ℕ} (hn : 0 < n) (y : Fin n → ℝ) (N : EReal) (hN : N = ((n : ℝ) : EReal)) :
    Ideal.div (∑ i, (y i : EReal) * (y i : EReal)) N
        - Ideal.div (∑ i, (y i : EReal)) N * Ideal.div (∑ i, (y i : EReal)) N
      = Ideal.div (∑ i, ((y i : EReal) - Ideal.div (∑ i, (y i : EReal)) N)
        * ((y i : EReal) - Ideal.div (∑ i, (y i : EReal)) N)) N := by
  rw [div_sum_sq_sub_eq_variance hn y N hN, div_sum_dev_eq_variance hn y N hN]

/-- Both sides of the variance identity are the coercion of one nonnegative real number. -/
theorem div_sum_dev_real_nonneg {n : ℕ} (hn : 0 < n) (y : Fin n → ℝ) (N : EReal)
    (hN : N = ((n : ℝ) : EReal)) :
    ∃ v : ℝ, 0 ≤ v ∧ Ideal.div (∑ i, ((y i : EReal) - Ideal.div (∑ i, (y i : EReal)) N)
        * ((y i : EReal) - Ideal.div (∑ i, (y i : EReal)) N)) N = (v : EReal) :=
  ⟨variance y, variance_nonneg y, div_sum_dev_eq_variance hn y N hN⟩

/-- Mean of squares minus squared mean of a real-valued sample is the coercion of a nonnegative real. -/
theorem div_sum_sq_sub_real_nonneg {n : ℕ} (hn : 0 < n) (y : Fin n → ℝ) (N : EReal)
    (hN : N = ((n : ℝ) : EReal)) :
    ∃ v : ℝ, 0 ≤ v ∧ Ideal.div (∑ i, (y i : EReal) * (y i : EReal)) N
        - Ideal.div (∑ i, (y i : EReal)) N * Ideal.div (∑ i, (y i : EReal)) N = (v : EReal) :=
  ⟨variance y, variance_nonneg y, div_sum_sq_sub_eq_variance hn y N hN⟩

/-! ### The inverse square root of a positive real -/

/-- The inverse square root of a positive real is the real number `(√v)⁻¹`. -/
theorem rsqrt_coe_pos {v : ℝ} (hv : 0 < v) :
    Ideal.rsqrt (v : EReal) = (((Real.sqrt v)⁻¹ : ℝ) : EReal) := by
  rw [Ideal.rsqrt_coe, if_neg (not_lt.mpr hv.le), if_neg hv.ne']

/-- The inverse square root of a positive real is a real number. -/
theorem rsqrt_real {v : ℝ} (hv : 0 < v) : ∃ w : ℝ, Ideal.rsqrt (v : EReal) = (w : EReal) :=
  ⟨(Real.sqrt v)⁻¹, rsqrt_coe_pos hv⟩

/-- The inverse square root of a nonnegative real plus a positive real is a (positive) real number: the
    shape of a variance with a stabilising constant added. -/
theorem rsqrt_add_real {v e : ℝ} (hv : 0 ≤ v) (he : 0 < e) :
    ∃ w : ℝ, 0 < w ∧ Ideal.rsqrt ((v : EReal) + (e : EReal)) = (w : EReal) := by
  have h : 0 < v + e := by linarith
  refine ⟨(Real.sqrt (v + e))⁻¹, inv_pos.mpr (Real.sqrt_pos.mpr h), ?_⟩
  rw [← EReal.coe_add, rsqrt_coe_pos h]

/-! ### Two single-precision words -/

/-- The word `0x47C35000` (sign `0`, exponent field `143`, fraction `4411392`) denotes
    `(2^23 + 4411392) · 2^(143 - 127 - 23) = 100000`. -/
theorem ofBits_100000 : Ideal.ofBits .f32 0x47C35000#32 = ((100000 : ℝ) : EReal) := by
  simp [Ideal.ofBits, Ideal.ieee, -EReal.coe_mul]; norm_num

/-- The word `0x3727C5AC` (sign `0`, exponent field `110`, fraction `2606508`) denotes the positive real
    `(2^23 + 2606508) · 2^(110 - 127 - 23) = 10995116 / 2^40`, the single-precision number nearest `10⁻⁵`. -/
theorem ofBits_eps : Ideal.ofBits .f32 0x3727C5AC#32 = ((10995116 / 2 ^ 40 : ℝ) : EReal) := by
  simp [Ideal.ofBits, Ideal.ieee, -EReal.coe_mul]; norm_num

/-- The word `0x3727C5AC` denotes a positive real number. -/
theorem ofBits_eps_pos : ∃ e : ℝ, 0 < e ∧ Ideal.ofBits .f32 0x3727C5AC#32 = (e : EReal) :=
  ⟨10995116 / 2 ^ 40, by positivity, ofBits_eps⟩

/-- The word `0x47C35000` denotes the real number that the natural number `100000` casts to: the form in
    which a sample size enters the statements above. -/
theorem ofBits_100000_cast : Ideal.ofBits .f32 0x47C35000#32 = (((100000 : ℕ) : ℝ) : EReal) := by
  rw [ofBits_100000]; norm_num

end Cert.Moments

end
-- ==== Proof.LibRealClosure.lean ====
/-
  Finiteness carried through host operations at the ideal instance.

  At the ideal instance a float is an extended real. This file says when the result of a host
  operation has only real entries (no infinity, no junk value), given that its operands have:
  a literal whose exponent field is not all ones; a broadcast, a gather, a scatter whose body
  returns the update (each result entry is an entry of an operand); a sum, difference or product
  entry by entry; a selection between two arrays under any mask; a dot product (a finite sum of
  products); a scatter with an add body and a sum along axes (an entry plus a finite sum of
  entries); a quotient by a positive real; a real power of a real (the real power function is
  total); and the reciprocal square root of a POSITIVE real. Two finer predicates, "every entry
  is a real that is not negative" and "every entry is a positive real", carry the sign through
  a square, a sum and a quotient, which is what the reciprocal square root of a variance plus a
  positive constant needs. All statements are generic in the shapes and the dimension numbers.
-/
import Idealize.ShloMosaic.PureOps.Ideal.Laws
import Idealize.ShloMosaic.Lib.IdealHost

namespace Idealize.ShloMosaic.RealClosure

open Idealize.ShloMosaic
open scoped BigOperators

/-! ## One extended real -/

/-- The extended real is a real number. -/
def IsReal (x : EReal) : Prop := ∃ r : ℝ, x = (r : EReal)
/-- The extended real is a real number that is not negative. -/
def IsNonneg (x : EReal) : Prop := ∃ r : ℝ, 0 ≤ r ∧ x = (r : EReal)
/-- The extended real is a positive real number. -/
def IsPos (x : EReal) : Prop := ∃ r : ℝ, 0 < r ∧ x = (r : EReal)

theorem IsNonneg.isReal {x : EReal} (h : IsNonneg x) : IsReal x := let ⟨r, _, e⟩ := h; ⟨r, e⟩
theorem IsPos.isNonneg {x : EReal} (h : IsPos x) : IsNonneg x := let ⟨r, p, e⟩ := h; ⟨r, p.le, e⟩
theorem IsPos.isReal {x : EReal} (h : IsPos x) : IsReal x := h.isNonneg.isReal

theorem isReal_zero : IsReal 0 := ⟨0, EReal.coe_zero.symm⟩
theorem isNonneg_zero : IsNonneg 0 := ⟨0, le_refl _, EReal.coe_zero.symm⟩

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
/-- The square of a real is a real that is not negative. -/
theorem IsReal.mul_self {x : EReal} (hx : IsReal x) : IsNonneg (x * x) := by
  obtain ⟨a, rfl⟩ := hx; exact ⟨a * a, mul_self_nonneg a, (EReal.coe_mul a a).symm⟩
theorem IsNonneg.add {x y : EReal} (hx : IsNonneg x) (hy : IsNonneg y) : IsNonneg (x + y) := by
  obtain ⟨a, ha, rfl⟩ := hx; obtain ⟨b, hb, rfl⟩ := hy
  exact ⟨a + b, add_nonneg ha hb, (EReal.coe_add a b).symm⟩
theorem IsNonneg.add_pos {x y : EReal} (hx : IsNonneg x) (hy : IsPos y) : IsPos (x + y) := by
  obtain ⟨a, ha, rfl⟩ := hx; obtain ⟨b, hb, rfl⟩ := hy
  exact ⟨a + b, add_pos_of_nonneg_of_pos ha hb, (EReal.coe_add a b).symm⟩

/-- A finite sum of reals is a real. -/
theorem IsReal.sum {ι : Type} (s : Finset ι) (f : ι → EReal) (h : ∀ i ∈ s, IsReal (f i)) :
    IsReal (∑ i ∈ s, f i) :=
  Finset.sum_induction f IsReal (fun _ _ ha hb => ha.add hb) isReal_zero h
/-- A finite sum of reals that are not negative is one. -/
theorem IsNonneg.sum {ι : Type} (s : Finset ι) (f : ι → EReal) (h : ∀ i ∈ s, IsNonneg (f i)) :
    IsNonneg (∑ i ∈ s, f i) :=
  Finset.sum_induction f IsNonneg (fun _ _ ha hb => ha.add hb) isNonneg_zero h

/-- A real divided by a positive real is a real. -/
theorem IsReal.div_pos {x y : EReal} (hx : IsReal x) (hy : IsPos y) : IsReal (Ideal.div x y) := by
  obtain ⟨a, rfl⟩ := hx; obtain ⟨b, hb, rfl⟩ := hy
  rw [Ideal.div_coe hb.ne']
  exact ⟨a * (1 / b), (EReal.coe_mul a (1 / b)).symm⟩
/-- A real that is not negative divided by a positive real is not negative. -/
theorem IsNonneg.div_pos {x y : EReal} (hx : IsNonneg x) (hy : IsPos y) : IsNonneg (Ideal.div x y) := by
  obtain ⟨a, ha, rfl⟩ := hx; obtain ⟨b, hb, rfl⟩ := hy
  rw [Ideal.div_coe hb.ne']
  exact ⟨a * (1 / b), mul_nonneg ha (one_div_pos.mpr hb).le, (EReal.coe_mul a (1 / b)).symm⟩
/-- A real power of a real is a real: the real power function is total. -/
theorem IsReal.pow {x y : EReal} (hx : IsReal x) (hy : IsReal y) : IsReal (Ideal.pow x y) := by
  obtain ⟨a, rfl⟩ := hx; obtain ⟨b, rfl⟩ := hy; exact ⟨Real.rpow a b, Ideal.pow_coe_coe a b⟩
/-- The reciprocal square root of a positive real is a real. -/
theorem IsPos.rsqrt {x : EReal} (hx : IsPos x) : IsReal (Ideal.rsqrt x) := by
  obtain ⟨a, ha, rfl⟩ := hx
  rw [Ideal.rsqrt_coe, if_neg (not_lt.mpr ha.le), if_neg ha.ne']
  exact ⟨_, rfl⟩

/-! ## Literals -/

/-- A pattern whose exponent field is not all ones denotes a real. -/
theorem isReal_ieee (e m : Nat) {w : Nat} (b : BitVec w) (h : (b.extractLsb' m e).toNat ≠ 2 ^ e - 1) :
    IsReal (Ideal.ieee e m b) := by
  unfold Ideal.ieee
  dsimp only
  rw [if_neg h]
  split_ifs <;> exact ⟨_, rfl⟩

/-- A pattern with a clear sign bit and an exponent field neither zero nor all ones denotes a
    positive real (a normal number). -/
theorem isPos_ieee (e m : Nat) {w : Nat} (b : BitVec w) (hs : (b.extractLsb' (e + m) 1 == 1#1) = false)
    (h : (b.extractLsb' m e).toNat ≠ 2 ^ e - 1) (h0 : (b.extractLsb' m e).toNat ≠ 0) :
    IsPos (Ideal.ieee e m b) := by
  unfold Ideal.ieee
  dsimp only
  rw [if_neg h, if_neg h0, hs]
  refine ⟨_, ?_, rfl⟩
  rw [if_neg (by decide)]
  positivity

/-! ## Arrays -/

/-- Every entry is a real. -/
def AllReal {ι : Type} (v : ι → EReal) : Prop := ∀ i, IsReal (v i)
/-- Every entry is a real that is not negative. -/
def AllNonneg {ι : Type} (v : ι → EReal) : Prop := ∀ i, IsNonneg (v i)
/-- Every entry is a positive real. -/
def AllPos {ι : Type} (v : ι → EReal) : Prop := ∀ i, IsPos (v i)

theorem AllNonneg.allReal {ι : Type} {v : ι → EReal} (h : AllNonneg v) : AllReal v := fun i => (h i).isReal
theorem AllPos.allReal {ι : Type} {v : ι → EReal} (h : AllPos v) : AllReal v := fun i => (h i).isReal
theorem AllPos.allNonneg {ι : Type} {v : ι → EReal} (h : AllPos v) : AllNonneg v := fun i => (h i).isNonneg

section ops
variable {s t : Shape}

/-- A float literal spread over a shape. -/
theorem allReal_constant (b : BitVec 32) (h : IsReal (Ideal.ofBits .f32 b)) :
    AllReal (constant (F := Ideal) s .f32 b) := fun _ => h
theorem allNonneg_constant (b : BitVec 32) (h : IsNonneg (Ideal.ofBits .f32 b)) :
    AllNonneg (constant (F := Ideal) s .f32 b) := fun _ => h
theorem allPos_constant (b : BitVec 32) (h : IsPos (Ideal.ofBits .f32 b)) :
    AllPos (constant (F := Ideal) s .f32 b) := fun _ => h

/-- Each entry of a broadcast is an entry of its operand. -/
theorem broadcastInDim_all (P : EReal → Prop) (dims : Fin s.rank → Fin t.rank) (h : s.BroadcastsInDim t dims)
    (x : s.Idx → EReal) (hx : ∀ i, P (x i)) : ∀ j, P (broadcastInDim t dims h x j) := fun _ => hx _
theorem allReal_broadcastInDim {dims : Fin s.rank → Fin t.rank} {h : s.BroadcastsInDim t dims}
    {x : s.Idx → EReal} (hx : AllReal x) : AllReal (broadcastInDim t dims h x) :=
  broadcastInDim_all IsReal dims h x hx
theorem allPos_broadcastInDim {dims : Fin s.rank → Fin t.rank} {h : s.BroadcastsInDim t dims}
    {x : s.Idx → EReal} (hx : AllPos x) : AllPos (broadcastInDim t dims h x) :=
  broadcastInDim_all IsPos dims h x hx

theorem allReal_addf {x y : FVec Ideal s .f32} (hx : AllReal x) (hy : AllReal y) : AllReal (addf x y) :=
  fun i => (hx i).add (hy i)
theorem allReal_subf {x y : FVec Ideal s .f32} (hx : AllReal x) (hy : AllReal y) : AllReal (subf x y) :=
  fun i => (hx i).sub (hy i)
theorem allReal_mulf {x y : FVec Ideal s .f32} (hx : AllReal x) (hy : AllReal y) : AllReal (mulf x y) :=
  fun i => (hx i).mul (hy i)
/-- The entrywise square of an array of reals. -/
theorem allNonneg_mulf_self {x : FVec Ideal s .f32} (hx : AllReal x) : AllNonneg (mulf x x) :=
  fun i => (hx i).mul_self
theorem allPos_addf {x y : FVec Ideal s .f32} (hx : AllNonneg x) (hy : AllPos y) : AllPos (addf x y) :=
  fun i => (hx i).add_pos (hy i)

/-- A selection between two arrays of reals, under any mask. -/
theorem allReal_select (c : IVec s 1) {a b : s.Idx → EReal} (ha : AllReal a) (hb : AllReal b) :
    AllReal (select c a b) := by
  intro i
  show IsReal (if c i = 1 then a i else b i)
  split_ifs
  · exact ha i
  · exact hb i

theorem allReal_hostDivf {x y : FVec Ideal s .f32} (hx : AllReal x) (hy : AllPos y) : AllReal (Host.divf x y) :=
  fun i => (hx i).div_pos (hy i)
theorem allNonneg_hostDivf {x y : FVec Ideal s .f32} (hx : AllNonneg x) (hy : AllPos y) :
    AllNonneg (Host.divf x y) :=
  fun i => (hx i).div_pos (hy i)
theorem allReal_hostPowf {x y : FVec Ideal s .f32} (hx : AllReal x) (hy : AllReal y) : AllReal (Host.powf x y) :=
  fun i => (hx i).pow (hy i)
theorem allReal_hostRsqrt {x : FVec Ideal s .f32} (hx : AllPos x) : AllReal (Host.rsqrt x) :=
  fun i => (hx i).rsqrt

/-- A dot product of arrays of reals: each entry is a finite sum of products. -/
theorem allReal_dotGeneral {sl sr so : Shape} (d : DotDims sl sr so) (prec : Option ContractPrecision)
    {l : FVec Ideal sl .f32} {r : FVec Ideal sr .f32} (hl : AllReal l) (hr : AllReal r) :
    AllReal (Host.dotGeneral d prec l r) := by
  intro j
  show IsReal (FloatOps.dotGeneral d prec .single l r j)
  rw [Ideal.dotGeneral_apply]
  exact IsReal.sum _ _ fun k _ => (hl _).mul (hr _)

/-- Each entry of a gather is an entry of its operand. -/
theorem allReal_gather {si : Shape} {w : Nat} (d : GatherDims s si t) {x : s.Idx → EReal} (idx : IVec si w)
    (hx : AllReal x) : AllReal (Host.gather d x idx) := fun _ => hx _

/-- A scatter whose body returns the update: each entry of the result is an entry of the operand
    or an entry of the updates, whatever the indices. -/
theorem scatter_set_all {si u : Shape} {w : Nat} (P : EReal → Prop) (d : ScatterDims s si u) (idx : IVec si w)
    (upd : u.Idx → EReal) (hu : ∀ j, P (upd j)) (l : List (Fin u.numel)) :
    ∀ (x : s.Idx → EReal), (∀ i, P (x i)) → ∀ i, P (l.foldl (fun r n =>
      match d.resultIdx? (u.rowMajor.symm n) idx with
      | some i => fun i' => if i' = i then (fun _ b => b) (r i) (upd (u.rowMajor.symm n)) else r i'
      | none => r) x i) := by
  induction l with
  | nil => intro x hx; exact hx
  | cons n l ih =>
    intro x hx
    rw [List.foldl_cons]
    apply ih
    intro i'
    generalize d.resultIdx? (u.rowMajor.symm n) idx = o
    cases o with
    | none => exact hx i'
    | some i =>
      show P (if i' = i then upd (u.rowMajor.symm n) else x i')
      split_ifs
      · exact hu _
      · exact hx _

theorem allReal_scatter_set {si u : Shape} {w : Nat} (d : ScatterDims s si u) {x : s.Idx → EReal} (idx : IVec si w)
    {upd : u.Idx → EReal} (hx : AllReal x) (hu : AllReal upd) :
    AllReal (Host.scatter d (fun _ b => b) x idx upd) :=
  scatter_set_all IsReal d idx upd hu _ x hx

/-- A scatter with an add body: an entry of the operand plus a finite sum of entries of the updates. -/
theorem allReal_scatterAdd {si u : Shape} {w : Nat} (d : ScatterDims s si u) {x : FVec Ideal s .f32} (idx : IVec si w)
    {upd : FVec Ideal u .f32} (hx : AllReal x) (hu : AllReal upd) : AllReal (Host.scatterAdd d x idx upd) := by
  intro i
  show IsReal (x i + ∑ j ∈ Finset.univ.filter (fun j => d.resultIdx? j idx = some i), upd j)
  exact (hx i).add (IsReal.sum _ _ fun j _ => hu j)

/-- A sum along axes: the initial value plus a finite sum of entries. -/
theorem allReal_reduceAdd {axes : List (Fin s.rank)} {u : Shape} {x : FVec Ideal s .f32} {init : u.Idx → EReal}
    (h : s.ReducesTo axes t) (hu : 0 < u.numel) (hx : AllReal x) (hi : AllReal init) :
    AllReal (Host.reduceAdd (F := Ideal) (φ := .f32) x init h hu) := by
  intro j
  show IsReal (init (Shape.Idx.first hu) + ∑ i ∈ Finset.univ.filter (fun i => h.drop i = j), x i)
  exact (hi _).add (IsReal.sum _ _ fun i _ => hx i)
theorem allNonneg_reduceAdd {axes : List (Fin s.rank)} {u : Shape} {x : FVec Ideal s .f32} {init : u.Idx → EReal}
    (h : s.ReducesTo axes t) (hu : 0 < u.numel) (hx : AllNonneg x) (hi : AllNonneg init) :
    AllNonneg (Host.reduceAdd (F := Ideal) (φ := .f32) x init h hu) := by
  intro j
  show IsNonneg (init (Shape.Idx.first hu) + ∑ i ∈ Finset.univ.filter (fun i => h.drop i = j), x i)
  exact (hi _).add (IsNonneg.sum _ _ fun i _ => hx i)

end ops

/-! ## The literals of a normalized graph convolution -/

theorem isReal_ofBits_f32 (b : BitVec 32) (h : (b.extractLsb' 23 8).toNat ≠ 2 ^ 8 - 1) :
    IsReal (Ideal.ofBits .f32 b) := isReal_ieee 8 23 b h
theorem isPos_ofBits_f32 (b : BitVec 32) (hs : (b.extractLsb' (8 + 23) 1 == 1#1) = false)
    (h : (b.extractLsb' 23 8).toNat ≠ 2 ^ 8 - 1) (h0 : (b.extractLsb' 23 8).toNat ≠ 0) :
    IsPos (Ideal.ofBits .f32 b) := isPos_ieee 8 23 b hs h h0

/-- 0.0 -/
theorem lit_zero : IsReal (Ideal.ofBits .f32 0x00000000#32) := isReal_ofBits_f32 _ (by decide)
theorem lit_zero_nonneg : IsNonneg (Ideal.ofBits .f32 0x00000000#32) := by
  rw [Ideal.ofBits_zero_f32]; exact isNonneg_zero
/-- 1.0 -/
theorem lit_one : IsReal (Ideal.ofBits .f32 0x3F800000#32) := isReal_ofBits_f32 _ (by decide)
/-- -0.5 -/
theorem lit_neg_half : IsReal (Ideal.ofBits .f32 0xBF000000#32) := isReal_ofBits_f32 _ (by decide)
/-- 100000.0 -/
theorem lit_count_pos : IsPos (Ideal.ofBits .f32 0x47C35000#32) :=
  isPos_ofBits_f32 _ (by decide) (by decide) (by decide)
/-- about 1e-5 -/
theorem lit_eps_pos : IsPos (Ideal.ofBits .f32 0x3727C5AC#32) :=
  isPos_ofBits_f32 _ (by decide) (by decide) (by decide)

end Idealize.ShloMosaic.RealClosure
-- ==== Proof.LibGnnStages.lean ====
/-
  The network both programs compute, as functions of whole arrays over the extended reals, and the one
  law that separates their spellings.

  A node-feature matrix `y` of `n` rows goes through batch normalisation: with the column sums `s` and
  the column sums of squares `q`, the mean is `s / N` and the variance is spelt either as
  `q / N - mean * mean` (mean of squares minus squared mean) or as the mean of the squared deviations
  `(∑ (y - mean)²) / N`. On real data and `N = n` the two agree (expand the square); on the extended
  reals they do not in general (`∞ - ∞`), which is why every stage below also records that its output
  is real whenever its inputs are.
-/
import Idealize.ShloMosaic.Lib.ValueIdx
import Idealize.ShloMosaic.PureOps.Ideal.Laws
import proofs.«160678_j77988016161089_1_alg».proof.Proof.LibMatProduct
import proofs.«160678_j77988016161089_1_alg».proof.Proof.LibRowBias
import proofs.«160678_j77988016161089_1_alg».proof.Proof.LibMoments
import proofs.«160678_j77988016161089_1_alg».proof.Proof.LibRealClosure

noncomputable section

namespace Cert.Gnn

open Idealize.ShloMosaic Idealize.ShloMosaic.ValueIdx Idealize.ShloMosaic.RealClosure
open Cert.MatProduct (prod rowOf colOf)
open Cert.RowBias (addRow addRowMax)

/-- An `n` by `d` matrix of extended reals. -/
abbrev Mat (n d : ℕ) : Type := (⟨2, ![n, d]⟩ : Shape).Idx → EReal

/-- The sum of each column, as one row. -/
def colSums {n d : ℕ} (y : Mat n d) : Mat 1 d := fun i => ∑ r : Fin n, y (ix2 r (colOf i))

/-- The sum of the squares of each column, as one row. -/
def colSqSums {n d : ℕ} (y : Mat n d) : Mat 1 d :=
  fun i => ∑ r : Fin n, y (ix2 r (colOf i)) * y (ix2 r (colOf i))

/-- The mean of each column: its sum over the count `N`. -/
def meanRow {n d : ℕ} (N : EReal) (y : Mat n d) : Mat 1 d := fun i => Ideal.div (colSums y i) N

/-- The variance of each column spelt as mean of squares minus squared mean. -/
def varSq {n d : ℕ} (N : EReal) (y : Mat n d) : Mat 1 d :=
  fun i => Ideal.div (colSqSums y i) N - meanRow N y i * meanRow N y i

/-- The variance of each column spelt as the mean of the squared deviations from the mean. -/
def varDev {n d : ℕ} (N : EReal) (y : Mat n d) : Mat 1 d := fun i =>
  Ideal.div (∑ r : Fin n, (y (ix2 r (colOf i)) - meanRow N y i) * (y (ix2 r (colOf i)) - meanRow N y i)) N

/-- Normalise: `(y - mean) * rsqrt (var + e) * g + beta`, the four rows read at the entry's column. -/
def nrm {n d : ℕ} (e : EReal) (y : Mat n d) (mean var g beta : Mat 1 d) : Mat n d := fun i =>
  (y i - mean (ix2 0 (colOf i))) * Ideal.rsqrt (var (ix2 0 (colOf i)) + e) * g (ix2 0 (colOf i))
    + beta (ix2 0 (colOf i))

/-- Normalise, then floor at `z`. -/
def nrmMax {n d : ℕ} (e : EReal) (y : Mat n d) (mean var g beta : Mat 1 d) (z : EReal) : Mat n d :=
  fun i => max (nrm e y mean var g beta i) z

/-- The dense step of a graph convolution: `(a · wrel + brel) + h · wroot`. -/
def conv {n k d : ℕ} (a : Mat n k) (wrel : Mat k d) (brel : Mat 1 d) (h : Mat n k) (wroot : Mat k d) : Mat n d :=
  fun i => addRow (prod a wrel) brel i + prod h wroot i

/-- The output head: `max (h · w1 + b1, z) · w2 + b2`. -/
def head {n k j d : ℕ} (z : EReal) (h : Mat n k) (w1 : Mat k j) (b1 : Mat 1 j) (w2 : Mat j d) (b2 : Mat 1 d) : Mat n d :=
  addRow (prod (addRowMax (prod h w1) b1 z) w2) b2

/-- Batch normalisation of `y` with the variance spelt by `V`. -/
def bn (V : {n d : ℕ} → EReal → Mat n d → Mat 1 d) {n d : ℕ} (e N : EReal) (y : Mat n d) (g beta : Mat 1 d) : Mat n d :=
  nrm e y (meanRow N y) (V N y) g beta

/-- Batch normalisation floored at `z`. -/
def bnMax (V : {n d : ℕ} → EReal → Mat n d → Mat 1 d) {n d : ℕ} (e N : EReal) (y : Mat n d) (g beta : Mat 1 d)
    (z : EReal) : Mat n d :=
  nrmMax e y (meanRow N y) (V N y) g beta z

/-! ## The two spellings of the variance agree on real data -/

theorem varSq_eq_varDev {n d : ℕ} (hn : 0 < n) (N : EReal) (hN : N = ((n : ℝ) : EReal)) (y : Mat n d)
    (hy : AllReal y) : varSq N y = varDev N y := by
  funext i
  choose f hf using hy
  have key := Cert.Moments.variance_identity hn (fun r : Fin n => f (ix2 r (colOf i))) N hN
  unfold varSq varDev meanRow colSums colSqSums
  simp only [hf]
  exact key

/-! ## Every stage keeps real data real -/

theorem isReal_max {a b : EReal} (ha : IsReal a) (hb : IsReal b) : IsReal (max a b) := by
  rcases max_choice a b with h | h <;> rw [h] <;> assumption

theorem allReal_prod {n k d : ℕ} {x : Mat n k} {w : Mat k d} (hx : AllReal x) (hw : AllReal w) :
    AllReal (prod x w) := fun _ => IsReal.sum _ _ fun _ _ => (hx _).mul (hw _)

theorem allReal_addRow {n d : ℕ} {x : Mat n d} {b : Mat 1 d} (hx : AllReal x) (hb : AllReal b) :
    AllReal (addRow x b) := fun _ => (hx _).add (hb _)

theorem allReal_addRowMax {n d : ℕ} {x : Mat n d} {b : Mat 1 d} {z : EReal} (hx : AllReal x) (hb : AllReal b)
    (hz : IsReal z) : AllReal (addRowMax x b z) := fun _ => isReal_max ((hx _).add (hb _)) hz

theorem allReal_conv {n k d : ℕ} {a h : Mat n k} {wrel wroot : Mat k d} {brel : Mat 1 d} (ha : AllReal a)
    (hwrel : AllReal wrel) (hbrel : AllReal brel) (hh : AllReal h) (hwroot : AllReal wroot) :
    AllReal (conv a wrel brel h wroot) :=
  fun _ => (allReal_addRow (allReal_prod ha hwrel) hbrel _).add (allReal_prod hh hwroot _)

theorem allReal_head {n k j d : ℕ} {z : EReal} {h : Mat n k} {w1 : Mat k j} {b1 : Mat 1 j} {w2 : Mat j d}
    {b2 : Mat 1 d} (hz : IsReal z) (hh : AllReal h) (hw1 : AllReal w1) (hb1 : AllReal b1) (hw2 : AllReal w2)
    (hb2 : AllReal b2) : AllReal (head z h w1 b1 w2 b2) :=
  allReal_addRow (allReal_prod (allReal_addRowMax (allReal_prod hh hw1) hb1 hz) hw2) hb2

theorem isPos_count {n : ℕ} (hn : 0 < n) (N : EReal) (hN : N = ((n : ℝ) : EReal)) : IsPos N :=
  ⟨(n : ℝ), Nat.cast_pos.mpr hn, hN⟩

theorem allReal_meanRow {n d : ℕ} (hn : 0 < n) (N : EReal) (hN : N = ((n : ℝ) : EReal)) {y : Mat n d}
    (hy : AllReal y) : AllReal (meanRow N y) :=
  fun _ => (IsReal.sum _ _ fun _ _ => hy _).div_pos (isPos_count hn N hN)

theorem allNonneg_varDev {n d : ℕ} (hn : 0 < n) (N : EReal) (hN : N = ((n : ℝ) : EReal)) {y : Mat n d}
    (hy : AllReal y) : AllNonneg (varDev N y) := by
  intro i
  choose f hf using hy
  obtain ⟨v, hv, e⟩ := Cert.Moments.div_sum_dev_real_nonneg hn (fun r : Fin n => f (ix2 r (colOf i))) N hN
  refine ⟨v, hv, ?_⟩
  unfold varDev meanRow colSums
  simp only [hf]
  exact e

theorem allReal_nrm {n d : ℕ} {e : EReal} {y : Mat n d} {mean var g beta : Mat 1 d} (he : IsPos e)
    (hy : AllReal y) (hm : AllReal mean) (hv : AllNonneg var) (hg : AllReal g) (hb : AllReal beta) :
    AllReal (nrm e y mean var g beta) :=
  fun _ => ((((hy _).sub (hm _)).mul ((hv _).add_pos he).rsqrt).mul (hg _)).add (hb _)

theorem allReal_bn_varDev {n d : ℕ} (hn : 0 < n) {e N : EReal} (hN : N = ((n : ℝ) : EReal)) (he : IsPos e)
    {y : Mat n d} {g beta : Mat 1 d} (hy : AllReal y) (hg : AllReal g) (hb : AllReal beta) :
    AllReal (bn varDev e N y g beta) :=
  allReal_nrm he hy (allReal_meanRow hn N hN hy) (allNonneg_varDev hn N hN hy) hg hb

theorem allReal_bnMax_varDev {n d : ℕ} (hn : 0 < n) {e N z : EReal} (hN : N = ((n : ℝ) : EReal)) (he : IsPos e)
    (hz : IsReal z) {y : Mat n d} {g beta : Mat 1 d} (hy : AllReal y) (hg : AllReal g) (hb : AllReal beta) :
    AllReal (bnMax varDev e N y g beta z) :=
  fun _ => isReal_max (allReal_bn_varDev hn hN he hy hg hb _) hz

/-- On real data batch normalisation does not depend on the variance's spelling. -/
theorem bn_varSq_eq {n d : ℕ} (hn : 0 < n) {e N : EReal} (hN : N = ((n : ℝ) : EReal)) {y : Mat n d}
    (g beta : Mat 1 d) (hy : AllReal y) : bn varSq e N y g beta = bn varDev e N y g beta := by
  show nrm e y (meanRow N y) (varSq N y) g beta = nrm e y (meanRow N y) (varDev N y) g beta
  rw [varSq_eq_varDev hn N hN y hy]

theorem bnMax_varSq_eq {n d : ℕ} (hn : 0 < n) {e N : EReal} (hN : N = ((n : ℝ) : EReal)) {y : Mat n d}
    (g beta : Mat 1 d) (z : EReal) (hy : AllReal y) :
    bnMax varSq e N y g beta z = bnMax varDev e N y g beta z := by
  show nrmMax e y (meanRow N y) (varSq N y) g beta z = nrmMax e y (meanRow N y) (varDev N y) g beta z
  rw [varSq_eq_varDev hn N hN y hy]

/-! ## Entry congruences: an entry of a stage depends only on the operands' entries it reads -/

theorem nrm_entry_congr {n n' d d' : ℕ} (e : EReal) {y : Mat n d} {y' : Mat n' d'} {mean var g beta : Mat 1 d}
    {mean' var' g' beta' : Mat 1 d'} (i : (⟨2, ![n, d]⟩ : Shape).Idx) (i' : (⟨2, ![n', d']⟩ : Shape).Idx)
    (hy : y i = y' i') (hm : mean (ix2 0 (colOf i)) = mean' (ix2 0 (colOf i')))
    (hv : var (ix2 0 (colOf i)) = var' (ix2 0 (colOf i'))) (hg : g (ix2 0 (colOf i)) = g' (ix2 0 (colOf i')))
    (hb : beta (ix2 0 (colOf i)) = beta' (ix2 0 (colOf i'))) :
    nrm e y mean var g beta i = nrm e y' mean' var' g' beta' i' := by
  unfold nrm; rw [hy, hm, hv, hg, hb]

theorem nrmMax_entry_congr {n n' d d' : ℕ} (e z : EReal) {y : Mat n d} {y' : Mat n' d'} {mean var g beta : Mat 1 d}
    {mean' var' g' beta' : Mat 1 d'} (i : (⟨2, ![n, d]⟩ : Shape).Idx) (i' : (⟨2, ![n', d']⟩ : Shape).Idx)
    (hy : y i = y' i') (hm : mean (ix2 0 (colOf i)) = mean' (ix2 0 (colOf i')))
    (hv : var (ix2 0 (colOf i)) = var' (ix2 0 (colOf i'))) (hg : g (ix2 0 (colOf i)) = g' (ix2 0 (colOf i')))
    (hb : beta (ix2 0 (colOf i)) = beta' (ix2 0 (colOf i'))) :
    nrmMax e y mean var g beta z i = nrmMax e y' mean' var' g' beta' z i' := by
  unfold nrmMax; rw [nrm_entry_congr e i i' hy hm hv hg hb]

theorem conv_entry_congr {n n' k d d' : ℕ} {a h : Mat n k} {a' h' : Mat n' k} {wrel wroot : Mat k d}
    {wrel' wroot' : Mat k d'} {brel : Mat 1 d} {brel' : Mat 1 d'}
    (i : (⟨2, ![n, d]⟩ : Shape).Idx) (i' : (⟨2, ![n', d']⟩ : Shape).Idx)
    (ha : ∀ q : Fin k, a (ix2 (rowOf i) q) = a' (ix2 (rowOf i') q))
    (hh : ∀ q : Fin k, h (ix2 (rowOf i) q) = h' (ix2 (rowOf i') q))
    (hwrel : ∀ q : Fin k, wrel (ix2 q (colOf i)) = wrel' (ix2 q (colOf i')))
    (hwroot : ∀ q : Fin k, wroot (ix2 q (colOf i)) = wroot' (ix2 q (colOf i')))
    (hb : brel (ix2 0 (colOf i)) = brel' (ix2 0 (colOf i'))) :
    conv a wrel brel h wroot i = conv a' wrel' brel' h' wroot' i' := by
  unfold conv
  rw [Cert.RowBias.addRow_entry_congr i i' (Cert.RowBias.prod_entry_congr i i' ha hwrel) hb,
    Cert.RowBias.prod_entry_congr i i' hh hwroot]

end Cert.Gnn

end
-- ==== Proof.LibHostColSum.lean ====
/-
  A host sum down the columns of a matrix, read at a column.

  For any extents: the host reduction of an `[n, d]` array along its first axis with addition as its body is, at column
  `c` and at the exact values, the initial value plus the sum of the column's `n` entries.
-/
import Idealize.ShloMosaic.PureOps.Ideal.Laws
import Idealize.ShloMosaic.Lib.ValueIdx

noncomputable section

namespace Cert.LibHostColSum

open Idealize.ShloMosaic Idealize.ShloMosaic.ValueIdx

/-- Column `c` with the row coordinate `r` inserted is the entry `(r, c)`. -/
theorem lift_col {n d : ℕ} (hR : (⟨2, ![n, d]⟩ : Shape).Reduces [0] ⟨1, ![d]⟩) (c : Fin d) (r : Fin n) :
    hR.lift (ix1 c) r = ix2 r c := by
  funext a
  match a with
  | ⟨0, _⟩ => rfl
  | ⟨1, _⟩ => rfl

/-- The host's column sum at column `c`: the initial value plus the sum down the column. -/
theorem reduceAdd_col {n d : ℕ} {u : Shape} (A : (⟨2, ![n, d]⟩ : Shape).Idx → EReal) (init : u.Idx → EReal)
    (h' : (⟨2, ![n, d]⟩ : Shape).ReducesTo [0] ⟨1, ![d]⟩) (hR : (⟨2, ![n, d]⟩ : Shape).Reduces [0] ⟨1, ![d]⟩)
    (hu : 0 < u.numel) (c : Fin d) :
    Host.reduceAdd (F := Ideal) (φ := .f32) A init h' hu (ix1 c)
      = init (Shape.Idx.first hu) + ∑ r : Fin n, A (ix2 r c) := by
  unfold Host.reduceAdd
  rw [Ideal.hostReduceAdd_def, Ideal.hostReduceAdd_single h' hR]
  refine congrArg (init (Shape.Idx.first hu) + ·) (Finset.sum_congr rfl fun r _ => ?_)
  exact congrArg A (lift_col hR c r)

end Cert.LibHostColSum

end
-- ==== Proof.LibGnnVector.lean ====
/-
  The kernel bodies' arithmetic, as the vector unit spells it, is the network's stage functions.

  Each law is for any extents. A row `[1, N]` is spread down `R` rows by a broadcast; the identity shape
  casts the lowering leaves around operands drop out; a narrowing to bf16 is the identity on the extended
  reals; the matrix unit accumulating into zero is the matrix product; a lane sum over the row axis is the
  column's sum.
-/
import Idealize.ShloMosaic.Lib.ValueIdx
import Idealize.ShloMosaic.Lib.Pipeline.Value
import Idealize.ShloMosaic.PureOps.Ideal.Laws
import proofs.«160678_j77988016161089_1_alg».proof.Proof.LibGnnStages
import proofs.«160678_j77988016161089_1_alg».proof.Proof.LibHostColSum

noncomputable section

namespace Cert.Gnn

open Idealize.ShloMosaic Idealize.ShloMosaic.ValueIdx
open Cert.MatProduct (prod rowOf colOf)
open Cert.RowBias (addRow addRowMax spreadRow_apply)

variable {R K J N : ℕ}

/-- Narrowing both operands to bf16 does not change the product: on the extended reals it is the identity. -/
theorem prod_truncf (x : FVec Ideal ⟨2, ![R, K]⟩ .f32) (w : FVec Ideal ⟨2, ![K, N]⟩ .f32)
    (h : FTy.bf16.bits < FTy.f32.bits) :
    prod (truncf .bf16 x h : FVec Ideal ⟨2, ![R, K]⟩ .bf16) (truncf .bf16 w h : FVec Ideal ⟨2, ![K, N]⟩ .bf16) = prod x w := rfl

/-- The matrix unit on operands narrowed to bf16, accumulating into zero, is the product. -/
theorem mxu_eq_prod (x : FVec Ideal ⟨2, ![R, K]⟩ .f32) (w : FVec Ideal ⟨2, ![K, N]⟩ .f32)
    (h : FTy.bf16.bits < FTy.f32.bits) (prec : Option ContractPrecision) :
    matmul (DotDims.plain R K N) prec (truncf .bf16 x h) (truncf .bf16 w h)
        (constant (F := Ideal) ⟨2, ![R, N]⟩ .f32 0x00000000#32) = prod x w :=
  (Cert.MatProduct.matmul_zero_eq_prod prec _ _).trans (prod_truncf x w h)

/-- `(y - mean) * rsqrt (var + e) * g + beta`, each row spread down the rows. -/
theorem vec_nrm (y : FVec Ideal ⟨2, ![R, N]⟩ .f32) (mean var g beta : FVec Ideal ⟨2, ![1, N]⟩ .f32) (e : Ideal .f32)
    (h0 : (⟨2, ![R, N]⟩ : Shape).ShapeCasts ⟨2, ![R, N]⟩) (h1 h2 h3 h4 : (⟨2, ![1, N]⟩ : Shape).ShapeCasts ⟨2, ![1, N]⟩)
    (hb : (⟨2, ![1, N]⟩ : Shape).Broadcasts ⟨2, ![R, N]⟩) :
    addf (mulf (mulf (subf (shapeCast ⟨2, ![R, N]⟩ y h0) (broadcastTo ⟨2, ![R, N]⟩ (shapeCast ⟨2, ![1, N]⟩ mean h1) hb))
          (broadcastTo ⟨2, ![R, N]⟩ (rsqrt (addf (shapeCast ⟨2, ![1, N]⟩ var h2) (broadcast ⟨2, ![1, N]⟩ e))) hb))
        (broadcastTo ⟨2, ![R, N]⟩ (shapeCast ⟨2, ![1, N]⟩ g h3) hb))
      (broadcastTo ⟨2, ![R, N]⟩ (shapeCast ⟨2, ![1, N]⟩ beta h4) hb)
      = nrm e y mean var g beta := by
  rw [shapeCast_self, shapeCast_self, shapeCast_self, shapeCast_self, shapeCast_self]
  funext i
  rw [addf_apply, mulf_apply, mulf_apply, subf_apply, spreadRow_apply, spreadRow_apply, spreadRow_apply, spreadRow_apply]
  rfl

/-- The same floored at a splat of `z`. -/
theorem vec_nrmMax (y : FVec Ideal ⟨2, ![R, N]⟩ .f32) (mean var g beta : FVec Ideal ⟨2, ![1, N]⟩ .f32) (e z : Ideal .f32)
    (h0 : (⟨2, ![R, N]⟩ : Shape).ShapeCasts ⟨2, ![R, N]⟩) (h1 h2 h3 h4 : (⟨2, ![1, N]⟩ : Shape).ShapeCasts ⟨2, ![1, N]⟩)
    (hb : (⟨2, ![1, N]⟩ : Shape).Broadcasts ⟨2, ![R, N]⟩) :
    maximumf (addf (mulf (mulf (subf (shapeCast ⟨2, ![R, N]⟩ y h0) (broadcastTo ⟨2, ![R, N]⟩ (shapeCast ⟨2, ![1, N]⟩ mean h1) hb))
          (broadcastTo ⟨2, ![R, N]⟩ (rsqrt (addf (shapeCast ⟨2, ![1, N]⟩ var h2) (broadcast ⟨2, ![1, N]⟩ e))) hb))
        (broadcastTo ⟨2, ![R, N]⟩ (shapeCast ⟨2, ![1, N]⟩ g h3) hb))
      (broadcastTo ⟨2, ![R, N]⟩ (shapeCast ⟨2, ![1, N]⟩ beta h4) hb)) (broadcast ⟨2, ![R, N]⟩ z)
      = nrmMax e y mean var g beta z := by
  rw [vec_nrm]
  funext i
  rw [maximumf_apply]
  rfl

/-- `max (x · w + b, z)`: the matrix unit's product plus the bias row spread down the rows, floored. -/
theorem vec_lin (x : FVec Ideal ⟨2, ![R, K]⟩ .f32) (w : FVec Ideal ⟨2, ![K, N]⟩ .f32) (b : FVec Ideal ⟨2, ![1, N]⟩ .f32)
    (z : Ideal .f32) (h : FTy.bf16.bits < FTy.f32.bits) (prec : Option ContractPrecision)
    (h1 : (⟨2, ![1, N]⟩ : Shape).ShapeCasts ⟨2, ![1, N]⟩) (hb : (⟨2, ![1, N]⟩ : Shape).Broadcasts ⟨2, ![R, N]⟩) :
    maximumf (addf (matmul (DotDims.plain R K N) prec (truncf .bf16 x h) (truncf .bf16 w h)
          (constant (F := Ideal) ⟨2, ![R, N]⟩ .f32 0x00000000#32))
        (broadcastTo ⟨2, ![R, N]⟩ (shapeCast ⟨2, ![1, N]⟩ b h1) hb)) (broadcast ⟨2, ![R, N]⟩ z)
      = addRowMax (prod x w) b z := by
  rw [mxu_eq_prod, shapeCast_self]
  funext i
  rw [maximumf_apply, addf_apply, spreadRow_apply]
  rfl

/-- `(a · wrel + brel) + h · wroot`. -/
theorem vec_conv (a h' : FVec Ideal ⟨2, ![R, K]⟩ .f32) (wrel wroot : FVec Ideal ⟨2, ![K, N]⟩ .f32)
    (brel : FVec Ideal ⟨2, ![1, N]⟩ .f32) (h : FTy.bf16.bits < FTy.f32.bits) (prec : Option ContractPrecision)
    (h0 h0' : (⟨2, ![R, K]⟩ : Shape).ShapeCasts ⟨2, ![R, K]⟩)
    (h1 : (⟨2, ![1, N]⟩ : Shape).ShapeCasts ⟨2, ![1, N]⟩) (hb : (⟨2, ![1, N]⟩ : Shape).Broadcasts ⟨2, ![R, N]⟩) :
    addf (addf (matmul (DotDims.plain R K N) prec (truncf .bf16 (shapeCast ⟨2, ![R, K]⟩ a h0) h) (truncf .bf16 wrel h)
            (constant (F := Ideal) ⟨2, ![R, N]⟩ .f32 0x00000000#32))
          (broadcastTo ⟨2, ![R, N]⟩ (shapeCast ⟨2, ![1, N]⟩ brel h1) hb))
        (matmul (DotDims.plain R K N) prec (truncf .bf16 (shapeCast ⟨2, ![R, K]⟩ h' h0') h) (truncf .bf16 wroot h)
            (constant (F := Ideal) ⟨2, ![R, N]⟩ .f32 0x00000000#32))
      = conv a wrel brel h' wroot := by
  rw [shapeCast_self, shapeCast_self, shapeCast_self, mxu_eq_prod, mxu_eq_prod]
  funext i
  rw [addf_apply, addf_apply, spreadRow_apply]
  rfl

/-- `max (h · w1 + b1, z) · w2 + b2`. -/
theorem vec_head (x : FVec Ideal ⟨2, ![R, K]⟩ .f32) (w1 : FVec Ideal ⟨2, ![K, J]⟩ .f32) (b1 : FVec Ideal ⟨2, ![1, J]⟩ .f32)
    (w2 : FVec Ideal ⟨2, ![J, N]⟩ .f32) (b2 : FVec Ideal ⟨2, ![1, N]⟩ .f32) (z : Ideal .f32)
    (h : FTy.bf16.bits < FTy.f32.bits) (prec : Option ContractPrecision)
    (h0 : (⟨2, ![R, K]⟩ : Shape).ShapeCasts ⟨2, ![R, K]⟩)
    (h1 : (⟨2, ![1, J]⟩ : Shape).ShapeCasts ⟨2, ![1, J]⟩) (hb1 : (⟨2, ![1, J]⟩ : Shape).Broadcasts ⟨2, ![R, J]⟩)
    (h2 : (⟨2, ![1, N]⟩ : Shape).ShapeCasts ⟨2, ![1, N]⟩) (hb2 : (⟨2, ![1, N]⟩ : Shape).Broadcasts ⟨2, ![R, N]⟩) :
    addf (matmul (DotDims.plain R J N) prec
          (truncf .bf16 (maximumf (addf (matmul (DotDims.plain R K J) prec (truncf .bf16 (shapeCast ⟨2, ![R, K]⟩ x h0) h)
                (truncf .bf16 w1 h) (constant (F := Ideal) ⟨2, ![R, J]⟩ .f32 0x00000000#32))
              (broadcastTo ⟨2, ![R, J]⟩ (shapeCast ⟨2, ![1, J]⟩ b1 h1) hb1)) (broadcast ⟨2, ![R, J]⟩ z)) h)
          (truncf .bf16 w2 h) (constant (F := Ideal) ⟨2, ![R, N]⟩ .f32 0x00000000#32))
        (broadcastTo ⟨2, ![R, N]⟩ (shapeCast ⟨2, ![1, N]⟩ b2 h2) hb2)
      = head z x w1 b1 w2 b2 := by
  rw [shapeCast_self x h0, vec_lin, mxu_eq_prod, shapeCast_self]
  funext i
  rw [addf_apply, spreadRow_apply]
  rfl

/-- A row the body carries, plus the lane sum of `y` over the row axis regarded as a row: the carried row
    plus `y`'s column sums. -/
theorem vec_colSum (acc : FVec Ideal ⟨2, ![1, N]⟩ .f32) (y : FVec Ideal ⟨2, ![R, N]⟩ .f32)
    (h1 : (⟨2, ![1, N]⟩ : Shape).ShapeCasts ⟨2, ![1, N]⟩) (h2 : (⟨1, ![N]⟩ : Shape).ShapeCasts ⟨2, ![1, N]⟩)
    (hr : (⟨2, ![R, N]⟩ : Shape).Reduces [0] ⟨1, ![N]⟩) (hφ : FKind.Formats FTy.f32)
    (hacc : (0x00000000#32 : BitVec FTy.f32.bits) = FKind.add.neutral .f32 hφ) :
    addf (shapeCast ⟨2, ![1, N]⟩ acc h1)
        (shapeCast ⟨2, ![1, N]⟩ (multiReduction .add [0] ⟨1, ![N]⟩ y 0x00000000#32 hr hφ hacc) h2)
      = fun i => acc i + colSums y i := by
  rw [shapeCast_self]
  funext i
  obtain ⟨p, q, rfl⟩ : ∃ (p : Fin 1) (q : Fin N), i = ix2 p q := ⟨_, _, eq_ix2 i⟩
  have hp : p = 0 := Subsingleton.elim _ _
  subst hp
  rw [addf_apply, Cert.RowBias.vecRow_apply, Ideal.multiReduction_add_single]
  unfold colSums
  congr 1
  refine Finset.sum_congr rfl fun r _ => ?_
  rw [Cert.LibHostColSum.lift_col hr q r]
  rfl

end Cert.Gnn

end
-- ==== Proof.Accum.lean ====
/-
  A row accumulated over the grid points, and column sums taken block by block.

  A kernel that adds each point's column sums onto a carried row ends with the initial row plus the sum of
  the points' contributions; and when the points' blocks are the ten consecutive stretches of 5000 rows of
  one matrix of 50000 rows, the contributions' sum is the whole matrix's column sum (a finite sum regrouped,
  valid in any commutative monoid, so also with infinite entries).
-/
import proofs.«160678_j77988016161089_1_alg».proof.Proof.LibGnnStages

noncomputable section

namespace Cert.Gnn

open Idealize.ShloMosaic Idealize.ShloMosaic.ValueIdx
open Cert.MatProduct (prod rowOf colOf)

/-- The carried row after point `n`: it starts at `z` and each point `u` adds `f u`. -/
def runRow {d : ℕ} (z : Mat 1 d) (f : ℕ → Mat 1 d) : ℕ → Mat 1 d
  | 0 => fun i => z i + f 0 i
  | n + 1 => fun i => runRow z f n i + f (n + 1) i

theorem runRow_apply {d : ℕ} (z : Mat 1 d) (f : ℕ → Mat 1 d) (n : ℕ) (i : (⟨2, ![1, d]⟩ : Shape).Idx) :
    runRow z f n i = z i + ∑ u ∈ Finset.range (n + 1), f u i := by
  induction n with
  | zero => simp [runRow]
  | succ n ih =>
    show runRow z f n i + f (n + 1) i = _
    rw [ih, Finset.sum_range_succ _ (n + 1), add_assoc]

/-- The column sums of ten consecutive blocks of 5000 rows add up to the column sums of the whole. -/
theorem colSums_of_blocks {d : ℕ} (Y : Mat 50000 d) (Yb : ℕ → Mat 5000 d)
    (h : ∀ (u : Fin 10) (r : Fin 5000) (q : Fin d),
      Yb u.val (ix2 r q) = Y (ix2 ⟨5000 * u.val + r.val, by have := u.isLt; have := r.isLt; omega⟩ q))
    (i : (⟨2, ![1, d]⟩ : Shape).Idx) :
    ∑ u ∈ Finset.range 10, colSums (Yb u) i = colSums Y i := by
  unfold colSums
  rw [Finset.sum_range fun u => ∑ r : Fin 5000, Yb u (ix2 r (colOf i))]
  rw [Cert.Moments.sum_blocks_val 10 5000 fun r : Fin 50000 => Y (ix2 r (colOf i))]
  refine Finset.sum_congr rfl fun u _ => Finset.sum_congr rfl fun r _ => ?_
  exact h u r (colOf i)

/-- The same for the column sums of squares. -/
theorem colSqSums_of_blocks {d : ℕ} (Y : Mat 50000 d) (Yb : ℕ → Mat 5000 d)
    (h : ∀ (u : Fin 10) (r : Fin 5000) (q : Fin d),
      Yb u.val (ix2 r q) = Y (ix2 ⟨5000 * u.val + r.val, by have := u.isLt; have := r.isLt; omega⟩ q))
    (i : (⟨2, ![1, d]⟩ : Shape).Idx) :
    ∑ u ∈ Finset.range 10, colSqSums (Yb u) i = colSqSums Y i := by
  unfold colSqSums
  rw [Finset.sum_range fun u => ∑ r : Fin 5000, Yb u (ix2 r (colOf i)) * Yb u (ix2 r (colOf i))]
  rw [Cert.Moments.sum_blocks_val 10 5000 fun r : Fin 50000 => Y (ix2 r (colOf i)) * Y (ix2 r (colOf i))]
  refine Finset.sum_congr rfl fun u _ => Finset.sum_congr rfl fun r _ => ?_
  rw [h u r (colOf i)]

end Cert.Gnn

end
-- ==== Proof.Launch0.lean ====
/-
  Launch 0: the embedding's linear step, floored at zero, with its running column statistics, read as functions
  of the arrays the launch is entered with.

  Point `t` of the grid works on rows `5000 t … 5000 t + 4999`: it computes `max (x · w + b, 0)` of those rows
  and writes them back, resets two carried rows to zero at the first point, and adds the block's column sums,
  and the column sums of its squares, onto them; the carried rows are written back once, after the last point.
-/
import proofs.«160678_j77988016161089_1_alg».proof.Proof.Gen.KernelIdeal.Frame
import proofs.«160678_j77988016161089_1_alg».proof.Proof.LibGnnVector
import proofs.«160678_j77988016161089_1_alg».proof.Proof.Accum
set_option maxRecDepth 16384
noncomputable section
namespace Cert.KernelIdeal.Launch0
open Cert.KernelIdeal Cert.KernelIdeal.Gen
open Idealize.ShloMosaic Idealize.ShloMosaic.TcCoe Idealize.ShloMosaic.Tactic Idealize.ShloMosaic.ValueIdx Idealize.SL.Sem
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat Cfg Window)
open Cert.Gnn
open Cert.MatProduct (prod rowOf colOf)
open Cert.RowBias (addRowMax)
variable {F : FTy → Type} [FloatOps F]
theorem hz : (![0, 0] : Fin 2 → Nat) = fun _ => 0 := funext fun a => by fin_cases a <;> rfl

/-! ## What each case of the body leaves in the three outputs' buffers -/

theorem piece_A_3 (c : Dev nD) (i : grid0.Coords) (arg1 : Memref sig .tc .vmem S5000x5 .f32) (harg1 : arg1.IsWhole) (arg2 : Memref sig .tc .vmem S5x32 .f32) (harg2 : arg2.IsWhole) (arg3 : Memref sig .tc .vmem S1x32 .f32) (harg3 : arg3.IsWhole) (arg4 : Memref sig .tc .vmem S5000x32 .f32) (harg4 : arg4.IsWhole) (arg5 : Memref sig .tc .vmem S1x32 .f32) (harg5 : arg5.IsWhole) (arg6 : Memref sig .tc .vmem S1x32 .f32) (harg6 : arg6.IsWhole) (hc0 : cond0_0 i)
    (x0 : Vec F S5000x5 .f32) (x1 : Vec F S5x32 .f32) (x2 : Vec F S1x32 .f32) :
    out0_A_3 c i arg1 harg1 arg2 harg2 arg3 harg3 arg4 harg4 arg5 harg5 arg6 harg6 hc0 x0 x1 x2 = k0_pay1 x0 x1 x2 := by
  unfold out0_A_3
  rw [View.read_writes_eq_canon _ _ _ (cover0_A_3 c i arg1 harg1 arg2 harg2 arg3 harg3 arg4 harg4 arg5 harg5 arg6 harg6 hc0 x0 x1 x2)]
  unfold kernelRun0_A
  dsimp only
  sl_unfold_words
  rw [View.canon_unit_zero hz]
  simp only [View.readAt_eq_ld, harg1.read_unread, harg2.read_unread, harg3.read_unread, harg5.read_unread, harg6.read_unread,
    View.ld_unit_zero (S := S5000x5) hz, View.ld_unit_zero (S := S5x32) hz, View.ld_unit_zero (S := S1x32) hz, View.readCov_unit_zero (S := S1x32) _ hz]
  try rfl

theorem piece_B_3 (c : Dev nD) (i : grid0.Coords) (arg1 : Memref sig .tc .vmem S5000x5 .f32) (harg1 : arg1.IsWhole) (arg2 : Memref sig .tc .vmem S5x32 .f32) (harg2 : arg2.IsWhole) (arg3 : Memref sig .tc .vmem S1x32 .f32) (harg3 : arg3.IsWhole) (arg4 : Memref sig .tc .vmem S5000x32 .f32) (harg4 : arg4.IsWhole) (arg5 : Memref sig .tc .vmem S1x32 .f32) (harg5 : arg5.IsWhole) (arg6 : Memref sig .tc .vmem S1x32 .f32) (harg6 : arg6.IsWhole) (hc0 : ¬cond0_0 i)
    (x0 : Vec F S5000x5 .f32) (x1 : Vec F S5x32 .f32) (x2 : Vec F S1x32 .f32) (xo4 : Vec F S1x32 .f32) (xo5 : Vec F S1x32 .f32) :
    out0_B_3 c i arg1 harg1 arg2 harg2 arg3 harg3 arg4 harg4 arg5 harg5 arg6 harg6 hc0 x0 x1 x2 xo4 xo5 = k0_pay1 x0 x1 x2 := by
  unfold out0_B_3
  rw [View.read_writes_eq_canon _ _ _ (cover0_B_3 c i arg1 harg1 arg2 harg2 arg3 harg3 arg4 harg4 arg5 harg5 arg6 harg6 hc0 x0 x1 x2 xo4 xo5)]
  unfold kernelRun0_B
  dsimp only
  sl_unfold_words
  rw [View.canon_unit_zero hz]
  simp only [View.readAt_eq_ld, harg1.read_unread, harg2.read_unread, harg3.read_unread, harg5.read_unread, harg6.read_unread,
    View.ld_unit_zero (S := S5000x5) hz, View.ld_unit_zero (S := S5x32) hz, View.ld_unit_zero (S := S1x32) hz, View.readCov_unit_zero (S := S1x32) _ hz]
  try rfl

theorem piece_B_4 (c : Dev nD) (i : grid0.Coords) (arg1 : Memref sig .tc .vmem S5000x5 .f32) (harg1 : arg1.IsWhole) (arg2 : Memref sig .tc .vmem S5x32 .f32) (harg2 : arg2.IsWhole) (arg3 : Memref sig .tc .vmem S1x32 .f32) (harg3 : arg3.IsWhole) (arg4 : Memref sig .tc .vmem S5000x32 .f32) (harg4 : arg4.IsWhole) (arg5 : Memref sig .tc .vmem S1x32 .f32) (harg5 : arg5.IsWhole) (arg6 : Memref sig .tc .vmem S1x32 .f32) (harg6 : arg6.IsWhole) (hc0 : ¬cond0_0 i)
    (x0 : Vec F S5000x5 .f32) (x1 : Vec F S5x32 .f32) (x2 : Vec F S1x32 .f32) (xo4 : Vec F S1x32 .f32) (xo5 : Vec F S1x32 .f32) :
    out0_B_4 c i arg1 harg1 arg2 harg2 arg3 harg3 arg4 harg4 arg5 harg5 arg6 harg6 hc0 x0 x1 x2 xo4 xo5 = k0_pay4 x0 x1 x2 xo4 := by
  unfold out0_B_4
  rw [View.read_writes_eq_canon _ _ _ (cover0_B_4 c i arg1 harg1 arg2 harg2 arg3 harg3 arg4 harg4 arg5 harg5 arg6 harg6 hc0 x0 x1 x2 xo4 xo5)]
  unfold kernelRun0_B
  dsimp only
  sl_unfold_words
  rw [View.canon_unit_zero hz]
  simp only [View.readAt_eq_ld, harg1.read_unread, harg2.read_unread, harg3.read_unread, harg5.read_unread, harg6.read_unread,
    View.ld_unit_zero (S := S5000x5) hz, View.ld_unit_zero (S := S5x32) hz, View.ld_unit_zero (S := S1x32) hz, View.readCov_unit_zero (S := S1x32) _ hz]
  try rfl

theorem piece_B_5 (c : Dev nD) (i : grid0.Coords) (arg1 : Memref sig .tc .vmem S5000x5 .f32) (harg1 : arg1.IsWhole) (arg2 : Memref sig .tc .vmem S5x32 .f32) (harg2 : arg2.IsWhole) (arg3 : Memref sig .tc .vmem S1x32 .f32) (harg3 : arg3.IsWhole) (arg4 : Memref sig .tc .vmem S5000x32 .f32) (harg4 : arg4.IsWhole) (arg5 : Memref sig .tc .vmem S1x32 .f32) (harg5 : arg5.IsWhole) (arg6 : Memref sig .tc .vmem S1x32 .f32) (harg6 : arg6.IsWhole) (hc0 : ¬cond0_0 i)
    (x0 : Vec F S5000x5 .f32) (x1 : Vec F S5x32 .f32) (x2 : Vec F S1x32 .f32) (xo4 : Vec F S1x32 .f32) (xo5 : Vec F S1x32 .f32) :
    out0_B_5 c i arg1 harg1 arg2 harg2 arg3 harg3 arg4 harg4 arg5 harg5 arg6 harg6 hc0 x0 x1 x2 xo4 xo5 = k0_pay5 x0 x1 x2 xo5 := by
  unfold out0_B_5
  rw [View.read_writes_eq_canon _ _ _ (cover0_B_5 c i arg1 harg1 arg2 harg2 arg3 harg3 arg4 harg4 arg5 harg5 arg6 harg6 hc0 x0 x1 x2 xo4 xo5)]
  unfold kernelRun0_B
  dsimp only
  sl_unfold_words
  rw [View.canon_unit_zero hz]
  simp only [View.readAt_eq_ld, harg1.read_unread, harg2.read_unread, harg3.read_unread, harg5.read_unread, harg6.read_unread,
    View.ld_unit_zero (S := S5000x5) hz, View.ld_unit_zero (S := S5x32) hz, View.ld_unit_zero (S := S1x32) hz, View.readCov_unit_zero (S := S1x32) _ hz]
  try rfl

theorem piece_A_4 (c : Dev nD) (i : grid0.Coords) (arg1 : Memref sig .tc .vmem S5000x5 .f32) (harg1 : arg1.IsWhole) (arg2 : Memref sig .tc .vmem S5x32 .f32) (harg2 : arg2.IsWhole) (arg3 : Memref sig .tc .vmem S1x32 .f32) (harg3 : arg3.IsWhole) (arg4 : Memref sig .tc .vmem S5000x32 .f32) (harg4 : arg4.IsWhole) (arg5 : Memref sig .tc .vmem S1x32 .f32) (harg5 : arg5.IsWhole) (arg6 : Memref sig .tc .vmem S1x32 .f32) (harg6 : arg6.IsWhole) (hc0 : cond0_0 i)
    (x0 : Vec F S5000x5 .f32) (x1 : Vec F S5x32 .f32) (x2 : Vec F S1x32 .f32) :
    out0_A_4 c i arg1 harg1 arg2 harg2 arg3 harg3 arg4 harg4 arg5 harg5 arg6 harg6 hc0 x0 x1 x2 = k0_pay4 x0 x1 x2 (k0_pay2 (F := F)) := by
  unfold out0_A_4
  rw [View.read_writes_eq_canon _ _ _ (cover0_A_4 c i arg1 harg1 arg2 harg2 arg3 harg3 arg4 harg4 arg5 harg5 arg6 harg6 hc0 x0 x1 x2)]
  unfold kernelRun0_A
  dsimp only
  sl_unfold_words
  rw [View.canon_cons_unit_zero hz]
  simp only [View.readAt_eq_ld, harg1.read_unread, harg2.read_unread, harg3.read_unread, harg5.read_unread, harg6.read_unread,
    View.ld_unit_zero (S := S5000x5) hz, View.ld_unit_zero (S := S5x32) hz, View.ld_unit_zero (S := S1x32) hz, View.readCov_unit_zero (S := S1x32) _ hz]
  try rfl

theorem piece_A_5 (c : Dev nD) (i : grid0.Coords) (arg1 : Memref sig .tc .vmem S5000x5 .f32) (harg1 : arg1.IsWhole) (arg2 : Memref sig .tc .vmem S5x32 .f32) (harg2 : arg2.IsWhole) (arg3 : Memref sig .tc .vmem S1x32 .f32) (harg3 : arg3.IsWhole) (arg4 : Memref sig .tc .vmem S5000x32 .f32) (harg4 : arg4.IsWhole) (arg5 : Memref sig .tc .vmem S1x32 .f32) (harg5 : arg5.IsWhole) (arg6 : Memref sig .tc .vmem S1x32 .f32) (harg6 : arg6.IsWhole) (hc0 : cond0_0 i)
    (x0 : Vec F S5000x5 .f32) (x1 : Vec F S5x32 .f32) (x2 : Vec F S1x32 .f32) :
    out0_A_5 c i arg1 harg1 arg2 harg2 arg3 harg3 arg4 harg4 arg5 harg5 arg6 harg6 hc0 x0 x1 x2 = k0_pay5 x0 x1 x2 (k0_pay3 (F := F)) := by
  unfold out0_A_5
  rw [View.read_writes_eq_canon _ _ _ (cover0_A_5 c i arg1 harg1 arg2 harg2 arg3 harg3 arg4 harg4 arg5 harg5 arg6 harg6 hc0 x0 x1 x2)]
  unfold kernelRun0_A
  dsimp only
  sl_unfold_words
  rw [View.canon_cons_unit_zero hz]
  simp only [View.readAt_eq_ld, harg1.read_unread, harg2.read_unread, harg3.read_unread, harg5.read_unread, harg6.read_unread,
    View.ld_unit_zero (S := S5000x5) hz, View.ld_unit_zero (S := S5x32) hz, View.ld_unit_zero (S := S1x32) hz, View.readCov_unit_zero (S := S1x32) _ hz]
  try rfl

/-! ## The payloads on the extended reals -/

section AtIdeal
variable (V : (c : Dev nD) → (b : Ref sig .tc) → Buf (Elt Ideal) ((c : Thread nD τ).loc b))

/-- The zero the linear step is floored at and the accumulators are reset to. -/
abbrev zero : Ideal .f32 := Scalar.ofBits .f32 0x00000000#32
/-- The row of zeros. -/
abbrev zrow : Mat 1 32 := broadcast S1x32 zero

theorem pay1_eq (x0 : Vec Ideal S5000x5 .f32) (x1 : Vec Ideal S5x32 .f32) (x2 : Vec Ideal S1x32 .f32) :
    k0_pay1 (F := Ideal) x0 x1 x2 = addRowMax (prod x0 x1) x2 zero :=
  vec_lin x0 x1 x2 zero _ _ _ _

theorem pay4_eq (x0 : Vec Ideal S5000x5 .f32) (x1 : Vec Ideal S5x32 .f32) (x2 acc : Vec Ideal S1x32 .f32) :
    k0_pay4 (F := Ideal) x0 x1 x2 acc = fun i => acc i + colSums (addRowMax (prod x0 x1) x2 zero) i := by
  unfold k0_pay4
  rw [pay1_eq]
  exact vec_colSum acc _ _ _ _ _ _

theorem pay5_eq (x0 : Vec Ideal S5000x5 .f32) (x1 : Vec Ideal S5x32 .f32) (x2 acc : Vec Ideal S1x32 .f32) :
    k0_pay5 (F := Ideal) x0 x1 x2 acc = fun i => acc i + colSqSums (addRowMax (prod x0 x1) x2 zero) i := by
  unfold k0_pay5
  rw [pay1_eq]
  exact vec_colSum acc (mulf (addRowMax (prod x0 x1) x2 zero) (addRowMax (prod x0 x1) x2 zero)) _ _ _ _ _

/-! ## The carried outputs after each point -/

theorem hN : cfg0.N = 10 := rfl

/-- Point `n`'s block of the floored linear step (zero past the grid). -/
def Yb (c : Dev nD) (n : ℕ) : Mat 5000 32 :=
  if h : n < cfg0.N then addRowMax (prod (iblk0 V c 0 ⟨n, h⟩) (iblk0 V c 1 ⟨n, h⟩)) (iblk0 V c 2 ⟨n, h⟩) zero else fun _ => 0

theorem Yb_of_lt (c : Dev nD) (t : Fin cfg0.N) : Yb V c t.val = addRowMax (prod (iblk0 V c 0 t) (iblk0 V c 1 t)) (iblk0 V c 2 t) zero := dif_pos t.isLt

/-- After point `n` the three outputs' buffers hold point `n`'s block of the floored linear step, and the rows of
    zeros plus the column sums (of the entries, of their squares) of the blocks of points `0 … n`. -/
theorem outs_inv (c : Dev nD) : ∀ (n : ℕ) (hn : n < cfg0.N),
    outsAt0 V c n hn = (Yb V c n, runRow zrow (fun u => colSums (Yb V c u)) n, runRow zrow (fun u => colSqSums (Yb V c u)) n)
  | 0, hn => by
    rw [show outsAt0 V c 0 hn = outsAt0 V c (⟨0, hn⟩ : Fin cfg0.N).val (⟨0, hn⟩ : Fin cfg0.N).isLt from rfl,
      outsAt0_A V c ⟨0, hn⟩ rfl, piece_A_3, piece_A_4, piece_A_5, pay1_eq, pay4_eq, pay5_eq, ← Yb_of_lt V c ⟨0, hn⟩]
    rfl
  | n + 1, hn => by
    have h0 : ¬ (n + 1) % 10 = 0 := by have := hN; omega
    have ih := outs_inv c n (Nat.lt_of_succ_lt hn)
    rw [show outsAt0 V c (n + 1) hn = outsAt0 V c (⟨n + 1, hn⟩ : Fin cfg0.N).val (⟨n + 1, hn⟩ : Fin cfg0.N).isLt from rfl,
      outsAt0_B V c ⟨n + 1, hn⟩ h0, piece_B_3, piece_B_4, piece_B_5, pay1_eq, pay4_eq, pay5_eq, ← Yb_of_lt V c ⟨n + 1, hn⟩]
    show (_, (fun i => (outsAt0 V c n _).2.1 i + _), (fun i => (outsAt0 V c n _).2.2 i + _)) = _
    rw [ih]
    rfl
end AtIdeal

/-! ## The three outputs after the launch -/

section Finals
variable (V : (c : Dev nD) → (b : Ref sig .tc) → Buf (Elt Ideal) ((c : Thread nD τ).loc b))

/-- The printed index maps over the grid: the row-blocked windows (node inputs, floored linear step) are at block
    row `t`; every other window's block never moves. -/
theorem idx_facts : ∀ t : Fin cfg0.N,
    win0_0.index t (0 : Fin 2) = t.val ∧ win0_0.index t (1 : Fin 2) = 0
    ∧ win0_3.index t (0 : Fin 2) = t.val ∧ win0_3.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- The floored linear step of the whole arrays the launch is entered with. -/
abbrev Yw (c : Dev nD) : Mat 50000 32 := addRowMax (prod (V c main_arg0) (V c main_arg2)) (V c main_v4) zero

/-- Point `t`'s block of the floored linear step is rows `5000 t …` of the whole. -/
theorem Yb_rows (c : Dev nD) (t : Fin cfg0.N) (j : S5000x32.Idx) :
    (addRowMax (prod (iblk0 V c 0 t) (iblk0 V c 1 t)) (iblk0 V c 2 t) zero) j = Yw V c (((cfg0.win 3).blk t).view.emb j) := by
  obtain ⟨e00, e01, e30, e31, e10, e11, e20, e21, -⟩ := idx_facts t
  have hj0 : (j 0).val < 5000 := (j 0).isLt
  have hj1 : (j 1).val < 32 := (j 1).isLt
  refine Cert.RowBias.addRowMax_entry_congr zero j (((cfg0.win 3).blk t).view.emb j) (Cert.RowBias.prod_entry_congr j (((cfg0.win 3).blk t).view.emb j) (fun p => ?_) (fun p => ?_)) ?_
  · show V c main_arg0 (((cfg0.win 0).blk t).view.emb (ix2 (rowOf j) p)) = V c main_arg0 (ix2 (rowOf (((cfg0.win 3).blk t).view.emb j)) p)
    have hp : p.val < 5 := p.isLt
    refine congrArg _ (funext fun a => Fin.ext ?_)
    match a with
    | ⟨0, _⟩ => show win0_0.index t (0 : Fin 2) * 5000 + 1 * (j 0).val = win0_3.index t (0 : Fin 2) * 5000 + 1 * (j 0).val; omega
    | ⟨1, _⟩ => show win0_0.index t (1 : Fin 2) * 5 + 1 * p.val = p.val; omega
  · show V c main_arg2 (((cfg0.win 1).blk t).view.emb (ix2 p (colOf j))) = V c main_arg2 (ix2 p (colOf (((cfg0.win 3).blk t).view.emb j)))
    have hp : p.val < 5 := p.isLt
    refine congrArg _ (funext fun a => Fin.ext ?_)
    match a with
    | ⟨0, _⟩ => show win0_1.index t (0 : Fin 2) * 5 + 1 * p.val = p.val; omega
    | ⟨1, _⟩ => show win0_1.index t (1 : Fin 2) * 32 + 1 * (j 1).val = win0_3.index t (1 : Fin 2) * 32 + 1 * (j 1).val; omega
  · show V c main_v4 (((cfg0.win 2).blk t).view.emb (ix2 0 (colOf j))) = V c main_v4 (ix2 0 (colOf (((cfg0.win 3).blk t).view.emb j)))
    refine congrArg _ (funext fun a => Fin.ext ?_)
    match a with
    | ⟨0, _⟩ => show win0_2.index t (0 : Fin 2) * 1 + 1 * 0 = 0; omega
    | ⟨1, _⟩ => show win0_2.index t (1 : Fin 2) * 32 + 1 * (j 1).val = win0_3.index t (1 : Fin 2) * 32 + 1 * (j 1).val; omega

/-- The same, with the block's rows numbered inside the whole. -/
theorem Yb_block (c : Dev nD) (u : Fin 10) (r : Fin 5000) (p : Fin 32) :
    Yb V c u.val (ix2 r p) = Yw V c (ix2 ⟨5000 * u.val + r.val, by have := u.isLt; have := r.isLt; omega⟩ p) := by
  have hu : u.val < cfg0.N := by rw [hN]; exact u.isLt
  obtain ⟨-, -, e30, e31, -⟩ := idx_facts ⟨u.val, hu⟩
  rw [Yb_of_lt V c ⟨u.val, hu⟩, Yb_rows V c ⟨u.val, hu⟩ (ix2 r p)]
  have hr : r.val < 5000 := r.isLt
  have hp : p.val < 32 := p.isLt
  refine congrArg _ (funext fun a => Fin.ext ?_)
  match a with
  | ⟨0, _⟩ => show win0_3.index ⟨u.val, hu⟩ (0 : Fin 2) * 5000 + 1 * r.val = 5000 * u.val + r.val; rw [e30]; show u.val * 5000 + 1 * r.val = 5000 * u.val + r.val; omega
  | ⟨1, _⟩ => show win0_3.index ⟨u.val, hu⟩ (1 : Fin 2) * 32 + 1 * p.val = p.val; omega

/-- What point `t` writes back through window 3 is block `t` of the whole floored linear step. -/
theorem flushed3_eq (c : Dev nD) (t : Fin cfg0.N) :
    (dat0 V c).flushed 3 t = ((cfg0.win 3).blk t).view.read (Elt Ideal) (Yw V c) := by
  show (cfg0.win 3).cut (grid0.coords t) ((dat0 V c).after 3 t) = _
  rw [after0_3, outs_inv V c t.val t.isLt, Yb_of_lt]
  funext j
  exact Yb_rows V c t j

theorem mem_blk3 (t : Fin cfg0.N) (i : S50000x32.Idx) :
    i ∈ ((cfg0.win 3).blk t).view.set ↔ ∀ a : Fin 2, win0_3.index t a * S5000x32.size a ≤ (i a).val ∧ (i a).val < win0_3.index t a * S5000x32.size a + S5000x32.size a := by
  show i ∈ ((View.whole main_v5_0).slice (win0_3.rect t)).set ↔ _
  rw [View.set_slice_whole, Rect.mem_set_unit]
  exact Iff.rfl

/-- Every index of the floored linear step's array is in the block of the point numbered by its row divided by 5000. -/
theorem cover3 (i : S50000x32.Idx) : ∃ t : Fin cfg0.N, (cfg0.win 3).flush t = true ∧ i ∈ ((cfg0.win 3).blk t).view.set := by
  have hi0 : (i 0).val < 50000 := (i 0).isLt
  have hi1 : (i 1).val < 32 := (i 1).isLt
  have hlt : (i 0).val / 5000 < 10 := by omega
  obtain ⟨-, -, e30, e31, -⟩ := idx_facts (⟨(i 0).val / 5000, hlt⟩ : Fin cfg0.N)
  refine ⟨⟨(i 0).val / 5000, hlt⟩, flush0_3 _, ?_⟩
  rw [mem_blk3]
  intro a
  match a with
  | ⟨0, _⟩ =>
    show win0_3.index ⟨(i 0).val / 5000, hlt⟩ (0 : Fin 2) * 5000 ≤ (i 0).val ∧ (i 0).val < win0_3.index ⟨(i 0).val / 5000, hlt⟩ (0 : Fin 2) * 5000 + 5000
    rw [e30]; show (i 0).val / 5000 * 5000 ≤ (i 0).val ∧ (i 0).val < (i 0).val / 5000 * 5000 + 5000; omega
  | ⟨1, _⟩ =>
    show win0_3.index ⟨(i 0).val / 5000, hlt⟩ (1 : Fin 2) * 32 ≤ (i 1).val ∧ (i 1).val < win0_3.index ⟨(i 0).val / 5000, hlt⟩ (1 : Fin 2) * 32 + 32
    rw [e31]; omega

/-- After the launch the first output is the whole floored linear step. -/
theorem final3 (c : Dev nD) : (dat0 V c).arrAt 3 cfg0.N = Yw V c :=
  (dat0 V c).arrAt_eq_of_cover 3 _ (fun t _ => flushed3_eq V c t) cover3

/-- What the last point writes back through window 4 is the carried row after it. -/
theorem flushed4_eq (c : Dev nD) (t : Fin cfg0.N) (hf : (cfg0.win 4).flush t = true) :
    (dat0 V c).flushed 4 t = ((cfg0.win 4).blk t).view.read (Elt Ideal)
      (runRow zrow (fun u => colSums (Yb V c u)) 9) := by
  have h9 : t.val = 9 := by have := (flush0_4 t).mp hf; have := t.isLt; have := hN; omega
  obtain ⟨-, -, -, -, -, -, -, -, e40, e41, e50, e51⟩ := idx_facts t
  show (cfg0.win 4).cut (grid0.coords t) ((dat0 V c).after 4 t) = _
  rw [after0_4, outs_inv V c t.val t.isLt]
  funext j
  have hj0 : (j 0).val < 1 := (j 0).isLt
  have hj1 : (j 1).val < 32 := (j 1).isLt
  show runRow zrow (fun u => colSums (Yb V c u)) t.val j = runRow zrow (fun u => colSums (Yb V c u)) 9 (((cfg0.win 4).blk t).view.emb j)
  rw [h9]
  refine congrArg _ (funext fun a => Fin.ext ?_)
  match a with
  | ⟨0, _⟩ => show (j 0).val = win0_4.index t (0 : Fin 2) * 1 + 1 * (j 0).val; omega
  | ⟨1, _⟩ => show (j 1).val = win0_4.index t (1 : Fin 2) * 32 + 1 * (j 1).val; omega

theorem mem_blk4 (t : Fin cfg0.N) (i : S1x32.Idx) :
    i ∈ ((cfg0.win 4).blk t).view.set ↔ ∀ a : Fin 2, win0_4.index t a * S1x32.size a ≤ (i a).val ∧ (i a).val < win0_4.index t a * S1x32.size a + S1x32.size a := by
  show i ∈ ((View.whole main_v5_1).slice (win0_4.rect t)).set ↔ _
  rw [View.set_slice_whole, Rect.mem_set_unit]
  exact Iff.rfl

/-- The last point's block is the whole row. -/
theorem cover4 (i : S1x32.Idx) : ∃ t : Fin cfg0.N, (cfg0.win 4).flush t = true ∧ i ∈ ((cfg0.win 4).blk t).view.set := by
  have hi0 : (i 0).val < 1 := (i 0).isLt
  have hi1 : (i 1).val < 32 := (i 1).isLt
  obtain ⟨-, -, -, -, -, -, -, -, e40, e41, e50, e51⟩ := idx_facts (⟨9, by decide⟩ : Fin cfg0.N)
  refine ⟨⟨9, by decide⟩, (flush0_4 _).mpr rfl, ?_⟩
  rw [mem_blk4]
  intro a
  match a with
  | ⟨0, _⟩ =>
    show win0_4.index ⟨9, _⟩ (0 : Fin 2) * 1 ≤ (i 0).val ∧ (i 0).val < win0_4.index ⟨9, _⟩ (0 : Fin 2) * 1 + 1
    omega
  | ⟨1, _⟩ =>
    show win0_4.index ⟨9, _⟩ (1 : Fin 2) * 32 ≤ (i 1).val ∧ (i 1).val < win0_4.index ⟨9, _⟩ (1 : Fin 2) * 32 + 32
    omega

/-- After the launch the row holds the whole embedding's column sums. -/
theorem final4 (c : Dev nD) : (dat0 V c).arrAt 4 cfg0.N = colSums (Yw V c) := by
  rw [(dat0 V c).arrAt_eq_of_cover 4 _ (fun t hf => flushed4_eq V c t hf) cover4]
  funext i
  rw [runRow_apply, show zrow i = (0 : EReal) from Ideal.ofBits_zero_f32, zero_add]
  exact colSums_of_blocks (Yw V c) (Yb V c) (fun u r p => Yb_block V c u r p) i

/-- What the last point writes back through window 5 is the carried row after it. -/
theorem flushed5_eq (c : Dev nD) (t : Fin cfg0.N) (hf : (cfg0.win 5).flush t = true) :
    (dat0 V c).flushed 5 t = ((cfg0.win 5).blk t).view.read (Elt Ideal)
      (runRow zrow (fun u => colSqSums (Yb V c u)) 9) := by
  have h9 : t.val = 9 := by have := (flush0_5 t).mp hf; have := t.isLt; have := hN; omega
  obtain ⟨-, -, -, -, -, -, -, -, e40, e41, e50, e51⟩ := idx_facts t
  show (cfg0.win 5).cut (grid0.coords t) ((dat0 V c).after 5 t) = _
  rw [after0_5, outs_inv V c t.val t.isLt]
  funext j
  have hj0 : (j 0).val < 1 := (j 0).isLt
  have hj1 : (j 1).val < 32 := (j 1).isLt
  show runRow zrow (fun u => colSqSums (Yb V c u)) t.val j = runRow zrow (fun u => colSqSums (Yb V c u)) 9 (((cfg0.win 5).blk t).view.emb j)
  rw [h9]
  refine congrArg _ (funext fun a => Fin.ext ?_)
  match a with
  | ⟨0, _⟩ => show (j 0).val = win0_5.index t (0 : Fin 2) * 1 + 1 * (j 0).val; omega
  | ⟨1, _⟩ => show (j 1).val = win0_5.index t (1 : Fin 2) * 32 + 1 * (j 1).val; omega

theorem mem_blk5 (t : Fin cfg0.N) (i : S1x32.Idx) :
    i ∈ ((cfg0.win 5).blk t).view.set ↔ ∀ a : Fin 2, win0_5.index t a * S1x32.size a ≤ (i a).val ∧ (i a).val < win0_5.index t a * S1x32.size a + S1x32.size a := by
  show i ∈ ((View.whole main_v5_2).slice (win0_5.rect t)).set ↔ _
  rw [View.set_slice_whole, Rect.mem_set_unit]
  exact Iff.rfl

/-- The last point's block is the whole row. -/
theorem cover5 (i : S1x32.Idx) : ∃ t : Fin cfg0.N, (cfg0.win 5).flush t = true ∧ i ∈ ((cfg0.win 5).blk t).view.set := by
  have hi0 : (i 0).val < 1 := (i 0).isLt
  have hi1 : (i 1).val < 32 := (i 1).isLt
  obtain ⟨-, -, -, -, -, -, -, -, e40, e41, e50, e51⟩ := idx_facts (⟨9, by decide⟩ : Fin cfg0.N)
  refine ⟨⟨9, by decide⟩, (flush0_5 _).mpr rfl, ?_⟩
  rw [mem_blk5]
  intro a
  match a with
  | ⟨0, _⟩ =>
    show win0_5.index ⟨9, _⟩ (0 : Fin 2) * 1 ≤ (i 0).val ∧ (i 0).val < win0_5.index ⟨9, _⟩ (0 : Fin 2) * 1 + 1
    omega
  | ⟨1, _⟩ =>
    show win0_5.index ⟨9, _⟩ (1 : Fin 2) * 32 ≤ (i 1).val ∧ (i 1).val < win0_5.index ⟨9, _⟩ (1 : Fin 2) * 32 + 32
    omega

/-- After the launch the row holds the whole embedding's column sums of squares. -/
theorem final5 (c : Dev nD) : (dat0 V c).arrAt 5 cfg0.N = colSqSums (Yw V c) := by
  rw [(dat0 V c).arrAt_eq_of_cover 5 _ (fun t hf => flushed5_eq V c t hf) cover5]
  funext i
  rw [runRow_apply, show zrow i = (0 : EReal) from Ideal.ofBits_zero_f32, zero_add]
  exact colSqSums_of_blocks (Yw V c) (Yb V c) (fun u r p => Yb_block V c u r p) i

end Finals

end Cert.KernelIdeal.Launch0

end
-- ==== Proof.Launch1.lean ====
/-
  Launch 1: the normalising kernel, read as one function of the arrays it is entered with.

  Point `t` of the grid works on rows `5000 t … 5000 t + 4999`: it reads those rows of the activations and the
  four one-row arrays (mean, variance, scale, shift) whole, and writes back the same rows of the result. The
  ten blocks tile the result, so after the launch the result array is the normalised activations, entry by entry.
-/
import proofs.«160678_j77988016161089_1_alg».proof.Proof.Gen.KernelIdeal.Frame
import proofs.«160678_j77988016161089_1_alg».proof.Proof.LibGnnVector

set_option maxRecDepth 16384

noncomputable section

namespace Cert.KernelIdeal.Launch1

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Gnn
open Cert.MatProduct (rowOf colOf)

variable (V : (c : Dev nD) → (b : Ref sig .tc) → Buf (Elt Ideal) ((c : Thread nD τ).loc b))

theorem hz : (![0, 0] : Fin 2 → Nat) = fun _ => 0 := funext fun a => by fin_cases a <;> rfl

/-- The stabilising constant the body adds to the variance. -/
abbrev eps : Ideal .f32 := Scalar.ofBits .f32 0x3727C5AC#32

/-- The body's one store is the normalise step of the blocks it loads. -/
theorem pay_eq (x0 : Vec Ideal S5000x32 .f32) (x1 x2 x3 x4 : Vec Ideal S1x32 .f32) :
    k1_pay1 (F := Ideal) x0 x1 x2 x3 x4 = nrm eps x0 x1 x2 x3 x4 :=
  vec_nrm x0 x1 x2 x3 x4 _ _ _ _ _ _ _

/-- The printed index maps over the grid: the activations' and the result's blocks are block row `t`; the
    one-row arrays' block never moves. -/
theorem idx_facts : ∀ t : Fin cfg1.N,
    win1_0.index t (0 : Fin 2) = t.val ∧ win1_0.index t (1 : Fin 2) = 0
    ∧ win1_5.index t (0 : Fin 2) = t.val ∧ win1_5.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- What point `t` writes back is block `t` of the normalised activations. -/
theorem flushed_eq (c : Dev nD) (t : Fin cfg1.N) :
    (dat1 V c).flushed 5 t = ((cfg1.win 5).blk t).view.read (Elt Ideal)
      (nrm eps (V c main_v5_0) (V c main_v7) (V c main_v11) (V c main_v12) (V c main_v13)) := by
  show (cfg1.win 5).cut (grid1.coords t) ((dat1 V c).after 5 t) = _
  rw [after1_5]
  unfold out1_5
  rw [View.canon_unit_zero hz]
  simp only [View.ld_unit_zero (S := S5000x32) hz, View.ld_unit_zero (S := S1x32) hz]
  rw [pay_eq]
  obtain ⟨e00, e01, e50, e51, e10, e11, e20, e21, e30, e31, e40, e41⟩ := idx_facts t
  funext j
  have hj0 : (j 0).val < 5000 := (j 0).isLt
  have hj1 : (j 1).val < 32 := (j 1).isLt
  show nrm eps (iblk1 V c 0 t) (iblk1 V c 1 t) (iblk1 V c 2 t) (iblk1 V c 3 t) (iblk1 V c 4 t) j
      = (nrm eps (V c main_v5_0) (V c main_v7) (V c main_v11) (V c main_v12) (V c main_v13)) (((cfg1.win 5).blk t).view.emb j)
  refine nrm_entry_congr eps j (((cfg1.win 5).blk t).view.emb j) ?_ ?_ ?_ ?_ ?_
  · show V c main_v5_0 (((cfg1.win 0).blk t).view.emb j) = V c main_v5_0 (((cfg1.win 5).blk t).view.emb j)
    refine congrArg _ (funext fun a => Fin.ext ?_)
    match a with
    | ⟨0, _⟩ => show win1_0.index t (0 : Fin 2) * 5000 + 1 * (j 0).val = win1_5.index t (0 : Fin 2) * 5000 + 1 * (j 0).val; omega
    | ⟨1, _⟩ => show win1_0.index t (1 : Fin 2) * 32 + 1 * (j 1).val = win1_5.index t (1 : Fin 2) * 32 + 1 * (j 1).val; omega
  · show V c main_v7 (((cfg1.win 1).blk t).view.emb (ix2 0 (colOf j))) = V c main_v7 (ix2 0 (colOf (((cfg1.win 5).blk t).view.emb j)))
    refine congrArg _ (funext fun a => Fin.ext ?_)
    match a with
    | ⟨0, _⟩ => show win1_1.index t (0 : Fin 2) * 1 + 1 * 0 = 0; omega
    | ⟨1, _⟩ => show win1_1.index t (1 : Fin 2) * 32 + 1 * (j 1).val = win1_5.index t (1 : Fin 2) * 32 + 1 * (j 1).val; omega
  · show V c main_v11 (((cfg1.win 2).blk t).view.emb (ix2 0 (colOf j))) = V c main_v11 (ix2 0 (colOf (((cfg1.win 5).blk t).view.emb j)))
    refine congrArg _ (funext fun a => Fin.ext ?_)
    match a with
    | ⟨0, _⟩ => show win1_2.index t (0 : Fin 2) * 1 + 1 * 0 = 0; omega
    | ⟨1, _⟩ => show win1_2.index t (1 : Fin 2) * 32 + 1 * (j 1).val = win1_5.index t (1 : Fin 2) * 32 + 1 * (j 1).val; omega
  · show V c main_v12 (((cfg1.win 3).blk t).view.emb (ix2 0 (colOf j))) = V c main_v12 (ix2 0 (colOf (((cfg1.win 5).blk t).view.emb j)))
    refine congrArg _ (funext fun a => Fin.ext ?_)
    match a with
    | ⟨0, _⟩ => show win1_3.index t (0 : Fin 2) * 1 + 1 * 0 = 0; omega
    | ⟨1, _⟩ => show win1_3.index t (1 : Fin 2) * 32 + 1 * (j 1).val = win1_5.index t (1 : Fin 2) * 32 + 1 * (j 1).val; omega
  · show V c main_v13 (((cfg1.win 4).blk t).view.emb (ix2 0 (colOf j))) = V c main_v13 (ix2 0 (colOf (((cfg1.win 5).blk t).view.emb j)))
    refine congrArg _ (funext fun a => Fin.ext ?_)
    match a with
    | ⟨0, _⟩ => show win1_4.index t (0 : Fin 2) * 1 + 1 * 0 = 0; omega
    | ⟨1, _⟩ => show win1_4.index t (1 : Fin 2) * 32 + 1 * (j 1).val = win1_5.index t (1 : Fin 2) * 32 + 1 * (j 1).val; omega

/-- An index of the result is in point `t`'s block iff each coordinate is in the block's range on its axis. -/
theorem mem_blk (t : Fin cfg1.N) (i : S50000x32.Idx) :
    i ∈ ((cfg1.win 5).blk t).view.set ↔ ∀ a : Fin 2, win1_5.index t a * S5000x32.size a ≤ (i a).val ∧ (i a).val < win1_5.index t a * S5000x32.size a + S5000x32.size a := by
  show i ∈ ((View.whole main_v14).slice (win1_5.rect t)).set ↔ _
  rw [View.set_slice_whole, Rect.mem_set_unit]
  exact Iff.rfl

/-- Every index of the result is in the block of the point numbered by its row divided by 5000. -/
theorem cover (i : S50000x32.Idx) : ∃ t : Fin cfg1.N, (cfg1.win 5).flush t = true ∧ i ∈ ((cfg1.win 5).blk t).view.set := by
  have hi0 : (i 0).val < 50000 := (i 0).isLt
  have hi1 : (i 1).val < 32 := (i 1).isLt
  have hlt : (i 0).val / 5000 < 10 := by omega
  obtain ⟨e00, e01, e50, e51, -⟩ := idx_facts (⟨(i 0).val / 5000, hlt⟩ : Fin cfg1.N)
  refine ⟨⟨(i 0).val / 5000, hlt⟩, flush1_5 _, ?_⟩
  rw [mem_blk]
  intro a
  match a with
  | ⟨0, _⟩ =>
    show win1_5.index ⟨(i 0).val / 5000, hlt⟩ (0 : Fin 2) * 5000 ≤ (i 0).val ∧ (i 0).val < win1_5.index ⟨(i 0).val / 5000, hlt⟩ (0 : Fin 2) * 5000 + 5000
    rw [e50]; show (i 0).val / 5000 * 5000 ≤ (i 0).val ∧ (i 0).val < (i 0).val / 5000 * 5000 + 5000; omega
  | ⟨1, _⟩ =>
    show win1_5.index ⟨(i 0).val / 5000, hlt⟩ (1 : Fin 2) * 32 ≤ (i 1).val ∧ (i 1).val < win1_5.index ⟨(i 0).val / 5000, hlt⟩ (1 : Fin 2) * 32 + 32
    rw [e51]; omega

/-- After the launch the result array is the normalised activations. -/
theorem final (c : Dev nD) :
    (dat1 V c).arrAt 5 cfg1.N = nrm eps (V c main_v5_0) (V c main_v7) (V c main_v11) (V c main_v12) (V c main_v13) :=
  (dat1 V c).arrAt_eq_of_cover 5 _ (fun t _ => flushed_eq V c t) cover

end Cert.KernelIdeal.Launch1

end
-- ==== Proof.LibGnnNet.lean ====
/-
  The whole network as one function of its inputs, and its independence of the variance's spelling.

  An embedding (linear, floor at zero, batch normalisation), four graph-convolution blocks (aggregate over
  the edges, dense step, batch normalisation, floor at zero) and an output head. The aggregation is carried
  as an arbitrary function `a·` of the node features that keeps real data real: both programs aggregate
  with the same host operations, so nothing more is asked of it.

  With every input real, every stage's output is real, so at every batch normalisation the two spellings of
  the variance agree, and the network computed with one spelling is the network computed with the other.
-/
import proofs.«160678_j77988016161089_1_alg».proof.Proof.LibGnnStages

noncomputable section

namespace Cert.Gnn

open Idealize.ShloMosaic Idealize.ShloMosaic.ValueIdx Idealize.ShloMosaic.RealClosure
open Cert.MatProduct (prod rowOf colOf)
open Cert.RowBias (addRow addRowMax)

/-- A vector regarded as one row. -/
def rowOfVec {d : ℕ} (v : (⟨1, ![d]⟩ : Shape).Idx → EReal) : Mat 1 d := fun i => v (ix1 (colOf i))

theorem allReal_rowOfVec {d : ℕ} {v : (⟨1, ![d]⟩ : Shape).Idx → EReal} (hv : AllReal v) : AllReal (rowOfVec v) :=
  fun _ => hv _

/-- The embedding: `bn (max (x · w + b, z))`. -/
def embed (Vr : {n d : ℕ} → EReal → Mat n d → Mat 1 d) {n k d : ℕ} (e N z : EReal) (x : Mat n k) (w : Mat k d)
    (b g beta : Mat 1 d) : Mat n d :=
  bn Vr e N (addRowMax (prod x w) b z) g beta

/-- One graph-convolution block: `max (bn ((a h · wrel + brel) + h · wroot), z)`. -/
def block (Vr : {n d : ℕ} → EReal → Mat n d → Mat 1 d) {n k d : ℕ} (e N z : EReal) (a : Mat n k → Mat n k)
    (h : Mat n k) (wrel : Mat k d) (brel : Mat 1 d) (wroot : Mat k d) (g beta : Mat 1 d) : Mat n d :=
  bnMax Vr e N (conv (a h) wrel brel h wroot) g beta z

section
variable {n k d : ℕ} (hn : 0 < n) {e N z : EReal} (hN : N = ((n : ℝ) : EReal)) (he : IsPos e) (hz : IsReal z)
include hn hN he hz

theorem embed_varSq_eq {x : Mat n k} {w : Mat k d} {b : Mat 1 d} (g beta : Mat 1 d) (hx : AllReal x)
    (hw : AllReal w) (hb : AllReal b) :
    embed varSq e N z x w b g beta = embed varDev e N z x w b g beta :=
  bn_varSq_eq hn hN g beta (allReal_addRowMax (allReal_prod hx hw) hb hz)

theorem allReal_embed {x : Mat n k} {w : Mat k d} {b g beta : Mat 1 d} (hx : AllReal x) (hw : AllReal w)
    (hb : AllReal b) (hg : AllReal g) (hbeta : AllReal beta) : AllReal (embed varDev e N z x w b g beta) :=
  allReal_bn_varDev hn hN he (allReal_addRowMax (allReal_prod hx hw) hb hz) hg hbeta

theorem block_varSq_eq {a : Mat n k → Mat n k} (ha : ∀ h, AllReal h → AllReal (a h)) {h : Mat n k} {wrel wroot : Mat k d}
    {brel : Mat 1 d} (g beta : Mat 1 d) (hh : AllReal h) (hwrel : AllReal wrel) (hbrel : AllReal brel)
    (hwroot : AllReal wroot) :
    block varSq e N z a h wrel brel wroot g beta = block varDev e N z a h wrel brel wroot g beta :=
  bnMax_varSq_eq hn hN g beta z (allReal_conv (ha h hh) hwrel hbrel hh hwroot)

theorem allReal_block {a : Mat n k → Mat n k} (ha : ∀ h, AllReal h → AllReal (a h)) {h : Mat n k} {wrel wroot : Mat k d}
    {brel g beta : Mat 1 d} (hh : AllReal h) (hwrel : AllReal wrel) (hbrel : AllReal brel) (hwroot : AllReal wroot)
    (hg : AllReal g) (hbeta : AllReal beta) : AllReal (block varDev e N z a h wrel brel wroot g beta) :=
  allReal_bnMax_varDev hn hN he hz (allReal_conv (ha h hh) hwrel hbrel hh hwroot) hg hbeta
end

/-- The network: embedding, four blocks of widths 32 → 64 → 128 → 64 → 32, head 32 → 16 → 2. -/
def net (Vr : {n d : ℕ} → EReal → Mat n d → Mat 1 d) {n : ℕ} (e N z : EReal)
    (a0 : Mat n 32 → Mat n 32) (a1 : Mat n 64 → Mat n 64) (a2 : Mat n 128 → Mat n 128) (a3 : Mat n 64 → Mat n 64)
    (x : Mat n 5) (w : Mat 5 32) (b g beta : Mat 1 32)
    (wrel0 : Mat 32 64) (brel0 : Mat 1 64) (wroot0 : Mat 32 64) (g0 beta0 : Mat 1 64)
    (wrel1 : Mat 64 128) (brel1 : Mat 1 128) (wroot1 : Mat 64 128) (g1 beta1 : Mat 1 128)
    (wrel2 : Mat 128 64) (brel2 : Mat 1 64) (wroot2 : Mat 128 64) (g2 beta2 : Mat 1 64)
    (wrel3 : Mat 64 32) (brel3 : Mat 1 32) (wroot3 : Mat 64 32) (g3 beta3 : Mat 1 32)
    (w1 : Mat 32 16) (b1 : Mat 1 16) (w2 : Mat 16 2) (b2 : Mat 1 2) : Mat n 2 :=
  head z
    (block Vr e N z a3
      (block Vr e N z a2
        (block Vr e N z a1
          (block Vr e N z a0 (embed Vr e N z x w b g beta) wrel0 brel0 wroot0 g0 beta0)
          wrel1 brel1 wroot1 g1 beta1)
        wrel2 brel2 wroot2 g2 beta2)
      wrel3 brel3 wroot3 g3 beta3)
    w1 b1 w2 b2

/-- With every input real and every aggregation keeping real data real, the network does not depend on the
    spelling of the variance. -/
theorem net_varSq_eq {n : ℕ} (hn : 0 < n) {e N z : EReal} (hN : N = ((n : ℝ) : EReal)) (he : IsPos e) (hz : IsReal z)
    {a0 : Mat n 32 → Mat n 32} {a1 : Mat n 64 → Mat n 64} {a2 : Mat n 128 → Mat n 128} {a3 : Mat n 64 → Mat n 64}
    (ha0 : ∀ h, AllReal h → AllReal (a0 h)) (ha1 : ∀ h, AllReal h → AllReal (a1 h))
    (ha2 : ∀ h, AllReal h → AllReal (a2 h)) (ha3 : ∀ h, AllReal h → AllReal (a3 h))
    {x : Mat n 5} {w : Mat 5 32} {b g beta : Mat 1 32}
    {wrel0 : Mat 32 64} {brel0 : Mat 1 64} {wroot0 : Mat 32 64} {g0 beta0 : Mat 1 64}
    {wrel1 : Mat 64 128} {brel1 : Mat 1 128} {wroot1 : Mat 64 128} {g1 beta1 : Mat 1 128}
    {wrel2 : Mat 128 64} {brel2 : Mat 1 64} {wroot2 : Mat 128 64} {g2 beta2 : Mat 1 64}
    {wrel3 : Mat 64 32} {brel3 : Mat 1 32} {wroot3 : Mat 64 32} {g3 beta3 : Mat 1 32}
    (w1 : Mat 32 16) (b1 : Mat 1 16) (w2 : Mat 16 2) (b2 : Mat 1 2)
    (hx : AllReal x) (hw : AllReal w) (hb : AllReal b) (hg : AllReal g) (hbeta : AllReal beta)
    (hwrel0 : AllReal wrel0) (hbrel0 : AllReal brel0) (hwroot0 : AllReal wroot0) (hg0 : AllReal g0) (hbeta0 : AllReal beta0)
    (hwrel1 : AllReal wrel1) (hbrel1 : AllReal brel1) (hwroot1 : AllReal wroot1) (hg1 : AllReal g1) (hbeta1 : AllReal beta1)
    (hwrel2 : AllReal wrel2) (hbrel2 : AllReal brel2) (hwroot2 : AllReal wroot2) (hg2 : AllReal g2) (hbeta2 : AllReal beta2)
    (hwrel3 : AllReal wrel3) (hbrel3 : AllReal brel3) (hwroot3 : AllReal wroot3) :
    net varSq e N z a0 a1 a2 a3 x w b g beta wrel0 brel0 wroot0 g0 beta0 wrel1 brel1 wroot1 g1 beta1
        wrel2 brel2 wroot2 g2 beta2 wrel3 brel3 wroot3 g3 beta3 w1 b1 w2 b2
      = net varDev e N z a0 a1 a2 a3 x w b g beta wrel0 brel0 wroot0 g0 beta0 wrel1 brel1 wroot1 g1 beta1
        wrel2 brel2 wroot2 g2 beta2 wrel3 brel3 wroot3 g3 beta3 w1 b1 w2 b2 := by
  have r0 := allReal_embed hn hN he hz hx hw hb hg hbeta
  have r1 := allReal_block hn hN he hz ha0 r0 hwrel0 hbrel0 hwroot0 hg0 hbeta0
  have r2 := allReal_block hn hN he hz ha1 r1 hwrel1 hbrel1 hwroot1 hg1 hbeta1
  have r3 := allReal_block hn hN he hz ha2 r2 hwrel2 hbrel2 hwroot2 hg2 hbeta2
  unfold net
  rw [embed_varSq_eq hn hN he hz g beta hx hw hb,
    block_varSq_eq hn hN he hz ha0 g0 beta0 r0 hwrel0 hbrel0 hwroot0,
    block_varSq_eq hn hN he hz ha1 g1 beta1 r1 hwrel1 hbrel1 hwroot1,
    block_varSq_eq hn hN he hz ha2 g2 beta2 r2 hwrel2 hbrel2 hwroot2,
    block_varSq_eq hn hN he hz ha3 g3 beta3 r3 hwrel3 hbrel3 hwroot3]

end Cert.Gnn

end
-- ==== Proof.LibHostRow.lean ====
/-
  A bias row spread over the rows of a matrix, and a scalar spread over an array, on the host.

  To add a length-`d` vector to every row of an `[n, d]` array the host first regards the vector as one row `[1, d]`
  and then repeats that row `n` times (two `broadcast_in_dim`s, with dimension maps `[1]` and `[0, 1]`): entry (r, q) of
  the result is entry q of the vector. A scalar spread to any shape (dimension map `[]`) reads the scalar everywhere.
  All three steps are stated for arbitrary extents.
-/
import Idealize.ShloMosaic.Lib.Pipeline.Value
import Idealize.ShloMosaic.Lib.ValueIdx

noncomputable section

namespace Cert.LibHostRow

open Idealize.ShloMosaic Idealize.ShloMosaic.ValueIdx

/-- A vector regarded as one row reads, at (0, q), the vector's entry q. -/
theorem row_apply {α : Type} {d : ℕ} (x : (⟨1, ![d]⟩ : Shape).Idx → α)
    (h : (⟨1, ![d]⟩ : Shape).BroadcastsInDim ⟨2, ![1, d]⟩ (![1] : Fin 1 → Fin 2)) (u : Fin 1) (q : Fin d) :
    broadcastInDim ⟨2, ![1, d]⟩ ![1] h x (ix2 u q) = x (ix1 q) := by
  refine broadcastInDim_apply _ h x (ix2 u q) (ix1 q) fun a => ?_
  match a with
  | ⟨0, _⟩ =>
    show q.val = if d = 1 then 0 else q.val
    split
    · have := q.isLt; omega
    · rfl

/-- One row repeated down the rows reads, at (r, q), the row's entry q. -/
theorem rows_apply {α : Type} {n d : ℕ} (x : (⟨2, ![1, d]⟩ : Shape).Idx → α)
    (h : (⟨2, ![1, d]⟩ : Shape).BroadcastsInDim ⟨2, ![n, d]⟩ (![0, 1] : Fin 2 → Fin 2)) (r : Fin n) (q : Fin d) :
    broadcastInDim ⟨2, ![n, d]⟩ ![0, 1] h x (ix2 r q) = x (ix2 (0 : Fin 1) q) := by
  refine broadcastInDim_apply _ h x (ix2 r q) (ix2 (0 : Fin 1) q) fun a => ?_
  match a with
  | ⟨0, _⟩ => rfl
  | ⟨1, _⟩ =>
    show q.val = if d = 1 then 0 else q.val
    split
    · have := q.isLt; omega
    · rfl

/-- A scalar spread to any shape reads, everywhere, the scalar. -/
theorem scalar_apply {α : Type} {t : Shape} (x : (⟨0, ![]⟩ : Shape).Idx → α)
    (h : (⟨0, ![]⟩ : Shape).BroadcastsInDim t (![] : Fin 0 → Fin t.rank)) (j : t.Idx) :
    broadcastInDim t ![] h x j = x ix0 :=
  broadcastInDim_apply _ h x j ix0 fun a => a.elim0

end Cert.LibHostRow

end
-- ==== Proof.LibGnnHost.lean ====
/-
  Host operations read as the network's stage functions, for any extents.

  The reference keeps per-column quantities as vectors and spreads them with two broadcasts (to one row, then
  down the rows); the kernel's host code keeps them as one-row arrays. Either way an entry of the spread array
  is the vector's entry at the column. A host sum over the row axis from a zero initial value is the column
  sum; a division by a splat scalar divides every entry by it.
-/
import Idealize.ShloMosaic.Lib.ValueIdx
import Idealize.ShloMosaic.PureOps.Ideal.Laws
import proofs.«160678_j77988016161089_1_alg».proof.Proof.LibGnnNet
import proofs.«160678_j77988016161089_1_alg».proof.Proof.LibHostRow
import proofs.«160678_j77988016161089_1_alg».proof.Proof.LibHostColSum

noncomputable section

namespace Cert.Gnn

open Idealize.ShloMosaic Idealize.ShloMosaic.ValueIdx
open Cert.MatProduct (prod rowOf colOf)
open Cert.RowBias (addRow addRowMax)
open Cert.LibHostRow

variable {n k d : ℕ}

theorem reduces_of_reducesTo (h' : (⟨2, ![n, d]⟩ : Shape).ReducesTo [0] ⟨1, ![d]⟩) :
    (⟨2, ![n, d]⟩ : Shape).Reduces [0] ⟨1, ![d]⟩ :=
  let ⟨h, f⟩ := h'; ⟨h, Nat.one_pos, f⟩

/-- A vector spread to one row and then down the rows reads, at an entry, the vector at the entry's column. -/
theorem spread_apply {α : Type} (b : (⟨1, ![d]⟩ : Shape).Idx → α)
    (h1 : (⟨1, ![d]⟩ : Shape).BroadcastsInDim ⟨2, ![1, d]⟩ (![1] : Fin 1 → Fin 2))
    (h2 : (⟨2, ![1, d]⟩ : Shape).BroadcastsInDim ⟨2, ![n, d]⟩ (![0, 1] : Fin 2 → Fin 2)) (i : (⟨2, ![n, d]⟩ : Shape).Idx) :
    broadcastInDim ⟨2, ![n, d]⟩ ![0, 1] h2 (broadcastInDim ⟨2, ![1, d]⟩ ![1] h1 b) i = b (ix1 (colOf i)) := by
  obtain ⟨r, q, rfl⟩ : ∃ (r : Fin n) (q : Fin d), i = ix2 r q := ⟨_, _, eq_ix2 i⟩
  rw [rows_apply, row_apply]
  rfl

/-- A vector reshaped to one row is that row. -/
theorem reshape_row (v : (⟨1, ![d]⟩ : Shape).Idx → EReal) (h : (⟨1, ![d]⟩ : Shape).ShapeCasts ⟨2, ![1, d]⟩) :
    shapeCast ⟨2, ![1, d]⟩ v h = rowOfVec v := by
  funext i
  obtain ⟨p, q, rfl⟩ : ∃ (p : Fin 1) (q : Fin d), i = ix2 p q := ⟨_, _, eq_ix2 i⟩
  have hp : p = 0 := Subsingleton.elim _ _
  subst hp
  exact Cert.RowBias.vecRow_apply v h q

/-- `x + spread b`. -/
theorem host_addRow (x : FVec Ideal ⟨2, ![n, d]⟩ .f32) (b : FVec Ideal ⟨1, ![d]⟩ .f32)
    (h1 : (⟨1, ![d]⟩ : Shape).BroadcastsInDim ⟨2, ![1, d]⟩ (![1] : Fin 1 → Fin 2))
    (h2 : (⟨2, ![1, d]⟩ : Shape).BroadcastsInDim ⟨2, ![n, d]⟩ (![0, 1] : Fin 2 → Fin 2)) :
    addf x (broadcastInDim ⟨2, ![n, d]⟩ ![0, 1] h2 (broadcastInDim ⟨2, ![1, d]⟩ ![1] h1 b)) = addRow x (rowOfVec b) := by
  funext i
  rw [addf_apply, spread_apply]
  rfl

/-- `max (x, splat z)`. -/
theorem host_max (x : FVec Ideal ⟨2, ![n, d]⟩ .f32) (zc : FVec Ideal ⟨0, ![]⟩ .f32)
    (h0 : (⟨0, ![]⟩ : Shape).BroadcastsInDim ⟨2, ![n, d]⟩ (![] : Fin 0 → Fin 2)) :
    maximumf x (broadcastInDim ⟨2, ![n, d]⟩ ![] h0 zc) = fun i => max (x i) (zc ix0) := by
  funext i
  rw [maximumf_apply, scalar_apply]

/-- `max (x + spread b, splat z)`. -/
theorem host_addRowMax (x : FVec Ideal ⟨2, ![n, d]⟩ .f32) (b : FVec Ideal ⟨1, ![d]⟩ .f32) (zc : FVec Ideal ⟨0, ![]⟩ .f32)
    (h1 : (⟨1, ![d]⟩ : Shape).BroadcastsInDim ⟨2, ![1, d]⟩ (![1] : Fin 1 → Fin 2))
    (h2 : (⟨2, ![1, d]⟩ : Shape).BroadcastsInDim ⟨2, ![n, d]⟩ (![0, 1] : Fin 2 → Fin 2))
    (h0 : (⟨0, ![]⟩ : Shape).BroadcastsInDim ⟨2, ![n, d]⟩ (![] : Fin 0 → Fin 2)) :
    maximumf (addf x (broadcastInDim ⟨2, ![n, d]⟩ ![0, 1] h2 (broadcastInDim ⟨2, ![1, d]⟩ ![1] h1 b)))
        (broadcastInDim ⟨2, ![n, d]⟩ ![] h0 zc) = addRowMax x (rowOfVec b) (zc ix0) := by
  rw [host_addRow, host_max]
  rfl

/-- The reference's normalise step: the four per-column vectors spread over the rows. -/
theorem host_nrm (y : FVec Ideal ⟨2, ![n, d]⟩ .f32) (mean var g beta : FVec Ideal ⟨1, ![d]⟩ .f32) (ec : FVec Ideal ⟨0, ![]⟩ .f32)
    (h1 h1' h1'' h1''' : (⟨1, ![d]⟩ : Shape).BroadcastsInDim ⟨2, ![1, d]⟩ (![1] : Fin 1 → Fin 2))
    (h2 h2' h2'' h2''' : (⟨2, ![1, d]⟩ : Shape).BroadcastsInDim ⟨2, ![n, d]⟩ (![0, 1] : Fin 2 → Fin 2))
    (h0 : (⟨0, ![]⟩ : Shape).BroadcastsInDim ⟨1, ![d]⟩ (![] : Fin 0 → Fin 1)) :
    addf (mulf (mulf (subf y (broadcastInDim ⟨2, ![n, d]⟩ ![0, 1] h2 (broadcastInDim ⟨2, ![1, d]⟩ ![1] h1 mean)))
          (broadcastInDim ⟨2, ![n, d]⟩ ![0, 1] h2' (broadcastInDim ⟨2, ![1, d]⟩ ![1] h1'
            (Host.rsqrt (addf var (broadcastInDim ⟨1, ![d]⟩ ![] h0 ec))))))
        (broadcastInDim ⟨2, ![n, d]⟩ ![0, 1] h2'' (broadcastInDim ⟨2, ![1, d]⟩ ![1] h1'' g)))
      (broadcastInDim ⟨2, ![n, d]⟩ ![0, 1] h2''' (broadcastInDim ⟨2, ![1, d]⟩ ![1] h1''' beta))
      = nrm (ec ix0) y (rowOfVec mean) (rowOfVec var) (rowOfVec g) (rowOfVec beta) := by
  funext i
  rw [addf_apply, mulf_apply, mulf_apply, subf_apply, spread_apply, spread_apply, spread_apply, spread_apply]
  show (y i - mean _) * Ideal.rsqrt (var _ + broadcastInDim ⟨1, ![d]⟩ ![] h0 ec _) * g _ + beta _ = _
  rw [scalar_apply]
  rfl

/-- The reference's mean, a vector: the host sum over the row axis from zero, over the splat count. -/
theorem host_mean (y : FVec Ideal ⟨2, ![n, d]⟩ .f32) (z0 Nc : FVec Ideal ⟨0, ![]⟩ .f32)
    (h' : (⟨2, ![n, d]⟩ : Shape).ReducesTo [0] ⟨1, ![d]⟩) (hu : 0 < (⟨0, ![]⟩ : Shape).numel)
    (h0 : (⟨0, ![]⟩ : Shape).BroadcastsInDim ⟨1, ![d]⟩ (![] : Fin 0 → Fin 1)) (hz : ∀ j, z0 j = 0) :
    rowOfVec (Host.divf (Host.reduceAdd (F := Ideal) (φ := .f32) y z0 h' hu) (broadcastInDim ⟨1, ![d]⟩ ![] h0 Nc))
      = meanRow (Nc ix0) y := by
  funext i
  show Ideal.div (Host.reduceAdd (F := Ideal) (φ := .f32) y z0 h' hu (ix1 (colOf i))) (broadcastInDim ⟨1, ![d]⟩ ![] h0 Nc (ix1 (colOf i))) = _
  rw [Cert.LibHostColSum.reduceAdd_col y z0 h' (reduces_of_reducesTo h') hu, scalar_apply, hz, zero_add]
  rfl

/-- The kernel side's mean, a row: the column sums over the splat count. -/
theorem row_mean (y : Mat n d) (Nc : FVec Ideal ⟨0, ![]⟩ .f32)
    (h0 : (⟨0, ![]⟩ : Shape).BroadcastsInDim ⟨2, ![1, d]⟩ (![] : Fin 0 → Fin 2)) :
    Host.divf (F := Ideal) (φ := .f32) (colSums y) (broadcastInDim ⟨2, ![1, d]⟩ ![] h0 Nc) = meanRow (Nc ix0) y := by
  funext i
  show Ideal.div (colSums y i) (broadcastInDim ⟨2, ![1, d]⟩ ![] h0 Nc i) = _
  rw [scalar_apply]
  rfl

/-- The kernel side's variance, a row: mean of squares minus squared mean. -/
theorem row_var (y : Mat n d) (Nc Nc' : FVec Ideal ⟨0, ![]⟩ .f32)
    (h0 h0' : (⟨0, ![]⟩ : Shape).BroadcastsInDim ⟨2, ![1, d]⟩ (![] : Fin 0 → Fin 2)) (hN : Nc' ix0 = Nc ix0) :
    subf (Host.divf (F := Ideal) (φ := .f32) (colSqSums y) (broadcastInDim ⟨2, ![1, d]⟩ ![] h0' Nc'))
        (mulf (Host.divf (F := Ideal) (φ := .f32) (colSums y) (broadcastInDim ⟨2, ![1, d]⟩ ![] h0 Nc))
          (Host.divf (F := Ideal) (φ := .f32) (colSums y) (broadcastInDim ⟨2, ![1, d]⟩ ![] h0 Nc)))
      = varSq (Nc ix0) y := by
  rw [row_mean]
  funext i
  rw [subf_apply, mulf_apply]
  show Ideal.div (colSqSums y i) (broadcastInDim ⟨2, ![1, d]⟩ ![] h0' Nc' i) - _ = _
  rw [scalar_apply, hN]
  rfl

end Cert.Gnn

end
-- ==== Proof.KStage0.lean ====
/-
  The idealized kernel's program up to the embedding's output, boundary by boundary.

  The first host stretch cuts the edge array into its source and target rows and regards the embedding's bias as
  one row; launch 0 leaves the floored linear step and its column statistics; the second stretch divides them by
  the node count into the mean and the mean-of-squares-minus-squared-mean variance and regards scale and shift as
  rows; launch 1 normalises. So the buffer launch 1 writes holds the embedding of the arguments.
-/
import proofs.«160678_j77988016161089_1_alg».proof.Proof.Gen.KernelIdeal.Frame
import Idealize.ShloMosaic.Lib.ValueIdx
import Idealize.ShloMosaic.Lib.StableHlo.Run
import proofs.«160678_j77988016161089_1_alg».proof.Proof.Fold
import proofs.«160678_j77988016161089_1_alg».proof.Proof.Launch0
import proofs.«160678_j77988016161089_1_alg».proof.Proof.Launch1
import proofs.«160678_j77988016161089_1_alg».proof.Proof.LibGnnHost
set_option maxRecDepth 16384

noncomputable section

namespace Cert.KernelIdeal.Stages

open Cert.KernelIdeal Cert.KernelIdeal.Gen
open Idealize.ShloMosaic Idealize.ShloMosaic.TcCoe Idealize.ShloMosaic.ValueIdx Idealize.SL.Sem Idealize.ShloMosaic.StableHlo

open Cert.Gnn Cert.KernelIdeal.Fold
open Cert.MatProduct (prod)
open Cert.RowBias (addRowMax)

variable (m : (ℓ : Loc nD τ sig) → Buf (Elt Ideal) ℓ) (ρ : Dev nD → PrngReg) (c : Dev nD)

/-- An argument array as launched. -/
abbrev arg (b : Ref sig .tc) : Buf (Elt Ideal) ((c : Thread nD τ).loc b) := m ((c : Thread nD τ).loc b)

/-- The stabilising constant, the node count and zero, as the literals denote them. -/
abbrev epsC : EReal := Ideal.ofBits .f32 0x3727C5AC#32
abbrev cntC : EReal := Ideal.ofBits .f32 0x47435000#32
abbrev zeroC : EReal := Ideal.ofBits .f32 0x00000000#32

/-- The edges' source nodes and target nodes: the two rows of the edge array. -/
def src := shapeCast S800000 (extractStridedSlice S1x800000 ![0, 0] (arg m c main_arg1) slices_S2x800000_S1x800000_0_0) shapeCasts_S1x800000_S800000
def dst := shapeCast S800000 (extractStridedSlice S1x800000 ![1, 0] (arg m c main_arg1) slices_S2x800000_S1x800000_1_0) shapeCasts_S1x800000_S800000

theorem v1_at1 : W1 m ρ c (Proc.devRef .tc main_v1) = src m c := by
  show StableHlo.after hostOps0 (W0 m ρ c) (Proc.devRef .tc main_v1) = _
  after_results
  rfl

theorem v3_at1 : W1 m ρ c (Proc.devRef .tc main_v3) = dst m c := by
  show StableHlo.after hostOps0 (W0 m ρ c) (Proc.devRef .tc main_v3) = _
  after_results
  rfl

theorem v4_at1 : W1 m ρ c (Proc.devRef .tc main_v4) = rowOfVec (arg m c main_arg3) := by
  show StableHlo.after hostOps0 (W0 m ρ c) (Proc.devRef .tc main_v4) = _
  after_results
  exact reshape_row _ _

theorem arg0_at1 : W1 m ρ c (Proc.devRef .tc main_arg0) = arg m c main_arg0 := by
  rw [keep0 m ρ c main_arg0 (by decide)]
theorem arg2_at1 : W1 m ρ c (Proc.devRef .tc main_arg2) = arg m c main_arg2 := by
  rw [keep0 m ρ c main_arg2 (by decide)]
theorem arg4_at2 : W2 m ρ c (Proc.devRef .tc main_arg4) = arg m c main_arg4 := by
  rw [W2_of_ne m ρ c main_arg4 (by decide), keep0 m ρ c main_arg4 (by decide)]
theorem arg5_at2 : W2 m ρ c (Proc.devRef .tc main_arg5) = arg m c main_arg5 := by
  rw [W2_of_ne m ρ c main_arg5 (by decide), keep0 m ρ c main_arg5 (by decide)]

/-- The embedding's floored linear step. -/
def Y0 : Mat 50000 32 := addRowMax (prod (arg m c main_arg0) (arg m c main_arg2)) (rowOfVec (arg m c main_arg3)) zeroC

theorem y_at2 : W2 m ρ c (Proc.devRef .tc main_v5_0) = Y0 m c := by
  rw [show W2 m ρ c (Proc.devRef .tc main_v5_0) = _ from W2_arr m ρ c 3, Launch0.final3]
  show addRowMax (prod (W1 m ρ c (Proc.devRef .tc main_arg0)) (W1 m ρ c (Proc.devRef .tc main_arg2))) (W1 m ρ c (Proc.devRef .tc main_v4)) _ = _
  rw [arg0_at1, arg2_at1, v4_at1]
  rfl

theorem s_at2 : W2 m ρ c (Proc.devRef .tc main_v5_1) = colSums (Y0 m c) := by
  rw [show W2 m ρ c (Proc.devRef .tc main_v5_1) = _ from W2_arr m ρ c 4, Launch0.final4]
  show colSums (addRowMax (prod (W1 m ρ c (Proc.devRef .tc main_arg0)) (W1 m ρ c (Proc.devRef .tc main_arg2))) (W1 m ρ c (Proc.devRef .tc main_v4)) _) = _
  rw [arg0_at1, arg2_at1, v4_at1]
  rfl

theorem q_at2 : W2 m ρ c (Proc.devRef .tc main_v5_2) = colSqSums (Y0 m c) := by
  rw [show W2 m ρ c (Proc.devRef .tc main_v5_2) = _ from W2_arr m ρ c 5, Launch0.final5]
  show colSqSums (addRowMax (prod (W1 m ρ c (Proc.devRef .tc main_arg0)) (W1 m ρ c (Proc.devRef .tc main_arg2))) (W1 m ρ c (Proc.devRef .tc main_v4)) _) = _
  rw [arg0_at1, arg2_at1, v4_at1]
  rfl

theorem mean_at3 : W3 m ρ c (Proc.devRef .tc main_v7) = meanRow cntC (Y0 m c) := by
  show StableHlo.after hostOps1 (W2 m ρ c) (Proc.devRef .tc main_v7) = _
  after_results
  rw [s_at2]
  exact row_mean _ _ _

theorem var_at3 : W3 m ρ c (Proc.devRef .tc main_v11) = varSq cntC (Y0 m c) := by
  show StableHlo.after hostOps1 (W2 m ρ c) (Proc.devRef .tc main_v11) = _
  after_results
  rw [s_at2, q_at2]
  exact row_var _ _ _ _ _ rfl

theorem g_at3 : W3 m ρ c (Proc.devRef .tc main_v12) = rowOfVec (arg m c main_arg4) := by
  show StableHlo.after hostOps1 (W2 m ρ c) (Proc.devRef .tc main_v12) = _
  after_results
  rw [arg4_at2]
  exact reshape_row _ _

theorem beta_at3 : W3 m ρ c (Proc.devRef .tc main_v13) = rowOfVec (arg m c main_arg5) := by
  show StableHlo.after hostOps1 (W2 m ρ c) (Proc.devRef .tc main_v13) = _
  after_results
  rw [arg5_at2]
  exact reshape_row _ _

theorem y_at3 : W3 m ρ c (Proc.devRef .tc main_v5_0) = Y0 m c := by
  rw [keep1 m ρ c main_v5_0 (by decide), y_at2]

/-- The embedding of the arguments. -/
def H0 : Mat 50000 32 :=
  embed varSq epsC cntC zeroC (arg m c main_arg0) (arg m c main_arg2) (rowOfVec (arg m c main_arg3))
    (rowOfVec (arg m c main_arg4)) (rowOfVec (arg m c main_arg5))

theorem h_at4 : W4 m ρ c (Proc.devRef .tc main_v14) = H0 m c := by
  rw [show W4 m ρ c (Proc.devRef .tc main_v14) = _ from W4_arr m ρ c 5, Launch1.final]
  show nrm _ (W3 m ρ c (Proc.devRef .tc main_v5_0)) (W3 m ρ c (Proc.devRef .tc main_v7)) (W3 m ρ c (Proc.devRef .tc main_v11))
    (W3 m ρ c (Proc.devRef .tc main_v12)) (W3 m ρ c (Proc.devRef .tc main_v13)) = _
  rw [y_at3, mean_at3, var_at3, g_at3, beta_at3]
  rfl

end Cert.KernelIdeal.Stages

end
-- ==== Proof.Launch2.lean ====
/-
  Launch 2: a graph convolution's dense step with its running column statistics, read as functions of the
  arrays the launch is entered with.

  Point `t` of the grid works on rows `5000 t … 5000 t + 4999`: it computes the dense step
  `(a · wrel + brel) + h · wroot` of those rows and writes them back, resets two carried rows to zero at the first
  point, and adds the block's column sums, and the column sums of its squares, onto them; the carried rows are
  written back once, after the last point. The ten blocks tile the 50000 rows, so the dense step's array ends as
  the dense step of the whole arrays, and the two rows as its column sums and column sums of squares.
-/
import proofs.«160678_j77988016161089_1_alg».proof.Proof.Gen.KernelIdeal.Frame
import proofs.«160678_j77988016161089_1_alg».proof.Proof.LibGnnVector
import proofs.«160678_j77988016161089_1_alg».proof.Proof.Accum
set_option maxRecDepth 16384
noncomputable section
namespace Cert.KernelIdeal.Launch2
open Cert.KernelIdeal Cert.KernelIdeal.Gen
open Idealize.ShloMosaic Idealize.ShloMosaic.TcCoe Idealize.ShloMosaic.Tactic Idealize.ShloMosaic.ValueIdx Idealize.SL.Sem
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat Cfg Window)
open Cert.Gnn
open Cert.MatProduct (rowOf colOf)
variable {F : FTy → Type} [FloatOps F]
theorem hz : (![0, 0] : Fin 2 → Nat) = fun _ => 0 := funext fun a => by fin_cases a <;> rfl

/-! ## What each case of the body leaves in the three outputs' buffers -/

theorem piece_A_5 (c : Dev nD) (i : grid2.Coords) (arg1 : Memref sig .tc .vmem S5000x32 .f32) (harg1 : arg1.IsWhole) (arg2 : Memref sig .tc .vmem S32x64 .f32) (harg2 : arg2.IsWhole) (arg3 : Memref sig .tc .vmem S1x64 .f32) (harg3 : arg3.IsWhole) (arg4 : Memref sig .tc .vmem S5000x32 .f32) (harg4 : arg4.IsWhole) (arg5 : Memref sig .tc .vmem S32x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (hc0 : cond2_0 i)
    (x0 : Vec F S5000x32 .f32) (x1 : Vec F S32x64 .f32) (x2 : Vec F S1x64 .f32) (x3 : Vec F S5000x32 .f32) (x4 : Vec F S32x64 .f32) :
    out2_A_5 c i arg1 harg1 arg2 harg2 arg3 harg3 arg4 harg4 arg5 harg5 arg6 harg6 arg7 harg7 arg8 harg8 hc0 x0 x1 x2 x3 x4 = k2_pay2 x0 x1 x3 x4 x2 := by
  unfold out2_A_5
  rw [View.read_writes_eq_canon _ _ _ (cover2_A_5 c i arg1 harg1 arg2 harg2 arg3 harg3 arg4 harg4 arg5 harg5 arg6 harg6 arg7 harg7 arg8 harg8 hc0 x0 x1 x2 x3 x4)]
  unfold kernelRun2_A
  dsimp only
  sl_unfold_words
  rw [View.canon_unit_zero hz]
  simp only [View.readAt_eq_ld, harg1.read_unread, harg2.read_unread, harg3.read_unread, harg4.read_unread, harg5.read_unread, harg7.read_unread, harg8.read_unread,
    View.ld_unit_zero (S := S5000x32) hz, View.ld_unit_zero (S := S32x64) hz, View.ld_unit_zero (S := S1x64) hz, View.readCov_unit_zero (S := S1x64) _ hz]
  try rfl

theorem piece_B_5 (c : Dev nD) (i : grid2.Coords) (arg1 : Memref sig .tc .vmem S5000x32 .f32) (harg1 : arg1.IsWhole) (arg2 : Memref sig .tc .vmem S32x64 .f32) (harg2 : arg2.IsWhole) (arg3 : Memref sig .tc .vmem S1x64 .f32) (harg3 : arg3.IsWhole) (arg4 : Memref sig .tc .vmem S5000x32 .f32) (harg4 : arg4.IsWhole) (arg5 : Memref sig .tc .vmem S32x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (hc0 : ¬cond2_0 i)
    (x0 : Vec F S5000x32 .f32) (x1 : Vec F S32x64 .f32) (x2 : Vec F S1x64 .f32) (x3 : Vec F S5000x32 .f32) (x4 : Vec F S32x64 .f32) (xo6 : Vec F S1x64 .f32) (xo7 : Vec F S1x64 .f32) :
    out2_B_5 c i arg1 harg1 arg2 harg2 arg3 harg3 arg4 harg4 arg5 harg5 arg6 harg6 arg7 harg7 arg8 harg8 hc0 x0 x1 x2 x3 x4 xo6 xo7 = k2_pay2 x0 x1 x3 x4 x2 := by
  unfold out2_B_5
  rw [View.read_writes_eq_canon _ _ _ (cover2_B_5 c i arg1 harg1 arg2 harg2 arg3 harg3 arg4 harg4 arg5 harg5 arg6 harg6 arg7 harg7 arg8 harg8 hc0 x0 x1 x2 x3 x4 xo6 xo7)]
  unfold kernelRun2_B
  dsimp only
  sl_unfold_words
  rw [View.canon_unit_zero hz]
  simp only [View.readAt_eq_ld, harg1.read_unread, harg2.read_unread, harg3.read_unread, harg4.read_unread, harg5.read_unread, harg7.read_unread, harg8.read_unread,
    View.ld_unit_zero (S := S5000x32) hz, View.ld_unit_zero (S := S32x64) hz, View.ld_unit_zero (S := S1x64) hz, View.readCov_unit_zero (S := S1x64) _ hz]
  try rfl

theorem piece_B_6 (c : Dev nD) (i : grid2.Coords) (arg1 : Memref sig .tc .vmem S5000x32 .f32) (harg1 : arg1.IsWhole) (arg2 : Memref sig .tc .vmem S32x64 .f32) (harg2 : arg2.IsWhole) (arg3 : Memref sig .tc .vmem S1x64 .f32) (harg3 : arg3.IsWhole) (arg4 : Memref sig .tc .vmem S5000x32 .f32) (harg4 : arg4.IsWhole) (arg5 : Memref sig .tc .vmem S32x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (hc0 : ¬cond2_0 i)
    (x0 : Vec F S5000x32 .f32) (x1 : Vec F S32x64 .f32) (x2 : Vec F S1x64 .f32) (x3 : Vec F S5000x32 .f32) (x4 : Vec F S32x64 .f32) (xo6 : Vec F S1x64 .f32) (xo7 : Vec F S1x64 .f32) :
    out2_B_6 c i arg1 harg1 arg2 harg2 arg3 harg3 arg4 harg4 arg5 harg5 arg6 harg6 arg7 harg7 arg8 harg8 hc0 x0 x1 x2 x3 x4 xo6 xo7 = k2_pay5 x0 x1 x3 x4 x2 xo6 := by
  unfold out2_B_6
  rw [View.read_writes_eq_canon _ _ _ (cover2_B_6 c i arg1 harg1 arg2 harg2 arg3 harg3 arg4 harg4 arg5 harg5 arg6 harg6 arg7 harg7 arg8 harg8 hc0 x0 x1 x2 x3 x4 xo6 xo7)]
  unfold kernelRun2_B
  dsimp only
  sl_unfold_words
  rw [View.canon_unit_zero hz]
  simp only [View.readAt_eq_ld, harg1.read_unread, harg2.read_unread, harg3.read_unread, harg4.read_unread, harg5.read_unread, harg7.read_unread, harg8.read_unread,
    View.ld_unit_zero (S := S5000x32) hz, View.ld_unit_zero (S := S32x64) hz, View.ld_unit_zero (S := S1x64) hz, View.readCov_unit_zero (S := S1x64) _ hz]
  try rfl

theorem piece_B_7 (c : Dev nD) (i : grid2.Coords) (arg1 : Memref sig .tc .vmem S5000x32 .f32) (harg1 : arg1.IsWhole) (arg2 : Memref sig .tc .vmem S32x64 .f32) (harg2 : arg2.IsWhole) (arg3 : Memref sig .tc .vmem S1x64 .f32) (harg3 : arg3.IsWhole) (arg4 : Memref sig .tc .vmem S5000x32 .f32) (harg4 : arg4.IsWhole) (arg5 : Memref sig .tc .vmem S32x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (hc0 : ¬cond2_0 i)
    (x0 : Vec F S5000x32 .f32) (x1 : Vec F S32x64 .f32) (x2 : Vec F S1x64 .f32) (x3 : Vec F S5000x32 .f32) (x4 : Vec F S32x64 .f32) (xo6 : Vec F S1x64 .f32) (xo7 : Vec F S1x64 .f32) :
    out2_B_7 c i arg1 harg1 arg2 harg2 arg3 harg3 arg4 harg4 arg5 harg5 arg6 harg6 arg7 harg7 arg8 harg8 hc0 x0 x1 x2 x3 x4 xo6 xo7 = k2_pay1 (k2_pay6 xo7) (k2_pay7 x0 x1 x3 x4 x2) := by
  unfold out2_B_7
  rw [View.read_writes_eq_canon _ _ _ (cover2_B_7 c i arg1 harg1 arg2 harg2 arg3 harg3 arg4 harg4 arg5 harg5 arg6 harg6 arg7 harg7 arg8 harg8 hc0 x0 x1 x2 x3 x4 xo6 xo7)]
  unfold kernelRun2_B
  dsimp only
  sl_unfold_words
  rw [View.canon_unit_zero hz]
  simp only [View.readAt_eq_ld, harg1.read_unread, harg2.read_unread, harg3.read_unread, harg4.read_unread, harg5.read_unread, harg7.read_unread, harg8.read_unread,
    View.ld_unit_zero (S := S5000x32) hz, View.ld_unit_zero (S := S32x64) hz, View.ld_unit_zero (S := S1x64) hz, View.readCov_unit_zero (S := S1x64) _ hz]
  try rfl

theorem piece_A_6 (c : Dev nD) (i : grid2.Coords) (arg1 : Memref sig .tc .vmem S5000x32 .f32) (harg1 : arg1.IsWhole) (arg2 : Memref sig .tc .vmem S32x64 .f32) (harg2 : arg2.IsWhole) (arg3 : Memref sig .tc .vmem S1x64 .f32) (harg3 : arg3.IsWhole) (arg4 : Memref sig .tc .vmem S5000x32 .f32) (harg4 : arg4.IsWhole) (arg5 : Memref sig .tc .vmem S32x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (hc0 : cond2_0 i)
    (x0 : Vec F S5000x32 .f32) (x1 : Vec F S32x64 .f32) (x2 : Vec F S1x64 .f32) (x3 : Vec F S5000x32 .f32) (x4 : Vec F S32x64 .f32) :
    out2_A_6 c i arg1 harg1 arg2 harg2 arg3 harg3 arg4 harg4 arg5 harg5 arg6 harg6 arg7 harg7 arg8 harg8 hc0 x0 x1 x2 x3 x4 = k2_pay5 x0 x1 x3 x4 x2 (k2_pay3 (F := F)) := by
  unfold out2_A_6
  rw [View.read_writes_eq_canon _ _ _ (cover2_A_6 c i arg1 harg1 arg2 harg2 arg3 harg3 arg4 harg4 arg5 harg5 arg6 harg6 arg7 harg7 arg8 harg8 hc0 x0 x1 x2 x3 x4)]
  unfold kernelRun2_A
  dsimp only
  sl_unfold_words
  rw [View.canon_cons_unit_zero hz]
  simp only [View.readAt_eq_ld, harg1.read_unread, harg2.read_unread, harg3.read_unread, harg4.read_unread, harg5.read_unread, harg7.read_unread, harg8.read_unread,
    View.ld_unit_zero (S := S5000x32) hz, View.ld_unit_zero (S := S32x64) hz, View.ld_unit_zero (S := S1x64) hz, View.readCov_unit_zero (S := S1x64) _ hz]
  try rfl

theorem piece_A_7 (c : Dev nD) (i : grid2.Coords) (arg1 : Memref sig .tc .vmem S5000x32 .f32) (harg1 : arg1.IsWhole) (arg2 : Memref sig .tc .vmem S32x64 .f32) (harg2 : arg2.IsWhole) (arg3 : Memref sig .tc .vmem S1x64 .f32) (harg3 : arg3.IsWhole) (arg4 : Memref sig .tc .vmem S5000x32 .f32) (harg4 : arg4.IsWhole) (arg5 : Memref sig .tc .vmem S32x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (hc0 : cond2_0 i)
    (x0 : Vec F S5000x32 .f32) (x1 : Vec F S32x64 .f32) (x2 : Vec F S1x64 .f32) (x3 : Vec F S5000x32 .f32) (x4 : Vec F S32x64 .f32) :
    out2_A_7 c i arg1 harg1 arg2 harg2 arg3 harg3 arg4 harg4 arg5 harg5 arg6 harg6 arg7 harg7 arg8 harg8 hc0 x0 x1 x2 x3 x4 = k2_pay1 (k2_pay6 (k2_pay4 (F := F))) (k2_pay7 x0 x1 x3 x4 x2) := by
  unfold out2_A_7
  rw [View.read_writes_eq_canon _ _ _ (cover2_A_7 c i arg1 harg1 arg2 harg2 arg3 harg3 arg4 harg4 arg5 harg5 arg6 harg6 arg7 harg7 arg8 harg8 hc0 x0 x1 x2 x3 x4)]
  unfold kernelRun2_A
  dsimp only
  sl_unfold_words
  rw [View.canon_cons_unit_zero hz]
  simp only [View.readAt_eq_ld, harg1.read_unread, harg2.read_unread, harg3.read_unread, harg4.read_unread, harg5.read_unread, harg7.read_unread, harg8.read_unread,
    View.ld_unit_zero (S := S5000x32) hz, View.ld_unit_zero (S := S32x64) hz, View.ld_unit_zero (S := S1x64) hz, View.readCov_unit_zero (S := S1x64) _ hz]
  try rfl

/-! ## The payloads on the extended reals -/

section AtIdeal
variable (V : (c : Dev nD) → (b : Ref sig .tc) → Buf (Elt Ideal) ((c : Thread nD τ).loc b))

/-- The zero the accumulators are reset to. -/
abbrev zero : Ideal .f32 := Scalar.ofBits .f32 0x00000000#32
/-- The row of zeros. -/
abbrev zrow : Mat 1 64 := broadcast S1x64 zero

theorem pay2_eq (x0 x3 : Vec Ideal S5000x32 .f32) (x1 x4 : Vec Ideal S32x64 .f32) (x2 : Vec Ideal S1x64 .f32) :
    k2_pay2 (F := Ideal) x0 x1 x3 x4 x2 = conv x0 x1 x2 x3 x4 :=
  vec_conv x0 x3 x1 x4 x2 _ _ _ _ _ _

theorem pay5_eq (x0 x3 : Vec Ideal S5000x32 .f32) (x1 x4 : Vec Ideal S32x64 .f32) (x2 acc : Vec Ideal S1x64 .f32) :
    k2_pay5 (F := Ideal) x0 x1 x3 x4 x2 acc = fun i => acc i + colSums (conv x0 x1 x2 x3 x4) i := by
  unfold k2_pay5
  rw [pay2_eq]
  exact vec_colSum acc _ _ _ _ _ _

theorem pay7_eq (x0 x3 : Vec Ideal S5000x32 .f32) (x1 x4 : Vec Ideal S32x64 .f32) (x2 acc : Vec Ideal S1x64 .f32) :
    k2_pay1 (F := Ideal) (k2_pay6 acc) (k2_pay7 x0 x1 x3 x4 x2) = fun i => acc i + colSqSums (conv x0 x1 x2 x3 x4) i := by
  unfold k2_pay1 k2_pay6 k2_pay7
  rw [pay2_eq]
  exact vec_colSum acc (mulf (conv x0 x1 x2 x3 x4) (conv x0 x1 x2 x3 x4)) _ _ _ _ _

/-! ## The carried outputs after each point -/

theorem hN : cfg2.N = 10 := rfl

/-- Point `n`'s block of the dense step (zero past the grid). -/
def Yb (c : Dev nD) (n : ℕ) : Mat 5000 64 :=
  if h : n < cfg2.N then conv (iblk2 V c 0 ⟨n, h⟩) (iblk2 V c 1 ⟨n, h⟩) (iblk2 V c 2 ⟨n, h⟩) (iblk2 V c 3 ⟨n, h⟩) (iblk2 V c 4 ⟨n, h⟩) else fun _ => 0

theorem Yb_of_lt (c : Dev nD) (t : Fin cfg2.N) : Yb V c t.val = conv (iblk2 V c 0 t) (iblk2 V c 1 t) (iblk2 V c 2 t) (iblk2 V c 3 t) (iblk2 V c 4 t) := dif_pos t.isLt

/-- After point `n` the three outputs' buffers hold point `n`'s block of the dense step, and the rows of zeros plus
    the column sums (of the entries, of their squares) of the blocks of points `0 … n`. -/
theorem outs_inv (c : Dev nD) : ∀ (n : ℕ) (hn : n < cfg2.N),
    outsAt2 V c n hn = (Yb V c n, runRow zrow (fun u => colSums (Yb V c u)) n, runRow zrow (fun u => colSqSums (Yb V c u)) n)
  | 0, hn => by
    rw [show outsAt2 V c 0 hn = outsAt2 V c (⟨0, hn⟩ : Fin cfg2.N).val (⟨0, hn⟩ : Fin cfg2.N).isLt from rfl,
      outsAt2_A V c ⟨0, hn⟩ rfl, piece_A_5, piece_A_6, piece_A_7, pay2_eq, pay5_eq, pay7_eq, ← Yb_of_lt V c ⟨0, hn⟩]
    rfl
  | n + 1, hn => by
    have h0 : ¬ (n + 1) % 10 = 0 := by have := hN; omega
    have ih := outs_inv c n (Nat.lt_of_succ_lt hn)
    rw [show outsAt2 V c (n + 1) hn = outsAt2 V c (⟨n + 1, hn⟩ : Fin cfg2.N).val (⟨n + 1, hn⟩ : Fin cfg2.N).isLt from rfl,
      outsAt2_B V c ⟨n + 1, hn⟩ h0, piece_B_5, piece_B_6, piece_B_7, pay2_eq, pay5_eq, pay7_eq, ← Yb_of_lt V c ⟨n + 1, hn⟩]
    show (_, (fun i => (outsAt2 V c n _).2.1 i + _), (fun i => (outsAt2 V c n _).2.2 i + _)) = _
    rw [ih]
    rfl
end AtIdeal

/-! ## The three outputs after the launch -/

section Finals
variable (V : (c : Dev nD) → (b : Ref sig .tc) → Buf (Elt Ideal) ((c : Thread nD τ).loc b))

/-- The printed index maps over the grid: the row-blocked windows (aggregated features, node features, dense
    step) are at block row `t`; every other window's block never moves. -/
theorem idx_facts : ∀ t : Fin cfg2.N,
    win2_0.index t (0 : Fin 2) = t.val ∧ win2_0.index t (1 : Fin 2) = 0
    ∧ win2_3.index t (0 : Fin 2) = t.val ∧ win2_3.index t (1 : Fin 2) = 0
    ∧ win2_5.index t (0 : Fin 2) = t.val ∧ win2_5.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_4.index t (0 : Fin 2) = 0 ∧ win2_4.index t (1 : Fin 2) = 0
    ∧ win2_6.index t (0 : Fin 2) = 0 ∧ win2_6.index t (1 : Fin 2) = 0
    ∧ win2_7.index t (0 : Fin 2) = 0 ∧ win2_7.index t (1 : Fin 2) = 0 :=
  (by decide +kernel : ∀ t : Fin grid2.N, _)

/-- The dense step of the whole arrays the launch is entered with. -/
abbrev Yw (c : Dev nD) : Mat 50000 64 := conv (V c main_v24) (V c main_arg6) (V c main_v25) (V c main_v14) (V c main_arg8)

/-- Point `t`'s block of the dense step is rows `5000 t …` of the whole dense step. -/
theorem Yb_rows (c : Dev nD) (t : Fin cfg2.N) (j : S5000x64.Idx) :
    (conv (iblk2 V c 0 t) (iblk2 V c 1 t) (iblk2 V c 2 t) (iblk2 V c 3 t) (iblk2 V c 4 t)) j = Yw V c (((cfg2.win 5).blk t).view.emb j) := by
  obtain ⟨e00, e01, e30, e31, e50, e51, e10, e11, e20, e21, e40, e41, -⟩ := idx_facts t
  have hj0 : (j 0).val < 5000 := (j 0).isLt
  have hj1 : (j 1).val < 64 := (j 1).isLt
  refine conv_entry_congr j (((cfg2.win 5).blk t).view.emb j) (fun p => ?_) (fun p => ?_) (fun p => ?_) (fun p => ?_) ?_
  · show V c main_v24 (((cfg2.win 0).blk t).view.emb (ix2 (rowOf j) p)) = V c main_v24 (ix2 (rowOf (((cfg2.win 5).blk t).view.emb j)) p)
    have hp : p.val < 32 := p.isLt
    refine congrArg _ (funext fun a => Fin.ext ?_)
    match a with
    | ⟨0, _⟩ => show win2_0.index t (0 : Fin 2) * 5000 + 1 * (j 0).val = win2_5.index t (0 : Fin 2) * 5000 + 1 * (j 0).val; omega
    | ⟨1, _⟩ => show win2_0.index t (1 : Fin 2) * 32 + 1 * p.val = p.val; omega
  · show V c main_v14 (((cfg2.win 3).blk t).view.emb (ix2 (rowOf j) p)) = V c main_v14 (ix2 (rowOf (((cfg2.win 5).blk t).view.emb j)) p)
    have hp : p.val < 32 := p.isLt
    refine congrArg _ (funext fun a => Fin.ext ?_)
    match a with
    | ⟨0, _⟩ => show win2_3.index t (0 : Fin 2) * 5000 + 1 * (j 0).val = win2_5.index t (0 : Fin 2) * 5000 + 1 * (j 0).val; omega
    | ⟨1, _⟩ => show win2_3.index t (1 : Fin 2) * 32 + 1 * p.val = p.val; omega
  · show V c main_arg6 (((cfg2.win 1).blk t).view.emb (ix2 p (colOf j))) = V c main_arg6 (ix2 p (colOf (((cfg2.win 5).blk t).view.emb j)))
    have hp : p.val < 32 := p.isLt
    refine congrArg _ (funext fun a => Fin.ext ?_)
    match a with
    | ⟨0, _⟩ => show win2_1.index t (0 : Fin 2) * 32 + 1 * p.val = p.val; omega
    | ⟨1, _⟩ => show win2_1.index t (1 : Fin 2) * 64 + 1 * (j 1).val = win2_5.index t (1 : Fin 2) * 64 + 1 * (j 1).val; omega
  · show V c main_arg8 (((cfg2.win 4).blk t).view.emb (ix2 p (colOf j))) = V c main_arg8 (ix2 p (colOf (((cfg2.win 5).blk t).view.emb j)))
    have hp : p.val < 32 := p.isLt
    refine congrArg _ (funext fun a => Fin.ext ?_)
    match a with
    | ⟨0, _⟩ => show win2_4.index t (0 : Fin 2) * 32 + 1 * p.val = p.val; omega
    | ⟨1, _⟩ => show win2_4.index t (1 : Fin 2) * 64 + 1 * (j 1).val = win2_5.index t (1 : Fin 2) * 64 + 1 * (j 1).val; omega
  · show V c main_v25 (((cfg2.win 2).blk t).view.emb (ix2 0 (colOf j))) = V c main_v25 (ix2 0 (colOf (((cfg2.win 5).blk t).view.emb j)))
    refine congrArg _ (funext fun a => Fin.ext ?_)
    match a with
    | ⟨0, _⟩ => show win2_2.index t (0 : Fin 2) * 1 + 1 * 0 = 0; omega
    | ⟨1, _⟩ => show win2_2.index t (1 : Fin 2) * 64 + 1 * (j 1).val = win2_5.index t (1 : Fin 2) * 64 + 1 * (j 1).val; omega

/-- The same, with the block's rows numbered inside the whole. -/
theorem Yb_block (c : Dev nD) (u : Fin 10) (r : Fin 5000) (p : Fin 64) :
    Yb V c u.val (ix2 r p) = Yw V c (ix2 ⟨5000 * u.val + r.val, by have := u.isLt; have := r.isLt; omega⟩ p) := by
  have hu : u.val < cfg2.N := by rw [hN]; exact u.isLt
  obtain ⟨-, -, -, -, e50, e51, -⟩ := idx_facts ⟨u.val, hu⟩
  rw [Yb_of_lt V c ⟨u.val, hu⟩, Yb_rows V c ⟨u.val, hu⟩ (ix2 r p)]
  have hr : r.val < 5000 := r.isLt
  have hp : p.val < 64 := p.isLt
  refine congrArg _ (funext fun a => Fin.ext ?_)
  match a with
  | ⟨0, _⟩ => show win2_5.index ⟨u.val, hu⟩ (0 : Fin 2) * 5000 + 1 * r.val = 5000 * u.val + r.val; rw [e50]; show u.val * 5000 + 1 * r.val = 5000 * u.val + r.val; omega
  | ⟨1, _⟩ => show win2_5.index ⟨u.val, hu⟩ (1 : Fin 2) * 64 + 1 * p.val = p.val; omega

/-- What point `t` writes back through window 5 is block `t` of the whole dense step. -/
theorem flushed5_eq (c : Dev nD) (t : Fin cfg2.N) :
    (dat2 V c).flushed 5 t = ((cfg2.win 5).blk t).view.read (Elt Ideal) (Yw V c) := by
  show (cfg2.win 5).cut (grid2.coords t) ((dat2 V c).after 5 t) = _
  rw [after2_5, outs_inv V c t.val t.isLt, Yb_of_lt]
  funext j
  exact Yb_rows V c t j

theorem mem_blk5 (t : Fin cfg2.N) (i : S50000x64.Idx) :
    i ∈ ((cfg2.win 5).blk t).view.set ↔ ∀ a : Fin 2, win2_5.index t a * S5000x64.size a ≤ (i a).val ∧ (i a).val < win2_5.index t a * S5000x64.size a + S5000x64.size a := by
  show i ∈ ((View.whole main_v26_0).slice (win2_5.rect t)).set ↔ _
  rw [View.set_slice_whole, Rect.mem_set_unit]
  exact Iff.rfl

/-- Every index of the dense step's array is in the block of the point numbered by its row divided by 5000. -/
theorem cover5 (i : S50000x64.Idx) : ∃ t : Fin cfg2.N, (cfg2.win 5).flush t = true ∧ i ∈ ((cfg2.win 5).blk t).view.set := by
  have hi0 : (i 0).val < 50000 := (i 0).isLt
  have hi1 : (i 1).val < 64 := (i 1).isLt
  have hlt : (i 0).val / 5000 < 10 := by omega
  obtain ⟨-, -, -, -, e50, e51, -⟩ := idx_facts (⟨(i 0).val / 5000, hlt⟩ : Fin cfg2.N)
  refine ⟨⟨(i 0).val / 5000, hlt⟩, flush2_5 _, ?_⟩
  rw [mem_blk5]
  intro a
  match a with
  | ⟨0, _⟩ =>
    show win2_5.index ⟨(i 0).val / 5000, hlt⟩ (0 : Fin 2) * 5000 ≤ (i 0).val ∧ (i 0).val < win2_5.index ⟨(i 0).val / 5000, hlt⟩ (0 : Fin 2) * 5000 + 5000
    rw [e50]; show (i 0).val / 5000 * 5000 ≤ (i 0).val ∧ (i 0).val < (i 0).val / 5000 * 5000 + 5000; omega
  | ⟨1, _⟩ =>
    show win2_5.index ⟨(i 0).val / 5000, hlt⟩ (1 : Fin 2) * 64 ≤ (i 1).val ∧ (i 1).val < win2_5.index ⟨(i 0).val / 5000, hlt⟩ (1 : Fin 2) * 64 + 64
    rw [e51]; omega

/-- After the launch the first output is the whole dense step. -/
theorem final5 (c : Dev nD) : (dat2 V c).arrAt 5 cfg2.N = Yw V c :=
  (dat2 V c).arrAt_eq_of_cover 5 _ (fun t _ => flushed5_eq V c t) cover5

/-- What the last point writes back through window 6 is the carried row after it. -/
theorem flushed6_eq (c : Dev nD) (t : Fin cfg2.N) (hf : (cfg2.win 6).flush t = true) :
    (dat2 V c).flushed 6 t = ((cfg2.win 6).blk t).view.read (Elt Ideal)
      (runRow zrow (fun u => colSums (Yb V c u)) 9) := by
  have h9 : t.val = 9 := by have := (flush2_6 t).mp hf; have := t.isLt; have := hN; omega
  obtain ⟨-, -, -, -, -, -, -, -, -, -, -, -, e60, e61, e70, e71⟩ := idx_facts t
  show (cfg2.win 6).cut (grid2.coords t) ((dat2 V c).after 6 t) = _
  rw [after2_6, outs_inv V c t.val t.isLt]
  funext j
  have hj0 : (j 0).val < 1 := (j 0).isLt
  have hj1 : (j 1).val < 64 := (j 1).isLt
  show runRow zrow (fun u => colSums (Yb V c u)) t.val j = runRow zrow (fun u => colSums (Yb V c u)) 9 (((cfg2.win 6).blk t).view.emb j)
  rw [h9]
  refine congrArg _ (funext fun a => Fin.ext ?_)
  match a with
  | ⟨0, _⟩ => show (j 0).val = win2_6.index t (0 : Fin 2) * 1 + 1 * (j 0).val; omega
  | ⟨1, _⟩ => show (j 1).val = win2_6.index t (1 : Fin 2) * 64 + 1 * (j 1).val; omega

theorem mem_blk6 (t : Fin cfg2.N) (i : S1x64.Idx) :
    i ∈ ((cfg2.win 6).blk t).view.set ↔ ∀ a : Fin 2, win2_6.index t a * S1x64.size a ≤ (i a).val ∧ (i a).val < win2_6.index t a * S1x64.size a + S1x64.size a := by
  show i ∈ ((View.whole main_v26_1).slice (win2_6.rect t)).set ↔ _
  rw [View.set_slice_whole, Rect.mem_set_unit]
  exact Iff.rfl

/-- The last point's block is the whole row. -/
theorem cover6 (i : S1x64.Idx) : ∃ t : Fin cfg2.N, (cfg2.win 6).flush t = true ∧ i ∈ ((cfg2.win 6).blk t).view.set := by
  have hi0 : (i 0).val < 1 := (i 0).isLt
  have hi1 : (i 1).val < 64 := (i 1).isLt
  obtain ⟨-, -, -, -, -, -, -, -, -, -, -, -, e60, e61, e70, e71⟩ := idx_facts (⟨9, by decide⟩ : Fin cfg2.N)
  refine ⟨⟨9, by decide⟩, (flush2_6 _).mpr rfl, ?_⟩
  rw [mem_blk6]
  intro a
  match a with
  | ⟨0, _⟩ =>
    show win2_6.index ⟨9, _⟩ (0 : Fin 2) * 1 ≤ (i 0).val ∧ (i 0).val < win2_6.index ⟨9, _⟩ (0 : Fin 2) * 1 + 1
    omega
  | ⟨1, _⟩ =>
    show win2_6.index ⟨9, _⟩ (1 : Fin 2) * 64 ≤ (i 1).val ∧ (i 1).val < win2_6.index ⟨9, _⟩ (1 : Fin 2) * 64 + 64
    omega

/-- After the launch the row holds the whole dense step's column sums. -/
theorem final6 (c : Dev nD) : (dat2 V c).arrAt 6 cfg2.N = colSums (Yw V c) := by
  rw [(dat2 V c).arrAt_eq_of_cover 6 _ (fun t hf => flushed6_eq V c t hf) cover6]
  funext i
  rw [runRow_apply, show zrow i = (0 : EReal) from Ideal.ofBits_zero_f32, zero_add]
  exact colSums_of_blocks (Yw V c) (Yb V c) (fun u r p => Yb_block V c u r p) i

/-- What the last point writes back through window 7 is the carried row after it. -/
theorem flushed7_eq (c : Dev nD) (t : Fin cfg2.N) (hf : (cfg2.win 7).flush t = true) :
    (dat2 V c).flushed 7 t = ((cfg2.win 7).blk t).view.read (Elt Ideal)
      (runRow zrow (fun u => colSqSums (Yb V c u)) 9) := by
  have h9 : t.val = 9 := by have := (flush2_7 t).mp hf; have := t.isLt; have := hN; omega
  obtain ⟨-, -, -, -, -, -, -, -, -, -, -, -, e60, e61, e70, e71⟩ := idx_facts t
  show (cfg2.win 7).cut (grid2.coords t) ((dat2 V c).after 7 t) = _
  rw [after2_7, outs_inv V c t.val t.isLt]
  funext j
  have hj0 : (j 0).val < 1 := (j 0).isLt
  have hj1 : (j 1).val < 64 := (j 1).isLt
  show runRow zrow (fun u => colSqSums (Yb V c u)) t.val j = runRow zrow (fun u => colSqSums (Yb V c u)) 9 (((cfg2.win 7).blk t).view.emb j)
  rw [h9]
  refine congrArg _ (funext fun a => Fin.ext ?_)
  match a with
  | ⟨0, _⟩ => show (j 0).val = win2_7.index t (0 : Fin 2) * 1 + 1 * (j 0).val; omega
  | ⟨1, _⟩ => show (j 1).val = win2_7.index t (1 : Fin 2) * 64 + 1 * (j 1).val; omega

theorem mem_blk7 (t : Fin cfg2.N) (i : S1x64.Idx) :
    i ∈ ((cfg2.win 7).blk t).view.set ↔ ∀ a : Fin 2, win2_7.index t a * S1x64.size a ≤ (i a).val ∧ (i a).val < win2_7.index t a * S1x64.size a + S1x64.size a := by
  show i ∈ ((View.whole main_v26_2).slice (win2_7.rect t)).set ↔ _
  rw [View.set_slice_whole, Rect.mem_set_unit]
  exact Iff.rfl

/-- The last point's block is the whole row. -/
theorem cover7 (i : S1x64.Idx) : ∃ t : Fin cfg2.N, (cfg2.win 7).flush t = true ∧ i ∈ ((cfg2.win 7).blk t).view.set := by
  have hi0 : (i 0).val < 1 := (i 0).isLt
  have hi1 : (i 1).val < 64 := (i 1).isLt
  obtain ⟨-, -, -, -, -, -, -, -, -, -, -, -, e60, e61, e70, e71⟩ := idx_facts (⟨9, by decide⟩ : Fin cfg2.N)
  refine ⟨⟨9, by decide⟩, (flush2_7 _).mpr rfl, ?_⟩
  rw [mem_blk7]
  intro a
  match a with
  | ⟨0, _⟩ =>
    show win2_7.index ⟨9, _⟩ (0 : Fin 2) * 1 ≤ (i 0).val ∧ (i 0).val < win2_7.index ⟨9, _⟩ (0 : Fin 2) * 1 + 1
    omega
  | ⟨1, _⟩ =>
    show win2_7.index ⟨9, _⟩ (1 : Fin 2) * 64 ≤ (i 1).val ∧ (i 1).val < win2_7.index ⟨9, _⟩ (1 : Fin 2) * 64 + 64
    omega

/-- After the launch the row holds the whole dense step's column sums of squares. -/
theorem final7 (c : Dev nD) : (dat2 V c).arrAt 7 cfg2.N = colSqSums (Yw V c) := by
  rw [(dat2 V c).arrAt_eq_of_cover 7 _ (fun t hf => flushed7_eq V c t hf) cover7]
  funext i
  rw [runRow_apply, show zrow i = (0 : EReal) from Ideal.ofBits_zero_f32, zero_add]
  exact colSqSums_of_blocks (Yw V c) (Yb V c) (fun u r p => Yb_block V c u r p) i

end Finals

end Cert.KernelIdeal.Launch2

end
-- ==== Proof.Launch3.lean ====
/-
  Launch 3: the normalising kernel, floored at zero, read as one function of the arrays it is entered with.

  Point `t` of the grid works on rows `5000 t … 5000 t + 4999`: it reads those rows of the activations and the
  four one-row arrays (mean, variance, scale, shift) whole, and writes back the same rows of the result. The
  ten blocks tile the result, so after the launch the result array is the normalised activations, entry by entry.
-/
import proofs.«160678_j77988016161089_1_alg».proof.Proof.Gen.KernelIdeal.Frame
import proofs.«160678_j77988016161089_1_alg».proof.Proof.LibGnnVector

set_option maxRecDepth 16384

noncomputable section

namespace Cert.KernelIdeal.Launch3

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Gnn
open Cert.MatProduct (rowOf colOf)

variable (V : (c : Dev nD) → (b : Ref sig .tc) → Buf (Elt Ideal) ((c : Thread nD τ).loc b))

theorem hz : (![0, 0] : Fin 2 → Nat) = fun _ => 0 := funext fun a => by fin_cases a <;> rfl

/-- The stabilising constant the body adds to the variance. -/
abbrev eps : Ideal .f32 := Scalar.ofBits .f32 0x3727C5AC#32

/-- The floor the body applies. -/
abbrev zero : Ideal .f32 := Scalar.ofBits .f32 0x00000000#32

/-- The body's one store is the normalise step of the blocks it loads. -/
theorem pay_eq (x0 : Vec Ideal S5000x64 .f32) (x1 x2 x3 x4 : Vec Ideal S1x64 .f32) :
    k3_pay1 (F := Ideal) x0 x1 x2 x3 x4 = nrmMax eps x0 x1 x2 x3 x4 zero :=
  vec_nrmMax x0 x1 x2 x3 x4 _ _ _ _ _ _ _ _

/-- The printed index maps over the grid: the activations' and the result's blocks are block row `t`; the
    one-row arrays' block never moves. -/
theorem idx_facts : ∀ t : Fin cfg3.N,
    win3_0.index t (0 : Fin 2) = t.val ∧ win3_0.index t (1 : Fin 2) = 0
    ∧ win3_5.index t (0 : Fin 2) = t.val ∧ win3_5.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0 :=
  (by decide +kernel : ∀ t : Fin grid3.N, _)

/-- What point `t` writes back is block `t` of the normalised activations. -/
theorem flushed_eq (c : Dev nD) (t : Fin cfg3.N) :
    (dat3 V c).flushed 5 t = ((cfg3.win 5).blk t).view.read (Elt Ideal)
      (nrmMax eps (V c main_v26_0) (V c main_v28) (V c main_v32) (V c main_v33) (V c main_v34) zero) := by
  show (cfg3.win 5).cut (grid3.coords t) ((dat3 V c).after 5 t) = _
  rw [after3_5]
  unfold out3_5
  rw [View.canon_unit_zero hz]
  simp only [View.ld_unit_zero (S := S5000x64) hz, View.ld_unit_zero (S := S1x64) hz]
  rw [pay_eq]
  obtain ⟨e00, e01, e50, e51, e10, e11, e20, e21, e30, e31, e40, e41⟩ := idx_facts t
  funext j
  have hj0 : (j 0).val < 5000 := (j 0).isLt
  have hj1 : (j 1).val < 64 := (j 1).isLt
  show nrmMax eps (iblk3 V c 0 t) (iblk3 V c 1 t) (iblk3 V c 2 t) (iblk3 V c 3 t) (iblk3 V c 4 t) zero j
      = (nrmMax eps (V c main_v26_0) (V c main_v28) (V c main_v32) (V c main_v33) (V c main_v34) zero) (((cfg3.win 5).blk t).view.emb j)
  refine nrmMax_entry_congr eps _ j (((cfg3.win 5).blk t).view.emb j) ?_ ?_ ?_ ?_ ?_
  · show V c main_v26_0 (((cfg3.win 0).blk t).view.emb j) = V c main_v26_0 (((cfg3.win 5).blk t).view.emb j)
    refine congrArg _ (funext fun a => Fin.ext ?_)
    match a with
    | ⟨0, _⟩ => show win3_0.index t (0 : Fin 2) * 5000 + 1 * (j 0).val = win3_5.index t (0 : Fin 2) * 5000 + 1 * (j 0).val; omega
    | ⟨1, _⟩ => show win3_0.index t (1 : Fin 2) * 64 + 1 * (j 1).val = win3_5.index t (1 : Fin 2) * 64 + 1 * (j 1).val; omega
  · show V c main_v28 (((cfg3.win 1).blk t).view.emb (ix2 0 (colOf j))) = V c main_v28 (ix2 0 (colOf (((cfg3.win 5).blk t).view.emb j)))
    refine congrArg _ (funext fun a => Fin.ext ?_)
    match a with
    | ⟨0, _⟩ => show win3_1.index t (0 : Fin 2) * 1 + 1 * 0 = 0; omega
    | ⟨1, _⟩ => show win3_1.index t (1 : Fin 2) * 64 + 1 * (j 1).val = win3_5.index t (1 : Fin 2) * 64 + 1 * (j 1).val; omega
  · show V c main_v32 (((cfg3.win 2).blk t).view.emb (ix2 0 (colOf j))) = V c main_v32 (ix2 0 (colOf (((cfg3.win 5).blk t).view.emb j)))
    refine congrArg _ (funext fun a => Fin.ext ?_)
    match a with
    | ⟨0, _⟩ => show win3_2.index t (0 : Fin 2) * 1 + 1 * 0 = 0; omega
    | ⟨1, _⟩ => show win3_2.index t (1 : Fin 2) * 64 + 1 * (j 1).val = win3_5.index t (1 : Fin 2) * 64 + 1 * (j 1).val; omega
  · show V c main_v33 (((cfg3.win 3).blk t).view.emb (ix2 0 (colOf j))) = V c main_v33 (ix2 0 (colOf (((cfg3.win 5).blk t).view.emb j)))
    refine congrArg _ (funext fun a => Fin.ext ?_)
    match a with
    | ⟨0, _⟩ => show win3_3.index t (0 : Fin 2) * 1 + 1 * 0 = 0; omega
    | ⟨1, _⟩ => show win3_3.index t (1 : Fin 2) * 64 + 1 * (j 1).val = win3_5.index t (1 : Fin 2) * 64 + 1 * (j 1).val; omega
  · show V c main_v34 (((cfg3.win 4).blk t).view.emb (ix2 0 (colOf j))) = V c main_v34 (ix2 0 (colOf (((cfg3.win 5).blk t).view.emb j)))
    refine congrArg _ (funext fun a => Fin.ext ?_)
    match a with
    | ⟨0, _⟩ => show win3_4.index t (0 : Fin 2) * 1 + 1 * 0 = 0; omega
    | ⟨1, _⟩ => show win3_4.index t (1 : Fin 2) * 64 + 1 * (j 1).val = win3_5.index t (1 : Fin 2) * 64 + 1 * (j 1).val; omega

/-- An index of the result is in point `t`'s block iff each coordinate is in the block's range on its axis. -/
theorem mem_blk (t : Fin cfg3.N) (i : S50000x64.Idx) :
    i ∈ ((cfg3.win 5).blk t).view.set ↔ ∀ a : Fin 2, win3_5.index t a * S5000x64.size a ≤ (i a).val ∧ (i a).val < win3_5.index t a * S5000x64.size a + S5000x64.size a := by
  show i ∈ ((View.whole main_v35).slice (win3_5.rect t)).set ↔ _
  rw [View.set_slice_whole, Rect.mem_set_unit]
  exact Iff.rfl

/-- Every index of the result is in the block of the point numbered by its row divided by 5000. -/
theorem cover (i : S50000x64.Idx) : ∃ t : Fin cfg3.N, (cfg3.win 5).flush t = true ∧ i ∈ ((cfg3.win 5).blk t).view.set := by
  have hi0 : (i 0).val < 50000 := (i 0).isLt
  have hi1 : (i 1).val < 64 := (i 1).isLt
  have hlt : (i 0).val / 5000 < 10 := by omega
  obtain ⟨e00, e01, e50, e51, -⟩ := idx_facts (⟨(i 0).val / 5000, hlt⟩ : Fin cfg3.N)
  refine ⟨⟨(i 0).val / 5000, hlt⟩, flush3_5 _, ?_⟩
  rw [mem_blk]
  intro a
  match a with
  | ⟨0, _⟩ =>
    show win3_5.index ⟨(i 0).val / 5000, hlt⟩ (0 : Fin 2) * 5000 ≤ (i 0).val ∧ (i 0).val < win3_5.index ⟨(i 0).val / 5000, hlt⟩ (0 : Fin 2) * 5000 + 5000
    rw [e50]; show (i 0).val / 5000 * 5000 ≤ (i 0).val ∧ (i 0).val < (i 0).val / 5000 * 5000 + 5000; omega
  | ⟨1, _⟩ =>
    show win3_5.index ⟨(i 0).val / 5000, hlt⟩ (1 : Fin 2) * 64 ≤ (i 1).val ∧ (i 1).val < win3_5.index ⟨(i 0).val / 5000, hlt⟩ (1 : Fin 2) * 64 + 64
    rw [e51]; omega

/-- After the launch the result array is the normalised activations. -/
theorem final (c : Dev nD) :
    (dat3 V c).arrAt 5 cfg3.N = nrmMax eps (V c main_v26_0) (V c main_v28) (V c main_v32) (V c main_v33) (V c main_v34) zero :=
  (dat3 V c).arrAt_eq_of_cover 5 _ (fun t _ => flushed_eq V c t) cover

end Cert.KernelIdeal.Launch3

end
-- ==== Proof.KStage1.lean ====
/-
  The idealized kernel's program through graph-convolution block 0, boundary by boundary.

  A host stretch aggregates the node features over the edges (gather at the sources, scatter-add at the targets)
  and regards the relation bias as a row; a launch leaves the dense step and its column statistics; a second
  stretch turns them into mean and variance and regards scale and shift as rows; a second launch normalises and
  floors at zero. So the buffer that launch writes holds block 0 applied to the block's input.
-/
import proofs.«160678_j77988016161089_1_alg».proof.Proof.Gen.KernelIdeal.Frame
import Idealize.ShloMosaic.Lib.ValueIdx
import Idealize.ShloMosaic.Lib.StableHlo.Run
import proofs.«160678_j77988016161089_1_alg».proof.Proof.KStage0
import proofs.«160678_j77988016161089_1_alg».proof.Proof.Launch2
import proofs.«160678_j77988016161089_1_alg».proof.Proof.Launch3
set_option maxRecDepth 16384

noncomputable section

namespace Cert.KernelIdeal.Stages

open Cert.KernelIdeal Cert.KernelIdeal.Gen
open Idealize.ShloMosaic Idealize.ShloMosaic.TcCoe Idealize.ShloMosaic.ValueIdx Idealize.SL.Sem Idealize.ShloMosaic.StableHlo

open Cert.Gnn Cert.KernelIdeal.Fold
open Cert.MatProduct (prod)
open Cert.RowBias (addRowMax)

variable (m : (ℓ : Loc nD τ sig) → Buf (Elt Ideal) ℓ) (ρ : Dev nD → PrngReg) (c : Dev nD)

/-- Aggregation over the edges at width 32: gather the source nodes' rows, add them at the target nodes. -/
def agg0 (h : Mat 50000 32) : Mat 50000 32 :=
  Host.scatterAdd (F := Ideal) scatter_S50000x32_S800000x1_S800000x32_1_0_0_1
    (broadcastInDim S50000x32 ![] bcast_S_S50000x32 (constant (F := Ideal) S_ .f32 0#32))
    (broadcastInDim S800000x1 ![0] bcast_S800000_S800000x1_0 (dst m c))
    (Host.gather gather_S50000x32_S800000x1_S800000x32_1_0_n_n_0_1_132 h
      (broadcastInDim S800000x1 ![0] bcast_S800000_S800000x1_0
        (select (cmpi .slt (src m c) (broadcastInDim S800000 ![] bcast_S_S800000 (constantI S_ 32 0#32)))
          (addi (src m c) (broadcastInDim S800000 ![] bcast_S_S800000 (constantI S_ 32 50000#32))) (src m c))))

theorem v1_at4 : W4 m ρ c (Proc.devRef .tc main_v1) = src m c := by
  rw [W4_of_ne m ρ c main_v1 (by decide), keep1 m ρ c main_v1 (by decide), W2_of_ne m ρ c main_v1 (by decide), v1_at1]

theorem v3_at4 : W4 m ρ c (Proc.devRef .tc main_v3) = dst m c := by
  rw [W4_of_ne m ρ c main_v3 (by decide), keep1 m ρ c main_v3 (by decide), W2_of_ne m ρ c main_v3 (by decide), v3_at1]

theorem arg7_at4 : W4 m ρ c (Proc.devRef .tc main_arg7) = arg m c main_arg7 := by
  rw [W4_of_ne m ρ c main_arg7 (by decide), keep1 m ρ c main_arg7 (by decide), W2_of_ne m ρ c main_arg7 (by decide), keep0 m ρ c main_arg7 (by decide)]
theorem arg6_at5 : W5 m ρ c (Proc.devRef .tc main_arg6) = arg m c main_arg6 := by
  rw [keep2 m ρ c main_arg6 (by decide), W4_of_ne m ρ c main_arg6 (by decide), keep1 m ρ c main_arg6 (by decide), W2_of_ne m ρ c main_arg6 (by decide), keep0 m ρ c main_arg6 (by decide)]
theorem arg8_at5 : W5 m ρ c (Proc.devRef .tc main_arg8) = arg m c main_arg8 := by
  rw [keep2 m ρ c main_arg8 (by decide), W4_of_ne m ρ c main_arg8 (by decide), keep1 m ρ c main_arg8 (by decide), W2_of_ne m ρ c main_arg8 (by decide), keep0 m ρ c main_arg8 (by decide)]
theorem arg9_at6 : W6 m ρ c (Proc.devRef .tc main_arg9) = arg m c main_arg9 := by
  rw [W6_of_ne m ρ c main_arg9 (by decide), keep2 m ρ c main_arg9 (by decide), W4_of_ne m ρ c main_arg9 (by decide), keep1 m ρ c main_arg9 (by decide), W2_of_ne m ρ c main_arg9 (by decide), keep0 m ρ c main_arg9 (by decide)]
theorem arg10_at6 : W6 m ρ c (Proc.devRef .tc main_arg10) = arg m c main_arg10 := by
  rw [W6_of_ne m ρ c main_arg10 (by decide), keep2 m ρ c main_arg10 (by decide), W4_of_ne m ρ c main_arg10 (by decide), keep1 m ρ c main_arg10 (by decide), W2_of_ne m ρ c main_arg10 (by decide), keep0 m ρ c main_arg10 (by decide)]

attribute [local irreducible] Host.gather Host.scatterAdd in
theorem agg_at5 : W5 m ρ c (Proc.devRef .tc main_v24) = agg0 m c (H0 m c) := by
  show StableHlo.after hostOps2 (W4 m ρ c) (Proc.devRef .tc main_v24) = _
  after_results_simp
  rw [v1_at4, v3_at4, h_at4]
  rfl

theorem brel_at5 : W5 m ρ c (Proc.devRef .tc main_v25) = rowOfVec (arg m c main_arg7) := by
  show StableHlo.after hostOps2 (W4 m ρ c) (Proc.devRef .tc main_v25) = _
  after_results_simp
  rw [arg7_at4]
  exact reshape_row _ _

theorem hp_at5 : W5 m ρ c (Proc.devRef .tc main_v14) = H0 m c := by
  rw [keep2 m ρ c main_v14 (by decide), h_at4]

/-- Block 0's dense step. -/
def Y1 : Mat 50000 64 :=
  conv (agg0 m c (H0 m c)) (arg m c main_arg6) (rowOfVec (arg m c main_arg7)) (H0 m c) (arg m c main_arg8)

theorem y_at6 : W6 m ρ c (Proc.devRef .tc main_v26_0) = Y1 m c := by
  rw [show W6 m ρ c (Proc.devRef .tc main_v26_0) = _ from W6_arr m ρ c 5, Launch2.final5]
  show conv (W5 m ρ c (Proc.devRef .tc main_v24)) (W5 m ρ c (Proc.devRef .tc main_arg6)) (W5 m ρ c (Proc.devRef .tc main_v25)) (W5 m ρ c (Proc.devRef .tc main_v14)) (W5 m ρ c (Proc.devRef .tc main_arg8)) = _
  rw [agg_at5, arg6_at5, brel_at5, hp_at5, arg8_at5]
  rfl

theorem s_at6 : W6 m ρ c (Proc.devRef .tc main_v26_1) = colSums (Y1 m c) := by
  rw [show W6 m ρ c (Proc.devRef .tc main_v26_1) = _ from W6_arr m ρ c 6, Launch2.final6]
  show colSums (conv (W5 m ρ c (Proc.devRef .tc main_v24)) (W5 m ρ c (Proc.devRef .tc main_arg6)) (W5 m ρ c (Proc.devRef .tc main_v25)) (W5 m ρ c (Proc.devRef .tc main_v14)) (W5 m ρ c (Proc.devRef .tc main_arg8))) = _
  rw [agg_at5, arg6_at5, brel_at5, hp_at5, arg8_at5]
  rfl

theorem q_at6 : W6 m ρ c (Proc.devRef .tc main_v26_2) = colSqSums (Y1 m c) := by
  rw [show W6 m ρ c (Proc.devRef .tc main_v26_2) = _ from W6_arr m ρ c 7, Launch2.final7]
  show colSqSums (conv (W5 m ρ c (Proc.devRef .tc main_v24)) (W5 m ρ c (Proc.devRef .tc main_arg6)) (W5 m ρ c (Proc.devRef .tc main_v25)) (W5 m ρ c (Proc.devRef .tc main_v14)) (W5 m ρ c (Proc.devRef .tc main_arg8))) = _
  rw [agg_at5, arg6_at5, brel_at5, hp_at5, arg8_at5]
  rfl

theorem mean_at7 : W7 m ρ c (Proc.devRef .tc main_v28) = meanRow cntC (Y1 m c) := by
  show StableHlo.after hostOps3 (W6 m ρ c) (Proc.devRef .tc main_v28) = _
  after_results
  rw [s_at6]
  exact row_mean _ _ _

theorem var_at7 : W7 m ρ c (Proc.devRef .tc main_v32) = varSq cntC (Y1 m c) := by
  show StableHlo.after hostOps3 (W6 m ρ c) (Proc.devRef .tc main_v32) = _
  after_results
  rw [s_at6, q_at6]
  exact row_var _ _ _ _ _ rfl

theorem g_at7 : W7 m ρ c (Proc.devRef .tc main_v33) = rowOfVec (arg m c main_arg9) := by
  show StableHlo.after hostOps3 (W6 m ρ c) (Proc.devRef .tc main_v33) = _
  after_results
  rw [arg9_at6]
  exact reshape_row _ _

theorem beta_at7 : W7 m ρ c (Proc.devRef .tc main_v34) = rowOfVec (arg m c main_arg10) := by
  show StableHlo.after hostOps3 (W6 m ρ c) (Proc.devRef .tc main_v34) = _
  after_results
  rw [arg10_at6]
  exact reshape_row _ _

theorem y_at7 : W7 m ρ c (Proc.devRef .tc main_v26_0) = Y1 m c := by
  rw [keep3 m ρ c main_v26_0 (by decide), y_at6]

/-- Block 0 applied to its input. -/
def H1 : Mat 50000 64 :=
  block varSq epsC cntC zeroC (agg0 m c) (H0 m c) (arg m c main_arg6) (rowOfVec (arg m c main_arg7)) (arg m c main_arg8)
    (rowOfVec (arg m c main_arg9)) (rowOfVec (arg m c main_arg10))

theorem h_at8 : W8 m ρ c (Proc.devRef .tc main_v35) = H1 m c := by
  rw [show W8 m ρ c (Proc.devRef .tc main_v35) = _ from W8_arr m ρ c 5, Launch3.final]
  show nrmMax _ (W7 m ρ c (Proc.devRef .tc main_v26_0)) (W7 m ρ c (Proc.devRef .tc main_v28)) (W7 m ρ c (Proc.devRef .tc main_v32))
    (W7 m ρ c (Proc.devRef .tc main_v33)) (W7 m ρ c (Proc.devRef .tc main_v34)) _ = _
  rw [y_at7, mean_at7, var_at7, g_at7, beta_at7]
  rfl

end Cert.KernelIdeal.Stages

end
-- ==== Proof.Launch4.lean ====
/-
  Launch 4: a graph convolution's dense step with its running column statistics, read as functions of the
  arrays the launch is entered with.

  Point `t` of the grid works on rows `5000 t … 5000 t + 4999`: it computes the dense step
  `(a · wrel + brel) + h · wroot` of those rows and writes them back, resets two carried rows to zero at the first
  point, and adds the block's column sums, and the column sums of its squares, onto them; the carried rows are
  written back once, after the last point. The ten blocks tile the 50000 rows, so the dense step's array ends as
  the dense step of the whole arrays, and the two rows as its column sums and column sums of squares.
-/
import proofs.«160678_j77988016161089_1_alg».proof.Proof.Gen.KernelIdeal.Frame
import proofs.«160678_j77988016161089_1_alg».proof.Proof.LibGnnVector
import proofs.«160678_j77988016161089_1_alg».proof.Proof.Accum
set_option maxRecDepth 16384
noncomputable section
namespace Cert.KernelIdeal.Launch4
open Cert.KernelIdeal Cert.KernelIdeal.Gen
open Idealize.ShloMosaic Idealize.ShloMosaic.TcCoe Idealize.ShloMosaic.Tactic Idealize.ShloMosaic.ValueIdx Idealize.SL.Sem
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat Cfg Window)
open Cert.Gnn
open Cert.MatProduct (rowOf colOf)
variable {F : FTy → Type} [FloatOps F]
theorem hz : (![0, 0] : Fin 2 → Nat) = fun _ => 0 := funext fun a => by fin_cases a <;> rfl

/-! ## What each case of the body leaves in the three outputs' buffers -/

theorem piece_A_5 (c : Dev nD) (i : grid4.Coords) (arg1 : Memref sig .tc .vmem S5000x64 .f32) (harg1 : arg1.IsWhole) (arg2 : Memref sig .tc .vmem S64x128 .f32) (harg2 : arg2.IsWhole) (arg3 : Memref sig .tc .vmem S1x128 .f32) (harg3 : arg3.IsWhole) (arg4 : Memref sig .tc .vmem S5000x64 .f32) (harg4 : arg4.IsWhole) (arg5 : Memref sig .tc .vmem S64x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : cond4_0 i)
    (x0 : Vec F S5000x64 .f32) (x1 : Vec F S64x128 .f32) (x2 : Vec F S1x128 .f32) (x3 : Vec F S5000x64 .f32) (x4 : Vec F S64x128 .f32) :
    out4_A_5 c i arg1 harg1 arg2 harg2 arg3 harg3 arg4 harg4 arg5 harg5 arg6 harg6 arg7 harg7 arg8 harg8 hc0 x0 x1 x2 x3 x4 = k4_pay2 x0 x1 x3 x4 x2 := by
  unfold out4_A_5
  rw [View.read_writes_eq_canon _ _ _ (cover4_A_5 c i arg1 harg1 arg2 harg2 arg3 harg3 arg4 harg4 arg5 harg5 arg6 harg6 arg7 harg7 arg8 harg8 hc0 x0 x1 x2 x3 x4)]
  unfold kernelRun4_A
  dsimp only
  sl_unfold_words
  rw [View.canon_unit_zero hz]
  simp only [View.readAt_eq_ld, harg1.read_unread, harg2.read_unread, harg3.read_unread, harg4.read_unread, harg5.read_unread, harg7.read_unread, harg8.read_unread,
    View.ld_unit_zero (S := S5000x64) hz, View.ld_unit_zero (S := S64x128) hz, View.ld_unit_zero (S := S1x128) hz, View.readCov_unit_zero (S := S1x128) _ hz]
  try rfl

theorem piece_B_5 (c : Dev nD) (i : grid4.Coords) (arg1 : Memref sig .tc .vmem S5000x64 .f32) (harg1 : arg1.IsWhole) (arg2 : Memref sig .tc .vmem S64x128 .f32) (harg2 : arg2.IsWhole) (arg3 : Memref sig .tc .vmem S1x128 .f32) (harg3 : arg3.IsWhole) (arg4 : Memref sig .tc .vmem S5000x64 .f32) (harg4 : arg4.IsWhole) (arg5 : Memref sig .tc .vmem S64x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i)
    (x0 : Vec F S5000x64 .f32) (x1 : Vec F S64x128 .f32) (x2 : Vec F S1x128 .f32) (x3 : Vec F S5000x64 .f32) (x4 : Vec F S64x128 .f32) (xo6 : Vec F S1x128 .f32) (xo7 : Vec F S1x128 .f32) :
    out4_B_5 c i arg1 harg1 arg2 harg2 arg3 harg3 arg4 harg4 arg5 harg5 arg6 harg6 arg7 harg7 arg8 harg8 hc0 x0 x1 x2 x3 x4 xo6 xo7 = k4_pay2 x0 x1 x3 x4 x2 := by
  unfold out4_B_5
  rw [View.read_writes_eq_canon _ _ _ (cover4_B_5 c i arg1 harg1 arg2 harg2 arg3 harg3 arg4 harg4 arg5 harg5 arg6 harg6 arg7 harg7 arg8 harg8 hc0 x0 x1 x2 x3 x4 xo6 xo7)]
  unfold kernelRun4_B
  dsimp only
  sl_unfold_words
  rw [View.canon_unit_zero hz]
  simp only [View.readAt_eq_ld, harg1.read_unread, harg2.read_unread, harg3.read_unread, harg4.read_unread, harg5.read_unread, harg7.read_unread, harg8.read_unread,
    View.ld_unit_zero (S := S5000x64) hz, View.ld_unit_zero (S := S64x128) hz, View.ld_unit_zero (S := S1x128) hz, View.readCov_unit_zero (S := S1x128) _ hz]
  try rfl

theorem piece_B_6 (c : Dev nD) (i : grid4.Coords) (arg1 : Memref sig .tc .vmem S5000x64 .f32) (harg1 : arg1.IsWhole) (arg2 : Memref sig .tc .vmem S64x128 .f32) (harg2 : arg2.IsWhole) (arg3 : Memref sig .tc .vmem S1x128 .f32) (harg3 : arg3.IsWhole) (arg4 : Memref sig .tc .vmem S5000x64 .f32) (harg4 : arg4.IsWhole) (arg5 : Memref sig .tc .vmem S64x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i)
    (x0 : Vec F S5000x64 .f32) (x1 : Vec F S64x128 .f32) (x2 : Vec F S1x128 .f32) (x3 : Vec F S5000x64 .f32) (x4 : Vec F S64x128 .f32) (xo6 : Vec F S1x128 .f32) (xo7 : Vec F S1x128 .f32) :
    out4_B_6 c i arg1 harg1 arg2 harg2 arg3 harg3 arg4 harg4 arg5 harg5 arg6 harg6 arg7 harg7 arg8 harg8 hc0 x0 x1 x2 x3 x4 xo6 xo7 = k4_pay5 x0 x1 x3 x4 x2 xo6 := by
  unfold out4_B_6
  rw [View.read_writes_eq_canon _ _ _ (cover4_B_6 c i arg1 harg1 arg2 harg2 arg3 harg3 arg4 harg4 arg5 harg5 arg6 harg6 arg7 harg7 arg8 harg8 hc0 x0 x1 x2 x3 x4 xo6 xo7)]
  unfold kernelRun4_B
  dsimp only
  sl_unfold_words
  rw [View.canon_unit_zero hz]
  simp only [View.readAt_eq_ld, harg1.read_unread, harg2.read_unread, harg3.read_unread, harg4.read_unread, harg5.read_unread, harg7.read_unread, harg8.read_unread,
    View.ld_unit_zero (S := S5000x64) hz, View.ld_unit_zero (S := S64x128) hz, View.ld_unit_zero (S := S1x128) hz, View.readCov_unit_zero (S := S1x128) _ hz]
  try rfl

theorem piece_B_7 (c : Dev nD) (i : grid4.Coords) (arg1 : Memref sig .tc .vmem S5000x64 .f32) (harg1 : arg1.IsWhole) (arg2 : Memref sig .tc .vmem S64x128 .f32) (harg2 : arg2.IsWhole) (arg3 : Memref sig .tc .vmem S1x128 .f32) (harg3 : arg3.IsWhole) (arg4 : Memref sig .tc .vmem S5000x64 .f32) (harg4 : arg4.IsWhole) (arg5 : Memref sig .tc .vmem S64x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i)
    (x0 : Vec F S5000x64 .f32) (x1 : Vec F S64x128 .f32) (x2 : Vec F S1x128 .f32) (x3 : Vec F S5000x64 .f32) (x4 : Vec F S64x128 .f32) (xo6 : Vec F S1x128 .f32) (xo7 : Vec F S1x128 .f32) :
    out4_B_7 c i arg1 harg1 arg2 harg2 arg3 harg3 arg4 harg4 arg5 harg5 arg6 harg6 arg7 harg7 arg8 harg8 hc0 x0 x1 x2 x3 x4 xo6 xo7 = k4_pay1 (k4_pay6 xo7) (k4_pay7 x0 x1 x3 x4 x2) := by
  unfold out4_B_7
  rw [View.read_writes_eq_canon _ _ _ (cover4_B_7 c i arg1 harg1 arg2 harg2 arg3 harg3 arg4 harg4 arg5 harg5 arg6 harg6 arg7 harg7 arg8 harg8 hc0 x0 x1 x2 x3 x4 xo6 xo7)]
  unfold kernelRun4_B
  dsimp only
  sl_unfold_words
  rw [View.canon_unit_zero hz]
  simp only [View.readAt_eq_ld, harg1.read_unread, harg2.read_unread, harg3.read_unread, harg4.read_unread, harg5.read_unread, harg7.read_unread, harg8.read_unread,
    View.ld_unit_zero (S := S5000x64) hz, View.ld_unit_zero (S := S64x128) hz, View.ld_unit_zero (S := S1x128) hz, View.readCov_unit_zero (S := S1x128) _ hz]
  try rfl

theorem piece_A_6 (c : Dev nD) (i : grid4.Coords) (arg1 : Memref sig .tc .vmem S5000x64 .f32) (harg1 : arg1.IsWhole) (arg2 : Memref sig .tc .vmem S64x128 .f32) (harg2 : arg2.IsWhole) (arg3 : Memref sig .tc .vmem S1x128 .f32) (harg3 : arg3.IsWhole) (arg4 : Memref sig .tc .vmem S5000x64 .f32) (harg4 : arg4.IsWhole) (arg5 : Memref sig .tc .vmem S64x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : cond4_0 i)
    (x0 : Vec F S5000x64 .f32) (x1 : Vec F S64x128 .f32) (x2 : Vec F S1x128 .f32) (x3 : Vec F S5000x64 .f32) (x4 : Vec F S64x128 .f32) :
    out4_A_6 c i arg1 harg1 arg2 harg2 arg3 harg3 arg4 harg4 arg5 harg5 arg6 harg6 arg7 harg7 arg8 harg8 hc0 x0 x1 x2 x3 x4 = k4_pay5 x0 x1 x3 x4 x2 (k4_pay3 (F := F)) := by
  unfold out4_A_6
  rw [View.read_writes_eq_canon _ _ _ (cover4_A_6 c i arg1 harg1 arg2 harg2 arg3 harg3 arg4 harg4 arg5 harg5 arg6 harg6 arg7 harg7 arg8 harg8 hc0 x0 x1 x2 x3 x4)]
  unfold kernelRun4_A
  dsimp only
  sl_unfold_words
  rw [View.canon_cons_unit_zero hz]
  simp only [View.readAt_eq_ld, harg1.read_unread, harg2.read_unread, harg3.read_unread, harg4.read_unread, harg5.read_unread, harg7.read_unread, harg8.read_unread,
    View.ld_unit_zero (S := S5000x64) hz, View.ld_unit_zero (S := S64x128) hz, View.ld_unit_zero (S := S1x128) hz, View.readCov_unit_zero (S := S1x128) _ hz]
  try rfl

theorem piece_A_7 (c : Dev nD) (i : grid4.Coords) (arg1 : Memref sig .tc .vmem S5000x64 .f32) (harg1 : arg1.IsWhole) (arg2 : Memref sig .tc .vmem S64x128 .f32) (harg2 : arg2.IsWhole) (arg3 : Memref sig .tc .vmem S1x128 .f32) (harg3 : arg3.IsWhole) (arg4 : Memref sig .tc .vmem S5000x64 .f32) (harg4 : arg4.IsWhole) (arg5 : Memref sig .tc .vmem S64x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : cond4_0 i)
    (x0 : Vec F S5000x64 .f32) (x1 : Vec F S64x128 .f32) (x2 : Vec F S1x128 .f32) (x3 : Vec F S5000x64 .f32) (x4 : Vec F S64x128 .f32) :
    out4_A_7 c i arg1 harg1 arg2 harg2 arg3 harg3 arg4 harg4 arg5 harg5 arg6 harg6 arg7 harg7 arg8 harg8 hc0 x0 x1 x2 x3 x4 = k4_pay1 (k4_pay6 (k4_pay4 (F := F))) (k4_pay7 x0 x1 x3 x4 x2) := by
  unfold out4_A_7
  rw [View.read_writes_eq_canon _ _ _ (cover4_A_7 c i arg1 harg1 arg2 harg2 arg3 harg3 arg4 harg4 arg5 harg5 arg6 harg6 arg7 harg7 arg8 harg8 hc0 x0 x1 x2 x3 x4)]
  unfold kernelRun4_A
  dsimp only
  sl_unfold_words
  rw [View.canon_cons_unit_zero hz]
  simp only [View.readAt_eq_ld, harg1.read_unread, harg2.read_unread, harg3.read_unread, harg4.read_unread, harg5.read_unread, harg7.read_unread, harg8.read_unread,
    View.ld_unit_zero (S := S5000x64) hz, View.ld_unit_zero (S := S64x128) hz, View.ld_unit_zero (S := S1x128) hz, View.readCov_unit_zero (S := S1x128) _ hz]
  try rfl

/-! ## The payloads on the extended reals -/

section AtIdeal
variable (V : (c : Dev nD) → (b : Ref sig .tc) → Buf (Elt Ideal) ((c : Thread nD τ).loc b))

/-- The zero the accumulators are reset to. -/
abbrev zero : Ideal .f32 := Scalar.ofBits .f32 0x00000000#32
/-- The row of zeros. -/
abbrev zrow : Mat 1 128 := broadcast S1x128 zero

theorem pay2_eq (x0 x3 : Vec Ideal S5000x64 .f32) (x1 x4 : Vec Ideal S64x128 .f32) (x2 : Vec Ideal S1x128 .f32) :
    k4_pay2 (F := Ideal) x0 x1 x3 x4 x2 = conv x0 x1 x2 x3 x4 :=
  vec_conv x0 x3 x1 x4 x2 _ _ _ _ _ _

theorem pay5_eq (x0 x3 : Vec Ideal S5000x64 .f32) (x1 x4 : Vec Ideal S64x128 .f32) (x2 acc : Vec Ideal S1x128 .f32) :
    k4_pay5 (F := Ideal) x0 x1 x3 x4 x2 acc = fun i => acc i + colSums (conv x0 x1 x2 x3 x4) i := by
  unfold k4_pay5
  rw [pay2_eq]
  exact vec_colSum acc _ _ _ _ _ _

theorem pay7_eq (x0 x3 : Vec Ideal S5000x64 .f32) (x1 x4 : Vec Ideal S64x128 .f32) (x2 acc : Vec Ideal S1x128 .f32) :
    k4_pay1 (F := Ideal) (k4_pay6 acc) (k4_pay7 x0 x1 x3 x4 x2) = fun i => acc i + colSqSums (conv x0 x1 x2 x3 x4) i := by
  unfold k4_pay1 k4_pay6 k4_pay7
  rw [pay2_eq]
  exact vec_colSum acc (mulf (conv x0 x1 x2 x3 x4) (conv x0 x1 x2 x3 x4)) _ _ _ _ _

/-! ## The carried outputs after each point -/

theorem hN : cfg4.N = 10 := rfl

/-- Point `n`'s block of the dense step (zero past the grid). -/
def Yb (c : Dev nD) (n : ℕ) : Mat 5000 128 :=
  if h : n < cfg4.N then conv (iblk4 V c 0 ⟨n, h⟩) (iblk4 V c 1 ⟨n, h⟩) (iblk4 V c 2 ⟨n, h⟩) (iblk4 V c 3 ⟨n, h⟩) (iblk4 V c 4 ⟨n, h⟩) else fun _ => 0

theorem Yb_of_lt (c : Dev nD) (t : Fin cfg4.N) : Yb V c t.val = conv (iblk4 V c 0 t) (iblk4 V c 1 t) (iblk4 V c 2 t) (iblk4 V c 3 t) (iblk4 V c 4 t) := dif_pos t.isLt

/-- After point `n` the three outputs' buffers hold point `n`'s block of the dense step, and the rows of zeros plus
    the column sums (of the entries, of their squares) of the blocks of points `0 … n`. -/
theorem outs_inv (c : Dev nD) : ∀ (n : ℕ) (hn : n < cfg4.N),
    outsAt4 V c n hn = (Yb V c n, runRow zrow (fun u => colSums (Yb V c u)) n, runRow zrow (fun u => colSqSums (Yb V c u)) n)
  | 0, hn => by
    rw [show outsAt4 V c 0 hn = outsAt4 V c (⟨0, hn⟩ : Fin cfg4.N).val (⟨0, hn⟩ : Fin cfg4.N).isLt from rfl,
      outsAt4_A V c ⟨0, hn⟩ rfl, piece_A_5, piece_A_6, piece_A_7, pay2_eq, pay5_eq, pay7_eq, ← Yb_of_lt V c ⟨0, hn⟩]
    rfl
  | n + 1, hn => by
    have h0 : ¬ (n + 1) % 10 = 0 := by have := hN; omega
    have ih := outs_inv c n (Nat.lt_of_succ_lt hn)
    rw [show outsAt4 V c (n + 1) hn = outsAt4 V c (⟨n + 1, hn⟩ : Fin cfg4.N).val (⟨n + 1, hn⟩ : Fin cfg4.N).isLt from rfl,
      outsAt4_B V c ⟨n + 1, hn⟩ h0, piece_B_5, piece_B_6, piece_B_7, pay2_eq, pay5_eq, pay7_eq, ← Yb_of_lt V c ⟨n + 1, hn⟩]
    show (_, (fun i => (outsAt4 V c n _).2.1 i + _), (fun i => (outsAt4 V c n _).2.2 i + _)) = _
    rw [ih]
    rfl
end AtIdeal

/-! ## The three outputs after the launch -/

section Finals
variable (V : (c : Dev nD) → (b : Ref sig .tc) → Buf (Elt Ideal) ((c : Thread nD τ).loc b))

/-- The printed index maps over the grid: the row-blocked windows (aggregated features, node features, dense
    step) are at block row `t`; every other window's block never moves. -/
theorem idx_facts : ∀ t : Fin cfg4.N,
    win4_0.index t (0 : Fin 2) = t.val ∧ win4_0.index t (1 : Fin 2) = 0
    ∧ win4_3.index t (0 : Fin 2) = t.val ∧ win4_3.index t (1 : Fin 2) = 0
    ∧ win4_5.index t (0 : Fin 2) = t.val ∧ win4_5.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_4.index t (0 : Fin 2) = 0 ∧ win4_4.index t (1 : Fin 2) = 0
    ∧ win4_6.index t (0 : Fin 2) = 0 ∧ win4_6.index t (1 : Fin 2) = 0
    ∧ win4_7.index t (0 : Fin 2) = 0 ∧ win4_7.index t (1 : Fin 2) = 0 :=
  (by decide +kernel : ∀ t : Fin grid4.N, _)

/-- The dense step of the whole arrays the launch is entered with. -/
abbrev Yw (c : Dev nD) : Mat 50000 128 := conv (V c main_v45) (V c main_arg11) (V c main_v46) (V c main_v35) (V c main_arg13)

/-- Point `t`'s block of the dense step is rows `5000 t …` of the whole dense step. -/
theorem Yb_rows (c : Dev nD) (t : Fin cfg4.N) (j : S5000x128.Idx) :
    (conv (iblk4 V c 0 t) (iblk4 V c 1 t) (iblk4 V c 2 t) (iblk4 V c 3 t) (iblk4 V c 4 t)) j = Yw V c (((cfg4.win 5).blk t).view.emb j) := by
  obtain ⟨e00, e01, e30, e31, e50, e51, e10, e11, e20, e21, e40, e41, -⟩ := idx_facts t
  have hj0 : (j 0).val < 5000 := (j 0).isLt
  have hj1 : (j 1).val < 128 := (j 1).isLt
  refine conv_entry_congr j (((cfg4.win 5).blk t).view.emb j) (fun p => ?_) (fun p => ?_) (fun p => ?_) (fun p => ?_) ?_
  · show V c main_v45 (((cfg4.win 0).blk t).view.emb (ix2 (rowOf j) p)) = V c main_v45 (ix2 (rowOf (((cfg4.win 5).blk t).view.emb j)) p)
    have hp : p.val < 64 := p.isLt
    refine congrArg _ (funext fun a => Fin.ext ?_)
    match a with
    | ⟨0, _⟩ => show win4_0.index t (0 : Fin 2) * 5000 + 1 * (j 0).val = win4_5.index t (0 : Fin 2) * 5000 + 1 * (j 0).val; omega
    | ⟨1, _⟩ => show win4_0.index t (1 : Fin 2) * 64 + 1 * p.val = p.val; omega
  · show V c main_v35 (((cfg4.win 3).blk t).view.emb (ix2 (rowOf j) p)) = V c main_v35 (ix2 (rowOf (((cfg4.win 5).blk t).view.emb j)) p)
    have hp : p.val < 64 := p.isLt
    refine congrArg _ (funext fun a => Fin.ext ?_)
    match a with
    | ⟨0, _⟩ => show win4_3.index t (0 : Fin 2) * 5000 + 1 * (j 0).val = win4_5.index t (0 : Fin 2) * 5000 + 1 * (j 0).val; omega
    | ⟨1, _⟩ => show win4_3.index t (1 : Fin 2) * 64 + 1 * p.val = p.val; omega
  · show V c main_arg11 (((cfg4.win 1).blk t).view.emb (ix2 p (colOf j))) = V c main_arg11 (ix2 p (colOf (((cfg4.win 5).blk t).view.emb j)))
    have hp : p.val < 64 := p.isLt
    refine congrArg _ (funext fun a => Fin.ext ?_)
    match a with
    | ⟨0, _⟩ => show win4_1.index t (0 : Fin 2) * 64 + 1 * p.val = p.val; omega
    | ⟨1, _⟩ => show win4_1.index t (1 : Fin 2) * 128 + 1 * (j 1).val = win4_5.index t (1 : Fin 2) * 128 + 1 * (j 1).val; omega
  · show V c main_arg13 (((cfg4.win 4).blk t).view.emb (ix2 p (colOf j))) = V c main_arg13 (ix2 p (colOf (((cfg4.win 5).blk t).view.emb j)))
    have hp : p.val < 64 := p.isLt
    refine congrArg _ (funext fun a => Fin.ext ?_)
    match a with
    | ⟨0, _⟩ => show win4_4.index t (0 : Fin 2) * 64 + 1 * p.val = p.val; omega
    | ⟨1, _⟩ => show win4_4.index t (1 : Fin 2) * 128 + 1 * (j 1).val = win4_5.index t (1 : Fin 2) * 128 + 1 * (j 1).val; omega
  · show V c main_v46 (((cfg4.win 2).blk t).view.emb (ix2 0 (colOf j))) = V c main_v46 (ix2 0 (colOf (((cfg4.win 5).blk t).view.emb j)))
    refine congrArg _ (funext fun a => Fin.ext ?_)
    match a with
    | ⟨0, _⟩ => show win4_2.index t (0 : Fin 2) * 1 + 1 * 0 = 0; omega
    | ⟨1, _⟩ => show win4_2.index t (1 : Fin 2) * 128 + 1 * (j 1).val = win4_5.index t (1 : Fin 2) * 128 + 1 * (j 1).val; omega

/-- The same, with the block's rows numbered inside the whole. -/
theorem Yb_block (c : Dev nD) (u : Fin 10) (r : Fin 5000) (p : Fin 128) :
    Yb V c u.val (ix2 r p) = Yw V c (ix2 ⟨5000 * u.val + r.val, by have := u.isLt; have := r.isLt; omega⟩ p) := by
  have hu : u.val < cfg4.N := by rw [hN]; exact u.isLt
  obtain ⟨-, -, -, -, e50, e51, -⟩ := idx_facts ⟨u.val, hu⟩
  rw [Yb_of_lt V c ⟨u.val, hu⟩, Yb_rows V c ⟨u.val, hu⟩ (ix2 r p)]
  have hr : r.val < 5000 := r.isLt
  have hp : p.val < 128 := p.isLt
  refine congrArg _ (funext fun a => Fin.ext ?_)
  match a with
  | ⟨0, _⟩ => show win4_5.index ⟨u.val, hu⟩ (0 : Fin 2) * 5000 + 1 * r.val = 5000 * u.val + r.val; rw [e50]; show u.val * 5000 + 1 * r.val = 5000 * u.val + r.val; omega
  | ⟨1, _⟩ => show win4_5.index ⟨u.val, hu⟩ (1 : Fin 2) * 128 + 1 * p.val = p.val; omega

/-- What point `t` writes back through window 5 is block `t` of the whole dense step. -/
theorem flushed5_eq (c : Dev nD) (t : Fin cfg4.N) :
    (dat4 V c).flushed 5 t = ((cfg4.win 5).blk t).view.read (Elt Ideal) (Yw V c) := by
  show (cfg4.win 5).cut (grid4.coords t) ((dat4 V c).after 5 t) = _
  rw [after4_5, outs_inv V c t.val t.isLt, Yb_of_lt]
  funext j
  exact Yb_rows V c t j

theorem mem_blk5 (t : Fin cfg4.N) (i : S50000x128.Idx) :
    i ∈ ((cfg4.win 5).blk t).view.set ↔ ∀ a : Fin 2, win4_5.index t a * S5000x128.size a ≤ (i a).val ∧ (i a).val < win4_5.index t a * S5000x128.size a + S5000x128.size a := by
  show i ∈ ((View.whole main_v47_0).slice (win4_5.rect t)).set ↔ _
  rw [View.set_slice_whole, Rect.mem_set_unit]
  exact Iff.rfl

/-- Every index of the dense step's array is in the block of the point numbered by its row divided by 5000. -/
theorem cover5 (i : S50000x128.Idx) : ∃ t : Fin cfg4.N, (cfg4.win 5).flush t = true ∧ i ∈ ((cfg4.win 5).blk t).view.set := by
  have hi0 : (i 0).val < 50000 := (i 0).isLt
  have hi1 : (i 1).val < 128 := (i 1).isLt
  have hlt : (i 0).val / 5000 < 10 := by omega
  obtain ⟨-, -, -, -, e50, e51, -⟩ := idx_facts (⟨(i 0).val / 5000, hlt⟩ : Fin cfg4.N)
  refine ⟨⟨(i 0).val / 5000, hlt⟩, flush4_5 _, ?_⟩
  rw [mem_blk5]
  intro a
  match a with
  | ⟨0, _⟩ =>
    show win4_5.index ⟨(i 0).val / 5000, hlt⟩ (0 : Fin 2) * 5000 ≤ (i 0).val ∧ (i 0).val < win4_5.index ⟨(i 0).val / 5000, hlt⟩ (0 : Fin 2) * 5000 + 5000
    rw [e50]; show (i 0).val / 5000 * 5000 ≤ (i 0).val ∧ (i 0).val < (i 0).val / 5000 * 5000 + 5000; omega
  | ⟨1, _⟩ =>
    show win4_5.index ⟨(i 0).val / 5000, hlt⟩ (1 : Fin 2) * 128 ≤ (i 1).val ∧ (i 1).val < win4_5.index ⟨(i 0).val / 5000, hlt⟩ (1 : Fin 2) * 128 + 128
    rw [e51]; omega

/-- After the launch the first output is the whole dense step. -/
theorem final5 (c : Dev nD) : (dat4 V c).arrAt 5 cfg4.N = Yw V c :=
  (dat4 V c).arrAt_eq_of_cover 5 _ (fun t _ => flushed5_eq V c t) cover5

/-- What the last point writes back through window 6 is the carried row after it. -/
theorem flushed6_eq (c : Dev nD) (t : Fin cfg4.N) (hf : (cfg4.win 6).flush t = true) :
    (dat4 V c).flushed 6 t = ((cfg4.win 6).blk t).view.read (Elt Ideal)
      (runRow zrow (fun u => colSums (Yb V c u)) 9) := by
  have h9 : t.val = 9 := by have := (flush4_6 t).mp hf; have := t.isLt; have := hN; omega
  obtain ⟨-, -, -, -, -, -, -, -, -, -, -, -, e60, e61, e70, e71⟩ := idx_facts t
  show (cfg4.win 6).cut (grid4.coords t) ((dat4 V c).after 6 t) = _
  rw [after4_6, outs_inv V c t.val t.isLt]
  funext j
  have hj0 : (j 0).val < 1 := (j 0).isLt
  have hj1 : (j 1).val < 128 := (j 1).isLt
  show runRow zrow (fun u => colSums (Yb V c u)) t.val j = runRow zrow (fun u => colSums (Yb V c u)) 9 (((cfg4.win 6).blk t).view.emb j)
  rw [h9]
  refine congrArg _ (funext fun a => Fin.ext ?_)
  match a with
  | ⟨0, _⟩ => show (j 0).val = win4_6.index t (0 : Fin 2) * 1 + 1 * (j 0).val; omega
  | ⟨1, _⟩ => show (j 1).val = win4_6.index t (1 : Fin 2) * 128 + 1 * (j 1).val; omega

theorem mem_blk6 (t : Fin cfg4.N) (i : S1x128.Idx) :
    i ∈ ((cfg4.win 6).blk t).view.set ↔ ∀ a : Fin 2, win4_6.index t a * S1x128.size a ≤ (i a).val ∧ (i a).val < win4_6.index t a * S1x128.size a + S1x128.size a := by
  show i ∈ ((View.whole main_v47_1).slice (win4_6.rect t)).set ↔ _
  rw [View.set_slice_whole, Rect.mem_set_unit]
  exact Iff.rfl

/-- The last point's block is the whole row. -/
theorem cover6 (i : S1x128.Idx) : ∃ t : Fin cfg4.N, (cfg4.win 6).flush t = true ∧ i ∈ ((cfg4.win 6).blk t).view.set := by
  have hi0 : (i 0).val < 1 := (i 0).isLt
  have hi1 : (i 1).val < 128 := (i 1).isLt
  obtain ⟨-, -, -, -, -, -, -, -, -, -, -, -, e60, e61, e70, e71⟩ := idx_facts (⟨9, by decide⟩ : Fin cfg4.N)
  refine ⟨⟨9, by decide⟩, (flush4_6 _).mpr rfl, ?_⟩
  rw [mem_blk6]
  intro a
  match a with
  | ⟨0, _⟩ =>
    show win4_6.index ⟨9, _⟩ (0 : Fin 2) * 1 ≤ (i 0).val ∧ (i 0).val < win4_6.index ⟨9, _⟩ (0 : Fin 2) * 1 + 1
    omega
  | ⟨1, _⟩ =>
    show win4_6.index ⟨9, _⟩ (1 : Fin 2) * 128 ≤ (i 1).val ∧ (i 1).val < win4_6.index ⟨9, _⟩ (1 : Fin 2) * 128 + 128
    omega

/-- After the launch the row holds the whole dense step's column sums. -/
theorem final6 (c : Dev nD) : (dat4 V c).arrAt 6 cfg4.N = colSums (Yw V c) := by
  rw [(dat4 V c).arrAt_eq_of_cover 6 _ (fun t hf => flushed6_eq V c t hf) cover6]
  funext i
  rw [runRow_apply, show zrow i = (0 : EReal) from Ideal.ofBits_zero_f32, zero_add]
  exact colSums_of_blocks (Yw V c) (Yb V c) (fun u r p => Yb_block V c u r p) i

/-- What the last point writes back through window 7 is the carried row after it. -/
theorem flushed7_eq (c : Dev nD) (t : Fin cfg4.N) (hf : (cfg4.win 7).flush t = true) :
    (dat4 V c).flushed 7 t = ((cfg4.win 7).blk t).view.read (Elt Ideal)
      (runRow zrow (fun u => colSqSums (Yb V c u)) 9) := by
  have h9 : t.val = 9 := by have := (flush4_7 t).mp hf; have := t.isLt; have := hN; omega
  obtain ⟨-, -, -, -, -, -, -, -, -, -, -, -, e60, e61, e70, e71⟩ := idx_facts t
  show (cfg4.win 7).cut (grid4.coords t) ((dat4 V c).after 7 t) = _
  rw [after4_7, outs_inv V c t.val t.isLt]
  funext j
  have hj0 : (j 0).val < 1 := (j 0).isLt
  have hj1 : (j 1).val < 128 := (j 1).isLt
  show runRow zrow (fun u => colSqSums (Yb V c u)) t.val j = runRow zrow (fun u => colSqSums (Yb V c u)) 9 (((cfg4.win 7).blk t).view.emb j)
  rw [h9]
  refine congrArg _ (funext fun a => Fin.ext ?_)
  match a with
  | ⟨0, _⟩ => show (j 0).val = win4_7.index t (0 : Fin 2) * 1 + 1 * (j 0).val; omega
  | ⟨1, _⟩ => show (j 1).val = win4_7.index t (1 : Fin 2) * 128 + 1 * (j 1).val; omega

theorem mem_blk7 (t : Fin cfg4.N) (i : S1x128.Idx) :
    i ∈ ((cfg4.win 7).blk t).view.set ↔ ∀ a : Fin 2, win4_7.index t a * S1x128.size a ≤ (i a).val ∧ (i a).val < win4_7.index t a * S1x128.size a + S1x128.size a := by
  show i ∈ ((View.whole main_v47_2).slice (win4_7.rect t)).set ↔ _
  rw [View.set_slice_whole, Rect.mem_set_unit]
  exact Iff.rfl

/-- The last point's block is the whole row. -/
theorem cover7 (i : S1x128.Idx) : ∃ t : Fin cfg4.N, (cfg4.win 7).flush t = true ∧ i ∈ ((cfg4.win 7).blk t).view.set := by
  have hi0 : (i 0).val < 1 := (i 0).isLt
  have hi1 : (i 1).val < 128 := (i 1).isLt
  obtain ⟨-, -, -, -, -, -, -, -, -, -, -, -, e60, e61, e70, e71⟩ := idx_facts (⟨9, by decide⟩ : Fin cfg4.N)
  refine ⟨⟨9, by decide⟩, (flush4_7 _).mpr rfl, ?_⟩
  rw [mem_blk7]
  intro a
  match a with
  | ⟨0, _⟩ =>
    show win4_7.index ⟨9, _⟩ (0 : Fin 2) * 1 ≤ (i 0).val ∧ (i 0).val < win4_7.index ⟨9, _⟩ (0 : Fin 2) * 1 + 1
    omega
  | ⟨1, _⟩ =>
    show win4_7.index ⟨9, _⟩ (1 : Fin 2) * 128 ≤ (i 1).val ∧ (i 1).val < win4_7.index ⟨9, _⟩ (1 : Fin 2) * 128 + 128
    omega

/-- After the launch the row holds the whole dense step's column sums of squares. -/
theorem final7 (c : Dev nD) : (dat4 V c).arrAt 7 cfg4.N = colSqSums (Yw V c) := by
  rw [(dat4 V c).arrAt_eq_of_cover 7 _ (fun t hf => flushed7_eq V c t hf) cover7]
  funext i
  rw [runRow_apply, show zrow i = (0 : EReal) from Ideal.ofBits_zero_f32, zero_add]
  exact colSqSums_of_blocks (Yw V c) (Yb V c) (fun u r p => Yb_block V c u r p) i

end Finals

end Cert.KernelIdeal.Launch4

end
-- ==== Proof.Launch5.lean ====
/-
  Launch 5: the normalising kernel, floored at zero, read as one function of the arrays it is entered with.

  Point `t` of the grid works on rows `5000 t … 5000 t + 4999`: it reads those rows of the activations and the
  four one-row arrays (mean, variance, scale, shift) whole, and writes back the same rows of the result. The
  ten blocks tile the result, so after the launch the result array is the normalised activations, entry by entry.
-/
import proofs.«160678_j77988016161089_1_alg».proof.Proof.Gen.KernelIdeal.Frame
import proofs.«160678_j77988016161089_1_alg».proof.Proof.LibGnnVector

set_option maxRecDepth 16384

noncomputable section

namespace Cert.KernelIdeal.Launch5

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Gnn
open Cert.MatProduct (rowOf colOf)

variable (V : (c : Dev nD) → (b : Ref sig .tc) → Buf (Elt Ideal) ((c : Thread nD τ).loc b))

theorem hz : (![0, 0] : Fin 2 → Nat) = fun _ => 0 := funext fun a => by fin_cases a <;> rfl

/-- The stabilising constant the body adds to the variance. -/
abbrev eps : Ideal .f32 := Scalar.ofBits .f32 0x3727C5AC#32

/-- The floor the body applies. -/
abbrev zero : Ideal .f32 := Scalar.ofBits .f32 0x00000000#32

/-- The body's one store is the normalise step of the blocks it loads. -/
theorem pay_eq (x0 : Vec Ideal S5000x128 .f32) (x1 x2 x3 x4 : Vec Ideal S1x128 .f32) :
    k5_pay1 (F := Ideal) x0 x1 x2 x3 x4 = nrmMax eps x0 x1 x2 x3 x4 zero :=
  vec_nrmMax x0 x1 x2 x3 x4 _ _ _ _ _ _ _ _

/-- The printed index maps over the grid: the activations' and the result's blocks are block row `t`; the
    one-row arrays' block never moves. -/
theorem idx_facts : ∀ t : Fin cfg5.N,
    win5_0.index t (0 : Fin 2) = t.val ∧ win5_0.index t (1 : Fin 2) = 0
    ∧ win5_5.index t (0 : Fin 2) = t.val ∧ win5_5.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0 :=
  (by decide +kernel : ∀ t : Fin grid5.N, _)

/-- What point `t` writes back is block `t` of the normalised activations. -/
theorem flushed_eq (c : Dev nD) (t : Fin cfg5.N) :
    (dat5 V c).flushed 5 t = ((cfg5.win 5).blk t).view.read (Elt Ideal)
      (nrmMax eps (V c main_v47_0) (V c main_v49) (V c main_v53) (V c main_v54) (V c main_v55) zero) := by
  show (cfg5.win 5).cut (grid5.coords t) ((dat5 V c).after 5 t) = _
  rw [after5_5]
  unfold out5_5
  rw [View.canon_unit_zero hz]
  simp only [View.ld_unit_zero (S := S5000x128) hz, View.ld_unit_zero (S := S1x128) hz]
  rw [pay_eq]
  obtain ⟨e00, e01, e50, e51, e10, e11, e20, e21, e30, e31, e40, e41⟩ := idx_facts t
  funext j
  have hj0 : (j 0).val < 5000 := (j 0).isLt
  have hj1 : (j 1).val < 128 := (j 1).isLt
  show nrmMax eps (iblk5 V c 0 t) (iblk5 V c 1 t) (iblk5 V c 2 t) (iblk5 V c 3 t) (iblk5 V c 4 t) zero j
      = (nrmMax eps (V c main_v47_0) (V c main_v49) (V c main_v53) (V c main_v54) (V c main_v55) zero) (((cfg5.win 5).blk t).view.emb j)
  refine nrmMax_entry_congr eps _ j (((cfg5.win 5).blk t).view.emb j) ?_ ?_ ?_ ?_ ?_
  · show V c main_v47_0 (((cfg5.win 0).blk t).view.emb j) = V c main_v47_0 (((cfg5.win 5).blk t).view.emb j)
    refine congrArg _ (funext fun a => Fin.ext ?_)
    match a with
    | ⟨0, _⟩ => show win5_0.index t (0 : Fin 2) * 5000 + 1 * (j 0).val = win5_5.index t (0 : Fin 2) * 5000 + 1 * (j 0).val; omega
    | ⟨1, _⟩ => show win5_0.index t (1 : Fin 2) * 128 + 1 * (j 1).val = win5_5.index t (1 : Fin 2) * 128 + 1 * (j 1).val; omega
  · show V c main_v49 (((cfg5.win 1).blk t).view.emb (ix2 0 (colOf j))) = V c main_v49 (ix2 0 (colOf (((cfg5.win 5).blk t).view.emb j)))
    refine congrArg _ (funext fun a => Fin.ext ?_)
    match a with
    | ⟨0, _⟩ => show win5_1.index t (0 : Fin 2) * 1 + 1 * 0 = 0; omega
    | ⟨1, _⟩ => show win5_1.index t (1 : Fin 2) * 128 + 1 * (j 1).val = win5_5.index t (1 : Fin 2) * 128 + 1 * (j 1).val; omega
  · show V c main_v53 (((cfg5.win 2).blk t).view.emb (ix2 0 (colOf j))) = V c main_v53 (ix2 0 (colOf (((cfg5.win 5).blk t).view.emb j)))
    refine congrArg _ (funext fun a => Fin.ext ?_)
    match a with
    | ⟨0, _⟩ => show win5_2.index t (0 : Fin 2) * 1 + 1 * 0 = 0; omega
    | ⟨1, _⟩ => show win5_2.index t (1 : Fin 2) * 128 + 1 * (j 1).val = win5_5.index t (1 : Fin 2) * 128 + 1 * (j 1).val; omega
  · show V c main_v54 (((cfg5.win 3).blk t).view.emb (ix2 0 (colOf j))) = V c main_v54 (ix2 0 (colOf (((cfg5.win 5).blk t).view.emb j)))
    refine congrArg _ (funext fun a => Fin.ext ?_)
    match a with
    | ⟨0, _⟩ => show win5_3.index t (0 : Fin 2) * 1 + 1 * 0 = 0; omega
    | ⟨1, _⟩ => show win5_3.index t (1 : Fin 2) * 128 + 1 * (j 1).val = win5_5.index t (1 : Fin 2) * 128 + 1 * (j 1).val; omega
  · show V c main_v55 (((cfg5.win 4).blk t).view.emb (ix2 0 (colOf j))) = V c main_v55 (ix2 0 (colOf (((cfg5.win 5).blk t).view.emb j)))
    refine congrArg _ (funext fun a => Fin.ext ?_)
    match a with
    | ⟨0, _⟩ => show win5_4.index t (0 : Fin 2) * 1 + 1 * 0 = 0; omega
    | ⟨1, _⟩ => show win5_4.index t (1 : Fin 2) * 128 + 1 * (j 1).val = win5_5.index t (1 : Fin 2) * 128 + 1 * (j 1).val; omega

/-- An index of the result is in point `t`'s block iff each coordinate is in the block's range on its axis. -/
theorem mem_blk (t : Fin cfg5.N) (i : S50000x128.Idx) :
    i ∈ ((cfg5.win 5).blk t).view.set ↔ ∀ a : Fin 2, win5_5.index t a * S5000x128.size a ≤ (i a).val ∧ (i a).val < win5_5.index t a * S5000x128.size a + S5000x128.size a := by
  show i ∈ ((View.whole main_v56).slice (win5_5.rect t)).set ↔ _
  rw [View.set_slice_whole, Rect.mem_set_unit]
  exact Iff.rfl

/-- Every index of the result is in the block of the point numbered by its row divided by 5000. -/
theorem cover (i : S50000x128.Idx) : ∃ t : Fin cfg5.N, (cfg5.win 5).flush t = true ∧ i ∈ ((cfg5.win 5).blk t).view.set := by
  have hi0 : (i 0).val < 50000 := (i 0).isLt
  have hi1 : (i 1).val < 128 := (i 1).isLt
  have hlt : (i 0).val / 5000 < 10 := by omega
  obtain ⟨e00, e01, e50, e51, -⟩ := idx_facts (⟨(i 0).val / 5000, hlt⟩ : Fin cfg5.N)
  refine ⟨⟨(i 0).val / 5000, hlt⟩, flush5_5 _, ?_⟩
  rw [mem_blk]
  intro a
  match a with
  | ⟨0, _⟩ =>
    show win5_5.index ⟨(i 0).val / 5000, hlt⟩ (0 : Fin 2) * 5000 ≤ (i 0).val ∧ (i 0).val < win5_5.index ⟨(i 0).val / 5000, hlt⟩ (0 : Fin 2) * 5000 + 5000
    rw [e50]; show (i 0).val / 5000 * 5000 ≤ (i 0).val ∧ (i 0).val < (i 0).val / 5000 * 5000 + 5000; omega
  | ⟨1, _⟩ =>
    show win5_5.index ⟨(i 0).val / 5000, hlt⟩ (1 : Fin 2) * 128 ≤ (i 1).val ∧ (i 1).val < win5_5.index ⟨(i 0).val / 5000, hlt⟩ (1 : Fin 2) * 128 + 128
    rw [e51]; omega

/-- After the launch the result array is the normalised activations. -/
theorem final (c : Dev nD) :
    (dat5 V c).arrAt 5 cfg5.N = nrmMax eps (V c main_v47_0) (V c main_v49) (V c main_v53) (V c main_v54) (V c main_v55) zero :=
  (dat5 V c).arrAt_eq_of_cover 5 _ (fun t _ => flushed_eq V c t) cover

end Cert.KernelIdeal.Launch5

end
-- ==== Proof.KStage2.lean ====
/-
  The idealized kernel's program through graph-convolution block 1, boundary by boundary.

  A host stretch aggregates the node features over the edges (gather at the sources, scatter-add at the targets)
  and regards the relation bias as a row; a launch leaves the dense step and its column statistics; a second
  stretch turns them into mean and variance and regards scale and shift as rows; a second launch normalises and
  floors at zero. So the buffer that launch writes holds block 1 applied to the block's input.
-/
import proofs.«160678_j77988016161089_1_alg».proof.Proof.Gen.KernelIdeal.Frame
import Idealize.ShloMosaic.Lib.ValueIdx
import Idealize.ShloMosaic.Lib.StableHlo.Run
import proofs.«160678_j77988016161089_1_alg».proof.Proof.KStage1
import proofs.«160678_j77988016161089_1_alg».proof.Proof.Launch4
import proofs.«160678_j77988016161089_1_alg».proof.Proof.Launch5
set_option maxRecDepth 16384

noncomputable section

namespace Cert.KernelIdeal.Stages

open Cert.KernelIdeal Cert.KernelIdeal.Gen
open Idealize.ShloMosaic Idealize.ShloMosaic.TcCoe Idealize.ShloMosaic.ValueIdx Idealize.SL.Sem Idealize.ShloMosaic.StableHlo

open Cert.Gnn Cert.KernelIdeal.Fold
open Cert.MatProduct (prod)
open Cert.RowBias (addRowMax)

variable (m : (ℓ : Loc nD τ sig) → Buf (Elt Ideal) ℓ) (ρ : Dev nD → PrngReg) (c : Dev nD)

/-- Aggregation over the edges at width 64: gather the source nodes' rows, add them at the target nodes. -/
def agg1 (h : Mat 50000 64) : Mat 50000 64 :=
  Host.scatterAdd (F := Ideal) scatter_S50000x64_S800000x1_S800000x64_1_0_0_1
    (broadcastInDim S50000x64 ![] bcast_S_S50000x64 (constant (F := Ideal) S_ .f32 0#32))
    (broadcastInDim S800000x1 ![0] bcast_S800000_S800000x1_0 (dst m c))
    (Host.gather gather_S50000x64_S800000x1_S800000x64_1_0_n_n_0_1_164 h
      (broadcastInDim S800000x1 ![0] bcast_S800000_S800000x1_0
        (select (cmpi .slt (src m c) (broadcastInDim S800000 ![] bcast_S_S800000 (constantI S_ 32 0#32)))
          (addi (src m c) (broadcastInDim S800000 ![] bcast_S_S800000 (constantI S_ 32 50000#32))) (src m c))))

theorem v1_at8 : W8 m ρ c (Proc.devRef .tc main_v1) = src m c := by
  rw [W8_of_ne m ρ c main_v1 (by decide), keep3 m ρ c main_v1 (by decide), W6_of_ne m ρ c main_v1 (by decide), keep2 m ρ c main_v1 (by decide), W4_of_ne m ρ c main_v1 (by decide), keep1 m ρ c main_v1 (by decide), W2_of_ne m ρ c main_v1 (by decide), v1_at1]

theorem v3_at8 : W8 m ρ c (Proc.devRef .tc main_v3) = dst m c := by
  rw [W8_of_ne m ρ c main_v3 (by decide), keep3 m ρ c main_v3 (by decide), W6_of_ne m ρ c main_v3 (by decide), keep2 m ρ c main_v3 (by decide), W4_of_ne m ρ c main_v3 (by decide), keep1 m ρ c main_v3 (by decide), W2_of_ne m ρ c main_v3 (by decide), v3_at1]

theorem arg12_at8 : W8 m ρ c (Proc.devRef .tc main_arg12) = arg m c main_arg12 := by
  rw [W8_of_ne m ρ c main_arg12 (by decide), keep3 m ρ c main_arg12 (by decide), W6_of_ne m ρ c main_arg12 (by decide), keep2 m ρ c main_arg12 (by decide), W4_of_ne m ρ c main_arg12 (by decide), keep1 m ρ c main_arg12 (by decide), W2_of_ne m ρ c main_arg12 (by decide), keep0 m ρ c main_arg12 (by decide)]
theorem arg11_at9 : W9 m ρ c (Proc.devRef .tc main_arg11) = arg m c main_arg11 := by
  rw [keep4 m ρ c main_arg11 (by decide), W8_of_ne m ρ c main_arg11 (by decide), keep3 m ρ c main_arg11 (by decide), W6_of_ne m ρ c main_arg11 (by decide), keep2 m ρ c main_arg11 (by decide), W4_of_ne m ρ c main_arg11 (by decide), keep1 m ρ c main_arg11 (by decide), W2_of_ne m ρ c main_arg11 (by decide), keep0 m ρ c main_arg11 (by decide)]
theorem arg13_at9 : W9 m ρ c (Proc.devRef .tc main_arg13) = arg m c main_arg13 := by
  rw [keep4 m ρ c main_arg13 (by decide), W8_of_ne m ρ c main_arg13 (by decide), keep3 m ρ c main_arg13 (by decide), W6_of_ne m ρ c main_arg13 (by decide), keep2 m ρ c main_arg13 (by decide), W4_of_ne m ρ c main_arg13 (by decide), keep1 m ρ c main_arg13 (by decide), W2_of_ne m ρ c main_arg13 (by decide), keep0 m ρ c main_arg13 (by decide)]
theorem arg14_at10 : W10 m ρ c (Proc.devRef .tc main_arg14) = arg m c main_arg14 := by
  rw [W10_of_ne m ρ c main_arg14 (by decide), keep4 m ρ c main_arg14 (by decide), W8_of_ne m ρ c main_arg14 (by decide), keep3 m ρ c main_arg14 (by decide), W6_of_ne m ρ c main_arg14 (by decide), keep2 m ρ c main_arg14 (by decide), W4_of_ne m ρ c main_arg14 (by decide), keep1 m ρ c main_arg14 (by decide), W2_of_ne m ρ c main_arg14 (by decide), keep0 m ρ c main_arg14 (by decide)]
theorem arg15_at10 : W10 m ρ c (Proc.devRef .tc main_arg15) = arg m c main_arg15 := by
  rw [W10_of_ne m ρ c main_arg15 (by decide), keep4 m ρ c main_arg15 (by decide), W8_of_ne m ρ c main_arg15 (by decide), keep3 m ρ c main_arg15 (by decide), W6_of_ne m ρ c main_arg15 (by decide), keep2 m ρ c main_arg15 (by decide), W4_of_ne m ρ c main_arg15 (by decide), keep1 m ρ c main_arg15 (by decide), W2_of_ne m ρ c main_arg15 (by decide), keep0 m ρ c main_arg15 (by decide)]

attribute [local irreducible] Host.gather Host.scatterAdd in
theorem agg_at9 : W9 m ρ c (Proc.devRef .tc main_v45) = agg1 m c (H1 m c) := by
  show StableHlo.after hostOps4 (W8 m ρ c) (Proc.devRef .tc main_v45) = _
  after_results_simp
  rw [v1_at8, v3_at8, h_at8]
  rfl

theorem brel_at9 : W9 m ρ c (Proc.devRef .tc main_v46) = rowOfVec (arg m c main_arg12) := by
  show StableHlo.after hostOps4 (W8 m ρ c) (Proc.devRef .tc main_v46) = _
  after_results_simp
  rw [arg12_at8]
  exact reshape_row _ _

theorem hp_at9 : W9 m ρ c (Proc.devRef .tc main_v35) = H1 m c := by
  rw [keep4 m ρ c main_v35 (by decide), h_at8]

/-- Block 1's dense step. -/
def Y2 : Mat 50000 128 :=
  conv (agg1 m c (H1 m c)) (arg m c main_arg11) (rowOfVec (arg m c main_arg12)) (H1 m c) (arg m c main_arg13)

theorem y_at10 : W10 m ρ c (Proc.devRef .tc main_v47_0) = Y2 m c := by
  rw [show W10 m ρ c (Proc.devRef .tc main_v47_0) = _ from W10_arr m ρ c 5, Launch4.final5]
  show conv (W9 m ρ c (Proc.devRef .tc main_v45)) (W9 m ρ c (Proc.devRef .tc main_arg11)) (W9 m ρ c (Proc.devRef .tc main_v46)) (W9 m ρ c (Proc.devRef .tc main_v35)) (W9 m ρ c (Proc.devRef .tc main_arg13)) = _
  rw [agg_at9, arg11_at9, brel_at9, hp_at9, arg13_at9]
  rfl

theorem s_at10 : W10 m ρ c (Proc.devRef .tc main_v47_1) = colSums (Y2 m c) := by
  rw [show W10 m ρ c (Proc.devRef .tc main_v47_1) = _ from W10_arr m ρ c 6, Launch4.final6]
  show colSums (conv (W9 m ρ c (Proc.devRef .tc main_v45)) (W9 m ρ c (Proc.devRef .tc main_arg11)) (W9 m ρ c (Proc.devRef .tc main_v46)) (W9 m ρ c (Proc.devRef .tc main_v35)) (W9 m ρ c (Proc.devRef .tc main_arg13))) = _
  rw [agg_at9, arg11_at9, brel_at9, hp_at9, arg13_at9]
  rfl

theorem q_at10 : W10 m ρ c (Proc.devRef .tc main_v47_2) = colSqSums (Y2 m c) := by
  rw [show W10 m ρ c (Proc.devRef .tc main_v47_2) = _ from W10_arr m ρ c 7, Launch4.final7]
  show colSqSums (conv (W9 m ρ c (Proc.devRef .tc main_v45)) (W9 m ρ c (Proc.devRef .tc main_arg11)) (W9 m ρ c (Proc.devRef .tc main_v46)) (W9 m ρ c (Proc.devRef .tc main_v35)) (W9 m ρ c (Proc.devRef .tc main_arg13))) = _
  rw [agg_at9, arg11_at9, brel_at9, hp_at9, arg13_at9]
  rfl

theorem mean_at11 : W11 m ρ c (Proc.devRef .tc main_v49) = meanRow cntC (Y2 m c) := by
  show StableHlo.after hostOps5 (W10 m ρ c) (Proc.devRef .tc main_v49) = _
  after_results
  rw [s_at10]
  exact row_mean _ _ _

theorem var_at11 : W11 m ρ c (Proc.devRef .tc main_v53) = varSq cntC (Y2 m c) := by
  show StableHlo.after hostOps5 (W10 m ρ c) (Proc.devRef .tc main_v53) = _
  after_results
  rw [s_at10, q_at10]
  exact row_var _ _ _ _ _ rfl

theorem g_at11 : W11 m ρ c (Proc.devRef .tc main_v54) = rowOfVec (arg m c main_arg14) := by
  show StableHlo.after hostOps5 (W10 m ρ c) (Proc.devRef .tc main_v54) = _
  after_results
  rw [arg14_at10]
  exact reshape_row _ _

theorem beta_at11 : W11 m ρ c (Proc.devRef .tc main_v55) = rowOfVec (arg m c main_arg15) := by
  show StableHlo.after hostOps5 (W10 m ρ c) (Proc.devRef .tc main_v55) = _
  after_results
  rw [arg15_at10]
  exact reshape_row _ _

theorem y_at11 : W11 m ρ c (Proc.devRef .tc main_v47_0) = Y2 m c := by
  rw [keep5 m ρ c main_v47_0 (by decide), y_at10]

/-- Block 1 applied to its input. -/
def H2 : Mat 50000 128 :=
  block varSq epsC cntC zeroC (agg1 m c) (H1 m c) (arg m c main_arg11) (rowOfVec (arg m c main_arg12)) (arg m c main_arg13)
    (rowOfVec (arg m c main_arg14)) (rowOfVec (arg m c main_arg15))

theorem h_at12 : W12 m ρ c (Proc.devRef .tc main_v56) = H2 m c := by
  rw [show W12 m ρ c (Proc.devRef .tc main_v56) = _ from W12_arr m ρ c 5, Launch5.final]
  show nrmMax _ (W11 m ρ c (Proc.devRef .tc main_v47_0)) (W11 m ρ c (Proc.devRef .tc main_v49)) (W11 m ρ c (Proc.devRef .tc main_v53))
    (W11 m ρ c (Proc.devRef .tc main_v54)) (W11 m ρ c (Proc.devRef .tc main_v55)) _ = _
  rw [y_at11, mean_at11, var_at11, g_at11, beta_at11]
  rfl

end Cert.KernelIdeal.Stages

end
-- ==== Proof.Launch6.lean ====
/-
  Launch 6: a graph convolution's dense step with its running column statistics, read as functions of the
  arrays the launch is entered with.

  Point `t` of the grid works on rows `5000 t … 5000 t + 4999`: it computes the dense step
  `(a · wrel + brel) + h · wroot` of those rows and writes them back, resets two carried rows to zero at the first
  point, and adds the block's column sums, and the column sums of its squares, onto them; the carried rows are
  written back once, after the last point. The ten blocks tile the 50000 rows, so the dense step's array ends as
  the dense step of the whole arrays, and the two rows as its column sums and column sums of squares.
-/
import proofs.«160678_j77988016161089_1_alg».proof.Proof.Gen.KernelIdeal.Frame
import proofs.«160678_j77988016161089_1_alg».proof.Proof.LibGnnVector
import proofs.«160678_j77988016161089_1_alg».proof.Proof.Accum
set_option maxRecDepth 16384
noncomputable section
namespace Cert.KernelIdeal.Launch6
open Cert.KernelIdeal Cert.KernelIdeal.Gen
open Idealize.ShloMosaic Idealize.ShloMosaic.TcCoe Idealize.ShloMosaic.Tactic Idealize.ShloMosaic.ValueIdx Idealize.SL.Sem
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat Cfg Window)
open Cert.Gnn
open Cert.MatProduct (rowOf colOf)
variable {F : FTy → Type} [FloatOps F]
theorem hz : (![0, 0] : Fin 2 → Nat) = fun _ => 0 := funext fun a => by fin_cases a <;> rfl

/-! ## What each case of the body leaves in the three outputs' buffers -/

theorem piece_A_5 (c : Dev nD) (i : grid6.Coords) (arg1 : Memref sig .tc .vmem S5000x128 .f32) (harg1 : arg1.IsWhole) (arg2 : Memref sig .tc .vmem S128x64 .f32) (harg2 : arg2.IsWhole) (arg3 : Memref sig .tc .vmem S1x64 .f32) (harg3 : arg3.IsWhole) (arg4 : Memref sig .tc .vmem S5000x128 .f32) (harg4 : arg4.IsWhole) (arg5 : Memref sig .tc .vmem S128x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (hc0 : cond6_0 i)
    (x0 : Vec F S5000x128 .f32) (x1 : Vec F S128x64 .f32) (x2 : Vec F S1x64 .f32) (x3 : Vec F S5000x128 .f32) (x4 : Vec F S128x64 .f32) :
    out6_A_5 c i arg1 harg1 arg2 harg2 arg3 harg3 arg4 harg4 arg5 harg5 arg6 harg6 arg7 harg7 arg8 harg8 hc0 x0 x1 x2 x3 x4 = k6_pay2 x0 x1 x3 x4 x2 := by
  unfold out6_A_5
  rw [View.read_writes_eq_canon _ _ _ (cover6_A_5 c i arg1 harg1 arg2 harg2 arg3 harg3 arg4 harg4 arg5 harg5 arg6 harg6 arg7 harg7 arg8 harg8 hc0 x0 x1 x2 x3 x4)]
  unfold kernelRun6_A
  dsimp only
  sl_unfold_words
  rw [View.canon_unit_zero hz]
  simp only [View.readAt_eq_ld, harg1.read_unread, harg2.read_unread, harg3.read_unread, harg4.read_unread, harg5.read_unread, harg7.read_unread, harg8.read_unread,
    View.ld_unit_zero (S := S5000x128) hz, View.ld_unit_zero (S := S128x64) hz, View.ld_unit_zero (S := S1x64) hz, View.readCov_unit_zero (S := S1x64) _ hz]
  try rfl

theorem piece_B_5 (c : Dev nD) (i : grid6.Coords) (arg1 : Memref sig .tc .vmem S5000x128 .f32) (harg1 : arg1.IsWhole) (arg2 : Memref sig .tc .vmem S128x64 .f32) (harg2 : arg2.IsWhole) (arg3 : Memref sig .tc .vmem S1x64 .f32) (harg3 : arg3.IsWhole) (arg4 : Memref sig .tc .vmem S5000x128 .f32) (harg4 : arg4.IsWhole) (arg5 : Memref sig .tc .vmem S128x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (hc0 : ¬cond6_0 i)
    (x0 : Vec F S5000x128 .f32) (x1 : Vec F S128x64 .f32) (x2 : Vec F S1x64 .f32) (x3 : Vec F S5000x128 .f32) (x4 : Vec F S128x64 .f32) (xo6 : Vec F S1x64 .f32) (xo7 : Vec F S1x64 .f32) :
    out6_B_5 c i arg1 harg1 arg2 harg2 arg3 harg3 arg4 harg4 arg5 harg5 arg6 harg6 arg7 harg7 arg8 harg8 hc0 x0 x1 x2 x3 x4 xo6 xo7 = k6_pay2 x0 x1 x3 x4 x2 := by
  unfold out6_B_5
  rw [View.read_writes_eq_canon _ _ _ (cover6_B_5 c i arg1 harg1 arg2 harg2 arg3 harg3 arg4 harg4 arg5 harg5 arg6 harg6 arg7 harg7 arg8 harg8 hc0 x0 x1 x2 x3 x4 xo6 xo7)]
  unfold kernelRun6_B
  dsimp only
  sl_unfold_words
  rw [View.canon_unit_zero hz]
  simp only [View.readAt_eq_ld, harg1.read_unread, harg2.read_unread, harg3.read_unread, harg4.read_unread, harg5.read_unread, harg7.read_unread, harg8.read_unread,
    View.ld_unit_zero (S := S5000x128) hz, View.ld_unit_zero (S := S128x64) hz, View.ld_unit_zero (S := S1x64) hz, View.readCov_unit_zero (S := S1x64) _ hz]
  try rfl

theorem piece_B_6 (c : Dev nD) (i : grid6.Coords) (arg1 : Memref sig .tc .vmem S5000x128 .f32) (harg1 : arg1.IsWhole) (arg2 : Memref sig .tc .vmem S128x64 .f32) (harg2 : arg2.IsWhole) (arg3 : Memref sig .tc .vmem S1x64 .f32) (harg3 : arg3.IsWhole) (arg4 : Memref sig .tc .vmem S5000x128 .f32) (harg4 : arg4.IsWhole) (arg5 : Memref sig .tc .vmem S128x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (hc0 : ¬cond6_0 i)
    (x0 : Vec F S5000x128 .f32) (x1 : Vec F S128x64 .f32) (x2 : Vec F S1x64 .f32) (x3 : Vec F S5000x128 .f32) (x4 : Vec F S128x64 .f32) (xo6 : Vec F S1x64 .f32) (xo7 : Vec F S1x64 .f32) :
    out6_B_6 c i arg1 harg1 arg2 harg2 arg3 harg3 arg4 harg4 arg5 harg5 arg6 harg6 arg7 harg7 arg8 harg8 hc0 x0 x1 x2 x3 x4 xo6 xo7 = k6_pay5 x0 x1 x3 x4 x2 xo6 := by
  unfold out6_B_6
  rw [View.read_writes_eq_canon _ _ _ (cover6_B_6 c i arg1 harg1 arg2 harg2 arg3 harg3 arg4 harg4 arg5 harg5 arg6 harg6 arg7 harg7 arg8 harg8 hc0 x0 x1 x2 x3 x4 xo6 xo7)]
  unfold kernelRun6_B
  dsimp only
  sl_unfold_words
  rw [View.canon_unit_zero hz]
  simp only [View.readAt_eq_ld, harg1.read_unread, harg2.read_unread, harg3.read_unread, harg4.read_unread, harg5.read_unread, harg7.read_unread, harg8.read_unread,
    View.ld_unit_zero (S := S5000x128) hz, View.ld_unit_zero (S := S128x64) hz, View.ld_unit_zero (S := S1x64) hz, View.readCov_unit_zero (S := S1x64) _ hz]
  try rfl

theorem piece_B_7 (c : Dev nD) (i : grid6.Coords) (arg1 : Memref sig .tc .vmem S5000x128 .f32) (harg1 : arg1.IsWhole) (arg2 : Memref sig .tc .vmem S128x64 .f32) (harg2 : arg2.IsWhole) (arg3 : Memref sig .tc .vmem S1x64 .f32) (harg3 : arg3.IsWhole) (arg4 : Memref sig .tc .vmem S5000x128 .f32) (harg4 : arg4.IsWhole) (arg5 : Memref sig .tc .vmem S128x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (hc0 : ¬cond6_0 i)
    (x0 : Vec F S5000x128 .f32) (x1 : Vec F S128x64 .f32) (x2 : Vec F S1x64 .f32) (x3 : Vec F S5000x128 .f32) (x4 : Vec F S128x64 .f32) (xo6 : Vec F S1x64 .f32) (xo7 : Vec F S1x64 .f32) :
    out6_B_7 c i arg1 harg1 arg2 harg2 arg3 harg3 arg4 harg4 arg5 harg5 arg6 harg6 arg7 harg7 arg8 harg8 hc0 x0 x1 x2 x3 x4 xo6 xo7 = k6_pay1 (k6_pay6 xo7) (k6_pay7 x0 x1 x3 x4 x2) := by
  unfold out6_B_7
  rw [View.read_writes_eq_canon _ _ _ (cover6_B_7 c i arg1 harg1 arg2 harg2 arg3 harg3 arg4 harg4 arg5 harg5 arg6 harg6 arg7 harg7 arg8 harg8 hc0 x0 x1 x2 x3 x4 xo6 xo7)]
  unfold kernelRun6_B
  dsimp only
  sl_unfold_words
  rw [View.canon_unit_zero hz]
  simp only [View.readAt_eq_ld, harg1.read_unread, harg2.read_unread, harg3.read_unread, harg4.read_unread, harg5.read_unread, harg7.read_unread, harg8.read_unread,
    View.ld_unit_zero (S := S5000x128) hz, View.ld_unit_zero (S := S128x64) hz, View.ld_unit_zero (S := S1x64) hz, View.readCov_unit_zero (S := S1x64) _ hz]
  try rfl

theorem piece_A_6 (c : Dev nD) (i : grid6.Coords) (arg1 : Memref sig .tc .vmem S5000x128 .f32) (harg1 : arg1.IsWhole) (arg2 : Memref sig .tc .vmem S128x64 .f32) (harg2 : arg2.IsWhole) (arg3 : Memref sig .tc .vmem S1x64 .f32) (harg3 : arg3.IsWhole) (arg4 : Memref sig .tc .vmem S5000x128 .f32) (harg4 : arg4.IsWhole) (arg5 : Memref sig .tc .vmem S128x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (hc0 : cond6_0 i)
    (x0 : Vec F S5000x128 .f32) (x1 : Vec F S128x64 .f32) (x2 : Vec F S1x64 .f32) (x3 : Vec F S5000x128 .f32) (x4 : Vec F S128x64 .f32) :
    out6_A_6 c i arg1 harg1 arg2 harg2 arg3 harg3 arg4 harg4 arg5 harg5 arg6 harg6 arg7 harg7 arg8 harg8 hc0 x0 x1 x2 x3 x4 = k6_pay5 x0 x1 x3 x4 x2 (k6_pay3 (F := F)) := by
  unfold out6_A_6
  rw [View.read_writes_eq_canon _ _ _ (cover6_A_6 c i arg1 harg1 arg2 harg2 arg3 harg3 arg4 harg4 arg5 harg5 arg6 harg6 arg7 harg7 arg8 harg8 hc0 x0 x1 x2 x3 x4)]
  unfold kernelRun6_A
  dsimp only
  sl_unfold_words
  rw [View.canon_cons_unit_zero hz]
  simp only [View.readAt_eq_ld, harg1.read_unread, harg2.read_unread, harg3.read_unread, harg4.read_unread, harg5.read_unread, harg7.read_unread, harg8.read_unread,
    View.ld_unit_zero (S := S5000x128) hz, View.ld_unit_zero (S := S128x64) hz, View.ld_unit_zero (S := S1x64) hz, View.readCov_unit_zero (S := S1x64) _ hz]
  try rfl

theorem piece_A_7 (c : Dev nD) (i : grid6.Coords) (arg1 : Memref sig .tc .vmem S5000x128 .f32) (harg1 : arg1.IsWhole) (arg2 : Memref sig .tc .vmem S128x64 .f32) (harg2 : arg2.IsWhole) (arg3 : Memref sig .tc .vmem S1x64 .f32) (harg3 : arg3.IsWhole) (arg4 : Memref sig .tc .vmem S5000x128 .f32) (harg4 : arg4.IsWhole) (arg5 : Memref sig .tc .vmem S128x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (hc0 : cond6_0 i)
    (x0 : Vec F S5000x128 .f32) (x1 : Vec F S128x64 .f32) (x2 : Vec F S1x64 .f32) (x3 : Vec F S5000x128 .f32) (x4 : Vec F S128x64 .f32) :
    out6_A_7 c i arg1 harg1 arg2 harg2 arg3 harg3 arg4 harg4 arg5 harg5 arg6 harg6 arg7 harg7 arg8 harg8 hc0 x0 x1 x2 x3 x4 = k6_pay1 (k6_pay6 (k6_pay4 (F := F))) (k6_pay7 x0 x1 x3 x4 x2) := by
  unfold out6_A_7
  rw [View.read_writes_eq_canon _ _ _ (cover6_A_7 c i arg1 harg1 arg2 harg2 arg3 harg3 arg4 harg4 arg5 harg5 arg6 harg6 arg7 harg7 arg8 harg8 hc0 x0 x1 x2 x3 x4)]
  unfold kernelRun6_A
  dsimp only
  sl_unfold_words
  rw [View.canon_cons_unit_zero hz]
  simp only [View.readAt_eq_ld, harg1.read_unread, harg2.read_unread, harg3.read_unread, harg4.read_unread, harg5.read_unread, harg7.read_unread, harg8.read_unread,
    View.ld_unit_zero (S := S5000x128) hz, View.ld_unit_zero (S := S128x64) hz, View.ld_unit_zero (S := S1x64) hz, View.readCov_unit_zero (S := S1x64) _ hz]
  try rfl

/-! ## The payloads on the extended reals -/

section AtIdeal
variable (V : (c : Dev nD) → (b : Ref sig .tc) → Buf (Elt Ideal) ((c : Thread nD τ).loc b))

/-- The zero the accumulators are reset to. -/
abbrev zero : Ideal .f32 := Scalar.ofBits .f32 0x00000000#32
/-- The row of zeros. -/
abbrev zrow : Mat 1 64 := broadcast S1x64 zero

theorem pay2_eq (x0 x3 : Vec Ideal S5000x128 .f32) (x1 x4 : Vec Ideal S128x64 .f32) (x2 : Vec Ideal S1x64 .f32) :
    k6_pay2 (F := Ideal) x0 x1 x3 x4 x2 = conv x0 x1 x2 x3 x4 :=
  vec_conv x0 x3 x1 x4 x2 _ _ _ _ _ _

theorem pay5_eq (x0 x3 : Vec Ideal S5000x128 .f32) (x1 x4 : Vec Ideal S128x64 .f32) (x2 acc : Vec Ideal S1x64 .f32) :
    k6_pay5 (F := Ideal) x0 x1 x3 x4 x2 acc = fun i => acc i + colSums (conv x0 x1 x2 x3 x4) i := by
  unfold k6_pay5
  rw [pay2_eq]
  exact vec_colSum acc _ _ _ _ _ _

theorem pay7_eq (x0 x3 : Vec Ideal S5000x128 .f32) (x1 x4 : Vec Ideal S128x64 .f32) (x2 acc : Vec Ideal S1x64 .f32) :
    k6_pay1 (F := Ideal) (k6_pay6 acc) (k6_pay7 x0 x1 x3 x4 x2) = fun i => acc i + colSqSums (conv x0 x1 x2 x3 x4) i := by
  unfold k6_pay1 k6_pay6 k6_pay7
  rw [pay2_eq]
  exact vec_colSum acc (mulf (conv x0 x1 x2 x3 x4) (conv x0 x1 x2 x3 x4)) _ _ _ _ _

/-! ## The carried outputs after each point -/

theorem hN : cfg6.N = 10 := rfl

/-- Point `n`'s block of the dense step (zero past the grid). -/
def Yb (c : Dev nD) (n : ℕ) : Mat 5000 64 :=
  if h : n < cfg6.N then conv (iblk6 V c 0 ⟨n, h⟩) (iblk6 V c 1 ⟨n, h⟩) (iblk6 V c 2 ⟨n, h⟩) (iblk6 V c 3 ⟨n, h⟩) (iblk6 V c 4 ⟨n, h⟩) else fun _ => 0

theorem Yb_of_lt (c : Dev nD) (t : Fin cfg6.N) : Yb V c t.val = conv (iblk6 V c 0 t) (iblk6 V c 1 t) (iblk6 V c 2 t) (iblk6 V c 3 t) (iblk6 V c 4 t) := dif_pos t.isLt

/-- After point `n` the three outputs' buffers hold point `n`'s block of the dense step, and the rows of zeros plus
    the column sums (of the entries, of their squares) of the blocks of points `0 … n`. -/
theorem outs_inv (c : Dev nD) : ∀ (n : ℕ) (hn : n < cfg6.N),
    outsAt6 V c n hn = (Yb V c n, runRow zrow (fun u => colSums (Yb V c u)) n, runRow zrow (fun u => colSqSums (Yb V c u)) n)
  | 0, hn => by
    rw [show outsAt6 V c 0 hn = outsAt6 V c (⟨0, hn⟩ : Fin cfg6.N).val (⟨0, hn⟩ : Fin cfg6.N).isLt from rfl,
      outsAt6_A V c ⟨0, hn⟩ rfl, piece_A_5, piece_A_6, piece_A_7, pay2_eq, pay5_eq, pay7_eq, ← Yb_of_lt V c ⟨0, hn⟩]
    rfl
  | n + 1, hn => by
    have h0 : ¬ (n + 1) % 10 = 0 := by have := hN; omega
    have ih := outs_inv c n (Nat.lt_of_succ_lt hn)
    rw [show outsAt6 V c (n + 1) hn = outsAt6 V c (⟨n + 1, hn⟩ : Fin cfg6.N).val (⟨n + 1, hn⟩ : Fin cfg6.N).isLt from rfl,
      outsAt6_B V c ⟨n + 1, hn⟩ h0, piece_B_5, piece_B_6, piece_B_7, pay2_eq, pay5_eq, pay7_eq, ← Yb_of_lt V c ⟨n + 1, hn⟩]
    show (_, (fun i => (outsAt6 V c n _).2.1 i + _), (fun i => (outsAt6 V c n _).2.2 i + _)) = _
    rw [ih]
    rfl
end AtIdeal

/-! ## The three outputs after the launch -/

section Finals
variable (V : (c : Dev nD) → (b : Ref sig .tc) → Buf (Elt Ideal) ((c : Thread nD τ).loc b))

/-- The printed index maps over the grid: the row-blocked windows (aggregated features, node features, dense
    step) are at block row `t`; every other window's block never moves. -/
theorem idx_facts : ∀ t : Fin cfg6.N,
    win6_0.index t (0 : Fin 2) = t.val ∧ win6_0.index t (1 : Fin 2) = 0
    ∧ win6_3.index t (0 : Fin 2) = t.val ∧ win6_3.index t (1 : Fin 2) = 0
    ∧ win6_5.index t (0 : Fin 2) = t.val ∧ win6_5.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_4.index t (0 : Fin 2) = 0 ∧ win6_4.index t (1 : Fin 2) = 0
    ∧ win6_6.index t (0 : Fin 2) = 0 ∧ win6_6.index t (1 : Fin 2) = 0
    ∧ win6_7.index t (0 : Fin 2) = 0 ∧ win6_7.index t (1 : Fin 2) = 0 :=
  (by decide +kernel : ∀ t : Fin grid6.N, _)

/-- The dense step of the whole arrays the launch is entered with. -/
abbrev Yw (c : Dev nD) : Mat 50000 64 := conv (V c main_v66) (V c main_arg16) (V c main_v67) (V c main_v56) (V c main_arg18)

/-- Point `t`'s block of the dense step is rows `5000 t …` of the whole dense step. -/
theorem Yb_rows (c : Dev nD) (t : Fin cfg6.N) (j : S5000x64.Idx) :
    (conv (iblk6 V c 0 t) (iblk6 V c 1 t) (iblk6 V c 2 t) (iblk6 V c 3 t) (iblk6 V c 4 t)) j = Yw V c (((cfg6.win 5).blk t).view.emb j) := by
  obtain ⟨e00, e01, e30, e31, e50, e51, e10, e11, e20, e21, e40, e41, -⟩ := idx_facts t
  have hj0 : (j 0).val < 5000 := (j 0).isLt
  have hj1 : (j 1).val < 64 := (j 1).isLt
  refine conv_entry_congr j (((cfg6.win 5).blk t).view.emb j) (fun p => ?_) (fun p => ?_) (fun p => ?_) (fun p => ?_) ?_
  · show V c main_v66 (((cfg6.win 0).blk t).view.emb (ix2 (rowOf j) p)) = V c main_v66 (ix2 (rowOf (((cfg6.win 5).blk t).view.emb j)) p)
    have hp : p.val < 128 := p.isLt
    refine congrArg _ (funext fun a => Fin.ext ?_)
    match a with
    | ⟨0, _⟩ => show win6_0.index t (0 : Fin 2) * 5000 + 1 * (j 0).val = win6_5.index t (0 : Fin 2) * 5000 + 1 * (j 0).val; omega
    | ⟨1, _⟩ => show win6_0.index t (1 : Fin 2) * 128 + 1 * p.val = p.val; omega
  · show V c main_v56 (((cfg6.win 3).blk t).view.emb (ix2 (rowOf j) p)) = V c main_v56 (ix2 (rowOf (((cfg6.win 5).blk t).view.emb j)) p)
    have hp : p.val < 128 := p.isLt
    refine congrArg _ (funext fun a => Fin.ext ?_)
    match a with
    | ⟨0, _⟩ => show win6_3.index t (0 : Fin 2) * 5000 + 1 * (j 0).val = win6_5.index t (0 : Fin 2) * 5000 + 1 * (j 0).val; omega
    | ⟨1, _⟩ => show win6_3.index t (1 : Fin 2) * 128 + 1 * p.val = p.val; omega
  · show V c main_arg16 (((cfg6.win 1).blk t).view.emb (ix2 p (colOf j))) = V c main_arg16 (ix2 p (colOf (((cfg6.win 5).blk t).view.emb j)))
    have hp : p.val < 128 := p.isLt
    refine congrArg _ (funext fun a => Fin.ext ?_)
    match a with
    | ⟨0, _⟩ => show win6_1.index t (0 : Fin 2) * 128 + 1 * p.val = p.val; omega
    | ⟨1, _⟩ => show win6_1.index t (1 : Fin 2) * 64 + 1 * (j 1).val = win6_5.index t (1 : Fin 2) * 64 + 1 * (j 1).val; omega
  · show V c main_arg18 (((cfg6.win 4).blk t).view.emb (ix2 p (colOf j))) = V c main_arg18 (ix2 p (colOf (((cfg6.win 5).blk t).view.emb j)))
    have hp : p.val < 128 := p.isLt
    refine congrArg _ (funext fun a => Fin.ext ?_)
    match a with
    | ⟨0, _⟩ => show win6_4.index t (0 : Fin 2) * 128 + 1 * p.val = p.val; omega
    | ⟨1, _⟩ => show win6_4.index t (1 : Fin 2) * 64 + 1 * (j 1).val = win6_5.index t (1 : Fin 2) * 64 + 1 * (j 1).val; omega
  · show V c main_v67 (((cfg6.win 2).blk t).view.emb (ix2 0 (colOf j))) = V c main_v67 (ix2 0 (colOf (((cfg6.win 5).blk t).view.emb j)))
    refine congrArg _ (funext fun a => Fin.ext ?_)
    match a with
    | ⟨0, _⟩ => show win6_2.index t (0 : Fin 2) * 1 + 1 * 0 = 0; omega
    | ⟨1, _⟩ => show win6_2.index t (1 : Fin 2) * 64 + 1 * (j 1).val = win6_5.index t (1 : Fin 2) * 64 + 1 * (j 1).val; omega

/-- The same, with the block's rows numbered inside the whole. -/
theorem Yb_block (c : Dev nD) (u : Fin 10) (r : Fin 5000) (p : Fin 64) :
    Yb V c u.val (ix2 r p) = Yw V c (ix2 ⟨5000 * u.val + r.val, by have := u.isLt; have := r.isLt; omega⟩ p) := by
  have hu : u.val < cfg6.N := by rw [hN]; exact u.isLt
  obtain ⟨-, -, -, -, e50, e51, -⟩ := idx_facts ⟨u.val, hu⟩
  rw [Yb_of_lt V c ⟨u.val, hu⟩, Yb_rows V c ⟨u.val, hu⟩ (ix2 r p)]
  have hr : r.val < 5000 := r.isLt
  have hp : p.val < 64 := p.isLt
  refine congrArg _ (funext fun a => Fin.ext ?_)
  match a with
  | ⟨0, _⟩ => show win6_5.index ⟨u.val, hu⟩ (0 : Fin 2) * 5000 + 1 * r.val = 5000 * u.val + r.val; rw [e50]; show u.val * 5000 + 1 * r.val = 5000 * u.val + r.val; omega
  | ⟨1, _⟩ => show win6_5.index ⟨u.val, hu⟩ (1 : Fin 2) * 64 + 1 * p.val = p.val; omega

/-- What point `t` writes back through window 5 is block `t` of the whole dense step. -/
theorem flushed5_eq (c : Dev nD) (t : Fin cfg6.N) :
    (dat6 V c).flushed 5 t = ((cfg6.win 5).blk t).view.read (Elt Ideal) (Yw V c) := by
  show (cfg6.win 5).cut (grid6.coords t) ((dat6 V c).after 5 t) = _
  rw [after6_5, outs_inv V c t.val t.isLt, Yb_of_lt]
  funext j
  exact Yb_rows V c t j

theorem mem_blk5 (t : Fin cfg6.N) (i : S50000x64.Idx) :
    i ∈ ((cfg6.win 5).blk t).view.set ↔ ∀ a : Fin 2, win6_5.index t a * S5000x64.size a ≤ (i a).val ∧ (i a).val < win6_5.index t a * S5000x64.size a + S5000x64.size a := by
  show i ∈ ((View.whole main_v68_0).slice (win6_5.rect t)).set ↔ _
  rw [View.set_slice_whole, Rect.mem_set_unit]
  exact Iff.rfl

/-- Every index of the dense step's array is in the block of the point numbered by its row divided by 5000. -/
theorem cover5 (i : S50000x64.Idx) : ∃ t : Fin cfg6.N, (cfg6.win 5).flush t = true ∧ i ∈ ((cfg6.win 5).blk t).view.set := by
  have hi0 : (i 0).val < 50000 := (i 0).isLt
  have hi1 : (i 1).val < 64 := (i 1).isLt
  have hlt : (i 0).val / 5000 < 10 := by omega
  obtain ⟨-, -, -, -, e50, e51, -⟩ := idx_facts (⟨(i 0).val / 5000, hlt⟩ : Fin cfg6.N)
  refine ⟨⟨(i 0).val / 5000, hlt⟩, flush6_5 _, ?_⟩
  rw [mem_blk5]
  intro a
  match a with
  | ⟨0, _⟩ =>
    show win6_5.index ⟨(i 0).val / 5000, hlt⟩ (0 : Fin 2) * 5000 ≤ (i 0).val ∧ (i 0).val < win6_5.index ⟨(i 0).val / 5000, hlt⟩ (0 : Fin 2) * 5000 + 5000
    rw [e50]; show (i 0).val / 5000 * 5000 ≤ (i 0).val ∧ (i 0).val < (i 0).val / 5000 * 5000 + 5000; omega
  | ⟨1, _⟩ =>
    show win6_5.index ⟨(i 0).val / 5000, hlt⟩ (1 : Fin 2) * 64 ≤ (i 1).val ∧ (i 1).val < win6_5.index ⟨(i 0).val / 5000, hlt⟩ (1 : Fin 2) * 64 + 64
    rw [e51]; omega

/-- After the launch the first output is the whole dense step. -/
theorem final5 (c : Dev nD) : (dat6 V c).arrAt 5 cfg6.N = Yw V c :=
  (dat6 V c).arrAt_eq_of_cover 5 _ (fun t _ => flushed5_eq V c t) cover5

/-- What the last point writes back through window 6 is the carried row after it. -/
theorem flushed6_eq (c : Dev nD) (t : Fin cfg6.N) (hf : (cfg6.win 6).flush t = true) :
    (dat6 V c).flushed 6 t = ((cfg6.win 6).blk t).view.read (Elt Ideal)
      (runRow zrow (fun u => colSums (Yb V c u)) 9) := by
  have h9 : t.val = 9 := by have := (flush6_6 t).mp hf; have := t.isLt; have := hN; omega
  obtain ⟨-, -, -, -, -, -, -, -, -, -, -, -, e60, e61, e70, e71⟩ := idx_facts t
  show (cfg6.win 6).cut (grid6.coords t) ((dat6 V c).after 6 t) = _
  rw [after6_6, outs_inv V c t.val t.isLt]
  funext j
  have hj0 : (j 0).val < 1 := (j 0).isLt
  have hj1 : (j 1).val < 64 := (j 1).isLt
  show runRow zrow (fun u => colSums (Yb V c u)) t.val j = runRow zrow (fun u => colSums (Yb V c u)) 9 (((cfg6.win 6).blk t).view.emb j)
  rw [h9]
  refine congrArg _ (funext fun a => Fin.ext ?_)
  match a with
  | ⟨0, _⟩ => show (j 0).val = win6_6.index t (0 : Fin 2) * 1 + 1 * (j 0).val; omega
  | ⟨1, _⟩ => show (j 1).val = win6_6.index t (1 : Fin 2) * 64 + 1 * (j 1).val; omega

theorem mem_blk6 (t : Fin cfg6.N) (i : S1x64.Idx) :
    i ∈ ((cfg6.win 6).blk t).view.set ↔ ∀ a : Fin 2, win6_6.index t a * S1x64.size a ≤ (i a).val ∧ (i a).val < win6_6.index t a * S1x64.size a + S1x64.size a := by
  show i ∈ ((View.whole main_v68_1).slice (win6_6.rect t)).set ↔ _
  rw [View.set_slice_whole, Rect.mem_set_unit]
  exact Iff.rfl

/-- The last point's block is the whole row. -/
theorem cover6 (i : S1x64.Idx) : ∃ t : Fin cfg6.N, (cfg6.win 6).flush t = true ∧ i ∈ ((cfg6.win 6).blk t).view.set := by
  have hi0 : (i 0).val < 1 := (i 0).isLt
  have hi1 : (i 1).val < 64 := (i 1).isLt
  obtain ⟨-, -, -, -, -, -, -, -, -, -, -, -, e60, e61, e70, e71⟩ := idx_facts (⟨9, by decide⟩ : Fin cfg6.N)
  refine ⟨⟨9, by decide⟩, (flush6_6 _).mpr rfl, ?_⟩
  rw [mem_blk6]
  intro a
  match a with
  | ⟨0, _⟩ =>
    show win6_6.index ⟨9, _⟩ (0 : Fin 2) * 1 ≤ (i 0).val ∧ (i 0).val < win6_6.index ⟨9, _⟩ (0 : Fin 2) * 1 + 1
    omega
  | ⟨1, _⟩ =>
    show win6_6.index ⟨9, _⟩ (1 : Fin 2) * 64 ≤ (i 1).val ∧ (i 1).val < win6_6.index ⟨9, _⟩ (1 : Fin 2) * 64 + 64
    omega

/-- After the launch the row holds the whole dense step's column sums. -/
theorem final6 (c : Dev nD) : (dat6 V c).arrAt 6 cfg6.N = colSums (Yw V c) := by
  rw [(dat6 V c).arrAt_eq_of_cover 6 _ (fun t hf => flushed6_eq V c t hf) cover6]
  funext i
  rw [runRow_apply, show zrow i = (0 : EReal) from Ideal.ofBits_zero_f32, zero_add]
  exact colSums_of_blocks (Yw V c) (Yb V c) (fun u r p => Yb_block V c u r p) i

/-- What the last point writes back through window 7 is the carried row after it. -/
theorem flushed7_eq (c : Dev nD) (t : Fin cfg6.N) (hf : (cfg6.win 7).flush t = true) :
    (dat6 V c).flushed 7 t = ((cfg6.win 7).blk t).view.read (Elt Ideal)
      (runRow zrow (fun u => colSqSums (Yb V c u)) 9) := by
  have h9 : t.val = 9 := by have := (flush6_7 t).mp hf; have := t.isLt; have := hN; omega
  obtain ⟨-, -, -, -, -, -, -, -, -, -, -, -, e60, e61, e70, e71⟩ := idx_facts t
  show (cfg6.win 7).cut (grid6.coords t) ((dat6 V c).after 7 t) = _
  rw [after6_7, outs_inv V c t.val t.isLt]
  funext j
  have hj0 : (j 0).val < 1 := (j 0).isLt
  have hj1 : (j 1).val < 64 := (j 1).isLt
  show runRow zrow (fun u => colSqSums (Yb V c u)) t.val j = runRow zrow (fun u => colSqSums (Yb V c u)) 9 (((cfg6.win 7).blk t).view.emb j)
  rw [h9]
  refine congrArg _ (funext fun a => Fin.ext ?_)
  match a with
  | ⟨0, _⟩ => show (j 0).val = win6_7.index t (0 : Fin 2) * 1 + 1 * (j 0).val; omega
  | ⟨1, _⟩ => show (j 1).val = win6_7.index t (1 : Fin 2) * 64 + 1 * (j 1).val; omega

theorem mem_blk7 (t : Fin cfg6.N) (i : S1x64.Idx) :
    i ∈ ((cfg6.win 7).blk t).view.set ↔ ∀ a : Fin 2, win6_7.index t a * S1x64.size a ≤ (i a).val ∧ (i a).val < win6_7.index t a * S1x64.size a + S1x64.size a := by
  show i ∈ ((View.whole main_v68_2).slice (win6_7.rect t)).set ↔ _
  rw [View.set_slice_whole, Rect.mem_set_unit]
  exact Iff.rfl

/-- The last point's block is the whole row. -/
theorem cover7 (i : S1x64.Idx) : ∃ t : Fin cfg6.N, (cfg6.win 7).flush t = true ∧ i ∈ ((cfg6.win 7).blk t).view.set := by
  have hi0 : (i 0).val < 1 := (i 0).isLt
  have hi1 : (i 1).val < 64 := (i 1).isLt
  obtain ⟨-, -, -, -, -, -, -, -, -, -, -, -, e60, e61, e70, e71⟩ := idx_facts (⟨9, by decide⟩ : Fin cfg6.N)
  refine ⟨⟨9, by decide⟩, (flush6_7 _).mpr rfl, ?_⟩
  rw [mem_blk7]
  intro a
  match a with
  | ⟨0, _⟩ =>
    show win6_7.index ⟨9, _⟩ (0 : Fin 2) * 1 ≤ (i 0).val ∧ (i 0).val < win6_7.index ⟨9, _⟩ (0 : Fin 2) * 1 + 1
    omega
  | ⟨1, _⟩ =>
    show win6_7.index ⟨9, _⟩ (1 : Fin 2) * 64 ≤ (i 1).val ∧ (i 1).val < win6_7.index ⟨9, _⟩ (1 : Fin 2) * 64 + 64
    omega

/-- After the launch the row holds the whole dense step's column sums of squares. -/
theorem final7 (c : Dev nD) : (dat6 V c).arrAt 7 cfg6.N = colSqSums (Yw V c) := by
  rw [(dat6 V c).arrAt_eq_of_cover 7 _ (fun t hf => flushed7_eq V c t hf) cover7]
  funext i
  rw [runRow_apply, show zrow i = (0 : EReal) from Ideal.ofBits_zero_f32, zero_add]
  exact colSqSums_of_blocks (Yw V c) (Yb V c) (fun u r p => Yb_block V c u r p) i

end Finals

end Cert.KernelIdeal.Launch6

end
-- ==== Proof.Launch7.lean ====
/-
  Launch 7: the normalising kernel, floored at zero, read as one function of the arrays it is entered with.

  Point `t` of the grid works on rows `5000 t … 5000 t + 4999`: it reads those rows of the activations and the
  four one-row arrays (mean, variance, scale, shift) whole, and writes back the same rows of the result. The
  ten blocks tile the result, so after the launch the result array is the normalised activations, entry by entry.
-/
import proofs.«160678_j77988016161089_1_alg».proof.Proof.Gen.KernelIdeal.Frame
import proofs.«160678_j77988016161089_1_alg».proof.Proof.LibGnnVector

set_option maxRecDepth 16384

noncomputable section

namespace Cert.KernelIdeal.Launch7

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Gnn
open Cert.MatProduct (rowOf colOf)

variable (V : (c : Dev nD) → (b : Ref sig .tc) → Buf (Elt Ideal) ((c : Thread nD τ).loc b))

theorem hz : (![0, 0] : Fin 2 → Nat) = fun _ => 0 := funext fun a => by fin_cases a <;> rfl

/-- The stabilising constant the body adds to the variance. -/
abbrev eps : Ideal .f32 := Scalar.ofBits .f32 0x3727C5AC#32

/-- The floor the body applies. -/
abbrev zero : Ideal .f32 := Scalar.ofBits .f32 0x00000000#32

/-- The body's one store is the normalise step of the blocks it loads. -/
theorem pay_eq (x0 : Vec Ideal S5000x64 .f32) (x1 x2 x3 x4 : Vec Ideal S1x64 .f32) :
    k7_pay1 (F := Ideal) x0 x1 x2 x3 x4 = nrmMax eps x0 x1 x2 x3 x4 zero :=
  vec_nrmMax x0 x1 x2 x3 x4 _ _ _ _ _ _ _ _

/-- The printed index maps over the grid: the activations' and the result's blocks are block row `t`; the
    one-row arrays' block never moves. -/
theorem idx_facts : ∀ t : Fin cfg7.N,
    win7_0.index t (0 : Fin 2) = t.val ∧ win7_0.index t (1 : Fin 2) = 0
    ∧ win7_5.index t (0 : Fin 2) = t.val ∧ win7_5.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0 :=
  (by decide +kernel : ∀ t : Fin grid7.N, _)

/-- What point `t` writes back is block `t` of the normalised activations. -/
theorem flushed_eq (c : Dev nD) (t : Fin cfg7.N) :
    (dat7 V c).flushed 5 t = ((cfg7.win 5).blk t).view.read (Elt Ideal)
      (nrmMax eps (V c main_v68_0) (V c main_v70) (V c main_v74) (V c main_v75) (V c main_v76) zero) := by
  show (cfg7.win 5).cut (grid7.coords t) ((dat7 V c).after 5 t) = _
  rw [after7_5]
  unfold out7_5
  rw [View.canon_unit_zero hz]
  simp only [View.ld_unit_zero (S := S5000x64) hz, View.ld_unit_zero (S := S1x64) hz]
  rw [pay_eq]
  obtain ⟨e00, e01, e50, e51, e10, e11, e20, e21, e30, e31, e40, e41⟩ := idx_facts t
  funext j
  have hj0 : (j 0).val < 5000 := (j 0).isLt
  have hj1 : (j 1).val < 64 := (j 1).isLt
  show nrmMax eps (iblk7 V c 0 t) (iblk7 V c 1 t) (iblk7 V c 2 t) (iblk7 V c 3 t) (iblk7 V c 4 t) zero j
      = (nrmMax eps (V c main_v68_0) (V c main_v70) (V c main_v74) (V c main_v75) (V c main_v76) zero) (((cfg7.win 5).blk t).view.emb j)
  refine nrmMax_entry_congr eps _ j (((cfg7.win 5).blk t).view.emb j) ?_ ?_ ?_ ?_ ?_
  · show V c main_v68_0 (((cfg7.win 0).blk t).view.emb j) = V c main_v68_0 (((cfg7.win 5).blk t).view.emb j)
    refine congrArg _ (funext fun a => Fin.ext ?_)
    match a with
    | ⟨0, _⟩ => show win7_0.index t (0 : Fin 2) * 5000 + 1 * (j 0).val = win7_5.index t (0 : Fin 2) * 5000 + 1 * (j 0).val; omega
    | ⟨1, _⟩ => show win7_0.index t (1 : Fin 2) * 64 + 1 * (j 1).val = win7_5.index t (1 : Fin 2) * 64 + 1 * (j 1).val; omega
  · show V c main_v70 (((cfg7.win 1).blk t).view.emb (ix2 0 (colOf j))) = V c main_v70 (ix2 0 (colOf (((cfg7.win 5).blk t).view.emb j)))
    refine congrArg _ (funext fun a => Fin.ext ?_)
    match a with
    | ⟨0, _⟩ => show win7_1.index t (0 : Fin 2) * 1 + 1 * 0 = 0; omega
    | ⟨1, _⟩ => show win7_1.index t (1 : Fin 2) * 64 + 1 * (j 1).val = win7_5.index t (1 : Fin 2) * 64 + 1 * (j 1).val; omega
  · show V c main_v74 (((cfg7.win 2).blk t).view.emb (ix2 0 (colOf j))) = V c main_v74 (ix2 0 (colOf (((cfg7.win 5).blk t).view.emb j)))
    refine congrArg _ (funext fun a => Fin.ext ?_)
    match a with
    | ⟨0, _⟩ => show win7_2.index t (0 : Fin 2) * 1 + 1 * 0 = 0; omega
    | ⟨1, _⟩ => show win7_2.index t (1 : Fin 2) * 64 + 1 * (j 1).val = win7_5.index t (1 : Fin 2) * 64 + 1 * (j 1).val; omega
  · show V c main_v75 (((cfg7.win 3).blk t).view.emb (ix2 0 (colOf j))) = V c main_v75 (ix2 0 (colOf (((cfg7.win 5).blk t).view.emb j)))
    refine congrArg _ (funext fun a => Fin.ext ?_)
    match a with
    | ⟨0, _⟩ => show win7_3.index t (0 : Fin 2) * 1 + 1 * 0 = 0; omega
    | ⟨1, _⟩ => show win7_3.index t (1 : Fin 2) * 64 + 1 * (j 1).val = win7_5.index t (1 : Fin 2) * 64 + 1 * (j 1).val; omega
  · show V c main_v76 (((cfg7.win 4).blk t).view.emb (ix2 0 (colOf j))) = V c main_v76 (ix2 0 (colOf (((cfg7.win 5).blk t).view.emb j)))
    refine congrArg _ (funext fun a => Fin.ext ?_)
    match a with
    | ⟨0, _⟩ => show win7_4.index t (0 : Fin 2) * 1 + 1 * 0 = 0; omega
    | ⟨1, _⟩ => show win7_4.index t (1 : Fin 2) * 64 + 1 * (j 1).val = win7_5.index t (1 : Fin 2) * 64 + 1 * (j 1).val; omega

/-- An index of the result is in point `t`'s block iff each coordinate is in the block's range on its axis. -/
theorem mem_blk (t : Fin cfg7.N) (i : S50000x64.Idx) :
    i ∈ ((cfg7.win 5).blk t).view.set ↔ ∀ a : Fin 2, win7_5.index t a * S5000x64.size a ≤ (i a).val ∧ (i a).val < win7_5.index t a * S5000x64.size a + S5000x64.size a := by
  show i ∈ ((View.whole main_v77).slice (win7_5.rect t)).set ↔ _
  rw [View.set_slice_whole, Rect.mem_set_unit]
  exact Iff.rfl

/-- Every index of the result is in the block of the point numbered by its row divided by 5000. -/
theorem cover (i : S50000x64.Idx) : ∃ t : Fin cfg7.N, (cfg7.win 5).flush t = true ∧ i ∈ ((cfg7.win 5).blk t).view.set := by
  have hi0 : (i 0).val < 50000 := (i 0).isLt
  have hi1 : (i 1).val < 64 := (i 1).isLt
  have hlt : (i 0).val / 5000 < 10 := by omega
  obtain ⟨e00, e01, e50, e51, -⟩ := idx_facts (⟨(i 0).val / 5000, hlt⟩ : Fin cfg7.N)
  refine ⟨⟨(i 0).val / 5000, hlt⟩, flush7_5 _, ?_⟩
  rw [mem_blk]
  intro a
  match a with
  | ⟨0, _⟩ =>
    show win7_5.index ⟨(i 0).val / 5000, hlt⟩ (0 : Fin 2) * 5000 ≤ (i 0).val ∧ (i 0).val < win7_5.index ⟨(i 0).val / 5000, hlt⟩ (0 : Fin 2) * 5000 + 5000
    rw [e50]; show (i 0).val / 5000 * 5000 ≤ (i 0).val ∧ (i 0).val < (i 0).val / 5000 * 5000 + 5000; omega
  | ⟨1, _⟩ =>
    show win7_5.index ⟨(i 0).val / 5000, hlt⟩ (1 : Fin 2) * 64 ≤ (i 1).val ∧ (i 1).val < win7_5.index ⟨(i 0).val / 5000, hlt⟩ (1 : Fin 2) * 64 + 64
    rw [e51]; omega

/-- After the launch the result array is the normalised activations. -/
theorem final (c : Dev nD) :
    (dat7 V c).arrAt 5 cfg7.N = nrmMax eps (V c main_v68_0) (V c main_v70) (V c main_v74) (V c main_v75) (V c main_v76) zero :=
  (dat7 V c).arrAt_eq_of_cover 5 _ (fun t _ => flushed_eq V c t) cover

end Cert.KernelIdeal.Launch7

end
-- ==== Proof.KStage3.lean ====
/-
  The idealized kernel's program through graph-convolution block 2, boundary by boundary.

  A host stretch aggregates the node features over the edges (gather at the sources, scatter-add at the targets)
  and regards the relation bias as a row; a launch leaves the dense step and its column statistics; a second
  stretch turns them into mean and variance and regards scale and shift as rows; a second launch normalises and
  floors at zero. So the buffer that launch writes holds block 2 applied to the block's input.
-/
import proofs.«160678_j77988016161089_1_alg».proof.Proof.Gen.KernelIdeal.Frame
import Idealize.ShloMosaic.Lib.ValueIdx
import Idealize.ShloMosaic.Lib.StableHlo.Run
import proofs.«160678_j77988016161089_1_alg».proof.Proof.KStage2
import proofs.«160678_j77988016161089_1_alg».proof.Proof.Launch6
import proofs.«160678_j77988016161089_1_alg».proof.Proof.Launch7
set_option maxRecDepth 16384

noncomputable section

namespace Cert.KernelIdeal.Stages

open Cert.KernelIdeal Cert.KernelIdeal.Gen
open Idealize.ShloMosaic Idealize.ShloMosaic.TcCoe Idealize.ShloMosaic.ValueIdx Idealize.SL.Sem Idealize.ShloMosaic.StableHlo

open Cert.Gnn Cert.KernelIdeal.Fold
open Cert.MatProduct (prod)
open Cert.RowBias (addRowMax)

variable (m : (ℓ : Loc nD τ sig) → Buf (Elt Ideal) ℓ) (ρ : Dev nD → PrngReg) (c : Dev nD)

/-- Aggregation over the edges at width 128: gather the source nodes' rows, add them at the target nodes. -/
def agg2 (h : Mat 50000 128) : Mat 50000 128 :=
  Host.scatterAdd (F := Ideal) scatter_S50000x128_S800000x1_S800000x128_1_0_0_1
    (broadcastInDim S50000x128 ![] bcast_S_S50000x128 (constant (F := Ideal) S_ .f32 0#32))
    (broadcastInDim S800000x1 ![0] bcast_S800000_S800000x1_0 (dst m c))
    (Host.gather gather_S50000x128_S800000x1_S800000x128_1_0_n_n_0_1_1128 h
      (broadcastInDim S800000x1 ![0] bcast_S800000_S800000x1_0
        (select (cmpi .slt (src m c) (broadcastInDim S800000 ![] bcast_S_S800000 (constantI S_ 32 0#32)))
          (addi (src m c) (broadcastInDim S800000 ![] bcast_S_S800000 (constantI S_ 32 50000#32))) (src m c))))

theorem v1_at12 : W12 m ρ c (Proc.devRef .tc main_v1) = src m c := by
  rw [W12_of_ne m ρ c main_v1 (by decide), keep5 m ρ c main_v1 (by decide), W10_of_ne m ρ c main_v1 (by decide), keep4 m ρ c main_v1 (by decide), W8_of_ne m ρ c main_v1 (by decide), keep3 m ρ c main_v1 (by decide), W6_of_ne m ρ c main_v1 (by decide), keep2 m ρ c main_v1 (by decide), W4_of_ne m ρ c main_v1 (by decide), keep1 m ρ c main_v1 (by decide), W2_of_ne m ρ c main_v1 (by decide), v1_at1]

theorem v3_at12 : W12 m ρ c (Proc.devRef .tc main_v3) = dst m c := by
  rw [W12_of_ne m ρ c main_v3 (by decide), keep5 m ρ c main_v3 (by decide), W10_of_ne m ρ c main_v3 (by decide), keep4 m ρ c main_v3 (by decide), W8_of_ne m ρ c main_v3 (by decide), keep3 m ρ c main_v3 (by decide), W6_of_ne m ρ c main_v3 (by decide), keep2 m ρ c main_v3 (by decide), W4_of_ne m ρ c main_v3 (by decide), keep1 m ρ c main_v3 (by decide), W2_of_ne m ρ c main_v3 (by decide), v3_at1]

theorem arg17_at12 : W12 m ρ c (Proc.devRef .tc main_arg17) = arg m c main_arg17 := by
  rw [W12_of_ne m ρ c main_arg17 (by decide), keep5 m ρ c main_arg17 (by decide), W10_of_ne m ρ c main_arg17 (by decide), keep4 m ρ c main_arg17 (by decide), W8_of_ne m ρ c main_arg17 (by decide), keep3 m ρ c main_arg17 (by decide), W6_of_ne m ρ c main_arg17 (by decide), keep2 m ρ c main_arg17 (by decide), W4_of_ne m ρ c main_arg17 (by decide), keep1 m ρ c main_arg17 (by decide), W2_of_ne m ρ c main_arg17 (by decide), keep0 m ρ c main_arg17 (by decide)]
theorem arg16_at13 : W13 m ρ c (Proc.devRef .tc main_arg16) = arg m c main_arg16 := by
  rw [keep6 m ρ c main_arg16 (by decide), W12_of_ne m ρ c main_arg16 (by decide), keep5 m ρ c main_arg16 (by decide), W10_of_ne m ρ c main_arg16 (by decide), keep4 m ρ c main_arg16 (by decide), W8_of_ne m ρ c main_arg16 (by decide), keep3 m ρ c main_arg16 (by decide), W6_of_ne m ρ c main_arg16 (by decide), keep2 m ρ c main_arg16 (by decide), W4_of_ne m ρ c main_arg16 (by decide), keep1 m ρ c main_arg16 (by decide), W2_of_ne m ρ c main_arg16 (by decide), keep0 m ρ c main_arg16 (by decide)]
theorem arg18_at13 : W13 m ρ c (Proc.devRef .tc main_arg18) = arg m c main_arg18 := by
  rw [keep6 m ρ c main_arg18 (by decide), W12_of_ne m ρ c main_arg18 (by decide), keep5 m ρ c main_arg18 (by decide), W10_of_ne m ρ c main_arg18 (by decide), keep4 m ρ c main_arg18 (by decide), W8_of_ne m ρ c main_arg18 (by decide), keep3 m ρ c main_arg18 (by decide), W6_of_ne m ρ c main_arg18 (by decide), keep2 m ρ c main_arg18 (by decide), W4_of_ne m ρ c main_arg18 (by decide), keep1 m ρ c main_arg18 (by decide), W2_of_ne m ρ c main_arg18 (by decide), keep0 m ρ c main_arg18 (by decide)]
theorem arg19_at14 : W14 m ρ c (Proc.devRef .tc main_arg19) = arg m c main_arg19 := by
  rw [W14_of_ne m ρ c main_arg19 (by decide), keep6 m ρ c main_arg19 (by decide), W12_of_ne m ρ c main_arg19 (by decide), keep5 m ρ c main_arg19 (by decide), W10_of_ne m ρ c main_arg19 (by decide), keep4 m ρ c main_arg19 (by decide), W8_of_ne m ρ c main_arg19 (by decide), keep3 m ρ c main_arg19 (by decide), W6_of_ne m ρ c main_arg19 (by decide), keep2 m ρ c main_arg19 (by decide), W4_of_ne m ρ c main_arg19 (by decide), keep1 m ρ c main_arg19 (by decide), W2_of_ne m ρ c main_arg19 (by decide), keep0 m ρ c main_arg19 (by decide)]
theorem arg20_at14 : W14 m ρ c (Proc.devRef .tc main_arg20) = arg m c main_arg20 := by
  rw [W14_of_ne m ρ c main_arg20 (by decide), keep6 m ρ c main_arg20 (by decide), W12_of_ne m ρ c main_arg20 (by decide), keep5 m ρ c main_arg20 (by decide), W10_of_ne m ρ c main_arg20 (by decide), keep4 m ρ c main_arg20 (by decide), W8_of_ne m ρ c main_arg20 (by decide), keep3 m ρ c main_arg20 (by decide), W6_of_ne m ρ c main_arg20 (by decide), keep2 m ρ c main_arg20 (by decide), W4_of_ne m ρ c main_arg20 (by decide), keep1 m ρ c main_arg20 (by decide), W2_of_ne m ρ c main_arg20 (by decide), keep0 m ρ c main_arg20 (by decide)]

attribute [local irreducible] Host.gather Host.scatterAdd in
theorem agg_at13 : W13 m ρ c (Proc.devRef .tc main_v66) = agg2 m c (H2 m c) := by
  show StableHlo.after hostOps6 (W12 m ρ c) (Proc.devRef .tc main_v66) = _
  after_results_simp
  rw [v1_at12, v3_at12, h_at12]
  rfl

theorem brel_at13 : W13 m ρ c (Proc.devRef .tc main_v67) = rowOfVec (arg m c main_arg17) := by
  show StableHlo.after hostOps6 (W12 m ρ c) (Proc.devRef .tc main_v67) = _
  after_results_simp
  rw [arg17_at12]
  exact reshape_row _ _

theorem hp_at13 : W13 m ρ c (Proc.devRef .tc main_v56) = H2 m c := by
  rw [keep6 m ρ c main_v56 (by decide), h_at12]

/-- Block 2's dense step. -/
def Y3 : Mat 50000 64 :=
  conv (agg2 m c (H2 m c)) (arg m c main_arg16) (rowOfVec (arg m c main_arg17)) (H2 m c) (arg m c main_arg18)

theorem y_at14 : W14 m ρ c (Proc.devRef .tc main_v68_0) = Y3 m c := by
  rw [show W14 m ρ c (Proc.devRef .tc main_v68_0) = _ from W14_arr m ρ c 5, Launch6.final5]
  show conv (W13 m ρ c (Proc.devRef .tc main_v66)) (W13 m ρ c (Proc.devRef .tc main_arg16)) (W13 m ρ c (Proc.devRef .tc main_v67)) (W13 m ρ c (Proc.devRef .tc main_v56)) (W13 m ρ c (Proc.devRef .tc main_arg18)) = _
  rw [agg_at13, arg16_at13, brel_at13, hp_at13, arg18_at13]
  rfl

theorem s_at14 : W14 m ρ c (Proc.devRef .tc main_v68_1) = colSums (Y3 m c) := by
  rw [show W14 m ρ c (Proc.devRef .tc main_v68_1) = _ from W14_arr m ρ c 6, Launch6.final6]
  show colSums (conv (W13 m ρ c (Proc.devRef .tc main_v66)) (W13 m ρ c (Proc.devRef .tc main_arg16)) (W13 m ρ c (Proc.devRef .tc main_v67)) (W13 m ρ c (Proc.devRef .tc main_v56)) (W13 m ρ c (Proc.devRef .tc main_arg18))) = _
  rw [agg_at13, arg16_at13, brel_at13, hp_at13, arg18_at13]
  rfl

theorem q_at14 : W14 m ρ c (Proc.devRef .tc main_v68_2) = colSqSums (Y3 m c) := by
  rw [show W14 m ρ c (Proc.devRef .tc main_v68_2) = _ from W14_arr m ρ c 7, Launch6.final7]
  show colSqSums (conv (W13 m ρ c (Proc.devRef .tc main_v66)) (W13 m ρ c (Proc.devRef .tc main_arg16)) (W13 m ρ c (Proc.devRef .tc main_v67)) (W13 m ρ c (Proc.devRef .tc main_v56)) (W13 m ρ c (Proc.devRef .tc main_arg18))) = _
  rw [agg_at13, arg16_at13, brel_at13, hp_at13, arg18_at13]
  rfl

theorem mean_at15 : W15 m ρ c (Proc.devRef .tc main_v70) = meanRow cntC (Y3 m c) := by
  show StableHlo.after hostOps7 (W14 m ρ c) (Proc.devRef .tc main_v70) = _
  after_results
  rw [s_at14]
  exact row_mean _ _ _

theorem var_at15 : W15 m ρ c (Proc.devRef .tc main_v74) = varSq cntC (Y3 m c) := by
  show StableHlo.after hostOps7 (W14 m ρ c) (Proc.devRef .tc main_v74) = _
  after_results
  rw [s_at14, q_at14]
  exact row_var _ _ _ _ _ rfl

theorem g_at15 : W15 m ρ c (Proc.devRef .tc main_v75) = rowOfVec (arg m c main_arg19) := by
  show StableHlo.after hostOps7 (W14 m ρ c) (Proc.devRef .tc main_v75) = _
  after_results
  rw [arg19_at14]
  exact reshape_row _ _

theorem beta_at15 : W15 m ρ c (Proc.devRef .tc main_v76) = rowOfVec (arg m c main_arg20) := by
  show StableHlo.after hostOps7 (W14 m ρ c) (Proc.devRef .tc main_v76) = _
  after_results
  rw [arg20_at14]
  exact reshape_row _ _

theorem y_at15 : W15 m ρ c (Proc.devRef .tc main_v68_0) = Y3 m c := by
  rw [keep7 m ρ c main_v68_0 (by decide), y_at14]

/-- Block 2 applied to its input. -/
def H3 : Mat 50000 64 :=
  block varSq epsC cntC zeroC (agg2 m c) (H2 m c) (arg m c main_arg16) (rowOfVec (arg m c main_arg17)) (arg m c main_arg18)
    (rowOfVec (arg m c main_arg19)) (rowOfVec (arg m c main_arg20))

theorem h_at16 : W16 m ρ c (Proc.devRef .tc main_v77) = H3 m c := by
  rw [show W16 m ρ c (Proc.devRef .tc main_v77) = _ from W16_arr m ρ c 5, Launch7.final]
  show nrmMax _ (W15 m ρ c (Proc.devRef .tc main_v68_0)) (W15 m ρ c (Proc.devRef .tc main_v70)) (W15 m ρ c (Proc.devRef .tc main_v74))
    (W15 m ρ c (Proc.devRef .tc main_v75)) (W15 m ρ c (Proc.devRef .tc main_v76)) _ = _
  rw [y_at15, mean_at15, var_at15, g_at15, beta_at15]
  rfl

end Cert.KernelIdeal.Stages

end
-- ==== Proof.Launch8.lean ====
/-
  Launch 8: a graph convolution's dense step with its running column statistics, read as functions of the
  arrays the launch is entered with.

  Point `t` of the grid works on rows `5000 t … 5000 t + 4999`: it computes the dense step
  `(a · wrel + brel) + h · wroot` of those rows and writes them back, resets two carried rows to zero at the first
  point, and adds the block's column sums, and the column sums of its squares, onto them; the carried rows are
  written back once, after the last point. The ten blocks tile the 50000 rows, so the dense step's array ends as
  the dense step of the whole arrays, and the two rows as its column sums and column sums of squares.
-/
import proofs.«160678_j77988016161089_1_alg».proof.Proof.Gen.KernelIdeal.Frame
import proofs.«160678_j77988016161089_1_alg».proof.Proof.LibGnnVector
import proofs.«160678_j77988016161089_1_alg».proof.Proof.Accum
set_option maxRecDepth 16384
noncomputable section
namespace Cert.KernelIdeal.Launch8
open Cert.KernelIdeal Cert.KernelIdeal.Gen
open Idealize.ShloMosaic Idealize.ShloMosaic.TcCoe Idealize.ShloMosaic.Tactic Idealize.ShloMosaic.ValueIdx Idealize.SL.Sem
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat Cfg Window)
open Cert.Gnn
open Cert.MatProduct (rowOf colOf)
variable {F : FTy → Type} [FloatOps F]
theorem hz : (![0, 0] : Fin 2 → Nat) = fun _ => 0 := funext fun a => by fin_cases a <;> rfl

/-! ## What each case of the body leaves in the three outputs' buffers -/

theorem piece_A_5 (c : Dev nD) (i : grid8.Coords) (arg1 : Memref sig .tc .vmem S5000x64 .f32) (harg1 : arg1.IsWhole) (arg2 : Memref sig .tc .vmem S64x32 .f32) (harg2 : arg2.IsWhole) (arg3 : Memref sig .tc .vmem S1x32 .f32) (harg3 : arg3.IsWhole) (arg4 : Memref sig .tc .vmem S5000x64 .f32) (harg4 : arg4.IsWhole) (arg5 : Memref sig .tc .vmem S64x32 .f32) (harg5 : arg5.IsWhole) (arg6 : Memref sig .tc .vmem S5000x32 .f32) (harg6 : arg6.IsWhole) (arg7 : Memref sig .tc .vmem S1x32 .f32) (harg7 : arg7.IsWhole) (arg8 : Memref sig .tc .vmem S1x32 .f32) (harg8 : arg8.IsWhole) (hc0 : cond8_0 i)
    (x0 : Vec F S5000x64 .f32) (x1 : Vec F S64x32 .f32) (x2 : Vec F S1x32 .f32) (x3 : Vec F S5000x64 .f32) (x4 : Vec F S64x32 .f32) :
    out8_A_5 c i arg1 harg1 arg2 harg2 arg3 harg3 arg4 harg4 arg5 harg5 arg6 harg6 arg7 harg7 arg8 harg8 hc0 x0 x1 x2 x3 x4 = k8_pay2 x0 x1 x3 x4 x2 := by
  unfold out8_A_5
  rw [View.read_writes_eq_canon _ _ _ (cover8_A_5 c i arg1 harg1 arg2 harg2 arg3 harg3 arg4 harg4 arg5 harg5 arg6 harg6 arg7 harg7 arg8 harg8 hc0 x0 x1 x2 x3 x4)]
  unfold kernelRun8_A
  dsimp only
  sl_unfold_words
  rw [View.canon_unit_zero hz]
  simp only [View.readAt_eq_ld, harg1.read_unread, harg2.read_unread, harg3.read_unread, harg4.read_unread, harg5.read_unread, harg7.read_unread, harg8.read_unread,
    View.ld_unit_zero (S := S5000x64) hz, View.ld_unit_zero (S := S64x32) hz, View.ld_unit_zero (S := S1x32) hz, View.readCov_unit_zero (S := S1x32) _ hz]
  try rfl

theorem piece_B_5 (c : Dev nD) (i : grid8.Coords) (arg1 : Memref sig .tc .vmem S5000x64 .f32) (harg1 : arg1.IsWhole) (arg2 : Memref sig .tc .vmem S64x32 .f32) (harg2 : arg2.IsWhole) (arg3 : Memref sig .tc .vmem S1x32 .f32) (harg3 : arg3.IsWhole) (arg4 : Memref sig .tc .vmem S5000x64 .f32) (harg4 : arg4.IsWhole) (arg5 : Memref sig .tc .vmem S64x32 .f32) (harg5 : arg5.IsWhole) (arg6 : Memref sig .tc .vmem S5000x32 .f32) (harg6 : arg6.IsWhole) (arg7 : Memref sig .tc .vmem S1x32 .f32) (harg7 : arg7.IsWhole) (arg8 : Memref sig .tc .vmem S1x32 .f32) (harg8 : arg8.IsWhole) (hc0 : ¬cond8_0 i)
    (x0 : Vec F S5000x64 .f32) (x1 : Vec F S64x32 .f32) (x2 : Vec F S1x32 .f32) (x3 : Vec F S5000x64 .f32) (x4 : Vec F S64x32 .f32) (xo6 : Vec F S1x32 .f32) (xo7 : Vec F S1x32 .f32) :
    out8_B_5 c i arg1 harg1 arg2 harg2 arg3 harg3 arg4 harg4 arg5 harg5 arg6 harg6 arg7 harg7 arg8 harg8 hc0 x0 x1 x2 x3 x4 xo6 xo7 = k8_pay2 x0 x1 x3 x4 x2 := by
  unfold out8_B_5
  rw [View.read_writes_eq_canon _ _ _ (cover8_B_5 c i arg1 harg1 arg2 harg2 arg3 harg3 arg4 harg4 arg5 harg5 arg6 harg6 arg7 harg7 arg8 harg8 hc0 x0 x1 x2 x3 x4 xo6 xo7)]
  unfold kernelRun8_B
  dsimp only
  sl_unfold_words
  rw [View.canon_unit_zero hz]
  simp only [View.readAt_eq_ld, harg1.read_unread, harg2.read_unread, harg3.read_unread, harg4.read_unread, harg5.read_unread, harg7.read_unread, harg8.read_unread,
    View.ld_unit_zero (S := S5000x64) hz, View.ld_unit_zero (S := S64x32) hz, View.ld_unit_zero (S := S1x32) hz, View.readCov_unit_zero (S := S1x32) _ hz]
  try rfl

theorem piece_B_6 (c : Dev nD) (i : grid8.Coords) (arg1 : Memref sig .tc .vmem S5000x64 .f32) (harg1 : arg1.IsWhole) (arg2 : Memref sig .tc .vmem S64x32 .f32) (harg2 : arg2.IsWhole) (arg3 : Memref sig .tc .vmem S1x32 .f32) (harg3 : arg3.IsWhole) (arg4 : Memref sig .tc .vmem S5000x64 .f32) (harg4 : arg4.IsWhole) (arg5 : Memref sig .tc .vmem S64x32 .f32) (harg5 : arg5.IsWhole) (arg6 : Memref sig .tc .vmem S5000x32 .f32) (harg6 : arg6.IsWhole) (arg7 : Memref sig .tc .vmem S1x32 .f32) (harg7 : arg7.IsWhole) (arg8 : Memref sig .tc .vmem S1x32 .f32) (harg8 : arg8.IsWhole) (hc0 : ¬cond8_0 i)
    (x0 : Vec F S5000x64 .f32) (x1 : Vec F S64x32 .f32) (x2 : Vec F S1x32 .f32) (x3 : Vec F S5000x64 .f32) (x4 : Vec F S64x32 .f32) (xo6 : Vec F S1x32 .f32) (xo7 : Vec F S1x32 .f32) :
    out8_B_6 c i arg1 harg1 arg2 harg2 arg3 harg3 arg4 harg4 arg5 harg5 arg6 harg6 arg7 harg7 arg8 harg8 hc0 x0 x1 x2 x3 x4 xo6 xo7 = k8_pay5 x0 x1 x3 x4 x2 xo6 := by
  unfold out8_B_6
  rw [View.read_writes_eq_canon _ _ _ (cover8_B_6 c i arg1 harg1 arg2 harg2 arg3 harg3 arg4 harg4 arg5 harg5 arg6 harg6 arg7 harg7 arg8 harg8 hc0 x0 x1 x2 x3 x4 xo6 xo7)]
  unfold kernelRun8_B
  dsimp only
  sl_unfold_words
  rw [View.canon_unit_zero hz]
  simp only [View.readAt_eq_ld, harg1.read_unread, harg2.read_unread, harg3.read_unread, harg4.read_unread, harg5.read_unread, harg7.read_unread, harg8.read_unread,
    View.ld_unit_zero (S := S5000x64) hz, View.ld_unit_zero (S := S64x32) hz, View.ld_unit_zero (S := S1x32) hz, View.readCov_unit_zero (S := S1x32) _ hz]
  try rfl

theorem piece_B_7 (c : Dev nD) (i : grid8.Coords) (arg1 : Memref sig .tc .vmem S5000x64 .f32) (harg1 : arg1.IsWhole) (arg2 : Memref sig .tc .vmem S64x32 .f32) (harg2 : arg2.IsWhole) (arg3 : Memref sig .tc .vmem S1x32 .f32) (harg3 : arg3.IsWhole) (arg4 : Memref sig .tc .vmem S5000x64 .f32) (harg4 : arg4.IsWhole) (arg5 : Memref sig .tc .vmem S64x32 .f32) (harg5 : arg5.IsWhole) (arg6 : Memref sig .tc .vmem S5000x32 .f32) (harg6 : arg6.IsWhole) (arg7 : Memref sig .tc .vmem S1x32 .f32) (harg7 : arg7.IsWhole) (arg8 : Memref sig .tc .vmem S1x32 .f32) (harg8 : arg8.IsWhole) (hc0 : ¬cond8_0 i)
    (x0 : Vec F S5000x64 .f32) (x1 : Vec F S64x32 .f32) (x2 : Vec F S1x32 .f32) (x3 : Vec F S5000x64 .f32) (x4 : Vec F S64x32 .f32) (xo6 : Vec F S1x32 .f32) (xo7 : Vec F S1x32 .f32) :
    out8_B_7 c i arg1 harg1 arg2 harg2 arg3 harg3 arg4 harg4 arg5 harg5 arg6 harg6 arg7 harg7 arg8 harg8 hc0 x0 x1 x2 x3 x4 xo6 xo7 = k8_pay1 (k8_pay6 xo7) (k8_pay7 x0 x1 x3 x4 x2) := by
  unfold out8_B_7
  rw [View.read_writes_eq_canon _ _ _ (cover8_B_7 c i arg1 harg1 arg2 harg2 arg3 harg3 arg4 harg4 arg5 harg5 arg6 harg6 arg7 harg7 arg8 harg8 hc0 x0 x1 x2 x3 x4 xo6 xo7)]
  unfold kernelRun8_B
  dsimp only
  sl_unfold_words
  rw [View.canon_unit_zero hz]
  simp only [View.readAt_eq_ld, harg1.read_unread, harg2.read_unread, harg3.read_unread, harg4.read_unread, harg5.read_unread, harg7.read_unread, harg8.read_unread,
    View.ld_unit_zero (S := S5000x64) hz, View.ld_unit_zero (S := S64x32) hz, View.ld_unit_zero (S := S1x32) hz, View.readCov_unit_zero (S := S1x32) _ hz]
  try rfl

theorem piece_A_6 (c : Dev nD) (i : grid8.Coords) (arg1 : Memref sig .tc .vmem S5000x64 .f32) (harg1 : arg1.IsWhole) (arg2 : Memref sig .tc .vmem S64x32 .f32) (harg2 : arg2.IsWhole) (arg3 : Memref sig .tc .vmem S1x32 .f32) (harg3 : arg3.IsWhole) (arg4 : Memref sig .tc .vmem S5000x64 .f32) (harg4 : arg4.IsWhole) (arg5 : Memref sig .tc .vmem S64x32 .f32) (harg5 : arg5.IsWhole) (arg6 : Memref sig .tc .vmem S5000x32 .f32) (harg6 : arg6.IsWhole) (arg7 : Memref sig .tc .vmem S1x32 .f32) (harg7 : arg7.IsWhole) (arg8 : Memref sig .tc .vmem S1x32 .f32) (harg8 : arg8.IsWhole) (hc0 : cond8_0 i)
    (x0 : Vec F S5000x64 .f32) (x1 : Vec F S64x32 .f32) (x2 : Vec F S1x32 .f32) (x3 : Vec F S5000x64 .f32) (x4 : Vec F S64x32 .f32) :
    out8_A_6 c i arg1 harg1 arg2 harg2 arg3 harg3 arg4 harg4 arg5 harg5 arg6 harg6 arg7 harg7 arg8 harg8 hc0 x0 x1 x2 x3 x4 = k8_pay5 x0 x1 x3 x4 x2 (k8_pay3 (F := F)) := by
  unfold out8_A_6
  rw [View.read_writes_eq_canon _ _ _ (cover8_A_6 c i arg1 harg1 arg2 harg2 arg3 harg3 arg4 harg4 arg5 harg5 arg6 harg6 arg7 harg7 arg8 harg8 hc0 x0 x1 x2 x3 x4)]
  unfold kernelRun8_A
  dsimp only
  sl_unfold_words
  rw [View.canon_cons_unit_zero hz]
  simp only [View.readAt_eq_ld, harg1.read_unread, harg2.read_unread, harg3.read_unread, harg4.read_unread, harg5.read_unread, harg7.read_unread, harg8.read_unread,
    View.ld_unit_zero (S := S5000x64) hz, View.ld_unit_zero (S := S64x32) hz, View.ld_unit_zero (S := S1x32) hz, View.readCov_unit_zero (S := S1x32) _ hz]
  try rfl

theorem piece_A_7 (c : Dev nD) (i : grid8.Coords) (arg1 : Memref sig .tc .vmem S5000x64 .f32) (harg1 : arg1.IsWhole) (arg2 : Memref sig .tc .vmem S64x32 .f32) (harg2 : arg2.IsWhole) (arg3 : Memref sig .tc .vmem S1x32 .f32) (harg3 : arg3.IsWhole) (arg4 : Memref sig .tc .vmem S5000x64 .f32) (harg4 : arg4.IsWhole) (arg5 : Memref sig .tc .vmem S64x32 .f32) (harg5 : arg5.IsWhole) (arg6 : Memref sig .tc .vmem S5000x32 .f32) (harg6 : arg6.IsWhole) (arg7 : Memref sig .tc .vmem S1x32 .f32) (harg7 : arg7.IsWhole) (arg8 : Memref sig .tc .vmem S1x32 .f32) (harg8 : arg8.IsWhole) (hc0 : cond8_0 i)
    (x0 : Vec F S5000x64 .f32) (x1 : Vec F S64x32 .f32) (x2 : Vec F S1x32 .f32) (x3 : Vec F S5000x64 .f32) (x4 : Vec F S64x32 .f32) :
    out8_A_7 c i arg1 harg1 arg2 harg2 arg3 harg3 arg4 harg4 arg5 harg5 arg6 harg6 arg7 harg7 arg8 harg8 hc0 x0 x1 x2 x3 x4 = k8_pay1 (k8_pay6 (k8_pay4 (F := F))) (k8_pay7 x0 x1 x3 x4 x2) := by
  unfold out8_A_7
  rw [View.read_writes_eq_canon _ _ _ (cover8_A_7 c i arg1 harg1 arg2 harg2 arg3 harg3 arg4 harg4 arg5 harg5 arg6 harg6 arg7 harg7 arg8 harg8 hc0 x0 x1 x2 x3 x4)]
  unfold kernelRun8_A
  dsimp only
  sl_unfold_words
  rw [View.canon_cons_unit_zero hz]
  simp only [View.readAt_eq_ld, harg1.read_unread, harg2.read_unread, harg3.read_unread, harg4.read_unread, harg5.read_unread, harg7.read_unread, harg8.read_unread,
    View.ld_unit_zero (S := S5000x64) hz, View.ld_unit_zero (S := S64x32) hz, View.ld_unit_zero (S := S1x32) hz, View.readCov_unit_zero (S := S1x32) _ hz]
  try rfl

/-! ## The payloads on the extended reals -/

section AtIdeal
variable (V : (c : Dev nD) → (b : Ref sig .tc) → Buf (Elt Ideal) ((c : Thread nD τ).loc b))

/-- The zero the accumulators are reset to. -/
abbrev zero : Ideal .f32 := Scalar.ofBits .f32 0x00000000#32
/-- The row of zeros. -/
abbrev zrow : Mat 1 32 := broadcast S1x32 zero

theorem pay2_eq (x0 x3 : Vec Ideal S5000x64 .f32) (x1 x4 : Vec Ideal S64x32 .f32) (x2 : Vec Ideal S1x32 .f32) :
    k8_pay2 (F := Ideal) x0 x1 x3 x4 x2 = conv x0 x1 x2 x3 x4 :=
  vec_conv x0 x3 x1 x4 x2 _ _ _ _ _ _

theorem pay5_eq (x0 x3 : Vec Ideal S5000x64 .f32) (x1 x4 : Vec Ideal S64x32 .f32) (x2 acc : Vec Ideal S1x32 .f32) :
    k8_pay5 (F := Ideal) x0 x1 x3 x4 x2 acc = fun i => acc i + colSums (conv x0 x1 x2 x3 x4) i := by
  unfold k8_pay5
  rw [pay2_eq]
  exact vec_colSum acc _ _ _ _ _ _

theorem pay7_eq (x0 x3 : Vec Ideal S5000x64 .f32) (x1 x4 : Vec Ideal S64x32 .f32) (x2 acc : Vec Ideal S1x32 .f32) :
    k8_pay1 (F := Ideal) (k8_pay6 acc) (k8_pay7 x0 x1 x3 x4 x2) = fun i => acc i + colSqSums (conv x0 x1 x2 x3 x4) i := by
  unfold k8_pay1 k8_pay6 k8_pay7
  rw [pay2_eq]
  exact vec_colSum acc (mulf (conv x0 x1 x2 x3 x4) (conv x0 x1 x2 x3 x4)) _ _ _ _ _

/-! ## The carried outputs after each point -/

theorem hN : cfg8.N = 10 := rfl

/-- Point `n`'s block of the dense step (zero past the grid). -/
def Yb (c : Dev nD) (n : ℕ) : Mat 5000 32 :=
  if h : n < cfg8.N then conv (iblk8 V c 0 ⟨n, h⟩) (iblk8 V c 1 ⟨n, h⟩) (iblk8 V c 2 ⟨n, h⟩) (iblk8 V c 3 ⟨n, h⟩) (iblk8 V c 4 ⟨n, h⟩) else fun _ => 0

theorem Yb_of_lt (c : Dev nD) (t : Fin cfg8.N) : Yb V c t.val = conv (iblk8 V c 0 t) (iblk8 V c 1 t) (iblk8 V c 2 t) (iblk8 V c 3 t) (iblk8 V c 4 t) := dif_pos t.isLt

/-- After point `n` the three outputs' buffers hold point `n`'s block of the dense step, and the rows of zeros plus
    the column sums (of the entries, of their squares) of the blocks of points `0 … n`. -/
theorem outs_inv (c : Dev nD) : ∀ (n : ℕ) (hn : n < cfg8.N),
    outsAt8 V c n hn = (Yb V c n, runRow zrow (fun u => colSums (Yb V c u)) n, runRow zrow (fun u => colSqSums (Yb V c u)) n)
  | 0, hn => by
    rw [show outsAt8 V c 0 hn = outsAt8 V c (⟨0, hn⟩ : Fin cfg8.N).val (⟨0, hn⟩ : Fin cfg8.N).isLt from rfl,
      outsAt8_A V c ⟨0, hn⟩ rfl, piece_A_5, piece_A_6, piece_A_7, pay2_eq, pay5_eq, pay7_eq, ← Yb_of_lt V c ⟨0, hn⟩]
    rfl
  | n + 1, hn => by
    have h0 : ¬ (n + 1) % 10 = 0 := by have := hN; omega
    have ih := outs_inv c n (Nat.lt_of_succ_lt hn)
    rw [show outsAt8 V c (n + 1) hn = outsAt8 V c (⟨n + 1, hn⟩ : Fin cfg8.N).val (⟨n + 1, hn⟩ : Fin cfg8.N).isLt from rfl,
      outsAt8_B V c ⟨n + 1, hn⟩ h0, piece_B_5, piece_B_6, piece_B_7, pay2_eq, pay5_eq, pay7_eq, ← Yb_of_lt V c ⟨n + 1, hn⟩]
    show (_, (fun i => (outsAt8 V c n _).2.1 i + _), (fun i => (outsAt8 V c n _).2.2 i + _)) = _
    rw [ih]
    rfl
end AtIdeal

/-! ## The three outputs after the launch -/

section Finals
variable (V : (c : Dev nD) → (b : Ref sig .tc) → Buf (Elt Ideal) ((c : Thread nD τ).loc b))

/-- The printed index maps over the grid: the row-blocked windows (aggregated features, node features, dense
    step) are at block row `t`; every other window's block never moves. -/
theorem idx_facts : ∀ t : Fin cfg8.N,
    win8_0.index t (0 : Fin 2) = t.val ∧ win8_0.index t (1 : Fin 2) = 0
    ∧ win8_3.index t (0 : Fin 2) = t.val ∧ win8_3.index t (1 : Fin 2) = 0
    ∧ win8_5.index t (0 : Fin 2) = t.val ∧ win8_5.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_4.index t (0 : Fin 2) = 0 ∧ win8_4.index t (1 : Fin 2) = 0
    ∧ win8_6.index t (0 : Fin 2) = 0 ∧ win8_6.index t (1 : Fin 2) = 0
    ∧ win8_7.index t (0 : Fin 2) = 0 ∧ win8_7.index t (1 : Fin 2) = 0 :=
  (by decide +kernel : ∀ t : Fin grid8.N, _)

/-- The dense step of the whole arrays the launch is entered with. -/
abbrev Yw (c : Dev nD) : Mat 50000 32 := conv (V c main_v87) (V c main_arg21) (V c main_v88) (V c main_v77) (V c main_arg23)

/-- Point `t`'s block of the dense step is rows `5000 t …` of the whole dense step. -/
theorem Yb_rows (c : Dev nD) (t : Fin cfg8.N) (j : S5000x32.Idx) :
    (conv (iblk8 V c 0 t) (iblk8 V c 1 t) (iblk8 V c 2 t) (iblk8 V c 3 t) (iblk8 V c 4 t)) j = Yw V c (((cfg8.win 5).blk t).view.emb j) := by
  obtain ⟨e00, e01, e30, e31, e50, e51, e10, e11, e20, e21, e40, e41, -⟩ := idx_facts t
  have hj0 : (j 0).val < 5000 := (j 0).isLt
  have hj1 : (j 1).val < 32 := (j 1).isLt
  refine conv_entry_congr j (((cfg8.win 5).blk t).view.emb j) (fun p => ?_) (fun p => ?_) (fun p => ?_) (fun p => ?_) ?_
  · show V c main_v87 (((cfg8.win 0).blk t).view.emb (ix2 (rowOf j) p)) = V c main_v87 (ix2 (rowOf (((cfg8.win 5).blk t).view.emb j)) p)
    have hp : p.val < 64 := p.isLt
    refine congrArg _ (funext fun a => Fin.ext ?_)
    match a with
    | ⟨0, _⟩ => show win8_0.index t (0 : Fin 2) * 5000 + 1 * (j 0).val = win8_5.index t (0 : Fin 2) * 5000 + 1 * (j 0).val; omega
    | ⟨1, _⟩ => show win8_0.index t (1 : Fin 2) * 64 + 1 * p.val = p.val; omega
  · show V c main_v77 (((cfg8.win 3).blk t).view.emb (ix2 (rowOf j) p)) = V c main_v77 (ix2 (rowOf (((cfg8.win 5).blk t).view.emb j)) p)
    have hp : p.val < 64 := p.isLt
    refine congrArg _ (funext fun a => Fin.ext ?_)
    match a with
    | ⟨0, _⟩ => show win8_3.index t (0 : Fin 2) * 5000 + 1 * (j 0).val = win8_5.index t (0 : Fin 2) * 5000 + 1 * (j 0).val; omega
    | ⟨1, _⟩ => show win8_3.index t (1 : Fin 2) * 64 + 1 * p.val = p.val; omega
  · show V c main_arg21 (((cfg8.win 1).blk t).view.emb (ix2 p (colOf j))) = V c main_arg21 (ix2 p (colOf (((cfg8.win 5).blk t).view.emb j)))
    have hp : p.val < 64 := p.isLt
    refine congrArg _ (funext fun a => Fin.ext ?_)
    match a with
    | ⟨0, _⟩ => show win8_1.index t (0 : Fin 2) * 64 + 1 * p.val = p.val; omega
    | ⟨1, _⟩ => show win8_1.index t (1 : Fin 2) * 32 + 1 * (j 1).val = win8_5.index t (1 : Fin 2) * 32 + 1 * (j 1).val; omega
  · show V c main_arg23 (((cfg8.win 4).blk t).view.emb (ix2 p (colOf j))) = V c main_arg23 (ix2 p (colOf (((cfg8.win 5).blk t).view.emb j)))
    have hp : p.val < 64 := p.isLt
    refine congrArg _ (funext fun a => Fin.ext ?_)
    match a with
    | ⟨0, _⟩ => show win8_4.index t (0 : Fin 2) * 64 + 1 * p.val = p.val; omega
    | ⟨1, _⟩ => show win8_4.index t (1 : Fin 2) * 32 + 1 * (j 1).val = win8_5.index t (1 : Fin 2) * 32 + 1 * (j 1).val; omega
  · show V c main_v88 (((cfg8.win 2).blk t).view.emb (ix2 0 (colOf j))) = V c main_v88 (ix2 0 (colOf (((cfg8.win 5).blk t).view.emb j)))
    refine congrArg _ (funext fun a => Fin.ext ?_)
    match a with
    | ⟨0, _⟩ => show win8_2.index t (0 : Fin 2) * 1 + 1 * 0 = 0; omega
    | ⟨1, _⟩ => show win8_2.index t (1 : Fin 2) * 32 + 1 * (j 1).val = win8_5.index t (1 : Fin 2) * 32 + 1 * (j 1).val; omega

/-- The same, with the block's rows numbered inside the whole. -/
theorem Yb_block (c : Dev nD) (u : Fin 10) (r : Fin 5000) (p : Fin 32) :
    Yb V c u.val (ix2 r p) = Yw V c (ix2 ⟨5000 * u.val + r.val, by have := u.isLt; have := r.isLt; omega⟩ p) := by
  have hu : u.val < cfg8.N := by rw [hN]; exact u.isLt
  obtain ⟨-, -, -, -, e50, e51, -⟩ := idx_facts ⟨u.val, hu⟩
  rw [Yb_of_lt V c ⟨u.val, hu⟩, Yb_rows V c ⟨u.val, hu⟩ (ix2 r p)]
  have hr : r.val < 5000 := r.isLt
  have hp : p.val < 32 := p.isLt
  refine congrArg _ (funext fun a => Fin.ext ?_)
  match a with
  | ⟨0, _⟩ => show win8_5.index ⟨u.val, hu⟩ (0 : Fin 2) * 5000 + 1 * r.val = 5000 * u.val + r.val; rw [e50]; show u.val * 5000 + 1 * r.val = 5000 * u.val + r.val; omega
  | ⟨1, _⟩ => show win8_5.index ⟨u.val, hu⟩ (1 : Fin 2) * 32 + 1 * p.val = p.val; omega

/-- What point `t` writes back through window 5 is block `t` of the whole dense step. -/
theorem flushed5_eq (c : Dev nD) (t : Fin cfg8.N) :
    (dat8 V c).flushed 5 t = ((cfg8.win 5).blk t).view.read (Elt Ideal) (Yw V c) := by
  show (cfg8.win 5).cut (grid8.coords t) ((dat8 V c).after 5 t) = _
  rw [after8_5, outs_inv V c t.val t.isLt, Yb_of_lt]
  funext j
  exact Yb_rows V c t j

theorem mem_blk5 (t : Fin cfg8.N) (i : S50000x32.Idx) :
    i ∈ ((cfg8.win 5).blk t).view.set ↔ ∀ a : Fin 2, win8_5.index t a * S5000x32.size a ≤ (i a).val ∧ (i a).val < win8_5.index t a * S5000x32.size a + S5000x32.size a := by
  show i ∈ ((View.whole main_v89_0).slice (win8_5.rect t)).set ↔ _
  rw [View.set_slice_whole, Rect.mem_set_unit]
  exact Iff.rfl

/-- Every index of the dense step's array is in the block of the point numbered by its row divided by 5000. -/
theorem cover5 (i : S50000x32.Idx) : ∃ t : Fin cfg8.N, (cfg8.win 5).flush t = true ∧ i ∈ ((cfg8.win 5).blk t).view.set := by
  have hi0 : (i 0).val < 50000 := (i 0).isLt
  have hi1 : (i 1).val < 32 := (i 1).isLt
  have hlt : (i 0).val / 5000 < 10 := by omega
  obtain ⟨-, -, -, -, e50, e51, -⟩ := idx_facts (⟨(i 0).val / 5000, hlt⟩ : Fin cfg8.N)
  refine ⟨⟨(i 0).val / 5000, hlt⟩, flush8_5 _, ?_⟩
  rw [mem_blk5]
  intro a
  match a with
  | ⟨0, _⟩ =>
    show win8_5.index ⟨(i 0).val / 5000, hlt⟩ (0 : Fin 2) * 5000 ≤ (i 0).val ∧ (i 0).val < win8_5.index ⟨(i 0).val / 5000, hlt⟩ (0 : Fin 2) * 5000 + 5000
    rw [e50]; show (i 0).val / 5000 * 5000 ≤ (i 0).val ∧ (i 0).val < (i 0).val / 5000 * 5000 + 5000; omega
  | ⟨1, _⟩ =>
    show win8_5.index ⟨(i 0).val / 5000, hlt⟩ (1 : Fin 2) * 32 ≤ (i 1).val ∧ (i 1).val < win8_5.index ⟨(i 0).val / 5000, hlt⟩ (1 : Fin 2) * 32 + 32
    rw [e51]; omega

/-- After the launch the first output is the whole dense step. -/
theorem final5 (c : Dev nD) : (dat8 V c).arrAt 5 cfg8.N = Yw V c :=
  (dat8 V c).arrAt_eq_of_cover 5 _ (fun t _ => flushed5_eq V c t) cover5

/-- What the last point writes back through window 6 is the carried row after it. -/
theorem flushed6_eq (c : Dev nD) (t : Fin cfg8.N) (hf : (cfg8.win 6).flush t = true) :
    (dat8 V c).flushed 6 t = ((cfg8.win 6).blk t).view.read (Elt Ideal)
      (runRow zrow (fun u => colSums (Yb V c u)) 9) := by
  have h9 : t.val = 9 := by have := (flush8_6 t).mp hf; have := t.isLt; have := hN; omega
  obtain ⟨-, -, -, -, -, -, -, -, -, -, -, -, e60, e61, e70, e71⟩ := idx_facts t
  show (cfg8.win 6).cut (grid8.coords t) ((dat8 V c).after 6 t) = _
  rw [after8_6, outs_inv V c t.val t.isLt]
  funext j
  have hj0 : (j 0).val < 1 := (j 0).isLt
  have hj1 : (j 1).val < 32 := (j 1).isLt
  show runRow zrow (fun u => colSums (Yb V c u)) t.val j = runRow zrow (fun u => colSums (Yb V c u)) 9 (((cfg8.win 6).blk t).view.emb j)
  rw [h9]
  refine congrArg _ (funext fun a => Fin.ext ?_)
  match a with
  | ⟨0, _⟩ => show (j 0).val = win8_6.index t (0 : Fin 2) * 1 + 1 * (j 0).val; omega
  | ⟨1, _⟩ => show (j 1).val = win8_6.index t (1 : Fin 2) * 32 + 1 * (j 1).val; omega

theorem mem_blk6 (t : Fin cfg8.N) (i : S1x32.Idx) :
    i ∈ ((cfg8.win 6).blk t).view.set ↔ ∀ a : Fin 2, win8_6.index t a * S1x32.size a ≤ (i a).val ∧ (i a).val < win8_6.index t a * S1x32.size a + S1x32.size a := by
  show i ∈ ((View.whole main_v89_1).slice (win8_6.rect t)).set ↔ _
  rw [View.set_slice_whole, Rect.mem_set_unit]
  exact Iff.rfl

/-- The last point's block is the whole row. -/
theorem cover6 (i : S1x32.Idx) : ∃ t : Fin cfg8.N, (cfg8.win 6).flush t = true ∧ i ∈ ((cfg8.win 6).blk t).view.set := by
  have hi0 : (i 0).val < 1 := (i 0).isLt
  have hi1 : (i 1).val < 32 := (i 1).isLt
  obtain ⟨-, -, -, -, -, -, -, -, -, -, -, -, e60, e61, e70, e71⟩ := idx_facts (⟨9, by decide⟩ : Fin cfg8.N)
  refine ⟨⟨9, by decide⟩, (flush8_6 _).mpr rfl, ?_⟩
  rw [mem_blk6]
  intro a
  match a with
  | ⟨0, _⟩ =>
    show win8_6.index ⟨9, _⟩ (0 : Fin 2) * 1 ≤ (i 0).val ∧ (i 0).val < win8_6.index ⟨9, _⟩ (0 : Fin 2) * 1 + 1
    omega
  | ⟨1, _⟩ =>
    show win8_6.index ⟨9, _⟩ (1 : Fin 2) * 32 ≤ (i 1).val ∧ (i 1).val < win8_6.index ⟨9, _⟩ (1 : Fin 2) * 32 + 32
    omega

/-- After the launch the row holds the whole dense step's column sums. -/
theorem final6 (c : Dev nD) : (dat8 V c).arrAt 6 cfg8.N = colSums (Yw V c) := by
  rw [(dat8 V c).arrAt_eq_of_cover 6 _ (fun t hf => flushed6_eq V c t hf) cover6]
  funext i
  rw [runRow_apply, show zrow i = (0 : EReal) from Ideal.ofBits_zero_f32, zero_add]
  exact colSums_of_blocks (Yw V c) (Yb V c) (fun u r p => Yb_block V c u r p) i

/-- What the last point writes back through window 7 is the carried row after it. -/
theorem flushed7_eq (c : Dev nD) (t : Fin cfg8.N) (hf : (cfg8.win 7).flush t = true) :
    (dat8 V c).flushed 7 t = ((cfg8.win 7).blk t).view.read (Elt Ideal)
      (runRow zrow (fun u => colSqSums (Yb V c u)) 9) := by
  have h9 : t.val = 9 := by have := (flush8_7 t).mp hf; have := t.isLt; have := hN; omega
  obtain ⟨-, -, -, -, -, -, -, -, -, -, -, -, e60, e61, e70, e71⟩ := idx_facts t
  show (cfg8.win 7).cut (grid8.coords t) ((dat8 V c).after 7 t) = _
  rw [after8_7, outs_inv V c t.val t.isLt]
  funext j
  have hj0 : (j 0).val < 1 := (j 0).isLt
  have hj1 : (j 1).val < 32 := (j 1).isLt
  show runRow zrow (fun u => colSqSums (Yb V c u)) t.val j = runRow zrow (fun u => colSqSums (Yb V c u)) 9 (((cfg8.win 7).blk t).view.emb j)
  rw [h9]
  refine congrArg _ (funext fun a => Fin.ext ?_)
  match a with
  | ⟨0, _⟩ => show (j 0).val = win8_7.index t (0 : Fin 2) * 1 + 1 * (j 0).val; omega
  | ⟨1, _⟩ => show (j 1).val = win8_7.index t (1 : Fin 2) * 32 + 1 * (j 1).val; omega

theorem mem_blk7 (t : Fin cfg8.N) (i : S1x32.Idx) :
    i ∈ ((cfg8.win 7).blk t).view.set ↔ ∀ a : Fin 2, win8_7.index t a * S1x32.size a ≤ (i a).val ∧ (i a).val < win8_7.index t a * S1x32.size a + S1x32.size a := by
  show i ∈ ((View.whole main_v89_2).slice (win8_7.rect t)).set ↔ _
  rw [View.set_slice_whole, Rect.mem_set_unit]
  exact Iff.rfl

/-- The last point's block is the whole row. -/
theorem cover7 (i : S1x32.Idx) : ∃ t : Fin cfg8.N, (cfg8.win 7).flush t = true ∧ i ∈ ((cfg8.win 7).blk t).view.set := by
  have hi0 : (i 0).val < 1 := (i 0).isLt
  have hi1 : (i 1).val < 32 := (i 1).isLt
  obtain ⟨-, -, -, -, -, -, -, -, -, -, -, -, e60, e61, e70, e71⟩ := idx_facts (⟨9, by decide⟩ : Fin cfg8.N)
  refine ⟨⟨9, by decide⟩, (flush8_7 _).mpr rfl, ?_⟩
  rw [mem_blk7]
  intro a
  match a with
  | ⟨0, _⟩ =>
    show win8_7.index ⟨9, _⟩ (0 : Fin 2) * 1 ≤ (i 0).val ∧ (i 0).val < win8_7.index ⟨9, _⟩ (0 : Fin 2) * 1 + 1
    omega
  | ⟨1, _⟩ =>
    show win8_7.index ⟨9, _⟩ (1 : Fin 2) * 32 ≤ (i 1).val ∧ (i 1).val < win8_7.index ⟨9, _⟩ (1 : Fin 2) * 32 + 32
    omega

/-- After the launch the row holds the whole dense step's column sums of squares. -/
theorem final7 (c : Dev nD) : (dat8 V c).arrAt 7 cfg8.N = colSqSums (Yw V c) := by
  rw [(dat8 V c).arrAt_eq_of_cover 7 _ (fun t hf => flushed7_eq V c t hf) cover7]
  funext i
  rw [runRow_apply, show zrow i = (0 : EReal) from Ideal.ofBits_zero_f32, zero_add]
  exact colSqSums_of_blocks (Yw V c) (Yb V c) (fun u r p => Yb_block V c u r p) i

end Finals

end Cert.KernelIdeal.Launch8

end
-- ==== Proof.Launch9.lean ====
/-
  Launch 9: the normalising kernel, floored at zero, read as one function of the arrays it is entered with.

  Point `t` of the grid works on rows `5000 t … 5000 t + 4999`: it reads those rows of the activations and the
  four one-row arrays (mean, variance, scale, shift) whole, and writes back the same rows of the result. The
  ten blocks tile the result, so after the launch the result array is the normalised activations, entry by entry.
-/
import proofs.«160678_j77988016161089_1_alg».proof.Proof.Gen.KernelIdeal.Frame
import proofs.«160678_j77988016161089_1_alg».proof.Proof.LibGnnVector

set_option maxRecDepth 16384

noncomputable section

namespace Cert.KernelIdeal.Launch9

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Gnn
open Cert.MatProduct (rowOf colOf)

variable (V : (c : Dev nD) → (b : Ref sig .tc) → Buf (Elt Ideal) ((c : Thread nD τ).loc b))

theorem hz : (![0, 0] : Fin 2 → Nat) = fun _ => 0 := funext fun a => by fin_cases a <;> rfl

/-- The stabilising constant the body adds to the variance. -/
abbrev eps : Ideal .f32 := Scalar.ofBits .f32 0x3727C5AC#32

/-- The floor the body applies. -/
abbrev zero : Ideal .f32 := Scalar.ofBits .f32 0x00000000#32

/-- The body's one store is the normalise step of the blocks it loads. -/
theorem pay_eq (x0 : Vec Ideal S5000x32 .f32) (x1 x2 x3 x4 : Vec Ideal S1x32 .f32) :
    k9_pay1 (F := Ideal) x0 x1 x2 x3 x4 = nrmMax eps x0 x1 x2 x3 x4 zero :=
  vec_nrmMax x0 x1 x2 x3 x4 _ _ _ _ _ _ _ _

/-- The printed index maps over the grid: the activations' and the result's blocks are block row `t`; the
    one-row arrays' block never moves. -/
theorem idx_facts : ∀ t : Fin cfg9.N,
    win9_0.index t (0 : Fin 2) = t.val ∧ win9_0.index t (1 : Fin 2) = 0
    ∧ win9_5.index t (0 : Fin 2) = t.val ∧ win9_5.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0
    ∧ win9_4.index t (0 : Fin 2) = 0 ∧ win9_4.index t (1 : Fin 2) = 0 :=
  (by decide +kernel : ∀ t : Fin grid9.N, _)

/-- What point `t` writes back is block `t` of the normalised activations. -/
theorem flushed_eq (c : Dev nD) (t : Fin cfg9.N) :
    (dat9 V c).flushed 5 t = ((cfg9.win 5).blk t).view.read (Elt Ideal)
      (nrmMax eps (V c main_v89_0) (V c main_v91) (V c main_v95) (V c main_v96) (V c main_v97) zero) := by
  show (cfg9.win 5).cut (grid9.coords t) ((dat9 V c).after 5 t) = _
  rw [after9_5]
  unfold out9_5
  rw [View.canon_unit_zero hz]
  simp only [View.ld_unit_zero (S := S5000x32) hz, View.ld_unit_zero (S := S1x32) hz]
  rw [pay_eq]
  obtain ⟨e00, e01, e50, e51, e10, e11, e20, e21, e30, e31, e40, e41⟩ := idx_facts t
  funext j
  have hj0 : (j 0).val < 5000 := (j 0).isLt
  have hj1 : (j 1).val < 32 := (j 1).isLt
  show nrmMax eps (iblk9 V c 0 t) (iblk9 V c 1 t) (iblk9 V c 2 t) (iblk9 V c 3 t) (iblk9 V c 4 t) zero j
      = (nrmMax eps (V c main_v89_0) (V c main_v91) (V c main_v95) (V c main_v96) (V c main_v97) zero) (((cfg9.win 5).blk t).view.emb j)
  refine nrmMax_entry_congr eps _ j (((cfg9.win 5).blk t).view.emb j) ?_ ?_ ?_ ?_ ?_
  · show V c main_v89_0 (((cfg9.win 0).blk t).view.emb j) = V c main_v89_0 (((cfg9.win 5).blk t).view.emb j)
    refine congrArg _ (funext fun a => Fin.ext ?_)
    match a with
    | ⟨0, _⟩ => show win9_0.index t (0 : Fin 2) * 5000 + 1 * (j 0).val = win9_5.index t (0 : Fin 2) * 5000 + 1 * (j 0).val; omega
    | ⟨1, _⟩ => show win9_0.index t (1 : Fin 2) * 32 + 1 * (j 1).val = win9_5.index t (1 : Fin 2) * 32 + 1 * (j 1).val; omega
  · show V c main_v91 (((cfg9.win 1).blk t).view.emb (ix2 0 (colOf j))) = V c main_v91 (ix2 0 (colOf (((cfg9.win 5).blk t).view.emb j)))
    refine congrArg _ (funext fun a => Fin.ext ?_)
    match a with
    | ⟨0, _⟩ => show win9_1.index t (0 : Fin 2) * 1 + 1 * 0 = 0; omega
    | ⟨1, _⟩ => show win9_1.index t (1 : Fin 2) * 32 + 1 * (j 1).val = win9_5.index t (1 : Fin 2) * 32 + 1 * (j 1).val; omega
  · show V c main_v95 (((cfg9.win 2).blk t).view.emb (ix2 0 (colOf j))) = V c main_v95 (ix2 0 (colOf (((cfg9.win 5).blk t).view.emb j)))
    refine congrArg _ (funext fun a => Fin.ext ?_)
    match a with
    | ⟨0, _⟩ => show win9_2.index t (0 : Fin 2) * 1 + 1 * 0 = 0; omega
    | ⟨1, _⟩ => show win9_2.index t (1 : Fin 2) * 32 + 1 * (j 1).val = win9_5.index t (1 : Fin 2) * 32 + 1 * (j 1).val; omega
  · show V c main_v96 (((cfg9.win 3).blk t).view.emb (ix2 0 (colOf j))) = V c main_v96 (ix2 0 (colOf (((cfg9.win 5).blk t).view.emb j)))
    refine congrArg _ (funext fun a => Fin.ext ?_)
    match a with
    | ⟨0, _⟩ => show win9_3.index t (0 : Fin 2) * 1 + 1 * 0 = 0; omega
    | ⟨1, _⟩ => show win9_3.index t (1 : Fin 2) * 32 + 1 * (j 1).val = win9_5.index t (1 : Fin 2) * 32 + 1 * (j 1).val; omega
  · show V c main_v97 (((cfg9.win 4).blk t).view.emb (ix2 0 (colOf j))) = V c main_v97 (ix2 0 (colOf (((cfg9.win 5).blk t).view.emb j)))
    refine congrArg _ (funext fun a => Fin.ext ?_)
    match a with
    | ⟨0, _⟩ => show win9_4.index t (0 : Fin 2) * 1 + 1 * 0 = 0; omega
    | ⟨1, _⟩ => show win9_4.index t (1 : Fin 2) * 32 + 1 * (j 1).val = win9_5.index t (1 : Fin 2) * 32 + 1 * (j 1).val; omega

/-- An index of the result is in point `t`'s block iff each coordinate is in the block's range on its axis. -/
theorem mem_blk (t : Fin cfg9.N) (i : S50000x32.Idx) :
    i ∈ ((cfg9.win 5).blk t).view.set ↔ ∀ a : Fin 2, win9_5.index t a * S5000x32.size a ≤ (i a).val ∧ (i a).val < win9_5.index t a * S5000x32.size a + S5000x32.size a := by
  show i ∈ ((View.whole main_v98).slice (win9_5.rect t)).set ↔ _
  rw [View.set_slice_whole, Rect.mem_set_unit]
  exact Iff.rfl

/-- Every index of the result is in the block of the point numbered by its row divided by 5000. -/
theorem cover (i : S50000x32.Idx) : ∃ t : Fin cfg9.N, (cfg9.win 5).flush t = true ∧ i ∈ ((cfg9.win 5).blk t).view.set := by
  have hi0 : (i 0).val < 50000 := (i 0).isLt
  have hi1 : (i 1).val < 32 := (i 1).isLt
  have hlt : (i 0).val / 5000 < 10 := by omega
  obtain ⟨e00, e01, e50, e51, -⟩ := idx_facts (⟨(i 0).val / 5000, hlt⟩ : Fin cfg9.N)
  refine ⟨⟨(i 0).val / 5000, hlt⟩, flush9_5 _, ?_⟩
  rw [mem_blk]
  intro a
  match a with
  | ⟨0, _⟩ =>
    show win9_5.index ⟨(i 0).val / 5000, hlt⟩ (0 : Fin 2) * 5000 ≤ (i 0).val ∧ (i 0).val < win9_5.index ⟨(i 0).val / 5000, hlt⟩ (0 : Fin 2) * 5000 + 5000
    rw [e50]; show (i 0).val / 5000 * 5000 ≤ (i 0).val ∧ (i 0).val < (i 0).val / 5000 * 5000 + 5000; omega
  | ⟨1, _⟩ =>
    show win9_5.index ⟨(i 0).val / 5000, hlt⟩ (1 : Fin 2) * 32 ≤ (i 1).val ∧ (i 1).val < win9_5.index ⟨(i 0).val / 5000, hlt⟩ (1 : Fin 2) * 32 + 32
    rw [e51]; omega

/-- After the launch the result array is the normalised activations. -/
theorem final (c : Dev nD) :
    (dat9 V c).arrAt 5 cfg9.N = nrmMax eps (V c main_v89_0) (V c main_v91) (V c main_v95) (V c main_v96) (V c main_v97) zero :=
  (dat9 V c).arrAt_eq_of_cover 5 _ (fun t _ => flushed_eq V c t) cover

end Cert.KernelIdeal.Launch9

end
-- ==== Proof.KStage4.lean ====
/-
  The idealized kernel's program through graph-convolution block 3, boundary by boundary.

  A host stretch aggregates the node features over the edges (gather at the sources, scatter-add at the targets)
  and regards the relation bias as a row; a launch leaves the dense step and its column statistics; a second
  stretch turns them into mean and variance and regards scale and shift as rows; a second launch normalises and
  floors at zero. So the buffer that launch writes holds block 3 applied to the block's input.
-/
import proofs.«160678_j77988016161089_1_alg».proof.Proof.Gen.KernelIdeal.Frame
import Idealize.ShloMosaic.Lib.ValueIdx
import Idealize.ShloMosaic.Lib.StableHlo.Run
import proofs.«160678_j77988016161089_1_alg».proof.Proof.KStage3
import proofs.«160678_j77988016161089_1_alg».proof.Proof.Launch8
import proofs.«160678_j77988016161089_1_alg».proof.Proof.Launch9
set_option maxRecDepth 16384

noncomputable section

namespace Cert.KernelIdeal.Stages

open Cert.KernelIdeal Cert.KernelIdeal.Gen
open Idealize.ShloMosaic Idealize.ShloMosaic.TcCoe Idealize.ShloMosaic.ValueIdx Idealize.SL.Sem Idealize.ShloMosaic.StableHlo

open Cert.Gnn Cert.KernelIdeal.Fold
open Cert.MatProduct (prod)
open Cert.RowBias (addRowMax)

variable (m : (ℓ : Loc nD τ sig) → Buf (Elt Ideal) ℓ) (ρ : Dev nD → PrngReg) (c : Dev nD)

/-- Aggregation over the edges at width 64: gather the source nodes' rows, add them at the target nodes. -/
def agg3 (h : Mat 50000 64) : Mat 50000 64 :=
  Host.scatterAdd (F := Ideal) scatter_S50000x64_S800000x1_S800000x64_1_0_0_1
    (broadcastInDim S50000x64 ![] bcast_S_S50000x64 (constant (F := Ideal) S_ .f32 0#32))
    (broadcastInDim S800000x1 ![0] bcast_S800000_S800000x1_0 (dst m c))
    (Host.gather gather_S50000x64_S800000x1_S800000x64_1_0_n_n_0_1_164 h
      (broadcastInDim S800000x1 ![0] bcast_S800000_S800000x1_0
        (select (cmpi .slt (src m c) (broadcastInDim S800000 ![] bcast_S_S800000 (constantI S_ 32 0#32)))
          (addi (src m c) (broadcastInDim S800000 ![] bcast_S_S800000 (constantI S_ 32 50000#32))) (src m c))))

theorem v1_at16 : W16 m ρ c (Proc.devRef .tc main_v1) = src m c := by
  rw [W16_of_ne m ρ c main_v1 (by decide), keep7 m ρ c main_v1 (by decide), W14_of_ne m ρ c main_v1 (by decide), keep6 m ρ c main_v1 (by decide), W12_of_ne m ρ c main_v1 (by decide), keep5 m ρ c main_v1 (by decide), W10_of_ne m ρ c main_v1 (by decide), keep4 m ρ c main_v1 (by decide), W8_of_ne m ρ c main_v1 (by decide), keep3 m ρ c main_v1 (by decide), W6_of_ne m ρ c main_v1 (by decide), keep2 m ρ c main_v1 (by decide), W4_of_ne m ρ c main_v1 (by decide), keep1 m ρ c main_v1 (by decide), W2_of_ne m ρ c main_v1 (by decide), v1_at1]

theorem v3_at16 : W16 m ρ c (Proc.devRef .tc main_v3) = dst m c := by
  rw [W16_of_ne m ρ c main_v3 (by decide), keep7 m ρ c main_v3 (by decide), W14_of_ne m ρ c main_v3 (by decide), keep6 m ρ c main_v3 (by decide), W12_of_ne m ρ c main_v3 (by decide), keep5 m ρ c main_v3 (by decide), W10_of_ne m ρ c main_v3 (by decide), keep4 m ρ c main_v3 (by decide), W8_of_ne m ρ c main_v3 (by decide), keep3 m ρ c main_v3 (by decide), W6_of_ne m ρ c main_v3 (by decide), keep2 m ρ c main_v3 (by decide), W4_of_ne m ρ c main_v3 (by decide), keep1 m ρ c main_v3 (by decide), W2_of_ne m ρ c main_v3 (by decide), v3_at1]

theorem arg22_at16 : W16 m ρ c (Proc.devRef .tc main_arg22) = arg m c main_arg22 := by
  rw [W16_of_ne m ρ c main_arg22 (by decide), keep7 m ρ c main_arg22 (by decide), W14_of_ne m ρ c main_arg22 (by decide), keep6 m ρ c main_arg22 (by decide), W12_of_ne m ρ c main_arg22 (by decide), keep5 m ρ c main_arg22 (by decide), W10_of_ne m ρ c main_arg22 (by decide), keep4 m ρ c main_arg22 (by decide), W8_of_ne m ρ c main_arg22 (by decide), keep3 m ρ c main_arg22 (by decide), W6_of_ne m ρ c main_arg22 (by decide), keep2 m ρ c main_arg22 (by decide), W4_of_ne m ρ c main_arg22 (by decide), keep1 m ρ c main_arg22 (by decide), W2_of_ne m ρ c main_arg22 (by decide), keep0 m ρ c main_arg22 (by decide)]
theorem arg21_at17 : W17 m ρ c (Proc.devRef .tc main_arg21) = arg m c main_arg21 := by
  rw [keep8 m ρ c main_arg21 (by decide), W16_of_ne m ρ c main_arg21 (by decide), keep7 m ρ c main_arg21 (by decide), W14_of_ne m ρ c main_arg21 (by decide), keep6 m ρ c main_arg21 (by decide), W12_of_ne m ρ c main_arg21 (by decide), keep5 m ρ c main_arg21 (by decide), W10_of_ne m ρ c main_arg21 (by decide), keep4 m ρ c main_arg21 (by decide), W8_of_ne m ρ c main_arg21 (by decide), keep3 m ρ c main_arg21 (by decide), W6_of_ne m ρ c main_arg21 (by decide), keep2 m ρ c main_arg21 (by decide), W4_of_ne m ρ c main_arg21 (by decide), keep1 m ρ c main_arg21 (by decide), W2_of_ne m ρ c main_arg21 (by decide), keep0 m ρ c main_arg21 (by decide)]
theorem arg23_at17 : W17 m ρ c (Proc.devRef .tc main_arg23) = arg m c main_arg23 := by
  rw [keep8 m ρ c main_arg23 (by decide), W16_of_ne m ρ c main_arg23 (by decide), keep7 m ρ c main_arg23 (by decide), W14_of_ne m ρ c main_arg23 (by decide), keep6 m ρ c main_arg23 (by decide), W12_of_ne m ρ c main_arg23 (by decide), keep5 m ρ c main_arg23 (by decide), W10_of_ne m ρ c main_arg23 (by decide), keep4 m ρ c main_arg23 (by decide), W8_of_ne m ρ c main_arg23 (by decide), keep3 m ρ c main_arg23 (by decide), W6_of_ne m ρ c main_arg23 (by decide), keep2 m ρ c main_arg23 (by decide), W4_of_ne m ρ c main_arg23 (by decide), keep1 m ρ c main_arg23 (by decide), W2_of_ne m ρ c main_arg23 (by decide), keep0 m ρ c main_arg23 (by decide)]
theorem arg24_at18 : W18 m ρ c (Proc.devRef .tc main_arg24) = arg m c main_arg24 := by
  rw [W18_of_ne m ρ c main_arg24 (by decide), keep8 m ρ c main_arg24 (by decide), W16_of_ne m ρ c main_arg24 (by decide), keep7 m ρ c main_arg24 (by decide), W14_of_ne m ρ c main_arg24 (by decide), keep6 m ρ c main_arg24 (by decide), W12_of_ne m ρ c main_arg24 (by decide), keep5 m ρ c main_arg24 (by decide), W10_of_ne m ρ c main_arg24 (by decide), keep4 m ρ c main_arg24 (by decide), W8_of_ne m ρ c main_arg24 (by decide), keep3 m ρ c main_arg24 (by decide), W6_of_ne m ρ c main_arg24 (by decide), keep2 m ρ c main_arg24 (by decide), W4_of_ne m ρ c main_arg24 (by decide), keep1 m ρ c main_arg24 (by decide), W2_of_ne m ρ c main_arg24 (by decide), keep0 m ρ c main_arg24 (by decide)]
theorem arg25_at18 : W18 m ρ c (Proc.devRef .tc main_arg25) = arg m c main_arg25 := by
  rw [W18_of_ne m ρ c main_arg25 (by decide), keep8 m ρ c main_arg25 (by decide), W16_of_ne m ρ c main_arg25 (by decide), keep7 m ρ c main_arg25 (by decide), W14_of_ne m ρ c main_arg25 (by decide), keep6 m ρ c main_arg25 (by decide), W12_of_ne m ρ c main_arg25 (by decide), keep5 m ρ c main_arg25 (by decide), W10_of_ne m ρ c main_arg25 (by decide), keep4 m ρ c main_arg25 (by decide), W8_of_ne m ρ c main_arg25 (by decide), keep3 m ρ c main_arg25 (by decide), W6_of_ne m ρ c main_arg25 (by decide), keep2 m ρ c main_arg25 (by decide), W4_of_ne m ρ c main_arg25 (by decide), keep1 m ρ c main_arg25 (by decide), W2_of_ne m ρ c main_arg25 (by decide), keep0 m ρ c main_arg25 (by decide)]

attribute [local irreducible] Host.gather Host.scatterAdd in
theorem agg_at17 : W17 m ρ c (Proc.devRef .tc main_v87) = agg3 m c (H3 m c) := by
  show StableHlo.after hostOps8 (W16 m ρ c) (Proc.devRef .tc main_v87) = _
  after_results_simp
  rw [v1_at16, v3_at16, h_at16]
  rfl

theorem brel_at17 : W17 m ρ c (Proc.devRef .tc main_v88) = rowOfVec (arg m c main_arg22) := by
  show StableHlo.after hostOps8 (W16 m ρ c) (Proc.devRef .tc main_v88) = _
  after_results_simp
  rw [arg22_at16]
  exact reshape_row _ _

theorem hp_at17 : W17 m ρ c (Proc.devRef .tc main_v77) = H3 m c := by
  rw [keep8 m ρ c main_v77 (by decide), h_at16]

/-- Block 3's dense step. -/
def Y4 : Mat 50000 32 :=
  conv (agg3 m c (H3 m c)) (arg m c main_arg21) (rowOfVec (arg m c main_arg22)) (H3 m c) (arg m c main_arg23)

theorem y_at18 : W18 m ρ c (Proc.devRef .tc main_v89_0) = Y4 m c := by
  rw [show W18 m ρ c (Proc.devRef .tc main_v89_0) = _ from W18_arr m ρ c 5, Launch8.final5]
  show conv (W17 m ρ c (Proc.devRef .tc main_v87)) (W17 m ρ c (Proc.devRef .tc main_arg21)) (W17 m ρ c (Proc.devRef .tc main_v88)) (W17 m ρ c (Proc.devRef .tc main_v77)) (W17 m ρ c (Proc.devRef .tc main_arg23)) = _
  rw [agg_at17, arg21_at17, brel_at17, hp_at17, arg23_at17]
  rfl

theorem s_at18 : W18 m ρ c (Proc.devRef .tc main_v89_1) = colSums (Y4 m c) := by
  rw [show W18 m ρ c (Proc.devRef .tc main_v89_1) = _ from W18_arr m ρ c 6, Launch8.final6]
  show colSums (conv (W17 m ρ c (Proc.devRef .tc main_v87)) (W17 m ρ c (Proc.devRef .tc main_arg21)) (W17 m ρ c (Proc.devRef .tc main_v88)) (W17 m ρ c (Proc.devRef .tc main_v77)) (W17 m ρ c (Proc.devRef .tc main_arg23))) = _
  rw [agg_at17, arg21_at17, brel_at17, hp_at17, arg23_at17]
  rfl

theorem q_at18 : W18 m ρ c (Proc.devRef .tc main_v89_2) = colSqSums (Y4 m c) := by
  rw [show W18 m ρ c (Proc.devRef .tc main_v89_2) = _ from W18_arr m ρ c 7, Launch8.final7]
  show colSqSums (conv (W17 m ρ c (Proc.devRef .tc main_v87)) (W17 m ρ c (Proc.devRef .tc main_arg21)) (W17 m ρ c (Proc.devRef .tc main_v88)) (W17 m ρ c (Proc.devRef .tc main_v77)) (W17 m ρ c (Proc.devRef .tc main_arg23))) = _
  rw [agg_at17, arg21_at17, brel_at17, hp_at17, arg23_at17]
  rfl

theorem mean_at19 : W19 m ρ c (Proc.devRef .tc main_v91) = meanRow cntC (Y4 m c) := by
  show StableHlo.after hostOps9 (W18 m ρ c) (Proc.devRef .tc main_v91) = _
  after_results
  rw [s_at18]
  exact row_mean _ _ _

theorem var_at19 : W19 m ρ c (Proc.devRef .tc main_v95) = varSq cntC (Y4 m c) := by
  show StableHlo.after hostOps9 (W18 m ρ c) (Proc.devRef .tc main_v95) = _
  after_results
  rw [s_at18, q_at18]
  exact row_var _ _ _ _ _ rfl

theorem g_at19 : W19 m ρ c (Proc.devRef .tc main_v96) = rowOfVec (arg m c main_arg24) := by
  show StableHlo.after hostOps9 (W18 m ρ c) (Proc.devRef .tc main_v96) = _
  after_results
  rw [arg24_at18]
  exact reshape_row _ _

theorem beta_at19 : W19 m ρ c (Proc.devRef .tc main_v97) = rowOfVec (arg m c main_arg25) := by
  show StableHlo.after hostOps9 (W18 m ρ c) (Proc.devRef .tc main_v97) = _
  after_results
  rw [arg25_at18]
  exact reshape_row _ _

theorem y_at19 : W19 m ρ c (Proc.devRef .tc main_v89_0) = Y4 m c := by
  rw [keep9 m ρ c main_v89_0 (by decide), y_at18]

/-- Block 3 applied to its input. -/
def H4 : Mat 50000 32 :=
  block varSq epsC cntC zeroC (agg3 m c) (H3 m c) (arg m c main_arg21) (rowOfVec (arg m c main_arg22)) (arg m c main_arg23)
    (rowOfVec (arg m c main_arg24)) (rowOfVec (arg m c main_arg25))

theorem h_at20 : W20 m ρ c (Proc.devRef .tc main_v98) = H4 m c := by
  rw [show W20 m ρ c (Proc.devRef .tc main_v98) = _ from W20_arr m ρ c 5, Launch9.final]
  show nrmMax _ (W19 m ρ c (Proc.devRef .tc main_v89_0)) (W19 m ρ c (Proc.devRef .tc main_v91)) (W19 m ρ c (Proc.devRef .tc main_v95))
    (W19 m ρ c (Proc.devRef .tc main_v96)) (W19 m ρ c (Proc.devRef .tc main_v97)) _ = _
  rw [y_at19, mean_at19, var_at19, g_at19, beta_at19]
  rfl

end Cert.KernelIdeal.Stages

end
-- ==== Proof.LibGnnHeadRows.lean ====
/-
  An entry of the output head depends on the activations only through the entry's row.
-/
import proofs.«160678_j77988016161089_1_alg».proof.Proof.LibGnnStages

noncomputable section

namespace Cert.Gnn

open Idealize.ShloMosaic Idealize.ShloMosaic.ValueIdx
open Cert.MatProduct (prod rowOf colOf)
open Cert.RowBias (addRow addRowMax)

theorem rowOf_ix2 {M N : ℕ} (r : Fin M) (q : Fin N) : rowOf (ix2 r q) = r := rfl
theorem colOf_ix2 {M N : ℕ} (r : Fin M) (q : Fin N) : colOf (ix2 r q) = q := rfl

/-- Two activation matrices that agree on the entry's row give the same head entry. -/
theorem head_rows_congr {n n' k j d : ℕ} (z : EReal) {x : Mat n k} {x' : Mat n' k} (w1 : Mat k j) (b1 : Mat 1 j)
    (w2 : Mat j d) (b2 : Mat 1 d) (i : (⟨2, ![n, d]⟩ : Shape).Idx) (i' : (⟨2, ![n', d]⟩ : Shape).Idx)
    (hx : ∀ q : Fin k, x (ix2 (rowOf i) q) = x' (ix2 (rowOf i') q)) (hc : colOf i = colOf i') :
    head z x w1 b1 w2 b2 i = head z x' w1 b1 w2 b2 i' := by
  unfold head
  refine Cert.RowBias.addRow_entry_congr i i' (Cert.RowBias.prod_entry_congr i i' (fun q => ?_) (fun q => by rw [hc])) (by rw [hc])
  exact Cert.RowBias.addRowMax_entry_congr z (ix2 (rowOf i) q) (ix2 (rowOf i') q)
    (Cert.RowBias.prod_entry_congr _ _ (fun p => by rw [rowOf_ix2, rowOf_ix2]; exact hx p) (fun p => by rw [colOf_ix2, colOf_ix2]))
    (by rw [colOf_ix2, colOf_ix2])

end Cert.Gnn

end
-- ==== Proof.Launch10.lean ====
/-
  Launch 10: the output head, read as one function of the arrays it is entered with.

  Point `t` works on rows `5000 t … 5000 t + 4999` of the activations, with both weight matrices and both
  bias rows whole; a row of the result depends only on the same row of the activations, so the ten blocks
  written back are the blocks of the head applied to the whole activations.
-/
import proofs.«160678_j77988016161089_1_alg».proof.Proof.Gen.KernelIdeal.Frame
import proofs.«160678_j77988016161089_1_alg».proof.Proof.LibGnnVector
import proofs.«160678_j77988016161089_1_alg».proof.Proof.LibGnnHeadRows

set_option maxRecDepth 16384

noncomputable section

namespace Cert.KernelIdeal.Launch10

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Gnn
open Cert.MatProduct (rowOf colOf)

variable (V : (c : Dev nD) → (b : Ref sig .tc) → Buf (Elt Ideal) ((c : Thread nD τ).loc b))

theorem hz : (![0, 0] : Fin 2 → Nat) = fun _ => 0 := funext fun a => by fin_cases a <;> rfl

/-- The floor the body applies between its two products. -/
abbrev zero : Ideal .f32 := Scalar.ofBits .f32 0x00000000#32

/-- The body's one store is the head of the blocks it loads. -/
theorem pay_eq (x0 : Vec Ideal S5000x32 .f32) (x1 : Vec Ideal S32x16 .f32) (x2 : Vec Ideal S1x16 .f32)
    (x3 : Vec Ideal S16x2 .f32) (x4 : Vec Ideal S1x2 .f32) :
    k10_pay1 (F := Ideal) x0 x1 x2 x3 x4 = head zero x0 x1 x2 x3 x4 :=
  vec_head x0 x1 x2 x3 x4 zero _ _ _ _ _ _ _

/-- The printed index maps over the grid: the activations' and the result's blocks are block row `t`; the
    weights' and biases' block never moves. -/
theorem idx_facts : ∀ t : Fin cfg10.N,
    win10_0.index t (0 : Fin 2) = t.val ∧ win10_0.index t (1 : Fin 2) = 0
    ∧ win10_5.index t (0 : Fin 2) = t.val ∧ win10_5.index t (1 : Fin 2) = 0
    ∧ win10_1.index t (0 : Fin 2) = 0 ∧ win10_1.index t (1 : Fin 2) = 0
    ∧ win10_2.index t (0 : Fin 2) = 0 ∧ win10_2.index t (1 : Fin 2) = 0
    ∧ win10_3.index t (0 : Fin 2) = 0 ∧ win10_3.index t (1 : Fin 2) = 0
    ∧ win10_4.index t (0 : Fin 2) = 0 ∧ win10_4.index t (1 : Fin 2) = 0 :=
  (by decide +kernel : ∀ t : Fin grid10.N, _)

/-- What point `t` writes back is block `t` of the head of the whole activations. -/
theorem flushed_eq (c : Dev nD) (t : Fin cfg10.N) :
    (dat10 V c).flushed 5 t = ((cfg10.win 5).blk t).view.read (Elt Ideal)
      (head zero (V c main_v98) (V c main_arg26) (V c main_v99) (V c main_arg28) (V c main_v100)) := by
  show (cfg10.win 5).cut (grid10.coords t) ((dat10 V c).after 5 t) = _
  rw [after10_5]
  unfold out10_5
  rw [View.canon_unit_zero hz]
  simp only [View.ld_unit_zero (S := S5000x32) hz, View.ld_unit_zero (S := S32x16) hz, View.ld_unit_zero (S := S1x16) hz,
    View.ld_unit_zero (S := S16x2) hz, View.ld_unit_zero (S := S1x2) hz]
  rw [pay_eq]
  obtain ⟨e00, e01, e50, e51, e10, e11, e20, e21, e30, e31, e40, e41⟩ := idx_facts t
  have hw1 : iblk10 V c 1 t = V c main_arg26 := by
    funext y
    have hy0 : (y 0).val < 32 := (y 0).isLt
    have hy1 : (y 1).val < 16 := (y 1).isLt
    show V c main_arg26 (((cfg10.win 1).blk t).view.emb y) = V c main_arg26 y
    refine congrArg _ (funext fun a => Fin.ext ?_)
    match a with
    | ⟨0, _⟩ => show win10_1.index t (0 : Fin 2) * 32 + 1 * (y 0).val = (y 0).val; omega
    | ⟨1, _⟩ => show win10_1.index t (1 : Fin 2) * 16 + 1 * (y 1).val = (y 1).val; omega
  have hw2 : iblk10 V c 2 t = V c main_v99 := by
    funext y
    have hy0 : (y 0).val < 1 := (y 0).isLt
    have hy1 : (y 1).val < 16 := (y 1).isLt
    show V c main_v99 (((cfg10.win 2).blk t).view.emb y) = V c main_v99 y
    refine congrArg _ (funext fun a => Fin.ext ?_)
    match a with
    | ⟨0, _⟩ => show win10_2.index t (0 : Fin 2) * 1 + 1 * (y 0).val = (y 0).val; omega
    | ⟨1, _⟩ => show win10_2.index t (1 : Fin 2) * 16 + 1 * (y 1).val = (y 1).val; omega
  have hw3 : iblk10 V c 3 t = V c main_arg28 := by
    funext y
    have hy0 : (y 0).val < 16 := (y 0).isLt
    have hy1 : (y 1).val < 2 := (y 1).isLt
    show V c main_arg28 (((cfg10.win 3).blk t).view.emb y) = V c main_arg28 y
    refine congrArg _ (funext fun a => Fin.ext ?_)
    match a with
    | ⟨0, _⟩ => show win10_3.index t (0 : Fin 2) * 16 + 1 * (y 0).val = (y 0).val; omega
    | ⟨1, _⟩ => show win10_3.index t (1 : Fin 2) * 2 + 1 * (y 1).val = (y 1).val; omega
  have hw4 : iblk10 V c 4 t = V c main_v100 := by
    funext y
    have hy0 : (y 0).val < 1 := (y 0).isLt
    have hy1 : (y 1).val < 2 := (y 1).isLt
    show V c main_v100 (((cfg10.win 4).blk t).view.emb y) = V c main_v100 y
    refine congrArg _ (funext fun a => Fin.ext ?_)
    match a with
    | ⟨0, _⟩ => show win10_4.index t (0 : Fin 2) * 1 + 1 * (y 0).val = (y 0).val; omega
    | ⟨1, _⟩ => show win10_4.index t (1 : Fin 2) * 2 + 1 * (y 1).val = (y 1).val; omega
  rw [hw1, hw2, hw3, hw4]
  funext j
  have hj0 : (j 0).val < 5000 := (j 0).isLt
  have hj1 : (j 1).val < 2 := (j 1).isLt
  show head zero (iblk10 V c 0 t) (V c main_arg26) (V c main_v99) (V c main_arg28) (V c main_v100) j
      = head zero (V c main_v98) (V c main_arg26) (V c main_v99) (V c main_arg28) (V c main_v100) (((cfg10.win 5).blk t).view.emb j)
  refine head_rows_congr zero _ _ _ _ j (((cfg10.win 5).blk t).view.emb j) (fun q => ?_) (Fin.ext ?_)
  · show V c main_v98 (((cfg10.win 0).blk t).view.emb (ix2 (rowOf j) q)) = V c main_v98 (ix2 (rowOf (((cfg10.win 5).blk t).view.emb j)) q)
    refine congrArg _ (funext fun a => Fin.ext ?_)
    match a with
    | ⟨0, _⟩ => show win10_0.index t (0 : Fin 2) * 5000 + 1 * (j 0).val = win10_5.index t (0 : Fin 2) * 5000 + 1 * (j 0).val; omega
    | ⟨1, _⟩ => show win10_0.index t (1 : Fin 2) * 32 + 1 * q.val = q.val; omega
  · show (j 1).val = win10_5.index t (1 : Fin 2) * 2 + 1 * (j 1).val; omega

/-- An index of the result is in point `t`'s block iff each coordinate is in the block's range on its axis. -/
theorem mem_blk (t : Fin cfg10.N) (i : S50000x2.Idx) :
    i ∈ ((cfg10.win 5).blk t).view.set ↔ ∀ a : Fin 2, win10_5.index t a * S5000x2.size a ≤ (i a).val ∧ (i a).val < win10_5.index t a * S5000x2.size a + S5000x2.size a := by
  show i ∈ ((View.whole main_v101).slice (win10_5.rect t)).set ↔ _
  rw [View.set_slice_whole, Rect.mem_set_unit]
  exact Iff.rfl

/-- Every index of the result is in the block of the point numbered by its row divided by 5000. -/
theorem cover (i : S50000x2.Idx) : ∃ t : Fin cfg10.N, (cfg10.win 5).flush t = true ∧ i ∈ ((cfg10.win 5).blk t).view.set := by
  have hi0 : (i 0).val < 50000 := (i 0).isLt
  have hi1 : (i 1).val < 2 := (i 1).isLt
  have hlt : (i 0).val / 5000 < 10 := by omega
  obtain ⟨e00, e01, e50, e51, -⟩ := idx_facts (⟨(i 0).val / 5000, hlt⟩ : Fin cfg10.N)
  refine ⟨⟨(i 0).val / 5000, hlt⟩, flush10_5 _, ?_⟩
  rw [mem_blk]
  intro a
  match a with
  | ⟨0, _⟩ =>
    show win10_5.index ⟨(i 0).val / 5000, hlt⟩ (0 : Fin 2) * 5000 ≤ (i 0).val ∧ (i 0).val < win10_5.index ⟨(i 0).val / 5000, hlt⟩ (0 : Fin 2) * 5000 + 5000
    rw [e50]; show (i 0).val / 5000 * 5000 ≤ (i 0).val ∧ (i 0).val < (i 0).val / 5000 * 5000 + 5000; omega
  | ⟨1, _⟩ =>
    show win10_5.index ⟨(i 0).val / 5000, hlt⟩ (1 : Fin 2) * 2 ≤ (i 1).val ∧ (i 1).val < win10_5.index ⟨(i 0).val / 5000, hlt⟩ (1 : Fin 2) * 2 + 2
    rw [e51]; omega

/-- After the launch the result array is the head of the whole activations. -/
theorem final (c : Dev nD) :
    (dat10 V c).arrAt 5 cfg10.N = head zero (V c main_v98) (V c main_arg26) (V c main_v99) (V c main_arg28) (V c main_v100) :=
  (dat10 V c).arrAt_eq_of_cover 5 _ (fun t _ => flushed_eq V c t) cover

end Cert.KernelIdeal.Launch10

end
-- ==== Proof.KStage5.lean ====
/-
  The idealized kernel's program to its result: the last host stretch regards the head's two biases as rows and
  the last launch applies the head, so the result buffer holds the whole network of the arguments, with every
  variance spelt as mean of squares minus squared mean.
-/
import proofs.«160678_j77988016161089_1_alg».proof.Proof.Gen.KernelIdeal.Frame
import Idealize.ShloMosaic.Lib.ValueIdx
import Idealize.ShloMosaic.Lib.StableHlo.Run
import proofs.«160678_j77988016161089_1_alg».proof.Proof.KStage4
import proofs.«160678_j77988016161089_1_alg».proof.Proof.Launch10
set_option maxRecDepth 16384

noncomputable section

namespace Cert.KernelIdeal.Stages

open Cert.KernelIdeal Cert.KernelIdeal.Gen
open Idealize.ShloMosaic Idealize.ShloMosaic.TcCoe Idealize.ShloMosaic.ValueIdx Idealize.SL.Sem Idealize.ShloMosaic.StableHlo

open Cert.Gnn Cert.KernelIdeal.Fold
open Cert.MatProduct (prod)
open Cert.RowBias (addRowMax)

variable (m : (ℓ : Loc nD τ sig) → Buf (Elt Ideal) ℓ) (ρ : Dev nD → PrngReg) (c : Dev nD)

theorem arg27_at20 : W20 m ρ c (Proc.devRef .tc main_arg27) = arg m c main_arg27 := by
  rw [W20_of_ne m ρ c main_arg27 (by decide), keep9 m ρ c main_arg27 (by decide), W18_of_ne m ρ c main_arg27 (by decide), keep8 m ρ c main_arg27 (by decide), W16_of_ne m ρ c main_arg27 (by decide), keep7 m ρ c main_arg27 (by decide), W14_of_ne m ρ c main_arg27 (by decide), keep6 m ρ c main_arg27 (by decide), W12_of_ne m ρ c main_arg27 (by decide), keep5 m ρ c main_arg27 (by decide), W10_of_ne m ρ c main_arg27 (by decide), keep4 m ρ c main_arg27 (by decide), W8_of_ne m ρ c main_arg27 (by decide), keep3 m ρ c main_arg27 (by decide), W6_of_ne m ρ c main_arg27 (by decide), keep2 m ρ c main_arg27 (by decide), W4_of_ne m ρ c main_arg27 (by decide), keep1 m ρ c main_arg27 (by decide), W2_of_ne m ρ c main_arg27 (by decide), keep0 m ρ c main_arg27 (by decide)]
theorem arg29_at20 : W20 m ρ c (Proc.devRef .tc main_arg29) = arg m c main_arg29 := by
  rw [W20_of_ne m ρ c main_arg29 (by decide), keep9 m ρ c main_arg29 (by decide), W18_of_ne m ρ c main_arg29 (by decide), keep8 m ρ c main_arg29 (by decide), W16_of_ne m ρ c main_arg29 (by decide), keep7 m ρ c main_arg29 (by decide), W14_of_ne m ρ c main_arg29 (by decide), keep6 m ρ c main_arg29 (by decide), W12_of_ne m ρ c main_arg29 (by decide), keep5 m ρ c main_arg29 (by decide), W10_of_ne m ρ c main_arg29 (by decide), keep4 m ρ c main_arg29 (by decide), W8_of_ne m ρ c main_arg29 (by decide), keep3 m ρ c main_arg29 (by decide), W6_of_ne m ρ c main_arg29 (by decide), keep2 m ρ c main_arg29 (by decide), W4_of_ne m ρ c main_arg29 (by decide), keep1 m ρ c main_arg29 (by decide), W2_of_ne m ρ c main_arg29 (by decide), keep0 m ρ c main_arg29 (by decide)]
theorem arg26_at21 : W21 m ρ c (Proc.devRef .tc main_arg26) = arg m c main_arg26 := by
  rw [keep10 m ρ c main_arg26 (by decide), W20_of_ne m ρ c main_arg26 (by decide), keep9 m ρ c main_arg26 (by decide), W18_of_ne m ρ c main_arg26 (by decide), keep8 m ρ c main_arg26 (by decide), W16_of_ne m ρ c main_arg26 (by decide), keep7 m ρ c main_arg26 (by decide), W14_of_ne m ρ c main_arg26 (by decide), keep6 m ρ c main_arg26 (by decide), W12_of_ne m ρ c main_arg26 (by decide), keep5 m ρ c main_arg26 (by decide), W10_of_ne m ρ c main_arg26 (by decide), keep4 m ρ c main_arg26 (by decide), W8_of_ne m ρ c main_arg26 (by decide), keep3 m ρ c main_arg26 (by decide), W6_of_ne m ρ c main_arg26 (by decide), keep2 m ρ c main_arg26 (by decide), W4_of_ne m ρ c main_arg26 (by decide), keep1 m ρ c main_arg26 (by decide), W2_of_ne m ρ c main_arg26 (by decide), keep0 m ρ c main_arg26 (by decide)]
theorem arg28_at21 : W21 m ρ c (Proc.devRef .tc main_arg28) = arg m c main_arg28 := by
  rw [keep10 m ρ c main_arg28 (by decide), W20_of_ne m ρ c main_arg28 (by decide), keep9 m ρ c main_arg28 (by decide), W18_of_ne m ρ c main_arg28 (by decide), keep8 m ρ c main_arg28 (by decide), W16_of_ne m ρ c main_arg28 (by decide), keep7 m ρ c main_arg28 (by decide), W14_of_ne m ρ c main_arg28 (by decide), keep6 m ρ c main_arg28 (by decide), W12_of_ne m ρ c main_arg28 (by decide), keep5 m ρ c main_arg28 (by decide), W10_of_ne m ρ c main_arg28 (by decide), keep4 m ρ c main_arg28 (by decide), W8_of_ne m ρ c main_arg28 (by decide), keep3 m ρ c main_arg28 (by decide), W6_of_ne m ρ c main_arg28 (by decide), keep2 m ρ c main_arg28 (by decide), W4_of_ne m ρ c main_arg28 (by decide), keep1 m ρ c main_arg28 (by decide), W2_of_ne m ρ c main_arg28 (by decide), keep0 m ρ c main_arg28 (by decide)]

theorem b1_at21 : W21 m ρ c (Proc.devRef .tc main_v99) = rowOfVec (arg m c main_arg27) := by
  show StableHlo.after hostOps10 (W20 m ρ c) (Proc.devRef .tc main_v99) = _
  after_results
  rw [arg27_at20]
  exact reshape_row _ _

theorem b2_at21 : W21 m ρ c (Proc.devRef .tc main_v100) = rowOfVec (arg m c main_arg29) := by
  show StableHlo.after hostOps10 (W20 m ρ c) (Proc.devRef .tc main_v100) = _
  after_results
  rw [arg29_at20]
  exact reshape_row _ _

theorem h_at21 : W21 m ρ c (Proc.devRef .tc main_v98) = H4 m c := by
  rw [keep10 m ρ c main_v98 (by decide), h_at20]

theorem out_at22 : W22 m ρ c (Proc.devRef .tc main_v101)
    = head zeroC (H4 m c) (arg m c main_arg26) (rowOfVec (arg m c main_arg27)) (arg m c main_arg28) (rowOfVec (arg m c main_arg29)) := by
  rw [show W22 m ρ c (Proc.devRef .tc main_v101) = _ from W22_arr m ρ c 5, Launch10.final]
  show head _ (W21 m ρ c (Proc.devRef .tc main_v98)) (W21 m ρ c (Proc.devRef .tc main_arg26)) (W21 m ρ c (Proc.devRef .tc main_v99)) (W21 m ρ c (Proc.devRef .tc main_arg28)) (W21 m ρ c (Proc.devRef .tc main_v100)) = _
  rw [h_at21, arg26_at21, b1_at21, arg28_at21, b2_at21]
  rfl

/-- The result buffer at the last boundary is the network of the arguments. -/
theorem kernel_value : W22 m ρ c (Proc.devRef .tc main_v101)
    = net varSq epsC cntC zeroC (agg0 m c) (agg1 m c) (agg2 m c) (agg3 m c)
      (arg m c main_arg0) (arg m c main_arg2) (rowOfVec (arg m c main_arg3)) (rowOfVec (arg m c main_arg4)) (rowOfVec (arg m c main_arg5))
      (arg m c main_arg6) (rowOfVec (arg m c main_arg7)) (arg m c main_arg8) (rowOfVec (arg m c main_arg9)) (rowOfVec (arg m c main_arg10))
      (arg m c main_arg11) (rowOfVec (arg m c main_arg12)) (arg m c main_arg13) (rowOfVec (arg m c main_arg14)) (rowOfVec (arg m c main_arg15))
      (arg m c main_arg16) (rowOfVec (arg m c main_arg17)) (arg m c main_arg18) (rowOfVec (arg m c main_arg19)) (rowOfVec (arg m c main_arg20))
      (arg m c main_arg21) (rowOfVec (arg m c main_arg22)) (arg m c main_arg23) (rowOfVec (arg m c main_arg24)) (rowOfVec (arg m c main_arg25))
      (arg m c main_arg26) (rowOfVec (arg m c main_arg27)) (arg m c main_arg28) (rowOfVec (arg m c main_arg29)) := by
  rw [out_at22]
  rfl

end Cert.KernelIdeal.Stages

end
-- ==== Proof.KFacts.lean ====
/-
  The side facts the network's spelling-independence needs: the node count's literal is the real 50000, the
  stabilising constant's a positive real, zero's a real, and aggregation over the edges keeps real node features
  real (a gathered row is a row of the operand; a scatter-add onto zeros is a finite sum of such rows).
-/
import proofs.«160678_j77988016161089_1_alg».proof.Proof.Gen.KernelIdeal.Frame
import Idealize.ShloMosaic.Lib.ValueIdx
import Idealize.ShloMosaic.Lib.StableHlo.Run
import proofs.«160678_j77988016161089_1_alg».proof.Proof.KStage5
set_option maxRecDepth 16384

noncomputable section

namespace Cert.KernelIdeal.Stages

open Cert.KernelIdeal Cert.KernelIdeal.Gen
open Idealize.ShloMosaic Idealize.ShloMosaic.TcCoe Idealize.ShloMosaic.ValueIdx Idealize.SL.Sem Idealize.ShloMosaic.StableHlo

open Cert.Gnn Cert.KernelIdeal.Fold
open Cert.MatProduct (prod)
open Cert.RowBias (addRowMax)

variable (m : (ℓ : Loc nD τ sig) → Buf (Elt Ideal) ℓ) (ρ : Dev nD → PrngReg) (c : Dev nD)

open Idealize.ShloMosaic.RealClosure

theorem cntC_eq : cntC = (((50000 : ℕ) : ℝ) : EReal) := by
  show Ideal.ofBits .f32 0x47435000#32 = _
  simp [Ideal.ofBits, Ideal.ieee, -EReal.coe_mul]; norm_num

theorem epsC_pos : IsPos epsC := lit_eps_pos
theorem zeroC_real : IsReal zeroC := lit_zero

theorem allReal_agg0 (h : Mat 50000 32) (hh : AllReal h) : AllReal (agg0 m c h) :=
  allReal_scatterAdd _ _ (allReal_broadcastInDim (allReal_constant _ lit_zero)) (allReal_gather _ _ hh)

theorem allReal_agg1 (h : Mat 50000 64) (hh : AllReal h) : AllReal (agg1 m c h) :=
  allReal_scatterAdd _ _ (allReal_broadcastInDim (allReal_constant _ lit_zero)) (allReal_gather _ _ hh)

theorem allReal_agg2 (h : Mat 50000 128) (hh : AllReal h) : AllReal (agg2 m c h) :=
  allReal_scatterAdd _ _ (allReal_broadcastInDim (allReal_constant _ lit_zero)) (allReal_gather _ _ hh)

theorem allReal_agg3 (h : Mat 50000 64) (hh : AllReal h) : AllReal (agg3 m c h) :=
  allReal_scatterAdd _ _ (allReal_broadcastInDim (allReal_constant _ lit_zero)) (allReal_gather _ _ hh)

end Cert.KernelIdeal.Stages

end
-- ==== Proof.RefRun.lean ====
/-
  The reference program's @main as one straight line of host operations, and its run.

  The reference calls an outlined variance function five times, and that function calls an outlined
  select; here each call's operations are listed at the call site over the call's own buffers, so the
  whole program is one list. Every weakly fair execution then terminates with each buffer at the
  list's fold over the launch contents.
-/
import proofs.«160678_j77988016161089_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Statements 1 to 60 of the printed @main, each call's operations listed in its place. -/
abbrev ops0 : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.binary main_arg0 main_arg2 main_v4 ((fun l r => Host.dotGeneral dot_S50000x5_S5x32_S50000x32_1_0_0_1_n_n none l r) : (⟨S50000x5, .f32⟩ : BufTy).Contents (Elt F) → (⟨S5x32, .f32⟩ : BufTy).Contents (Elt F) → (⟨S50000x32, .f32⟩ : BufTy).Contents (Elt F)),
    StableHlo.unary main_arg3 main_v5 (broadcastInDim S1x32 ![1] bcast_S32_S1x32_1 : (⟨S32, .f32⟩ : BufTy).Contents (Elt F) → (⟨S1x32, .f32⟩ : BufTy).Contents (Elt F)),
    StableHlo.unary main_v5 main_v6 (broadcastInDim S50000x32 ![0, 1] bcast_S1x32_S50000x32_0_1 : (⟨S1x32, .f32⟩ : BufTy).Contents (Elt F) → (⟨S50000x32, .f32⟩ : BufTy).Contents (Elt F)),
    StableHlo.binary main_v4 main_v6 main_v7 (addf : (⟨S50000x32, .f32⟩ : BufTy).Contents (Elt F) → (⟨S50000x32, .f32⟩ : BufTy).Contents (Elt F) → (⟨S50000x32, .f32⟩ : BufTy).Contents (Elt F)),
    StableHlo.nullary main_cst (constant S_ .f32 0x00000000#32),
    StableHlo.unary main_cst main_v8 (broadcastInDim S50000x32 ![] bcast_S_S50000x32 : (⟨S_, .f32⟩ : BufTy).Contents (Elt F) → (⟨S50000x32, .f32⟩ : BufTy).Contents (Elt F)),
    StableHlo.binary main_v7 main_v8 main_v9 (maximumf : (⟨S50000x32, .f32⟩ : BufTy).Contents (Elt F) → (⟨S50000x32, .f32⟩ : BufTy).Contents (Elt F) → (⟨S50000x32, .f32⟩ : BufTy).Contents (Elt F)),
    StableHlo.nullary main_cst_0 (constant S_ .f32 0x00000000#32),
    StableHlo.binary main_v9 main_cst_0 main_v10 ((fun x v => Host.reduceAdd x v reducesTo_S50000x32_S32_d0 h_S_) : (⟨S50000x32, .f32⟩ : BufTy).Contents (Elt F) → (⟨S_, .f32⟩ : BufTy).Contents (Elt F) → (⟨S32, .f32⟩ : BufTy).Contents (Elt F)),
    StableHlo.nullary main_cst_1 (constant S_ .f32 0x47435000#32),
    StableHlo.unary main_cst_1 main_v11 (broadcastInDim S32 ![] bcast_S_S32 : (⟨S_, .f32⟩ : BufTy).Contents (Elt F) → (⟨S32, .f32⟩ : BufTy).Contents (Elt F)),
    StableHlo.binary main_v10 main_v11 main_v12 (Host.divf : (⟨S32, .f32⟩ : BufTy).Contents (Elt F) → (⟨S32, .f32⟩ : BufTy).Contents (Elt F) → (⟨S32, .f32⟩ : BufTy).Contents (Elt F)),
    StableHlo.nullary main_c (constantI S_ 32 0#32),
    StableHlo.TRef.nullary main_call0.cst (constant S_ .f32 0x00000000#32),
    StableHlo.TRef.binary (.of main_v9) main_call0.cst main_call0.v0 (fun x v => Host.reduceAdd x v reducesTo_S50000x32_S32_d0 h_S_),
    StableHlo.TRef.unary main_call0.v0 main_call0.v1 (broadcastInDim S1x32 ![1] bcast_S32_S1x32_1),
    StableHlo.TRef.nullary main_call0.cst_0 (constant S_ .f32 0x47435000#32),
    StableHlo.TRef.unary main_call0.cst_0 main_call0.v2 (broadcastInDim S1x32 ![] bcast_S_S1x32),
    StableHlo.TRef.binary main_call0.v1 main_call0.v2 main_call0.v3 Host.divf,
    StableHlo.TRef.unary main_call0.v3 main_call0.v4 (broadcastInDim S50000x32 ![0, 1] bcast_S1x32_S50000x32_0_1),
    StableHlo.TRef.binary (.of main_v9) main_call0.v4 main_call0.v5 subf,
    StableHlo.TRef.binary main_call0.v5 main_call0.v5 main_call0.v6 mulf,
    StableHlo.TRef.unary (.of main_c) main_call0.v7 (sitofp .f32),
    StableHlo.TRef.nullary main_call0.cst_1 (constant S_ .f32 0x47435000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S50000x32_S32_d0 h_S_),
    StableHlo.TRef.unary main_call0.v8 main_call0.v10 (broadcastInDim S32 ![] bcast_S_S32),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S32 ![] bcast_S_S32),
    StableHlo.TRef.ternary main_call0.v12 main_call0.v11 main_call0.call0.v1 main_call0.call0.v2 (fun p a b => select (broadcastInDim S32 ![] bcast_S_S32 p) a b),
    StableHlo.unary main_v12 main_v14 (broadcastInDim S1x32 ![1] bcast_S32_S1x32_1 : (⟨S32, .f32⟩ : BufTy).Contents (Elt F) → (⟨S1x32, .f32⟩ : BufTy).Contents (Elt F)),
    StableHlo.unary main_v14 main_v15 (broadcastInDim S50000x32 ![0, 1] bcast_S1x32_S50000x32_0_1 : (⟨S1x32, .f32⟩ : BufTy).Contents (Elt F) → (⟨S50000x32, .f32⟩ : BufTy).Contents (Elt F)),
    StableHlo.binary main_v9 main_v15 main_v16 (subf : (⟨S50000x32, .f32⟩ : BufTy).Contents (Elt F) → (⟨S50000x32, .f32⟩ : BufTy).Contents (Elt F) → (⟨S50000x32, .f32⟩ : BufTy).Contents (Elt F)),
    StableHlo.nullary main_cst_2 (constant S_ .f32 0x3727C5AC#32),
    StableHlo.unary main_cst_2 main_v17 (broadcastInDim S32 ![] bcast_S_S32 : (⟨S_, .f32⟩ : BufTy).Contents (Elt F) → (⟨S32, .f32⟩ : BufTy).Contents (Elt F)),
    StableHlo.binary main_v13 main_v17 main_v18 (addf : (⟨S32, .f32⟩ : BufTy).Contents (Elt F) → (⟨S32, .f32⟩ : BufTy).Contents (Elt F) → (⟨S32, .f32⟩ : BufTy).Contents (Elt F)),
    StableHlo.unary main_v18 main_v19 (Host.rsqrt : (⟨S32, .f32⟩ : BufTy).Contents (Elt F) → (⟨S32, .f32⟩ : BufTy).Contents (Elt F)),
    StableHlo.unary main_v19 main_v20 (broadcastInDim S1x32 ![1] bcast_S32_S1x32_1 : (⟨S32, .f32⟩ : BufTy).Contents (Elt F) → (⟨S1x32, .f32⟩ : BufTy).Contents (Elt F)),
    StableHlo.unary main_v20 main_v21 (broadcastInDim S50000x32 ![0, 1] bcast_S1x32_S50000x32_0_1 : (⟨S1x32, .f32⟩ : BufTy).Contents (Elt F) → (⟨S50000x32, .f32⟩ : BufTy).Contents (Elt F)),
    StableHlo.binary main_v16 main_v21 main_v22 (mulf : (⟨S50000x32, .f32⟩ : BufTy).Contents (Elt F) → (⟨S50000x32, .f32⟩ : BufTy).Contents (Elt F) → (⟨S50000x32, .f32⟩ : BufTy).Contents (Elt F)),
    StableHlo.unary main_arg4 main_v23 (broadcastInDim S1x32 ![1] bcast_S32_S1x32_1 : (⟨S32, .f32⟩ : BufTy).Contents (Elt F) → (⟨S1x32, .f32⟩ : BufTy).Contents (Elt F)),
    StableHlo.unary main_v23 main_v24 (broadcastInDim S50000x32 ![0, 1] bcast_S1x32_S50000x32_0_1 : (⟨S1x32, .f32⟩ : BufTy).Contents (Elt F) → (⟨S50000x32, .f32⟩ : BufTy).Contents (Elt F)),
    StableHlo.binary main_v22 main_v24 main_v25 (mulf : (⟨S50000x32, .f32⟩ : BufTy).Contents (Elt F) → (⟨S50000x32, .f32⟩ : BufTy).Contents (Elt F) → (⟨S50000x32, .f32⟩ : BufTy).Contents (Elt F)),
    StableHlo.unary main_arg5 main_v26 (broadcastInDim S1x32 ![1] bcast_S32_S1x32_1 : (⟨S32, .f32⟩ : BufTy).Contents (Elt F) → (⟨S1x32, .f32⟩ : BufTy).Contents (Elt F)),
    StableHlo.unary main_v26 main_v27 (broadcastInDim S50000x32 ![0, 1] bcast_S1x32_S50000x32_0_1 : (⟨S1x32, .f32⟩ : BufTy).Contents (Elt F) → (⟨S50000x32, .f32⟩ : BufTy).Contents (Elt F)),
    StableHlo.binary main_v25 main_v27 main_v28 (addf : (⟨S50000x32, .f32⟩ : BufTy).Contents (Elt F) → (⟨S50000x32, .f32⟩ : BufTy).Contents (Elt F) → (⟨S50000x32, .f32⟩ : BufTy).Contents (Elt F)),
    StableHlo.nullary main_c_3 (constantI S_ 32 0#32),
    StableHlo.unary main_c_3 main_v29 (broadcastInDim S800000 ![] bcast_S_S800000 : (⟨S_, .i32⟩ : BufTy).Contents (Elt F) → (⟨S800000, .i32⟩ : BufTy).Contents (Elt F)),
    StableHlo.binary main_v1 main_v29 main_v30 (cmpi .slt : (⟨S800000, .i32⟩ : BufTy).Contents (Elt F) → (⟨S800000, .i32⟩ : BufTy).Contents (Elt F) → (⟨S800000, .i1⟩ : BufTy).Contents (Elt F)),
    StableHlo.nullary main_c_4 (constantI S_ 32 50000#32),
    StableHlo.unary main_c_4 main_v31 (broadcastInDim S800000 ![] bcast_S_S800000 : (⟨S_, .i32⟩ : BufTy).Contents (Elt F) → (⟨S800000, .i32⟩ : BufTy).Contents (Elt F)),
    StableHlo.binary main_v1 main_v31 main_v32 (addi : (⟨S800000, .i32⟩ : BufTy).Contents (Elt F) → (⟨S800000, .i32⟩ : BufTy).Contents (Elt F) → (⟨S800000, .i32⟩ : BufTy).Contents (Elt F)),
    StableHlo.ternary main_v30 main_v32 main_v1 main_v33 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v33 main_v34 (broadcastInDim S800000x1 ![0] bcast_S800000_S800000x1_0 : (⟨S800000, .i32⟩ : BufTy).Contents (Elt F) → (⟨S800000x1, .i32⟩ : BufTy).Contents (Elt F)),
    StableHlo.binary main_v28 main_v34 main_v35 ((fun x i => Host.gather gather_S50000x32_S800000x1_S800000x32_1_0_n_n_0_1_132 x i) : (⟨S50000x32, .f32⟩ : BufTy).Contents (Elt F) → (⟨S800000x1, .i32⟩ : BufTy).Contents (Elt F) → (⟨S800000x32, .f32⟩ : BufTy).Contents (Elt F)),
    StableHlo.nullary main_cst_5 (constant S_ .f32 0x00000000#32),
    StableHlo.unary main_cst_5 main_v36 (broadcastInDim S50000x32 ![] bcast_S_S50000x32 : (⟨S_, .f32⟩ : BufTy).Contents (Elt F) → (⟨S50000x32, .f32⟩ : BufTy).Contents (Elt F)),
    StableHlo.unary main_v3 main_v37 (broadcastInDim S800000x1 ![0] bcast_S800000_S800000x1_0 : (⟨S800000, .i32⟩ : BufTy).Contents (Elt F) → (⟨S800000x1, .i32⟩ : BufTy).Contents (Elt F)),
    StableHlo.ternary main_v36 main_v37 main_v35 main_v38 ((fun x i u => Host.scatterAdd scatter_S50000x32_S800000x1_S800000x32_1_0_0_1 x i u) : (⟨S50000x32, .f32⟩ : BufTy).Contents (Elt F) → (⟨S800000x1, .i32⟩ : BufTy).Contents (Elt F) → (⟨S800000x32, .f32⟩ : BufTy).Contents (Elt F) → (⟨S50000x32, .f32⟩ : BufTy).Contents (Elt F)),
    StableHlo.binary main_v38 main_arg6 main_v39 ((fun l r => Host.dotGeneral dot_S50000x32_S32x64_S50000x64_1_0_0_1_n_n none l r) : (⟨S50000x32, .f32⟩ : BufTy).Contents (Elt F) → (⟨S32x64, .f32⟩ : BufTy).Contents (Elt F) → (⟨S50000x64, .f32⟩ : BufTy).Contents (Elt F)),
    StableHlo.unary main_arg7 main_v40 (broadcastInDim S1x64 ![1] bcast_S64_S1x64_1 : (⟨S64, .f32⟩ : BufTy).Contents (Elt F) → (⟨S1x64, .f32⟩ : BufTy).Contents (Elt F)),
    StableHlo.unary main_v40 main_v41 (broadcastInDim S50000x64 ![0, 1] bcast_S1x64_S50000x64_0_1 : (⟨S1x64, .f32⟩ : BufTy).Contents (Elt F) → (⟨S50000x64, .f32⟩ : BufTy).Contents (Elt F)),
    StableHlo.binary main_v39 main_v41 main_v42 (addf : (⟨S50000x64, .f32⟩ : BufTy).Contents (Elt F) → (⟨S50000x64, .f32⟩ : BufTy).Contents (Elt F) → (⟨S50000x64, .f32⟩ : BufTy).Contents (Elt F)),
    StableHlo.binary main_v28 main_arg8 main_v43 ((fun l r => Host.dotGeneral dot_S50000x32_S32x64_S50000x64_1_0_0_1_n_n none l r) : (⟨S50000x32, .f32⟩ : BufTy).Contents (Elt F) → (⟨S32x64, .f32⟩ : BufTy).Contents (Elt F) → (⟨S50000x64, .f32⟩ : BufTy).Contents (Elt F)),
    StableHlo.binary main_v42 main_v43 main_v44 (addf : (⟨S50000x64, .f32⟩ : BufTy).Contents (Elt F) → (⟨S50000x64, .f32⟩ : BufTy).Contents (Elt F) → (⟨S50000x64, .f32⟩ : BufTy).Contents (Elt F)),
    StableHlo.nullary main_cst_6 (constant S_ .f32 0x00000000#32),
    StableHlo.binary main_v44 main_cst_6 main_v45 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_7 (constant S_ .f32 0x47435000#32),
    StableHlo.unary main_cst_7 main_v46 (broadcastInDim S64 ![] bcast_S_S64 : (⟨S_, .f32⟩ : BufTy).Contents (Elt F) → (⟨S64, .f32⟩ : BufTy).Contents (Elt F)),
    StableHlo.binary main_v45 main_v46 main_v47 (Host.divf : (⟨S64, .f32⟩ : BufTy).Contents (Elt F) → (⟨S64, .f32⟩ : BufTy).Contents (Elt F) → (⟨S64, .f32⟩ : BufTy).Contents (Elt F)),
    StableHlo.nullary main_c_8 (constantI S_ 32 0#32),
    StableHlo.TRef.nullary main_call1.cst (constant S_ .f32 0x00000000#32),
    StableHlo.TRef.binary (.of main_v44) main_call1.cst main_call1.v0 (fun x v => Host.reduceAdd x v reducesTo_S50000x64_S64_d0 h_S_),
    StableHlo.TRef.unary main_call1.v0 main_call1.v1 (broadcastInDim S1x64 ![1] bcast_S64_S1x64_1),
    StableHlo.TRef.nullary main_call1.cst_0 (constant S_ .f32 0x47435000#32),
    StableHlo.TRef.unary main_call1.cst_0 main_call1.v2 (broadcastInDim S1x64 ![] bcast_S_S1x64),
    StableHlo.TRef.binary main_call1.v1 main_call1.v2 main_call1.v3 Host.divf,
    StableHlo.TRef.unary main_call1.v3 main_call1.v4 (broadcastInDim S50000x64 ![0, 1] bcast_S1x64_S50000x64_0_1),
    StableHlo.TRef.binary (.of main_v44) main_call1.v4 main_call1.v5 subf,
    StableHlo.TRef.binary main_call1.v5 main_call1.v5 main_call1.v6 mulf,
    StableHlo.TRef.unary (.of main_c_8) main_call1.v7 (sitofp .f32),
    StableHlo.TRef.nullary main_call1.cst_1 (constant S_ .f32 0x47435000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S50000x64_S64_d0 h_S_),
    StableHlo.TRef.unary main_call1.v8 main_call1.v10 (broadcastInDim S64 ![] bcast_S_S64),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S64 ![] bcast_S_S64),
    StableHlo.TRef.ternary main_call1.v12 main_call1.v11 main_call1.call0.v1 main_call1.call0.v2 (fun p a b => select (broadcastInDim S64 ![] bcast_S_S64 p) a b) ]

/-- Statements 61 to 120 of the printed @main, each call's operations listed in its place. -/
abbrev ops1 : List (HloOp τ sig (Elt F)) :=
  [ StableHlo.unary main_v47 main_v49 (broadcastInDim S1x64 ![1] bcast_S64_S1x64_1 : (⟨S64, .f32⟩ : BufTy).Contents (Elt F) → (⟨S1x64, .f32⟩ : BufTy).Contents (Elt F)),
    StableHlo.unary main_v49 main_v50 (broadcastInDim S50000x64 ![0, 1] bcast_S1x64_S50000x64_0_1 : (⟨S1x64, .f32⟩ : BufTy).Contents (Elt F) → (⟨S50000x64, .f32⟩ : BufTy).Contents (Elt F)),
    StableHlo.binary main_v44 main_v50 main_v51 (subf : (⟨S50000x64, .f32⟩ : BufTy).Contents (Elt F) → (⟨S50000x64, .f32⟩ : BufTy).Contents (Elt F) → (⟨S50000x64, .f32⟩ : BufTy).Contents (Elt F)),
    StableHlo.nullary main_cst_9 (constant S_ .f32 0x3727C5AC#32),
    StableHlo.unary main_cst_9 main_v52 (broadcastInDim S64 ![] bcast_S_S64 : (⟨S_, .f32⟩ : BufTy).Contents (Elt F) → (⟨S64, .f32⟩ : BufTy).Contents (Elt F)),
    StableHlo.binary main_v48 main_v52 main_v53 (addf : (⟨S64, .f32⟩ : BufTy).Contents (Elt F) → (⟨S64, .f32⟩ : BufTy).Contents (Elt F) → (⟨S64, .f32⟩ : BufTy).Contents (Elt F)),
    StableHlo.unary main_v53 main_v54 (Host.rsqrt : (⟨S64, .f32⟩ : BufTy).Contents (Elt F) → (⟨S64, .f32⟩ : BufTy).Contents (Elt F)),
    StableHlo.unary main_v54 main_v55 (broadcastInDim S1x64 ![1] bcast_S64_S1x64_1 : (⟨S64, .f32⟩ : BufTy).Contents (Elt F) → (⟨S1x64, .f32⟩ : BufTy).Contents (Elt F)),
    StableHlo.unary main_v55 main_v56 (broadcastInDim S50000x64 ![0, 1] bcast_S1x64_S50000x64_0_1 : (⟨S1x64, .f32⟩ : BufTy).Contents (Elt F) → (⟨S50000x64, .f32⟩ : BufTy).Contents (Elt F)),
    StableHlo.binary main_v51 main_v56 main_v57 (mulf : (⟨S50000x64, .f32⟩ : BufTy).Contents (Elt F) → (⟨S50000x64, .f32⟩ : BufTy).Contents (Elt F) → (⟨S50000x64, .f32⟩ : BufTy).Contents (Elt F)),
    StableHlo.unary main_arg9 main_v58 (broadcastInDim S1x64 ![1] bcast_S64_S1x64_1 : (⟨S64, .f32⟩ : BufTy).Contents (Elt F) → (⟨S1x64, .f32⟩ : BufTy).Contents (Elt F)),
    StableHlo.unary main_v58 main_v59 (broadcastInDim S50000x64 ![0, 1] bcast_S1x64_S50000x64_0_1 : (⟨S1x64, .f32⟩ : BufTy).Contents (Elt F) → (⟨S50000x64, .f32⟩ : BufTy).Contents (Elt F)),
    StableHlo.binary main_v57 main_v59 main_v60 (mulf : (⟨S50000x64, .f32⟩ : BufTy).Contents (Elt F) → (⟨S50000x64, .f32⟩ : BufTy).Contents (Elt F) → (⟨S50000x64, .f32⟩ : BufTy).Contents (Elt F)),
    StableHlo.unary main_arg10 main_v61 (broadcastInDim S1x64 ![1] bcast_S64_S1x64_1 : (⟨S64, .f32⟩ : BufTy).Contents (Elt F) → (⟨S1x64, .f32⟩ : BufTy).Contents (Elt F)),
    StableHlo.unary main_v61 main_v62 (broadcastInDim S50000x64 ![0, 1] bcast_S1x64_S50000x64_0_1 : (⟨S1x64, .f32⟩ : BufTy).Contents (Elt F) → (⟨S50000x64, .f32⟩ : BufTy).Contents (Elt F)),
    StableHlo.binary main_v60 main_v62 main_v63 (addf : (⟨S50000x64, .f32⟩ : BufTy).Contents (Elt F) → (⟨S50000x64, .f32⟩ : BufTy).Contents (Elt F) → (⟨S50000x64, .f32⟩ : BufTy).Contents (Elt F)),
    StableHlo.nullary main_cst_10 (constant S_ .f32 0x00000000#32),
    StableHlo.unary main_cst_10 main_v64 (broadcastInDim S50000x64 ![] bcast_S_S50000x64 : (⟨S_, .f32⟩ : BufTy).Contents (Elt F) → (⟨S50000x64, .f32⟩ : BufTy).Contents (Elt F)),
    StableHlo.binary main_v63 main_v64 main_v65 (maximumf : (⟨S50000x64, .f32⟩ : BufTy).Contents (Elt F) → (⟨S50000x64, .f32⟩ : BufTy).Contents (Elt F) → (⟨S50000x64, .f32⟩ : BufTy).Contents (Elt F)),
    StableHlo.nullary main_c_11 (constantI S_ 32 0#32),
    StableHlo.unary main_c_11 main_v66 (broadcastInDim S800000 ![] bcast_S_S800000 : (⟨S_, .i32⟩ : BufTy).Contents (Elt F) → (⟨S800000, .i32⟩ : BufTy).Contents (Elt F)),
    StableHlo.binary main_v1 main_v66 main_v67 (cmpi .slt : (⟨S800000, .i32⟩ : BufTy).Contents (Elt F) → (⟨S800000, .i32⟩ : BufTy).Contents (Elt F) → (⟨S800000, .i1⟩ : BufTy).Contents (Elt F)),
    StableHlo.nullary main_c_12 (constantI S_ 32 50000#32),
    StableHlo.unary main_c_12 main_v68 (broadcastInDim S800000 ![] bcast_S_S800000 : (⟨S_, .i32⟩ : BufTy).Contents (Elt F) → (⟨S800000, .i32⟩ : BufTy).Contents (Elt F)),
    StableHlo.binary main_v1 main_v68 main_v69 (addi : (⟨S800000, .i32⟩ : BufTy).Contents (Elt F) → (⟨S800000, .i32⟩ : BufTy).Contents (Elt F) → (⟨S800000, .i32⟩ : BufTy).Contents (Elt F)),
    StableHlo.ternary main_v67 main_v69 main_v1 main_v70 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v70 main_v71 (broadcastInDim S800000x1 ![0] bcast_S800000_S800000x1_0 : (⟨S800000, .i32⟩ : BufTy).Contents (Elt F) → (⟨S800000x1, .i32⟩ : BufTy).Contents (Elt F)),
    StableHlo.binary main_v65 main_v71 main_v72 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.nullary main_cst_13 (constant S_ .f32 0x00000000#32),
    StableHlo.unary main_cst_13 main_v73 (broadcastInDim S50000x64 ![] bcast_S_S50000x64 : (⟨S_, .f32⟩ : BufTy).Contents (Elt F) → (⟨S50000x64, .f32⟩ : BufTy).Contents (Elt F)),
    StableHlo.unary main_v3 main_v74 (broadcastInDim S800000x1 ![0] bcast_S800000_S800000x1_0 : (⟨S800000, .i32⟩ : BufTy).Contents (Elt F) → (⟨S800000x1, .i32⟩ : BufTy).Contents (Elt F)),
    StableHlo.ternary main_v73 main_v74 main_v72 main_v75 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    StableHlo.binary main_v75 main_arg11 main_v76 ((fun l r => Host.dotGeneral dot_S50000x64_S64x128_S50000x128_1_0_0_1_n_n none l r) : (⟨S50000x64, .f32⟩ : BufTy).Contents (Elt F) → (⟨S64x128, .f32⟩ : BufTy).Contents (Elt F) → (⟨S50000x128, .f32⟩ : BufTy).Contents (Elt F)),
    StableHlo.unary main_arg12 main_v77 (broadcastInDim S1x128 ![1] bcast_S128_S1x128_1 : (⟨S128, .f32⟩ : BufTy).Contents (Elt F) → (⟨S1x128, .f32⟩ : BufTy).Contents (Elt F)),
    StableHlo.unary main_v77 main_v78 (broadcastInDim S50000x128 ![0, 1] bcast_S1x128_S50000x128_0_1 : (⟨S1x128, .f32⟩ : BufTy).Contents (Elt F) → (⟨S50000x128, .f32⟩ : BufTy).Contents (Elt F)),
    StableHlo.binary main_v76 main_v78 main_v79 (addf : (⟨S50000x128, .f32⟩ : BufTy).Contents (Elt F) → (⟨S50000x128, .f32⟩ : BufTy).Contents (Elt F) → (⟨S50000x128, .f32⟩ : BufTy).Contents (Elt F)),
    StableHlo.binary main_v65 main_arg13 main_v80 ((fun l r => Host.dotGeneral dot_S50000x64_S64x128_S50000x128_1_0_0_1_n_n none l r) : (⟨S50000x64, .f32⟩ : BufTy).Contents (Elt F) → (⟨S64x128, .f32⟩ : BufTy).Contents (Elt F) → (⟨S50000x128, .f32⟩ : BufTy).Contents (Elt F)),
    StableHlo.binary main_v79 main_v80 main_v81 (addf : (⟨S50000x128, .f32⟩ : BufTy).Contents (Elt F) → (⟨S50000x128, .f32⟩ : BufTy).Contents (Elt F) → (⟨S50000x128, .f32⟩ : BufTy).Contents (Elt F)),
    StableHlo.nullary main_cst_14 (constant S_ .f32 0x00000000#32),
    StableHlo.binary main_v81 main_cst_14 main_v82 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_15 (constant S_ .f32 0x47435000#32),
    StableHlo.unary main_cst_15 main_v83 (broadcastInDim S128 ![] bcast_S_S128 : (⟨S_, .f32⟩ : BufTy).Contents (Elt F) → (⟨S128, .f32⟩ : BufTy).Contents (Elt F)),
    StableHlo.binary main_v82 main_v83 main_v84 (Host.divf : (⟨S128, .f32⟩ : BufTy).Contents (Elt F) → (⟨S128, .f32⟩ : BufTy).Contents (Elt F) → (⟨S128, .f32⟩ : BufTy).Contents (Elt F)),
    StableHlo.nullary main_c_16 (constantI S_ 32 0#32),
    StableHlo.TRef.nullary main_call2.cst (constant S_ .f32 0x00000000#32),
    StableHlo.TRef.binary (.of main_v81) main_call2.cst main_call2.v0 (fun x v => Host.reduceAdd x v reducesTo_S50000x128_S128_d0 h_S_),
    StableHlo.TRef.unary main_call2.v0 main_call2.v1 (broadcastInDim S1x128 ![1] bcast_S128_S1x128_1),
    StableHlo.TRef.nullary main_call2.cst_0 (constant S_ .f32 0x47435000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S50000x128 ![0, 1] bcast_S1x128_S50000x128_0_1),
    StableHlo.TRef.binary (.of main_v81) main_call2.v4 main_call2.v5 subf,
    StableHlo.TRef.binary main_call2.v5 main_call2.v5 main_call2.v6 mulf,
    StableHlo.TRef.unary (.of main_c_16) main_call2.v7 (sitofp .f32),
    StableHlo.TRef.nullary main_call2.cst_1 (constant S_ .f32 0x47435000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S50000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b),
    StableHlo.unary main_v84 main_v86 (broadcastInDim S1x128 ![1] bcast_S128_S1x128_1 : (⟨S128, .f32⟩ : BufTy).Contents (Elt F) → (⟨S1x128, .f32⟩ : BufTy).Contents (Elt F)),
    StableHlo.unary main_v86 main_v87 (broadcastInDim S50000x128 ![0, 1] bcast_S1x128_S50000x128_0_1 : (⟨S1x128, .f32⟩ : BufTy).Contents (Elt F) → (⟨S50000x128, .f32⟩ : BufTy).Contents (Elt F)),
    StableHlo.binary main_v81 main_v87 main_v88 (subf : (⟨S50000x128, .f32⟩ : BufTy).Contents (Elt F) → (⟨S50000x128, .f32⟩ : BufTy).Contents (Elt F) → (⟨S50000x128, .f32⟩ : BufTy).Contents (Elt F)),
    StableHlo.nullary main_cst_17 (constant S_ .f32 0x3727C5AC#32),
    StableHlo.unary main_cst_17 main_v89 (broadcastInDim S128 ![] bcast_S_S128 : (⟨S_, .f32⟩ : BufTy).Contents (Elt F) → (⟨S128, .f32⟩ : BufTy).Contents (Elt F)),
    StableHlo.binary main_v85 main_v89 main_v90 (addf : (⟨S128, .f32⟩ : BufTy).Contents (Elt F) → (⟨S128, .f32⟩ : BufTy).Contents (Elt F) → (⟨S128, .f32⟩ : BufTy).Contents (Elt F)),
    StableHlo.unary main_v90 main_v91 (Host.rsqrt : (⟨S128, .f32⟩ : BufTy).Contents (Elt F) → (⟨S128, .f32⟩ : BufTy).Contents (Elt F)),
    StableHlo.unary main_v91 main_v92 (broadcastInDim S1x128 ![1] bcast_S128_S1x128_1 : (⟨S128, .f32⟩ : BufTy).Contents (Elt F) → (⟨S1x128, .f32⟩ : BufTy).Contents (Elt F)),
    StableHlo.unary main_v92 main_v93 (broadcastInDim S50000x128 ![0, 1] bcast_S1x128_S50000x128_0_1 : (⟨S1x128, .f32⟩ : BufTy).Contents (Elt F) → (⟨S50000x128, .f32⟩ : BufTy).Contents (Elt F)),
    StableHlo.binary main_v88 main_v93 main_v94 (mulf : (⟨S50000x128, .f32⟩ : BufTy).Contents (Elt F) → (⟨S50000x128, .f32⟩ : BufTy).Contents (Elt F) → (⟨S50000x128, .f32⟩ : BufTy).Contents (Elt F)),
    StableHlo.unary main_arg14 main_v95 (broadcastInDim S1x128 ![1] bcast_S128_S1x128_1 : (⟨S128, .f32⟩ : BufTy).Contents (Elt F) → (⟨S1x128, .f32⟩ : BufTy).Contents (Elt F)),
    StableHlo.unary main_v95 main_v96 (broadcastInDim S50000x128 ![0, 1] bcast_S1x128_S50000x128_0_1 : (⟨S1x128, .f32⟩ : BufTy).Contents (Elt F) → (⟨S50000x128, .f32⟩ : BufTy).Contents (Elt F)),
    StableHlo.binary main_v94 main_v96 main_v97 (mulf : (⟨S50000x128, .f32⟩ : BufTy).Contents (Elt F) → (⟨S50000x128, .f32⟩ : BufTy).Contents (Elt F) → (⟨S50000x128, .f32⟩ : BufTy).Contents (Elt F)),
    StableHlo.unary main_arg15 main_v98 (broadcastInDim S1x128 ![1] bcast_S128_S1x128_1 : (⟨S128, .f32⟩ : BufTy).Contents (Elt F) → (⟨S1x128, .f32⟩ : BufTy).Contents (Elt F)),
    StableHlo.unary main_v98 main_v99 (broadcastInDim S50000x128 ![0, 1] bcast_S1x128_S50000x128_0_1 : (⟨S1x128, .f32⟩ : BufTy).Contents (Elt F) → (⟨S50000x128, .f32⟩ : BufTy).Contents (Elt F)) ]

/-- Statements 121 to 180 of the printed @main, each call's operations listed in its place. -/
abbrev ops2 : List (HloOp τ sig (Elt F)) :=
  [ StableHlo.binary main_v97 main_v99 main_v100 (addf : (⟨S50000x128, .f32⟩ : BufTy).Contents (Elt F) → (⟨S50000x128, .f32⟩ : BufTy).Contents (Elt F) → (⟨S50000x128, .f32⟩ : BufTy).Contents (Elt F)),
    StableHlo.nullary main_cst_18 (constant S_ .f32 0x00000000#32),
    StableHlo.unary main_cst_18 main_v101 (broadcastInDim S50000x128 ![] bcast_S_S50000x128 : (⟨S_, .f32⟩ : BufTy).Contents (Elt F) → (⟨S50000x128, .f32⟩ : BufTy).Contents (Elt F)),
    StableHlo.binary main_v100 main_v101 main_v102 (maximumf : (⟨S50000x128, .f32⟩ : BufTy).Contents (Elt F) → (⟨S50000x128, .f32⟩ : BufTy).Contents (Elt F) → (⟨S50000x128, .f32⟩ : BufTy).Contents (Elt F)),
    StableHlo.nullary main_c_19 (constantI S_ 32 0#32),
    StableHlo.unary main_c_19 main_v103 (broadcastInDim S800000 ![] bcast_S_S800000 : (⟨S_, .i32⟩ : BufTy).Contents (Elt F) → (⟨S800000, .i32⟩ : BufTy).Contents (Elt F)),
    StableHlo.binary main_v1 main_v103 main_v104 (cmpi .slt : (⟨S800000, .i32⟩ : BufTy).Contents (Elt F) → (⟨S800000, .i32⟩ : BufTy).Contents (Elt F) → (⟨S800000, .i1⟩ : BufTy).Contents (Elt F)),
    StableHlo.nullary main_c_20 (constantI S_ 32 50000#32),
    StableHlo.unary main_c_20 main_v105 (broadcastInDim S800000 ![] bcast_S_S800000 : (⟨S_, .i32⟩ : BufTy).Contents (Elt F) → (⟨S800000, .i32⟩ : BufTy).Contents (Elt F)),
    StableHlo.binary main_v1 main_v105 main_v106 (addi : (⟨S800000, .i32⟩ : BufTy).Contents (Elt F) → (⟨S800000, .i32⟩ : BufTy).Contents (Elt F) → (⟨S800000, .i32⟩ : BufTy).Contents (Elt F)),
    StableHlo.ternary main_v104 main_v106 main_v1 main_v107 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v107 main_v108 (broadcastInDim S800000x1 ![0] bcast_S800000_S800000x1_0 : (⟨S800000, .i32⟩ : BufTy).Contents (Elt F) → (⟨S800000x1, .i32⟩ : BufTy).Contents (Elt F)),
    StableHlo.binary main_v102 main_v108 main_v109 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_21 (constant S_ .f32 0x00000000#32),
    StableHlo.unary main_cst_21 main_v110 (broadcastInDim S50000x128 ![] bcast_S_S50000x128 : (⟨S_, .f32⟩ : BufTy).Contents (Elt F) → (⟨S50000x128, .f32⟩ : BufTy).Contents (Elt F)),
    StableHlo.unary main_v3 main_v111 (broadcastInDim S800000x1 ![0] bcast_S800000_S800000x1_0 : (⟨S800000, .i32⟩ : BufTy).Contents (Elt F) → (⟨S800000x1, .i32⟩ : BufTy).Contents (Elt F)),
    StableHlo.ternary main_v110 main_v111 main_v109 main_v112 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.binary main_v112 main_arg16 main_v113 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    StableHlo.unary main_arg17 main_v114 (broadcastInDim S1x64 ![1] bcast_S64_S1x64_1 : (⟨S64, .f32⟩ : BufTy).Contents (Elt F) → (⟨S1x64, .f32⟩ : BufTy).Contents (Elt F)),
    StableHlo.unary main_v114 main_v115 (broadcastInDim S50000x64 ![0, 1] bcast_S1x64_S50000x64_0_1 : (⟨S1x64, .f32⟩ : BufTy).Contents (Elt F) → (⟨S50000x64, .f32⟩ : BufTy).Contents (Elt F)),
    StableHlo.binary main_v113 main_v115 main_v116 (addf : (⟨S50000x64, .f32⟩ : BufTy).Contents (Elt F) → (⟨S50000x64, .f32⟩ : BufTy).Contents (Elt F) → (⟨S50000x64, .f32⟩ : BufTy).Contents (Elt F)),
    StableHlo.binary main_v102 main_arg18 main_v117 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    StableHlo.binary main_v116 main_v117 main_v118 (addf : (⟨S50000x64, .f32⟩ : BufTy).Contents (Elt F) → (⟨S50000x64, .f32⟩ : BufTy).Contents (Elt F) → (⟨S50000x64, .f32⟩ : BufTy).Contents (Elt F)),
    StableHlo.nullary main_cst_22 (constant S_ .f32 0x00000000#32),
    StableHlo.binary main_v118 main_cst_22 main_v119 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_23 (constant S_ .f32 0x47435000#32),
    StableHlo.unary main_cst_23 main_v120 (broadcastInDim S64 ![] bcast_S_S64 : (⟨S_, .f32⟩ : BufTy).Contents (Elt F) → (⟨S64, .f32⟩ : BufTy).Contents (Elt F)),
    StableHlo.binary main_v119 main_v120 main_v121 (Host.divf : (⟨S64, .f32⟩ : BufTy).Contents (Elt F) → (⟨S64, .f32⟩ : BufTy).Contents (Elt F) → (⟨S64, .f32⟩ : BufTy).Contents (Elt F)),
    StableHlo.nullary main_c_24 (constantI S_ 32 0#32),
    StableHlo.TRef.nullary main_call3.cst (constant S_ .f32 0x00000000#32),
    StableHlo.TRef.binary (.of main_v118) main_call3.cst main_call3.v0 (fun x v => Host.reduceAdd x v reducesTo_S50000x64_S64_d0 h_S_),
    StableHlo.TRef.unary main_call3.v0 main_call3.v1 (broadcastInDim S1x64 ![1] bcast_S64_S1x64_1),
    StableHlo.TRef.nullary main_call3.cst_0 (constant S_ .f32 0x47435000#32),
    StableHlo.TRef.unary main_call3.cst_0 main_call3.v2 (broadcastInDim S1x64 ![] bcast_S_S1x64),
    StableHlo.TRef.binary main_call3.v1 main_call3.v2 main_call3.v3 Host.divf,
    StableHlo.TRef.unary main_call3.v3 main_call3.v4 (broadcastInDim S50000x64 ![0, 1] bcast_S1x64_S50000x64_0_1),
    StableHlo.TRef.binary (.of main_v118) main_call3.v4 main_call3.v5 subf,
    StableHlo.TRef.binary main_call3.v5 main_call3.v5 main_call3.v6 mulf,
    StableHlo.TRef.unary (.of main_c_24) main_call3.v7 (sitofp .f32),
    StableHlo.TRef.nullary main_call3.cst_1 (constant S_ .f32 0x47435000#32),
    StableHlo.TRef.binary main_call3.cst_1 main_call3.v7 main_call3.v8 subf,
    StableHlo.TRef.nullary main_call3.cst_2 (constant S_ .f32 0x00000000#32),
    StableHlo.TRef.binary main_call3.v6 main_call3.cst_2 main_call3.v9 (fun x v => Host.reduceAdd x v reducesTo_S50000x64_S64_d0 h_S_),
    StableHlo.TRef.unary main_call3.v8 main_call3.v10 (broadcastInDim S64 ![] bcast_S_S64),
    StableHlo.TRef.binary main_call3.v9 main_call3.v10 main_call3.v11 Host.divf,
    StableHlo.TRef.nullary main_call3.cst_3 (constant S_ .f32 0x00000000#32),
    StableHlo.TRef.binary main_call3.v8 main_call3.cst_3 main_call3.v12 (cmpf .ogt),
    StableHlo.TRef.nullary main_call3.cst_4 (constant S_ .f32 0x7FC00000#32),
    StableHlo.TRef.unary main_call3.cst_4 main_call3.call0.v0 id,
    StableHlo.TRef.unary main_call3.call0.v0 main_call3.call0.v1 (broadcastInDim S64 ![] bcast_S_S64),
    StableHlo.TRef.ternary main_call3.v12 main_call3.v11 main_call3.call0.v1 main_call3.call0.v2 (fun p a b => select (broadcastInDim S64 ![] bcast_S_S64 p) a b),
    StableHlo.unary main_v121 main_v123 (broadcastInDim S1x64 ![1] bcast_S64_S1x64_1 : (⟨S64, .f32⟩ : BufTy).Contents (Elt F) → (⟨S1x64, .f32⟩ : BufTy).Contents (Elt F)),
    StableHlo.unary main_v123 main_v124 (broadcastInDim S50000x64 ![0, 1] bcast_S1x64_S50000x64_0_1 : (⟨S1x64, .f32⟩ : BufTy).Contents (Elt F) → (⟨S50000x64, .f32⟩ : BufTy).Contents (Elt F)),
    StableHlo.binary main_v118 main_v124 main_v125 (subf : (⟨S50000x64, .f32⟩ : BufTy).Contents (Elt F) → (⟨S50000x64, .f32⟩ : BufTy).Contents (Elt F) → (⟨S50000x64, .f32⟩ : BufTy).Contents (Elt F)),
    StableHlo.nullary main_cst_25 (constant S_ .f32 0x3727C5AC#32),
    StableHlo.unary main_cst_25 main_v126 (broadcastInDim S64 ![] bcast_S_S64 : (⟨S_, .f32⟩ : BufTy).Contents (Elt F) → (⟨S64, .f32⟩ : BufTy).Contents (Elt F)),
    StableHlo.binary main_v122 main_v126 main_v127 (addf : (⟨S64, .f32⟩ : BufTy).Contents (Elt F) → (⟨S64, .f32⟩ : BufTy).Contents (Elt F) → (⟨S64, .f32⟩ : BufTy).Contents (Elt F)),
    StableHlo.unary main_v127 main_v128 (Host.rsqrt : (⟨S64, .f32⟩ : BufTy).Contents (Elt F) → (⟨S64, .f32⟩ : BufTy).Contents (Elt F)),
    StableHlo.unary main_v128 main_v129 (broadcastInDim S1x64 ![1] bcast_S64_S1x64_1 : (⟨S64, .f32⟩ : BufTy).Contents (Elt F) → (⟨S1x64, .f32⟩ : BufTy).Contents (Elt F)),
    StableHlo.unary main_v129 main_v130 (broadcastInDim S50000x64 ![0, 1] bcast_S1x64_S50000x64_0_1 : (⟨S1x64, .f32⟩ : BufTy).Contents (Elt F) → (⟨S50000x64, .f32⟩ : BufTy).Contents (Elt F)),
    StableHlo.binary main_v125 main_v130 main_v131 (mulf : (⟨S50000x64, .f32⟩ : BufTy).Contents (Elt F) → (⟨S50000x64, .f32⟩ : BufTy).Contents (Elt F) → (⟨S50000x64, .f32⟩ : BufTy).Contents (Elt F)),
    StableHlo.unary main_arg19 main_v132 (broadcastInDim S1x64 ![1] bcast_S64_S1x64_1 : (⟨S64, .f32⟩ : BufTy).Contents (Elt F) → (⟨S1x64, .f32⟩ : BufTy).Contents (Elt F)),
    StableHlo.unary main_v132 main_v133 (broadcastInDim S50000x64 ![0, 1] bcast_S1x64_S50000x64_0_1 : (⟨S1x64, .f32⟩ : BufTy).Contents (Elt F) → (⟨S50000x64, .f32⟩ : BufTy).Contents (Elt F)),
    StableHlo.binary main_v131 main_v133 main_v134 (mulf : (⟨S50000x64, .f32⟩ : BufTy).Contents (Elt F) → (⟨S50000x64, .f32⟩ : BufTy).Contents (Elt F) → (⟨S50000x64, .f32⟩ : BufTy).Contents (Elt F)),
    StableHlo.unary main_arg20 main_v135 (broadcastInDim S1x64 ![1] bcast_S64_S1x64_1 : (⟨S64, .f32⟩ : BufTy).Contents (Elt F) → (⟨S1x64, .f32⟩ : BufTy).Contents (Elt F)),
    StableHlo.unary main_v135 main_v136 (broadcastInDim S50000x64 ![0, 1] bcast_S1x64_S50000x64_0_1 : (⟨S1x64, .f32⟩ : BufTy).Contents (Elt F) → (⟨S50000x64, .f32⟩ : BufTy).Contents (Elt F)),
    StableHlo.binary main_v134 main_v136 main_v137 (addf : (⟨S50000x64, .f32⟩ : BufTy).Contents (Elt F) → (⟨S50000x64, .f32⟩ : BufTy).Contents (Elt F) → (⟨S50000x64, .f32⟩ : BufTy).Contents (Elt F)),
    StableHlo.nullary main_cst_26 (constant S_ .f32 0x00000000#32),
    StableHlo.unary main_cst_26 main_v138 (broadcastInDim S50000x64 ![] bcast_S_S50000x64 : (⟨S_, .f32⟩ : BufTy).Contents (Elt F) → (⟨S50000x64, .f32⟩ : BufTy).Contents (Elt F)),
    StableHlo.binary main_v137 main_v138 main_v139 (maximumf : (⟨S50000x64, .f32⟩ : BufTy).Contents (Elt F) → (⟨S50000x64, .f32⟩ : BufTy).Contents (Elt F) → (⟨S50000x64, .f32⟩ : BufTy).Contents (Elt F)),
    StableHlo.nullary main_c_27 (constantI S_ 32 0#32),
    StableHlo.unary main_c_27 main_v140 (broadcastInDim S800000 ![] bcast_S_S800000 : (⟨S_, .i32⟩ : BufTy).Contents (Elt F) → (⟨S800000, .i32⟩ : BufTy).Contents (Elt F)),
    StableHlo.binary main_v1 main_v140 main_v141 (cmpi .slt : (⟨S800000, .i32⟩ : BufTy).Contents (Elt F) → (⟨S800000, .i32⟩ : BufTy).Contents (Elt F) → (⟨S800000, .i1⟩ : BufTy).Contents (Elt F)),
    StableHlo.nullary main_c_28 (constantI S_ 32 50000#32),
    StableHlo.unary main_c_28 main_v142 (broadcastInDim S800000 ![] bcast_S_S800000 : (⟨S_, .i32⟩ : BufTy).Contents (Elt F) → (⟨S800000, .i32⟩ : BufTy).Contents (Elt F)),
    StableHlo.binary main_v1 main_v142 main_v143 (addi : (⟨S800000, .i32⟩ : BufTy).Contents (Elt F) → (⟨S800000, .i32⟩ : BufTy).Contents (Elt F) → (⟨S800000, .i32⟩ : BufTy).Contents (Elt F)),
    StableHlo.ternary main_v141 main_v143 main_v1 main_v144 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v144 main_v145 (broadcastInDim S800000x1 ![0] bcast_S800000_S800000x1_0 : (⟨S800000, .i32⟩ : BufTy).Contents (Elt F) → (⟨S800000x1, .i32⟩ : BufTy).Contents (Elt F)),
    StableHlo.binary main_v139 main_v145 main_v146 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.nullary main_cst_29 (constant S_ .f32 0x00000000#32),
    StableHlo.unary main_cst_29 main_v147 (broadcastInDim S50000x64 ![] bcast_S_S50000x64 : (⟨S_, .f32⟩ : BufTy).Contents (Elt F) → (⟨S50000x64, .f32⟩ : BufTy).Contents (Elt F)) ]

/-- Statements 181 to 226 of the printed @main (the last is the result), each call's operations listed in its place. -/
abbrev ops3 : List (HloOp τ sig (Elt F)) :=
  [ StableHlo.unary main_v3 main_v148 (broadcastInDim S800000x1 ![0] bcast_S800000_S800000x1_0 : (⟨S800000, .i32⟩ : BufTy).Contents (Elt F) → (⟨S800000x1, .i32⟩ : BufTy).Contents (Elt F)),
    StableHlo.ternary main_v147 main_v148 main_v146 main_v149 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    StableHlo.binary main_v149 main_arg21 main_v150 ((fun l r => Host.dotGeneral dot_S50000x64_S64x32_S50000x32_1_0_0_1_n_n none l r) : (⟨S50000x64, .f32⟩ : BufTy).Contents (Elt F) → (⟨S64x32, .f32⟩ : BufTy).Contents (Elt F) → (⟨S50000x32, .f32⟩ : BufTy).Contents (Elt F)),
    StableHlo.unary main_arg22 main_v151 (broadcastInDim S1x32 ![1] bcast_S32_S1x32_1 : (⟨S32, .f32⟩ : BufTy).Contents (Elt F) → (⟨S1x32, .f32⟩ : BufTy).Contents (Elt F)),
    StableHlo.unary main_v151 main_v152 (broadcastInDim S50000x32 ![0, 1] bcast_S1x32_S50000x32_0_1 : (⟨S1x32, .f32⟩ : BufTy).Contents (Elt F) → (⟨S50000x32, .f32⟩ : BufTy).Contents (Elt F)),
    StableHlo.binary main_v150 main_v152 main_v153 (addf : (⟨S50000x32, .f32⟩ : BufTy).Contents (Elt F) → (⟨S50000x32, .f32⟩ : BufTy).Contents (Elt F) → (⟨S50000x32, .f32⟩ : BufTy).Contents (Elt F)),
    StableHlo.binary main_v139 main_arg23 main_v154 ((fun l r => Host.dotGeneral dot_S50000x64_S64x32_S50000x32_1_0_0_1_n_n none l r) : (⟨S50000x64, .f32⟩ : BufTy).Contents (Elt F) → (⟨S64x32, .f32⟩ : BufTy).Contents (Elt F) → (⟨S50000x32, .f32⟩ : BufTy).Contents (Elt F)),
    StableHlo.binary main_v153 main_v154 main_v155 (addf : (⟨S50000x32, .f32⟩ : BufTy).Contents (Elt F) → (⟨S50000x32, .f32⟩ : BufTy).Contents (Elt F) → (⟨S50000x32, .f32⟩ : BufTy).Contents (Elt F)),
    StableHlo.nullary main_cst_30 (constant S_ .f32 0x00000000#32),
    StableHlo.binary main_v155 main_cst_30 main_v156 ((fun x v => Host.reduceAdd x v reducesTo_S50000x32_S32_d0 h_S_) : (⟨S50000x32, .f32⟩ : BufTy).Contents (Elt F) → (⟨S_, .f32⟩ : BufTy).Contents (Elt F) → (⟨S32, .f32⟩ : BufTy).Contents (Elt F)),
    StableHlo.nullary main_cst_31 (constant S_ .f32 0x47435000#32),
    StableHlo.unary main_cst_31 main_v157 (broadcastInDim S32 ![] bcast_S_S32 : (⟨S_, .f32⟩ : BufTy).Contents (Elt F) → (⟨S32, .f32⟩ : BufTy).Contents (Elt F)),
    StableHlo.binary main_v156 main_v157 main_v158 (Host.divf : (⟨S32, .f32⟩ : BufTy).Contents (Elt F) → (⟨S32, .f32⟩ : BufTy).Contents (Elt F) → (⟨S32, .f32⟩ : BufTy).Contents (Elt F)),
    StableHlo.nullary main_c_32 (constantI S_ 32 0#32),
    StableHlo.TRef.nullary main_call4.cst (constant S_ .f32 0x00000000#32),
    StableHlo.TRef.binary (.of main_v155) main_call4.cst main_call4.v0 (fun x v => Host.reduceAdd x v reducesTo_S50000x32_S32_d0 h_S_),
    StableHlo.TRef.unary main_call4.v0 main_call4.v1 (broadcastInDim S1x32 ![1] bcast_S32_S1x32_1),
    StableHlo.TRef.nullary main_call4.cst_0 (constant S_ .f32 0x47435000#32),
    StableHlo.TRef.unary main_call4.cst_0 main_call4.v2 (broadcastInDim S1x32 ![] bcast_S_S1x32),
    StableHlo.TRef.binary main_call4.v1 main_call4.v2 main_call4.v3 Host.divf,
    StableHlo.TRef.unary main_call4.v3 main_call4.v4 (broadcastInDim S50000x32 ![0, 1] bcast_S1x32_S50000x32_0_1),
    StableHlo.TRef.binary (.of main_v155) main_call4.v4 main_call4.v5 subf,
    StableHlo.TRef.binary main_call4.v5 main_call4.v5 main_call4.v6 mulf,
    StableHlo.TRef.unary (.of main_c_32) main_call4.v7 (sitofp .f32),
    StableHlo.TRef.nullary main_call4.cst_1 (constant S_ .f32 0x47435000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S50000x32_S32_d0 h_S_),
    StableHlo.TRef.unary main_call4.v8 main_call4.v10 (broadcastInDim S32 ![] bcast_S_S32),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S32 ![] bcast_S_S32),
    StableHlo.TRef.ternary main_call4.v12 main_call4.v11 main_call4.call0.v1 main_call4.call0.v2 (fun p a b => select (broadcastInDim S32 ![] bcast_S_S32 p) a b),
    StableHlo.unary main_v158 main_v160 (broadcastInDim S1x32 ![1] bcast_S32_S1x32_1 : (⟨S32, .f32⟩ : BufTy).Contents (Elt F) → (⟨S1x32, .f32⟩ : BufTy).Contents (Elt F)),
    StableHlo.unary main_v160 main_v161 (broadcastInDim S50000x32 ![0, 1] bcast_S1x32_S50000x32_0_1 : (⟨S1x32, .f32⟩ : BufTy).Contents (Elt F) → (⟨S50000x32, .f32⟩ : BufTy).Contents (Elt F)),
    StableHlo.binary main_v155 main_v161 main_v162 (subf : (⟨S50000x32, .f32⟩ : BufTy).Contents (Elt F) → (⟨S50000x32, .f32⟩ : BufTy).Contents (Elt F) → (⟨S50000x32, .f32⟩ : BufTy).Contents (Elt F)),
    StableHlo.nullary main_cst_33 (constant S_ .f32 0x3727C5AC#32),
    StableHlo.unary main_cst_33 main_v163 (broadcastInDim S32 ![] bcast_S_S32 : (⟨S_, .f32⟩ : BufTy).Contents (Elt F) → (⟨S32, .f32⟩ : BufTy).Contents (Elt F)),
    StableHlo.binary main_v159 main_v163 main_v164 (addf : (⟨S32, .f32⟩ : BufTy).Contents (Elt F) → (⟨S32, .f32⟩ : BufTy).Contents (Elt F) → (⟨S32, .f32⟩ : BufTy).Contents (Elt F)),
    StableHlo.unary main_v164 main_v165 (Host.rsqrt : (⟨S32, .f32⟩ : BufTy).Contents (Elt F) → (⟨S32, .f32⟩ : BufTy).Contents (Elt F)),
    StableHlo.unary main_v165 main_v166 (broadcastInDim S1x32 ![1] bcast_S32_S1x32_1 : (⟨S32, .f32⟩ : BufTy).Contents (Elt F) → (⟨S1x32, .f32⟩ : BufTy).Contents (Elt F)),
    StableHlo.unary main_v166 main_v167 (broadcastInDim S50000x32 ![0, 1] bcast_S1x32_S50000x32_0_1 : (⟨S1x32, .f32⟩ : BufTy).Contents (Elt F) → (⟨S50000x32, .f32⟩ : BufTy).Contents (Elt F)),
    StableHlo.binary main_v162 main_v167 main_v168 (mulf : (⟨S50000x32, .f32⟩ : BufTy).Contents (Elt F) → (⟨S50000x32, .f32⟩ : BufTy).Contents (Elt F) → (⟨S50000x32, .f32⟩ : BufTy).Contents (Elt F)),
    StableHlo.unary main_arg24 main_v169 (broadcastInDim S1x32 ![1] bcast_S32_S1x32_1 : (⟨S32, .f32⟩ : BufTy).Contents (Elt F) → (⟨S1x32, .f32⟩ : BufTy).Contents (Elt F)),
    StableHlo.unary main_v169 main_v170 (broadcastInDim S50000x32 ![0, 1] bcast_S1x32_S50000x32_0_1 : (⟨S1x32, .f32⟩ : BufTy).Contents (Elt F) → (⟨S50000x32, .f32⟩ : BufTy).Contents (Elt F)),
    StableHlo.binary main_v168 main_v170 main_v171 (mulf : (⟨S50000x32, .f32⟩ : BufTy).Contents (Elt F) → (⟨S50000x32, .f32⟩ : BufTy).Contents (Elt F) → (⟨S50000x32, .f32⟩ : BufTy).Contents (Elt F)),
    StableHlo.unary main_arg25 main_v172 (broadcastInDim S1x32 ![1] bcast_S32_S1x32_1 : (⟨S32, .f32⟩ : BufTy).Contents (Elt F) → (⟨S1x32, .f32⟩ : BufTy).Contents (Elt F)),
    StableHlo.unary main_v172 main_v173 (broadcastInDim S50000x32 ![0, 1] bcast_S1x32_S50000x32_0_1 : (⟨S1x32, .f32⟩ : BufTy).Contents (Elt F) → (⟨S50000x32, .f32⟩ : BufTy).Contents (Elt F)),
    StableHlo.binary main_v171 main_v173 main_v174 (addf : (⟨S50000x32, .f32⟩ : BufTy).Contents (Elt F) → (⟨S50000x32, .f32⟩ : BufTy).Contents (Elt F) → (⟨S50000x32, .f32⟩ : BufTy).Contents (Elt F)),
    StableHlo.nullary main_cst_34 (constant S_ .f32 0x00000000#32),
    StableHlo.unary main_cst_34 main_v175 (broadcastInDim S50000x32 ![] bcast_S_S50000x32 : (⟨S_, .f32⟩ : BufTy).Contents (Elt F) → (⟨S50000x32, .f32⟩ : BufTy).Contents (Elt F)),
    StableHlo.binary main_v174 main_v175 main_v176 (maximumf : (⟨S50000x32, .f32⟩ : BufTy).Contents (Elt F) → (⟨S50000x32, .f32⟩ : BufTy).Contents (Elt F) → (⟨S50000x32, .f32⟩ : BufTy).Contents (Elt F)),
    StableHlo.binary main_v176 main_arg26 main_v177 ((fun l r => Host.dotGeneral dot_S50000x32_S32x16_S50000x16_1_0_0_1_n_n none l r) : (⟨S50000x32, .f32⟩ : BufTy).Contents (Elt F) → (⟨S32x16, .f32⟩ : BufTy).Contents (Elt F) → (⟨S50000x16, .f32⟩ : BufTy).Contents (Elt F)),
    StableHlo.unary main_arg27 main_v178 (broadcastInDim S1x16 ![1] bcast_S16_S1x16_1 : (⟨S16, .f32⟩ : BufTy).Contents (Elt F) → (⟨S1x16, .f32⟩ : BufTy).Contents (Elt F)),
    StableHlo.unary main_v178 main_v179 (broadcastInDim S50000x16 ![0, 1] bcast_S1x16_S50000x16_0_1 : (⟨S1x16, .f32⟩ : BufTy).Contents (Elt F) → (⟨S50000x16, .f32⟩ : BufTy).Contents (Elt F)),
    StableHlo.binary main_v177 main_v179 main_v180 (addf : (⟨S50000x16, .f32⟩ : BufTy).Contents (Elt F) → (⟨S50000x16, .f32⟩ : BufTy).Contents (Elt F) → (⟨S50000x16, .f32⟩ : BufTy).Contents (Elt F)),
    StableHlo.nullary main_cst_35 (constant S_ .f32 0x00000000#32),
    StableHlo.unary main_cst_35 main_v181 (broadcastInDim S50000x16 ![] bcast_S_S50000x16 : (⟨S_, .f32⟩ : BufTy).Contents (Elt F) → (⟨S50000x16, .f32⟩ : BufTy).Contents (Elt F)),
    StableHlo.binary main_v180 main_v181 main_v182 (maximumf : (⟨S50000x16, .f32⟩ : BufTy).Contents (Elt F) → (⟨S50000x16, .f32⟩ : BufTy).Contents (Elt F) → (⟨S50000x16, .f32⟩ : BufTy).Contents (Elt F)),
    StableHlo.binary main_v182 main_arg28 main_v183 ((fun l r => Host.dotGeneral dot_S50000x16_S16x2_S50000x2_1_0_0_1_n_n none l r) : (⟨S50000x16, .f32⟩ : BufTy).Contents (Elt F) → (⟨S16x2, .f32⟩ : BufTy).Contents (Elt F) → (⟨S50000x2, .f32⟩ : BufTy).Contents (Elt F)),
    StableHlo.unary main_arg29 main_v184 (broadcastInDim S1x2 ![1] bcast_S2_S1x2_1 : (⟨S2, .f32⟩ : BufTy).Contents (Elt F) → (⟨S1x2, .f32⟩ : BufTy).Contents (Elt F)),
    StableHlo.unary main_v184 main_v185 (broadcastInDim S50000x2 ![0, 1] bcast_S1x2_S50000x2_0_1 : (⟨S1x2, .f32⟩ : BufTy).Contents (Elt F) → (⟨S50000x2, .f32⟩ : BufTy).Contents (Elt F)),
    StableHlo.binary main_v183 main_v185 main_v186 (addf : (⟨S50000x2, .f32⟩ : BufTy).Contents (Elt F) → (⟨S50000x2, .f32⟩ : BufTy).Contents (Elt F) → (⟨S50000x2, .f32⟩ : BufTy).Contents (Elt F)) ]

/-- @main's operations, in order. -/
abbrev ops : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.binary main_arg0 main_arg2 main_v4 ((fun l r => Host.dotGeneral dot_S50000x5_S5x32_S50000x32_1_0_0_1_n_n none l r) : (⟨S50000x5, .f32⟩ : BufTy).Contents (Elt F) → (⟨S5x32, .f32⟩ : BufTy).Contents (Elt F) → (⟨S50000x32, .f32⟩ : BufTy).Contents (Elt F)),
    StableHlo.unary main_arg3 main_v5 (broadcastInDim S1x32 ![1] bcast_S32_S1x32_1 : (⟨S32, .f32⟩ : BufTy).Contents (Elt F) → (⟨S1x32, .f32⟩ : BufTy).Contents (Elt F)),
    StableHlo.unary main_v5 main_v6 (broadcastInDim S50000x32 ![0, 1] bcast_S1x32_S50000x32_0_1 : (⟨S1x32, .f32⟩ : BufTy).Contents (Elt F) → (⟨S50000x32, .f32⟩ : BufTy).Contents (Elt F)),
    StableHlo.binary main_v4 main_v6 main_v7 (addf : (⟨S50000x32, .f32⟩ : BufTy).Contents (Elt F) → (⟨S50000x32, .f32⟩ : BufTy).Contents (Elt F) → (⟨S50000x32, .f32⟩ : BufTy).Contents (Elt F)),
    StableHlo.nullary main_cst (constant S_ .f32 0x00000000#32),
    StableHlo.unary main_cst main_v8 (broadcastInDim S50000x32 ![] bcast_S_S50000x32 : (⟨S_, .f32⟩ : BufTy).Contents (Elt F) → (⟨S50000x32, .f32⟩ : BufTy).Contents (Elt F)),
    StableHlo.binary main_v7 main_v8 main_v9 (maximumf : (⟨S50000x32, .f32⟩ : BufTy).Contents (Elt F) → (⟨S50000x32, .f32⟩ : BufTy).Contents (Elt F) → (⟨S50000x32, .f32⟩ : BufTy).Contents (Elt F)),
    StableHlo.nullary main_cst_0 (constant S_ .f32 0x00000000#32),
    StableHlo.binary main_v9 main_cst_0 main_v10 ((fun x v => Host.reduceAdd x v reducesTo_S50000x32_S32_d0 h_S_) : (⟨S50000x32, .f32⟩ : BufTy).Contents (Elt F) → (⟨S_, .f32⟩ : BufTy).Contents (Elt F) → (⟨S32, .f32⟩ : BufTy).Contents (Elt F)),
    StableHlo.nullary main_cst_1 (constant S_ .f32 0x47435000#32),
    StableHlo.unary main_cst_1 main_v11 (broadcastInDim S32 ![] bcast_S_S32 : (⟨S_, .f32⟩ : BufTy).Contents (Elt F) → (⟨S32, .f32⟩ : BufTy).Contents (Elt F)),
    StableHlo.binary main_v10 main_v11 main_v12 (Host.divf : (⟨S32, .f32⟩ : BufTy).Contents (Elt F) → (⟨S32, .f32⟩ : BufTy).Contents (Elt F) → (⟨S32, .f32⟩ : BufTy).Contents (Elt F)),
    StableHlo.nullary main_c (constantI S_ 32 0#32),
    StableHlo.TRef.nullary main_call0.cst (constant S_ .f32 0x00000000#32),
    StableHlo.TRef.binary (.of main_v9) main_call0.cst main_call0.v0 (fun x v => Host.reduceAdd x v reducesTo_S50000x32_S32_d0 h_S_),
    StableHlo.TRef.unary main_call0.v0 main_call0.v1 (broadcastInDim S1x32 ![1] bcast_S32_S1x32_1),
    StableHlo.TRef.nullary main_call0.cst_0 (constant S_ .f32 0x47435000#32),
    StableHlo.TRef.unary main_call0.cst_0 main_call0.v2 (broadcastInDim S1x32 ![] bcast_S_S1x32),
    StableHlo.TRef.binary main_call0.v1 main_call0.v2 main_call0.v3 Host.divf,
    StableHlo.TRef.unary main_call0.v3 main_call0.v4 (broadcastInDim S50000x32 ![0, 1] bcast_S1x32_S50000x32_0_1),
    StableHlo.TRef.binary (.of main_v9) main_call0.v4 main_call0.v5 subf,
    StableHlo.TRef.binary main_call0.v5 main_call0.v5 main_call0.v6 mulf,
    StableHlo.TRef.unary (.of main_c) main_call0.v7 (sitofp .f32),
    StableHlo.TRef.nullary main_call0.cst_1 (constant S_ .f32 0x47435000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S50000x32_S32_d0 h_S_),
    StableHlo.TRef.unary main_call0.v8 main_call0.v10 (broadcastInDim S32 ![] bcast_S_S32),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S32 ![] bcast_S_S32),
    StableHlo.TRef.ternary main_call0.v12 main_call0.v11 main_call0.call0.v1 main_call0.call0.v2 (fun p a b => select (broadcastInDim S32 ![] bcast_S_S32 p) a b),
    StableHlo.unary main_v12 main_v14 (broadcastInDim S1x32 ![1] bcast_S32_S1x32_1 : (⟨S32, .f32⟩ : BufTy).Contents (Elt F) → (⟨S1x32, .f32⟩ : BufTy).Contents (Elt F)),
    StableHlo.unary main_v14 main_v15 (broadcastInDim S50000x32 ![0, 1] bcast_S1x32_S50000x32_0_1 : (⟨S1x32, .f32⟩ : BufTy).Contents (Elt F) → (⟨S50000x32, .f32⟩ : BufTy).Contents (Elt F)),
    StableHlo.binary main_v9 main_v15 main_v16 (subf : (⟨S50000x32, .f32⟩ : BufTy).Contents (Elt F) → (⟨S50000x32, .f32⟩ : BufTy).Contents (Elt F) → (⟨S50000x32, .f32⟩ : BufTy).Contents (Elt F)),
    StableHlo.nullary main_cst_2 (constant S_ .f32 0x3727C5AC#32),
    StableHlo.unary main_cst_2 main_v17 (broadcastInDim S32 ![] bcast_S_S32 : (⟨S_, .f32⟩ : BufTy).Contents (Elt F) → (⟨S32, .f32⟩ : BufTy).Contents (Elt F)),
    StableHlo.binary main_v13 main_v17 main_v18 (addf : (⟨S32, .f32⟩ : BufTy).Contents (Elt F) → (⟨S32, .f32⟩ : BufTy).Contents (Elt F) → (⟨S32, .f32⟩ : BufTy).Contents (Elt F)),
    StableHlo.unary main_v18 main_v19 (Host.rsqrt : (⟨S32, .f32⟩ : BufTy).Contents (Elt F) → (⟨S32, .f32⟩ : BufTy).Contents (Elt F)),
    StableHlo.unary main_v19 main_v20 (broadcastInDim S1x32 ![1] bcast_S32_S1x32_1 : (⟨S32, .f32⟩ : BufTy).Contents (Elt F) → (⟨S1x32, .f32⟩ : BufTy).Contents (Elt F)),
    StableHlo.unary main_v20 main_v21 (broadcastInDim S50000x32 ![0, 1] bcast_S1x32_S50000x32_0_1 : (⟨S1x32, .f32⟩ : BufTy).Contents (Elt F) → (⟨S50000x32, .f32⟩ : BufTy).Contents (Elt F)),
    StableHlo.binary main_v16 main_v21 main_v22 (mulf : (⟨S50000x32, .f32⟩ : BufTy).Contents (Elt F) → (⟨S50000x32, .f32⟩ : BufTy).Contents (Elt F) → (⟨S50000x32, .f32⟩ : BufTy).Contents (Elt F)),
    StableHlo.unary main_arg4 main_v23 (broadcastInDim S1x32 ![1] bcast_S32_S1x32_1 : (⟨S32, .f32⟩ : BufTy).Contents (Elt F) → (⟨S1x32, .f32⟩ : BufTy).Contents (Elt F)),
    StableHlo.unary main_v23 main_v24 (broadcastInDim S50000x32 ![0, 1] bcast_S1x32_S50000x32_0_1 : (⟨S1x32, .f32⟩ : BufTy).Contents (Elt F) → (⟨S50000x32, .f32⟩ : BufTy).Contents (Elt F)),
    StableHlo.binary main_v22 main_v24 main_v25 (mulf : (⟨S50000x32, .f32⟩ : BufTy).Contents (Elt F) → (⟨S50000x32, .f32⟩ : BufTy).Contents (Elt F) → (⟨S50000x32, .f32⟩ : BufTy).Contents (Elt F)),
    StableHlo.unary main_arg5 main_v26 (broadcastInDim S1x32 ![1] bcast_S32_S1x32_1 : (⟨S32, .f32⟩ : BufTy).Contents (Elt F) → (⟨S1x32, .f32⟩ : BufTy).Contents (Elt F)),
    StableHlo.unary main_v26 main_v27 (broadcastInDim S50000x32 ![0, 1] bcast_S1x32_S50000x32_0_1 : (⟨S1x32, .f32⟩ : BufTy).Contents (Elt F) → (⟨S50000x32, .f32⟩ : BufTy).Contents (Elt F)),
    StableHlo.binary main_v25 main_v27 main_v28 (addf : (⟨S50000x32, .f32⟩ : BufTy).Contents (Elt F) → (⟨S50000x32, .f32⟩ : BufTy).Contents (Elt F) → (⟨S50000x32, .f32⟩ : BufTy).Contents (Elt F)),
    StableHlo.nullary main_c_3 (constantI S_ 32 0#32),
    StableHlo.unary main_c_3 main_v29 (broadcastInDim S800000 ![] bcast_S_S800000 : (⟨S_, .i32⟩ : BufTy).Contents (Elt F) → (⟨S800000, .i32⟩ : BufTy).Contents (Elt F)),
    StableHlo.binary main_v1 main_v29 main_v30 (cmpi .slt : (⟨S800000, .i32⟩ : BufTy).Contents (Elt F) → (⟨S800000, .i32⟩ : BufTy).Contents (Elt F) → (⟨S800000, .i1⟩ : BufTy).Contents (Elt F)),
    StableHlo.nullary main_c_4 (constantI S_ 32 50000#32),
    StableHlo.unary main_c_4 main_v31 (broadcastInDim S800000 ![] bcast_S_S800000 : (⟨S_, .i32⟩ : BufTy).Contents (Elt F) → (⟨S800000, .i32⟩ : BufTy).Contents (Elt F)),
    StableHlo.binary main_v1 main_v31 main_v32 (addi : (⟨S800000, .i32⟩ : BufTy).Contents (Elt F) → (⟨S800000, .i32⟩ : BufTy).Contents (Elt F) → (⟨S800000, .i32⟩ : BufTy).Contents (Elt F)),
    StableHlo.ternary main_v30 main_v32 main_v1 main_v33 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v33 main_v34 (broadcastInDim S800000x1 ![0] bcast_S800000_S800000x1_0 : (⟨S800000, .i32⟩ : BufTy).Contents (Elt F) → (⟨S800000x1, .i32⟩ : BufTy).Contents (Elt F)),
    StableHlo.binary main_v28 main_v34 main_v35 ((fun x i => Host.gather gather_S50000x32_S800000x1_S800000x32_1_0_n_n_0_1_132 x i) : (⟨S50000x32, .f32⟩ : BufTy).Contents (Elt F) → (⟨S800000x1, .i32⟩ : BufTy).Contents (Elt F) → (⟨S800000x32, .f32⟩ : BufTy).Contents (Elt F)),
    StableHlo.nullary main_cst_5 (constant S_ .f32 0x00000000#32),
    StableHlo.unary main_cst_5 main_v36 (broadcastInDim S50000x32 ![] bcast_S_S50000x32 : (⟨S_, .f32⟩ : BufTy).Contents (Elt F) → (⟨S50000x32, .f32⟩ : BufTy).Contents (Elt F)),
    StableHlo.unary main_v3 main_v37 (broadcastInDim S800000x1 ![0] bcast_S800000_S800000x1_0 : (⟨S800000, .i32⟩ : BufTy).Contents (Elt F) → (⟨S800000x1, .i32⟩ : BufTy).Contents (Elt F)),
    StableHlo.ternary main_v36 main_v37 main_v35 main_v38 ((fun x i u => Host.scatterAdd scatter_S50000x32_S800000x1_S800000x32_1_0_0_1 x i u) : (⟨S50000x32, .f32⟩ : BufTy).Contents (Elt F) → (⟨S800000x1, .i32⟩ : BufTy).Contents (Elt F) → (⟨S800000x32, .f32⟩ : BufTy).Contents (Elt F) → (⟨S50000x32, .f32⟩ : BufTy).Contents (Elt F)),
    StableHlo.binary main_v38 main_arg6 main_v39 ((fun l r => Host.dotGeneral dot_S50000x32_S32x64_S50000x64_1_0_0_1_n_n none l r) : (⟨S50000x32, .f32⟩ : BufTy).Contents (Elt F) → (⟨S32x64, .f32⟩ : BufTy).Contents (Elt F) → (⟨S50000x64, .f32⟩ : BufTy).Contents (Elt F)),
    StableHlo.unary main_arg7 main_v40 (broadcastInDim S1x64 ![1] bcast_S64_S1x64_1 : (⟨S64, .f32⟩ : BufTy).Contents (Elt F) → (⟨S1x64, .f32⟩ : BufTy).Contents (Elt F)),
    StableHlo.unary main_v40 main_v41 (broadcastInDim S50000x64 ![0, 1] bcast_S1x64_S50000x64_0_1 : (⟨S1x64, .f32⟩ : BufTy).Contents (Elt F) → (⟨S50000x64, .f32⟩ : BufTy).Contents (Elt F)),
    StableHlo.binary main_v39 main_v41 main_v42 (addf : (⟨S50000x64, .f32⟩ : BufTy).Contents (Elt F) → (⟨S50000x64, .f32⟩ : BufTy).Contents (Elt F) → (⟨S50000x64, .f32⟩ : BufTy).Contents (Elt F)),
    StableHlo.binary main_v28 main_arg8 main_v43 ((fun l r => Host.dotGeneral dot_S50000x32_S32x64_S50000x64_1_0_0_1_n_n none l r) : (⟨S50000x32, .f32⟩ : BufTy).Contents (Elt F) → (⟨S32x64, .f32⟩ : BufTy).Contents (Elt F) → (⟨S50000x64, .f32⟩ : BufTy).Contents (Elt F)),
    StableHlo.binary main_v42 main_v43 main_v44 (addf : (⟨S50000x64, .f32⟩ : BufTy).Contents (Elt F) → (⟨S50000x64, .f32⟩ : BufTy).Contents (Elt F) → (⟨S50000x64, .f32⟩ : BufTy).Contents (Elt F)),
    StableHlo.nullary main_cst_6 (constant S_ .f32 0x00000000#32),
    StableHlo.binary main_v44 main_cst_6 main_v45 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_7 (constant S_ .f32 0x47435000#32),
    StableHlo.unary main_cst_7 main_v46 (broadcastInDim S64 ![] bcast_S_S64 : (⟨S_, .f32⟩ : BufTy).Contents (Elt F) → (⟨S64, .f32⟩ : BufTy).Contents (Elt F)),
    StableHlo.binary main_v45 main_v46 main_v47 (Host.divf : (⟨S64, .f32⟩ : BufTy).Contents (Elt F) → (⟨S64, .f32⟩ : BufTy).Contents (Elt F) → (⟨S64, .f32⟩ : BufTy).Contents (Elt F)),
    StableHlo.nullary main_c_8 (constantI S_ 32 0#32),
    StableHlo.TRef.nullary main_call1.cst (constant S_ .f32 0x00000000#32),
    StableHlo.TRef.binary (.of main_v44) main_call1.cst main_call1.v0 (fun x v => Host.reduceAdd x v reducesTo_S50000x64_S64_d0 h_S_),
    StableHlo.TRef.unary main_call1.v0 main_call1.v1 (broadcastInDim S1x64 ![1] bcast_S64_S1x64_1),
    StableHlo.TRef.nullary main_call1.cst_0 (constant S_ .f32 0x47435000#32),
    StableHlo.TRef.unary main_call1.cst_0 main_call1.v2 (broadcastInDim S1x64 ![] bcast_S_S1x64),
    StableHlo.TRef.binary main_call1.v1 main_call1.v2 main_call1.v3 Host.divf,
    StableHlo.TRef.unary main_call1.v3 main_call1.v4 (broadcastInDim S50000x64 ![0, 1] bcast_S1x64_S50000x64_0_1),
    StableHlo.TRef.binary (.of main_v44) main_call1.v4 main_call1.v5 subf,
    StableHlo.TRef.binary main_call1.v5 main_call1.v5 main_call1.v6 mulf,
    StableHlo.TRef.unary (.of main_c_8) main_call1.v7 (sitofp .f32),
    StableHlo.TRef.nullary main_call1.cst_1 (constant S_ .f32 0x47435000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S50000x64_S64_d0 h_S_),
    StableHlo.TRef.unary main_call1.v8 main_call1.v10 (broadcastInDim S64 ![] bcast_S_S64),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S64 ![] bcast_S_S64),
    StableHlo.TRef.ternary main_call1.v12 main_call1.v11 main_call1.call0.v1 main_call1.call0.v2 (fun p a b => select (broadcastInDim S64 ![] bcast_S_S64 p) a b),
    StableHlo.unary main_v47 main_v49 (broadcastInDim S1x64 ![1] bcast_S64_S1x64_1 : (⟨S64, .f32⟩ : BufTy).Contents (Elt F) → (⟨S1x64, .f32⟩ : BufTy).Contents (Elt F)),
    StableHlo.unary main_v49 main_v50 (broadcastInDim S50000x64 ![0, 1] bcast_S1x64_S50000x64_0_1 : (⟨S1x64, .f32⟩ : BufTy).Contents (Elt F) → (⟨S50000x64, .f32⟩ : BufTy).Contents (Elt F)),
    StableHlo.binary main_v44 main_v50 main_v51 (subf : (⟨S50000x64, .f32⟩ : BufTy).Contents (Elt F) → (⟨S50000x64, .f32⟩ : BufTy).Contents (Elt F) → (⟨S50000x64, .f32⟩ : BufTy).Contents (Elt F)),
    StableHlo.nullary main_cst_9 (constant S_ .f32 0x3727C5AC#32),
    StableHlo.unary main_cst_9 main_v52 (broadcastInDim S64 ![] bcast_S_S64 : (⟨S_, .f32⟩ : BufTy).Contents (Elt F) → (⟨S64, .f32⟩ : BufTy).Contents (Elt F)),
    StableHlo.binary main_v48 main_v52 main_v53 (addf : (⟨S64, .f32⟩ : BufTy).Contents (Elt F) → (⟨S64, .f32⟩ : BufTy).Contents (Elt F) → (⟨S64, .f32⟩ : BufTy).Contents (Elt F)),
    StableHlo.unary main_v53 main_v54 (Host.rsqrt : (⟨S64, .f32⟩ : BufTy).Contents (Elt F) → (⟨S64, .f32⟩ : BufTy).Contents (Elt F)),
    StableHlo.unary main_v54 main_v55 (broadcastInDim S1x64 ![1] bcast_S64_S1x64_1 : (⟨S64, .f32⟩ : BufTy).Contents (Elt F) → (⟨S1x64, .f32⟩ : BufTy).Contents (Elt F)),
    StableHlo.unary main_v55 main_v56 (broadcastInDim S50000x64 ![0, 1] bcast_S1x64_S50000x64_0_1 : (⟨S1x64, .f32⟩ : BufTy).Contents (Elt F) → (⟨S50000x64, .f32⟩ : BufTy).Contents (Elt F)),
    StableHlo.binary main_v51 main_v56 main_v57 (mulf : (⟨S50000x64, .f32⟩ : BufTy).Contents (Elt F) → (⟨S50000x64, .f32⟩ : BufTy).Contents (Elt F) → (⟨S50000x64, .f32⟩ : BufTy).Contents (Elt F)),
    StableHlo.unary main_arg9 main_v58 (broadcastInDim S1x64 ![1] bcast_S64_S1x64_1 : (⟨S64, .f32⟩ : BufTy).Contents (Elt F) → (⟨S1x64, .f32⟩ : BufTy).Contents (Elt F)),
    StableHlo.unary main_v58 main_v59 (broadcastInDim S50000x64 ![0, 1] bcast_S1x64_S50000x64_0_1 : (⟨S1x64, .f32⟩ : BufTy).Contents (Elt F) → (⟨S50000x64, .f32⟩ : BufTy).Contents (Elt F)),
    StableHlo.binary main_v57 main_v59 main_v60 (mulf : (⟨S50000x64, .f32⟩ : BufTy).Contents (Elt F) → (⟨S50000x64, .f32⟩ : BufTy).Contents (Elt F) → (⟨S50000x64, .f32⟩ : BufTy).Contents (Elt F)),
    StableHlo.unary main_arg10 main_v61 (broadcastInDim S1x64 ![1] bcast_S64_S1x64_1 : (⟨S64, .f32⟩ : BufTy).Contents (Elt F) → (⟨S1x64, .f32⟩ : BufTy).Contents (Elt F)),
    StableHlo.unary main_v61 main_v62 (broadcastInDim S50000x64 ![0, 1] bcast_S1x64_S50000x64_0_1 : (⟨S1x64, .f32⟩ : BufTy).Contents (Elt F) → (⟨S50000x64, .f32⟩ : BufTy).Contents (Elt F)),
    StableHlo.binary main_v60 main_v62 main_v63 (addf : (⟨S50000x64, .f32⟩ : BufTy).Contents (Elt F) → (⟨S50000x64, .f32⟩ : BufTy).Contents (Elt F) → (⟨S50000x64, .f32⟩ : BufTy).Contents (Elt F)),
    StableHlo.nullary main_cst_10 (constant S_ .f32 0x00000000#32),
    StableHlo.unary main_cst_10 main_v64 (broadcastInDim S50000x64 ![] bcast_S_S50000x64 : (⟨S_, .f32⟩ : BufTy).Contents (Elt F) → (⟨S50000x64, .f32⟩ : BufTy).Contents (Elt F)),
    StableHlo.binary main_v63 main_v64 main_v65 (maximumf : (⟨S50000x64, .f32⟩ : BufTy).Contents (Elt F) → (⟨S50000x64, .f32⟩ : BufTy).Contents (Elt F) → (⟨S50000x64, .f32⟩ : BufTy).Contents (Elt F)),
    StableHlo.nullary main_c_11 (constantI S_ 32 0#32),
    StableHlo.unary main_c_11 main_v66 (broadcastInDim S800000 ![] bcast_S_S800000 : (⟨S_, .i32⟩ : BufTy).Contents (Elt F) → (⟨S800000, .i32⟩ : BufTy).Contents (Elt F)),
    StableHlo.binary main_v1 main_v66 main_v67 (cmpi .slt : (⟨S800000, .i32⟩ : BufTy).Contents (Elt F) → (⟨S800000, .i32⟩ : BufTy).Contents (Elt F) → (⟨S800000, .i1⟩ : BufTy).Contents (Elt F)),
    StableHlo.nullary main_c_12 (constantI S_ 32 50000#32),
    StableHlo.unary main_c_12 main_v68 (broadcastInDim S800000 ![] bcast_S_S800000 : (⟨S_, .i32⟩ : BufTy).Contents (Elt F) → (⟨S800000, .i32⟩ : BufTy).Contents (Elt F)),
    StableHlo.binary main_v1 main_v68 main_v69 (addi : (⟨S800000, .i32⟩ : BufTy).Contents (Elt F) → (⟨S800000, .i32⟩ : BufTy).Contents (Elt F) → (⟨S800000, .i32⟩ : BufTy).Contents (Elt F)),
    StableHlo.ternary main_v67 main_v69 main_v1 main_v70 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v70 main_v71 (broadcastInDim S800000x1 ![0] bcast_S800000_S800000x1_0 : (⟨S800000, .i32⟩ : BufTy).Contents (Elt F) → (⟨S800000x1, .i32⟩ : BufTy).Contents (Elt F)),
    StableHlo.binary main_v65 main_v71 main_v72 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.nullary main_cst_13 (constant S_ .f32 0x00000000#32),
    StableHlo.unary main_cst_13 main_v73 (broadcastInDim S50000x64 ![] bcast_S_S50000x64 : (⟨S_, .f32⟩ : BufTy).Contents (Elt F) → (⟨S50000x64, .f32⟩ : BufTy).Contents (Elt F)),
    StableHlo.unary main_v3 main_v74 (broadcastInDim S800000x1 ![0] bcast_S800000_S800000x1_0 : (⟨S800000, .i32⟩ : BufTy).Contents (Elt F) → (⟨S800000x1, .i32⟩ : BufTy).Contents (Elt F)),
    StableHlo.ternary main_v73 main_v74 main_v72 main_v75 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    StableHlo.binary main_v75 main_arg11 main_v76 ((fun l r => Host.dotGeneral dot_S50000x64_S64x128_S50000x128_1_0_0_1_n_n none l r) : (⟨S50000x64, .f32⟩ : BufTy).Contents (Elt F) → (⟨S64x128, .f32⟩ : BufTy).Contents (Elt F) → (⟨S50000x128, .f32⟩ : BufTy).Contents (Elt F)),
    StableHlo.unary main_arg12 main_v77 (broadcastInDim S1x128 ![1] bcast_S128_S1x128_1 : (⟨S128, .f32⟩ : BufTy).Contents (Elt F) → (⟨S1x128, .f32⟩ : BufTy).Contents (Elt F)),
    StableHlo.unary main_v77 main_v78 (broadcastInDim S50000x128 ![0, 1] bcast_S1x128_S50000x128_0_1 : (⟨S1x128, .f32⟩ : BufTy).Contents (Elt F) → (⟨S50000x128, .f32⟩ : BufTy).Contents (Elt F)),
    StableHlo.binary main_v76 main_v78 main_v79 (addf : (⟨S50000x128, .f32⟩ : BufTy).Contents (Elt F) → (⟨S50000x128, .f32⟩ : BufTy).Contents (Elt F) → (⟨S50000x128, .f32⟩ : BufTy).Contents (Elt F)),
    StableHlo.binary main_v65 main_arg13 main_v80 ((fun l r => Host.dotGeneral dot_S50000x64_S64x128_S50000x128_1_0_0_1_n_n none l r) : (⟨S50000x64, .f32⟩ : BufTy).Contents (Elt F) → (⟨S64x128, .f32⟩ : BufTy).Contents (Elt F) → (⟨S50000x128, .f32⟩ : BufTy).Contents (Elt F)),
    StableHlo.binary main_v79 main_v80 main_v81 (addf : (⟨S50000x128, .f32⟩ : BufTy).Contents (Elt F) → (⟨S50000x128, .f32⟩ : BufTy).Contents (Elt F) → (⟨S50000x128, .f32⟩ : BufTy).Contents (Elt F)),
    StableHlo.nullary main_cst_14 (constant S_ .f32 0x00000000#32),
    StableHlo.binary main_v81 main_cst_14 main_v82 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_15 (constant S_ .f32 0x47435000#32),
    StableHlo.unary main_cst_15 main_v83 (broadcastInDim S128 ![] bcast_S_S128 : (⟨S_, .f32⟩ : BufTy).Contents (Elt F) → (⟨S128, .f32⟩ : BufTy).Contents (Elt F)),
    StableHlo.binary main_v82 main_v83 main_v84 (Host.divf : (⟨S128, .f32⟩ : BufTy).Contents (Elt F) → (⟨S128, .f32⟩ : BufTy).Contents (Elt F) → (⟨S128, .f32⟩ : BufTy).Contents (Elt F)),
    StableHlo.nullary main_c_16 (constantI S_ 32 0#32),
    StableHlo.TRef.nullary main_call2.cst (constant S_ .f32 0x00000000#32),
    StableHlo.TRef.binary (.of main_v81) main_call2.cst main_call2.v0 (fun x v => Host.reduceAdd x v reducesTo_S50000x128_S128_d0 h_S_),
    StableHlo.TRef.unary main_call2.v0 main_call2.v1 (broadcastInDim S1x128 ![1] bcast_S128_S1x128_1),
    StableHlo.TRef.nullary main_call2.cst_0 (constant S_ .f32 0x47435000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S50000x128 ![0, 1] bcast_S1x128_S50000x128_0_1),
    StableHlo.TRef.binary (.of main_v81) main_call2.v4 main_call2.v5 subf,
    StableHlo.TRef.binary main_call2.v5 main_call2.v5 main_call2.v6 mulf,
    StableHlo.TRef.unary (.of main_c_16) main_call2.v7 (sitofp .f32),
    StableHlo.TRef.nullary main_call2.cst_1 (constant S_ .f32 0x47435000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S50000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b),
    StableHlo.unary main_v84 main_v86 (broadcastInDim S1x128 ![1] bcast_S128_S1x128_1 : (⟨S128, .f32⟩ : BufTy).Contents (Elt F) → (⟨S1x128, .f32⟩ : BufTy).Contents (Elt F)),
    StableHlo.unary main_v86 main_v87 (broadcastInDim S50000x128 ![0, 1] bcast_S1x128_S50000x128_0_1 : (⟨S1x128, .f32⟩ : BufTy).Contents (Elt F) → (⟨S50000x128, .f32⟩ : BufTy).Contents (Elt F)),
    StableHlo.binary main_v81 main_v87 main_v88 (subf : (⟨S50000x128, .f32⟩ : BufTy).Contents (Elt F) → (⟨S50000x128, .f32⟩ : BufTy).Contents (Elt F) → (⟨S50000x128, .f32⟩ : BufTy).Contents (Elt F)),
    StableHlo.nullary main_cst_17 (constant S_ .f32 0x3727C5AC#32),
    StableHlo.unary main_cst_17 main_v89 (broadcastInDim S128 ![] bcast_S_S128 : (⟨S_, .f32⟩ : BufTy).Contents (Elt F) → (⟨S128, .f32⟩ : BufTy).Contents (Elt F)),
    StableHlo.binary main_v85 main_v89 main_v90 (addf : (⟨S128, .f32⟩ : BufTy).Contents (Elt F) → (⟨S128, .f32⟩ : BufTy).Contents (Elt F) → (⟨S128, .f32⟩ : BufTy).Contents (Elt F)),
    StableHlo.unary main_v90 main_v91 (Host.rsqrt : (⟨S128, .f32⟩ : BufTy).Contents (Elt F) → (⟨S128, .f32⟩ : BufTy).Contents (Elt F)),
    StableHlo.unary main_v91 main_v92 (broadcastInDim S1x128 ![1] bcast_S128_S1x128_1 : (⟨S128, .f32⟩ : BufTy).Contents (Elt F) → (⟨S1x128, .f32⟩ : BufTy).Contents (Elt F)),
    StableHlo.unary main_v92 main_v93 (broadcastInDim S50000x128 ![0, 1] bcast_S1x128_S50000x128_0_1 : (⟨S1x128, .f32⟩ : BufTy).Contents (Elt F) → (⟨S50000x128, .f32⟩ : BufTy).Contents (Elt F)),
    StableHlo.binary main_v88 main_v93 main_v94 (mulf : (⟨S50000x128, .f32⟩ : BufTy).Contents (Elt F) → (⟨S50000x128, .f32⟩ : BufTy).Contents (Elt F) → (⟨S50000x128, .f32⟩ : BufTy).Contents (Elt F)),
    StableHlo.unary main_arg14 main_v95 (broadcastInDim S1x128 ![1] bcast_S128_S1x128_1 : (⟨S128, .f32⟩ : BufTy).Contents (Elt F) → (⟨S1x128, .f32⟩ : BufTy).Contents (Elt F)),
    StableHlo.unary main_v95 main_v96 (broadcastInDim S50000x128 ![0, 1] bcast_S1x128_S50000x128_0_1 : (⟨S1x128, .f32⟩ : BufTy).Contents (Elt F) → (⟨S50000x128, .f32⟩ : BufTy).Contents (Elt F)),
    StableHlo.binary main_v94 main_v96 main_v97 (mulf : (⟨S50000x128, .f32⟩ : BufTy).Contents (Elt F) → (⟨S50000x128, .f32⟩ : BufTy).Contents (Elt F) → (⟨S50000x128, .f32⟩ : BufTy).Contents (Elt F)),
    StableHlo.unary main_arg15 main_v98 (broadcastInDim S1x128 ![1] bcast_S128_S1x128_1 : (⟨S128, .f32⟩ : BufTy).Contents (Elt F) → (⟨S1x128, .f32⟩ : BufTy).Contents (Elt F)),
    StableHlo.unary main_v98 main_v99 (broadcastInDim S50000x128 ![0, 1] bcast_S1x128_S50000x128_0_1 : (⟨S1x128, .f32⟩ : BufTy).Contents (Elt F) → (⟨S50000x128, .f32⟩ : BufTy).Contents (Elt F)),
    StableHlo.binary main_v97 main_v99 main_v100 (addf : (⟨S50000x128, .f32⟩ : BufTy).Contents (Elt F) → (⟨S50000x128, .f32⟩ : BufTy).Contents (Elt F) → (⟨S50000x128, .f32⟩ : BufTy).Contents (Elt F)),
    StableHlo.nullary main_cst_18 (constant S_ .f32 0x00000000#32),
    StableHlo.unary main_cst_18 main_v101 (broadcastInDim S50000x128 ![] bcast_S_S50000x128 : (⟨S_, .f32⟩ : BufTy).Contents (Elt F) → (⟨S50000x128, .f32⟩ : BufTy).Contents (Elt F)),
    StableHlo.binary main_v100 main_v101 main_v102 (maximumf : (⟨S50000x128, .f32⟩ : BufTy).Contents (Elt F) → (⟨S50000x128, .f32⟩ : BufTy).Contents (Elt F) → (⟨S50000x128, .f32⟩ : BufTy).Contents (Elt F)),
    StableHlo.nullary main_c_19 (constantI S_ 32 0#32),
    StableHlo.unary main_c_19 main_v103 (broadcastInDim S800000 ![] bcast_S_S800000 : (⟨S_, .i32⟩ : BufTy).Contents (Elt F) → (⟨S800000, .i32⟩ : BufTy).Contents (Elt F)),
    StableHlo.binary main_v1 main_v103 main_v104 (cmpi .slt : (⟨S800000, .i32⟩ : BufTy).Contents (Elt F) → (⟨S800000, .i32⟩ : BufTy).Contents (Elt F) → (⟨S800000, .i1⟩ : BufTy).Contents (Elt F)),
    StableHlo.nullary main_c_20 (constantI S_ 32 50000#32),
    StableHlo.unary main_c_20 main_v105 (broadcastInDim S800000 ![] bcast_S_S800000 : (⟨S_, .i32⟩ : BufTy).Contents (Elt F) → (⟨S800000, .i32⟩ : BufTy).Contents (Elt F)),
    StableHlo.binary main_v1 main_v105 main_v106 (addi : (⟨S800000, .i32⟩ : BufTy).Contents (Elt F) → (⟨S800000, .i32⟩ : BufTy).Contents (Elt F) → (⟨S800000, .i32⟩ : BufTy).Contents (Elt F)),
    StableHlo.ternary main_v104 main_v106 main_v1 main_v107 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v107 main_v108 (broadcastInDim S800000x1 ![0] bcast_S800000_S800000x1_0 : (⟨S800000, .i32⟩ : BufTy).Contents (Elt F) → (⟨S800000x1, .i32⟩ : BufTy).Contents (Elt F)),
    StableHlo.binary main_v102 main_v108 main_v109 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_21 (constant S_ .f32 0x00000000#32),
    StableHlo.unary main_cst_21 main_v110 (broadcastInDim S50000x128 ![] bcast_S_S50000x128 : (⟨S_, .f32⟩ : BufTy).Contents (Elt F) → (⟨S50000x128, .f32⟩ : BufTy).Contents (Elt F)),
    StableHlo.unary main_v3 main_v111 (broadcastInDim S800000x1 ![0] bcast_S800000_S800000x1_0 : (⟨S800000, .i32⟩ : BufTy).Contents (Elt F) → (⟨S800000x1, .i32⟩ : BufTy).Contents (Elt F)),
    StableHlo.ternary main_v110 main_v111 main_v109 main_v112 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.binary main_v112 main_arg16 main_v113 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    StableHlo.unary main_arg17 main_v114 (broadcastInDim S1x64 ![1] bcast_S64_S1x64_1 : (⟨S64, .f32⟩ : BufTy).Contents (Elt F) → (⟨S1x64, .f32⟩ : BufTy).Contents (Elt F)),
    StableHlo.unary main_v114 main_v115 (broadcastInDim S50000x64 ![0, 1] bcast_S1x64_S50000x64_0_1 : (⟨S1x64, .f32⟩ : BufTy).Contents (Elt F) → (⟨S50000x64, .f32⟩ : BufTy).Contents (Elt F)),
    StableHlo.binary main_v113 main_v115 main_v116 (addf : (⟨S50000x64, .f32⟩ : BufTy).Contents (Elt F) → (⟨S50000x64, .f32⟩ : BufTy).Contents (Elt F) → (⟨S50000x64, .f32⟩ : BufTy).Contents (Elt F)),
    StableHlo.binary main_v102 main_arg18 main_v117 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    StableHlo.binary main_v116 main_v117 main_v118 (addf : (⟨S50000x64, .f32⟩ : BufTy).Contents (Elt F) → (⟨S50000x64, .f32⟩ : BufTy).Contents (Elt F) → (⟨S50000x64, .f32⟩ : BufTy).Contents (Elt F)),
    StableHlo.nullary main_cst_22 (constant S_ .f32 0x00000000#32),
    StableHlo.binary main_v118 main_cst_22 main_v119 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_23 (constant S_ .f32 0x47435000#32),
    StableHlo.unary main_cst_23 main_v120 (broadcastInDim S64 ![] bcast_S_S64 : (⟨S_, .f32⟩ : BufTy).Contents (Elt F) → (⟨S64, .f32⟩ : BufTy).Contents (Elt F)),
    StableHlo.binary main_v119 main_v120 main_v121 (Host.divf : (⟨S64, .f32⟩ : BufTy).Contents (Elt F) → (⟨S64, .f32⟩ : BufTy).Contents (Elt F) → (⟨S64, .f32⟩ : BufTy).Contents (Elt F)),
    StableHlo.nullary main_c_24 (constantI S_ 32 0#32),
    StableHlo.TRef.nullary main_call3.cst (constant S_ .f32 0x00000000#32),
    StableHlo.TRef.binary (.of main_v118) main_call3.cst main_call3.v0 (fun x v => Host.reduceAdd x v reducesTo_S50000x64_S64_d0 h_S_),
    StableHlo.TRef.unary main_call3.v0 main_call3.v1 (broadcastInDim S1x64 ![1] bcast_S64_S1x64_1),
    StableHlo.TRef.nullary main_call3.cst_0 (constant S_ .f32 0x47435000#32),
    StableHlo.TRef.unary main_call3.cst_0 main_call3.v2 (broadcastInDim S1x64 ![] bcast_S_S1x64),
    StableHlo.TRef.binary main_call3.v1 main_call3.v2 main_call3.v3 Host.divf,
    StableHlo.TRef.unary main_call3.v3 main_call3.v4 (broadcastInDim S50000x64 ![0, 1] bcast_S1x64_S50000x64_0_1),
    StableHlo.TRef.binary (.of main_v118) main_call3.v4 main_call3.v5 subf,
    StableHlo.TRef.binary main_call3.v5 main_call3.v5 main_call3.v6 mulf,
    StableHlo.TRef.unary (.of main_c_24) main_call3.v7 (sitofp .f32),
    StableHlo.TRef.nullary main_call3.cst_1 (constant S_ .f32 0x47435000#32),
    StableHlo.TRef.binary main_call3.cst_1 main_call3.v7 main_call3.v8 subf,
    StableHlo.TRef.nullary main_call3.cst_2 (constant S_ .f32 0x00000000#32),
    StableHlo.TRef.binary main_call3.v6 main_call3.cst_2 main_call3.v9 (fun x v => Host.reduceAdd x v reducesTo_S50000x64_S64_d0 h_S_),
    StableHlo.TRef.unary main_call3.v8 main_call3.v10 (broadcastInDim S64 ![] bcast_S_S64),
    StableHlo.TRef.binary main_call3.v9 main_call3.v10 main_call3.v11 Host.divf,
    StableHlo.TRef.nullary main_call3.cst_3 (constant S_ .f32 0x00000000#32),
    StableHlo.TRef.binary main_call3.v8 main_call3.cst_3 main_call3.v12 (cmpf .ogt),
    StableHlo.TRef.nullary main_call3.cst_4 (constant S_ .f32 0x7FC00000#32),
    StableHlo.TRef.unary main_call3.cst_4 main_call3.call0.v0 id,
    StableHlo.TRef.unary main_call3.call0.v0 main_call3.call0.v1 (broadcastInDim S64 ![] bcast_S_S64),
    StableHlo.TRef.ternary main_call3.v12 main_call3.v11 main_call3.call0.v1 main_call3.call0.v2 (fun p a b => select (broadcastInDim S64 ![] bcast_S_S64 p) a b),
    StableHlo.unary main_v121 main_v123 (broadcastInDim S1x64 ![1] bcast_S64_S1x64_1 : (⟨S64, .f32⟩ : BufTy).Contents (Elt F) → (⟨S1x64, .f32⟩ : BufTy).Contents (Elt F)),
    StableHlo.unary main_v123 main_v124 (broadcastInDim S50000x64 ![0, 1] bcast_S1x64_S50000x64_0_1 : (⟨S1x64, .f32⟩ : BufTy).Contents (Elt F) → (⟨S50000x64, .f32⟩ : BufTy).Contents (Elt F)),
    StableHlo.binary main_v118 main_v124 main_v125 (subf : (⟨S50000x64, .f32⟩ : BufTy).Contents (Elt F) → (⟨S50000x64, .f32⟩ : BufTy).Contents (Elt F) → (⟨S50000x64, .f32⟩ : BufTy).Contents (Elt F)),
    StableHlo.nullary main_cst_25 (constant S_ .f32 0x3727C5AC#32),
    StableHlo.unary main_cst_25 main_v126 (broadcastInDim S64 ![] bcast_S_S64 : (⟨S_, .f32⟩ : BufTy).Contents (Elt F) → (⟨S64, .f32⟩ : BufTy).Contents (Elt F)),
    StableHlo.binary main_v122 main_v126 main_v127 (addf : (⟨S64, .f32⟩ : BufTy).Contents (Elt F) → (⟨S64, .f32⟩ : BufTy).Contents (Elt F) → (⟨S64, .f32⟩ : BufTy).Contents (Elt F)),
    StableHlo.unary main_v127 main_v128 (Host.rsqrt : (⟨S64, .f32⟩ : BufTy).Contents (Elt F) → (⟨S64, .f32⟩ : BufTy).Contents (Elt F)),
    StableHlo.unary main_v128 main_v129 (broadcastInDim S1x64 ![1] bcast_S64_S1x64_1 : (⟨S64, .f32⟩ : BufTy).Contents (Elt F) → (⟨S1x64, .f32⟩ : BufTy).Contents (Elt F)),
    StableHlo.unary main_v129 main_v130 (broadcastInDim S50000x64 ![0, 1] bcast_S1x64_S50000x64_0_1 : (⟨S1x64, .f32⟩ : BufTy).Contents (Elt F) → (⟨S50000x64, .f32⟩ : BufTy).Contents (Elt F)),
    StableHlo.binary main_v125 main_v130 main_v131 (mulf : (⟨S50000x64, .f32⟩ : BufTy).Contents (Elt F) → (⟨S50000x64, .f32⟩ : BufTy).Contents (Elt F) → (⟨S50000x64, .f32⟩ : BufTy).Contents (Elt F)),
    StableHlo.unary main_arg19 main_v132 (broadcastInDim S1x64 ![1] bcast_S64_S1x64_1 : (⟨S64, .f32⟩ : BufTy).Contents (Elt F) → (⟨S1x64, .f32⟩ : BufTy).Contents (Elt F)),
    StableHlo.unary main_v132 main_v133 (broadcastInDim S50000x64 ![0, 1] bcast_S1x64_S50000x64_0_1 : (⟨S1x64, .f32⟩ : BufTy).Contents (Elt F) → (⟨S50000x64, .f32⟩ : BufTy).Contents (Elt F)),
    StableHlo.binary main_v131 main_v133 main_v134 (mulf : (⟨S50000x64, .f32⟩ : BufTy).Contents (Elt F) → (⟨S50000x64, .f32⟩ : BufTy).Contents (Elt F) → (⟨S50000x64, .f32⟩ : BufTy).Contents (Elt F)),
    StableHlo.unary main_arg20 main_v135 (broadcastInDim S1x64 ![1] bcast_S64_S1x64_1 : (⟨S64, .f32⟩ : BufTy).Contents (Elt F) → (⟨S1x64, .f32⟩ : BufTy).Contents (Elt F)),
    StableHlo.unary main_v135 main_v136 (broadcastInDim S50000x64 ![0, 1] bcast_S1x64_S50000x64_0_1 : (⟨S1x64, .f32⟩ : BufTy).Contents (Elt F) → (⟨S50000x64, .f32⟩ : BufTy).Contents (Elt F)),
    StableHlo.binary main_v134 main_v136 main_v137 (addf : (⟨S50000x64, .f32⟩ : BufTy).Contents (Elt F) → (⟨S50000x64, .f32⟩ : BufTy).Contents (Elt F) → (⟨S50000x64, .f32⟩ : BufTy).Contents (Elt F)),
    StableHlo.nullary main_cst_26 (constant S_ .f32 0x00000000#32),
    StableHlo.unary main_cst_26 main_v138 (broadcastInDim S50000x64 ![] bcast_S_S50000x64 : (⟨S_, .f32⟩ : BufTy).Contents (Elt F) → (⟨S50000x64, .f32⟩ : BufTy).Contents (Elt F)),
    StableHlo.binary main_v137 main_v138 main_v139 (maximumf : (⟨S50000x64, .f32⟩ : BufTy).Contents (Elt F) → (⟨S50000x64, .f32⟩ : BufTy).Contents (Elt F) → (⟨S50000x64, .f32⟩ : BufTy).Contents (Elt F)),
    StableHlo.nullary main_c_27 (constantI S_ 32 0#32),
    StableHlo.unary main_c_27 main_v140 (broadcastInDim S800000 ![] bcast_S_S800000 : (⟨S_, .i32⟩ : BufTy).Contents (Elt F) → (⟨S800000, .i32⟩ : BufTy).Contents (Elt F)),
    StableHlo.binary main_v1 main_v140 main_v141 (cmpi .slt : (⟨S800000, .i32⟩ : BufTy).Contents (Elt F) → (⟨S800000, .i32⟩ : BufTy).Contents (Elt F) → (⟨S800000, .i1⟩ : BufTy).Contents (Elt F)),
    StableHlo.nullary main_c_28 (constantI S_ 32 50000#32),
    StableHlo.unary main_c_28 main_v142 (broadcastInDim S800000 ![] bcast_S_S800000 : (⟨S_, .i32⟩ : BufTy).Contents (Elt F) → (⟨S800000, .i32⟩ : BufTy).Contents (Elt F)),
    StableHlo.binary main_v1 main_v142 main_v143 (addi : (⟨S800000, .i32⟩ : BufTy).Contents (Elt F) → (⟨S800000, .i32⟩ : BufTy).Contents (Elt F) → (⟨S800000, .i32⟩ : BufTy).Contents (Elt F)),
    StableHlo.ternary main_v141 main_v143 main_v1 main_v144 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v144 main_v145 (broadcastInDim S800000x1 ![0] bcast_S800000_S800000x1_0 : (⟨S800000, .i32⟩ : BufTy).Contents (Elt F) → (⟨S800000x1, .i32⟩ : BufTy).Contents (Elt F)),
    StableHlo.binary main_v139 main_v145 main_v146 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.nullary main_cst_29 (constant S_ .f32 0x00000000#32),
    StableHlo.unary main_cst_29 main_v147 (broadcastInDim S50000x64 ![] bcast_S_S50000x64 : (⟨S_, .f32⟩ : BufTy).Contents (Elt F) → (⟨S50000x64, .f32⟩ : BufTy).Contents (Elt F)),
    StableHlo.unary main_v3 main_v148 (broadcastInDim S800000x1 ![0] bcast_S800000_S800000x1_0 : (⟨S800000, .i32⟩ : BufTy).Contents (Elt F) → (⟨S800000x1, .i32⟩ : BufTy).Contents (Elt F)),
    StableHlo.ternary main_v147 main_v148 main_v146 main_v149 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    StableHlo.binary main_v149 main_arg21 main_v150 ((fun l r => Host.dotGeneral dot_S50000x64_S64x32_S50000x32_1_0_0_1_n_n none l r) : (⟨S50000x64, .f32⟩ : BufTy).Contents (Elt F) → (⟨S64x32, .f32⟩ : BufTy).Contents (Elt F) → (⟨S50000x32, .f32⟩ : BufTy).Contents (Elt F)),
    StableHlo.unary main_arg22 main_v151 (broadcastInDim S1x32 ![1] bcast_S32_S1x32_1 : (⟨S32, .f32⟩ : BufTy).Contents (Elt F) → (⟨S1x32, .f32⟩ : BufTy).Contents (Elt F)),
    StableHlo.unary main_v151 main_v152 (broadcastInDim S50000x32 ![0, 1] bcast_S1x32_S50000x32_0_1 : (⟨S1x32, .f32⟩ : BufTy).Contents (Elt F) → (⟨S50000x32, .f32⟩ : BufTy).Contents (Elt F)),
    StableHlo.binary main_v150 main_v152 main_v153 (addf : (⟨S50000x32, .f32⟩ : BufTy).Contents (Elt F) → (⟨S50000x32, .f32⟩ : BufTy).Contents (Elt F) → (⟨S50000x32, .f32⟩ : BufTy).Contents (Elt F)),
    StableHlo.binary main_v139 main_arg23 main_v154 ((fun l r => Host.dotGeneral dot_S50000x64_S64x32_S50000x32_1_0_0_1_n_n none l r) : (⟨S50000x64, .f32⟩ : BufTy).Contents (Elt F) → (⟨S64x32, .f32⟩ : BufTy).Contents (Elt F) → (⟨S50000x32, .f32⟩ : BufTy).Contents (Elt F)),
    StableHlo.binary main_v153 main_v154 main_v155 (addf : (⟨S50000x32, .f32⟩ : BufTy).Contents (Elt F) → (⟨S50000x32, .f32⟩ : BufTy).Contents (Elt F) → (⟨S50000x32, .f32⟩ : BufTy).Contents (Elt F)),
    StableHlo.nullary main_cst_30 (constant S_ .f32 0x00000000#32),
    StableHlo.binary main_v155 main_cst_30 main_v156 ((fun x v => Host.reduceAdd x v reducesTo_S50000x32_S32_d0 h_S_) : (⟨S50000x32, .f32⟩ : BufTy).Contents (Elt F) → (⟨S_, .f32⟩ : BufTy).Contents (Elt F) → (⟨S32, .f32⟩ : BufTy).Contents (Elt F)),
    StableHlo.nullary main_cst_31 (constant S_ .f32 0x47435000#32),
    StableHlo.unary main_cst_31 main_v157 (broadcastInDim S32 ![] bcast_S_S32 : (⟨S_, .f32⟩ : BufTy).Contents (Elt F) → (⟨S32, .f32⟩ : BufTy).Contents (Elt F)),
    StableHlo.binary main_v156 main_v157 main_v158 (Host.divf : (⟨S32, .f32⟩ : BufTy).Contents (Elt F) → (⟨S32, .f32⟩ : BufTy).Contents (Elt F) → (⟨S32, .f32⟩ : BufTy).Contents (Elt F)),
    StableHlo.nullary main_c_32 (constantI S_ 32 0#32),
    StableHlo.TRef.nullary main_call4.cst (constant S_ .f32 0x00000000#32),
    StableHlo.TRef.binary (.of main_v155) main_call4.cst main_call4.v0 (fun x v => Host.reduceAdd x v reducesTo_S50000x32_S32_d0 h_S_),
    StableHlo.TRef.unary main_call4.v0 main_call4.v1 (broadcastInDim S1x32 ![1] bcast_S32_S1x32_1),
    StableHlo.TRef.nullary main_call4.cst_0 (constant S_ .f32 0x47435000#32),
    StableHlo.TRef.unary main_call4.cst_0 main_call4.v2 (broadcastInDim S1x32 ![] bcast_S_S1x32),
    StableHlo.TRef.binary main_call4.v1 main_call4.v2 main_call4.v3 Host.divf,
    StableHlo.TRef.unary main_call4.v3 main_call4.v4 (broadcastInDim S50000x32 ![0, 1] bcast_S1x32_S50000x32_0_1),
    StableHlo.TRef.binary (.of main_v155) main_call4.v4 main_call4.v5 subf,
    StableHlo.TRef.binary main_call4.v5 main_call4.v5 main_call4.v6 mulf,
    StableHlo.TRef.unary (.of main_c_32) main_call4.v7 (sitofp .f32),
    StableHlo.TRef.nullary main_call4.cst_1 (constant S_ .f32 0x47435000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S50000x32_S32_d0 h_S_),
    StableHlo.TRef.unary main_call4.v8 main_call4.v10 (broadcastInDim S32 ![] bcast_S_S32),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S32 ![] bcast_S_S32),
    StableHlo.TRef.ternary main_call4.v12 main_call4.v11 main_call4.call0.v1 main_call4.call0.v2 (fun p a b => select (broadcastInDim S32 ![] bcast_S_S32 p) a b),
    StableHlo.unary main_v158 main_v160 (broadcastInDim S1x32 ![1] bcast_S32_S1x32_1 : (⟨S32, .f32⟩ : BufTy).Contents (Elt F) → (⟨S1x32, .f32⟩ : BufTy).Contents (Elt F)),
    StableHlo.unary main_v160 main_v161 (broadcastInDim S50000x32 ![0, 1] bcast_S1x32_S50000x32_0_1 : (⟨S1x32, .f32⟩ : BufTy).Contents (Elt F) → (⟨S50000x32, .f32⟩ : BufTy).Contents (Elt F)),
    StableHlo.binary main_v155 main_v161 main_v162 (subf : (⟨S50000x32, .f32⟩ : BufTy).Contents (Elt F) → (⟨S50000x32, .f32⟩ : BufTy).Contents (Elt F) → (⟨S50000x32, .f32⟩ : BufTy).Contents (Elt F)),
    StableHlo.nullary main_cst_33 (constant S_ .f32 0x3727C5AC#32),
    StableHlo.unary main_cst_33 main_v163 (broadcastInDim S32 ![] bcast_S_S32 : (⟨S_, .f32⟩ : BufTy).Contents (Elt F) → (⟨S32, .f32⟩ : BufTy).Contents (Elt F)),
    StableHlo.binary main_v159 main_v163 main_v164 (addf : (⟨S32, .f32⟩ : BufTy).Contents (Elt F) → (⟨S32, .f32⟩ : BufTy).Contents (Elt F) → (⟨S32, .f32⟩ : BufTy).Contents (Elt F)),
    StableHlo.unary main_v164 main_v165 (Host.rsqrt : (⟨S32, .f32⟩ : BufTy).Contents (Elt F) → (⟨S32, .f32⟩ : BufTy).Contents (Elt F)),
    StableHlo.unary main_v165 main_v166 (broadcastInDim S1x32 ![1] bcast_S32_S1x32_1 : (⟨S32, .f32⟩ : BufTy).Contents (Elt F) → (⟨S1x32, .f32⟩ : BufTy).Contents (Elt F)),
    StableHlo.unary main_v166 main_v167 (broadcastInDim S50000x32 ![0, 1] bcast_S1x32_S50000x32_0_1 : (⟨S1x32, .f32⟩ : BufTy).Contents (Elt F) → (⟨S50000x32, .f32⟩ : BufTy).Contents (Elt F)),
    StableHlo.binary main_v162 main_v167 main_v168 (mulf : (⟨S50000x32, .f32⟩ : BufTy).Contents (Elt F) → (⟨S50000x32, .f32⟩ : BufTy).Contents (Elt F) → (⟨S50000x32, .f32⟩ : BufTy).Contents (Elt F)),
    StableHlo.unary main_arg24 main_v169 (broadcastInDim S1x32 ![1] bcast_S32_S1x32_1 : (⟨S32, .f32⟩ : BufTy).Contents (Elt F) → (⟨S1x32, .f32⟩ : BufTy).Contents (Elt F)),
    StableHlo.unary main_v169 main_v170 (broadcastInDim S50000x32 ![0, 1] bcast_S1x32_S50000x32_0_1 : (⟨S1x32, .f32⟩ : BufTy).Contents (Elt F) → (⟨S50000x32, .f32⟩ : BufTy).Contents (Elt F)),
    StableHlo.binary main_v168 main_v170 main_v171 (mulf : (⟨S50000x32, .f32⟩ : BufTy).Contents (Elt F) → (⟨S50000x32, .f32⟩ : BufTy).Contents (Elt F) → (⟨S50000x32, .f32⟩ : BufTy).Contents (Elt F)),
    StableHlo.unary main_arg25 main_v172 (broadcastInDim S1x32 ![1] bcast_S32_S1x32_1 : (⟨S32, .f32⟩ : BufTy).Contents (Elt F) → (⟨S1x32, .f32⟩ : BufTy).Contents (Elt F)),
    StableHlo.unary main_v172 main_v173 (broadcastInDim S50000x32 ![0, 1] bcast_S1x32_S50000x32_0_1 : (⟨S1x32, .f32⟩ : BufTy).Contents (Elt F) → (⟨S50000x32, .f32⟩ : BufTy).Contents (Elt F)),
    StableHlo.binary main_v171 main_v173 main_v174 (addf : (⟨S50000x32, .f32⟩ : BufTy).Contents (Elt F) → (⟨S50000x32, .f32⟩ : BufTy).Contents (Elt F) → (⟨S50000x32, .f32⟩ : BufTy).Contents (Elt F)),
    StableHlo.nullary main_cst_34 (constant S_ .f32 0x00000000#32),
    StableHlo.unary main_cst_34 main_v175 (broadcastInDim S50000x32 ![] bcast_S_S50000x32 : (⟨S_, .f32⟩ : BufTy).Contents (Elt F) → (⟨S50000x32, .f32⟩ : BufTy).Contents (Elt F)),
    StableHlo.binary main_v174 main_v175 main_v176 (maximumf : (⟨S50000x32, .f32⟩ : BufTy).Contents (Elt F) → (⟨S50000x32, .f32⟩ : BufTy).Contents (Elt F) → (⟨S50000x32, .f32⟩ : BufTy).Contents (Elt F)),
    StableHlo.binary main_v176 main_arg26 main_v177 ((fun l r => Host.dotGeneral dot_S50000x32_S32x16_S50000x16_1_0_0_1_n_n none l r) : (⟨S50000x32, .f32⟩ : BufTy).Contents (Elt F) → (⟨S32x16, .f32⟩ : BufTy).Contents (Elt F) → (⟨S50000x16, .f32⟩ : BufTy).Contents (Elt F)),
    StableHlo.unary main_arg27 main_v178 (broadcastInDim S1x16 ![1] bcast_S16_S1x16_1 : (⟨S16, .f32⟩ : BufTy).Contents (Elt F) → (⟨S1x16, .f32⟩ : BufTy).Contents (Elt F)),
    StableHlo.unary main_v178 main_v179 (broadcastInDim S50000x16 ![0, 1] bcast_S1x16_S50000x16_0_1 : (⟨S1x16, .f32⟩ : BufTy).Contents (Elt F) → (⟨S50000x16, .f32⟩ : BufTy).Contents (Elt F)),
    StableHlo.binary main_v177 main_v179 main_v180 (addf : (⟨S50000x16, .f32⟩ : BufTy).Contents (Elt F) → (⟨S50000x16, .f32⟩ : BufTy).Contents (Elt F) → (⟨S50000x16, .f32⟩ : BufTy).Contents (Elt F)),
    StableHlo.nullary main_cst_35 (constant S_ .f32 0x00000000#32),
    StableHlo.unary main_cst_35 main_v181 (broadcastInDim S50000x16 ![] bcast_S_S50000x16 : (⟨S_, .f32⟩ : BufTy).Contents (Elt F) → (⟨S50000x16, .f32⟩ : BufTy).Contents (Elt F)),
    StableHlo.binary main_v180 main_v181 main_v182 (maximumf : (⟨S50000x16, .f32⟩ : BufTy).Contents (Elt F) → (⟨S50000x16, .f32⟩ : BufTy).Contents (Elt F) → (⟨S50000x16, .f32⟩ : BufTy).Contents (Elt F)),
    StableHlo.binary main_v182 main_arg28 main_v183 ((fun l r => Host.dotGeneral dot_S50000x16_S16x2_S50000x2_1_0_0_1_n_n none l r) : (⟨S50000x16, .f32⟩ : BufTy).Contents (Elt F) → (⟨S16x2, .f32⟩ : BufTy).Contents (Elt F) → (⟨S50000x2, .f32⟩ : BufTy).Contents (Elt F)),
    StableHlo.unary main_arg29 main_v184 (broadcastInDim S1x2 ![1] bcast_S2_S1x2_1 : (⟨S2, .f32⟩ : BufTy).Contents (Elt F) → (⟨S1x2, .f32⟩ : BufTy).Contents (Elt F)),
    StableHlo.unary main_v184 main_v185 (broadcastInDim S50000x2 ![0, 1] bcast_S1x2_S50000x2_0_1 : (⟨S1x2, .f32⟩ : BufTy).Contents (Elt F) → (⟨S50000x2, .f32⟩ : BufTy).Contents (Elt F)),
    StableHlo.binary main_v183 main_v185 main_v186 (addf : (⟨S50000x2, .f32⟩ : BufTy).Contents (Elt F) → (⟨S50000x2, .f32⟩ : BufTy).Contents (Elt F) → (⟨S50000x2, .f32⟩ : BufTy).Contents (Elt F)) ]

theorem ops_eq : (ops : List (HloOp τ sig (Elt F))) = ops0 ++ (ops1 ++ (ops2 ++ ops3)) := rfl

set_option maxRecDepth 4096 in
theorem part0_eq (c : Dev nD) : main_part0 (F := F) c = seq ops0 := by
  simp only [main_part0, fn_where.body, fn_var.body, fn_where_1.body, fn_var_0.body, fn_where_3.body, fn_var_2.body, seq, bind_assoc, pure_bind]
  try rfl

set_option maxRecDepth 4096 in
theorem part1_eq (c : Dev nD) : main_part1 (F := F) c = seq ops1 := by
  simp only [main_part1, fn_where.body, fn_var.body, fn_where_1.body, fn_var_0.body, fn_where_3.body, fn_var_2.body, seq, bind_assoc, pure_bind]
  try rfl

set_option maxRecDepth 4096 in
theorem part2_eq (c : Dev nD) : main_part2 (F := F) c = seq ops2 := by
  simp only [main_part2, fn_where.body, fn_var.body, fn_where_1.body, fn_var_0.body, fn_where_3.body, fn_var_2.body, seq, bind_assoc, pure_bind]
  try rfl

set_option maxRecDepth 4096 in
theorem part3_eq (c : Dev nD) : main_part3 (F := F) c = seq ops3 := by
  simp only [main_part3, fn_where.body, fn_var.body, fn_where_1.body, fn_var_0.body, fn_where_3.body, fn_var_2.body, seq, bind_assoc, pure_bind]
  try rfl

/-- @main is that straight line: its four printed stretches one after the other. -/
theorem main_eq (c : Dev nD) : main (F := F) c = seq ops := by
  rw [ops_eq, seq_append, seq_append, seq_append, ← part0_eq c, ← part1_eq c, ← part2_eq c, ← part3_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., reshape_bufs_sub .., unary_bufs_sub .., reshape_bufs_sub .., binary_bufs_sub .., unary_bufs_sub ..,
    unary_bufs_sub .., binary_bufs_sub .., nullary_bufs_sub .., unary_bufs_sub .., binary_bufs_sub .., nullary_bufs_sub ..,
    binary_bufs_sub .., nullary_bufs_sub .., unary_bufs_sub .., binary_bufs_sub .., nullary_bufs_sub .., nullary_bufs_sub ..,
    binary_bufs_sub .., unary_bufs_sub .., nullary_bufs_sub .., unary_bufs_sub .., binary_bufs_sub .., unary_bufs_sub ..,
    binary_bufs_sub .., binary_bufs_sub .., unary_bufs_sub .., nullary_bufs_sub .., binary_bufs_sub .., nullary_bufs_sub ..,
    binary_bufs_sub .., unary_bufs_sub .., binary_bufs_sub .., nullary_bufs_sub .., binary_bufs_sub .., nullary_bufs_sub ..,
    unary_bufs_sub .., unary_bufs_sub .., ternary_bufs_sub .., unary_bufs_sub .., unary_bufs_sub .., binary_bufs_sub ..,
    nullary_bufs_sub .., unary_bufs_sub .., binary_bufs_sub .., unary_bufs_sub .., unary_bufs_sub .., unary_bufs_sub ..,
    binary_bufs_sub .., unary_bufs_sub .., unary_bufs_sub .., binary_bufs_sub .., unary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., unary_bufs_sub ..,
    unary_bufs_sub .., ternary_bufs_sub .., binary_bufs_sub .., unary_bufs_sub .., unary_bufs_sub .., binary_bufs_sub ..,
    binary_bufs_sub .., binary_bufs_sub .., nullary_bufs_sub .., binary_bufs_sub .., nullary_bufs_sub .., unary_bufs_sub ..,
    binary_bufs_sub .., nullary_bufs_sub .., nullary_bufs_sub .., binary_bufs_sub .., unary_bufs_sub .., nullary_bufs_sub ..,
    unary_bufs_sub .., binary_bufs_sub .., unary_bufs_sub .., binary_bufs_sub .., binary_bufs_sub .., unary_bufs_sub ..,
    nullary_bufs_sub .., binary_bufs_sub .., nullary_bufs_sub .., binary_bufs_sub .., unary_bufs_sub .., binary_bufs_sub ..,
    nullary_bufs_sub .., binary_bufs_sub .., nullary_bufs_sub .., unary_bufs_sub .., unary_bufs_sub .., ternary_bufs_sub ..,
    unary_bufs_sub .., unary_bufs_sub .., binary_bufs_sub .., nullary_bufs_sub .., unary_bufs_sub .., binary_bufs_sub ..,
    unary_bufs_sub .., unary_bufs_sub .., unary_bufs_sub .., binary_bufs_sub .., unary_bufs_sub .., unary_bufs_sub ..,
    binary_bufs_sub .., unary_bufs_sub .., unary_bufs_sub .., binary_bufs_sub .., nullary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., unary_bufs_sub ..,
    unary_bufs_sub .., ternary_bufs_sub .., binary_bufs_sub .., unary_bufs_sub .., unary_bufs_sub .., binary_bufs_sub ..,
    binary_bufs_sub .., binary_bufs_sub .., nullary_bufs_sub .., binary_bufs_sub .., nullary_bufs_sub .., unary_bufs_sub ..,
    binary_bufs_sub .., nullary_bufs_sub .., nullary_bufs_sub .., binary_bufs_sub .., unary_bufs_sub .., nullary_bufs_sub ..,
    unary_bufs_sub .., binary_bufs_sub .., unary_bufs_sub .., binary_bufs_sub .., binary_bufs_sub .., unary_bufs_sub ..,
    nullary_bufs_sub .., binary_bufs_sub .., nullary_bufs_sub .., binary_bufs_sub .., unary_bufs_sub .., binary_bufs_sub ..,
    nullary_bufs_sub .., binary_bufs_sub .., nullary_bufs_sub .., unary_bufs_sub .., unary_bufs_sub .., ternary_bufs_sub ..,
    unary_bufs_sub .., unary_bufs_sub .., binary_bufs_sub .., nullary_bufs_sub .., unary_bufs_sub .., binary_bufs_sub ..,
    unary_bufs_sub .., unary_bufs_sub .., unary_bufs_sub .., binary_bufs_sub .., unary_bufs_sub .., unary_bufs_sub ..,
    binary_bufs_sub .., unary_bufs_sub .., unary_bufs_sub .., binary_bufs_sub .., nullary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., unary_bufs_sub ..,
    unary_bufs_sub .., ternary_bufs_sub .., binary_bufs_sub .., unary_bufs_sub .., unary_bufs_sub .., binary_bufs_sub ..,
    binary_bufs_sub .., binary_bufs_sub .., nullary_bufs_sub .., binary_bufs_sub .., nullary_bufs_sub .., unary_bufs_sub ..,
    binary_bufs_sub .., nullary_bufs_sub .., nullary_bufs_sub .., binary_bufs_sub .., unary_bufs_sub .., nullary_bufs_sub ..,
    unary_bufs_sub .., binary_bufs_sub .., unary_bufs_sub .., binary_bufs_sub .., binary_bufs_sub .., unary_bufs_sub ..,
    nullary_bufs_sub .., binary_bufs_sub .., nullary_bufs_sub .., binary_bufs_sub .., unary_bufs_sub .., binary_bufs_sub ..,
    nullary_bufs_sub .., binary_bufs_sub .., nullary_bufs_sub .., unary_bufs_sub .., unary_bufs_sub .., ternary_bufs_sub ..,
    unary_bufs_sub .., unary_bufs_sub .., binary_bufs_sub .., nullary_bufs_sub .., unary_bufs_sub .., binary_bufs_sub ..,
    unary_bufs_sub .., unary_bufs_sub .., unary_bufs_sub .., binary_bufs_sub .., unary_bufs_sub .., unary_bufs_sub ..,
    binary_bufs_sub .., unary_bufs_sub .., unary_bufs_sub .., binary_bufs_sub .., nullary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., unary_bufs_sub ..,
    unary_bufs_sub .., ternary_bufs_sub .., binary_bufs_sub .., unary_bufs_sub .., unary_bufs_sub .., binary_bufs_sub ..,
    binary_bufs_sub .., binary_bufs_sub .., nullary_bufs_sub .., binary_bufs_sub .., nullary_bufs_sub .., unary_bufs_sub ..,
    binary_bufs_sub .., nullary_bufs_sub .., nullary_bufs_sub .., binary_bufs_sub .., unary_bufs_sub .., nullary_bufs_sub ..,
    unary_bufs_sub .., binary_bufs_sub .., unary_bufs_sub .., binary_bufs_sub .., binary_bufs_sub .., unary_bufs_sub ..,
    nullary_bufs_sub .., binary_bufs_sub .., nullary_bufs_sub .., binary_bufs_sub .., unary_bufs_sub .., binary_bufs_sub ..,
    nullary_bufs_sub .., binary_bufs_sub .., nullary_bufs_sub .., unary_bufs_sub .., unary_bufs_sub .., ternary_bufs_sub ..,
    unary_bufs_sub .., unary_bufs_sub .., binary_bufs_sub .., nullary_bufs_sub .., unary_bufs_sub .., binary_bufs_sub ..,
    unary_bufs_sub .., unary_bufs_sub .., unary_bufs_sub .., binary_bufs_sub .., unary_bufs_sub .., unary_bufs_sub ..,
    binary_bufs_sub .., unary_bufs_sub .., unary_bufs_sub .., binary_bufs_sub .., nullary_bufs_sub .., unary_bufs_sub ..,
    binary_bufs_sub .., binary_bufs_sub .., unary_bufs_sub .., unary_bufs_sub .., binary_bufs_sub .., nullary_bufs_sub ..,
    unary_bufs_sub .., binary_bufs_sub .., binary_bufs_sub .., unary_bufs_sub .., unary_bufs_sub .., binary_bufs_sub ..⟩

/-- From any memory with zero counters every weakly fair execution of @main terminates, and every final
    state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.LibAfter.lean ====
/-
  Running a list of host operations in two stretches.

  The contents every buffer holds after a list of host operations is a fold of the operations' results over the
  contents before it; the fold over a list split in two is the fold over the second part from what the first part
  leaves. So a long straight line can be read stretch by stretch, each from the contents at its start.
-/
import Idealize.ShloMosaic.Lib.StableHlo.Run

namespace Cert.LibAfter

open Idealize.ShloMosaic Idealize.ShloMosaic.StableHlo

variable {τ : Topo} {sig : RefSig} {Val : EltTy → Type}

/-- The contents after `l₁ ++ l₂` are the contents after `l₂` from the contents after `l₁`. -/
theorem after_append (l₁ l₂ : List (HloOp τ sig Val)) (V : Valuation τ sig Val) :
    after (l₁ ++ l₂) V = after l₂ (after l₁ V) := by
  induction l₁ generalizing V with
  | nil => rfl
  | cons op l ih => exact ih _

end Cert.LibAfter
-- ==== Proof.RefStages.lean ====
/-
  The reference's straight line cut into eleven stages, one per layer output, and which buffers each stage writes.

  Stage 0 ends at the embedding's floored linear step, stage 1 at its normalisation; stages 2, 4, 6, 8 end at a
  block's dense step and stages 3, 5, 7, 9 at its normalised, floored output; stage 10 is the output head. A
  buffer a stage does not write has the same contents after it as before.
-/
import proofs.«160678_j77988016161089_1_alg».proof.Proof.RefRun
import proofs.«160678_j77988016161089_1_alg».proof.Proof.LibAfter

set_option maxRecDepth 16384

noncomputable section

namespace Cert.ReferenceIdeal.RefStages

open Cert.ReferenceIdeal Cert.ReferenceIdeal.Gen Cert.ReferenceIdeal.RefRun
open Idealize.ShloMosaic Idealize.ShloMosaic.TcCoe Idealize.SL.Sem Idealize.ShloMosaic.StableHlo

variable {F : FTy → Type} [FloatOps F]

/-- Stage 0's operations. -/
abbrev st0 : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.binary main_arg0 main_arg2 main_v4 ((fun l r => Host.dotGeneral dot_S50000x5_S5x32_S50000x32_1_0_0_1_n_n none l r) : (⟨S50000x5, .f32⟩ : BufTy).Contents (Elt F) → (⟨S5x32, .f32⟩ : BufTy).Contents (Elt F) → (⟨S50000x32, .f32⟩ : BufTy).Contents (Elt F)),
    StableHlo.unary main_arg3 main_v5 (broadcastInDim S1x32 ![1] bcast_S32_S1x32_1 : (⟨S32, .f32⟩ : BufTy).Contents (Elt F) → (⟨S1x32, .f32⟩ : BufTy).Contents (Elt F)),
    StableHlo.unary main_v5 main_v6 (broadcastInDim S50000x32 ![0, 1] bcast_S1x32_S50000x32_0_1 : (⟨S1x32, .f32⟩ : BufTy).Contents (Elt F) → (⟨S50000x32, .f32⟩ : BufTy).Contents (Elt F)),
    StableHlo.binary main_v4 main_v6 main_v7 (addf : (⟨S50000x32, .f32⟩ : BufTy).Contents (Elt F) → (⟨S50000x32, .f32⟩ : BufTy).Contents (Elt F) → (⟨S50000x32, .f32⟩ : BufTy).Contents (Elt F)),
    StableHlo.nullary main_cst (constant S_ .f32 0x00000000#32),
    StableHlo.unary main_cst main_v8 (broadcastInDim S50000x32 ![] bcast_S_S50000x32 : (⟨S_, .f32⟩ : BufTy).Contents (Elt F) → (⟨S50000x32, .f32⟩ : BufTy).Contents (Elt F)),
    StableHlo.binary main_v7 main_v8 main_v9 (maximumf : (⟨S50000x32, .f32⟩ : BufTy).Contents (Elt F) → (⟨S50000x32, .f32⟩ : BufTy).Contents (Elt F) → (⟨S50000x32, .f32⟩ : BufTy).Contents (Elt F)) ]

/-- Stage 1's operations. -/
abbrev st1 : List (HloOp τ sig (Elt F)) :=
  [ StableHlo.nullary main_cst_0 (constant S_ .f32 0x00000000#32),
    StableHlo.binary main_v9 main_cst_0 main_v10 ((fun x v => Host.reduceAdd x v reducesTo_S50000x32_S32_d0 h_S_) : (⟨S50000x32, .f32⟩ : BufTy).Contents (Elt F) → (⟨S_, .f32⟩ : BufTy).Contents (Elt F) → (⟨S32, .f32⟩ : BufTy).Contents (Elt F)),
    StableHlo.nullary main_cst_1 (constant S_ .f32 0x47435000#32),
    StableHlo.unary main_cst_1 main_v11 (broadcastInDim S32 ![] bcast_S_S32 : (⟨S_, .f32⟩ : BufTy).Contents (Elt F) → (⟨S32, .f32⟩ : BufTy).Contents (Elt F)),
    StableHlo.binary main_v10 main_v11 main_v12 (Host.divf : (⟨S32, .f32⟩ : BufTy).Contents (Elt F) → (⟨S32, .f32⟩ : BufTy).Contents (Elt F) → (⟨S32, .f32⟩ : BufTy).Contents (Elt F)),
    StableHlo.nullary main_c (constantI S_ 32 0#32),
    StableHlo.TRef.nullary main_call0.cst (constant S_ .f32 0x00000000#32),
    StableHlo.TRef.binary (.of main_v9) main_call0.cst main_call0.v0 (fun x v => Host.reduceAdd x v reducesTo_S50000x32_S32_d0 h_S_),
    StableHlo.TRef.unary main_call0.v0 main_call0.v1 (broadcastInDim S1x32 ![1] bcast_S32_S1x32_1),
    StableHlo.TRef.nullary main_call0.cst_0 (constant S_ .f32 0x47435000#32),
    StableHlo.TRef.unary main_call0.cst_0 main_call0.v2 (broadcastInDim S1x32 ![] bcast_S_S1x32),
    StableHlo.TRef.binary main_call0.v1 main_call0.v2 main_call0.v3 Host.divf,
    StableHlo.TRef.unary main_call0.v3 main_call0.v4 (broadcastInDim S50000x32 ![0, 1] bcast_S1x32_S50000x32_0_1),
    StableHlo.TRef.binary (.of main_v9) main_call0.v4 main_call0.v5 subf,
    StableHlo.TRef.binary main_call0.v5 main_call0.v5 main_call0.v6 mulf,
    StableHlo.TRef.unary (.of main_c) main_call0.v7 (sitofp .f32),
    StableHlo.TRef.nullary main_call0.cst_1 (constant S_ .f32 0x47435000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S50000x32_S32_d0 h_S_),
    StableHlo.TRef.unary main_call0.v8 main_call0.v10 (broadcastInDim S32 ![] bcast_S_S32),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S32 ![] bcast_S_S32),
    StableHlo.TRef.ternary main_call0.v12 main_call0.v11 main_call0.call0.v1 main_call0.call0.v2 (fun p a b => select (broadcastInDim S32 ![] bcast_S_S32 p) a b),
    StableHlo.unary main_v12 main_v14 (broadcastInDim S1x32 ![1] bcast_S32_S1x32_1 : (⟨S32, .f32⟩ : BufTy).Contents (Elt F) → (⟨S1x32, .f32⟩ : BufTy).Contents (Elt F)),
    StableHlo.unary main_v14 main_v15 (broadcastInDim S50000x32 ![0, 1] bcast_S1x32_S50000x32_0_1 : (⟨S1x32, .f32⟩ : BufTy).Contents (Elt F) → (⟨S50000x32, .f32⟩ : BufTy).Contents (Elt F)),
    StableHlo.binary main_v9 main_v15 main_v16 (subf : (⟨S50000x32, .f32⟩ : BufTy).Contents (Elt F) → (⟨S50000x32, .f32⟩ : BufTy).Contents (Elt F) → (⟨S50000x32, .f32⟩ : BufTy).Contents (Elt F)),
    StableHlo.nullary main_cst_2 (constant S_ .f32 0x3727C5AC#32),
    StableHlo.unary main_cst_2 main_v17 (broadcastInDim S32 ![] bcast_S_S32 : (⟨S_, .f32⟩ : BufTy).Contents (Elt F) → (⟨S32, .f32⟩ : BufTy).Contents (Elt F)),
    StableHlo.binary main_v13 main_v17 main_v18 (addf : (⟨S32, .f32⟩ : BufTy).Contents (Elt F) → (⟨S32, .f32⟩ : BufTy).Contents (Elt F) → (⟨S32, .f32⟩ : BufTy).Contents (Elt F)),
    StableHlo.unary main_v18 main_v19 (Host.rsqrt : (⟨S32, .f32⟩ : BufTy).Contents (Elt F) → (⟨S32, .f32⟩ : BufTy).Contents (Elt F)),
    StableHlo.unary main_v19 main_v20 (broadcastInDim S1x32 ![1] bcast_S32_S1x32_1 : (⟨S32, .f32⟩ : BufTy).Contents (Elt F) → (⟨S1x32, .f32⟩ : BufTy).Contents (Elt F)),
    StableHlo.unary main_v20 main_v21 (broadcastInDim S50000x32 ![0, 1] bcast_S1x32_S50000x32_0_1 : (⟨S1x32, .f32⟩ : BufTy).Contents (Elt F) → (⟨S50000x32, .f32⟩ : BufTy).Contents (Elt F)),
    StableHlo.binary main_v16 main_v21 main_v22 (mulf : (⟨S50000x32, .f32⟩ : BufTy).Contents (Elt F) → (⟨S50000x32, .f32⟩ : BufTy).Contents (Elt F) → (⟨S50000x32, .f32⟩ : BufTy).Contents (Elt F)),
    StableHlo.unary main_arg4 main_v23 (broadcastInDim S1x32 ![1] bcast_S32_S1x32_1 : (⟨S32, .f32⟩ : BufTy).Contents (Elt F) → (⟨S1x32, .f32⟩ : BufTy).Contents (Elt F)),
    StableHlo.unary main_v23 main_v24 (broadcastInDim S50000x32 ![0, 1] bcast_S1x32_S50000x32_0_1 : (⟨S1x32, .f32⟩ : BufTy).Contents (Elt F) → (⟨S50000x32, .f32⟩ : BufTy).Contents (Elt F)),
    StableHlo.binary main_v22 main_v24 main_v25 (mulf : (⟨S50000x32, .f32⟩ : BufTy).Contents (Elt F) → (⟨S50000x32, .f32⟩ : BufTy).Contents (Elt F) → (⟨S50000x32, .f32⟩ : BufTy).Contents (Elt F)),
    StableHlo.unary main_arg5 main_v26 (broadcastInDim S1x32 ![1] bcast_S32_S1x32_1 : (⟨S32, .f32⟩ : BufTy).Contents (Elt F) → (⟨S1x32, .f32⟩ : BufTy).Contents (Elt F)),
    StableHlo.unary main_v26 main_v27 (broadcastInDim S50000x32 ![0, 1] bcast_S1x32_S50000x32_0_1 : (⟨S1x32, .f32⟩ : BufTy).Contents (Elt F) → (⟨S50000x32, .f32⟩ : BufTy).Contents (Elt F)),
    StableHlo.binary main_v25 main_v27 main_v28 (addf : (⟨S50000x32, .f32⟩ : BufTy).Contents (Elt F) → (⟨S50000x32, .f32⟩ : BufTy).Contents (Elt F) → (⟨S50000x32, .f32⟩ : BufTy).Contents (Elt F)) ]

/-- Stage 2's operations. -/
abbrev st2 : List (HloOp τ sig (Elt F)) :=
  [ StableHlo.nullary main_c_3 (constantI S_ 32 0#32),
    StableHlo.unary main_c_3 main_v29 (broadcastInDim S800000 ![] bcast_S_S800000 : (⟨S_, .i32⟩ : BufTy).Contents (Elt F) → (⟨S800000, .i32⟩ : BufTy).Contents (Elt F)),
    StableHlo.binary main_v1 main_v29 main_v30 (cmpi .slt : (⟨S800000, .i32⟩ : BufTy).Contents (Elt F) → (⟨S800000, .i32⟩ : BufTy).Contents (Elt F) → (⟨S800000, .i1⟩ : BufTy).Contents (Elt F)),
    StableHlo.nullary main_c_4 (constantI S_ 32 50000#32),
    StableHlo.unary main_c_4 main_v31 (broadcastInDim S800000 ![] bcast_S_S800000 : (⟨S_, .i32⟩ : BufTy).Contents (Elt F) → (⟨S800000, .i32⟩ : BufTy).Contents (Elt F)),
    StableHlo.binary main_v1 main_v31 main_v32 (addi : (⟨S800000, .i32⟩ : BufTy).Contents (Elt F) → (⟨S800000, .i32⟩ : BufTy).Contents (Elt F) → (⟨S800000, .i32⟩ : BufTy).Contents (Elt F)),
    StableHlo.ternary main_v30 main_v32 main_v1 main_v33 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v33 main_v34 (broadcastInDim S800000x1 ![0] bcast_S800000_S800000x1_0 : (⟨S800000, .i32⟩ : BufTy).Contents (Elt F) → (⟨S800000x1, .i32⟩ : BufTy).Contents (Elt F)),
    StableHlo.binary main_v28 main_v34 main_v35 ((fun x i => Host.gather gather_S50000x32_S800000x1_S800000x32_1_0_n_n_0_1_132 x i) : (⟨S50000x32, .f32⟩ : BufTy).Contents (Elt F) → (⟨S800000x1, .i32⟩ : BufTy).Contents (Elt F) → (⟨S800000x32, .f32⟩ : BufTy).Contents (Elt F)),
    StableHlo.nullary main_cst_5 (constant S_ .f32 0x00000000#32),
    StableHlo.unary main_cst_5 main_v36 (broadcastInDim S50000x32 ![] bcast_S_S50000x32 : (⟨S_, .f32⟩ : BufTy).Contents (Elt F) → (⟨S50000x32, .f32⟩ : BufTy).Contents (Elt F)),
    StableHlo.unary main_v3 main_v37 (broadcastInDim S800000x1 ![0] bcast_S800000_S800000x1_0 : (⟨S800000, .i32⟩ : BufTy).Contents (Elt F) → (⟨S800000x1, .i32⟩ : BufTy).Contents (Elt F)),
    StableHlo.ternary main_v36 main_v37 main_v35 main_v38 ((fun x i u => Host.scatterAdd scatter_S50000x32_S800000x1_S800000x32_1_0_0_1 x i u) : (⟨S50000x32, .f32⟩ : BufTy).Contents (Elt F) → (⟨S800000x1, .i32⟩ : BufTy).Contents (Elt F) → (⟨S800000x32, .f32⟩ : BufTy).Contents (Elt F) → (⟨S50000x32, .f32⟩ : BufTy).Contents (Elt F)),
    StableHlo.binary main_v38 main_arg6 main_v39 ((fun l r => Host.dotGeneral dot_S50000x32_S32x64_S50000x64_1_0_0_1_n_n none l r) : (⟨S50000x32, .f32⟩ : BufTy).Contents (Elt F) → (⟨S32x64, .f32⟩ : BufTy).Contents (Elt F) → (⟨S50000x64, .f32⟩ : BufTy).Contents (Elt F)),
    StableHlo.unary main_arg7 main_v40 (broadcastInDim S1x64 ![1] bcast_S64_S1x64_1 : (⟨S64, .f32⟩ : BufTy).Contents (Elt F) → (⟨S1x64, .f32⟩ : BufTy).Contents (Elt F)),
    StableHlo.unary main_v40 main_v41 (broadcastInDim S50000x64 ![0, 1] bcast_S1x64_S50000x64_0_1 : (⟨S1x64, .f32⟩ : BufTy).Contents (Elt F) → (⟨S50000x64, .f32⟩ : BufTy).Contents (Elt F)),
    StableHlo.binary main_v39 main_v41 main_v42 (addf : (⟨S50000x64, .f32⟩ : BufTy).Contents (Elt F) → (⟨S50000x64, .f32⟩ : BufTy).Contents (Elt F) → (⟨S50000x64, .f32⟩ : BufTy).Contents (Elt F)),
    StableHlo.binary main_v28 main_arg8 main_v43 ((fun l r => Host.dotGeneral dot_S50000x32_S32x64_S50000x64_1_0_0_1_n_n none l r) : (⟨S50000x32, .f32⟩ : BufTy).Contents (Elt F) → (⟨S32x64, .f32⟩ : BufTy).Contents (Elt F) → (⟨S50000x64, .f32⟩ : BufTy).Contents (Elt F)),
    StableHlo.binary main_v42 main_v43 main_v44 (addf : (⟨S50000x64, .f32⟩ : BufTy).Contents (Elt F) → (⟨S50000x64, .f32⟩ : BufTy).Contents (Elt F) → (⟨S50000x64, .f32⟩ : BufTy).Contents (Elt F)) ]

/-- Stage 3's operations. -/
abbrev st3 : List (HloOp τ sig (Elt F)) :=
  [ StableHlo.nullary main_cst_6 (constant S_ .f32 0x00000000#32),
    StableHlo.binary main_v44 main_cst_6 main_v45 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_7 (constant S_ .f32 0x47435000#32),
    StableHlo.unary main_cst_7 main_v46 (broadcastInDim S64 ![] bcast_S_S64 : (⟨S_, .f32⟩ : BufTy).Contents (Elt F) → (⟨S64, .f32⟩ : BufTy).Contents (Elt F)),
    StableHlo.binary main_v45 main_v46 main_v47 (Host.divf : (⟨S64, .f32⟩ : BufTy).Contents (Elt F) → (⟨S64, .f32⟩ : BufTy).Contents (Elt F) → (⟨S64, .f32⟩ : BufTy).Contents (Elt F)),
    StableHlo.nullary main_c_8 (constantI S_ 32 0#32),
    StableHlo.TRef.nullary main_call1.cst (constant S_ .f32 0x00000000#32),
    StableHlo.TRef.binary (.of main_v44) main_call1.cst main_call1.v0 (fun x v => Host.reduceAdd x v reducesTo_S50000x64_S64_d0 h_S_),
    StableHlo.TRef.unary main_call1.v0 main_call1.v1 (broadcastInDim S1x64 ![1] bcast_S64_S1x64_1),
    StableHlo.TRef.nullary main_call1.cst_0 (constant S_ .f32 0x47435000#32),
    StableHlo.TRef.unary main_call1.cst_0 main_call1.v2 (broadcastInDim S1x64 ![] bcast_S_S1x64),
    StableHlo.TRef.binary main_call1.v1 main_call1.v2 main_call1.v3 Host.divf,
    StableHlo.TRef.unary main_call1.v3 main_call1.v4 (broadcastInDim S50000x64 ![0, 1] bcast_S1x64_S50000x64_0_1),
    StableHlo.TRef.binary (.of main_v44) main_call1.v4 main_call1.v5 subf,
    StableHlo.TRef.binary main_call1.v5 main_call1.v5 main_call1.v6 mulf,
    StableHlo.TRef.unary (.of main_c_8) main_call1.v7 (sitofp .f32),
    StableHlo.TRef.nullary main_call1.cst_1 (constant S_ .f32 0x47435000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S50000x64_S64_d0 h_S_),
    StableHlo.TRef.unary main_call1.v8 main_call1.v10 (broadcastInDim S64 ![] bcast_S_S64),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S64 ![] bcast_S_S64),
    StableHlo.TRef.ternary main_call1.v12 main_call1.v11 main_call1.call0.v1 main_call1.call0.v2 (fun p a b => select (broadcastInDim S64 ![] bcast_S_S64 p) a b),
    StableHlo.unary main_v47 main_v49 (broadcastInDim S1x64 ![1] bcast_S64_S1x64_1 : (⟨S64, .f32⟩ : BufTy).Contents (Elt F) → (⟨S1x64, .f32⟩ : BufTy).Contents (Elt F)),
    StableHlo.unary main_v49 main_v50 (broadcastInDim S50000x64 ![0, 1] bcast_S1x64_S50000x64_0_1 : (⟨S1x64, .f32⟩ : BufTy).Contents (Elt F) → (⟨S50000x64, .f32⟩ : BufTy).Contents (Elt F)),
    StableHlo.binary main_v44 main_v50 main_v51 (subf : (⟨S50000x64, .f32⟩ : BufTy).Contents (Elt F) → (⟨S50000x64, .f32⟩ : BufTy).Contents (Elt F) → (⟨S50000x64, .f32⟩ : BufTy).Contents (Elt F)),
    StableHlo.nullary main_cst_9 (constant S_ .f32 0x3727C5AC#32),
    StableHlo.unary main_cst_9 main_v52 (broadcastInDim S64 ![] bcast_S_S64 : (⟨S_, .f32⟩ : BufTy).Contents (Elt F) → (⟨S64, .f32⟩ : BufTy).Contents (Elt F)),
    StableHlo.binary main_v48 main_v52 main_v53 (addf : (⟨S64, .f32⟩ : BufTy).Contents (Elt F) → (⟨S64, .f32⟩ : BufTy).Contents (Elt F) → (⟨S64, .f32⟩ : BufTy).Contents (Elt F)),
    StableHlo.unary main_v53 main_v54 (Host.rsqrt : (⟨S64, .f32⟩ : BufTy).Contents (Elt F) → (⟨S64, .f32⟩ : BufTy).Contents (Elt F)),
    StableHlo.unary main_v54 main_v55 (broadcastInDim S1x64 ![1] bcast_S64_S1x64_1 : (⟨S64, .f32⟩ : BufTy).Contents (Elt F) → (⟨S1x64, .f32⟩ : BufTy).Contents (Elt F)),
    StableHlo.unary main_v55 main_v56 (broadcastInDim S50000x64 ![0, 1] bcast_S1x64_S50000x64_0_1 : (⟨S1x64, .f32⟩ : BufTy).Contents (Elt F) → (⟨S50000x64, .f32⟩ : BufTy).Contents (Elt F)),
    StableHlo.binary main_v51 main_v56 main_v57 (mulf : (⟨S50000x64, .f32⟩ : BufTy).Contents (Elt F) → (⟨S50000x64, .f32⟩ : BufTy).Contents (Elt F) → (⟨S50000x64, .f32⟩ : BufTy).Contents (Elt F)),
    StableHlo.unary main_arg9 main_v58 (broadcastInDim S1x64 ![1] bcast_S64_S1x64_1 : (⟨S64, .f32⟩ : BufTy).Contents (Elt F) → (⟨S1x64, .f32⟩ : BufTy).Contents (Elt F)),
    StableHlo.unary main_v58 main_v59 (broadcastInDim S50000x64 ![0, 1] bcast_S1x64_S50000x64_0_1 : (⟨S1x64, .f32⟩ : BufTy).Contents (Elt F) → (⟨S50000x64, .f32⟩ : BufTy).Contents (Elt F)),
    StableHlo.binary main_v57 main_v59 main_v60 (mulf : (⟨S50000x64, .f32⟩ : BufTy).Contents (Elt F) → (⟨S50000x64, .f32⟩ : BufTy).Contents (Elt F) → (⟨S50000x64, .f32⟩ : BufTy).Contents (Elt F)),
    StableHlo.unary main_arg10 main_v61 (broadcastInDim S1x64 ![1] bcast_S64_S1x64_1 : (⟨S64, .f32⟩ : BufTy).Contents (Elt F) → (⟨S1x64, .f32⟩ : BufTy).Contents (Elt F)),
    StableHlo.unary main_v61 main_v62 (broadcastInDim S50000x64 ![0, 1] bcast_S1x64_S50000x64_0_1 : (⟨S1x64, .f32⟩ : BufTy).Contents (Elt F) → (⟨S50000x64, .f32⟩ : BufTy).Contents (Elt F)),
    StableHlo.binary main_v60 main_v62 main_v63 (addf : (⟨S50000x64, .f32⟩ : BufTy).Contents (Elt F) → (⟨S50000x64, .f32⟩ : BufTy).Contents (Elt F) → (⟨S50000x64, .f32⟩ : BufTy).Contents (Elt F)),
    StableHlo.nullary main_cst_10 (constant S_ .f32 0x00000000#32),
    StableHlo.unary main_cst_10 main_v64 (broadcastInDim S50000x64 ![] bcast_S_S50000x64 : (⟨S_, .f32⟩ : BufTy).Contents (Elt F) → (⟨S50000x64, .f32⟩ : BufTy).Contents (Elt F)),
    StableHlo.binary main_v63 main_v64 main_v65 (maximumf : (⟨S50000x64, .f32⟩ : BufTy).Contents (Elt F) → (⟨S50000x64, .f32⟩ : BufTy).Contents (Elt F) → (⟨S50000x64, .f32⟩ : BufTy).Contents (Elt F)) ]

/-- Stage 4's operations. -/
abbrev st4 : List (HloOp τ sig (Elt F)) :=
  [ StableHlo.nullary main_c_11 (constantI S_ 32 0#32),
    StableHlo.unary main_c_11 main_v66 (broadcastInDim S800000 ![] bcast_S_S800000 : (⟨S_, .i32⟩ : BufTy).Contents (Elt F) → (⟨S800000, .i32⟩ : BufTy).Contents (Elt F)),
    StableHlo.binary main_v1 main_v66 main_v67 (cmpi .slt : (⟨S800000, .i32⟩ : BufTy).Contents (Elt F) → (⟨S800000, .i32⟩ : BufTy).Contents (Elt F) → (⟨S800000, .i1⟩ : BufTy).Contents (Elt F)),
    StableHlo.nullary main_c_12 (constantI S_ 32 50000#32),
    StableHlo.unary main_c_12 main_v68 (broadcastInDim S800000 ![] bcast_S_S800000 : (⟨S_, .i32⟩ : BufTy).Contents (Elt F) → (⟨S800000, .i32⟩ : BufTy).Contents (Elt F)),
    StableHlo.binary main_v1 main_v68 main_v69 (addi : (⟨S800000, .i32⟩ : BufTy).Contents (Elt F) → (⟨S800000, .i32⟩ : BufTy).Contents (Elt F) → (⟨S800000, .i32⟩ : BufTy).Contents (Elt F)),
    StableHlo.ternary main_v67 main_v69 main_v1 main_v70 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v70 main_v71 (broadcastInDim S800000x1 ![0] bcast_S800000_S800000x1_0 : (⟨S800000, .i32⟩ : BufTy).Contents (Elt F) → (⟨S800000x1, .i32⟩ : BufTy).Contents (Elt F)),
    StableHlo.binary main_v65 main_v71 main_v72 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.nullary main_cst_13 (constant S_ .f32 0x00000000#32),
    StableHlo.unary main_cst_13 main_v73 (broadcastInDim S50000x64 ![] bcast_S_S50000x64 : (⟨S_, .f32⟩ : BufTy).Contents (Elt F) → (⟨S50000x64, .f32⟩ : BufTy).Contents (Elt F)),
    StableHlo.unary main_v3 main_v74 (broadcastInDim S800000x1 ![0] bcast_S800000_S800000x1_0 : (⟨S800000, .i32⟩ : BufTy).Contents (Elt F) → (⟨S800000x1, .i32⟩ : BufTy).Contents (Elt F)),
    StableHlo.ternary main_v73 main_v74 main_v72 main_v75 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    StableHlo.binary main_v75 main_arg11 main_v76 ((fun l r => Host.dotGeneral dot_S50000x64_S64x128_S50000x128_1_0_0_1_n_n none l r) : (⟨S50000x64, .f32⟩ : BufTy).Contents (Elt F) → (⟨S64x128, .f32⟩ : BufTy).Contents (Elt F) → (⟨S50000x128, .f32⟩ : BufTy).Contents (Elt F)),
    StableHlo.unary main_arg12 main_v77 (broadcastInDim S1x128 ![1] bcast_S128_S1x128_1 : (⟨S128, .f32⟩ : BufTy).Contents (Elt F) → (⟨S1x128, .f32⟩ : BufTy).Contents (Elt F)),
    StableHlo.unary main_v77 main_v78 (broadcastInDim S50000x128 ![0, 1] bcast_S1x128_S50000x128_0_1 : (⟨S1x128, .f32⟩ : BufTy).Contents (Elt F) → (⟨S50000x128, .f32⟩ : BufTy).Contents (Elt F)),
    StableHlo.binary main_v76 main_v78 main_v79 (addf : (⟨S50000x128, .f32⟩ : BufTy).Contents (Elt F) → (⟨S50000x128, .f32⟩ : BufTy).Contents (Elt F) → (⟨S50000x128, .f32⟩ : BufTy).Contents (Elt F)),
    StableHlo.binary main_v65 main_arg13 main_v80 ((fun l r => Host.dotGeneral dot_S50000x64_S64x128_S50000x128_1_0_0_1_n_n none l r) : (⟨S50000x64, .f32⟩ : BufTy).Contents (Elt F) → (⟨S64x128, .f32⟩ : BufTy).Contents (Elt F) → (⟨S50000x128, .f32⟩ : BufTy).Contents (Elt F)),
    StableHlo.binary main_v79 main_v80 main_v81 (addf : (⟨S50000x128, .f32⟩ : BufTy).Contents (Elt F) → (⟨S50000x128, .f32⟩ : BufTy).Contents (Elt F) → (⟨S50000x128, .f32⟩ : BufTy).Contents (Elt F)) ]

/-- Stage 5's operations. -/
abbrev st5 : List (HloOp τ sig (Elt F)) :=
  [ StableHlo.nullary main_cst_14 (constant S_ .f32 0x00000000#32),
    StableHlo.binary main_v81 main_cst_14 main_v82 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_15 (constant S_ .f32 0x47435000#32),
    StableHlo.unary main_cst_15 main_v83 (broadcastInDim S128 ![] bcast_S_S128 : (⟨S_, .f32⟩ : BufTy).Contents (Elt F) → (⟨S128, .f32⟩ : BufTy).Contents (Elt F)),
    StableHlo.binary main_v82 main_v83 main_v84 (Host.divf : (⟨S128, .f32⟩ : BufTy).Contents (Elt F) → (⟨S128, .f32⟩ : BufTy).Contents (Elt F) → (⟨S128, .f32⟩ : BufTy).Contents (Elt F)),
    StableHlo.nullary main_c_16 (constantI S_ 32 0#32),
    StableHlo.TRef.nullary main_call2.cst (constant S_ .f32 0x00000000#32),
    StableHlo.TRef.binary (.of main_v81) main_call2.cst main_call2.v0 (fun x v => Host.reduceAdd x v reducesTo_S50000x128_S128_d0 h_S_),
    StableHlo.TRef.unary main_call2.v0 main_call2.v1 (broadcastInDim S1x128 ![1] bcast_S128_S1x128_1),
    StableHlo.TRef.nullary main_call2.cst_0 (constant S_ .f32 0x47435000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S50000x128 ![0, 1] bcast_S1x128_S50000x128_0_1),
    StableHlo.TRef.binary (.of main_v81) main_call2.v4 main_call2.v5 subf,
    StableHlo.TRef.binary main_call2.v5 main_call2.v5 main_call2.v6 mulf,
    StableHlo.TRef.unary (.of main_c_16) main_call2.v7 (sitofp .f32),
    StableHlo.TRef.nullary main_call2.cst_1 (constant S_ .f32 0x47435000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S50000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b),
    StableHlo.unary main_v84 main_v86 (broadcastInDim S1x128 ![1] bcast_S128_S1x128_1 : (⟨S128, .f32⟩ : BufTy).Contents (Elt F) → (⟨S1x128, .f32⟩ : BufTy).Contents (Elt F)),
    StableHlo.unary main_v86 main_v87 (broadcastInDim S50000x128 ![0, 1] bcast_S1x128_S50000x128_0_1 : (⟨S1x128, .f32⟩ : BufTy).Contents (Elt F) → (⟨S50000x128, .f32⟩ : BufTy).Contents (Elt F)),
    StableHlo.binary main_v81 main_v87 main_v88 (subf : (⟨S50000x128, .f32⟩ : BufTy).Contents (Elt F) → (⟨S50000x128, .f32⟩ : BufTy).Contents (Elt F) → (⟨S50000x128, .f32⟩ : BufTy).Contents (Elt F)),
    StableHlo.nullary main_cst_17 (constant S_ .f32 0x3727C5AC#32),
    StableHlo.unary main_cst_17 main_v89 (broadcastInDim S128 ![] bcast_S_S128 : (⟨S_, .f32⟩ : BufTy).Contents (Elt F) → (⟨S128, .f32⟩ : BufTy).Contents (Elt F)),
    StableHlo.binary main_v85 main_v89 main_v90 (addf : (⟨S128, .f32⟩ : BufTy).Contents (Elt F) → (⟨S128, .f32⟩ : BufTy).Contents (Elt F) → (⟨S128, .f32⟩ : BufTy).Contents (Elt F)),
    StableHlo.unary main_v90 main_v91 (Host.rsqrt : (⟨S128, .f32⟩ : BufTy).Contents (Elt F) → (⟨S128, .f32⟩ : BufTy).Contents (Elt F)),
    StableHlo.unary main_v91 main_v92 (broadcastInDim S1x128 ![1] bcast_S128_S1x128_1 : (⟨S128, .f32⟩ : BufTy).Contents (Elt F) → (⟨S1x128, .f32⟩ : BufTy).Contents (Elt F)),
    StableHlo.unary main_v92 main_v93 (broadcastInDim S50000x128 ![0, 1] bcast_S1x128_S50000x128_0_1 : (⟨S1x128, .f32⟩ : BufTy).Contents (Elt F) → (⟨S50000x128, .f32⟩ : BufTy).Contents (Elt F)),
    StableHlo.binary main_v88 main_v93 main_v94 (mulf : (⟨S50000x128, .f32⟩ : BufTy).Contents (Elt F) → (⟨S50000x128, .f32⟩ : BufTy).Contents (Elt F) → (⟨S50000x128, .f32⟩ : BufTy).Contents (Elt F)),
    StableHlo.unary main_arg14 main_v95 (broadcastInDim S1x128 ![1] bcast_S128_S1x128_1 : (⟨S128, .f32⟩ : BufTy).Contents (Elt F) → (⟨S1x128, .f32⟩ : BufTy).Contents (Elt F)),
    StableHlo.unary main_v95 main_v96 (broadcastInDim S50000x128 ![0, 1] bcast_S1x128_S50000x128_0_1 : (⟨S1x128, .f32⟩ : BufTy).Contents (Elt F) → (⟨S50000x128, .f32⟩ : BufTy).Contents (Elt F)),
    StableHlo.binary main_v94 main_v96 main_v97 (mulf : (⟨S50000x128, .f32⟩ : BufTy).Contents (Elt F) → (⟨S50000x128, .f32⟩ : BufTy).Contents (Elt F) → (⟨S50000x128, .f32⟩ : BufTy).Contents (Elt F)),
    StableHlo.unary main_arg15 main_v98 (broadcastInDim S1x128 ![1] bcast_S128_S1x128_1 : (⟨S128, .f32⟩ : BufTy).Contents (Elt F) → (⟨S1x128, .f32⟩ : BufTy).Contents (Elt F)),
    StableHlo.unary main_v98 main_v99 (broadcastInDim S50000x128 ![0, 1] bcast_S1x128_S50000x128_0_1 : (⟨S1x128, .f32⟩ : BufTy).Contents (Elt F) → (⟨S50000x128, .f32⟩ : BufTy).Contents (Elt F)),
    StableHlo.binary main_v97 main_v99 main_v100 (addf : (⟨S50000x128, .f32⟩ : BufTy).Contents (Elt F) → (⟨S50000x128, .f32⟩ : BufTy).Contents (Elt F) → (⟨S50000x128, .f32⟩ : BufTy).Contents (Elt F)),
    StableHlo.nullary main_cst_18 (constant S_ .f32 0x00000000#32),
    StableHlo.unary main_cst_18 main_v101 (broadcastInDim S50000x128 ![] bcast_S_S50000x128 : (⟨S_, .f32⟩ : BufTy).Contents (Elt F) → (⟨S50000x128, .f32⟩ : BufTy).Contents (Elt F)),
    StableHlo.binary main_v100 main_v101 main_v102 (maximumf : (⟨S50000x128, .f32⟩ : BufTy).Contents (Elt F) → (⟨S50000x128, .f32⟩ : BufTy).Contents (Elt F) → (⟨S50000x128, .f32⟩ : BufTy).Contents (Elt F)) ]

/-- Stage 6's operations. -/
abbrev st6 : List (HloOp τ sig (Elt F)) :=
  [ StableHlo.nullary main_c_19 (constantI S_ 32 0#32),
    StableHlo.unary main_c_19 main_v103 (broadcastInDim S800000 ![] bcast_S_S800000 : (⟨S_, .i32⟩ : BufTy).Contents (Elt F) → (⟨S800000, .i32⟩ : BufTy).Contents (Elt F)),
    StableHlo.binary main_v1 main_v103 main_v104 (cmpi .slt : (⟨S800000, .i32⟩ : BufTy).Contents (Elt F) → (⟨S800000, .i32⟩ : BufTy).Contents (Elt F) → (⟨S800000, .i1⟩ : BufTy).Contents (Elt F)),
    StableHlo.nullary main_c_20 (constantI S_ 32 50000#32),
    StableHlo.unary main_c_20 main_v105 (broadcastInDim S800000 ![] bcast_S_S800000 : (⟨S_, .i32⟩ : BufTy).Contents (Elt F) → (⟨S800000, .i32⟩ : BufTy).Contents (Elt F)),
    StableHlo.binary main_v1 main_v105 main_v106 (addi : (⟨S800000, .i32⟩ : BufTy).Contents (Elt F) → (⟨S800000, .i32⟩ : BufTy).Contents (Elt F) → (⟨S800000, .i32⟩ : BufTy).Contents (Elt F)),
    StableHlo.ternary main_v104 main_v106 main_v1 main_v107 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v107 main_v108 (broadcastInDim S800000x1 ![0] bcast_S800000_S800000x1_0 : (⟨S800000, .i32⟩ : BufTy).Contents (Elt F) → (⟨S800000x1, .i32⟩ : BufTy).Contents (Elt F)),
    StableHlo.binary main_v102 main_v108 main_v109 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_21 (constant S_ .f32 0x00000000#32),
    StableHlo.unary main_cst_21 main_v110 (broadcastInDim S50000x128 ![] bcast_S_S50000x128 : (⟨S_, .f32⟩ : BufTy).Contents (Elt F) → (⟨S50000x128, .f32⟩ : BufTy).Contents (Elt F)),
    StableHlo.unary main_v3 main_v111 (broadcastInDim S800000x1 ![0] bcast_S800000_S800000x1_0 : (⟨S800000, .i32⟩ : BufTy).Contents (Elt F) → (⟨S800000x1, .i32⟩ : BufTy).Contents (Elt F)),
    StableHlo.ternary main_v110 main_v111 main_v109 main_v112 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.binary main_v112 main_arg16 main_v113 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    StableHlo.unary main_arg17 main_v114 (broadcastInDim S1x64 ![1] bcast_S64_S1x64_1 : (⟨S64, .f32⟩ : BufTy).Contents (Elt F) → (⟨S1x64, .f32⟩ : BufTy).Contents (Elt F)),
    StableHlo.unary main_v114 main_v115 (broadcastInDim S50000x64 ![0, 1] bcast_S1x64_S50000x64_0_1 : (⟨S1x64, .f32⟩ : BufTy).Contents (Elt F) → (⟨S50000x64, .f32⟩ : BufTy).Contents (Elt F)),
    StableHlo.binary main_v113 main_v115 main_v116 (addf : (⟨S50000x64, .f32⟩ : BufTy).Contents (Elt F) → (⟨S50000x64, .f32⟩ : BufTy).Contents (Elt F) → (⟨S50000x64, .f32⟩ : BufTy).Contents (Elt F)),
    StableHlo.binary main_v102 main_arg18 main_v117 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    StableHlo.binary main_v116 main_v117 main_v118 (addf : (⟨S50000x64, .f32⟩ : BufTy).Contents (Elt F) → (⟨S50000x64, .f32⟩ : BufTy).Contents (Elt F) → (⟨S50000x64, .f32⟩ : BufTy).Contents (Elt F)) ]

/-- Stage 7's operations. -/
abbrev st7 : List (HloOp τ sig (Elt F)) :=
  [ StableHlo.nullary main_cst_22 (constant S_ .f32 0x00000000#32),
    StableHlo.binary main_v118 main_cst_22 main_v119 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_23 (constant S_ .f32 0x47435000#32),
    StableHlo.unary main_cst_23 main_v120 (broadcastInDim S64 ![] bcast_S_S64 : (⟨S_, .f32⟩ : BufTy).Contents (Elt F) → (⟨S64, .f32⟩ : BufTy).Contents (Elt F)),
    StableHlo.binary main_v119 main_v120 main_v121 (Host.divf : (⟨S64, .f32⟩ : BufTy).Contents (Elt F) → (⟨S64, .f32⟩ : BufTy).Contents (Elt F) → (⟨S64, .f32⟩ : BufTy).Contents (Elt F)),
    StableHlo.nullary main_c_24 (constantI S_ 32 0#32),
    StableHlo.TRef.nullary main_call3.cst (constant S_ .f32 0x00000000#32),
    StableHlo.TRef.binary (.of main_v118) main_call3.cst main_call3.v0 (fun x v => Host.reduceAdd x v reducesTo_S50000x64_S64_d0 h_S_),
    StableHlo.TRef.unary main_call3.v0 main_call3.v1 (broadcastInDim S1x64 ![1] bcast_S64_S1x64_1),
    StableHlo.TRef.nullary main_call3.cst_0 (constant S_ .f32 0x47435000#32),
    StableHlo.TRef.unary main_call3.cst_0 main_call3.v2 (broadcastInDim S1x64 ![] bcast_S_S1x64),
    StableHlo.TRef.binary main_call3.v1 main_call3.v2 main_call3.v3 Host.divf,
    StableHlo.TRef.unary main_call3.v3 main_call3.v4 (broadcastInDim S50000x64 ![0, 1] bcast_S1x64_S50000x64_0_1),
    StableHlo.TRef.binary (.of main_v118) main_call3.v4 main_call3.v5 subf,
    StableHlo.TRef.binary main_call3.v5 main_call3.v5 main_call3.v6 mulf,
    StableHlo.TRef.unary (.of main_c_24) main_call3.v7 (sitofp .f32),
    StableHlo.TRef.nullary main_call3.cst_1 (constant S_ .f32 0x47435000#32),
    StableHlo.TRef.binary main_call3.cst_1 main_call3.v7 main_call3.v8 subf,
    StableHlo.TRef.nullary main_call3.cst_2 (constant S_ .f32 0x00000000#32),
    StableHlo.TRef.binary main_call3.v6 main_call3.cst_2 main_call3.v9 (fun x v => Host.reduceAdd x v reducesTo_S50000x64_S64_d0 h_S_),
    StableHlo.TRef.unary main_call3.v8 main_call3.v10 (broadcastInDim S64 ![] bcast_S_S64),
    StableHlo.TRef.binary main_call3.v9 main_call3.v10 main_call3.v11 Host.divf,
    StableHlo.TRef.nullary main_call3.cst_3 (constant S_ .f32 0x00000000#32),
    StableHlo.TRef.binary main_call3.v8 main_call3.cst_3 main_call3.v12 (cmpf .ogt),
    StableHlo.TRef.nullary main_call3.cst_4 (constant S_ .f32 0x7FC00000#32),
    StableHlo.TRef.unary main_call3.cst_4 main_call3.call0.v0 id,
    StableHlo.TRef.unary main_call3.call0.v0 main_call3.call0.v1 (broadcastInDim S64 ![] bcast_S_S64),
    StableHlo.TRef.ternary main_call3.v12 main_call3.v11 main_call3.call0.v1 main_call3.call0.v2 (fun p a b => select (broadcastInDim S64 ![] bcast_S_S64 p) a b),
    StableHlo.unary main_v121 main_v123 (broadcastInDim S1x64 ![1] bcast_S64_S1x64_1 : (⟨S64, .f32⟩ : BufTy).Contents (Elt F) → (⟨S1x64, .f32⟩ : BufTy).Contents (Elt F)),
    StableHlo.unary main_v123 main_v124 (broadcastInDim S50000x64 ![0, 1] bcast_S1x64_S50000x64_0_1 : (⟨S1x64, .f32⟩ : BufTy).Contents (Elt F) → (⟨S50000x64, .f32⟩ : BufTy).Contents (Elt F)),
    StableHlo.binary main_v118 main_v124 main_v125 (subf : (⟨S50000x64, .f32⟩ : BufTy).Contents (Elt F) → (⟨S50000x64, .f32⟩ : BufTy).Contents (Elt F) → (⟨S50000x64, .f32⟩ : BufTy).Contents (Elt F)),
    StableHlo.nullary main_cst_25 (constant S_ .f32 0x3727C5AC#32),
    StableHlo.unary main_cst_25 main_v126 (broadcastInDim S64 ![] bcast_S_S64 : (⟨S_, .f32⟩ : BufTy).Contents (Elt F) → (⟨S64, .f32⟩ : BufTy).Contents (Elt F)),
    StableHlo.binary main_v122 main_v126 main_v127 (addf : (⟨S64, .f32⟩ : BufTy).Contents (Elt F) → (⟨S64, .f32⟩ : BufTy).Contents (Elt F) → (⟨S64, .f32⟩ : BufTy).Contents (Elt F)),
    StableHlo.unary main_v127 main_v128 (Host.rsqrt : (⟨S64, .f32⟩ : BufTy).Contents (Elt F) → (⟨S64, .f32⟩ : BufTy).Contents (Elt F)),
    StableHlo.unary main_v128 main_v129 (broadcastInDim S1x64 ![1] bcast_S64_S1x64_1 : (⟨S64, .f32⟩ : BufTy).Contents (Elt F) → (⟨S1x64, .f32⟩ : BufTy).Contents (Elt F)),
    StableHlo.unary main_v129 main_v130 (broadcastInDim S50000x64 ![0, 1] bcast_S1x64_S50000x64_0_1 : (⟨S1x64, .f32⟩ : BufTy).Contents (Elt F) → (⟨S50000x64, .f32⟩ : BufTy).Contents (Elt F)),
    StableHlo.binary main_v125 main_v130 main_v131 (mulf : (⟨S50000x64, .f32⟩ : BufTy).Contents (Elt F) → (⟨S50000x64, .f32⟩ : BufTy).Contents (Elt F) → (⟨S50000x64, .f32⟩ : BufTy).Contents (Elt F)),
    StableHlo.unary main_arg19 main_v132 (broadcastInDim S1x64 ![1] bcast_S64_S1x64_1 : (⟨S64, .f32⟩ : BufTy).Contents (Elt F) → (⟨S1x64, .f32⟩ : BufTy).Contents (Elt F)),
    StableHlo.unary main_v132 main_v133 (broadcastInDim S50000x64 ![0, 1] bcast_S1x64_S50000x64_0_1 : (⟨S1x64, .f32⟩ : BufTy).Contents (Elt F) → (⟨S50000x64, .f32⟩ : BufTy).Contents (Elt F)),
    StableHlo.binary main_v131 main_v133 main_v134 (mulf : (⟨S50000x64, .f32⟩ : BufTy).Contents (Elt F) → (⟨S50000x64, .f32⟩ : BufTy).Contents (Elt F) → (⟨S50000x64, .f32⟩ : BufTy).Contents (Elt F)),
    StableHlo.unary main_arg20 main_v135 (broadcastInDim S1x64 ![1] bcast_S64_S1x64_1 : (⟨S64, .f32⟩ : BufTy).Contents (Elt F) → (⟨S1x64, .f32⟩ : BufTy).Contents (Elt F)),
    StableHlo.unary main_v135 main_v136 (broadcastInDim S50000x64 ![0, 1] bcast_S1x64_S50000x64_0_1 : (⟨S1x64, .f32⟩ : BufTy).Contents (Elt F) → (⟨S50000x64, .f32⟩ : BufTy).Contents (Elt F)),
    StableHlo.binary main_v134 main_v136 main_v137 (addf : (⟨S50000x64, .f32⟩ : BufTy).Contents (Elt F) → (⟨S50000x64, .f32⟩ : BufTy).Contents (Elt F) → (⟨S50000x64, .f32⟩ : BufTy).Contents (Elt F)),
    StableHlo.nullary main_cst_26 (constant S_ .f32 0x00000000#32),
    StableHlo.unary main_cst_26 main_v138 (broadcastInDim S50000x64 ![] bcast_S_S50000x64 : (⟨S_, .f32⟩ : BufTy).Contents (Elt F) → (⟨S50000x64, .f32⟩ : BufTy).Contents (Elt F)),
    StableHlo.binary main_v137 main_v138 main_v139 (maximumf : (⟨S50000x64, .f32⟩ : BufTy).Contents (Elt F) → (⟨S50000x64, .f32⟩ : BufTy).Contents (Elt F) → (⟨S50000x64, .f32⟩ : BufTy).Contents (Elt F)) ]

/-- Stage 8's operations. -/
abbrev st8 : List (HloOp τ sig (Elt F)) :=
  [ StableHlo.nullary main_c_27 (constantI S_ 32 0#32),
    StableHlo.unary main_c_27 main_v140 (broadcastInDim S800000 ![] bcast_S_S800000 : (⟨S_, .i32⟩ : BufTy).Contents (Elt F) → (⟨S800000, .i32⟩ : BufTy).Contents (Elt F)),
    StableHlo.binary main_v1 main_v140 main_v141 (cmpi .slt : (⟨S800000, .i32⟩ : BufTy).Contents (Elt F) → (⟨S800000, .i32⟩ : BufTy).Contents (Elt F) → (⟨S800000, .i1⟩ : BufTy).Contents (Elt F)),
    StableHlo.nullary main_c_28 (constantI S_ 32 50000#32),
    StableHlo.unary main_c_28 main_v142 (broadcastInDim S800000 ![] bcast_S_S800000 : (⟨S_, .i32⟩ : BufTy).Contents (Elt F) → (⟨S800000, .i32⟩ : BufTy).Contents (Elt F)),
    StableHlo.binary main_v1 main_v142 main_v143 (addi : (⟨S800000, .i32⟩ : BufTy).Contents (Elt F) → (⟨S800000, .i32⟩ : BufTy).Contents (Elt F) → (⟨S800000, .i32⟩ : BufTy).Contents (Elt F)),
    StableHlo.ternary main_v141 main_v143 main_v1 main_v144 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v144 main_v145 (broadcastInDim S800000x1 ![0] bcast_S800000_S800000x1_0 : (⟨S800000, .i32⟩ : BufTy).Contents (Elt F) → (⟨S800000x1, .i32⟩ : BufTy).Contents (Elt F)),
    StableHlo.binary main_v139 main_v145 main_v146 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.nullary main_cst_29 (constant S_ .f32 0x00000000#32),
    StableHlo.unary main_cst_29 main_v147 (broadcastInDim S50000x64 ![] bcast_S_S50000x64 : (⟨S_, .f32⟩ : BufTy).Contents (Elt F) → (⟨S50000x64, .f32⟩ : BufTy).Contents (Elt F)),
    StableHlo.unary main_v3 main_v148 (broadcastInDim S800000x1 ![0] bcast_S800000_S800000x1_0 : (⟨S800000, .i32⟩ : BufTy).Contents (Elt F) → (⟨S800000x1, .i32⟩ : BufTy).Contents (Elt F)),
    StableHlo.ternary main_v147 main_v148 main_v146 main_v149 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    StableHlo.binary main_v149 main_arg21 main_v150 ((fun l r => Host.dotGeneral dot_S50000x64_S64x32_S50000x32_1_0_0_1_n_n none l r) : (⟨S50000x64, .f32⟩ : BufTy).Contents (Elt F) → (⟨S64x32, .f32⟩ : BufTy).Contents (Elt F) → (⟨S50000x32, .f32⟩ : BufTy).Contents (Elt F)),
    StableHlo.unary main_arg22 main_v151 (broadcastInDim S1x32 ![1] bcast_S32_S1x32_1 : (⟨S32, .f32⟩ : BufTy).Contents (Elt F) → (⟨S1x32, .f32⟩ : BufTy).Contents (Elt F)),
    StableHlo.unary main_v151 main_v152 (broadcastInDim S50000x32 ![0, 1] bcast_S1x32_S50000x32_0_1 : (⟨S1x32, .f32⟩ : BufTy).Contents (Elt F) → (⟨S50000x32, .f32⟩ : BufTy).Contents (Elt F)),
    StableHlo.binary main_v150 main_v152 main_v153 (addf : (⟨S50000x32, .f32⟩ : BufTy).Contents (Elt F) → (⟨S50000x32, .f32⟩ : BufTy).Contents (Elt F) → (⟨S50000x32, .f32⟩ : BufTy).Contents (Elt F)),
    StableHlo.binary main_v139 main_arg23 main_v154 ((fun l r => Host.dotGeneral dot_S50000x64_S64x32_S50000x32_1_0_0_1_n_n none l r) : (⟨S50000x64, .f32⟩ : BufTy).Contents (Elt F) → (⟨S64x32, .f32⟩ : BufTy).Contents (Elt F) → (⟨S50000x32, .f32⟩ : BufTy).Contents (Elt F)),
    StableHlo.binary main_v153 main_v154 main_v155 (addf : (⟨S50000x32, .f32⟩ : BufTy).Contents (Elt F) → (⟨S50000x32, .f32⟩ : BufTy).Contents (Elt F) → (⟨S50000x32, .f32⟩ : BufTy).Contents (Elt F)) ]

/-- Stage 9's operations. -/
abbrev st9 : List (HloOp τ sig (Elt F)) :=
  [ StableHlo.nullary main_cst_30 (constant S_ .f32 0x00000000#32),
    StableHlo.binary main_v155 main_cst_30 main_v156 ((fun x v => Host.reduceAdd x v reducesTo_S50000x32_S32_d0 h_S_) : (⟨S50000x32, .f32⟩ : BufTy).Contents (Elt F) → (⟨S_, .f32⟩ : BufTy).Contents (Elt F) → (⟨S32, .f32⟩ : BufTy).Contents (Elt F)),
    StableHlo.nullary main_cst_31 (constant S_ .f32 0x47435000#32),
    StableHlo.unary main_cst_31 main_v157 (broadcastInDim S32 ![] bcast_S_S32 : (⟨S_, .f32⟩ : BufTy).Contents (Elt F) → (⟨S32, .f32⟩ : BufTy).Contents (Elt F)),
    StableHlo.binary main_v156 main_v157 main_v158 (Host.divf : (⟨S32, .f32⟩ : BufTy).Contents (Elt F) → (⟨S32, .f32⟩ : BufTy).Contents (Elt F) → (⟨S32, .f32⟩ : BufTy).Contents (Elt F)),
    StableHlo.nullary main_c_32 (constantI S_ 32 0#32),
    StableHlo.TRef.nullary main_call4.cst (constant S_ .f32 0x00000000#32),
    StableHlo.TRef.binary (.of main_v155) main_call4.cst main_call4.v0 (fun x v => Host.reduceAdd x v reducesTo_S50000x32_S32_d0 h_S_),
    StableHlo.TRef.unary main_call4.v0 main_call4.v1 (broadcastInDim S1x32 ![1] bcast_S32_S1x32_1),
    StableHlo.TRef.nullary main_call4.cst_0 (constant S_ .f32 0x47435000#32),
    StableHlo.TRef.unary main_call4.cst_0 main_call4.v2 (broadcastInDim S1x32 ![] bcast_S_S1x32),
    StableHlo.TRef.binary main_call4.v1 main_call4.v2 main_call4.v3 Host.divf,
    StableHlo.TRef.unary main_call4.v3 main_call4.v4 (broadcastInDim S50000x32 ![0, 1] bcast_S1x32_S50000x32_0_1),
    StableHlo.TRef.binary (.of main_v155) main_call4.v4 main_call4.v5 subf,
    StableHlo.TRef.binary main_call4.v5 main_call4.v5 main_call4.v6 mulf,
    StableHlo.TRef.unary (.of main_c_32) main_call4.v7 (sitofp .f32),
    StableHlo.TRef.nullary main_call4.cst_1 (constant S_ .f32 0x47435000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S50000x32_S32_d0 h_S_),
    StableHlo.TRef.unary main_call4.v8 main_call4.v10 (broadcastInDim S32 ![] bcast_S_S32),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S32 ![] bcast_S_S32),
    StableHlo.TRef.ternary main_call4.v12 main_call4.v11 main_call4.call0.v1 main_call4.call0.v2 (fun p a b => select (broadcastInDim S32 ![] bcast_S_S32 p) a b),
    StableHlo.unary main_v158 main_v160 (broadcastInDim S1x32 ![1] bcast_S32_S1x32_1 : (⟨S32, .f32⟩ : BufTy).Contents (Elt F) → (⟨S1x32, .f32⟩ : BufTy).Contents (Elt F)),
    StableHlo.unary main_v160 main_v161 (broadcastInDim S50000x32 ![0, 1] bcast_S1x32_S50000x32_0_1 : (⟨S1x32, .f32⟩ : BufTy).Contents (Elt F) → (⟨S50000x32, .f32⟩ : BufTy).Contents (Elt F)),
    StableHlo.binary main_v155 main_v161 main_v162 (subf : (⟨S50000x32, .f32⟩ : BufTy).Contents (Elt F) → (⟨S50000x32, .f32⟩ : BufTy).Contents (Elt F) → (⟨S50000x32, .f32⟩ : BufTy).Contents (Elt F)),
    StableHlo.nullary main_cst_33 (constant S_ .f32 0x3727C5AC#32),
    StableHlo.unary main_cst_33 main_v163 (broadcastInDim S32 ![] bcast_S_S32 : (⟨S_, .f32⟩ : BufTy).Contents (Elt F) → (⟨S32, .f32⟩ : BufTy).Contents (Elt F)),
    StableHlo.binary main_v159 main_v163 main_v164 (addf : (⟨S32, .f32⟩ : BufTy).Contents (Elt F) → (⟨S32, .f32⟩ : BufTy).Contents (Elt F) → (⟨S32, .f32⟩ : BufTy).Contents (Elt F)),
    StableHlo.unary main_v164 main_v165 (Host.rsqrt : (⟨S32, .f32⟩ : BufTy).Contents (Elt F) → (⟨S32, .f32⟩ : BufTy).Contents (Elt F)),
    StableHlo.unary main_v165 main_v166 (broadcastInDim S1x32 ![1] bcast_S32_S1x32_1 : (⟨S32, .f32⟩ : BufTy).Contents (Elt F) → (⟨S1x32, .f32⟩ : BufTy).Contents (Elt F)),
    StableHlo.unary main_v166 main_v167 (broadcastInDim S50000x32 ![0, 1] bcast_S1x32_S50000x32_0_1 : (⟨S1x32, .f32⟩ : BufTy).Contents (Elt F) → (⟨S50000x32, .f32⟩ : BufTy).Contents (Elt F)),
    StableHlo.binary main_v162 main_v167 main_v168 (mulf : (⟨S50000x32, .f32⟩ : BufTy).Contents (Elt F) → (⟨S50000x32, .f32⟩ : BufTy).Contents (Elt F) → (⟨S50000x32, .f32⟩ : BufTy).Contents (Elt F)),
    StableHlo.unary main_arg24 main_v169 (broadcastInDim S1x32 ![1] bcast_S32_S1x32_1 : (⟨S32, .f32⟩ : BufTy).Contents (Elt F) → (⟨S1x32, .f32⟩ : BufTy).Contents (Elt F)),
    StableHlo.unary main_v169 main_v170 (broadcastInDim S50000x32 ![0, 1] bcast_S1x32_S50000x32_0_1 : (⟨S1x32, .f32⟩ : BufTy).Contents (Elt F) → (⟨S50000x32, .f32⟩ : BufTy).Contents (Elt F)),
    StableHlo.binary main_v168 main_v170 main_v171 (mulf : (⟨S50000x32, .f32⟩ : BufTy).Contents (Elt F) → (⟨S50000x32, .f32⟩ : BufTy).Contents (Elt F) → (⟨S50000x32, .f32⟩ : BufTy).Contents (Elt F)),
    StableHlo.unary main_arg25 main_v172 (broadcastInDim S1x32 ![1] bcast_S32_S1x32_1 : (⟨S32, .f32⟩ : BufTy).Contents (Elt F) → (⟨S1x32, .f32⟩ : BufTy).Contents (Elt F)),
    StableHlo.unary main_v172 main_v173 (broadcastInDim S50000x32 ![0, 1] bcast_S1x32_S50000x32_0_1 : (⟨S1x32, .f32⟩ : BufTy).Contents (Elt F) → (⟨S50000x32, .f32⟩ : BufTy).Contents (Elt F)),
    StableHlo.binary main_v171 main_v173 main_v174 (addf : (⟨S50000x32, .f32⟩ : BufTy).Contents (Elt F) → (⟨S50000x32, .f32⟩ : BufTy).Contents (Elt F) → (⟨S50000x32, .f32⟩ : BufTy).Contents (Elt F)),
    StableHlo.nullary main_cst_34 (constant S_ .f32 0x00000000#32),
    StableHlo.unary main_cst_34 main_v175 (broadcastInDim S50000x32 ![] bcast_S_S50000x32 : (⟨S_, .f32⟩ : BufTy).Contents (Elt F) → (⟨S50000x32, .f32⟩ : BufTy).Contents (Elt F)),
    StableHlo.binary main_v174 main_v175 main_v176 (maximumf : (⟨S50000x32, .f32⟩ : BufTy).Contents (Elt F) → (⟨S50000x32, .f32⟩ : BufTy).Contents (Elt F) → (⟨S50000x32, .f32⟩ : BufTy).Contents (Elt F)) ]

/-- Stage 10's operations. -/
abbrev st10 : List (HloOp τ sig (Elt F)) :=
  [ StableHlo.binary main_v176 main_arg26 main_v177 ((fun l r => Host.dotGeneral dot_S50000x32_S32x16_S50000x16_1_0_0_1_n_n none l r) : (⟨S50000x32, .f32⟩ : BufTy).Contents (Elt F) → (⟨S32x16, .f32⟩ : BufTy).Contents (Elt F) → (⟨S50000x16, .f32⟩ : BufTy).Contents (Elt F)),
    StableHlo.unary main_arg27 main_v178 (broadcastInDim S1x16 ![1] bcast_S16_S1x16_1 : (⟨S16, .f32⟩ : BufTy).Contents (Elt F) → (⟨S1x16, .f32⟩ : BufTy).Contents (Elt F)),
    StableHlo.unary main_v178 main_v179 (broadcastInDim S50000x16 ![0, 1] bcast_S1x16_S50000x16_0_1 : (⟨S1x16, .f32⟩ : BufTy).Contents (Elt F) → (⟨S50000x16, .f32⟩ : BufTy).Contents (Elt F)),
    StableHlo.binary main_v177 main_v179 main_v180 (addf : (⟨S50000x16, .f32⟩ : BufTy).Contents (Elt F) → (⟨S50000x16, .f32⟩ : BufTy).Contents (Elt F) → (⟨S50000x16, .f32⟩ : BufTy).Contents (Elt F)),
    StableHlo.nullary main_cst_35 (constant S_ .f32 0x00000000#32),
    StableHlo.unary main_cst_35 main_v181 (broadcastInDim S50000x16 ![] bcast_S_S50000x16 : (⟨S_, .f32⟩ : BufTy).Contents (Elt F) → (⟨S50000x16, .f32⟩ : BufTy).Contents (Elt F)),
    StableHlo.binary main_v180 main_v181 main_v182 (maximumf : (⟨S50000x16, .f32⟩ : BufTy).Contents (Elt F) → (⟨S50000x16, .f32⟩ : BufTy).Contents (Elt F) → (⟨S50000x16, .f32⟩ : BufTy).Contents (Elt F)),
    StableHlo.binary main_v182 main_arg28 main_v183 ((fun l r => Host.dotGeneral dot_S50000x16_S16x2_S50000x2_1_0_0_1_n_n none l r) : (⟨S50000x16, .f32⟩ : BufTy).Contents (Elt F) → (⟨S16x2, .f32⟩ : BufTy).Contents (Elt F) → (⟨S50000x2, .f32⟩ : BufTy).Contents (Elt F)),
    StableHlo.unary main_arg29 main_v184 (broadcastInDim S1x2 ![1] bcast_S2_S1x2_1 : (⟨S2, .f32⟩ : BufTy).Contents (Elt F) → (⟨S1x2, .f32⟩ : BufTy).Contents (Elt F)),
    StableHlo.unary main_v184 main_v185 (broadcastInDim S50000x2 ![0, 1] bcast_S1x2_S50000x2_0_1 : (⟨S1x2, .f32⟩ : BufTy).Contents (Elt F) → (⟨S50000x2, .f32⟩ : BufTy).Contents (Elt F)),
    StableHlo.binary main_v183 main_v185 main_v186 (addf : (⟨S50000x2, .f32⟩ : BufTy).Contents (Elt F) → (⟨S50000x2, .f32⟩ : BufTy).Contents (Elt F) → (⟨S50000x2, .f32⟩ : BufTy).Contents (Elt F)) ]

theorem ops_split : (ops : List (HloOp τ sig (Elt F))) = st0 ++ (st1 ++ (st2 ++ (st3 ++ (st4 ++ (st5 ++ (st6 ++ (st7 ++ (st8 ++ (st9 ++ st10))))))))) := rfl

/-- The buffers stage 0 writes. -/
abbrev wrS0 : List (Ref sig .tc) := [main_v0, main_v1, main_v2, main_v3, main_v4, main_v5, main_v6, main_v7, main_cst, main_v8, main_v9]

theorem writesS0 : (st0 : List (HloOp τ sig (Elt F))).Forall fun op => op.writes ⊆ (wrS0.map (Proc.devRef (τ := τ) .tc)).toFinset := by
  simp only [st0, List.Forall, StableHlo.TRef.nullary, StableHlo.TRef.unary, StableHlo.TRef.binary, StableHlo.TRef.ternary,
    StableHlo.nullary_writes, StableHlo.unary_writes, StableHlo.binary_writes,
    StableHlo.ternary_writes, StableHlo.reshape_writes, Finset.singleton_subset_iff, List.mem_toFinset, List.mem_map]
  repeat' apply And.intro
  all_goals exact ⟨_, by decide, rfl⟩

/-- A buffer stage 0 does not write is the same after it as before. -/
theorem keepS0 (W : Valuation τ sig (Elt F)) (b : Ref sig .tc) (hb : b ∉ wrS0) :
    after st0 W (Proc.devRef .tc b) = W (Proc.devRef .tc b) :=
  after_of_writes_sub st0 W writesS0 hb

/-- The buffers stage 1 writes. -/
abbrev wrS1 : List (Ref sig .tc) := [main_cst_0, main_v10, main_cst_1, main_v11, main_v12, main_c, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v13, main_v14, main_v15, main_v16, main_cst_2, main_v17, main_v18, main_v19, main_v20, main_v21, main_v22, main_v23, main_v24, main_v25, main_v26, main_v27, main_v28]

theorem writesS1 : (st1 : List (HloOp τ sig (Elt F))).Forall fun op => op.writes ⊆ (wrS1.map (Proc.devRef (τ := τ) .tc)).toFinset := by
  simp only [st1, List.Forall, StableHlo.TRef.nullary, StableHlo.TRef.unary, StableHlo.TRef.binary, StableHlo.TRef.ternary,
    StableHlo.nullary_writes, StableHlo.unary_writes, StableHlo.binary_writes,
    StableHlo.ternary_writes, StableHlo.reshape_writes, Finset.singleton_subset_iff, List.mem_toFinset, List.mem_map]
  repeat' apply And.intro
  all_goals exact ⟨_, by decide, rfl⟩

/-- A buffer stage 1 does not write is the same after it as before. -/
theorem keepS1 (W : Valuation τ sig (Elt F)) (b : Ref sig .tc) (hb : b ∉ wrS1) :
    after st1 W (Proc.devRef .tc b) = W (Proc.devRef .tc b) :=
  after_of_writes_sub st1 W writesS1 hb

/-- The buffers stage 2 writes. -/
abbrev wrS2 : List (Ref sig .tc) := [main_c_3, main_v29, main_v30, main_c_4, main_v31, main_v32, main_v33, main_v34, main_v35, main_cst_5, main_v36, main_v37, main_v38, main_v39, main_v40, main_v41, main_v42, main_v43, main_v44]

theorem writesS2 : (st2 : List (HloOp τ sig (Elt F))).Forall fun op => op.writes ⊆ (wrS2.map (Proc.devRef (τ := τ) .tc)).toFinset := by
  simp only [st2, List.Forall, StableHlo.TRef.nullary, StableHlo.TRef.unary, StableHlo.TRef.binary, StableHlo.TRef.ternary,
    StableHlo.nullary_writes, StableHlo.unary_writes, StableHlo.binary_writes,
    StableHlo.ternary_writes, StableHlo.reshape_writes, Finset.singleton_subset_iff, List.mem_toFinset, List.mem_map]
  repeat' apply And.intro
  all_goals exact ⟨_, by decide, rfl⟩

/-- A buffer stage 2 does not write is the same after it as before. -/
theorem keepS2 (W : Valuation τ sig (Elt F)) (b : Ref sig .tc) (hb : b ∉ wrS2) :
    after st2 W (Proc.devRef .tc b) = W (Proc.devRef .tc b) :=
  after_of_writes_sub st2 W writesS2 hb

/-- The buffers stage 3 writes. -/
abbrev wrS3 : List (Ref sig .tc) := [main_cst_6, main_v45, main_cst_7, main_v46, main_v47, main_c_8, main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v48, main_v49, main_v50, main_v51, main_cst_9, main_v52, main_v53, main_v54, main_v55, main_v56, main_v57, main_v58, main_v59, main_v60, main_v61, main_v62, main_v63, main_cst_10, main_v64, main_v65]

theorem writesS3 : (st3 : List (HloOp τ sig (Elt F))).Forall fun op => op.writes ⊆ (wrS3.map (Proc.devRef (τ := τ) .tc)).toFinset := by
  simp only [st3, List.Forall, StableHlo.TRef.nullary, StableHlo.TRef.unary, StableHlo.TRef.binary, StableHlo.TRef.ternary,
    StableHlo.nullary_writes, StableHlo.unary_writes, StableHlo.binary_writes,
    StableHlo.ternary_writes, StableHlo.reshape_writes, Finset.singleton_subset_iff, List.mem_toFinset, List.mem_map]
  repeat' apply And.intro
  all_goals exact ⟨_, by decide, rfl⟩

/-- A buffer stage 3 does not write is the same after it as before. -/
theorem keepS3 (W : Valuation τ sig (Elt F)) (b : Ref sig .tc) (hb : b ∉ wrS3) :
    after st3 W (Proc.devRef .tc b) = W (Proc.devRef .tc b) :=
  after_of_writes_sub st3 W writesS3 hb

/-- The buffers stage 4 writes. -/
abbrev wrS4 : List (Ref sig .tc) := [main_c_11, main_v66, main_v67, main_c_12, main_v68, main_v69, main_v70, main_v71, main_v72, main_cst_13, main_v73, main_v74, main_v75, main_v76, main_v77, main_v78, main_v79, main_v80, main_v81]

theorem writesS4 : (st4 : List (HloOp τ sig (Elt F))).Forall fun op => op.writes ⊆ (wrS4.map (Proc.devRef (τ := τ) .tc)).toFinset := by
  simp only [st4, List.Forall, StableHlo.TRef.nullary, StableHlo.TRef.unary, StableHlo.TRef.binary, StableHlo.TRef.ternary,
    StableHlo.nullary_writes, StableHlo.unary_writes, StableHlo.binary_writes,
    StableHlo.ternary_writes, StableHlo.reshape_writes, Finset.singleton_subset_iff, List.mem_toFinset, List.mem_map]
  repeat' apply And.intro
  all_goals exact ⟨_, by decide, rfl⟩

/-- A buffer stage 4 does not write is the same after it as before. -/
theorem keepS4 (W : Valuation τ sig (Elt F)) (b : Ref sig .tc) (hb : b ∉ wrS4) :
    after st4 W (Proc.devRef .tc b) = W (Proc.devRef .tc b) :=
  after_of_writes_sub st4 W writesS4 hb

/-- The buffers stage 5 writes. -/
abbrev wrS5 : List (Ref sig .tc) := [main_cst_14, main_v82, main_cst_15, main_v83, main_v84, main_c_16, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v85, main_v86, main_v87, main_v88, main_cst_17, main_v89, main_v90, main_v91, main_v92, main_v93, main_v94, main_v95, main_v96, main_v97, main_v98, main_v99, main_v100, main_cst_18, main_v101, main_v102]

theorem writesS5 : (st5 : List (HloOp τ sig (Elt F))).Forall fun op => op.writes ⊆ (wrS5.map (Proc.devRef (τ := τ) .tc)).toFinset := by
  simp only [st5, List.Forall, StableHlo.TRef.nullary, StableHlo.TRef.unary, StableHlo.TRef.binary, StableHlo.TRef.ternary,
    StableHlo.nullary_writes, StableHlo.unary_writes, StableHlo.binary_writes,
    StableHlo.ternary_writes, StableHlo.reshape_writes, Finset.singleton_subset_iff, List.mem_toFinset, List.mem_map]
  repeat' apply And.intro
  all_goals exact ⟨_, by decide, rfl⟩

/-- A buffer stage 5 does not write is the same after it as before. -/
theorem keepS5 (W : Valuation τ sig (Elt F)) (b : Ref sig .tc) (hb : b ∉ wrS5) :
    after st5 W (Proc.devRef .tc b) = W (Proc.devRef .tc b) :=
  after_of_writes_sub st5 W writesS5 hb

/-- The buffers stage 6 writes. -/
abbrev wrS6 : List (Ref sig .tc) := [main_c_19, main_v103, main_v104, main_c_20, main_v105, main_v106, main_v107, main_v108, main_v109, main_cst_21, main_v110, main_v111, main_v112, main_v113, main_v114, main_v115, main_v116, main_v117, main_v118]

theorem writesS6 : (st6 : List (HloOp τ sig (Elt F))).Forall fun op => op.writes ⊆ (wrS6.map (Proc.devRef (τ := τ) .tc)).toFinset := by
  simp only [st6, List.Forall, StableHlo.TRef.nullary, StableHlo.TRef.unary, StableHlo.TRef.binary, StableHlo.TRef.ternary,
    StableHlo.nullary_writes, StableHlo.unary_writes, StableHlo.binary_writes,
    StableHlo.ternary_writes, StableHlo.reshape_writes, Finset.singleton_subset_iff, List.mem_toFinset, List.mem_map]
  repeat' apply And.intro
  all_goals exact ⟨_, by decide, rfl⟩

/-- A buffer stage 6 does not write is the same after it as before. -/
theorem keepS6 (W : Valuation τ sig (Elt F)) (b : Ref sig .tc) (hb : b ∉ wrS6) :
    after st6 W (Proc.devRef .tc b) = W (Proc.devRef .tc b) :=
  after_of_writes_sub st6 W writesS6 hb

/-- The buffers stage 7 writes. -/
abbrev wrS7 : List (Ref sig .tc) := [main_cst_22, main_v119, main_cst_23, main_v120, main_v121, main_c_24, main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_cst_3, main_call3_v12, main_call3_cst_4, main_call3_call0_v0, main_call3_call0_v1, main_v122, main_v123, main_v124, main_v125, main_cst_25, main_v126, main_v127, main_v128, main_v129, main_v130, main_v131, main_v132, main_v133, main_v134, main_v135, main_v136, main_v137, main_cst_26, main_v138, main_v139]

theorem writesS7 : (st7 : List (HloOp τ sig (Elt F))).Forall fun op => op.writes ⊆ (wrS7.map (Proc.devRef (τ := τ) .tc)).toFinset := by
  simp only [st7, List.Forall, StableHlo.TRef.nullary, StableHlo.TRef.unary, StableHlo.TRef.binary, StableHlo.TRef.ternary,
    StableHlo.nullary_writes, StableHlo.unary_writes, StableHlo.binary_writes,
    StableHlo.ternary_writes, StableHlo.reshape_writes, Finset.singleton_subset_iff, List.mem_toFinset, List.mem_map]
  repeat' apply And.intro
  all_goals exact ⟨_, by decide, rfl⟩

/-- A buffer stage 7 does not write is the same after it as before. -/
theorem keepS7 (W : Valuation τ sig (Elt F)) (b : Ref sig .tc) (hb : b ∉ wrS7) :
    after st7 W (Proc.devRef .tc b) = W (Proc.devRef .tc b) :=
  after_of_writes_sub st7 W writesS7 hb

/-- The buffers stage 8 writes. -/
abbrev wrS8 : List (Ref sig .tc) := [main_c_27, main_v140, main_v141, main_c_28, main_v142, main_v143, main_v144, main_v145, main_v146, main_cst_29, main_v147, main_v148, main_v149, main_v150, main_v151, main_v152, main_v153, main_v154, main_v155]

theorem writesS8 : (st8 : List (HloOp τ sig (Elt F))).Forall fun op => op.writes ⊆ (wrS8.map (Proc.devRef (τ := τ) .tc)).toFinset := by
  simp only [st8, List.Forall, StableHlo.TRef.nullary, StableHlo.TRef.unary, StableHlo.TRef.binary, StableHlo.TRef.ternary,
    StableHlo.nullary_writes, StableHlo.unary_writes, StableHlo.binary_writes,
    StableHlo.ternary_writes, StableHlo.reshape_writes, Finset.singleton_subset_iff, List.mem_toFinset, List.mem_map]
  repeat' apply And.intro
  all_goals exact ⟨_, by decide, rfl⟩

/-- A buffer stage 8 does not write is the same after it as before. -/
theorem keepS8 (W : Valuation τ sig (Elt F)) (b : Ref sig .tc) (hb : b ∉ wrS8) :
    after st8 W (Proc.devRef .tc b) = W (Proc.devRef .tc b) :=
  after_of_writes_sub st8 W writesS8 hb

/-- The buffers stage 9 writes. -/
abbrev wrS9 : List (Ref sig .tc) := [main_cst_30, main_v156, main_cst_31, main_v157, main_v158, main_c_32, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v159, main_v160, main_v161, main_v162, main_cst_33, main_v163, main_v164, main_v165, main_v166, main_v167, main_v168, main_v169, main_v170, main_v171, main_v172, main_v173, main_v174, main_cst_34, main_v175, main_v176]

theorem writesS9 : (st9 : List (HloOp τ sig (Elt F))).Forall fun op => op.writes ⊆ (wrS9.map (Proc.devRef (τ := τ) .tc)).toFinset := by
  simp only [st9, List.Forall, StableHlo.TRef.nullary, StableHlo.TRef.unary, StableHlo.TRef.binary, StableHlo.TRef.ternary,
    StableHlo.nullary_writes, StableHlo.unary_writes, StableHlo.binary_writes,
    StableHlo.ternary_writes, StableHlo.reshape_writes, Finset.singleton_subset_iff, List.mem_toFinset, List.mem_map]
  repeat' apply And.intro
  all_goals exact ⟨_, by decide, rfl⟩

/-- A buffer stage 9 does not write is the same after it as before. -/
theorem keepS9 (W : Valuation τ sig (Elt F)) (b : Ref sig .tc) (hb : b ∉ wrS9) :
    after st9 W (Proc.devRef .tc b) = W (Proc.devRef .tc b) :=
  after_of_writes_sub st9 W writesS9 hb

/-- The buffers stage 10 writes. -/
abbrev wrS10 : List (Ref sig .tc) := [main_v177, main_v178, main_v179, main_v180, main_cst_35, main_v181, main_v182, main_v183, main_v184, main_v185, main_v186]

theorem writesS10 : (st10 : List (HloOp τ sig (Elt F))).Forall fun op => op.writes ⊆ (wrS10.map (Proc.devRef (τ := τ) .tc)).toFinset := by
  simp only [st10, List.Forall, StableHlo.TRef.nullary, StableHlo.TRef.unary, StableHlo.TRef.binary, StableHlo.TRef.ternary,
    StableHlo.nullary_writes, StableHlo.unary_writes, StableHlo.binary_writes,
    StableHlo.ternary_writes, StableHlo.reshape_writes, Finset.singleton_subset_iff, List.mem_toFinset, List.mem_map]
  repeat' apply And.intro
  all_goals exact ⟨_, by decide, rfl⟩

/-- A buffer stage 10 does not write is the same after it as before. -/
theorem keepS10 (W : Valuation τ sig (Elt F)) (b : Ref sig .tc) (hb : b ∉ wrS10) :
    after st10 W (Proc.devRef .tc b) = W (Proc.devRef .tc b) :=
  after_of_writes_sub st10 W writesS10 hb

end Cert.ReferenceIdeal.RefStages

end
-- ==== Proof.LibTRef.lean ====
/-
  Typed references: writing through one and reading back.

  A typed reference is a buffer together with the fact that the buffer's type is a given one; contents at the given type are
  carried to contents of the buffer, and back, along that fact. For any typed reference the round trip is the identity,
  in both orders: the fact is an equation between two types, and along an equation of a type with itself carrying is the
  identity.
-/
import Idealize.ShloMosaic.Lib.StableHlo

namespace Cert.LibTRef

open Idealize.ShloMosaic Idealize.ShloMosaic.StableHlo

variable {sig : RefSig} {Val : EltTy → Type} {T : BufTy}

/-- Carrying contents along an equation of types and back along the same equation is the identity. -/
theorem cast_cast_symm {α β : Type} (h : α = β) (h' : β = α) (v : α) : cast h' (cast h v) = v := by
  subst h; rfl

/-- Contents written through a typed reference read back through it unchanged. -/
theorem ofBuf_toBuf (x : TRef sig T) (v : T.Contents Val) : x.ofBuf (x.toBuf v) = v :=
  cast_cast_symm _ _ v

/-- A buffer's contents read through a typed reference write back through it unchanged. -/
theorem toBuf_ofBuf (x : TRef sig T) (u : x.ref.ty.Contents Val) : x.toBuf (x.ofBuf u) = u :=
  cast_cast_symm _ _ u

end Cert.LibTRef
-- ==== Proof.LibGnnHostVariance.lean ====
/-
  The reference's outlined variance, for any extents, and the two facts about its literals.

  The function subtracts from every entry its column's mean (the column sum over the count, spread back over
  the rows), squares, sums each column, divides by the count minus the degrees-of-freedom correction, and guards
  the quotient by "that divisor is positive". With a zero correction and a positive count the guard selects the
  quotient, which is the mean of the squared deviations.
-/
import Idealize.ShloMosaic.Lib.ValueIdx
import Idealize.ShloMosaic.PureOps.Ideal.Laws
import proofs.«160678_j77988016161089_1_alg».proof.Proof.LibGnnHost
import proofs.«160678_j77988016161089_1_alg».proof.Proof.LibTRef

noncomputable section

namespace Cert.Gnn

open Idealize.ShloMosaic Idealize.ShloMosaic.ValueIdx
open Cert.MatProduct (prod rowOf colOf)
open Cert.LibHostRow

variable {n d : ℕ}

theorem host_var (y : FVec Ideal ⟨2, ![n, d]⟩ .f32) (z1 z2 Nc0 Nd nanc : FVec Ideal ⟨0, ![]⟩ .f32) (p : IVec ⟨0, ![]⟩ 1)
    (h' : (⟨2, ![n, d]⟩ : Shape).ReducesTo [0] ⟨1, ![d]⟩) (hu : 0 < (⟨0, ![]⟩ : Shape).numel)
    (hB1 : (⟨1, ![d]⟩ : Shape).BroadcastsInDim ⟨2, ![1, d]⟩ (![1] : Fin 1 → Fin 2))
    (hB0r : (⟨0, ![]⟩ : Shape).BroadcastsInDim ⟨2, ![1, d]⟩ (![] : Fin 0 → Fin 2))
    (hB2 : (⟨2, ![1, d]⟩ : Shape).BroadcastsInDim ⟨2, ![n, d]⟩ (![0, 1] : Fin 2 → Fin 2))
    (hB0p hB0v hB0v' : (⟨0, ![]⟩ : Shape).BroadcastsInDim ⟨1, ![d]⟩ (![] : Fin 0 → Fin 1))
    (hz1 : ∀ j, z1 j = 0) (hz2 : ∀ j, z2 j = 0) (hp : p ix0 = 1) (hNd : Nd ix0 = Nc0 ix0) :
    rowOfVec (select (broadcastInDim ⟨1, ![d]⟩ ![] hB0p p)
        (Host.divf (Host.reduceAdd (F := Ideal) (φ := .f32)
            (mulf (subf y (broadcastInDim ⟨2, ![n, d]⟩ ![0, 1] hB2 (Host.divf
                (broadcastInDim ⟨2, ![1, d]⟩ ![1] hB1 (Host.reduceAdd (F := Ideal) (φ := .f32) y z1 h' hu))
                (broadcastInDim ⟨2, ![1, d]⟩ ![] hB0r Nc0))))
              (subf y (broadcastInDim ⟨2, ![n, d]⟩ ![0, 1] hB2 (Host.divf
                (broadcastInDim ⟨2, ![1, d]⟩ ![1] hB1 (Host.reduceAdd (F := Ideal) (φ := .f32) y z1 h' hu))
                (broadcastInDim ⟨2, ![1, d]⟩ ![] hB0r Nc0)))))
            z2 h' hu)
          (broadcastInDim ⟨1, ![d]⟩ ![] hB0v Nd))
        (broadcastInDim ⟨1, ![d]⟩ ![] hB0v' nanc))
      = varDev (Nc0 ix0) y := by
  funext i
  have hdev : ∀ r : Fin n, (subf y (broadcastInDim ⟨2, ![n, d]⟩ ![0, 1] hB2 (Host.divf
        (broadcastInDim ⟨2, ![1, d]⟩ ![1] hB1 (Host.reduceAdd (F := Ideal) (φ := .f32) y z1 h' hu))
        (broadcastInDim ⟨2, ![1, d]⟩ ![] hB0r Nc0)))) (ix2 r (colOf i))
      = y (ix2 r (colOf i)) - meanRow (Nc0 ix0) y i := by
    intro r
    rw [subf_apply, rows_apply]
    show _ - Ideal.div (broadcastInDim ⟨2, ![1, d]⟩ ![1] hB1 (Host.reduceAdd (F := Ideal) (φ := .f32) y z1 h' hu) (ix2 0 (colOf i)))
      (broadcastInDim ⟨2, ![1, d]⟩ ![] hB0r Nc0 (ix2 0 (colOf i))) = _
    rw [row_apply, scalar_apply, Cert.LibHostColSum.reduceAdd_col y z1 h' (reduces_of_reducesTo h') hu, hz1, zero_add]
    rfl
  show (if broadcastInDim ⟨1, ![d]⟩ ![] hB0p p (ix1 (colOf i)) = 1 then _ else _) = _
  rw [scalar_apply, if_pos hp]
  show Ideal.div (Host.reduceAdd (F := Ideal) (φ := .f32) _ z2 h' hu (ix1 (colOf i))) (broadcastInDim ⟨1, ![d]⟩ ![] hB0v Nd (ix1 (colOf i))) = _
  rw [Cert.LibHostColSum.reduceAdd_col _ z2 h' (reduces_of_reducesTo h') hu, scalar_apply, hz2, zero_add, hNd]
  unfold varDev
  congr 1
  refine Finset.sum_congr rfl fun r _ => ?_
  rw [mulf_apply, hdev r]

/-- The variance's divisor: the count's literal minus the converted zero correction is the count. -/
theorem var_divisor :
    subf (F := Ideal) (constant (⟨0, ![]⟩ : Shape) .f32 0x47435000#32) (sitofp .f32 (constantI (⟨0, ![]⟩ : Shape) 32 0#32)) ix0
      = Ideal.ofBits .f32 0x47435000#32 := by
  show Ideal.ofBits .f32 0x47435000#32 - (((0#32 : BitVec 32).toInt : ℝ) : EReal) = _
  simp

/-- The variance's guard holds: the divisor is positive. -/
theorem var_guard :
    cmpf (F := Ideal) .ogt (subf (constant (⟨0, ![]⟩ : Shape) .f32 0x47435000#32) (sitofp .f32 (constantI (⟨0, ![]⟩ : Shape) 32 0#32)))
      (constant (⟨0, ![]⟩ : Shape) .f32 0x00000000#32) ix0 = 1 := by
  show Ideal.cmp .ogt (Ideal.ofBits .f32 0x47435000#32 - (((0#32 : BitVec 32).toInt : ℝ) : EReal)) (Ideal.ofBits .f32 0x00000000#32) = 1
  have h1 : Ideal.ofBits .f32 0x47435000#32 = ((50000 : ℝ) : EReal) := by
    simp [Ideal.ofBits, Ideal.ieee, -EReal.coe_mul]; norm_num
  rw [h1, Ideal.ofBits_zero_f32]
  simp [Ideal.cmp]

end Cert.Gnn

end
-- ==== Proof.LibGnnHostStages.lean ====
/-
  Whole stages of the reference in host spelling, for any extents: the floored linear step, batch normalisation
  (with the outlined variance inside) with and without the final floor, the graph convolution's dense step, and
  the output head. Each is the matching stage function of the network.
-/
import Idealize.ShloMosaic.Lib.ValueIdx
import Idealize.ShloMosaic.PureOps.Ideal.Laws
import proofs.«160678_j77988016161089_1_alg».proof.Proof.LibGnnHostVariance

noncomputable section

namespace Cert.Gnn

open Idealize.ShloMosaic Idealize.ShloMosaic.ValueIdx
open Cert.MatProduct (prod rowOf colOf)
open Cert.RowBias (addRow addRowMax)
open Cert.LibHostRow

variable {n k j d : ℕ}

/-- The host's product of two matrices is the matrix product. -/
theorem host_dot (x : FVec Ideal ⟨2, ![n, k]⟩ .f32) (w : FVec Ideal ⟨2, ![k, d]⟩ .f32) (prec : Option ContractPrecision) :
    Host.dotGeneral (DotDims.plain n k d) prec x w = prod x w :=
  Cert.MatProduct.dotGeneral_eq_prod prec .single x w

/-- `max (x · w + spread b, splat z)`. -/
theorem host_lin (x : FVec Ideal ⟨2, ![n, k]⟩ .f32) (w : FVec Ideal ⟨2, ![k, d]⟩ .f32) (b : FVec Ideal ⟨1, ![d]⟩ .f32)
    (zc : FVec Ideal ⟨0, ![]⟩ .f32) (prec : Option ContractPrecision) (h1 : (⟨1, ![d]⟩ : Shape).BroadcastsInDim ⟨2, ![1, d]⟩ (![1] : Fin 1 → Fin 2)) (h2 : (⟨2, ![1, d]⟩ : Shape).BroadcastsInDim ⟨2, ![n, d]⟩ (![0, 1] : Fin 2 → Fin 2)) (h0 : (⟨0, ![]⟩ : Shape).BroadcastsInDim ⟨2, ![n, d]⟩ (![] : Fin 0 → Fin 2)) :
    maximumf (addf (Host.dotGeneral (DotDims.plain n k d) prec x w) (broadcastInDim ⟨2, ![n, d]⟩ ![0, 1] h2 (broadcastInDim ⟨2, ![1, d]⟩ ![1] h1 b)))
        (broadcastInDim ⟨2, ![n, d]⟩ ![] h0 zc) = addRowMax (prod x w) (rowOfVec b) (zc ix0) := by
  rw [host_dot, host_addRowMax]

/-- `(a · wrel + spread brel) + h · wroot`. -/
theorem host_conv (a h : FVec Ideal ⟨2, ![n, k]⟩ .f32) (wrel wroot : FVec Ideal ⟨2, ![k, d]⟩ .f32) (brel : FVec Ideal ⟨1, ![d]⟩ .f32)
    (prec : Option ContractPrecision) (h1 : (⟨1, ![d]⟩ : Shape).BroadcastsInDim ⟨2, ![1, d]⟩ (![1] : Fin 1 → Fin 2)) (h2 : (⟨2, ![1, d]⟩ : Shape).BroadcastsInDim ⟨2, ![n, d]⟩ (![0, 1] : Fin 2 → Fin 2)) :
    addf (addf (Host.dotGeneral (DotDims.plain n k d) prec a wrel) (broadcastInDim ⟨2, ![n, d]⟩ ![0, 1] h2 (broadcastInDim ⟨2, ![1, d]⟩ ![1] h1 brel)))
        (Host.dotGeneral (DotDims.plain n k d) prec h wroot) = conv a wrel (rowOfVec brel) h wroot := by
  rw [host_dot, host_dot, host_addRow]
  funext i
  rw [addf_apply]
  rfl

/-- `max (x · w1 + spread b1, splat z) · w2 + spread b2`. -/
theorem host_head (x : FVec Ideal ⟨2, ![n, k]⟩ .f32) (w1 : FVec Ideal ⟨2, ![k, j]⟩ .f32) (b1 : FVec Ideal ⟨1, ![j]⟩ .f32)
    (w2 : FVec Ideal ⟨2, ![j, d]⟩ .f32) (b2 : FVec Ideal ⟨1, ![d]⟩ .f32) (zc : FVec Ideal ⟨0, ![]⟩ .f32)
    (prec : Option ContractPrecision)
    (g1 : (⟨1, ![j]⟩ : Shape).BroadcastsInDim ⟨2, ![1, j]⟩ (![1] : Fin 1 → Fin 2))
    (g2 : (⟨2, ![1, j]⟩ : Shape).BroadcastsInDim ⟨2, ![n, j]⟩ (![0, 1] : Fin 2 → Fin 2))
    (g0 : (⟨0, ![]⟩ : Shape).BroadcastsInDim ⟨2, ![n, j]⟩ (![] : Fin 0 → Fin 2)) (h1 : (⟨1, ![d]⟩ : Shape).BroadcastsInDim ⟨2, ![1, d]⟩ (![1] : Fin 1 → Fin 2)) (h2 : (⟨2, ![1, d]⟩ : Shape).BroadcastsInDim ⟨2, ![n, d]⟩ (![0, 1] : Fin 2 → Fin 2)) :
    addf (Host.dotGeneral (DotDims.plain n j d) prec
          (maximumf (addf (Host.dotGeneral (DotDims.plain n k j) prec x w1)
              (broadcastInDim ⟨2, ![n, j]⟩ ![0, 1] g2 (broadcastInDim ⟨2, ![1, j]⟩ ![1] g1 b1)))
            (broadcastInDim ⟨2, ![n, j]⟩ ![] g0 zc)) w2)
        (broadcastInDim ⟨2, ![n, d]⟩ ![0, 1] h2 (broadcastInDim ⟨2, ![1, d]⟩ ![1] h1 b2)) = head (zc ix0) x w1 (rowOfVec b1) w2 (rowOfVec b2) := by
  rw [host_lin, host_dot, host_addRow]
  rfl

/-- Batch normalisation in the reference's spelling: the mean as a vector, the outlined variance, the four
    vectors spread over the rows. -/
theorem host_bn (y : FVec Ideal ⟨2, ![n, d]⟩ .f32) (g beta : FVec Ideal ⟨1, ![d]⟩ .f32)
    (z0 Nc z1 z2 Nc0 Nd nanc ec : FVec Ideal ⟨0, ![]⟩ .f32) (p : IVec ⟨0, ![]⟩ 1)
    (h' : (⟨2, ![n, d]⟩ : Shape).ReducesTo [0] ⟨1, ![d]⟩) (hu : 0 < (⟨0, ![]⟩ : Shape).numel)
    (h1 h1' h1'' h1''' hB1 : (⟨1, ![d]⟩ : Shape).BroadcastsInDim ⟨2, ![1, d]⟩ (![1] : Fin 1 → Fin 2)) (h2 h2' h2'' h2''' hB2 : (⟨2, ![1, d]⟩ : Shape).BroadcastsInDim ⟨2, ![n, d]⟩ (![0, 1] : Fin 2 → Fin 2))
    (hm he hB0p hB0v hB0v' : (⟨0, ![]⟩ : Shape).BroadcastsInDim ⟨1, ![d]⟩ (![] : Fin 0 → Fin 1)) (hB0r : (⟨0, ![]⟩ : Shape).BroadcastsInDim ⟨2, ![1, d]⟩ (![] : Fin 0 → Fin 2))
    (hz0 : ∀ j, z0 j = 0) (hz1 : ∀ j, z1 j = 0) (hz2 : ∀ j, z2 j = 0) (hp : p ix0 = 1) (hNd : Nd ix0 = Nc0 ix0)
    (hNN : Nc0 ix0 = Nc ix0) :
    (addf (mulf (mulf (subf y (broadcastInDim ⟨2, ![n, d]⟩ ![0, 1] h2 (broadcastInDim ⟨2, ![1, d]⟩ ![1] h1 (Host.divf (Host.reduceAdd (F := Ideal) (φ := .f32) y z0 h' hu) (broadcastInDim ⟨1, ![d]⟩ ![] hm Nc)))))
          (broadcastInDim ⟨2, ![n, d]⟩ ![0, 1] h2' (broadcastInDim ⟨2, ![1, d]⟩ ![1] h1' (Host.rsqrt (addf (select (broadcastInDim ⟨1, ![d]⟩ ![] hB0p p)
        (Host.divf (Host.reduceAdd (F := Ideal) (φ := .f32) (mulf (subf y (broadcastInDim ⟨2, ![n, d]⟩ ![0, 1] hB2 (Host.divf
                (broadcastInDim ⟨2, ![1, d]⟩ ![1] hB1 (Host.reduceAdd (F := Ideal) (φ := .f32) y z1 h' hu))
                (broadcastInDim ⟨2, ![1, d]⟩ ![] hB0r Nc0)))) (subf y (broadcastInDim ⟨2, ![n, d]⟩ ![0, 1] hB2 (Host.divf
                (broadcastInDim ⟨2, ![1, d]⟩ ![1] hB1 (Host.reduceAdd (F := Ideal) (φ := .f32) y z1 h' hu))
                (broadcastInDim ⟨2, ![1, d]⟩ ![] hB0r Nc0))))) z2 h' hu)
          (broadcastInDim ⟨1, ![d]⟩ ![] hB0v Nd))
        (broadcastInDim ⟨1, ![d]⟩ ![] hB0v' nanc)) (broadcastInDim ⟨1, ![d]⟩ ![] he ec))))))
        (broadcastInDim ⟨2, ![n, d]⟩ ![0, 1] h2'' (broadcastInDim ⟨2, ![1, d]⟩ ![1] h1'' g)))
      (broadcastInDim ⟨2, ![n, d]⟩ ![0, 1] h2''' (broadcastInDim ⟨2, ![1, d]⟩ ![1] h1''' beta)))
      = bn varDev (ec ix0) (Nc ix0) y (rowOfVec g) (rowOfVec beta) := by
  rw [host_nrm, host_mean y z0 Nc h' hu hm hz0,
    host_var y z1 z2 Nc0 Nd nanc p h' hu hB1 hB0r hB2 hB0p hB0v hB0v' hz1 hz2 hp hNd, hNN]
  rfl

/-- The same floored at a splat of `z`. -/
theorem host_bnMax (y : FVec Ideal ⟨2, ![n, d]⟩ .f32) (g beta : FVec Ideal ⟨1, ![d]⟩ .f32)
    (z0 Nc z1 z2 Nc0 Nd nanc ec : FVec Ideal ⟨0, ![]⟩ .f32) (p : IVec ⟨0, ![]⟩ 1)
    (h' : (⟨2, ![n, d]⟩ : Shape).ReducesTo [0] ⟨1, ![d]⟩) (hu : 0 < (⟨0, ![]⟩ : Shape).numel)
    (h1 h1' h1'' h1''' hB1 : (⟨1, ![d]⟩ : Shape).BroadcastsInDim ⟨2, ![1, d]⟩ (![1] : Fin 1 → Fin 2)) (h2 h2' h2'' h2''' hB2 : (⟨2, ![1, d]⟩ : Shape).BroadcastsInDim ⟨2, ![n, d]⟩ (![0, 1] : Fin 2 → Fin 2))
    (hm he hB0p hB0v hB0v' : (⟨0, ![]⟩ : Shape).BroadcastsInDim ⟨1, ![d]⟩ (![] : Fin 0 → Fin 1)) (hB0r : (⟨0, ![]⟩ : Shape).BroadcastsInDim ⟨2, ![1, d]⟩ (![] : Fin 0 → Fin 2))
    (hz0 : ∀ j, z0 j = 0) (hz1 : ∀ j, z1 j = 0) (hz2 : ∀ j, z2 j = 0) (hp : p ix0 = 1) (hNd : Nd ix0 = Nc0 ix0)
    (hNN : Nc0 ix0 = Nc ix0) (zc : FVec Ideal ⟨0, ![]⟩ .f32) (h0 : (⟨0, ![]⟩ : Shape).BroadcastsInDim ⟨2, ![n, d]⟩ (![] : Fin 0 → Fin 2)) :
    maximumf (addf (mulf (mulf (subf y (broadcastInDim ⟨2, ![n, d]⟩ ![0, 1] h2 (broadcastInDim ⟨2, ![1, d]⟩ ![1] h1 (Host.divf (Host.reduceAdd (F := Ideal) (φ := .f32) y z0 h' hu) (broadcastInDim ⟨1, ![d]⟩ ![] hm Nc)))))
          (broadcastInDim ⟨2, ![n, d]⟩ ![0, 1] h2' (broadcastInDim ⟨2, ![1, d]⟩ ![1] h1' (Host.rsqrt (addf (select (broadcastInDim ⟨1, ![d]⟩ ![] hB0p p)
        (Host.divf (Host.reduceAdd (F := Ideal) (φ := .f32) (mulf (subf y (broadcastInDim ⟨2, ![n, d]⟩ ![0, 1] hB2 (Host.divf
                (broadcastInDim ⟨2, ![1, d]⟩ ![1] hB1 (Host.reduceAdd (F := Ideal) (φ := .f32) y z1 h' hu))
                (broadcastInDim ⟨2, ![1, d]⟩ ![] hB0r Nc0)))) (subf y (broadcastInDim ⟨2, ![n, d]⟩ ![0, 1] hB2 (Host.divf
                (broadcastInDim ⟨2, ![1, d]⟩ ![1] hB1 (Host.reduceAdd (F := Ideal) (φ := .f32) y z1 h' hu))
                (broadcastInDim ⟨2, ![1, d]⟩ ![] hB0r Nc0))))) z2 h' hu)
          (broadcastInDim ⟨1, ![d]⟩ ![] hB0v Nd))
        (broadcastInDim ⟨1, ![d]⟩ ![] hB0v' nanc)) (broadcastInDim ⟨1, ![d]⟩ ![] he ec))))))
        (broadcastInDim ⟨2, ![n, d]⟩ ![0, 1] h2'' (broadcastInDim ⟨2, ![1, d]⟩ ![1] h1'' g)))
      (broadcastInDim ⟨2, ![n, d]⟩ ![0, 1] h2''' (broadcastInDim ⟨2, ![1, d]⟩ ![1] h1''' beta))) (broadcastInDim ⟨2, ![n, d]⟩ ![] h0 zc)
      = bnMax varDev (ec ix0) (Nc ix0) y (rowOfVec g) (rowOfVec beta) (zc ix0) := by
  rw [host_max, host_bn y g beta z0 Nc z1 z2 Nc0 Nd nanc ec p h' hu h1 h1' h1'' h1''' hB1 h2 h2' h2'' h2''' hB2 hm he hB0p hB0v hB0v' hB0r hz0 hz1 hz2 hp hNd hNN]
  rfl

end Cert.Gnn

end
-- ==== Proof.RefValue.lean ====
import proofs.«160678_j77988016161089_1_alg».proof.Proof.RefStages
import Idealize.ShloMosaic.PureOps.Ideal.Laws
import Idealize.ShloMosaic.Lib.ValueIdx
import proofs.«160678_j77988016161089_1_alg».proof.Proof.LibGnnHostStages

set_option maxRecDepth 16384

noncomputable section

namespace Cert.ReferenceIdeal.RefValue

open Cert.ReferenceIdeal Cert.ReferenceIdeal.Gen Cert.ReferenceIdeal.RefRun Cert.ReferenceIdeal.RefStages
open Idealize.ShloMosaic Idealize.ShloMosaic.TcCoe Idealize.ShloMosaic.ValueIdx Idealize.SL.Sem Idealize.ShloMosaic.StableHlo
open Cert.Gnn
open Cert.MatProduct (prod)
open Cert.RowBias (addRow addRowMax)

variable (W : Valuation τ sig (Elt Ideal))

open Cert.LibTRef

variable (U : Valuation τ sig (Elt Ideal))

/-- The stabilising constant, the node count and zero, as the literals denote them. -/
abbrev epsC : EReal := Ideal.ofBits .f32 0x3727C5AC#32
abbrev cntC : EReal := Ideal.ofBits .f32 0x47435000#32
abbrev zeroC : EReal := Ideal.ofBits .f32 0x00000000#32

/-! ## Each stage, from any contents `U` -/

/-- The edges' source nodes and target nodes: the two rows of the edge array. -/
def srcR := shapeCast S800000 (extractStridedSlice S1x800000 ![0, 0] (U (Proc.devRef .tc main_arg1)) slices_S2x800000_S1x800000_0_0) shapeCasts_S1x800000_S800000
def dstR := shapeCast S800000 (extractStridedSlice S1x800000 ![1, 0] (U (Proc.devRef .tc main_arg1)) slices_S2x800000_S1x800000_1_0) shapeCasts_S1x800000_S800000

theorem r0_src : after (st0 (F := Ideal)) U (Proc.devRef .tc main_v1) = srcR U := by
  after_results_simp
  rfl

theorem r0_dst : after (st0 (F := Ideal)) U (Proc.devRef .tc main_v3) = dstR U := by
  after_results_simp
  rfl

theorem r0 : after (st0 (F := Ideal)) U (Proc.devRef .tc main_v9)
    = addRowMax (prod (U (Proc.devRef .tc main_arg0)) (U (Proc.devRef .tc main_arg2))) (rowOfVec (U (Proc.devRef .tc main_arg3))) zeroC := by
  after_results_simp
  exact host_lin _ _ _ _ _ _ _ _

theorem r1 : after (st1 (F := Ideal)) U (Proc.devRef .tc main_v28)
    = bn varDev epsC cntC (U (Proc.devRef .tc main_v9)) (rowOfVec (U (Proc.devRef .tc main_arg4))) (rowOfVec (U (Proc.devRef .tc main_arg5))) := by
  after_results_simp
  simp only [ofBuf_toBuf]
  exact host_bn _ _ _ _ _ _ _ _ _ _ _ _ _ _ _ _ _ _ _ _ _ _ _ _ _ _ _ _ _ _ (fun _ => Ideal.ofBits_zero_f32) (fun _ => Ideal.ofBits_zero_f32) (fun _ => Ideal.ofBits_zero_f32) var_guard var_divisor rfl

/-- Aggregation over the edges at width 32, from the source and target rows held in `U`. -/
def aggU0 (h : Mat 50000 32) : Mat 50000 32 :=
  Host.scatterAdd (F := Ideal) scatter_S50000x32_S800000x1_S800000x32_1_0_0_1
    (broadcastInDim S50000x32 ![] bcast_S_S50000x32 (constant (F := Ideal) S_ .f32 0#32))
    (broadcastInDim S800000x1 ![0] bcast_S800000_S800000x1_0 (U (Proc.devRef .tc main_v3)))
    (Host.gather gather_S50000x32_S800000x1_S800000x32_1_0_n_n_0_1_132 h
      (broadcastInDim S800000x1 ![0] bcast_S800000_S800000x1_0
        (select (cmpi .slt (U (Proc.devRef .tc main_v1)) (broadcastInDim S800000 ![] bcast_S_S800000 (constantI S_ 32 0#32)))
          (addi (U (Proc.devRef .tc main_v1)) (broadcastInDim S800000 ![] bcast_S_S800000 (constantI S_ 32 50000#32))) (U (Proc.devRef .tc main_v1)))))

attribute [local irreducible] Host.gather Host.scatterAdd in
theorem r2 : after (st2 (F := Ideal)) U (Proc.devRef .tc main_v44)
    = conv (aggU0 U (U (Proc.devRef .tc main_v28))) (U (Proc.devRef .tc main_arg6)) (rowOfVec (U (Proc.devRef .tc main_arg7))) (U (Proc.devRef .tc main_v28)) (U (Proc.devRef .tc main_arg8)) := by
  after_results_simp
  exact host_conv _ _ _ _ _ _ _ _

theorem r3 : after (st3 (F := Ideal)) U (Proc.devRef .tc main_v65)
    = bnMax varDev epsC cntC (U (Proc.devRef .tc main_v44)) (rowOfVec (U (Proc.devRef .tc main_arg9))) (rowOfVec (U (Proc.devRef .tc main_arg10))) zeroC := by
  after_results_simp
  simp only [ofBuf_toBuf]
  exact host_bnMax _ _ _ _ _ _ _ _ _ _ _ _ _ _ _ _ _ _ _ _ _ _ _ _ _ _ _ _ _ _ (fun _ => Ideal.ofBits_zero_f32) (fun _ => Ideal.ofBits_zero_f32) (fun _ => Ideal.ofBits_zero_f32) var_guard var_divisor rfl _ _

/-- Aggregation over the edges at width 64, from the source and target rows held in `U`. -/
def aggU1 (h : Mat 50000 64) : Mat 50000 64 :=
  Host.scatterAdd (F := Ideal) scatter_S50000x64_S800000x1_S800000x64_1_0_0_1
    (broadcastInDim S50000x64 ![] bcast_S_S50000x64 (constant (F := Ideal) S_ .f32 0#32))
    (broadcastInDim S800000x1 ![0] bcast_S800000_S800000x1_0 (U (Proc.devRef .tc main_v3)))
    (Host.gather gather_S50000x64_S800000x1_S800000x64_1_0_n_n_0_1_164 h
      (broadcastInDim S800000x1 ![0] bcast_S800000_S800000x1_0
        (select (cmpi .slt (U (Proc.devRef .tc main_v1)) (broadcastInDim S800000 ![] bcast_S_S800000 (constantI S_ 32 0#32)))
          (addi (U (Proc.devRef .tc main_v1)) (broadcastInDim S800000 ![] bcast_S_S800000 (constantI S_ 32 50000#32))) (U (Proc.devRef .tc main_v1)))))

attribute [local irreducible] Host.gather Host.scatterAdd in
theorem r4 : after (st4 (F := Ideal)) U (Proc.devRef .tc main_v81)
    = conv (aggU1 U (U (Proc.devRef .tc main_v65))) (U (Proc.devRef .tc main_arg11)) (rowOfVec (U (Proc.devRef .tc main_arg12))) (U (Proc.devRef .tc main_v65)) (U (Proc.devRef .tc main_arg13)) := by
  after_results_simp
  exact host_conv _ _ _ _ _ _ _ _

theorem r5 : after (st5 (F := Ideal)) U (Proc.devRef .tc main_v102)
    = bnMax varDev epsC cntC (U (Proc.devRef .tc main_v81)) (rowOfVec (U (Proc.devRef .tc main_arg14))) (rowOfVec (U (Proc.devRef .tc main_arg15))) zeroC := by
  after_results_simp
  simp only [ofBuf_toBuf]
  exact host_bnMax _ _ _ _ _ _ _ _ _ _ _ _ _ _ _ _ _ _ _ _ _ _ _ _ _ _ _ _ _ _ (fun _ => Ideal.ofBits_zero_f32) (fun _ => Ideal.ofBits_zero_f32) (fun _ => Ideal.ofBits_zero_f32) var_guard var_divisor rfl _ _

/-- Aggregation over the edges at width 128, from the source and target rows held in `U`. -/
def aggU2 (h : Mat 50000 128) : Mat 50000 128 :=
  Host.scatterAdd (F := Ideal) scatter_S50000x128_S800000x1_S800000x128_1_0_0_1
    (broadcastInDim S50000x128 ![] bcast_S_S50000x128 (constant (F := Ideal) S_ .f32 0#32))
    (broadcastInDim S800000x1 ![0] bcast_S800000_S800000x1_0 (U (Proc.devRef .tc main_v3)))
    (Host.gather gather_S50000x128_S800000x1_S800000x128_1_0_n_n_0_1_1128 h
      (broadcastInDim S800000x1 ![0] bcast_S800000_S800000x1_0
        (select (cmpi .slt (U (Proc.devRef .tc main_v1)) (broadcastInDim S800000 ![] bcast_S_S800000 (constantI S_ 32 0#32)))
          (addi (U (Proc.devRef .tc main_v1)) (broadcastInDim S800000 ![] bcast_S_S800000 (constantI S_ 32 50000#32))) (U (Proc.devRef .tc main_v1)))))

attribute [local irreducible] Host.gather Host.scatterAdd in
theorem r6 : after (st6 (F := Ideal)) U (Proc.devRef .tc main_v118)
    = conv (aggU2 U (U (Proc.devRef .tc main_v102))) (U (Proc.devRef .tc main_arg16)) (rowOfVec (U (Proc.devRef .tc main_arg17))) (U (Proc.devRef .tc main_v102)) (U (Proc.devRef .tc main_arg18)) := by
  after_results_simp
  exact host_conv _ _ _ _ _ _ _ _

theorem r7 : after (st7 (F := Ideal)) U (Proc.devRef .tc main_v139)
    = bnMax varDev epsC cntC (U (Proc.devRef .tc main_v118)) (rowOfVec (U (Proc.devRef .tc main_arg19))) (rowOfVec (U (Proc.devRef .tc main_arg20))) zeroC := by
  after_results_simp
  simp only [ofBuf_toBuf]
  exact host_bnMax _ _ _ _ _ _ _ _ _ _ _ _ _ _ _ _ _ _ _ _ _ _ _ _ _ _ _ _ _ _ (fun _ => Ideal.ofBits_zero_f32) (fun _ => Ideal.ofBits_zero_f32) (fun _ => Ideal.ofBits_zero_f32) var_guard var_divisor rfl _ _

/-- Aggregation over the edges at width 64, from the source and target rows held in `U`. -/
def aggU3 (h : Mat 50000 64) : Mat 50000 64 :=
  Host.scatterAdd (F := Ideal) scatter_S50000x64_S800000x1_S800000x64_1_0_0_1
    (broadcastInDim S50000x64 ![] bcast_S_S50000x64 (constant (F := Ideal) S_ .f32 0#32))
    (broadcastInDim S800000x1 ![0] bcast_S800000_S800000x1_0 (U (Proc.devRef .tc main_v3)))
    (Host.gather gather_S50000x64_S800000x1_S800000x64_1_0_n_n_0_1_164 h
      (broadcastInDim S800000x1 ![0] bcast_S800000_S800000x1_0
        (select (cmpi .slt (U (Proc.devRef .tc main_v1)) (broadcastInDim S800000 ![] bcast_S_S800000 (constantI S_ 32 0#32)))
          (addi (U (Proc.devRef .tc main_v1)) (broadcastInDim S800000 ![] bcast_S_S800000 (constantI S_ 32 50000#32))) (U (Proc.devRef .tc main_v1)))))

attribute [local irreducible] Host.gather Host.scatterAdd in
theorem r8 : after (st8 (F := Ideal)) U (Proc.devRef .tc main_v155)
    = conv (aggU3 U (U (Proc.devRef .tc main_v139))) (U (Proc.devRef .tc main_arg21)) (rowOfVec (U (Proc.devRef .tc main_arg22))) (U (Proc.devRef .tc main_v139)) (U (Proc.devRef .tc main_arg23)) := by
  after_results_simp
  exact host_conv _ _ _ _ _ _ _ _

theorem r9 : after (st9 (F := Ideal)) U (Proc.devRef .tc main_v176)
    = bnMax varDev epsC cntC (U (Proc.devRef .tc main_v155)) (rowOfVec (U (Proc.devRef .tc main_arg24))) (rowOfVec (U (Proc.devRef .tc main_arg25))) zeroC := by
  after_results_simp
  simp only [ofBuf_toBuf]
  exact host_bnMax _ _ _ _ _ _ _ _ _ _ _ _ _ _ _ _ _ _ _ _ _ _ _ _ _ _ _ _ _ _ (fun _ => Ideal.ofBits_zero_f32) (fun _ => Ideal.ofBits_zero_f32) (fun _ => Ideal.ofBits_zero_f32) var_guard var_divisor rfl _ _

theorem r10 : after (st10 (F := Ideal)) U (Proc.devRef .tc main_v186)
    = head zeroC (U (Proc.devRef .tc main_v176)) (U (Proc.devRef .tc main_arg26)) (rowOfVec (U (Proc.devRef .tc main_arg27))) (U (Proc.devRef .tc main_arg28)) (rowOfVec (U (Proc.devRef .tc main_arg29))) := by
  after_results_simp
  exact host_head _ _ _ _ _ _ _ _ _ _ _ _

/-! ## The stages composed, from contents `W` -/

section Composed
variable (W : Valuation τ sig (Elt Ideal))

/-- The buffer contents after stages `0 … k - 1`. -/
abbrev V1 : Valuation τ sig (Elt Ideal) := after (st0 (F := Ideal)) W
abbrev V2 : Valuation τ sig (Elt Ideal) := after (st1 (F := Ideal)) (V1 W)
abbrev V3 : Valuation τ sig (Elt Ideal) := after (st2 (F := Ideal)) (V2 W)
abbrev V4 : Valuation τ sig (Elt Ideal) := after (st3 (F := Ideal)) (V3 W)
abbrev V5 : Valuation τ sig (Elt Ideal) := after (st4 (F := Ideal)) (V4 W)
abbrev V6 : Valuation τ sig (Elt Ideal) := after (st5 (F := Ideal)) (V5 W)
abbrev V7 : Valuation τ sig (Elt Ideal) := after (st6 (F := Ideal)) (V6 W)
abbrev V8 : Valuation τ sig (Elt Ideal) := after (st7 (F := Ideal)) (V7 W)
abbrev V9 : Valuation τ sig (Elt Ideal) := after (st8 (F := Ideal)) (V8 W)
abbrev V10 : Valuation τ sig (Elt Ideal) := after (st9 (F := Ideal)) (V9 W)
abbrev V11 : Valuation τ sig (Elt Ideal) := after (st10 (F := Ideal)) (V10 W)

theorem arg4_at1 : V1 W (Proc.devRef .tc main_arg4) = W (Proc.devRef .tc main_arg4) :=
  keepS0 W main_arg4 (by decide)
theorem arg5_at1 : V1 W (Proc.devRef .tc main_arg5) = W (Proc.devRef .tc main_arg5) :=
  keepS0 W main_arg5 (by decide)
theorem arg6_at2 : V2 W (Proc.devRef .tc main_arg6) = W (Proc.devRef .tc main_arg6) :=
  (keepS1 (V1 W) main_arg6 (by decide)).trans (keepS0 W main_arg6 (by decide))
theorem arg7_at2 : V2 W (Proc.devRef .tc main_arg7) = W (Proc.devRef .tc main_arg7) :=
  (keepS1 (V1 W) main_arg7 (by decide)).trans (keepS0 W main_arg7 (by decide))
theorem arg8_at2 : V2 W (Proc.devRef .tc main_arg8) = W (Proc.devRef .tc main_arg8) :=
  (keepS1 (V1 W) main_arg8 (by decide)).trans (keepS0 W main_arg8 (by decide))
theorem arg9_at3 : V3 W (Proc.devRef .tc main_arg9) = W (Proc.devRef .tc main_arg9) :=
  (keepS2 (V2 W) main_arg9 (by decide)).trans ((keepS1 (V1 W) main_arg9 (by decide)).trans (keepS0 W main_arg9 (by decide)))
theorem arg10_at3 : V3 W (Proc.devRef .tc main_arg10) = W (Proc.devRef .tc main_arg10) :=
  (keepS2 (V2 W) main_arg10 (by decide)).trans ((keepS1 (V1 W) main_arg10 (by decide)).trans (keepS0 W main_arg10 (by decide)))
theorem arg11_at4 : V4 W (Proc.devRef .tc main_arg11) = W (Proc.devRef .tc main_arg11) :=
  (keepS3 (V3 W) main_arg11 (by decide)).trans ((keepS2 (V2 W) main_arg11 (by decide)).trans ((keepS1 (V1 W) main_arg11 (by decide)).trans (keepS0 W main_arg11 (by decide))))
theorem arg12_at4 : V4 W (Proc.devRef .tc main_arg12) = W (Proc.devRef .tc main_arg12) :=
  (keepS3 (V3 W) main_arg12 (by decide)).trans ((keepS2 (V2 W) main_arg12 (by decide)).trans ((keepS1 (V1 W) main_arg12 (by decide)).trans (keepS0 W main_arg12 (by decide))))
theorem arg13_at4 : V4 W (Proc.devRef .tc main_arg13) = W (Proc.devRef .tc main_arg13) :=
  (keepS3 (V3 W) main_arg13 (by decide)).trans ((keepS2 (V2 W) main_arg13 (by decide)).trans ((keepS1 (V1 W) main_arg13 (by decide)).trans (keepS0 W main_arg13 (by decide))))
theorem arg14_at5 : V5 W (Proc.devRef .tc main_arg14) = W (Proc.devRef .tc main_arg14) :=
  (keepS4 (V4 W) main_arg14 (by decide)).trans ((keepS3 (V3 W) main_arg14 (by decide)).trans ((keepS2 (V2 W) main_arg14 (by decide)).trans ((keepS1 (V1 W) main_arg14 (by decide)).trans (keepS0 W main_arg14 (by decide)))))
theorem arg15_at5 : V5 W (Proc.devRef .tc main_arg15) = W (Proc.devRef .tc main_arg15) :=
  (keepS4 (V4 W) main_arg15 (by decide)).trans ((keepS3 (V3 W) main_arg15 (by decide)).trans ((keepS2 (V2 W) main_arg15 (by decide)).trans ((keepS1 (V1 W) main_arg15 (by decide)).trans (keepS0 W main_arg15 (by decide)))))
theorem arg16_at6 : V6 W (Proc.devRef .tc main_arg16) = W (Proc.devRef .tc main_arg16) :=
  (keepS5 (V5 W) main_arg16 (by decide)).trans ((keepS4 (V4 W) main_arg16 (by decide)).trans ((keepS3 (V3 W) main_arg16 (by decide)).trans ((keepS2 (V2 W) main_arg16 (by decide)).trans ((keepS1 (V1 W) main_arg16 (by decide)).trans (keepS0 W main_arg16 (by decide))))))
theorem arg17_at6 : V6 W (Proc.devRef .tc main_arg17) = W (Proc.devRef .tc main_arg17) :=
  (keepS5 (V5 W) main_arg17 (by decide)).trans ((keepS4 (V4 W) main_arg17 (by decide)).trans ((keepS3 (V3 W) main_arg17 (by decide)).trans ((keepS2 (V2 W) main_arg17 (by decide)).trans ((keepS1 (V1 W) main_arg17 (by decide)).trans (keepS0 W main_arg17 (by decide))))))
theorem arg18_at6 : V6 W (Proc.devRef .tc main_arg18) = W (Proc.devRef .tc main_arg18) :=
  (keepS5 (V5 W) main_arg18 (by decide)).trans ((keepS4 (V4 W) main_arg18 (by decide)).trans ((keepS3 (V3 W) main_arg18 (by decide)).trans ((keepS2 (V2 W) main_arg18 (by decide)).trans ((keepS1 (V1 W) main_arg18 (by decide)).trans (keepS0 W main_arg18 (by decide))))))
theorem arg19_at7 : V7 W (Proc.devRef .tc main_arg19) = W (Proc.devRef .tc main_arg19) :=
  (keepS6 (V6 W) main_arg19 (by decide)).trans ((keepS5 (V5 W) main_arg19 (by decide)).trans ((keepS4 (V4 W) main_arg19 (by decide)).trans ((keepS3 (V3 W) main_arg19 (by decide)).trans ((keepS2 (V2 W) main_arg19 (by decide)).trans ((keepS1 (V1 W) main_arg19 (by decide)).trans (keepS0 W main_arg19 (by decide)))))))
theorem arg20_at7 : V7 W (Proc.devRef .tc main_arg20) = W (Proc.devRef .tc main_arg20) :=
  (keepS6 (V6 W) main_arg20 (by decide)).trans ((keepS5 (V5 W) main_arg20 (by decide)).trans ((keepS4 (V4 W) main_arg20 (by decide)).trans ((keepS3 (V3 W) main_arg20 (by decide)).trans ((keepS2 (V2 W) main_arg20 (by decide)).trans ((keepS1 (V1 W) main_arg20 (by decide)).trans (keepS0 W main_arg20 (by decide)))))))
theorem arg21_at8 : V8 W (Proc.devRef .tc main_arg21) = W (Proc.devRef .tc main_arg21) :=
  (keepS7 (V7 W) main_arg21 (by decide)).trans ((keepS6 (V6 W) main_arg21 (by decide)).trans ((keepS5 (V5 W) main_arg21 (by decide)).trans ((keepS4 (V4 W) main_arg21 (by decide)).trans ((keepS3 (V3 W) main_arg21 (by decide)).trans ((keepS2 (V2 W) main_arg21 (by decide)).trans ((keepS1 (V1 W) main_arg21 (by decide)).trans (keepS0 W main_arg21 (by decide))))))))
theorem arg22_at8 : V8 W (Proc.devRef .tc main_arg22) = W (Proc.devRef .tc main_arg22) :=
  (keepS7 (V7 W) main_arg22 (by decide)).trans ((keepS6 (V6 W) main_arg22 (by decide)).trans ((keepS5 (V5 W) main_arg22 (by decide)).trans ((keepS4 (V4 W) main_arg22 (by decide)).trans ((keepS3 (V3 W) main_arg22 (by decide)).trans ((keepS2 (V2 W) main_arg22 (by decide)).trans ((keepS1 (V1 W) main_arg22 (by decide)).trans (keepS0 W main_arg22 (by decide))))))))
theorem arg23_at8 : V8 W (Proc.devRef .tc main_arg23) = W (Proc.devRef .tc main_arg23) :=
  (keepS7 (V7 W) main_arg23 (by decide)).trans ((keepS6 (V6 W) main_arg23 (by decide)).trans ((keepS5 (V5 W) main_arg23 (by decide)).trans ((keepS4 (V4 W) main_arg23 (by decide)).trans ((keepS3 (V3 W) main_arg23 (by decide)).trans ((keepS2 (V2 W) main_arg23 (by decide)).trans ((keepS1 (V1 W) main_arg23 (by decide)).trans (keepS0 W main_arg23 (by decide))))))))
theorem arg24_at9 : V9 W (Proc.devRef .tc main_arg24) = W (Proc.devRef .tc main_arg24) :=
  (keepS8 (V8 W) main_arg24 (by decide)).trans ((keepS7 (V7 W) main_arg24 (by decide)).trans ((keepS6 (V6 W) main_arg24 (by decide)).trans ((keepS5 (V5 W) main_arg24 (by decide)).trans ((keepS4 (V4 W) main_arg24 (by decide)).trans ((keepS3 (V3 W) main_arg24 (by decide)).trans ((keepS2 (V2 W) main_arg24 (by decide)).trans ((keepS1 (V1 W) main_arg24 (by decide)).trans (keepS0 W main_arg24 (by decide)))))))))
theorem arg25_at9 : V9 W (Proc.devRef .tc main_arg25) = W (Proc.devRef .tc main_arg25) :=
  (keepS8 (V8 W) main_arg25 (by decide)).trans ((keepS7 (V7 W) main_arg25 (by decide)).trans ((keepS6 (V6 W) main_arg25 (by decide)).trans ((keepS5 (V5 W) main_arg25 (by decide)).trans ((keepS4 (V4 W) main_arg25 (by decide)).trans ((keepS3 (V3 W) main_arg25 (by decide)).trans ((keepS2 (V2 W) main_arg25 (by decide)).trans ((keepS1 (V1 W) main_arg25 (by decide)).trans (keepS0 W main_arg25 (by decide)))))))))
theorem arg26_at10 : V10 W (Proc.devRef .tc main_arg26) = W (Proc.devRef .tc main_arg26) :=
  (keepS9 (V9 W) main_arg26 (by decide)).trans ((keepS8 (V8 W) main_arg26 (by decide)).trans ((keepS7 (V7 W) main_arg26 (by decide)).trans ((keepS6 (V6 W) main_arg26 (by decide)).trans ((keepS5 (V5 W) main_arg26 (by decide)).trans ((keepS4 (V4 W) main_arg26 (by decide)).trans ((keepS3 (V3 W) main_arg26 (by decide)).trans ((keepS2 (V2 W) main_arg26 (by decide)).trans ((keepS1 (V1 W) main_arg26 (by decide)).trans (keepS0 W main_arg26 (by decide))))))))))
theorem arg27_at10 : V10 W (Proc.devRef .tc main_arg27) = W (Proc.devRef .tc main_arg27) :=
  (keepS9 (V9 W) main_arg27 (by decide)).trans ((keepS8 (V8 W) main_arg27 (by decide)).trans ((keepS7 (V7 W) main_arg27 (by decide)).trans ((keepS6 (V6 W) main_arg27 (by decide)).trans ((keepS5 (V5 W) main_arg27 (by decide)).trans ((keepS4 (V4 W) main_arg27 (by decide)).trans ((keepS3 (V3 W) main_arg27 (by decide)).trans ((keepS2 (V2 W) main_arg27 (by decide)).trans ((keepS1 (V1 W) main_arg27 (by decide)).trans (keepS0 W main_arg27 (by decide))))))))))
theorem arg28_at10 : V10 W (Proc.devRef .tc main_arg28) = W (Proc.devRef .tc main_arg28) :=
  (keepS9 (V9 W) main_arg28 (by decide)).trans ((keepS8 (V8 W) main_arg28 (by decide)).trans ((keepS7 (V7 W) main_arg28 (by decide)).trans ((keepS6 (V6 W) main_arg28 (by decide)).trans ((keepS5 (V5 W) main_arg28 (by decide)).trans ((keepS4 (V4 W) main_arg28 (by decide)).trans ((keepS3 (V3 W) main_arg28 (by decide)).trans ((keepS2 (V2 W) main_arg28 (by decide)).trans ((keepS1 (V1 W) main_arg28 (by decide)).trans (keepS0 W main_arg28 (by decide))))))))))
theorem arg29_at10 : V10 W (Proc.devRef .tc main_arg29) = W (Proc.devRef .tc main_arg29) :=
  (keepS9 (V9 W) main_arg29 (by decide)).trans ((keepS8 (V8 W) main_arg29 (by decide)).trans ((keepS7 (V7 W) main_arg29 (by decide)).trans ((keepS6 (V6 W) main_arg29 (by decide)).trans ((keepS5 (V5 W) main_arg29 (by decide)).trans ((keepS4 (V4 W) main_arg29 (by decide)).trans ((keepS3 (V3 W) main_arg29 (by decide)).trans ((keepS2 (V2 W) main_arg29 (by decide)).trans ((keepS1 (V1 W) main_arg29 (by decide)).trans (keepS0 W main_arg29 (by decide))))))))))

theorem v1_at1 : V1 W (Proc.devRef .tc main_v1) = srcR W := r0_src W
theorem v3_at1 : V1 W (Proc.devRef .tc main_v3) = dstR W := r0_dst W
theorem v1_at2 : V2 W (Proc.devRef .tc main_v1) = srcR W :=
  (keepS1 (V1 W) main_v1 (by decide)).trans (v1_at1 W)
theorem v3_at2 : V2 W (Proc.devRef .tc main_v3) = dstR W :=
  (keepS1 (V1 W) main_v3 (by decide)).trans (v3_at1 W)
theorem v1_at4 : V4 W (Proc.devRef .tc main_v1) = srcR W :=
  (keepS3 (V3 W) main_v1 (by decide)).trans ((keepS2 (V2 W) main_v1 (by decide)).trans ((keepS1 (V1 W) main_v1 (by decide)).trans (v1_at1 W)))
theorem v3_at4 : V4 W (Proc.devRef .tc main_v3) = dstR W :=
  (keepS3 (V3 W) main_v3 (by decide)).trans ((keepS2 (V2 W) main_v3 (by decide)).trans ((keepS1 (V1 W) main_v3 (by decide)).trans (v3_at1 W)))
theorem v1_at6 : V6 W (Proc.devRef .tc main_v1) = srcR W :=
  (keepS5 (V5 W) main_v1 (by decide)).trans ((keepS4 (V4 W) main_v1 (by decide)).trans ((keepS3 (V3 W) main_v1 (by decide)).trans ((keepS2 (V2 W) main_v1 (by decide)).trans ((keepS1 (V1 W) main_v1 (by decide)).trans (v1_at1 W)))))
theorem v3_at6 : V6 W (Proc.devRef .tc main_v3) = dstR W :=
  (keepS5 (V5 W) main_v3 (by decide)).trans ((keepS4 (V4 W) main_v3 (by decide)).trans ((keepS3 (V3 W) main_v3 (by decide)).trans ((keepS2 (V2 W) main_v3 (by decide)).trans ((keepS1 (V1 W) main_v3 (by decide)).trans (v3_at1 W)))))
theorem v1_at8 : V8 W (Proc.devRef .tc main_v1) = srcR W :=
  (keepS7 (V7 W) main_v1 (by decide)).trans ((keepS6 (V6 W) main_v1 (by decide)).trans ((keepS5 (V5 W) main_v1 (by decide)).trans ((keepS4 (V4 W) main_v1 (by decide)).trans ((keepS3 (V3 W) main_v1 (by decide)).trans ((keepS2 (V2 W) main_v1 (by decide)).trans ((keepS1 (V1 W) main_v1 (by decide)).trans (v1_at1 W)))))))
theorem v3_at8 : V8 W (Proc.devRef .tc main_v3) = dstR W :=
  (keepS7 (V7 W) main_v3 (by decide)).trans ((keepS6 (V6 W) main_v3 (by decide)).trans ((keepS5 (V5 W) main_v3 (by decide)).trans ((keepS4 (V4 W) main_v3 (by decide)).trans ((keepS3 (V3 W) main_v3 (by decide)).trans ((keepS2 (V2 W) main_v3 (by decide)).trans ((keepS1 (V1 W) main_v3 (by decide)).trans (v3_at1 W)))))))

/-- The embedding of the arguments, the variance spelt as the mean of squared deviations. -/
def H0 : Mat 50000 32 := embed varDev epsC cntC zeroC (W (Proc.devRef .tc main_arg0)) (W (Proc.devRef .tc main_arg2)) (rowOfVec (W (Proc.devRef .tc main_arg3))) (rowOfVec (W (Proc.devRef .tc main_arg4))) (rowOfVec (W (Proc.devRef .tc main_arg5)))

theorem h_at2 : V2 W (Proc.devRef .tc main_v28) = H0 W := by
  show after (st1 (F := Ideal)) (V1 W) (Proc.devRef .tc main_v28) = _
  rw [r1, show V1 W (Proc.devRef .tc main_v9) = _ from r0 W, arg4_at1, arg5_at1]
  rfl

/-- Aggregation over the edges at width 32, from the argument edge array. -/
def agg0 (h : Mat 50000 32) : Mat 50000 32 :=
  Host.scatterAdd (F := Ideal) scatter_S50000x32_S800000x1_S800000x32_1_0_0_1
    (broadcastInDim S50000x32 ![] bcast_S_S50000x32 (constant (F := Ideal) S_ .f32 0#32))
    (broadcastInDim S800000x1 ![0] bcast_S800000_S800000x1_0 (dstR W))
    (Host.gather gather_S50000x32_S800000x1_S800000x32_1_0_n_n_0_1_132 h
      (broadcastInDim S800000x1 ![0] bcast_S800000_S800000x1_0
        (select (cmpi .slt (srcR W) (broadcastInDim S800000 ![] bcast_S_S800000 (constantI S_ 32 0#32)))
          (addi (srcR W) (broadcastInDim S800000 ![] bcast_S_S800000 (constantI S_ 32 50000#32))) (srcR W))))

theorem agg_at2 : aggU0 (V2 W) = agg0 W := by
  unfold aggU0 agg0
  rw [v1_at2, v3_at2]

/-- Block 0 applied to its input. -/
def H1 : Mat 50000 64 :=
  block varDev epsC cntC zeroC (agg0 W) (H0 W) (W (Proc.devRef .tc main_arg6)) (rowOfVec (W (Proc.devRef .tc main_arg7))) (W (Proc.devRef .tc main_arg8)) (rowOfVec (W (Proc.devRef .tc main_arg9))) (rowOfVec (W (Proc.devRef .tc main_arg10)))

theorem y_at3 : V3 W (Proc.devRef .tc main_v44)
    = conv (agg0 W (H0 W)) (W (Proc.devRef .tc main_arg6)) (rowOfVec (W (Proc.devRef .tc main_arg7))) (H0 W) (W (Proc.devRef .tc main_arg8)) := by
  show after (st2 (F := Ideal)) (V2 W) (Proc.devRef .tc main_v44) = _
  rw [r2, agg_at2, h_at2, arg6_at2, arg7_at2, arg8_at2]

theorem h_at4 : V4 W (Proc.devRef .tc main_v65) = H1 W := by
  show after (st3 (F := Ideal)) (V3 W) (Proc.devRef .tc main_v65) = _
  rw [r3, y_at3, arg9_at3, arg10_at3]
  rfl

/-- Aggregation over the edges at width 64, from the argument edge array. -/
def agg1 (h : Mat 50000 64) : Mat 50000 64 :=
  Host.scatterAdd (F := Ideal) scatter_S50000x64_S800000x1_S800000x64_1_0_0_1
    (broadcastInDim S50000x64 ![] bcast_S_S50000x64 (constant (F := Ideal) S_ .f32 0#32))
    (broadcastInDim S800000x1 ![0] bcast_S800000_S800000x1_0 (dstR W))
    (Host.gather gather_S50000x64_S800000x1_S800000x64_1_0_n_n_0_1_164 h
      (broadcastInDim S800000x1 ![0] bcast_S800000_S800000x1_0
        (select (cmpi .slt (srcR W) (broadcastInDim S800000 ![] bcast_S_S800000 (constantI S_ 32 0#32)))
          (addi (srcR W) (broadcastInDim S800000 ![] bcast_S_S800000 (constantI S_ 32 50000#32))) (srcR W))))

theorem agg_at4 : aggU1 (V4 W) = agg1 W := by
  unfold aggU1 agg1
  rw [v1_at4, v3_at4]

/-- Block 1 applied to its input. -/
def H2 : Mat 50000 128 :=
  block varDev epsC cntC zeroC (agg1 W) (H1 W) (W (Proc.devRef .tc main_arg11)) (rowOfVec (W (Proc.devRef .tc main_arg12))) (W (Proc.devRef .tc main_arg13)) (rowOfVec (W (Proc.devRef .tc main_arg14))) (rowOfVec (W (Proc.devRef .tc main_arg15)))

theorem y_at5 : V5 W (Proc.devRef .tc main_v81)
    = conv (agg1 W (H1 W)) (W (Proc.devRef .tc main_arg11)) (rowOfVec (W (Proc.devRef .tc main_arg12))) (H1 W) (W (Proc.devRef .tc main_arg13)) := by
  show after (st4 (F := Ideal)) (V4 W) (Proc.devRef .tc main_v81) = _
  rw [r4, agg_at4, h_at4, arg11_at4, arg12_at4, arg13_at4]

theorem h_at6 : V6 W (Proc.devRef .tc main_v102) = H2 W := by
  show after (st5 (F := Ideal)) (V5 W) (Proc.devRef .tc main_v102) = _
  rw [r5, y_at5, arg14_at5, arg15_at5]
  rfl

/-- Aggregation over the edges at width 128, from the argument edge array. -/
def agg2 (h : Mat 50000 128) : Mat 50000 128 :=
  Host.scatterAdd (F := Ideal) scatter_S50000x128_S800000x1_S800000x128_1_0_0_1
    (broadcastInDim S50000x128 ![] bcast_S_S50000x128 (constant (F := Ideal) S_ .f32 0#32))
    (broadcastInDim S800000x1 ![0] bcast_S800000_S800000x1_0 (dstR W))
    (Host.gather gather_S50000x128_S800000x1_S800000x128_1_0_n_n_0_1_1128 h
      (broadcastInDim S800000x1 ![0] bcast_S800000_S800000x1_0
        (select (cmpi .slt (srcR W) (broadcastInDim S800000 ![] bcast_S_S800000 (constantI S_ 32 0#32)))
          (addi (srcR W) (broadcastInDim S800000 ![] bcast_S_S800000 (constantI S_ 32 50000#32))) (srcR W))))

theorem agg_at6 : aggU2 (V6 W) = agg2 W := by
  unfold aggU2 agg2
  rw [v1_at6, v3_at6]

/-- Block 2 applied to its input. -/
def H3 : Mat 50000 64 :=
  block varDev epsC cntC zeroC (agg2 W) (H2 W) (W (Proc.devRef .tc main_arg16)) (rowOfVec (W (Proc.devRef .tc main_arg17))) (W (Proc.devRef .tc main_arg18)) (rowOfVec (W (Proc.devRef .tc main_arg19))) (rowOfVec (W (Proc.devRef .tc main_arg20)))

theorem y_at7 : V7 W (Proc.devRef .tc main_v118)
    = conv (agg2 W (H2 W)) (W (Proc.devRef .tc main_arg16)) (rowOfVec (W (Proc.devRef .tc main_arg17))) (H2 W) (W (Proc.devRef .tc main_arg18)) := by
  show after (st6 (F := Ideal)) (V6 W) (Proc.devRef .tc main_v118) = _
  rw [r6, agg_at6, h_at6, arg16_at6, arg17_at6, arg18_at6]

theorem h_at8 : V8 W (Proc.devRef .tc main_v139) = H3 W := by
  show after (st7 (F := Ideal)) (V7 W) (Proc.devRef .tc main_v139) = _
  rw [r7, y_at7, arg19_at7, arg20_at7]
  rfl

/-- Aggregation over the edges at width 64, from the argument edge array. -/
def agg3 (h : Mat 50000 64) : Mat 50000 64 :=
  Host.scatterAdd (F := Ideal) scatter_S50000x64_S800000x1_S800000x64_1_0_0_1
    (broadcastInDim S50000x64 ![] bcast_S_S50000x64 (constant (F := Ideal) S_ .f32 0#32))
    (broadcastInDim S800000x1 ![0] bcast_S800000_S800000x1_0 (dstR W))
    (Host.gather gather_S50000x64_S800000x1_S800000x64_1_0_n_n_0_1_164 h
      (broadcastInDim S800000x1 ![0] bcast_S800000_S800000x1_0
        (select (cmpi .slt (srcR W) (broadcastInDim S800000 ![] bcast_S_S800000 (constantI S_ 32 0#32)))
          (addi (srcR W) (broadcastInDim S800000 ![] bcast_S_S800000 (constantI S_ 32 50000#32))) (srcR W))))

theorem agg_at8 : aggU3 (V8 W) = agg3 W := by
  unfold aggU3 agg3
  rw [v1_at8, v3_at8]

/-- Block 3 applied to its input. -/
def H4 : Mat 50000 32 :=
  block varDev epsC cntC zeroC (agg3 W) (H3 W) (W (Proc.devRef .tc main_arg21)) (rowOfVec (W (Proc.devRef .tc main_arg22))) (W (Proc.devRef .tc main_arg23)) (rowOfVec (W (Proc.devRef .tc main_arg24))) (rowOfVec (W (Proc.devRef .tc main_arg25)))

theorem y_at9 : V9 W (Proc.devRef .tc main_v155)
    = conv (agg3 W (H3 W)) (W (Proc.devRef .tc main_arg21)) (rowOfVec (W (Proc.devRef .tc main_arg22))) (H3 W) (W (Proc.devRef .tc main_arg23)) := by
  show after (st8 (F := Ideal)) (V8 W) (Proc.devRef .tc main_v155) = _
  rw [r8, agg_at8, h_at8, arg21_at8, arg22_at8, arg23_at8]

theorem h_at10 : V10 W (Proc.devRef .tc main_v176) = H4 W := by
  show after (st9 (F := Ideal)) (V9 W) (Proc.devRef .tc main_v176) = _
  rw [r9, y_at9, arg24_at9, arg25_at9]
  rfl

theorem out_at11 : V11 W (Proc.devRef .tc main_v186)
    = head zeroC (H4 W) (W (Proc.devRef .tc main_arg26)) (rowOfVec (W (Proc.devRef .tc main_arg27))) (W (Proc.devRef .tc main_arg28)) (rowOfVec (W (Proc.devRef .tc main_arg29))) := by
  show after (st10 (F := Ideal)) (V10 W) (Proc.devRef .tc main_v186) = _
  rw [r10, h_at10, arg26_at10, arg27_at10, arg28_at10, arg29_at10]

/-- The result buffer after the whole straight line is the network of the arguments, every variance spelt as
    the mean of squared deviations. -/
theorem ref_value : after (ops (F := Ideal)) W (Proc.devRef .tc main_v186)
    = net varDev epsC cntC zeroC (agg0 W) (agg1 W) (agg2 W) (agg3 W)
      (W (Proc.devRef .tc main_arg0)) (W (Proc.devRef .tc main_arg2)) (rowOfVec (W (Proc.devRef .tc main_arg3))) (rowOfVec (W (Proc.devRef .tc main_arg4))) (rowOfVec (W (Proc.devRef .tc main_arg5)))
      (W (Proc.devRef .tc main_arg6)) (rowOfVec (W (Proc.devRef .tc main_arg7))) (W (Proc.devRef .tc main_arg8)) (rowOfVec (W (Proc.devRef .tc main_arg9))) (rowOfVec (W (Proc.devRef .tc main_arg10)))
      (W (Proc.devRef .tc main_arg11)) (rowOfVec (W (Proc.devRef .tc main_arg12))) (W (Proc.devRef .tc main_arg13)) (rowOfVec (W (Proc.devRef .tc main_arg14))) (rowOfVec (W (Proc.devRef .tc main_arg15)))
      (W (Proc.devRef .tc main_arg16)) (rowOfVec (W (Proc.devRef .tc main_arg17))) (W (Proc.devRef .tc main_arg18)) (rowOfVec (W (Proc.devRef .tc main_arg19))) (rowOfVec (W (Proc.devRef .tc main_arg20)))
      (W (Proc.devRef .tc main_arg21)) (rowOfVec (W (Proc.devRef .tc main_arg22))) (W (Proc.devRef .tc main_arg23)) (rowOfVec (W (Proc.devRef .tc main_arg24))) (rowOfVec (W (Proc.devRef .tc main_arg25)))
      (W (Proc.devRef .tc main_arg26)) (rowOfVec (W (Proc.devRef .tc main_arg27))) (W (Proc.devRef .tc main_arg28)) (rowOfVec (W (Proc.devRef .tc main_arg29))) := by
  rw [ops_split, Cert.LibAfter.after_append, Cert.LibAfter.after_append, Cert.LibAfter.after_append, Cert.LibAfter.after_append,
    Cert.LibAfter.after_append, Cert.LibAfter.after_append, Cert.LibAfter.after_append, Cert.LibAfter.after_append,
    Cert.LibAfter.after_append, Cert.LibAfter.after_append]
  exact out_at11 W

end Composed

end Cert.ReferenceIdeal.RefValue

end
-- ==== Proof.RefFrame.lean ====
/-
  No stage of the reference writes an argument array, so each argument ends as launched.
-/
import proofs.«160678_j77988016161089_1_alg».proof.Proof.RefStages

set_option maxRecDepth 16384

noncomputable section

namespace Cert.ReferenceIdeal.RefFrame

open Cert.ReferenceIdeal Cert.ReferenceIdeal.Gen Cert.ReferenceIdeal.RefRun Cert.ReferenceIdeal.RefStages
open Idealize.ShloMosaic Idealize.ShloMosaic.TcCoe Idealize.SL.Sem Idealize.ShloMosaic.StableHlo

variable {F : FTy → Type} [FloatOps F]

/-- A buffer none of the eleven stages writes is the same after the whole straight line as before. -/
theorem ops_keep (W : Valuation τ sig (Elt F)) (b : Ref sig .tc)
    (h0 : b ∉ wrS0) (h1 : b ∉ wrS1) (h2 : b ∉ wrS2) (h3 : b ∉ wrS3) (h4 : b ∉ wrS4) (h5 : b ∉ wrS5) (h6 : b ∉ wrS6) (h7 : b ∉ wrS7) (h8 : b ∉ wrS8) (h9 : b ∉ wrS9) (h10 : b ∉ wrS10) :
    after (ops : List (HloOp τ sig (Elt F))) W (Proc.devRef .tc b) = W (Proc.devRef .tc b) := by
  rw [ops_split, Cert.LibAfter.after_append, Cert.LibAfter.after_append, Cert.LibAfter.after_append, Cert.LibAfter.after_append, Cert.LibAfter.after_append, Cert.LibAfter.after_append, Cert.LibAfter.after_append, Cert.LibAfter.after_append, Cert.LibAfter.after_append, Cert.LibAfter.after_append]
  exact (keepS10 (after st9 (after st8 (after st7 (after st6 (after st5 (after st4 (after st3 (after st2 (after st1 (after st0 W)))))))))) b h10).trans ((keepS9 (after st8 (after st7 (after st6 (after st5 (after st4 (after st3 (after st2 (after st1 (after st0 W))))))))) b h9).trans ((keepS8 (after st7 (after st6 (after st5 (after st4 (after st3 (after st2 (after st1 (after st0 W)))))))) b h8).trans ((keepS7 (after st6 (after st5 (after st4 (after st3 (after st2 (after st1 (after st0 W))))))) b h7).trans ((keepS6 (after st5 (after st4 (after st3 (after st2 (after st1 (after st0 W)))))) b h6).trans ((keepS5 (after st4 (after st3 (after st2 (after st1 (after st0 W))))) b h5).trans ((keepS4 (after st3 (after st2 (after st1 (after st0 W)))) b h4).trans ((keepS3 (after st2 (after st1 (after st0 W))) b h3).trans ((keepS2 (after st1 (after st0 W)) b h2).trans ((keepS1 (after st0 W) b h1).trans (keepS0 W b h0))))))))))

/-- Every argument array is the same after the whole straight line as before. -/
theorem arg0_kept (W : Valuation τ sig (Elt F)) :
    after (ops : List (HloOp τ sig (Elt F))) W (Proc.devRef .tc main_arg0) = W (Proc.devRef .tc main_arg0) :=
  ops_keep W main_arg0 (by decide) (by decide) (by decide) (by decide) (by decide) (by decide) (by decide) (by decide) (by decide) (by decide) (by decide)
theorem arg1_kept (W : Valuation τ sig (Elt F)) :
    after (ops : List (HloOp τ sig (Elt F))) W (Proc.devRef .tc main_arg1) = W (Proc.devRef .tc main_arg1) :=
  ops_keep W main_arg1 (by decide) (by decide) (by decide) (by decide) (by decide) (by decide) (by decide) (by decide) (by decide) (by decide) (by decide)
theorem arg2_kept (W : Valuation τ sig (Elt F)) :
    after (ops : List (HloOp τ sig (Elt F))) W (Proc.devRef .tc main_arg2) = W (Proc.devRef .tc main_arg2) :=
  ops_keep W main_arg2 (by decide) (by decide) (by decide) (by decide) (by decide) (by decide) (by decide) (by decide) (by decide) (by decide) (by decide)
theorem arg3_kept (W : Valuation τ sig (Elt F)) :
    after (ops : List (HloOp τ sig (Elt F))) W (Proc.devRef .tc main_arg3) = W (Proc.devRef .tc main_arg3) :=
  ops_keep W main_arg3 (by decide) (by decide) (by decide) (by decide) (by decide) (by decide) (by decide) (by decide) (by decide) (by decide) (by decide)
theorem arg4_kept (W : Valuation τ sig (Elt F)) :
    after (ops : List (HloOp τ sig (Elt F))) W (Proc.devRef .tc main_arg4) = W (Proc.devRef .tc main_arg4) :=
  ops_keep W main_arg4 (by decide) (by decide) (by decide) (by decide) (by decide) (by decide) (by decide) (by decide) (by decide) (by decide) (by decide)
theorem arg5_kept (W : Valuation τ sig (Elt F)) :
    after (ops : List (HloOp τ sig (Elt F))) W (Proc.devRef .tc main_arg5) = W (Proc.devRef .tc main_arg5) :=
  ops_keep W main_arg5 (by decide) (by decide) (by decide) (by decide) (by decide) (by decide) (by decide) (by decide) (by decide) (by decide) (by decide)
theorem arg6_kept (W : Valuation τ sig (Elt F)) :
    after (ops : List (HloOp τ sig (Elt F))) W (Proc.devRef .tc main_arg6) = W (Proc.devRef .tc main_arg6) :=
  ops_keep W main_arg6 (by decide) (by decide) (by decide) (by decide) (by decide) (by decide) (by decide) (by decide) (by decide) (by decide) (by decide)
theorem arg7_kept (W : Valuation τ sig (Elt F)) :
    after (ops : List (HloOp τ sig (Elt F))) W (Proc.devRef .tc main_arg7) = W (Proc.devRef .tc main_arg7) :=
  ops_keep W main_arg7 (by decide) (by decide) (by decide) (by decide) (by decide) (by decide) (by decide) (by decide) (by decide) (by decide) (by decide)
theorem arg8_kept (W : Valuation τ sig (Elt F)) :
    after (ops : List (HloOp τ sig (Elt F))) W (Proc.devRef .tc main_arg8) = W (Proc.devRef .tc main_arg8) :=
  ops_keep W main_arg8 (by decide) (by decide) (by decide) (by decide) (by decide) (by decide) (by decide) (by decide) (by decide) (by decide) (by decide)
theorem arg9_kept (W : Valuation τ sig (Elt F)) :
    after (ops : List (HloOp τ sig (Elt F))) W (Proc.devRef .tc main_arg9) = W (Proc.devRef .tc main_arg9) :=
  ops_keep W main_arg9 (by decide) (by decide) (by decide) (by decide) (by decide) (by decide) (by decide) (by decide) (by decide) (by decide) (by decide)
theorem arg10_kept (W : Valuation τ sig (Elt F)) :
    after (ops : List (HloOp τ sig (Elt F))) W (Proc.devRef .tc main_arg10) = W (Proc.devRef .tc main_arg10) :=
  ops_keep W main_arg10 (by decide) (by decide) (by decide) (by decide) (by decide) (by decide) (by decide) (by decide) (by decide) (by decide) (by decide)
theorem arg11_kept (W : Valuation τ sig (Elt F)) :
    after (ops : List (HloOp τ sig (Elt F))) W (Proc.devRef .tc main_arg11) = W (Proc.devRef .tc main_arg11) :=
  ops_keep W main_arg11 (by decide) (by decide) (by decide) (by decide) (by decide) (by decide) (by decide) (by decide) (by decide) (by decide) (by decide)
theorem arg12_kept (W : Valuation τ sig (Elt F)) :
    after (ops : List (HloOp τ sig (Elt F))) W (Proc.devRef .tc main_arg12) = W (Proc.devRef .tc main_arg12) :=
  ops_keep W main_arg12 (by decide) (by decide) (by decide) (by decide) (by decide) (by decide) (by decide) (by decide) (by decide) (by decide) (by decide)
theorem arg13_kept (W : Valuation τ sig (Elt F)) :
    after (ops : List (HloOp τ sig (Elt F))) W (Proc.devRef .tc main_arg13) = W (Proc.devRef .tc main_arg13) :=
  ops_keep W main_arg13 (by decide) (by decide) (by decide) (by decide) (by decide) (by decide) (by decide) (by decide) (by decide) (by decide) (by decide)
theorem arg14_kept (W : Valuation τ sig (Elt F)) :
    after (ops : List (HloOp τ sig (Elt F))) W (Proc.devRef .tc main_arg14) = W (Proc.devRef .tc main_arg14) :=
  ops_keep W main_arg14 (by decide) (by decide) (by decide) (by decide) (by decide) (by decide) (by decide) (by decide) (by decide) (by decide) (by decide)
theorem arg15_kept (W : Valuation τ sig (Elt F)) :
    after (ops : List (HloOp τ sig (Elt F))) W (Proc.devRef .tc main_arg15) = W (Proc.devRef .tc main_arg15) :=
  ops_keep W main_arg15 (by decide) (by decide) (by decide) (by decide) (by decide) (by decide) (by decide) (by decide) (by decide) (by decide) (by decide)
theorem arg16_kept (W : Valuation τ sig (Elt F)) :
    after (ops : List (HloOp τ sig (Elt F))) W (Proc.devRef .tc main_arg16) = W (Proc.devRef .tc main_arg16) :=
  ops_keep W main_arg16 (by decide) (by decide) (by decide) (by decide) (by decide) (by decide) (by decide) (by decide) (by decide) (by decide) (by decide)
theorem arg17_kept (W : Valuation τ sig (Elt F)) :
    after (ops : List (HloOp τ sig (Elt F))) W (Proc.devRef .tc main_arg17) = W (Proc.devRef .tc main_arg17) :=
  ops_keep W main_arg17 (by decide) (by decide) (by decide) (by decide) (by decide) (by decide) (by decide) (by decide) (by decide) (by decide) (by decide)
theorem arg18_kept (W : Valuation τ sig (Elt F)) :
    after (ops : List (HloOp τ sig (Elt F))) W (Proc.devRef .tc main_arg18) = W (Proc.devRef .tc main_arg18) :=
  ops_keep W main_arg18 (by decide) (by decide) (by decide) (by decide) (by decide) (by decide) (by decide) (by decide) (by decide) (by decide) (by decide)
theorem arg19_kept (W : Valuation τ sig (Elt F)) :
    after (ops : List (HloOp τ sig (Elt F))) W (Proc.devRef .tc main_arg19) = W (Proc.devRef .tc main_arg19) :=
  ops_keep W main_arg19 (by decide) (by decide) (by decide) (by decide) (by decide) (by decide) (by decide) (by decide) (by decide) (by decide) (by decide)
theorem arg20_kept (W : Valuation τ sig (Elt F)) :
    after (ops : List (HloOp τ sig (Elt F))) W (Proc.devRef .tc main_arg20) = W (Proc.devRef .tc main_arg20) :=
  ops_keep W main_arg20 (by decide) (by decide) (by decide) (by decide) (by decide) (by decide) (by decide) (by decide) (by decide) (by decide) (by decide)
theorem arg21_kept (W : Valuation τ sig (Elt F)) :
    after (ops : List (HloOp τ sig (Elt F))) W (Proc.devRef .tc main_arg21) = W (Proc.devRef .tc main_arg21) :=
  ops_keep W main_arg21 (by decide) (by decide) (by decide) (by decide) (by decide) (by decide) (by decide) (by decide) (by decide) (by decide) (by decide)
theorem arg22_kept (W : Valuation τ sig (Elt F)) :
    after (ops : List (HloOp τ sig (Elt F))) W (Proc.devRef .tc main_arg22) = W (Proc.devRef .tc main_arg22) :=
  ops_keep W main_arg22 (by decide) (by decide) (by decide) (by decide) (by decide) (by decide) (by decide) (by decide) (by decide) (by decide) (by decide)
theorem arg23_kept (W : Valuation τ sig (Elt F)) :
    after (ops : List (HloOp τ sig (Elt F))) W (Proc.devRef .tc main_arg23) = W (Proc.devRef .tc main_arg23) :=
  ops_keep W main_arg23 (by decide) (by decide) (by decide) (by decide) (by decide) (by decide) (by decide) (by decide) (by decide) (by decide) (by decide)
theorem arg24_kept (W : Valuation τ sig (Elt F)) :
    after (ops : List (HloOp τ sig (Elt F))) W (Proc.devRef .tc main_arg24) = W (Proc.devRef .tc main_arg24) :=
  ops_keep W main_arg24 (by decide) (by decide) (by decide) (by decide) (by decide) (by decide) (by decide) (by decide) (by decide) (by decide) (by decide)
theorem arg25_kept (W : Valuation τ sig (Elt F)) :
    after (ops : List (HloOp τ sig (Elt F))) W (Proc.devRef .tc main_arg25) = W (Proc.devRef .tc main_arg25) :=
  ops_keep W main_arg25 (by decide) (by decide) (by decide) (by decide) (by decide) (by decide) (by decide) (by decide) (by decide) (by decide) (by decide)
theorem arg26_kept (W : Valuation τ sig (Elt F)) :
    after (ops : List (HloOp τ sig (Elt F))) W (Proc.devRef .tc main_arg26) = W (Proc.devRef .tc main_arg26) :=
  ops_keep W main_arg26 (by decide) (by decide) (by decide) (by decide) (by decide) (by decide) (by decide) (by decide) (by decide) (by decide) (by decide)
theorem arg27_kept (W : Valuation τ sig (Elt F)) :
    after (ops : List (HloOp τ sig (Elt F))) W (Proc.devRef .tc main_arg27) = W (Proc.devRef .tc main_arg27) :=
  ops_keep W main_arg27 (by decide) (by decide) (by decide) (by decide) (by decide) (by decide) (by decide) (by decide) (by decide) (by decide) (by decide)
theorem arg28_kept (W : Valuation τ sig (Elt F)) :
    after (ops : List (HloOp τ sig (Elt F))) W (Proc.devRef .tc main_arg28) = W (Proc.devRef .tc main_arg28) :=
  ops_keep W main_arg28 (by decide) (by decide) (by decide) (by decide) (by decide) (by decide) (by decide) (by decide) (by decide) (by decide) (by decide)
theorem arg29_kept (W : Valuation τ sig (Elt F)) :
    after (ops : List (HloOp τ sig (Elt F))) W (Proc.devRef .tc main_arg29) = W (Proc.devRef .tc main_arg29) :=
  ops_keep W main_arg29 (by decide) (by decide) (by decide) (by decide) (by decide) (by decide) (by decide) (by decide) (by decide) (by decide) (by decide)

end Cert.ReferenceIdeal.RefFrame

end
-- ==== Proof.Finite.lean ====
/-
  The precondition read: every float argument array holds real numbers.

  `finite_inputs` is one running conjunction over the 29 float arguments of "every entry's absolute value is
  below +infinity", each a reduction by `and` over the array. A conjunction that is 1 has every conjunct 1, a
  reduction by `and` that is 1 has every entry's test 1, and an extended real whose absolute value is below
  +infinity is a real number.
-/
import proofs.«160678_j77988016161089_1_alg».proof.Defs
import Idealize.ShloMosaic.Lib.ReduceAll
import Idealize.ShloMosaic.Lib.Affine
import proofs.«160678_j77988016161089_1_alg».proof.Proof.LibRealClosure
import proofs.«160678_j77988016161089_1_alg».proof.Proof.LibHostRow

set_option maxRecDepth 16384

noncomputable section

namespace Cert.Finite

open Idealize.ShloMosaic Idealize.ShloMosaic.ValueIdx Idealize.ShloMosaic.RealClosure Idealize.SL.Sem

/-- An extended real whose absolute value is below +infinity is a real number. -/
theorem isReal_of_abs_lt_top (x : EReal) (h : max x (-x) < ⊤) : IsReal x := by
  induction x using EReal.rec with
  | bot => simp at h
  | coe r => exact ⟨r, rfl⟩
  | top => simp at h

instance : Subsingleton (⟨0, ![]⟩ : Shape).Idx := ⟨fun a b => funext fun d => d.elim0⟩

/-- If "every entry's absolute value is below +infinity" reduces to 1, every entry is real. -/
theorem allReal_of_all {s : Shape} {axes : List (Fin s.rank)} (x : FVec Ideal s .f32) (init : IVec ⟨0, ![]⟩ 1)
    (hb : (⟨0, ![]⟩ : Shape).BroadcastsInDim s (![] : Fin 0 → Fin s.rank)) (h : s.ReducesTo axes ⟨0, ![]⟩)
    (hu : 0 < (⟨0, ![]⟩ : Shape).numel)
    (e : Host.reduce IntOp.andi (cmpf .olt (Host.absf x)
        (broadcastInDim s ![] hb (constant (F := Ideal) ⟨0, ![]⟩ .f32 0x7F800000#32))) init h hu ix0 = 1#1) :
    AllReal x := by
  intro i
  have hi := Host.reduce_andi_all _ init h hu ix0 e i
  have hc : Ideal.cmp .olt (max (x i) (-(x i)))
      (broadcastInDim s ![] hb (constant (F := Ideal) ⟨0, ![]⟩ .f32 0x7F800000#32) i) = 1#1 := hi
  rw [Cert.LibHostRow.scalar_apply] at hc
  have htop : constant (F := Ideal) ⟨0, ![]⟩ .f32 0x7F800000#32 ix0 = (⊤ : EReal) := by
    show Ideal.ofBits .f32 0x7F800000#32 = ⊤
    simp [Ideal.ofBits, Ideal.ieee]
  rw [htop] at hc
  refine isReal_of_abs_lt_top _ ?_
  by_contra hn
  simp [Ideal.cmp, hn] at hc

open Cert.Pre_finite_inputs in
/-- Under the precondition every float argument array holds reals. -/
theorem real_args [hP : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    AllReal (m ((c.tc : Thread Cert.KernelIdeal.nD Cert.KernelIdeal.τ).loc Cert.KernelIdeal.main_arg0))
    ∧ AllReal (m ((c.tc : Thread Cert.KernelIdeal.nD Cert.KernelIdeal.τ).loc Cert.KernelIdeal.main_arg2))
    ∧ AllReal (m ((c.tc : Thread Cert.KernelIdeal.nD Cert.KernelIdeal.τ).loc Cert.KernelIdeal.main_arg3))
    ∧ AllReal (m ((c.tc : Thread Cert.KernelIdeal.nD Cert.KernelIdeal.τ).loc Cert.KernelIdeal.main_arg4))
    ∧ AllReal (m ((c.tc : Thread Cert.KernelIdeal.nD Cert.KernelIdeal.τ).loc Cert.KernelIdeal.main_arg5))
    ∧ AllReal (m ((c.tc : Thread Cert.KernelIdeal.nD Cert.KernelIdeal.τ).loc Cert.KernelIdeal.main_arg6))
    ∧ AllReal (m ((c.tc : Thread Cert.KernelIdeal.nD Cert.KernelIdeal.τ).loc Cert.KernelIdeal.main_arg7))
    ∧ AllReal (m ((c.tc : Thread Cert.KernelIdeal.nD Cert.KernelIdeal.τ).loc Cert.KernelIdeal.main_arg8))
    ∧ AllReal (m ((c.tc : Thread Cert.KernelIdeal.nD Cert.KernelIdeal.τ).loc Cert.KernelIdeal.main_arg9))
    ∧ AllReal (m ((c.tc : Thread Cert.KernelIdeal.nD Cert.KernelIdeal.τ).loc Cert.KernelIdeal.main_arg10))
    ∧ AllReal (m ((c.tc : Thread Cert.KernelIdeal.nD Cert.KernelIdeal.τ).loc Cert.KernelIdeal.main_arg11))
    ∧ AllReal (m ((c.tc : Thread Cert.KernelIdeal.nD Cert.KernelIdeal.τ).loc Cert.KernelIdeal.main_arg12))
    ∧ AllReal (m ((c.tc : Thread Cert.KernelIdeal.nD Cert.KernelIdeal.τ).loc Cert.KernelIdeal.main_arg13))
    ∧ AllReal (m ((c.tc : Thread Cert.KernelIdeal.nD Cert.KernelIdeal.τ).loc Cert.KernelIdeal.main_arg14))
    ∧ AllReal (m ((c.tc : Thread Cert.KernelIdeal.nD Cert.KernelIdeal.τ).loc Cert.KernelIdeal.main_arg15))
    ∧ AllReal (m ((c.tc : Thread Cert.KernelIdeal.nD Cert.KernelIdeal.τ).loc Cert.KernelIdeal.main_arg16))
    ∧ AllReal (m ((c.tc : Thread Cert.KernelIdeal.nD Cert.KernelIdeal.τ).loc Cert.KernelIdeal.main_arg17))
    ∧ AllReal (m ((c.tc : Thread Cert.KernelIdeal.nD Cert.KernelIdeal.τ).loc Cert.KernelIdeal.main_arg18))
    ∧ AllReal (m ((c.tc : Thread Cert.KernelIdeal.nD Cert.KernelIdeal.τ).loc Cert.KernelIdeal.main_arg19))
    ∧ AllReal (m ((c.tc : Thread Cert.KernelIdeal.nD Cert.KernelIdeal.τ).loc Cert.KernelIdeal.main_arg20))
    ∧ AllReal (m ((c.tc : Thread Cert.KernelIdeal.nD Cert.KernelIdeal.τ).loc Cert.KernelIdeal.main_arg21))
    ∧ AllReal (m ((c.tc : Thread Cert.KernelIdeal.nD Cert.KernelIdeal.τ).loc Cert.KernelIdeal.main_arg22))
    ∧ AllReal (m ((c.tc : Thread Cert.KernelIdeal.nD Cert.KernelIdeal.τ).loc Cert.KernelIdeal.main_arg23))
    ∧ AllReal (m ((c.tc : Thread Cert.KernelIdeal.nD Cert.KernelIdeal.τ).loc Cert.KernelIdeal.main_arg24))
    ∧ AllReal (m ((c.tc : Thread Cert.KernelIdeal.nD Cert.KernelIdeal.τ).loc Cert.KernelIdeal.main_arg25))
    ∧ AllReal (m ((c.tc : Thread Cert.KernelIdeal.nD Cert.KernelIdeal.τ).loc Cert.KernelIdeal.main_arg26))
    ∧ AllReal (m ((c.tc : Thread Cert.KernelIdeal.nD Cert.KernelIdeal.τ).loc Cert.KernelIdeal.main_arg27))
    ∧ AllReal (m ((c.tc : Thread Cert.KernelIdeal.nD Cert.KernelIdeal.τ).loc Cert.KernelIdeal.main_arg28))
    ∧ AllReal (m ((c.tc : Thread Cert.KernelIdeal.nD Cert.KernelIdeal.τ).loc Cert.KernelIdeal.main_arg29)) := by
  have h := congrFun (hpre c) ix0
  dsimp only [Cert.Pre_finite_inputs.fn, fn_part1, fn_part2, fn_part3, fn_part4, fn_part5, fn_part6, fn_part7, fn_part8] at h
  simp only [Idealize.ShloMosaic.andi, IntOp.andi_eq_one] at h
  obtain ⟨⟨⟨⟨⟨⟨⟨⟨⟨⟨⟨⟨⟨⟨⟨⟨⟨⟨⟨⟨⟨⟨⟨⟨⟨⟨⟨⟨h0, h2⟩, h3⟩, h4⟩, h5⟩, h6⟩, h7⟩, h8⟩, h9⟩, h10⟩, h11⟩, h12⟩, h13⟩, h14⟩, h15⟩, h16⟩, h17⟩, h18⟩, h19⟩, h20⟩, h21⟩, h22⟩, h23⟩, h24⟩, h25⟩, h26⟩, h27⟩, h28⟩, h29⟩ := h
  exact ⟨allReal_of_all _ _ _ _ _ h0, allReal_of_all _ _ _ _ _ h2, allReal_of_all _ _ _ _ _ h3, allReal_of_all _ _ _ _ _ h4, allReal_of_all _ _ _ _ _ h5, allReal_of_all _ _ _ _ _ h6, allReal_of_all _ _ _ _ _ h7, allReal_of_all _ _ _ _ _ h8, allReal_of_all _ _ _ _ _ h9, allReal_of_all _ _ _ _ _ h10, allReal_of_all _ _ _ _ _ h11, allReal_of_all _ _ _ _ _ h12, allReal_of_all _ _ _ _ _ h13, allReal_of_all _ _ _ _ _ h14, allReal_of_all _ _ _ _ _ h15, allReal_of_all _ _ _ _ _ h16, allReal_of_all _ _ _ _ _ h17, allReal_of_all _ _ _ _ _ h18, allReal_of_all _ _ _ _ _ h19, allReal_of_all _ _ _ _ _ h20, allReal_of_all _ _ _ _ _ h21, allReal_of_all _ _ _ _ _ h22, allReal_of_all _ _ _ _ _ h23, allReal_of_all _ _ _ _ _ h24, allReal_of_all _ _ _ _ _ h25, allReal_of_all _ _ _ _ _ h26, allReal_of_all _ _ _ _ _ h27, allReal_of_all _ _ _ _ _ h28, allReal_of_all _ _ _ _ _ h29⟩

end Cert.Finite

end
-- ==== Proof.lean ====
/-
  The certificate's claims.

  Both programs compute one network on 50000 nodes: an embedding, four graph-convolution blocks and an output
  head, with batch normalisation after the embedding and inside every block. The kernel's program reaches each
  batch normalisation through a launch that leaves the dense step with its column sums and column sums of
  squares, a host stretch that forms the mean and the variance as mean of squares minus squared mean, and a
  launch that normalises; the reference forms the variance as the mean of squared deviations. The kernel's result
  is therefore the network with the first spelling of the variance, the reference's the network with the second,
  of the same arguments and the same aggregation over the edges. Under the precondition every float argument is
  real, so every stage's output is real and the two spellings agree at every batch normalisation.

  The three frames: the two kernel programs' are the generated frame certificates; the reference's is its run as
  one straight line of host operations, none of which writes an argument. The idealization's ledger is empty.
-/
import proofs.«160678_j77988016161089_1_alg».proof.Defs
import proofs.«160678_j77988016161089_1_alg».proof.Proof.Gen.Kernel
import proofs.«160678_j77988016161089_1_alg».proof.Proof.Gen.Kernel.Frame
import proofs.«160678_j77988016161089_1_alg».proof.Proof.Gen.KernelIdeal
import proofs.«160678_j77988016161089_1_alg».proof.Proof.Gen.KernelIdeal.Frame
import proofs.«160678_j77988016161089_1_alg».proof.Proof.Gen.ReferenceIdeal
import proofs.«160678_j77988016161089_1_alg».proof.Proof.Gen.Pre_finite_inputs
import proofs.«160678_j77988016161089_1_alg».proof.Proof.KernelRun
import proofs.«160678_j77988016161089_1_alg».proof.Proof.KFacts
import proofs.«160678_j77988016161089_1_alg».proof.Proof.RefValue
import proofs.«160678_j77988016161089_1_alg».proof.Proof.RefFrame
import proofs.«160678_j77988016161089_1_alg».proof.Proof.Finite
import Idealize.ShloMosaic.Adequacy
import Idealize.ShloMosaic.Init

set_option maxRecDepth 16384

noncomputable section

namespace Cert.Proof

open Idealize.ShloMosaic Idealize.SL.Sem Idealize.ShloMosaic.RealClosure Idealize.ShloMosaic.StableHlo Cert.Gnn

theorem frame_k : Cert.frame_Kernel := fun m ρ _ => Cert.Kernel.Gen.frame m ρ

theorem frame_ki : Cert.frame_KernelIdeal := fun m ρ _ => Cert.KernelIdeal.Gen.frame m ρ

/-- The reference's frame: its run as one straight line, each argument read back to the launch memory. -/
theorem frame_ri : Cert.frame_ReferenceIdeal := fun m ρ _ =>
  (θ_run Cert.ReferenceIdeal.defs _ _).mono (fun r h c =>
    ⟨(h c Cert.ReferenceIdeal.main_arg0).trans (Cert.ReferenceIdeal.RefFrame.arg0_kept _),
     (h c Cert.ReferenceIdeal.main_arg1).trans (Cert.ReferenceIdeal.RefFrame.arg1_kept _),
     (h c Cert.ReferenceIdeal.main_arg2).trans (Cert.ReferenceIdeal.RefFrame.arg2_kept _),
     (h c Cert.ReferenceIdeal.main_arg3).trans (Cert.ReferenceIdeal.RefFrame.arg3_kept _),
     (h c Cert.ReferenceIdeal.main_arg4).trans (Cert.ReferenceIdeal.RefFrame.arg4_kept _),
     (h c Cert.ReferenceIdeal.main_arg5).trans (Cert.ReferenceIdeal.RefFrame.arg5_kept _),
     (h c Cert.ReferenceIdeal.main_arg6).trans (Cert.ReferenceIdeal.RefFrame.arg6_kept _),
     (h c Cert.ReferenceIdeal.main_arg7).trans (Cert.ReferenceIdeal.RefFrame.arg7_kept _),
     (h c Cert.ReferenceIdeal.main_arg8).trans (Cert.ReferenceIdeal.RefFrame.arg8_kept _),
     (h c Cert.ReferenceIdeal.main_arg9).trans (Cert.ReferenceIdeal.RefFrame.arg9_kept _),
     (h c Cert.ReferenceIdeal.main_arg10).trans (Cert.ReferenceIdeal.RefFrame.arg10_kept _),
     (h c Cert.ReferenceIdeal.main_arg11).trans (Cert.ReferenceIdeal.RefFrame.arg11_kept _),
     (h c Cert.ReferenceIdeal.main_arg12).trans (Cert.ReferenceIdeal.RefFrame.arg12_kept _),
     (h c Cert.ReferenceIdeal.main_arg13).trans (Cert.ReferenceIdeal.RefFrame.arg13_kept _),
     (h c Cert.ReferenceIdeal.main_arg14).trans (Cert.ReferenceIdeal.RefFrame.arg14_kept _),
     (h c Cert.ReferenceIdeal.main_arg15).trans (Cert.ReferenceIdeal.RefFrame.arg15_kept _),
     (h c Cert.ReferenceIdeal.main_arg16).trans (Cert.ReferenceIdeal.RefFrame.arg16_kept _),
     (h c Cert.ReferenceIdeal.main_arg17).trans (Cert.ReferenceIdeal.RefFrame.arg17_kept _),
     (h c Cert.ReferenceIdeal.main_arg18).trans (Cert.ReferenceIdeal.RefFrame.arg18_kept _),
     (h c Cert.ReferenceIdeal.main_arg19).trans (Cert.ReferenceIdeal.RefFrame.arg19_kept _),
     (h c Cert.ReferenceIdeal.main_arg20).trans (Cert.ReferenceIdeal.RefFrame.arg20_kept _),
     (h c Cert.ReferenceIdeal.main_arg21).trans (Cert.ReferenceIdeal.RefFrame.arg21_kept _),
     (h c Cert.ReferenceIdeal.main_arg22).trans (Cert.ReferenceIdeal.RefFrame.arg22_kept _),
     (h c Cert.ReferenceIdeal.main_arg23).trans (Cert.ReferenceIdeal.RefFrame.arg23_kept _),
     (h c Cert.ReferenceIdeal.main_arg24).trans (Cert.ReferenceIdeal.RefFrame.arg24_kept _),
     (h c Cert.ReferenceIdeal.main_arg25).trans (Cert.ReferenceIdeal.RefFrame.arg25_kept _),
     (h c Cert.ReferenceIdeal.main_arg26).trans (Cert.ReferenceIdeal.RefFrame.arg26_kept _),
     (h c Cert.ReferenceIdeal.main_arg27).trans (Cert.ReferenceIdeal.RefFrame.arg27_kept _),
     (h c Cert.ReferenceIdeal.main_arg28).trans (Cert.ReferenceIdeal.RefFrame.arg28_kept _),
     (h c Cert.ReferenceIdeal.main_arg29).trans (Cert.ReferenceIdeal.RefFrame.arg29_kept _)⟩)
    (Cert.ReferenceIdeal.RefRun.run_main (F := Ideal) m ρ)

theorem preserves : Cert.preserves_Kernel_KernelIdeal := trivial

/-- The two idealized programs, from memories that agree on the arguments, end with equal results. -/
theorem algebraic : Cert.algebraic_KernelIdeal_ReferenceIdeal := by
  intro m ρ m' ρ' hpre hagree
  refine ⟨_, (θ_run Cert.KernelIdeal.defs _ _).mono (fun r h c =>
      ⟨(h c).1.trans (Cert.KernelIdeal.Stages.kernel_value m ρ c), (h c).2⟩) (Cert.KernelIdeal.ValueRun.run (F := Ideal) m ρ), ?_⟩
  refine (θ_run Cert.ReferenceIdeal.defs _ _).mono (fun r h c =>
    ⟨?_, (h c Cert.ReferenceIdeal.main_arg0).trans (Cert.ReferenceIdeal.RefFrame.arg0_kept _),
     (h c Cert.ReferenceIdeal.main_arg1).trans (Cert.ReferenceIdeal.RefFrame.arg1_kept _),
     (h c Cert.ReferenceIdeal.main_arg2).trans (Cert.ReferenceIdeal.RefFrame.arg2_kept _),
     (h c Cert.ReferenceIdeal.main_arg3).trans (Cert.ReferenceIdeal.RefFrame.arg3_kept _),
     (h c Cert.ReferenceIdeal.main_arg4).trans (Cert.ReferenceIdeal.RefFrame.arg4_kept _),
     (h c Cert.ReferenceIdeal.main_arg5).trans (Cert.ReferenceIdeal.RefFrame.arg5_kept _),
     (h c Cert.ReferenceIdeal.main_arg6).trans (Cert.ReferenceIdeal.RefFrame.arg6_kept _),
     (h c Cert.ReferenceIdeal.main_arg7).trans (Cert.ReferenceIdeal.RefFrame.arg7_kept _),
     (h c Cert.ReferenceIdeal.main_arg8).trans (Cert.ReferenceIdeal.RefFrame.arg8_kept _),
     (h c Cert.ReferenceIdeal.main_arg9).trans (Cert.ReferenceIdeal.RefFrame.arg9_kept _),
     (h c Cert.ReferenceIdeal.main_arg10).trans (Cert.ReferenceIdeal.RefFrame.arg10_kept _),
     (h c Cert.ReferenceIdeal.main_arg11).trans (Cert.ReferenceIdeal.RefFrame.arg11_kept _),
     (h c Cert.ReferenceIdeal.main_arg12).trans (Cert.ReferenceIdeal.RefFrame.arg12_kept _),
     (h c Cert.ReferenceIdeal.main_arg13).trans (Cert.ReferenceIdeal.RefFrame.arg13_kept _),
     (h c Cert.ReferenceIdeal.main_arg14).trans (Cert.ReferenceIdeal.RefFrame.arg14_kept _),
     (h c Cert.ReferenceIdeal.main_arg15).trans (Cert.ReferenceIdeal.RefFrame.arg15_kept _),
     (h c Cert.ReferenceIdeal.main_arg16).trans (Cert.ReferenceIdeal.RefFrame.arg16_kept _),
     (h c Cert.ReferenceIdeal.main_arg17).trans (Cert.ReferenceIdeal.RefFrame.arg17_kept _),
     (h c Cert.ReferenceIdeal.main_arg18).trans (Cert.ReferenceIdeal.RefFrame.arg18_kept _),
     (h c Cert.ReferenceIdeal.main_arg19).trans (Cert.ReferenceIdeal.RefFrame.arg19_kept _),
     (h c Cert.ReferenceIdeal.main_arg20).trans (Cert.ReferenceIdeal.RefFrame.arg20_kept _),
     (h c Cert.ReferenceIdeal.main_arg21).trans (Cert.ReferenceIdeal.RefFrame.arg21_kept _),
     (h c Cert.ReferenceIdeal.main_arg22).trans (Cert.ReferenceIdeal.RefFrame.arg22_kept _),
     (h c Cert.ReferenceIdeal.main_arg23).trans (Cert.ReferenceIdeal.RefFrame.arg23_kept _),
     (h c Cert.ReferenceIdeal.main_arg24).trans (Cert.ReferenceIdeal.RefFrame.arg24_kept _),
     (h c Cert.ReferenceIdeal.main_arg25).trans (Cert.ReferenceIdeal.RefFrame.arg25_kept _),
     (h c Cert.ReferenceIdeal.main_arg26).trans (Cert.ReferenceIdeal.RefFrame.arg26_kept _),
     (h c Cert.ReferenceIdeal.main_arg27).trans (Cert.ReferenceIdeal.RefFrame.arg27_kept _),
     (h c Cert.ReferenceIdeal.main_arg28).trans (Cert.ReferenceIdeal.RefFrame.arg28_kept _),
     (h c Cert.ReferenceIdeal.main_arg29).trans (Cert.ReferenceIdeal.RefFrame.arg29_kept _)⟩)
    (Cert.ReferenceIdeal.RefRun.run_main (F := Ideal) m' ρ')
  rw [h c Cert.ReferenceIdeal.main_v186, Cert.ReferenceIdeal.RefValue.ref_value]
  obtain ⟨a0, a1, a2, a3, a4, a5, a6, a7, a8, a9, a10, a11, a12, a13, a14, a15, a16, a17, a18, a19, a20, a21, a22, a23, a24, a25, a26, a27, a28, a29⟩ := hagree c
  obtain ⟨r0, r2, r3, r4, r5, r6, r7, r8, r9, r10, r11, r12, r13, r14, r15, r16, r17, r18, r19, r20, r21, r22, r23, r24, r25, r26, r27, r28, r29⟩ := Cert.Finite.real_args m hpre c
  -- the reference's argument reads are the kernel's arguments
  have e0 : launchContents m' c (Proc.devRef .tc Cert.ReferenceIdeal.main_arg0) = (m ((c.tc : Thread Cert.KernelIdeal.nD Cert.KernelIdeal.τ).loc Cert.KernelIdeal.main_arg0)) := a0
  have e1 : launchContents m' c (Proc.devRef .tc Cert.ReferenceIdeal.main_arg1) = (m ((c.tc : Thread Cert.KernelIdeal.nD Cert.KernelIdeal.τ).loc Cert.KernelIdeal.main_arg1)) := a1
  have e2 : launchContents m' c (Proc.devRef .tc Cert.ReferenceIdeal.main_arg2) = (m ((c.tc : Thread Cert.KernelIdeal.nD Cert.KernelIdeal.τ).loc Cert.KernelIdeal.main_arg2)) := a2
  have e3 : launchContents m' c (Proc.devRef .tc Cert.ReferenceIdeal.main_arg3) = (m ((c.tc : Thread Cert.KernelIdeal.nD Cert.KernelIdeal.τ).loc Cert.KernelIdeal.main_arg3)) := a3
  have e4 : launchContents m' c (Proc.devRef .tc Cert.ReferenceIdeal.main_arg4) = (m ((c.tc : Thread Cert.KernelIdeal.nD Cert.KernelIdeal.τ).loc Cert.KernelIdeal.main_arg4)) := a4
  have e5 : launchContents m' c (Proc.devRef .tc Cert.ReferenceIdeal.main_arg5) = (m ((c.tc : Thread Cert.KernelIdeal.nD Cert.KernelIdeal.τ).loc Cert.KernelIdeal.main_arg5)) := a5
  have e6 : launchContents m' c (Proc.devRef .tc Cert.ReferenceIdeal.main_arg6) = (m ((c.tc : Thread Cert.KernelIdeal.nD Cert.KernelIdeal.τ).loc Cert.KernelIdeal.main_arg6)) := a6
  have e7 : launchContents m' c (Proc.devRef .tc Cert.ReferenceIdeal.main_arg7) = (m ((c.tc : Thread Cert.KernelIdeal.nD Cert.KernelIdeal.τ).loc Cert.KernelIdeal.main_arg7)) := a7
  have e8 : launchContents m' c (Proc.devRef .tc Cert.ReferenceIdeal.main_arg8) = (m ((c.tc : Thread Cert.KernelIdeal.nD Cert.KernelIdeal.τ).loc Cert.KernelIdeal.main_arg8)) := a8
  have e9 : launchContents m' c (Proc.devRef .tc Cert.ReferenceIdeal.main_arg9) = (m ((c.tc : Thread Cert.KernelIdeal.nD Cert.KernelIdeal.τ).loc Cert.KernelIdeal.main_arg9)) := a9
  have e10 : launchContents m' c (Proc.devRef .tc Cert.ReferenceIdeal.main_arg10) = (m ((c.tc : Thread Cert.KernelIdeal.nD Cert.KernelIdeal.τ).loc Cert.KernelIdeal.main_arg10)) := a10
  have e11 : launchContents m' c (Proc.devRef .tc Cert.ReferenceIdeal.main_arg11) = (m ((c.tc : Thread Cert.KernelIdeal.nD Cert.KernelIdeal.τ).loc Cert.KernelIdeal.main_arg11)) := a11
  have e12 : launchContents m' c (Proc.devRef .tc Cert.ReferenceIdeal.main_arg12) = (m ((c.tc : Thread Cert.KernelIdeal.nD Cert.KernelIdeal.τ).loc Cert.KernelIdeal.main_arg12)) := a12
  have e13 : launchContents m' c (Proc.devRef .tc Cert.ReferenceIdeal.main_arg13) = (m ((c.tc : Thread Cert.KernelIdeal.nD Cert.KernelIdeal.τ).loc Cert.KernelIdeal.main_arg13)) := a13
  have e14 : launchContents m' c (Proc.devRef .tc Cert.ReferenceIdeal.main_arg14) = (m ((c.tc : Thread Cert.KernelIdeal.nD Cert.KernelIdeal.τ).loc Cert.KernelIdeal.main_arg14)) := a14
  have e15 : launchContents m' c (Proc.devRef .tc Cert.ReferenceIdeal.main_arg15) = (m ((c.tc : Thread Cert.KernelIdeal.nD Cert.KernelIdeal.τ).loc Cert.KernelIdeal.main_arg15)) := a15
  have e16 : launchContents m' c (Proc.devRef .tc Cert.ReferenceIdeal.main_arg16) = (m ((c.tc : Thread Cert.KernelIdeal.nD Cert.KernelIdeal.τ).loc Cert.KernelIdeal.main_arg16)) := a16
  have e17 : launchContents m' c (Proc.devRef .tc Cert.ReferenceIdeal.main_arg17) = (m ((c.tc : Thread Cert.KernelIdeal.nD Cert.KernelIdeal.τ).loc Cert.KernelIdeal.main_arg17)) := a17
  have e18 : launchContents m' c (Proc.devRef .tc Cert.ReferenceIdeal.main_arg18) = (m ((c.tc : Thread Cert.KernelIdeal.nD Cert.KernelIdeal.τ).loc Cert.KernelIdeal.main_arg18)) := a18
  have e19 : launchContents m' c (Proc.devRef .tc Cert.ReferenceIdeal.main_arg19) = (m ((c.tc : Thread Cert.KernelIdeal.nD Cert.KernelIdeal.τ).loc Cert.KernelIdeal.main_arg19)) := a19
  have e20 : launchContents m' c (Proc.devRef .tc Cert.ReferenceIdeal.main_arg20) = (m ((c.tc : Thread Cert.KernelIdeal.nD Cert.KernelIdeal.τ).loc Cert.KernelIdeal.main_arg20)) := a20
  have e21 : launchContents m' c (Proc.devRef .tc Cert.ReferenceIdeal.main_arg21) = (m ((c.tc : Thread Cert.KernelIdeal.nD Cert.KernelIdeal.τ).loc Cert.KernelIdeal.main_arg21)) := a21
  have e22 : launchContents m' c (Proc.devRef .tc Cert.ReferenceIdeal.main_arg22) = (m ((c.tc : Thread Cert.KernelIdeal.nD Cert.KernelIdeal.τ).loc Cert.KernelIdeal.main_arg22)) := a22
  have e23 : launchContents m' c (Proc.devRef .tc Cert.ReferenceIdeal.main_arg23) = (m ((c.tc : Thread Cert.KernelIdeal.nD Cert.KernelIdeal.τ).loc Cert.KernelIdeal.main_arg23)) := a23
  have e24 : launchContents m' c (Proc.devRef .tc Cert.ReferenceIdeal.main_arg24) = (m ((c.tc : Thread Cert.KernelIdeal.nD Cert.KernelIdeal.τ).loc Cert.KernelIdeal.main_arg24)) := a24
  have e25 : launchContents m' c (Proc.devRef .tc Cert.ReferenceIdeal.main_arg25) = (m ((c.tc : Thread Cert.KernelIdeal.nD Cert.KernelIdeal.τ).loc Cert.KernelIdeal.main_arg25)) := a25
  have e26 : launchContents m' c (Proc.devRef .tc Cert.ReferenceIdeal.main_arg26) = (m ((c.tc : Thread Cert.KernelIdeal.nD Cert.KernelIdeal.τ).loc Cert.KernelIdeal.main_arg26)) := a26
  have e27 : launchContents m' c (Proc.devRef .tc Cert.ReferenceIdeal.main_arg27) = (m ((c.tc : Thread Cert.KernelIdeal.nD Cert.KernelIdeal.τ).loc Cert.KernelIdeal.main_arg27)) := a27
  have e28 : launchContents m' c (Proc.devRef .tc Cert.ReferenceIdeal.main_arg28) = (m ((c.tc : Thread Cert.KernelIdeal.nD Cert.KernelIdeal.τ).loc Cert.KernelIdeal.main_arg28)) := a28
  have e29 : launchContents m' c (Proc.devRef .tc Cert.ReferenceIdeal.main_arg29) = (m ((c.tc : Thread Cert.KernelIdeal.nD Cert.KernelIdeal.τ).loc Cert.KernelIdeal.main_arg29)) := a29
  -- both programs aggregate over the edges with the same host operations of the same edge array
  have g0 : Cert.ReferenceIdeal.RefValue.agg0 (launchContents m' c) = Cert.KernelIdeal.Stages.agg0 m c := by
    unfold Cert.ReferenceIdeal.RefValue.agg0 Cert.KernelIdeal.Stages.agg0 Cert.ReferenceIdeal.RefValue.srcR Cert.ReferenceIdeal.RefValue.dstR Cert.KernelIdeal.Stages.src Cert.KernelIdeal.Stages.dst
    rw [e1]
    rfl
  have g1 : Cert.ReferenceIdeal.RefValue.agg1 (launchContents m' c) = Cert.KernelIdeal.Stages.agg1 m c := by
    unfold Cert.ReferenceIdeal.RefValue.agg1 Cert.KernelIdeal.Stages.agg1 Cert.ReferenceIdeal.RefValue.srcR Cert.ReferenceIdeal.RefValue.dstR Cert.KernelIdeal.Stages.src Cert.KernelIdeal.Stages.dst
    rw [e1]
    rfl
  have g2 : Cert.ReferenceIdeal.RefValue.agg2 (launchContents m' c) = Cert.KernelIdeal.Stages.agg2 m c := by
    unfold Cert.ReferenceIdeal.RefValue.agg2 Cert.KernelIdeal.Stages.agg2 Cert.ReferenceIdeal.RefValue.srcR Cert.ReferenceIdeal.RefValue.dstR Cert.KernelIdeal.Stages.src Cert.KernelIdeal.Stages.dst
    rw [e1]
    rfl
  have g3 : Cert.ReferenceIdeal.RefValue.agg3 (launchContents m' c) = Cert.KernelIdeal.Stages.agg3 m c := by
    unfold Cert.ReferenceIdeal.RefValue.agg3 Cert.KernelIdeal.Stages.agg3 Cert.ReferenceIdeal.RefValue.srcR Cert.ReferenceIdeal.RefValue.dstR Cert.KernelIdeal.Stages.src Cert.KernelIdeal.Stages.dst
    rw [e1]
    rfl
  simp only [g0, g1, g2, g3, e0, e2, e3, e4, e5, e6, e7, e8, e9, e10, e11, e12, e13, e14, e15, e16, e17, e18, e19, e20, e21, e22, e23, e24, e25, e26, e27, e28, e29]
  symm
  exact net_varSq_eq (n := 50000) (g3 := (rowOfVec (m ((c.tc : Thread Cert.KernelIdeal.nD Cert.KernelIdeal.τ).loc Cert.KernelIdeal.main_arg24)))) (beta3 := (rowOfVec (m ((c.tc : Thread Cert.KernelIdeal.nD Cert.KernelIdeal.τ).loc Cert.KernelIdeal.main_arg25)))) (by norm_num) Cert.KernelIdeal.Stages.cntC_eq Cert.KernelIdeal.Stages.epsC_pos Cert.KernelIdeal.Stages.zeroC_real
    (Cert.KernelIdeal.Stages.allReal_agg0 m c) (Cert.KernelIdeal.Stages.allReal_agg1 m c) (Cert.KernelIdeal.Stages.allReal_agg2 m c) (Cert.KernelIdeal.Stages.allReal_agg3 m c)
    (m ((c.tc : Thread Cert.KernelIdeal.nD Cert.KernelIdeal.τ).loc Cert.KernelIdeal.main_arg26)) (rowOfVec (m ((c.tc : Thread Cert.KernelIdeal.nD Cert.KernelIdeal.τ).loc Cert.KernelIdeal.main_arg27))) (m ((c.tc : Thread Cert.KernelIdeal.nD Cert.KernelIdeal.τ).loc Cert.KernelIdeal.main_arg28)) (rowOfVec (m ((c.tc : Thread Cert.KernelIdeal.nD Cert.KernelIdeal.τ).loc Cert.KernelIdeal.main_arg29)))
    r0 r2 (allReal_rowOfVec r3) (allReal_rowOfVec r4) (allReal_rowOfVec r5) r6 (allReal_rowOfVec r7) r8 (allReal_rowOfVec r9) (allReal_rowOfVec r10) r11 (allReal_rowOfVec r12) r13 (allReal_rowOfVec r14) (allReal_rowOfVec r15) r16 (allReal_rowOfVec r17) r18 (allReal_rowOfVec r19) (allReal_rowOfVec r20) r21 (allReal_rowOfVec r22) r23

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
